-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S16384x4096 : Shape := ⟨2, ![16384, 4096]⟩
abbrev S16384 : Shape := ⟨1, ![16384]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S16384x4096 : S_.BroadcastsInDim S16384x4096 (![] : Fin 0 → Fin S16384x4096.rank)
  reducesTo_S16384x4096_S_d0_1 : S16384x4096.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S8192x4096 .f32) (main_arg1 : FVec F S16384x4096 .f32) (main_arg2 : FVec F S16384 .f32) (main_arg3 : IVec S16384 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S8192x4096 : Shape := ⟨2, ![8192, 4096]⟩
abbrev S16384x4096 : Shape := ⟨2, ![16384, 4096]⟩
abbrev S16384 : Shape := ⟨1, ![16384]⟩
abbrev S_ : Shape := ⟨0, ![]⟩
abbrev S8192 : Shape := ⟨1, ![8192]⟩
abbrev S16384x1 : Shape := ⟨2, ![16384, 1]⟩
abbrev S8192x1 : Shape := ⟨2, ![8192, 1]⟩
abbrev S1 : Shape := ⟨1, ![1]⟩
abbrev S1x1 : Shape := ⟨2, ![1, 1]⟩
abbrev S1x8192 : Shape := ⟨2, ![1, 8192]⟩
abbrev S128x4096 : Shape := ⟨2, ![128, 4096]⟩
abbrev S128 : Shape := ⟨1, ![128]⟩
abbrev S1x4096 : Shape := ⟨2, ![1, 4096]⟩
abbrev S4096 : Shape := ⟨1, ![4096]⟩
abbrev S8192x8192 : Shape := ⟨2, ![8192, 8192]⟩
abbrev S1024x4096 : Shape := ⟨2, ![1024, 4096]⟩
abbrev S512x4096 : Shape := ⟨2, ![512, 4096]⟩
abbrev S1x512 : Shape := ⟨2, ![1, 512]⟩
abbrev S1024x512 : Shape := ⟨2, ![1024, 512]⟩

abbrev nBuf : Space → Nat
  | .hbm => 95
  | .vmem => 11
  | .smem => 1
  | _ => 0

abbrev bufTy : (tb : Table) → Fin (tcTables nBuf tb) → BufTy
  | .hbm, ⟨0, _⟩ => ⟨S8192x4096, .f32⟩
  | .hbm, ⟨1, _⟩ => ⟨S16384x4096, .f32⟩
  | .hbm, ⟨2, _⟩ => ⟨S16384, .f32⟩
  | .hbm, ⟨3, _⟩ => ⟨S16384, .i32⟩
  | .hbm, ⟨4, _⟩ => ⟨S_, .i32⟩
  | .hbm, ⟨5, _⟩ => ⟨S16384, .i32⟩
  | .hbm, ⟨6, _⟩ => ⟨S16384, .i1⟩
  | .hbm, ⟨7, _⟩ => ⟨S16384, .i32⟩
  | .hbm, ⟨8, _⟩ => ⟨S_, .i32⟩
  | .hbm, ⟨9, _⟩ => ⟨S_, .i32⟩
  | .hbm, ⟨10, _⟩ => ⟨S16384, .i32⟩
  | .hbm, ⟨11, _⟩ => ⟨S_, .i32⟩
  | .hbm, ⟨12, _⟩ => ⟨S8192, .i32⟩
  | .hbm, ⟨13, _⟩ => ⟨S_, .i32⟩
  | .hbm, ⟨14, _⟩ => ⟨S_, .i32⟩
  | .hbm, ⟨15, _⟩ => ⟨S16384, .i32⟩
  | .hbm, ⟨16, _⟩ => ⟨S16384, .i32⟩
  | .hbm, ⟨17, _⟩ => ⟨S_, .i32⟩
  | .hbm, ⟨18, _⟩ => ⟨S16384, .i32⟩
  | .hbm, ⟨19, _⟩ => ⟨S16384, .i1⟩
  | .hbm, ⟨20, _⟩ => ⟨S_, .i32⟩
  | .hbm, ⟨21, _⟩ => ⟨S16384, .i32⟩
  | .hbm, ⟨22, _⟩ => ⟨S16384, .i32⟩
  | .hbm, ⟨23, _⟩ => ⟨S16384, .i32⟩
  | .hbm, ⟨24, _⟩ => ⟨S16384x1, .i32⟩
  | .hbm, ⟨25, _⟩ => ⟨S_, .i32⟩
  | .hbm, ⟨26, _⟩ => ⟨S16384, .i32⟩
  | .hbm, ⟨27, _⟩ => ⟨S8192, .i32⟩
  | .hbm, ⟨28, _⟩ => ⟨S_, .i32⟩
  | .hbm, ⟨29, _⟩ => ⟨S_, .i32⟩
  | .hbm, ⟨30, _⟩ => ⟨S8192, .i32⟩
  | .hbm, ⟨31, _⟩ => ⟨S_, .i32⟩
  | .hbm, ⟨32, _⟩ => ⟨S8192, .i32⟩
  | .hbm, ⟨33, _⟩ => ⟨S8192, .i32⟩
  | .hbm, ⟨34, _⟩ => ⟨S8192, .i32⟩
  | .hbm, ⟨35, _⟩ => ⟨S_, .i32⟩
  | .hbm, ⟨36, _⟩ => ⟨S8192, .i32⟩
  | .hbm, ⟨37, _⟩ => ⟨S8192, .i1⟩
  | .hbm, ⟨38, _⟩ => ⟨S8192, .i32⟩
  | .hbm, ⟨39, _⟩ => ⟨S8192, .i32⟩
  | .hbm, ⟨40, _⟩ => ⟨S_, .i32⟩
  | .hbm, ⟨41, _⟩ => ⟨S8192, .i32⟩
  | .hbm, ⟨42, _⟩ => ⟨S8192, .i1⟩
  | .hbm, ⟨43, _⟩ => ⟨S8192, .i1⟩
  | .hbm, ⟨44, _⟩ => ⟨S_, .i32⟩
  | .hbm, ⟨45, _⟩ => ⟨S8192, .i32⟩
  | .hbm, ⟨46, _⟩ => ⟨S8192, .i32⟩
  | .hbm, ⟨47, _⟩ => ⟨S8192, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i1⟩
  | .hbm, ⟨52, _⟩ => ⟨S_, .i32⟩
  | .hbm, ⟨53, _⟩ => ⟨S_, .i32⟩
  | .hbm, ⟨54, _⟩ => ⟨S8192, .i32⟩
  | .hbm, ⟨55, _⟩ => ⟨S8192, .i32⟩
  | .hbm, ⟨56, _⟩ => ⟨S_, .i32⟩
  | .hbm, ⟨57, _⟩ => ⟨S8192, .i32⟩
  | .hbm, ⟨58, _⟩ => ⟨S8192, .i1⟩
  | .hbm, ⟨59, _⟩ => ⟨S_, .i32⟩
  | .hbm, ⟨60, _⟩ => ⟨S8192, .i32⟩
  | .hbm, ⟨61, _⟩ => ⟨S8192, .i1⟩
  | .hbm, ⟨62, _⟩ => ⟨S_, .i32⟩
  | .hbm, ⟨63, _⟩ => ⟨S_, .i1⟩
  | .hbm, ⟨64, _⟩ => ⟨S8192, .i1⟩
  | .hbm, ⟨65, _⟩ => ⟨S8192, .i1⟩
  | .hbm, ⟨66, _⟩ => ⟨S8192, .i1⟩
  | .hbm, ⟨67, _⟩ => ⟨S8192, .i32⟩
  | .hbm, ⟨68, _⟩ => ⟨S8192, .i32⟩
  | .hbm, ⟨69, _⟩ => ⟨S_, .i32⟩
  | .hbm, ⟨70, _⟩ => ⟨S8192, .i32⟩
  | .hbm, ⟨71, _⟩ => ⟨S8192, .i1⟩
  | .hbm, ⟨72, _⟩ => ⟨S_, .i32⟩
  | .hbm, ⟨73, _⟩ => ⟨S8192, .i32⟩
  | .hbm, ⟨74, _⟩ => ⟨S8192, .i32⟩
  | .hbm, ⟨75, _⟩ => ⟨S8192, .i32⟩
  | .hbm, ⟨76, _⟩ => ⟨S8192x1, .i32⟩
  | .hbm, ⟨77, _⟩ => ⟨S1, .i32⟩
  | .hbm, ⟨78, _⟩ => ⟨S_, .i32⟩
  | .hbm, ⟨79, _⟩ => ⟨S8192x1, .i32⟩
  | .hbm, ⟨80, _⟩ => ⟨S8192x1, .i1⟩
  | .hbm, ⟨81, _⟩ => ⟨S1x1, .i32⟩
  | .hbm, ⟨82, _⟩ => ⟨S8192x1, .i32⟩
  | .hbm, ⟨83, _⟩ => ⟨S8192x1, .i1⟩
  | .hbm, ⟨84, _⟩ => ⟨S8192x1, .i1⟩
  | .hbm, ⟨85, _⟩ => ⟨S_, .i1⟩
  | .hbm, ⟨86, _⟩ => ⟨S8192, .i1⟩
  | .hbm, ⟨87, _⟩ => ⟨S8192, .f32⟩
  | .hbm, ⟨88, _⟩ => ⟨S_, .f32⟩
  | .hbm, ⟨89, _⟩ => ⟨S8192, .f32⟩
  | .hbm, ⟨90, _⟩ => ⟨S8192, .f32⟩
  | .hbm, ⟨91, _⟩ => ⟨S1x8192, .f32⟩
  | .hbm, ⟨92, _⟩ => ⟨S8192x4096, .bf16⟩
  | .hbm, ⟨93, _⟩ => ⟨S8192x4096, .bf16⟩
  | .hbm, ⟨94, _⟩ => ⟨S8192x8192, .f32⟩
  | .local _ .vmem, ⟨0, _⟩ => ⟨S128x4096, .bf16⟩
  | .local _ .vmem, ⟨1, _⟩ => ⟨S128x4096, .bf16⟩
  | .local _ .vmem, ⟨2, _⟩ => ⟨S128x4096, .f32⟩
  | .local _ .vmem, ⟨3, _⟩ => ⟨S1024x4096, .bf16⟩
  | .local _ .vmem, ⟨4, _⟩ => ⟨S1024x4096, .bf16⟩
  | .local _ .vmem, ⟨5, _⟩ => ⟨S512x4096, .bf16⟩
  | .local _ .vmem, ⟨6, _⟩ => ⟨S512x4096, .bf16⟩
  | .local _ .vmem, ⟨7, _⟩ => ⟨S1x512, .f32⟩
  | .local _ .vmem, ⟨8, _⟩ => ⟨S1x512, .f32⟩
  | .local _ .vmem, ⟨9, _⟩ => ⟨S1024x512, .f32⟩
  | .local _ .vmem, ⟨10, _⟩ => ⟨S1024x512, .f32⟩
  | .local _ .smem, ⟨0, _⟩ => ⟨S8192, .i32⟩
  | _, _ => ⟨S8192x4096, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 138 → Bool
  | ⟨i, _⟩ => dmaSemScopedAt i

abbrev sig : RefSig :=
  ofTc nBuf bufTy 0 138 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_call0_c : Ref sig .tc := ⟨.hbm, 8, rfl⟩
abbrev main_call0_call0_v0 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_c_1 : Ref sig .tc := ⟨.hbm, 13, rfl⟩
abbrev main_call1_v0 : Ref sig .tc := ⟨.hbm, 14, rfl⟩
abbrev main_call1_v1 : Ref sig .tc := ⟨.hbm, 15, rfl⟩
abbrev main_v4 : Ref sig .tc := ⟨.hbm, 16, rfl⟩
abbrev main_c_2 : Ref sig .tc := ⟨.hbm, 17, rfl⟩
abbrev main_v5 : Ref sig .tc := ⟨.hbm, 18, rfl⟩
abbrev main_v6 : Ref sig .tc := ⟨.hbm, 19, rfl⟩
abbrev main_c_3 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_4 : Ref sig .tc := ⟨.hbm, 25, rfl⟩
abbrev main_v11 : Ref sig .tc := ⟨.hbm, 26, rfl⟩
abbrev main_v12 : Ref sig .tc := ⟨.hbm, 27, rfl⟩
abbrev main_call2_call0_c : Ref sig .tc := ⟨.hbm, 28, rfl⟩
abbrev main_call2_call0_v0 : Ref sig .tc := ⟨.hbm, 29, rfl⟩
abbrev main_v13 : Ref sig .tc := ⟨.hbm, 30, rfl⟩
abbrev main_c_5 : Ref sig .tc := ⟨.hbm, 31, rfl⟩
abbrev main_call3_v0 : Ref sig .tc := ⟨.hbm, 32, rfl⟩
abbrev main_call3_v1 : Ref sig .tc := ⟨.hbm, 33, rfl⟩
abbrev main_call3_v2 : Ref sig .tc := ⟨.hbm, 34, rfl⟩
abbrev main_call3_v3 : Ref sig .tc := ⟨.hbm, 35, rfl⟩
abbrev main_call3_v4 : Ref sig .tc := ⟨.hbm, 36, rfl⟩
abbrev main_call3_v5 : Ref sig .tc := ⟨.hbm, 37, rfl⟩
abbrev main_call3_v6 : Ref sig .tc := ⟨.hbm, 38, rfl⟩
abbrev main_call3_v7 : Ref sig .tc := ⟨.hbm, 39, rfl⟩
abbrev main_call3_c : Ref sig .tc := ⟨.hbm, 40, rfl⟩
abbrev main_call3_v8 : Ref sig .tc := ⟨.hbm, 41, rfl⟩
abbrev main_call3_v9 : Ref sig .tc := ⟨.hbm, 42, rfl⟩
abbrev main_call3_v10 : Ref sig .tc := ⟨.hbm, 43, rfl⟩
abbrev main_call3_c_0 : Ref sig .tc := ⟨.hbm, 44, rfl⟩
abbrev main_call3_v11 : Ref sig .tc := ⟨.hbm, 45, rfl⟩
abbrev main_call3_v12 : Ref sig .tc := ⟨.hbm, 46, rfl⟩
abbrev main_v14 : Ref sig .tc := ⟨.hbm, 47, rfl⟩
abbrev main_c_6 : Ref sig .tc := ⟨.hbm, 48, rfl⟩
abbrev main_call4_v0 : Ref sig .tc := ⟨.hbm, 49, rfl⟩
abbrev main_call4_c : Ref sig .tc := ⟨.hbm, 50, rfl⟩
abbrev main_call4_v1 : Ref sig .tc := ⟨.hbm, 51, rfl⟩
abbrev main_call4_c_0 : Ref sig .tc := ⟨.hbm, 52, rfl⟩
abbrev main_call4_v2 : Ref sig .tc := ⟨.hbm, 53, rfl⟩
abbrev main_call4_v3 : Ref sig .tc := ⟨.hbm, 54, rfl⟩
abbrev main_call4_v4 : Ref sig .tc := ⟨.hbm, 55, rfl⟩
abbrev main_call4_c_1 : Ref sig .tc := ⟨.hbm, 56, rfl⟩
abbrev main_call4_v5 : Ref sig .tc := ⟨.hbm, 57, rfl⟩
abbrev main_call4_v6 : Ref sig .tc := ⟨.hbm, 58, rfl⟩
abbrev main_call4_c_2 : Ref sig .tc := ⟨.hbm, 59, rfl⟩
abbrev main_call4_v7 : Ref sig .tc := ⟨.hbm, 60, rfl⟩
abbrev main_call4_v8 : Ref sig .tc := ⟨.hbm, 61, rfl⟩
abbrev main_call4_c_3 : Ref sig .tc := ⟨.hbm, 62, rfl⟩
abbrev main_call4_v9 : Ref sig .tc := ⟨.hbm, 63, rfl⟩
abbrev main_call4_v10 : Ref sig .tc := ⟨.hbm, 64, rfl⟩
abbrev main_call4_v11 : Ref sig .tc := ⟨.hbm, 65, rfl⟩
abbrev main_call4_v12 : Ref sig .tc := ⟨.hbm, 66, rfl⟩
abbrev main_call4_v13 : Ref sig .tc := ⟨.hbm, 67, rfl⟩
abbrev main_call4_v14 : Ref sig .tc := ⟨.hbm, 68, rfl⟩
abbrev main_call5_c : Ref sig .tc := ⟨.hbm, 69, rfl⟩
abbrev main_call5_v0 : Ref sig .tc := ⟨.hbm, 70, rfl⟩
abbrev main_call5_v1 : Ref sig .tc := ⟨.hbm, 71, rfl⟩
abbrev main_call5_c_0 : Ref sig .tc := ⟨.hbm, 72, rfl⟩
abbrev main_call5_v2 : Ref sig .tc := ⟨.hbm, 73, rfl⟩
abbrev main_call5_v3 : Ref sig .tc := ⟨.hbm, 74, rfl⟩
abbrev main_call5_v4 : Ref sig .tc := ⟨.hbm, 75, rfl⟩
abbrev main_call5_v5 : Ref sig .tc := ⟨.hbm, 76, rfl⟩
abbrev main_call5_c_1 : Ref sig .tc := ⟨.hbm, 77, rfl⟩
abbrev main_call5_c_2 : Ref sig .tc := ⟨.hbm, 78, rfl⟩
abbrev main_call5_v6 : Ref sig .tc := ⟨.hbm, 79, rfl⟩
abbrev main_call5_v7 : Ref sig .tc := ⟨.hbm, 80, rfl⟩
abbrev main_call5_v8 : Ref sig .tc := ⟨.hbm, 81, rfl⟩
abbrev main_call5_v9 : Ref sig .tc := ⟨.hbm, 82, rfl⟩
abbrev main_call5_v10 : Ref sig .tc := ⟨.hbm, 83, rfl⟩
abbrev main_call5_v11 : Ref sig .tc := ⟨.hbm, 84, rfl⟩
abbrev main_call5_c_3 : Ref sig .tc := ⟨.hbm, 85, rfl⟩
abbrev main_call5_v12 : Ref sig .tc := ⟨.hbm, 86, rfl⟩
abbrev main_call5_v13 : Ref sig .tc := ⟨.hbm, 87, rfl⟩
abbrev main_call5_cst : Ref sig .tc := ⟨.hbm, 88, rfl⟩
abbrev main_call5_v14 : Ref sig .tc := ⟨.hbm, 89, rfl⟩
abbrev main_v16 : Ref sig .tc := ⟨.hbm, 90, rfl⟩
abbrev main_v17 : Ref sig .tc := ⟨.hbm, 91, rfl⟩
abbrev main_v18 : Ref sig .tc := ⟨.hbm, 92, rfl⟩
abbrev main_v19 : Ref sig .tc := ⟨.hbm, 93, rfl⟩
abbrev main_v20 : Ref sig .tc := ⟨.hbm, 94, rfl⟩
abbrev main_v15 : Ref sig .tc := ⟨.smem, 0, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc1_sem0_0 : DmaSem sig := 130
abbrev cc1_sem0_1 : DmaSem sig := 131
abbrev cc1_sem1_0 : DmaSem sig := 132
abbrev cc1_sem1_1 : DmaSem sig := 133
abbrev cc1_sem2_0 : DmaSem sig := 134
abbrev cc1_sem2_1 : DmaSem sig := 135
abbrev cc1_sem3_0 : DmaSem sig := 136
abbrev cc1_sem3_1 : DmaSem sig := 137

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_v15.idx], fun | 0 => main_v15.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c128_i32 : BitVec 32 := 128#32
  let v0 : BitVec 32 := Scalar.muli arg0 c128_i32
  let c0_i32 : BitVec 32 := 0#32
  let v1 : BitVec 32 := Scalar.addi v0 c0_i32
  let v2 : Index := Scalar.indexCast v1
  ![v2.toNat]
def k0_off2 (v3 : BitVec 32) : Fin 2 → Nat :=
  let c0_i32_3 : BitVec 32 := 0#32
  ![v3.toNat, 0]

def k0_off3 (i : grid0.Coords) : Fin 1 → Nat :=
  let arg0 : BitVec 32 := BitVec.ofNat 32 (i 0).val
  let c128_i32_4 : BitVec 32 := 128#32
  let v10 : BitVec 32 := Scalar.muli arg0 c128_i32_4
  let c1_i32 : BitVec 32 := 1#32
  let v11 : BitVec 32 := Scalar.addi v10 c1_i32
  let v12 : Index := Scalar.indexCast v11
  ![v12.toNat]
def k0_off4 (v13 : BitVec 32) : Fin 2 → Nat :=
  let c0_i32_8 : BitVec 32 := 0#32
  ![v13.toNat, 0]

def k0_off5 (i : grid0.Coords) : Fin 1 → Nat :=
  let arg0 : BitVec 32 := BitVec.ofNat 32 (i 0).val
  let c128_i32_9 : BitVec 32 := 128#32
  let v20 : BitVec 32 := Scalar.muli arg0 c128_i32_9
  let c2_i32 : BitVec 32 := 2#32
  let v21 : BitVec 32 := Scalar.addi v20 c2_i32
  let v22 : Index := Scalar.indexCast v21
  ![v22.toNat]
def k0_off6 (v23 : BitVec 32) : Fin 2 → Nat :=
  let c0_i32_13 : BitVec 32 := 0#32
  ![v23.toNat, 0]

def k0_off7 (i : grid0.Coords) : Fin 1 → Nat :=
  let arg0 : BitVec 32 := BitVec.ofNat 32 (i 0).val
  let c128_i32_14 : BitVec 32 := 128#32
  let v30 : BitVec 32 := Scalar.muli arg0 c128_i32_14
  let c3_i32 : BitVec 32 := 3#32
  let v31 : BitVec 32 := Scalar.addi v30 c3_i32
  let v32 : Index := Scalar.indexCast v31
  ![v32.toNat]
def k0_off8 (v33 : BitVec 32) : Fin 2 → Nat :=
  let c0_i32_18 : BitVec 32 := 0#32
  ![v33.toNat, 0]

def k0_off9 (i : grid0.Coords) : Fin 1 → Nat :=
  let arg0 : BitVec 32 := BitVec.ofNat 32 (i 0).val
  let c128_i32_19 : BitVec 32 := 128#32
  let v40 : BitVec 32 := Scalar.muli arg0 c128_i32_19
  let c4_i32 : BitVec 32 := 4#32
  let v41 : BitVec 32 := Scalar.addi v40 c4_i32
  let v42 : Index := Scalar.indexCast v41
  ![v42.toNat]
def k0_off10 (v43 : BitVec 32) : Fin 2 → Nat :=
  let c0_i32_23 : BitVec 32 := 0#32
  ![v43.toNat, 0]

def k0_off11 (i : grid0.Coords) : Fin 1 → Nat :=
  let arg0 : BitVec 32 := BitVec.ofNat 32 (i 0).val
  let c128_i32_24 : BitVec 32 := 128#32
  let v50 : BitVec 32 := Scalar.muli arg0 c128_i32_24
  let c5_i32 : BitVec 32 := 5#32
  let v51 : BitVec 32 := Scalar.addi v50 c5_i32
  let v52 : Index := Scalar.indexCast v51
  ![v52.toNat]
def k0_off12 (v53 : BitVec 32) : Fin 2 → Nat :=
  let c0_i32_28 : BitVec 32 := 0#32
  ![v53.toNat, 0]

def k0_off13 (i : grid0.Coords) : Fin 1 → Nat :=
  let arg0 : BitVec 32 := BitVec.ofNat 32 (i 0).val
  let c128_i32_29 : BitVec 32 := 128#32
  let v60 : BitVec 32 := Scalar.muli arg0 c128_i32_29
  let c6_i32 : BitVec 32 := 6#32
  let v61 : BitVec 32 := Scalar.addi v60 c6_i32
  let v62 : Index := Scalar.indexCast v61
  ![v62.toNat]
def k0_off14 (v63 : BitVec 32) : Fin 2 → Nat :=
  let c0_i32_33 : BitVec 32 := 0#32
  ![v63.toNat, 0]

def k0_off15 (i : grid0.Coords) : Fin 1 → Nat :=
  let arg0 : BitVec 32 := BitVec.ofNat 32 (i 0).val
  let c128_i32_34 : BitVec 32 := 128#32
  let v70 : BitVec 32 := Scalar.muli arg0 c128_i32_34
  let c7_i32 : BitVec 32 := 7#32
  let v71 : BitVec 32 := Scalar.addi v70 c7_i32
  let v72 : Index := Scalar.indexCast v71
  ![v72.toNat]
def k0_off16 (v73 : BitVec 32) : Fin 2 → Nat :=
  let c0_i32_38 : BitVec 32 := 0#32
  ![v73.toNat, 0]

def k0_off17 (i : grid0.Coords) : Fin 1 → Nat :=
  let arg0 : BitVec 32 := BitVec.ofNat 32 (i 0).val
  let c128_i32_39 : BitVec 32 := 128#32
  let v80 : BitVec 32 := Scalar.muli arg0 c128_i32_39
  let c8_i32 : BitVec 32 := 8#32
  let v81 : BitVec 32 := Scalar.addi v80 c8_i32
  let v82 : Index := Scalar.indexCast v81
  ![v82.toNat]
def k0_off18 (v83 : BitVec 32) : Fin 2 → Nat :=
  let c0_i32_43 : BitVec 32 := 0#32
  ![v83.toNat, 0]

def k0_off19 (i : grid0.Coords) : Fin 1 → Nat :=
  let arg0 : BitVec 32 := BitVec.ofNat 32 (i 0).val
  let c128_i32_44 : BitVec 32 := 128#32
  let v90 : BitVec 32 := Scalar.muli arg0 c128_i32_44
  let c9_i32 : BitVec 32 := 9#32
  let v91 : BitVec 32 := Scalar.addi v90 c9_i32
  let v92 : Index := Scalar.indexCast v91
  ![v92.toNat]
def k0_off20 (v93 : BitVec 32) : Fin 2 → Nat :=
  let c0_i32_48 : BitVec 32 := 0#32
  ![v93.toNat, 0]

def k0_off21 (i : grid0.Coords) : Fin 1 → Nat :=
  let arg0 : BitVec 32 := BitVec.ofNat 32 (i 0).val
  let c128_i32_49 : BitVec 32 := 128#32
  let v100 : BitVec 32 := Scalar.muli arg0 c128_i32_49
  let c10_i32 : BitVec 32 := 10#32
  let v101 : BitVec 32 := Scalar.addi v100 c10_i32
  let v102 : Index := Scalar.indexCast v101
  ![v102.toNat]
def k0_off22 (v103 : BitVec 32) : Fin 2 → Nat :=
  let c0_i32_53 : BitVec 32 := 0#32
  ![v103.toNat, 0]

def k0_off23 (i : grid0.Coords) : Fin 1 → Nat :=
  let arg0 : BitVec 32 := BitVec.ofNat 32 (i 0).val
  let c128_i32_54 : BitVec 32 := 128#32
  let v110 : BitVec 32 := Scalar.muli arg0 c128_i32_54
  let c11_i32 : BitVec 32 := 11#32
  let v111 : BitVec 32 := Scalar.addi v110 c11_i32
  let v112 : Index := Scalar.indexCast v111
  ![v112.toNat]
def k0_off24 (v113 : BitVec 32) : Fin 2 → Nat :=
  let c0_i32_58 : BitVec 32 := 0#32
  ![v113.toNat, 0]

def k0_off25 (i : grid0.Coords) : Fin 1 → Nat :=
  let arg0 : BitVec 32 := BitVec.ofNat 32 (i 0).val
  let c128_i32_59 : BitVec 32 := 128#32
  let v120 : BitVec 32 := Scalar.muli arg0 c128_i32_59
  let c12_i32 : BitVec 32 := 12#32
  let v121 : BitVec 32 := Scalar.addi v120 c12_i32
  let v122 : Index := Scalar.indexCast v121
  ![v122.toNat]
def k0_off26 (v123 : BitVec 32) : Fin 2 → Nat :=
  let c0_i32_63 : BitVec 32 := 0#32
  ![v123.toNat, 0]

def k0_off27 (i : grid0.Coords) : Fin 1 → Nat :=
  let arg0 : BitVec 32 := BitVec.ofNat 32 (i 0).val
  let c128_i32_64 : BitVec 32 := 128#32
  let v130 : BitVec 32 := Scalar.muli arg0 c128_i32_64
  let c13_i32 : BitVec 32 := 13#32
  let v131 : BitVec 32 := Scalar.addi v130 c13_i32
  let v132 : Index := Scalar.indexCast v131
  ![v132.toNat]
def k0_off28 (v133 : BitVec 32) : Fin 2 → Nat :=
  let c0_i32_68 : BitVec 32 := 0#32
  ![v133.toNat, 0]

def k0_off29 (i : grid0.Coords) : Fin 1 → Nat :=
  let arg0 : BitVec 32 := BitVec.ofNat 32 (i 0).val
  let c128_i32_69 : BitVec 32 := 128#32
  let v140 : BitVec 32 := Scalar.muli arg0 c128_i32_69
  let c14_i32 : BitVec 32 := 14#32
  let v141 : BitVec 32 := Scalar.addi v140 c14_i32
  let v142 : Index := Scalar.indexCast v141
  ![v142.toNat]
def k0_off30 (v143 : BitVec 32) : Fin 2 → Nat :=
  let c0_i32_73 : BitVec 32 := 0#32
  ![v143.toNat, 0]

def k0_off31 (i : grid0.Coords) : Fin 1 → Nat :=
  let arg0 : BitVec 32 := BitVec.ofNat 32 (i 0).val
  let c128_i32_74 : BitVec 32 := 128#32
  let v150 : BitVec 32 := Scalar.muli arg0 c128_i32_74
  let c15_i32 : BitVec 32 := 15#32
  let v151 : BitVec 32 := Scalar.addi v150 c15_i32
  let v152 : Index := Scalar.indexCast v151
  ![v152.toNat]
def k0_off32 (v153 : BitVec 32) : Fin 2 → Nat :=
  let c0_i32_78 : BitVec 32 := 0#32
  ![v153.toNat, 0]

def k0_off33 (i : grid0.Coords) : Fin 1 → Nat :=
  let arg0 : BitVec 32 := BitVec.ofNat 32 (i 0).val
  let c128_i32_79 : BitVec 32 := 128#32
  let v160 : BitVec 32 := Scalar.muli arg0 c128_i32_79
  let c16_i32 : BitVec 32 := 16#32
  let v161 : BitVec 32 := Scalar.addi v160 c16_i32
  let v162 : Index := Scalar.indexCast v161
  ![v162.toNat]
def k0_off34 (v163 : BitVec 32) : Fin 2 → Nat :=
  let c0_i32_83 : BitVec 32 := 0#32
  ![v163.toNat, 0]

def k0_off35 (i : grid0.Coords) : Fin 1 → Nat :=
  let arg0 : BitVec 32 := BitVec.ofNat 32 (i 0).val
  let c128_i32_84 : BitVec 32 := 128#32
  let v170 : BitVec 32 := Scalar.muli arg0 c128_i32_84
  let c17_i32 : BitVec 32 := 17#32
  let v171 : BitVec 32 := Scalar.addi v170 c17_i32
  let v172 : Index := Scalar.indexCast v171
  ![v172.toNat]
def k0_off36 (v173 : BitVec 32) : Fin 2 → Nat :=
  let c0_i32_88 : BitVec 32 := 0#32
  ![v173.toNat, 0]

def k0_off37 (i : grid0.Coords) : Fin 1 → Nat :=
  let arg0 : BitVec 32 := BitVec.ofNat 32 (i 0).val
  let c128_i32_89 : BitVec 32 := 128#32
  let v180 : BitVec 32 := Scalar.muli arg0 c128_i32_89
  let c18_i32 : BitVec 32 := 18#32
  let v181 : BitVec 32 := Scalar.addi v180 c18_i32
  let v182 : Index := Scalar.indexCast v181
  ![v182.toNat]
def k0_off38 (v183 : BitVec 32) : Fin 2 → Nat :=
  let c0_i32_93 : BitVec 32 := 0#32
  ![v183.toNat, 0]

def k0_off39 (i : grid0.Coords) : Fin 1 → Nat :=
  let arg0 : BitVec 32 := BitVec.ofNat 32 (i 0).val
  let c128_i32_94 : BitVec 32 := 128#32
  let v190 : BitVec 32 := Scalar.muli arg0 c128_i32_94
  let c19_i32 : BitVec 32 := 19#32
  let v191 : BitVec 32 := Scalar.addi v190 c19_i32
  let v192 : Index := Scalar.indexCast v191
  ![v192.toNat]
def k0_off40 (v193 : BitVec 32) : Fin 2 → Nat :=
  let c0_i32_98 : BitVec 32 := 0#32
  ![v193.toNat, 0]

def k0_off41 (i : grid0.Coords) : Fin 1 → Nat :=
  let arg0 : BitVec 32 := BitVec.ofNat 32 (i 0).val
  let c128_i32_99 : BitVec 32 := 128#32
  let v200 : BitVec 32 := Scalar.muli arg0 c128_i32_99
  let c20_i32 : BitVec 32 := 20#32
  let v201 : BitVec 32 := Scalar.addi v200 c20_i32
  let v202 : Index := Scalar.indexCast v201
  ![v202.toNat]
def k0_off42 (v203 : BitVec 32) : Fin 2 → Nat :=
  let c0_i32_103 : BitVec 32 := 0#32
  ![v203.toNat, 0]

def k0_off43 (i : grid0.Coords) : Fin 1 → Nat :=
  let arg0 : BitVec 32 := BitVec.ofNat 32 (i 0).val
  let c128_i32_104 : BitVec 32 := 128#32
  let v210 : BitVec 32 := Scalar.muli arg0 c128_i32_104
  let c21_i32 : BitVec 32 := 21#32
  let v211 : BitVec 32 := Scalar.addi v210 c21_i32
  let v212 : Index := Scalar.indexCast v211
  ![v212.toNat]
def k0_off44 (v213 : BitVec 32) : Fin 2 → Nat :=
  let c0_i32_108 : BitVec 32 := 0#32
  ![v213.toNat, 0]

def k0_off45 (i : grid0.Coords) : Fin 1 → Nat :=
  let arg0 : BitVec 32 := BitVec.ofNat 32 (i 0).val
  let c128_i32_109 : BitVec 32 := 128#32
  let v220 : BitVec 32 := Scalar.muli arg0 c128_i32_109
  let c22_i32 : BitVec 32 := 22#32
  let v221 : BitVec 32 := Scalar.addi v220 c22_i32
  let v222 : Index := Scalar.indexCast v221
  ![v222.toNat]
def k0_off46 (v223 : BitVec 32) : Fin 2 → Nat :=
  let c0_i32_113 : BitVec 32 := 0#32
  ![v223.toNat, 0]

def k0_off47 (i : grid0.Coords) : Fin 1 → Nat :=
  let arg0 : BitVec 32 := BitVec.ofNat 32 (i 0).val
  let c128_i32_114 : BitVec 32 := 128#32
  let v230 : BitVec 32 := Scalar.muli arg0 c128_i32_114
  let c23_i32 : BitVec 32 := 23#32
  let v231 : BitVec 32 := Scalar.addi v230 c23_i32
  let v232 : Index := Scalar.indexCast v231
  ![v232.toNat]
def k0_off48 (v233 : BitVec 32) : Fin 2 → Nat :=
  let c0_i32_118 : BitVec 32 := 0#32
  ![v233.toNat, 0]

def k0_off49 (i : grid0.Coords) : Fin 1 → Nat :=
  let arg0 : BitVec 32 := BitVec.ofNat 32 (i 0).val
  let c128_i32_119 : BitVec 32 := 128#32
  let v240 : BitVec 32 := Scalar.muli arg0 c128_i32_119
  let c24_i32 : BitVec 32 := 24#32
  let v241 : BitVec 32 := Scalar.addi v240 c24_i32
  let v242 : Index := Scalar.indexCast v241
  ![v242.toNat]
def k0_off50 (v243 : BitVec 32) : Fin 2 → Nat :=
  let c0_i32_123 : BitVec 32 := 0#32
  ![v243.toNat, 0]

def k0_off51 (i : grid0.Coords) : Fin 1 → Nat :=
  let arg0 : BitVec 32 := BitVec.ofNat 32 (i 0).val
  let c128_i32_124 : BitVec 32 := 128#32
  let v250 : BitVec 32 := Scalar.muli arg0 c128_i32_124
  let c25_i32 : BitVec 32 := 25#32
  let v251 : BitVec 32 := Scalar.addi v250 c25_i32
  let v252 : Index := Scalar.indexCast v251
  ![v252.toNat]
def k0_off52 (v253 : BitVec 32) : Fin 2 → Nat :=
  let c0_i32_128 : BitVec 32 := 0#32
  ![v253.toNat, 0]

def k0_off53 (i : grid0.Coords) : Fin 1 → Nat :=
  let arg0 : BitVec 32 := BitVec.ofNat 32 (i 0).val
  let c128_i32_129 : BitVec 32 := 128#32
  let v260 : BitVec 32 := Scalar.muli arg0 c128_i32_129
  let c26_i32 : BitVec 32 := 26#32
  let v261 : BitVec 32 := Scalar.addi v260 c26_i32
  let v262 : Index := Scalar.indexCast v261
  ![v262.toNat]
def k0_off54 (v263 : BitVec 32) : Fin 2 → Nat :=
  let c0_i32_133 : BitVec 32 := 0#32
  ![v263.toNat, 0]

def k0_off55 (i : grid0.Coords) : Fin 1 → Nat :=
  let arg0 : BitVec 32 := BitVec.ofNat 32 (i 0).val
  let c128_i32_134 : BitVec 32 := 128#32
  let v270 : BitVec 32 := Scalar.muli arg0 c128_i32_134
  let c27_i32 : BitVec 32 := 27#32
  let v271 : BitVec 32 := Scalar.addi v270 c27_i32
  let v272 : Index := Scalar.indexCast v271
  ![v272.toNat]
def k0_off56 (v273 : BitVec 32) : Fin 2 → Nat :=
  let c0_i32_138 : BitVec 32 := 0#32
  ![v273.toNat, 0]

def k0_off57 (i : grid0.Coords) : Fin 1 → Nat :=
  let arg0 : BitVec 32 := BitVec.ofNat 32 (i 0).val
  let c128_i32_139 : BitVec 32 := 128#32
  let v280 : BitVec 32 := Scalar.muli arg0 c128_i32_139
  let c28_i32 : BitVec 32 := 28#32
  let v281 : BitVec 32 := Scalar.addi v280 c28_i32
  let v282 : Index := Scalar.indexCast v281
  ![v282.toNat]
def k0_off58 (v283 : BitVec 32) : Fin 2 → Nat :=
  let c0_i32_143 : BitVec 32 := 0#32
  ![v283.toNat, 0]

def k0_off59 (i : grid0.Coords) : Fin 1 → Nat :=
  let arg0 : BitVec 32 := BitVec.ofNat 32 (i 0).val
  let c128_i32_144 : BitVec 32 := 128#32
  let v290 : BitVec 32 := Scalar.muli arg0 c128_i32_144
  let c29_i32 : BitVec 32 := 29#32
  let v291 : BitVec 32 := Scalar.addi v290 c29_i32
  let v292 : Index := Scalar.indexCast v291
  ![v292.toNat]
def k0_off60 (v293 : BitVec 32) : Fin 2 → Nat :=
  let c0_i32_148 : BitVec 32 := 0#32
  ![v293.toNat, 0]

def k0_off61 (i : grid0.Coords) : Fin 1 → Nat :=
  let arg0 : BitVec 32 := BitVec.ofNat 32 (i 0).val
  let c128_i32_149 : BitVec 32 := 128#32
  let v300 : BitVec 32 := Scalar.muli arg0 c128_i32_149
  let c30_i32 : BitVec 32 := 30#32
  let v301 : BitVec 32 := Scalar.addi v300 c30_i32
  let v302 : Index := Scalar.indexCast v301
  ![v302.toNat]
def k0_off62 (v303 : BitVec 32) : Fin 2 → Nat :=
  let c0_i32_153 : BitVec 32 := 0#32
  ![v303.toNat, 0]

def k0_off63 (i : grid0.Coords) : Fin 1 → Nat :=
  let arg0 : BitVec 32 := BitVec.ofNat 32 (i 0).val
  let c128_i32_154 : BitVec 32 := 128#32
  let v310 : BitVec 32 := Scalar.muli arg0 c128_i32_154
  let c31_i32 : BitVec 32 := 31#32
  let v311 : BitVec 32 := Scalar.addi v310 c31_i32
  let v312 : Index := Scalar.indexCast v311
  ![v312.toNat]
def k0_off64 (v313 : BitVec 32) : Fin 2 → Nat :=
  let c0_i32_158 : BitVec 32 := 0#32
  ![v313.toNat, 0]

def k0_off65 (i : grid0.Coords) : Fin 1 → Nat :=
  let arg0 : BitVec 32 := BitVec.ofNat 32 (i 0).val
  let c128_i32_159 : BitVec 32 := 128#32
  let v320 : BitVec 32 := Scalar.muli arg0 c128_i32_159
  let c32_i32 : BitVec 32 := 32#32
  let v321 : BitVec 32 := Scalar.addi v320 c32_i32
  let v322 : Index := Scalar.indexCast v321
  ![v322.toNat]
def k0_off66 (v323 : BitVec 32) : Fin 2 → Nat :=
  let c0_i32_163 : BitVec 32 := 0#32
  ![v323.toNat, 0]

def k0_off67 (i : grid0.Coords) : Fin 1 → Nat :=
  let arg0 : BitVec 32 := BitVec.ofNat 32 (i 0).val
  let c128_i32_164 : BitVec 32 := 128#32
  let v330 : BitVec 32 := Scalar.muli arg0 c128_i32_164
  let c33_i32 : BitVec 32 := 33#32
  let v331 : BitVec 32 := Scalar.addi v330 c33_i32
  let v332 : Index := Scalar.indexCast v331
  ![v332.toNat]
def k0_off68 (v333 : BitVec 32) : Fin 2 → Nat :=
  let c0_i32_168 : BitVec 32 := 0#32
  ![v333.toNat, 0]

def k0_off69 (i : grid0.Coords) : Fin 1 → Nat :=
  let arg0 : BitVec 32 := BitVec.ofNat 32 (i 0).val
  let c128_i32_169 : BitVec 32 := 128#32
  let v340 : BitVec 32 := Scalar.muli arg0 c128_i32_169
  let c34_i32 : BitVec 32 := 34#32
  let v341 : BitVec 32 := Scalar.addi v340 c34_i32
  let v342 : Index := Scalar.indexCast v341
  ![v342.toNat]
def k0_off70 (v343 : BitVec 32) : Fin 2 → Nat :=
  let c0_i32_173 : BitVec 32 := 0#32
  ![v343.toNat, 0]

def k0_off71 (i : grid0.Coords) : Fin 1 → Nat :=
  let arg0 : BitVec 32 := BitVec.ofNat 32 (i 0).val
  let c128_i32_174 : BitVec 32 := 128#32
  let v350 : BitVec 32 := Scalar.muli arg0 c128_i32_174
  let c35_i32 : BitVec 32 := 35#32
  let v351 : BitVec 32 := Scalar.addi v350 c35_i32
  let v352 : Index := Scalar.indexCast v351
  ![v352.toNat]
def k0_off72 (v353 : BitVec 32) : Fin 2 → Nat :=
  let c0_i32_178 : BitVec 32 := 0#32
  ![v353.toNat, 0]

def k0_off73 (i : grid0.Coords) : Fin 1 → Nat :=
  let arg0 : BitVec 32 := BitVec.ofNat 32 (i 0).val
  let c128_i32_179 : BitVec 32 := 128#32
  let v360 : BitVec 32 := Scalar.muli arg0 c128_i32_179
  let c36_i32 : BitVec 32 := 36#32
  let v361 : BitVec 32 := Scalar.addi v360 c36_i32
  let v362 : Index := Scalar.indexCast v361
  ![v362.toNat]
def k0_off74 (v363 : BitVec 32) : Fin 2 → Nat :=
  let c0_i32_183 : BitVec 32 := 0#32
  ![v363.toNat, 0]

def k0_off75 (i : grid0.Coords) : Fin 1 → Nat :=
  let arg0 : BitVec 32 := BitVec.ofNat 32 (i 0).val
  let c128_i32_184 : BitVec 32 := 128#32
  let v370 : BitVec 32 := Scalar.muli arg0 c128_i32_184
  let c37_i32 : BitVec 32 := 37#32
  let v371 : BitVec 32 := Scalar.addi v370 c37_i32
  let v372 : Index := Scalar.indexCast v371
  ![v372.toNat]
def k0_off76 (v373 : BitVec 32) : Fin 2 → Nat :=
  let c0_i32_188 : BitVec 32 := 0#32
  ![v373.toNat, 0]

def k0_off77 (i : grid0.Coords) : Fin 1 → Nat :=
  let arg0 : BitVec 32 := BitVec.ofNat 32 (i 0).val
  let c128_i32_189 : BitVec 32 := 128#32
  let v380 : BitVec 32 := Scalar.muli arg0 c128_i32_189
  let c38_i32 : BitVec 32 := 38#32
  let v381 : BitVec 32 := Scalar.addi v380 c38_i32
  let v382 : Index := Scalar.indexCast v381
  ![v382.toNat]
def k0_off78 (v383 : BitVec 32) : Fin 2 → Nat :=
  let c0_i32_193 : BitVec 32 := 0#32
  ![v383.toNat, 0]

def k0_off79 (i : grid0.Coords) : Fin 1 → Nat :=
  let arg0 : BitVec 32 := BitVec.ofNat 32 (i 0).val
  let c128_i32_194 : BitVec 32 := 128#32
  let v390 : BitVec 32 := Scalar.muli arg0 c128_i32_194
  let c39_i32 : BitVec 32 := 39#32
  let v391 : BitVec 32 := Scalar.addi v390 c39_i32
  let v392 : Index := Scalar.indexCast v391
  ![v392.toNat]
def k0_off80 (v393 : BitVec 32) : Fin 2 → Nat :=
  let c0_i32_198 : BitVec 32 := 0#32
  ![v393.toNat, 0]

def k0_off81 (i : grid0.Coords) : Fin 1 → Nat :=
  let arg0 : BitVec 32 := BitVec.ofNat 32 (i 0).val
  let c128_i32_199 : BitVec 32 := 128#32
  let v400 : BitVec 32 := Scalar.muli arg0 c128_i32_199
  let c40_i32 : BitVec 32 := 40#32
  let v401 : BitVec 32 := Scalar.addi v400 c40_i32
  let v402 : Index := Scalar.indexCast v401
  ![v402.toNat]
def k0_off82 (v403 : BitVec 32) : Fin 2 → Nat :=
  let c0_i32_203 : BitVec 32 := 0#32
  ![v403.toNat, 0]

def k0_off83 (i : grid0.Coords) : Fin 1 → Nat :=
  let arg0 : BitVec 32 := BitVec.ofNat 32 (i 0).val
  let c128_i32_204 : BitVec 32 := 128#32
  let v410 : BitVec 32 := Scalar.muli arg0 c128_i32_204
  let c41_i32 : BitVec 32 := 41#32
  let v411 : BitVec 32 := Scalar.addi v410 c41_i32
  let v412 : Index := Scalar.indexCast v411
  ![v412.toNat]
def k0_off84 (v413 : BitVec 32) : Fin 2 → Nat :=
  let c0_i32_208 : BitVec 32 := 0#32
  ![v413.toNat, 0]

def k0_off85 (i : grid0.Coords) : Fin 1 → Nat :=
  let arg0 : BitVec 32 := BitVec.ofNat 32 (i 0).val
  let c128_i32_209 : BitVec 32 := 128#32
  let v420 : BitVec 32 := Scalar.muli arg0 c128_i32_209
  let c42_i32 : BitVec 32 := 42#32
  let v421 : BitVec 32 := Scalar.addi v420 c42_i32
  let v422 : Index := Scalar.indexCast v421
  ![v422.toNat]
def k0_off86 (v423 : BitVec 32) : Fin 2 → Nat :=
  let c0_i32_213 : BitVec 32 := 0#32
  ![v423.toNat, 0]

def k0_off87 (i : grid0.Coords) : Fin 1 → Nat :=
  let arg0 : BitVec 32 := BitVec.ofNat 32 (i 0).val
  let c128_i32_214 : BitVec 32 := 128#32
  let v430 : BitVec 32 := Scalar.muli arg0 c128_i32_214
  let c43_i32 : BitVec 32 := 43#32
  let v431 : BitVec 32 := Scalar.addi v430 c43_i32
  let v432 : Index := Scalar.indexCast v431
  ![v432.toNat]
def k0_off88 (v433 : BitVec 32) : Fin 2 → Nat :=
  let c0_i32_218 : BitVec 32 := 0#32
  ![v433.toNat, 0]

def k0_off89 (i : grid0.Coords) : Fin 1 → Nat :=
  let arg0 : BitVec 32 := BitVec.ofNat 32 (i 0).val
  let c128_i32_219 : BitVec 32 := 128#32
  let v440 : BitVec 32 := Scalar.muli arg0 c128_i32_219
  let c44_i32 : BitVec 32 := 44#32
  let v441 : BitVec 32 := Scalar.addi v440 c44_i32
  let v442 : Index := Scalar.indexCast v441
  ![v442.toNat]
def k0_off90 (v443 : BitVec 32) : Fin 2 → Nat :=
  let c0_i32_223 : BitVec 32 := 0#32
  ![v443.toNat, 0]

def k0_off91 (i : grid0.Coords) : Fin 1 → Nat :=
  let arg0 : BitVec 32 := BitVec.ofNat 32 (i 0).val
  let c128_i32_224 : BitVec 32 := 128#32
  let v450 : BitVec 32 := Scalar.muli arg0 c128_i32_224
  let c45_i32 : BitVec 32 := 45#32
  let v451 : BitVec 32 := Scalar.addi v450 c45_i32
  let v452 : Index := Scalar.indexCast v451
  ![v452.toNat]
def k0_off92 (v453 : BitVec 32) : Fin 2 → Nat :=
  let c0_i32_228 : BitVec 32 := 0#32
  ![v453.toNat, 0]

def k0_off93 (i : grid0.Coords) : Fin 1 → Nat :=
  let arg0 : BitVec 32 := BitVec.ofNat 32 (i 0).val
  let c128_i32_229 : BitVec 32 := 128#32
  let v460 : BitVec 32 := Scalar.muli arg0 c128_i32_229
  let c46_i32 : BitVec 32 := 46#32
  let v461 : BitVec 32 := Scalar.addi v460 c46_i32
  let v462 : Index := Scalar.indexCast v461
  ![v462.toNat]
def k0_off94 (v463 : BitVec 32) : Fin 2 → Nat :=
  let c0_i32_233 : BitVec 32 := 0#32
  ![v463.toNat, 0]

def k0_off95 (i : grid0.Coords) : Fin 1 → Nat :=
  let arg0 : BitVec 32 := BitVec.ofNat 32 (i 0).val
  let c128_i32_234 : BitVec 32 := 128#32
  let v470 : BitVec 32 := Scalar.muli arg0 c128_i32_234
  let c47_i32 : BitVec 32 := 47#32
  let v471 : BitVec 32 := Scalar.addi v470 c47_i32
  let v472 : Index := Scalar.indexCast v471
  ![v472.toNat]
def k0_off96 (v473 : BitVec 32) : Fin 2 → Nat :=
  let c0_i32_238 : BitVec 32 := 0#32
  ![v473.toNat, 0]

def k0_off97 (i : grid0.Coords) : Fin 1 → Nat :=
  let arg0 : BitVec 32 := BitVec.ofNat 32 (i 0).val
  let c128_i32_239 : BitVec 32 := 128#32
  let v480 : BitVec 32 := Scalar.muli arg0 c128_i32_239
  let c48_i32 : BitVec 32 := 48#32
  let v481 : BitVec 32 := Scalar.addi v480 c48_i32
  let v482 : Index := Scalar.indexCast v481
  ![v482.toNat]
def k0_off98 (v483 : BitVec 32) : Fin 2 → Nat :=
  let c0_i32_243 : BitVec 32 := 0#32
  ![v483.toNat, 0]

def k0_off99 (i : grid0.Coords) : Fin 1 → Nat :=
  let arg0 : BitVec 32 := BitVec.ofNat 32 (i 0).val
  let c128_i32_244 : BitVec 32 := 128#32
  let v490 : BitVec 32 := Scalar.muli arg0 c128_i32_244
  let c49_i32 : BitVec 32 := 49#32
  let v491 : BitVec 32 := Scalar.addi v490 c49_i32
  let v492 : Index := Scalar.indexCast v491
  ![v492.toNat]
def k0_off100 (v493 : BitVec 32) : Fin 2 → Nat :=
  let c0_i32_248 : BitVec 32 := 0#32
  ![v493.toNat, 0]

def k0_off101 (i : grid0.Coords) : Fin 1 → Nat :=
  let arg0 : BitVec 32 := BitVec.ofNat 32 (i 0).val
  let c128_i32_249 : BitVec 32 := 128#32
  let v500 : BitVec 32 := Scalar.muli arg0 c128_i32_249
  let c50_i32 : BitVec 32 := 50#32
  let v501 : BitVec 32 := Scalar.addi v500 c50_i32
  let v502 : Index := Scalar.indexCast v501
  ![v502.toNat]
def k0_off102 (v503 : BitVec 32) : Fin 2 → Nat :=
  let c0_i32_253 : BitVec 32 := 0#32
  ![v503.toNat, 0]

def k0_off103 (i : grid0.Coords) : Fin 1 → Nat :=
  let arg0 : BitVec 32 := BitVec.ofNat 32 (i 0).val
  let c128_i32_254 : BitVec 32 := 128#32
  let v510 : BitVec 32 := Scalar.muli arg0 c128_i32_254
  let c51_i32 : BitVec 32 := 51#32
  let v511 : BitVec 32 := Scalar.addi v510 c51_i32
  let v512 : Index := Scalar.indexCast v511
  ![v512.toNat]
def k0_off104 (v513 : BitVec 32) : Fin 2 → Nat :=
  let c0_i32_258 : BitVec 32 := 0#32
  ![v513.toNat, 0]

def k0_off105 (i : grid0.Coords) : Fin 1 → Nat :=
  let arg0 : BitVec 32 := BitVec.ofNat 32 (i 0).val
  let c128_i32_259 : BitVec 32 := 128#32
  let v520 : BitVec 32 := Scalar.muli arg0 c128_i32_259
  let c52_i32 : BitVec 32 := 52#32
  let v521 : BitVec 32 := Scalar.addi v520 c52_i32
  let v522 : Index := Scalar.indexCast v521
  ![v522.toNat]
def k0_off106 (v523 : BitVec 32) : Fin 2 → Nat :=
  let c0_i32_263 : BitVec 32 := 0#32
  ![v523.toNat, 0]

def k0_off107 (i : grid0.Coords) : Fin 1 → Nat :=
  let arg0 : BitVec 32 := BitVec.ofNat 32 (i 0).val
  let c128_i32_264 : BitVec 32 := 128#32
  let v530 : BitVec 32 := Scalar.muli arg0 c128_i32_264
  let c53_i32 : BitVec 32 := 53#32
  let v531 : BitVec 32 := Scalar.addi v530 c53_i32
  let v532 : Index := Scalar.indexCast v531
  ![v532.toNat]
def k0_off108 (v533 : BitVec 32) : Fin 2 → Nat :=
  let c0_i32_268 : BitVec 32 := 0#32
  ![v533.toNat, 0]

def k0_off109 (i : grid0.Coords) : Fin 1 → Nat :=
  let arg0 : BitVec 32 := BitVec.ofNat 32 (i 0).val
  let c128_i32_269 : BitVec 32 := 128#32
  let v540 : BitVec 32 := Scalar.muli arg0 c128_i32_269
  let c54_i32 : BitVec 32 := 54#32
  let v541 : BitVec 32 := Scalar.addi v540 c54_i32
  let v542 : Index := Scalar.indexCast v541
  ![v542.toNat]
def k0_off110 (v543 : BitVec 32) : Fin 2 → Nat :=
  let c0_i32_273 : BitVec 32 := 0#32
  ![v543.toNat, 0]

def k0_off111 (i : grid0.Coords) : Fin 1 → Nat :=
  let arg0 : BitVec 32 := BitVec.ofNat 32 (i 0).val
  let c128_i32_274 : BitVec 32 := 128#32
  let v550 : BitVec 32 := Scalar.muli arg0 c128_i32_274
  let c55_i32 : BitVec 32 := 55#32
  let v551 : BitVec 32 := Scalar.addi v550 c55_i32
  let v552 : Index := Scalar.indexCast v551
  ![v552.toNat]
def k0_off112 (v553 : BitVec 32) : Fin 2 → Nat :=
  let c0_i32_278 : BitVec 32 := 0#32
  ![v553.toNat, 0]

def k0_off113 (i : grid0.Coords) : Fin 1 → Nat :=
  let arg0 : BitVec 32 := BitVec.ofNat 32 (i 0).val
  let c128_i32_279 : BitVec 32 := 128#32
  let v560 : BitVec 32 := Scalar.muli arg0 c128_i32_279
  let c56_i32 : BitVec 32 := 56#32
  let v561 : BitVec 32 := Scalar.addi v560 c56_i32
  let v562 : Index := Scalar.indexCast v561
  ![v562.toNat]
def k0_off114 (v563 : BitVec 32) : Fin 2 → Nat :=
  let c0_i32_283 : BitVec 32 := 0#32
  ![v563.toNat, 0]

def k0_off115 (i : grid0.Coords) : Fin 1 → Nat :=
  let arg0 : BitVec 32 := BitVec.ofNat 32 (i 0).val
  let c128_i32_284 : BitVec 32 := 128#32
  let v570 : BitVec 32 := Scalar.muli arg0 c128_i32_284
  let c57_i32 : BitVec 32 := 57#32
  let v571 : BitVec 32 := Scalar.addi v570 c57_i32
  let v572 : Index := Scalar.indexCast v571
  ![v572.toNat]
def k0_off116 (v573 : BitVec 32) : Fin 2 → Nat :=
  let c0_i32_288 : BitVec 32 := 0#32
  ![v573.toNat, 0]

def k0_off117 (i : grid0.Coords) : Fin 1 → Nat :=
  let arg0 : BitVec 32 := BitVec.ofNat 32 (i 0).val
  let c128_i32_289 : BitVec 32 := 128#32
  let v580 : BitVec 32 := Scalar.muli arg0 c128_i32_289
  let c58_i32 : BitVec 32 := 58#32
  let v581 : BitVec 32 := Scalar.addi v580 c58_i32
  let v582 : Index := Scalar.indexCast v581
  ![v582.toNat]
def k0_off118 (v583 : BitVec 32) : Fin 2 → Nat :=
  let c0_i32_293 : BitVec 32 := 0#32
  ![v583.toNat, 0]

def k0_off119 (i : grid0.Coords) : Fin 1 → Nat :=
  let arg0 : BitVec 32 := BitVec.ofNat 32 (i 0).val
  let c128_i32_294 : BitVec 32 := 128#32
  let v590 : BitVec 32 := Scalar.muli arg0 c128_i32_294
  let c59_i32 : BitVec 32 := 59#32
  let v591 : BitVec 32 := Scalar.addi v590 c59_i32
  let v592 : Index := Scalar.indexCast v591
  ![v592.toNat]
def k0_off120 (v593 : BitVec 32) : Fin 2 → Nat :=
  let c0_i32_298 : BitVec 32 := 0#32
  ![v593.toNat, 0]

def k0_off121 (i : grid0.Coords) : Fin 1 → Nat :=
  let arg0 : BitVec 32 := BitVec.ofNat 32 (i 0).val
  let c128_i32_299 : BitVec 32 := 128#32
  let v600 : BitVec 32 := Scalar.muli arg0 c128_i32_299
  let c60_i32 : BitVec 32 := 60#32
  let v601 : BitVec 32 := Scalar.addi v600 c60_i32
  let v602 : Index := Scalar.indexCast v601
  ![v602.toNat]
def k0_off122 (v603 : BitVec 32) : Fin 2 → Nat :=
  let c0_i32_303 : BitVec 32 := 0#32
  ![v603.toNat, 0]

def k0_off123 (i : grid0.Coords) : Fin 1 → Nat :=
  let arg0 : BitVec 32 := BitVec.ofNat 32 (i 0).val
  let c128_i32_304 : BitVec 32 := 128#32
  let v610 : BitVec 32 := Scalar.muli arg0 c128_i32_304
  let c61_i32 : BitVec 32 := 61#32
  let v611 : BitVec 32 := Scalar.addi v610 c61_i32
  let v612 : Index := Scalar.indexCast v611
  ![v612.toNat]
def k0_off124 (v613 : BitVec 32) : Fin 2 → Nat :=
  let c0_i32_308 : BitVec 32 := 0#32
  ![v613.toNat, 0]

def k0_off125 (i : grid0.Coords) : Fin 1 → Nat :=
  let arg0 : BitVec 32 := BitVec.ofNat 32 (i 0).val
  let c128_i32_309 : BitVec 32 := 128#32
  let v620 : BitVec 32 := Scalar.muli arg0 c128_i32_309
  let c62_i32 : BitVec 32 := 62#32
  let v621 : BitVec 32 := Scalar.addi v620 c62_i32
  let v622 : Index := Scalar.indexCast v621
  ![v622.toNat]
def k0_off126 (v623 : BitVec 32) : Fin 2 → Nat :=
  let c0_i32_313 : BitVec 32 := 0#32
  ![v623.toNat, 0]

def k0_off127 (i : grid0.Coords) : Fin 1 → Nat :=
  let arg0 : BitVec 32 := BitVec.ofNat 32 (i 0).val
  let c128_i32_314 : BitVec 32 := 128#32
  let v630 : BitVec 32 := Scalar.muli arg0 c128_i32_314
  let c63_i32 : BitVec 32 := 63#32
  let v631 : BitVec 32 := Scalar.addi v630 c63_i32
  let v632 : Index := Scalar.indexCast v631
  ![v632.toNat]
def k0_off128 (v633 : BitVec 32) : Fin 2 → Nat :=
  let c0_i32_318 : BitVec 32 := 0#32
  ![v633.toNat, 0]

def k0_off129 (i : grid0.Coords) : Fin 1 → Nat :=
  let arg0 : BitVec 32 := BitVec.ofNat 32 (i 0).val
  let c128_i32_319 : BitVec 32 := 128#32
  let v640 : BitVec 32 := Scalar.muli arg0 c128_i32_319
  let c64_i32 : BitVec 32 := 64#32
  let v641 : BitVec 32 := Scalar.addi v640 c64_i32
  let v642 : Index := Scalar.indexCast v641
  ![v642.toNat]
def k0_off130 (v643 : BitVec 32) : Fin 2 → Nat :=
  let c0_i32_323 : BitVec 32 := 0#32
  ![v643.toNat, 0]

def k0_off131 (i : grid0.Coords) : Fin 1 → Nat :=
  let arg0 : BitVec 32 := BitVec.ofNat 32 (i 0).val
  let c128_i32_324 : BitVec 32 := 128#32
  let v650 : BitVec 32 := Scalar.muli arg0 c128_i32_324
  let c65_i32 : BitVec 32 := 65#32
  let v651 : BitVec 32 := Scalar.addi v650 c65_i32
  let v652 : Index := Scalar.indexCast v651
  ![v652.toNat]
def k0_off132 (v653 : BitVec 32) : Fin 2 → Nat :=
  let c0_i32_328 : BitVec 32 := 0#32
  ![v653.toNat, 0]

def k0_off133 (i : grid0.Coords) : Fin 1 → Nat :=
  let arg0 : BitVec 32 := BitVec.ofNat 32 (i 0).val
  let c128_i32_329 : BitVec 32 := 128#32
  let v660 : BitVec 32 := Scalar.muli arg0 c128_i32_329
  let c66_i32 : BitVec 32 := 66#32
  let v661 : BitVec 32 := Scalar.addi v660 c66_i32
  let v662 : Index := Scalar.indexCast v661
  ![v662.toNat]
def k0_off134 (v663 : BitVec 32) : Fin 2 → Nat :=
  let c0_i32_333 : BitVec 32 := 0#32
  ![v663.toNat, 0]

def k0_off135 (i : grid0.Coords) : Fin 1 → Nat :=
  let arg0 : BitVec 32 := BitVec.ofNat 32 (i 0).val
  let c128_i32_334 : BitVec 32 := 128#32
  let v670 : BitVec 32 := Scalar.muli arg0 c128_i32_334
  let c67_i32 : BitVec 32 := 67#32
  let v671 : BitVec 32 := Scalar.addi v670 c67_i32
  let v672 : Index := Scalar.indexCast v671
  ![v672.toNat]
def k0_off136 (v673 : BitVec 32) : Fin 2 → Nat :=
  let c0_i32_338 : BitVec 32 := 0#32
  ![v673.toNat, 0]

def k0_off137 (i : grid0.Coords) : Fin 1 → Nat :=
  let arg0 : BitVec 32 := BitVec.ofNat 32 (i 0).val
  let c128_i32_339 : BitVec 32 := 128#32
  let v680 : BitVec 32 := Scalar.muli arg0 c128_i32_339
  let c68_i32 : BitVec 32 := 68#32
  let v681 : BitVec 32 := Scalar.addi v680 c68_i32
  let v682 : Index := Scalar.indexCast v681
  ![v682.toNat]
def k0_off138 (v683 : BitVec 32) : Fin 2 → Nat :=
  let c0_i32_343 : BitVec 32 := 0#32
  ![v683.toNat, 0]

def k0_off139 (i : grid0.Coords) : Fin 1 → Nat :=
  let arg0 : BitVec 32 := BitVec.ofNat 32 (i 0).val
  let c128_i32_344 : BitVec 32 := 128#32
  let v690 : BitVec 32 := Scalar.muli arg0 c128_i32_344
  let c69_i32 : BitVec 32 := 69#32
  let v691 : BitVec 32 := Scalar.addi v690 c69_i32
  let v692 : Index := Scalar.indexCast v691
  ![v692.toNat]
def k0_off140 (v693 : BitVec 32) : Fin 2 → Nat :=
  let c0_i32_348 : BitVec 32 := 0#32
  ![v693.toNat, 0]

def k0_off141 (i : grid0.Coords) : Fin 1 → Nat :=
  let arg0 : BitVec 32 := BitVec.ofNat 32 (i 0).val
  let c128_i32_349 : BitVec 32 := 128#32
  let v700 : BitVec 32 := Scalar.muli arg0 c128_i32_349
  let c70_i32 : BitVec 32 := 70#32
  let v701 : BitVec 32 := Scalar.addi v700 c70_i32
  let v702 : Index := Scalar.indexCast v701
  ![v702.toNat]
def k0_off142 (v703 : BitVec 32) : Fin 2 → Nat :=
  let c0_i32_353 : BitVec 32 := 0#32
  ![v703.toNat, 0]

def k0_off143 (i : grid0.Coords) : Fin 1 → Nat :=
  let arg0 : BitVec 32 := BitVec.ofNat 32 (i 0).val
  let c128_i32_354 : BitVec 32 := 128#32
  let v710 : BitVec 32 := Scalar.muli arg0 c128_i32_354
  let c71_i32 : BitVec 32 := 71#32
  let v711 : BitVec 32 := Scalar.addi v710 c71_i32
  let v712 : Index := Scalar.indexCast v711
  ![v712.toNat]
def k0_off144 (v713 : BitVec 32) : Fin 2 → Nat :=
  let c0_i32_358 : BitVec 32 := 0#32
  ![v713.toNat, 0]

def k0_off145 (i : grid0.Coords) : Fin 1 → Nat :=
  let arg0 : BitVec 32 := BitVec.ofNat 32 (i 0).val
  let c128_i32_359 : BitVec 32 := 128#32
  let v720 : BitVec 32 := Scalar.muli arg0 c128_i32_359
  let c72_i32 : BitVec 32 := 72#32
  let v721 : BitVec 32 := Scalar.addi v720 c72_i32
  let v722 : Index := Scalar.indexCast v721
  ![v722.toNat]
def k0_off146 (v723 : BitVec 32) : Fin 2 → Nat :=
  let c0_i32_363 : BitVec 32 := 0#32
  ![v723.toNat, 0]

def k0_off147 (i : grid0.Coords) : Fin 1 → Nat :=
  let arg0 : BitVec 32 := BitVec.ofNat 32 (i 0).val
  let c128_i32_364 : BitVec 32 := 128#32
  let v730 : BitVec 32 := Scalar.muli arg0 c128_i32_364
  let c73_i32 : BitVec 32 := 73#32
  let v731 : BitVec 32 := Scalar.addi v730 c73_i32
  let v732 : Index := Scalar.indexCast v731
  ![v732.toNat]
def k0_off148 (v733 : BitVec 32) : Fin 2 → Nat :=
  let c0_i32_368 : BitVec 32 := 0#32
  ![v733.toNat, 0]

def k0_off149 (i : grid0.Coords) : Fin 1 → Nat :=
  let arg0 : BitVec 32 := BitVec.ofNat 32 (i 0).val
  let c128_i32_369 : BitVec 32 := 128#32
  let v740 : BitVec 32 := Scalar.muli arg0 c128_i32_369
  let c74_i32 : BitVec 32 := 74#32
  let v741 : BitVec 32 := Scalar.addi v740 c74_i32
  let v742 : Index := Scalar.indexCast v741
  ![v742.toNat]
def k0_off150 (v743 : BitVec 32) : Fin 2 → Nat :=
  let c0_i32_373 : BitVec 32 := 0#32
  ![v743.toNat, 0]

def k0_off151 (i : grid0.Coords) : Fin 1 → Nat :=
  let arg0 : BitVec 32 := BitVec.ofNat 32 (i 0).val
  let c128_i32_374 : BitVec 32 := 128#32
  let v750 : BitVec 32 := Scalar.muli arg0 c128_i32_374
  let c75_i32 : BitVec 32 := 75#32
  let v751 : BitVec 32 := Scalar.addi v750 c75_i32
  let v752 : Index := Scalar.indexCast v751
  ![v752.toNat]
def k0_off152 (v753 : BitVec 32) : Fin 2 → Nat :=
  let c0_i32_378 : BitVec 32 := 0#32
  ![v753.toNat, 0]

def k0_off153 (i : grid0.Coords) : Fin 1 → Nat :=
  let arg0 : BitVec 32 := BitVec.ofNat 32 (i 0).val
  let c128_i32_379 : BitVec 32 := 128#32
  let v760 : BitVec 32 := Scalar.muli arg0 c128_i32_379
  let c76_i32 : BitVec 32 := 76#32
  let v761 : BitVec 32 := Scalar.addi v760 c76_i32
  let v762 : Index := Scalar.indexCast v761
  ![v762.toNat]
def k0_off154 (v763 : BitVec 32) : Fin 2 → Nat :=
  let c0_i32_383 : BitVec 32 := 0#32
  ![v763.toNat, 0]

def k0_off155 (i : grid0.Coords) : Fin 1 → Nat :=
  let arg0 : BitVec 32 := BitVec.ofNat 32 (i 0).val
  let c128_i32_384 : BitVec 32 := 128#32
  let v770 : BitVec 32 := Scalar.muli arg0 c128_i32_384
  let c77_i32 : BitVec 32 := 77#32
  let v771 : BitVec 32 := Scalar.addi v770 c77_i32
  let v772 : Index := Scalar.indexCast v771
  ![v772.toNat]
def k0_off156 (v773 : BitVec 32) : Fin 2 → Nat :=
  let c0_i32_388 : BitVec 32 := 0#32
  ![v773.toNat, 0]

def k0_off157 (i : grid0.Coords) : Fin 1 → Nat :=
  let arg0 : BitVec 32 := BitVec.ofNat 32 (i 0).val
  let c128_i32_389 : BitVec 32 := 128#32
  let v780 : BitVec 32 := Scalar.muli arg0 c128_i32_389
  let c78_i32 : BitVec 32 := 78#32
  let v781 : BitVec 32 := Scalar.addi v780 c78_i32
  let v782 : Index := Scalar.indexCast v781
  ![v782.toNat]
def k0_off158 (v783 : BitVec 32) : Fin 2 → Nat :=
  let c0_i32_393 : BitVec 32 := 0#32
  ![v783.toNat, 0]

def k0_off159 (i : grid0.Coords) : Fin 1 → Nat :=
  let arg0 : BitVec 32 := BitVec.ofNat 32 (i 0).val
  let c128_i32_394 : BitVec 32 := 128#32
  let v790 : BitVec 32 := Scalar.muli arg0 c128_i32_394
  let c79_i32 : BitVec 32 := 79#32
  let v791 : BitVec 32 := Scalar.addi v790 c79_i32
  let v792 : Index := Scalar.indexCast v791
  ![v792.toNat]
def k0_off160 (v793 : BitVec 32) : Fin 2 → Nat :=
  let c0_i32_398 : BitVec 32 := 0#32
  ![v793.toNat, 0]

def k0_off161 (i : grid0.Coords) : Fin 1 → Nat :=
  let arg0 : BitVec 32 := BitVec.ofNat 32 (i 0).val
  let c128_i32_399 : BitVec 32 := 128#32
  let v800 : BitVec 32 := Scalar.muli arg0 c128_i32_399
  let c80_i32 : BitVec 32 := 80#32
  let v801 : BitVec 32 := Scalar.addi v800 c80_i32
  let v802 : Index := Scalar.indexCast v801
  ![v802.toNat]
def k0_off162 (v803 : BitVec 32) : Fin 2 → Nat :=
  let c0_i32_403 : BitVec 32 := 0#32
  ![v803.toNat, 0]

def k0_off163 (i : grid0.Coords) : Fin 1 → Nat :=
  let arg0 : BitVec 32 := BitVec.ofNat 32 (i 0).val
  let c128_i32_404 : BitVec 32 := 128#32
  let v810 : BitVec 32 := Scalar.muli arg0 c128_i32_404
  let c81_i32 : BitVec 32 := 81#32
  let v811 : BitVec 32 := Scalar.addi v810 c81_i32
  let v812 : Index := Scalar.indexCast v811
  ![v812.toNat]
def k0_off164 (v813 : BitVec 32) : Fin 2 → Nat :=
  let c0_i32_408 : BitVec 32 := 0#32
  ![v813.toNat, 0]

def k0_off165 (i : grid0.Coords) : Fin 1 → Nat :=
  let arg0 : BitVec 32 := BitVec.ofNat 32 (i 0).val
  let c128_i32_409 : BitVec 32 := 128#32
  let v820 : BitVec 32 := Scalar.muli arg0 c128_i32_409
  let c82_i32 : BitVec 32 := 82#32
  let v821 : BitVec 32 := Scalar.addi v820 c82_i32
  let v822 : Index := Scalar.indexCast v821
  ![v822.toNat]
def k0_off166 (v823 : BitVec 32) : Fin 2 → Nat :=
  let c0_i32_413 : BitVec 32 := 0#32
  ![v823.toNat, 0]

def k0_off167 (i : grid0.Coords) : Fin 1 → Nat :=
  let arg0 : BitVec 32 := BitVec.ofNat 32 (i 0).val
  let c128_i32_414 : BitVec 32 := 128#32
  let v830 : BitVec 32 := Scalar.muli arg0 c128_i32_414
  let c83_i32 : BitVec 32 := 83#32
  let v831 : BitVec 32 := Scalar.addi v830 c83_i32
  let v832 : Index := Scalar.indexCast v831
  ![v832.toNat]
def k0_off168 (v833 : BitVec 32) : Fin 2 → Nat :=
  let c0_i32_418 : BitVec 32 := 0#32
  ![v833.toNat, 0]

def k0_off169 (i : grid0.Coords) : Fin 1 → Nat :=
  let arg0 : BitVec 32 := BitVec.ofNat 32 (i 0).val
  let c128_i32_419 : BitVec 32 := 128#32
  let v840 : BitVec 32 := Scalar.muli arg0 c128_i32_419
  let c84_i32 : BitVec 32 := 84#32
  let v841 : BitVec 32 := Scalar.addi v840 c84_i32
  let v842 : Index := Scalar.indexCast v841
  ![v842.toNat]
def k0_off170 (v843 : BitVec 32) : Fin 2 → Nat :=
  let c0_i32_423 : BitVec 32 := 0#32
  ![v843.toNat, 0]

def k0_off171 (i : grid0.Coords) : Fin 1 → Nat :=
  let arg0 : BitVec 32 := BitVec.ofNat 32 (i 0).val
  let c128_i32_424 : BitVec 32 := 128#32
  let v850 : BitVec 32 := Scalar.muli arg0 c128_i32_424
  let c85_i32 : BitVec 32 := 85#32
  let v851 : BitVec 32 := Scalar.addi v850 c85_i32
  let v852 : Index := Scalar.indexCast v851
  ![v852.toNat]
def k0_off172 (v853 : BitVec 32) : Fin 2 → Nat :=
  let c0_i32_428 : BitVec 32 := 0#32
  ![v853.toNat, 0]

def k0_off173 (i : grid0.Coords) : Fin 1 → Nat :=
  let arg0 : BitVec 32 := BitVec.ofNat 32 (i 0).val
  let c128_i32_429 : BitVec 32 := 128#32
  let v860 : BitVec 32 := Scalar.muli arg0 c128_i32_429
  let c86_i32 : BitVec 32 := 86#32
  let v861 : BitVec 32 := Scalar.addi v860 c86_i32
  let v862 : Index := Scalar.indexCast v861
  ![v862.toNat]
def k0_off174 (v863 : BitVec 32) : Fin 2 → Nat :=
  let c0_i32_433 : BitVec 32 := 0#32
  ![v863.toNat, 0]

def k0_off175 (i : grid0.Coords) : Fin 1 → Nat :=
  let arg0 : BitVec 32 := BitVec.ofNat 32 (i 0).val
  let c128_i32_434 : BitVec 32 := 128#32
  let v870 : BitVec 32 := Scalar.muli arg0 c128_i32_434
  let c87_i32 : BitVec 32 := 87#32
  let v871 : BitVec 32 := Scalar.addi v870 c87_i32
  let v872 : Index := Scalar.indexCast v871
  ![v872.toNat]
def k0_off176 (v873 : BitVec 32) : Fin 2 → Nat :=
  let c0_i32_438 : BitVec 32 := 0#32
  ![v873.toNat, 0]

def k0_off177 (i : grid0.Coords) : Fin 1 → Nat :=
  let arg0 : BitVec 32 := BitVec.ofNat 32 (i 0).val
  let c128_i32_439 : BitVec 32 := 128#32
  let v880 : BitVec 32 := Scalar.muli arg0 c128_i32_439
  let c88_i32 : BitVec 32 := 88#32
  let v881 : BitVec 32 := Scalar.addi v880 c88_i32
  let v882 : Index := Scalar.indexCast v881
  ![v882.toNat]
def k0_off178 (v883 : BitVec 32) : Fin 2 → Nat :=
  let c0_i32_443 : BitVec 32 := 0#32
  ![v883.toNat, 0]

def k0_off179 (i : grid0.Coords) : Fin 1 → Nat :=
  let arg0 : BitVec 32 := BitVec.ofNat 32 (i 0).val
  let c128_i32_444 : BitVec 32 := 128#32
  let v890 : BitVec 32 := Scalar.muli arg0 c128_i32_444
  let c89_i32 : BitVec 32 := 89#32
  let v891 : BitVec 32 := Scalar.addi v890 c89_i32
  let v892 : Index := Scalar.indexCast v891
  ![v892.toNat]
def k0_off180 (v893 : BitVec 32) : Fin 2 → Nat :=
  let c0_i32_448 : BitVec 32 := 0#32
  ![v893.toNat, 0]

def k0_off181 (i : grid0.Coords) : Fin 1 → Nat :=
  let arg0 : BitVec 32 := BitVec.ofNat 32 (i 0).val
  let c128_i32_449 : BitVec 32 := 128#32
  let v900 : BitVec 32 := Scalar.muli arg0 c128_i32_449
  let c90_i32 : BitVec 32 := 90#32
  let v901 : BitVec 32 := Scalar.addi v900 c90_i32
  let v902 : Index := Scalar.indexCast v901
  ![v902.toNat]
def k0_off182 (v903 : BitVec 32) : Fin 2 → Nat :=
  let c0_i32_453 : BitVec 32 := 0#32
  ![v903.toNat, 0]

def k0_off183 (i : grid0.Coords) : Fin 1 → Nat :=
  let arg0 : BitVec 32 := BitVec.ofNat 32 (i 0).val
  let c128_i32_454 : BitVec 32 := 128#32
  let v910 : BitVec 32 := Scalar.muli arg0 c128_i32_454
  let c91_i32 : BitVec 32 := 91#32
  let v911 : BitVec 32 := Scalar.addi v910 c91_i32
  let v912 : Index := Scalar.indexCast v911
  ![v912.toNat]
def k0_off184 (v913 : BitVec 32) : Fin 2 → Nat :=
  let c0_i32_458 : BitVec 32 := 0#32
  ![v913.toNat, 0]

def k0_off185 (i : grid0.Coords) : Fin 1 → Nat :=
  let arg0 : BitVec 32 := BitVec.ofNat 32 (i 0).val
  let c128_i32_459 : BitVec 32 := 128#32
  let v920 : BitVec 32 := Scalar.muli arg0 c128_i32_459
  let c92_i32 : BitVec 32 := 92#32
  let v921 : BitVec 32 := Scalar.addi v920 c92_i32
  let v922 : Index := Scalar.indexCast v921
  ![v922.toNat]
def k0_off186 (v923 : BitVec 32) : Fin 2 → Nat :=
  let c0_i32_463 : BitVec 32 := 0#32
  ![v923.toNat, 0]

def k0_off187 (i : grid0.Coords) : Fin 1 → Nat :=
  let arg0 : BitVec 32 := BitVec.ofNat 32 (i 0).val
  let c128_i32_464 : BitVec 32 := 128#32
  let v930 : BitVec 32 := Scalar.muli arg0 c128_i32_464
  let c93_i32 : BitVec 32 := 93#32
  let v931 : BitVec 32 := Scalar.addi v930 c93_i32
  let v932 : Index := Scalar.indexCast v931
  ![v932.toNat]
def k0_off188 (v933 : BitVec 32) : Fin 2 → Nat :=
  let c0_i32_468 : BitVec 32 := 0#32
  ![v933.toNat, 0]

def k0_off189 (i : grid0.Coords) : Fin 1 → Nat :=
  let arg0 : BitVec 32 := BitVec.ofNat 32 (i 0).val
  let c128_i32_469 : BitVec 32 := 128#32
  let v940 : BitVec 32 := Scalar.muli arg0 c128_i32_469
  let c94_i32 : BitVec 32 := 94#32
  let v941 : BitVec 32 := Scalar.addi v940 c94_i32
  let v942 : Index := Scalar.indexCast v941
  ![v942.toNat]
def k0_off190 (v943 : BitVec 32) : Fin 2 → Nat :=
  let c0_i32_473 : BitVec 32 := 0#32
  ![v943.toNat, 0]

def k0_off191 (i : grid0.Coords) : Fin 1 → Nat :=
  let arg0 : BitVec 32 := BitVec.ofNat 32 (i 0).val
  let c128_i32_474 : BitVec 32 := 128#32
  let v950 : BitVec 32 := Scalar.muli arg0 c128_i32_474
  let c95_i32 : BitVec 32 := 95#32
  let v951 : BitVec 32 := Scalar.addi v950 c95_i32
  let v952 : Index := Scalar.indexCast v951
  ![v952.toNat]
def k0_off192 (v953 : BitVec 32) : Fin 2 → Nat :=
  let c0_i32_478 : BitVec 32 := 0#32
  ![v953.toNat, 0]

def k0_off193 (i : grid0.Coords) : Fin 1 → Nat :=
  let arg0 : BitVec 32 := BitVec.ofNat 32 (i 0).val
  let c128_i32_479 : BitVec 32 := 128#32
  let v960 : BitVec 32 := Scalar.muli arg0 c128_i32_479
  let c96_i32 : BitVec 32 := 96#32
  let v961 : BitVec 32 := Scalar.addi v960 c96_i32
  let v962 : Index := Scalar.indexCast v961
  ![v962.toNat]
def k0_off194 (v963 : BitVec 32) : Fin 2 → Nat :=
  let c0_i32_483 : BitVec 32 := 0#32
  ![v963.toNat, 0]

def k0_off195 (i : grid0.Coords) : Fin 1 → Nat :=
  let arg0 : BitVec 32 := BitVec.ofNat 32 (i 0).val
  let c128_i32_484 : BitVec 32 := 128#32
  let v970 : BitVec 32 := Scalar.muli arg0 c128_i32_484
  let c97_i32 : BitVec 32 := 97#32
  let v971 : BitVec 32 := Scalar.addi v970 c97_i32
  let v972 : Index := Scalar.indexCast v971
  ![v972.toNat]
def k0_off196 (v973 : BitVec 32) : Fin 2 → Nat :=
  let c0_i32_488 : BitVec 32 := 0#32
  ![v973.toNat, 0]

def k0_off197 (i : grid0.Coords) : Fin 1 → Nat :=
  let arg0 : BitVec 32 := BitVec.ofNat 32 (i 0).val
  let c128_i32_489 : BitVec 32 := 128#32
  let v980 : BitVec 32 := Scalar.muli arg0 c128_i32_489
  let c98_i32 : BitVec 32 := 98#32
  let v981 : BitVec 32 := Scalar.addi v980 c98_i32
  let v982 : Index := Scalar.indexCast v981
  ![v982.toNat]
def k0_off198 (v983 : BitVec 32) : Fin 2 → Nat :=
  let c0_i32_493 : BitVec 32 := 0#32
  ![v983.toNat, 0]

def k0_off199 (i : grid0.Coords) : Fin 1 → Nat :=
  let arg0 : BitVec 32 := BitVec.ofNat 32 (i 0).val
  let c128_i32_494 : BitVec 32 := 128#32
  let v990 : BitVec 32 := Scalar.muli arg0 c128_i32_494
  let c99_i32 : BitVec 32 := 99#32
  let v991 : BitVec 32 := Scalar.addi v990 c99_i32
  let v992 : Index := Scalar.indexCast v991
  ![v992.toNat]
def k0_off200 (v993 : BitVec 32) : Fin 2 → Nat :=
  let c0_i32_498 : BitVec 32 := 0#32
  ![v993.toNat, 0]

def k0_off201 (i : grid0.Coords) : Fin 1 → Nat :=
  let arg0 : BitVec 32 := BitVec.ofNat 32 (i 0).val
  let c128_i32_499 : BitVec 32 := 128#32
  let v1000 : BitVec 32 := Scalar.muli arg0 c128_i32_499
  let c100_i32 : BitVec 32 := 100#32
  let v1001 : BitVec 32 := Scalar.addi v1000 c100_i32
  let v1002 : Index := Scalar.indexCast v1001
  ![v1002.toNat]
def k0_off202 (v1003 : BitVec 32) : Fin 2 → Nat :=
  let c0_i32_503 : BitVec 32 := 0#32
  ![v1003.toNat, 0]

def k0_off203 (i : grid0.Coords) : Fin 1 → Nat :=
  let arg0 : BitVec 32 := BitVec.ofNat 32 (i 0).val
  let c128_i32_504 : BitVec 32 := 128#32
  let v1010 : BitVec 32 := Scalar.muli arg0 c128_i32_504
  let c101_i32 : BitVec 32 := 101#32
  let v1011 : BitVec 32 := Scalar.addi v1010 c101_i32
  let v1012 : Index := Scalar.indexCast v1011
  ![v1012.toNat]
def k0_off204 (v1013 : BitVec 32) : Fin 2 → Nat :=
  let c0_i32_508 : BitVec 32 := 0#32
  ![v1013.toNat, 0]

def k0_off205 (i : grid0.Coords) : Fin 1 → Nat :=
  let arg0 : BitVec 32 := BitVec.ofNat 32 (i 0).val
  let c128_i32_509 : BitVec 32 := 128#32
  let v1020 : BitVec 32 := Scalar.muli arg0 c128_i32_509
  let c102_i32 : BitVec 32 := 102#32
  let v1021 : BitVec 32 := Scalar.addi v1020 c102_i32
  let v1022 : Index := Scalar.indexCast v1021
  ![v1022.toNat]
def k0_off206 (v1023 : BitVec 32) : Fin 2 → Nat :=
  let c0_i32_513 : BitVec 32 := 0#32
  ![v1023.toNat, 0]

def k0_off207 (i : grid0.Coords) : Fin 1 → Nat :=
  let arg0 : BitVec 32 := BitVec.ofNat 32 (i 0).val
  let c128_i32_514 : BitVec 32 := 128#32
  let v1030 : BitVec 32 := Scalar.muli arg0 c128_i32_514
  let c103_i32 : BitVec 32 := 103#32
  let v1031 : BitVec 32 := Scalar.addi v1030 c103_i32
  let v1032 : Index := Scalar.indexCast v1031
  ![v1032.toNat]
def k0_off208 (v1033 : BitVec 32) : Fin 2 → Nat :=
  let c0_i32_518 : BitVec 32 := 0#32
  ![v1033.toNat, 0]

def k0_off209 (i : grid0.Coords) : Fin 1 → Nat :=
  let arg0 : BitVec 32 := BitVec.ofNat 32 (i 0).val
  let c128_i32_519 : BitVec 32 := 128#32
  let v1040 : BitVec 32 := Scalar.muli arg0 c128_i32_519
  let c104_i32 : BitVec 32 := 104#32
  let v1041 : BitVec 32 := Scalar.addi v1040 c104_i32
  let v1042 : Index := Scalar.indexCast v1041
  ![v1042.toNat]
def k0_off210 (v1043 : BitVec 32) : Fin 2 → Nat :=
  let c0_i32_523 : BitVec 32 := 0#32
  ![v1043.toNat, 0]

def k0_off211 (i : grid0.Coords) : Fin 1 → Nat :=
  let arg0 : BitVec 32 := BitVec.ofNat 32 (i 0).val
  let c128_i32_524 : BitVec 32 := 128#32
  let v1050 : BitVec 32 := Scalar.muli arg0 c128_i32_524
  let c105_i32 : BitVec 32 := 105#32
  let v1051 : BitVec 32 := Scalar.addi v1050 c105_i32
  let v1052 : Index := Scalar.indexCast v1051
  ![v1052.toNat]
def k0_off212 (v1053 : BitVec 32) : Fin 2 → Nat :=
  let c0_i32_528 : BitVec 32 := 0#32
  ![v1053.toNat, 0]

def k0_off213 (i : grid0.Coords) : Fin 1 → Nat :=
  let arg0 : BitVec 32 := BitVec.ofNat 32 (i 0).val
  let c128_i32_529 : BitVec 32 := 128#32
  let v1060 : BitVec 32 := Scalar.muli arg0 c128_i32_529
  let c106_i32 : BitVec 32 := 106#32
  let v1061 : BitVec 32 := Scalar.addi v1060 c106_i32
  let v1062 : Index := Scalar.indexCast v1061
  ![v1062.toNat]
def k0_off214 (v1063 : BitVec 32) : Fin 2 → Nat :=
  let c0_i32_533 : BitVec 32 := 0#32
  ![v1063.toNat, 0]

def k0_off215 (i : grid0.Coords) : Fin 1 → Nat :=
  let arg0 : BitVec 32 := BitVec.ofNat 32 (i 0).val
  let c128_i32_534 : BitVec 32 := 128#32
  let v1070 : BitVec 32 := Scalar.muli arg0 c128_i32_534
  let c107_i32 : BitVec 32 := 107#32
  let v1071 : BitVec 32 := Scalar.addi v1070 c107_i32
  let v1072 : Index := Scalar.indexCast v1071
  ![v1072.toNat]
def k0_off216 (v1073 : BitVec 32) : Fin 2 → Nat :=
  let c0_i32_538 : BitVec 32 := 0#32
  ![v1073.toNat, 0]

def k0_off217 (i : grid0.Coords) : Fin 1 → Nat :=
  let arg0 : BitVec 32 := BitVec.ofNat 32 (i 0).val
  let c128_i32_539 : BitVec 32 := 128#32
  let v1080 : BitVec 32 := Scalar.muli arg0 c128_i32_539
  let c108_i32 : BitVec 32 := 108#32
  let v1081 : BitVec 32 := Scalar.addi v1080 c108_i32
  let v1082 : Index := Scalar.indexCast v1081
  ![v1082.toNat]
def k0_off218 (v1083 : BitVec 32) : Fin 2 → Nat :=
  let c0_i32_543 : BitVec 32 := 0#32
  ![v1083.toNat, 0]

def k0_off219 (i : grid0.Coords) : Fin 1 → Nat :=
  let arg0 : BitVec 32 := BitVec.ofNat 32 (i 0).val
  let c128_i32_544 : BitVec 32 := 128#32
  let v1090 : BitVec 32 := Scalar.muli arg0 c128_i32_544
  let c109_i32 : BitVec 32 := 109#32
  let v1091 : BitVec 32 := Scalar.addi v1090 c109_i32
  let v1092 : Index := Scalar.indexCast v1091
  ![v1092.toNat]
def k0_off220 (v1093 : BitVec 32) : Fin 2 → Nat :=
  let c0_i32_548 : BitVec 32 := 0#32
  ![v1093.toNat, 0]

def k0_off221 (i : grid0.Coords) : Fin 1 → Nat :=
  let arg0 : BitVec 32 := BitVec.ofNat 32 (i 0).val
  let c128_i32_549 : BitVec 32 := 128#32
  let v1100 : BitVec 32 := Scalar.muli arg0 c128_i32_549
  let c110_i32 : BitVec 32 := 110#32
  let v1101 : BitVec 32 := Scalar.addi v1100 c110_i32
  let v1102 : Index := Scalar.indexCast v1101
  ![v1102.toNat]
def k0_off222 (v1103 : BitVec 32) : Fin 2 → Nat :=
  let c0_i32_553 : BitVec 32 := 0#32
  ![v1103.toNat, 0]

def k0_off223 (i : grid0.Coords) : Fin 1 → Nat :=
  let arg0 : BitVec 32 := BitVec.ofNat 32 (i 0).val
  let c128_i32_554 : BitVec 32 := 128#32
  let v1110 : BitVec 32 := Scalar.muli arg0 c128_i32_554
  let c111_i32 : BitVec 32 := 111#32
  let v1111 : BitVec 32 := Scalar.addi v1110 c111_i32
  let v1112 : Index := Scalar.indexCast v1111
  ![v1112.toNat]
def k0_off224 (v1113 : BitVec 32) : Fin 2 → Nat :=
  let c0_i32_558 : BitVec 32 := 0#32
  ![v1113.toNat, 0]

def k0_off225 (i : grid0.Coords) : Fin 1 → Nat :=
  let arg0 : BitVec 32 := BitVec.ofNat 32 (i 0).val
  let c128_i32_559 : BitVec 32 := 128#32
  let v1120 : BitVec 32 := Scalar.muli arg0 c128_i32_559
  let c112_i32 : BitVec 32 := 112#32
  let v1121 : BitVec 32 := Scalar.addi v1120 c112_i32
  let v1122 : Index := Scalar.indexCast v1121
  ![v1122.toNat]
def k0_off226 (v1123 : BitVec 32) : Fin 2 → Nat :=
  let c0_i32_563 : BitVec 32 := 0#32
  ![v1123.toNat, 0]

def k0_off227 (i : grid0.Coords) : Fin 1 → Nat :=
  let arg0 : BitVec 32 := BitVec.ofNat 32 (i 0).val
  let c128_i32_564 : BitVec 32 := 128#32
  let v1130 : BitVec 32 := Scalar.muli arg0 c128_i32_564
  let c113_i32 : BitVec 32 := 113#32
  let v1131 : BitVec 32 := Scalar.addi v1130 c113_i32
  let v1132 : Index := Scalar.indexCast v1131
  ![v1132.toNat]
def k0_off228 (v1133 : BitVec 32) : Fin 2 → Nat :=
  let c0_i32_568 : BitVec 32 := 0#32
  ![v1133.toNat, 0]

def k0_off229 (i : grid0.Coords) : Fin 1 → Nat :=
  let arg0 : BitVec 32 := BitVec.ofNat 32 (i 0).val
  let c128_i32_569 : BitVec 32 := 128#32
  let v1140 : BitVec 32 := Scalar.muli arg0 c128_i32_569
  let c114_i32 : BitVec 32 := 114#32
  let v1141 : BitVec 32 := Scalar.addi v1140 c114_i32
  let v1142 : Index := Scalar.indexCast v1141
  ![v1142.toNat]
def k0_off230 (v1143 : BitVec 32) : Fin 2 → Nat :=
  let c0_i32_573 : BitVec 32 := 0#32
  ![v1143.toNat, 0]

def k0_off231 (i : grid0.Coords) : Fin 1 → Nat :=
  let arg0 : BitVec 32 := BitVec.ofNat 32 (i 0).val
  let c128_i32_574 : BitVec 32 := 128#32
  let v1150 : BitVec 32 := Scalar.muli arg0 c128_i32_574
  let c115_i32 : BitVec 32 := 115#32
  let v1151 : BitVec 32 := Scalar.addi v1150 c115_i32
  let v1152 : Index := Scalar.indexCast v1151
  ![v1152.toNat]
def k0_off232 (v1153 : BitVec 32) : Fin 2 → Nat :=
  let c0_i32_578 : BitVec 32 := 0#32
  ![v1153.toNat, 0]

def k0_off233 (i : grid0.Coords) : Fin 1 → Nat :=
  let arg0 : BitVec 32 := BitVec.ofNat 32 (i 0).val
  let c128_i32_579 : BitVec 32 := 128#32
  let v1160 : BitVec 32 := Scalar.muli arg0 c128_i32_579
  let c116_i32 : BitVec 32 := 116#32
  let v1161 : BitVec 32 := Scalar.addi v1160 c116_i32
  let v1162 : Index := Scalar.indexCast v1161
  ![v1162.toNat]
def k0_off234 (v1163 : BitVec 32) : Fin 2 → Nat :=
  let c0_i32_583 : BitVec 32 := 0#32
  ![v1163.toNat, 0]

def k0_off235 (i : grid0.Coords) : Fin 1 → Nat :=
  let arg0 : BitVec 32 := BitVec.ofNat 32 (i 0).val
  let c128_i32_584 : BitVec 32 := 128#32
  let v1170 : BitVec 32 := Scalar.muli arg0 c128_i32_584
  let c117_i32 : BitVec 32 := 117#32
  let v1171 : BitVec 32 := Scalar.addi v1170 c117_i32
  let v1172 : Index := Scalar.indexCast v1171
  ![v1172.toNat]
def k0_off236 (v1173 : BitVec 32) : Fin 2 → Nat :=
  let c0_i32_588 : BitVec 32 := 0#32
  ![v1173.toNat, 0]

def k0_off237 (i : grid0.Coords) : Fin 1 → Nat :=
  let arg0 : BitVec 32 := BitVec.ofNat 32 (i 0).val
  let c128_i32_589 : BitVec 32 := 128#32
  let v1180 : BitVec 32 := Scalar.muli arg0 c128_i32_589
  let c118_i32 : BitVec 32 := 118#32
  let v1181 : BitVec 32 := Scalar.addi v1180 c118_i32
  let v1182 : Index := Scalar.indexCast v1181
  ![v1182.toNat]
def k0_off238 (v1183 : BitVec 32) : Fin 2 → Nat :=
  let c0_i32_593 : BitVec 32 := 0#32
  ![v1183.toNat, 0]

def k0_off239 (i : grid0.Coords) : Fin 1 → Nat :=
  let arg0 : BitVec 32 := BitVec.ofNat 32 (i 0).val
  let c128_i32_594 : BitVec 32 := 128#32
  let v1190 : BitVec 32 := Scalar.muli arg0 c128_i32_594
  let c119_i32 : BitVec 32 := 119#32
  let v1191 : BitVec 32 := Scalar.addi v1190 c119_i32
  let v1192 : Index := Scalar.indexCast v1191
  ![v1192.toNat]
def k0_off240 (v1193 : BitVec 32) : Fin 2 → Nat :=
  let c0_i32_598 : BitVec 32 := 0#32
  ![v1193.toNat, 0]

def k0_off241 (i : grid0.Coords) : Fin 1 → Nat :=
  let arg0 : BitVec 32 := BitVec.ofNat 32 (i 0).val
  let c128_i32_599 : BitVec 32 := 128#32
  let v1200 : BitVec 32 := Scalar.muli arg0 c128_i32_599
  let c120_i32 : BitVec 32 := 120#32
  let v1201 : BitVec 32 := Scalar.addi v1200 c120_i32
  let v1202 : Index := Scalar.indexCast v1201
  ![v1202.toNat]
def k0_off242 (v1203 : BitVec 32) : Fin 2 → Nat :=
  let c0_i32_603 : BitVec 32 := 0#32
  ![v1203.toNat, 0]

def k0_off243 (i : grid0.Coords) : Fin 1 → Nat :=
  let arg0 : BitVec 32 := BitVec.ofNat 32 (i 0).val
  let c128_i32_604 : BitVec 32 := 128#32
  let v1210 : BitVec 32 := Scalar.muli arg0 c128_i32_604
  let c121_i32 : BitVec 32 := 121#32
  let v1211 : BitVec 32 := Scalar.addi v1210 c121_i32
  let v1212 : Index := Scalar.indexCast v1211
  ![v1212.toNat]
def k0_off244 (v1213 : BitVec 32) : Fin 2 → Nat :=
  let c0_i32_608 : BitVec 32 := 0#32
  ![v1213.toNat, 0]

def k0_off245 (i : grid0.Coords) : Fin 1 → Nat :=
  let arg0 : BitVec 32 := BitVec.ofNat 32 (i 0).val
  let c128_i32_609 : BitVec 32 := 128#32
  let v1220 : BitVec 32 := Scalar.muli arg0 c128_i32_609
  let c122_i32 : BitVec 32 := 122#32
  let v1221 : BitVec 32 := Scalar.addi v1220 c122_i32
  let v1222 : Index := Scalar.indexCast v1221
  ![v1222.toNat]
def k0_off246 (v1223 : BitVec 32) : Fin 2 → Nat :=
  let c0_i32_613 : BitVec 32 := 0#32
  ![v1223.toNat, 0]

def k0_off247 (i : grid0.Coords) : Fin 1 → Nat :=
  let arg0 : BitVec 32 := BitVec.ofNat 32 (i 0).val
  let c128_i32_614 : BitVec 32 := 128#32
  let v1230 : BitVec 32 := Scalar.muli arg0 c128_i32_614
  let c123_i32 : BitVec 32 := 123#32
  let v1231 : BitVec 32 := Scalar.addi v1230 c123_i32
  let v1232 : Index := Scalar.indexCast v1231
  ![v1232.toNat]
def k0_off248 (v1233 : BitVec 32) : Fin 2 → Nat :=
  let c0_i32_618 : BitVec 32 := 0#32
  ![v1233.toNat, 0]

def k0_off249 (i : grid0.Coords) : Fin 1 → Nat :=
  let arg0 : BitVec 32 := BitVec.ofNat 32 (i 0).val
  let c128_i32_619 : BitVec 32 := 128#32
  let v1240 : BitVec 32 := Scalar.muli arg0 c128_i32_619
  let c124_i32 : BitVec 32 := 124#32
  let v1241 : BitVec 32 := Scalar.addi v1240 c124_i32
  let v1242 : Index := Scalar.indexCast v1241
  ![v1242.toNat]
def k0_off250 (v1243 : BitVec 32) : Fin 2 → Nat :=
  let c0_i32_623 : BitVec 32 := 0#32
  ![v1243.toNat, 0]

def k0_off251 (i : grid0.Coords) : Fin 1 → Nat :=
  let arg0 : BitVec 32 := BitVec.ofNat 32 (i 0).val
  let c128_i32_624 : BitVec 32 := 128#32
  let v1250 : BitVec 32 := Scalar.muli arg0 c128_i32_624
  let c125_i32 : BitVec 32 := 125#32
  let v1251 : BitVec 32 := Scalar.addi v1250 c125_i32
  let v1252 : Index := Scalar.indexCast v1251
  ![v1252.toNat]
def k0_off252 (v1253 : BitVec 32) : Fin 2 → Nat :=
  let c0_i32_628 : BitVec 32 := 0#32
  ![v1253.toNat, 0]

def k0_off253 (i : grid0.Coords) : Fin 1 → Nat :=
  let arg0 : BitVec 32 := BitVec.ofNat 32 (i 0).val
  let c128_i32_629 : BitVec 32 := 128#32
  let v1260 : BitVec 32 := Scalar.muli arg0 c128_i32_629
  let c126_i32 : BitVec 32 := 126#32
  let v1261 : BitVec 32 := Scalar.addi v1260 c126_i32
  let v1262 : Index := Scalar.indexCast v1261
  ![v1262.toNat]
def k0_off254 (v1263 : BitVec 32) : Fin 2 → Nat :=
  let c0_i32_633 : BitVec 32 := 0#32
  ![v1263.toNat, 0]

def k0_off255 (i : grid0.Coords) : Fin 1 → Nat :=
  let arg0 : BitVec 32 := BitVec.ofNat 32 (i 0).val
  let c128_i32_634 : BitVec 32 := 128#32
  let v1270 : BitVec 32 := Scalar.muli arg0 c128_i32_634
  let c127_i32 : BitVec 32 := 127#32
  let v1271 : BitVec 32 := Scalar.addi v1270 c127_i32
  let v1272 : Index := Scalar.indexCast v1271
  ![v1272.toNat]
def k0_off256 (v1273 : BitVec 32) : Fin 2 → Nat :=
  let c0_i32_638 : BitVec 32 := 0#32
  ![v1273.toNat, 0]

def k0_chk128 (v1273 : BitVec 32) : Prop :=
  (∀ a, (k0_off256 v1273) a + S1x4096.size a ≤ S16384x4096.size a)
instance k0_chk128.dec : ∀ (v1273 : BitVec 32), Decidable (k0_chk128 v1273) := fun v1273 => decidable_of_iff' _ (Iff.of_eq (k0_chk128.eq_1 v1273))
theorem k0_off256_inb : ∀ (v1273 : BitVec 32) (k0_hw128 : k0_chk128 v1273), ∀ a, (k0_off256 v1273) a + S1x4096.size a ≤ S16384x4096.size a := fun v1273 k0_hw128 => k0_hw128

def k0_off257 (v3 : BitVec 32) : Fin 2 → Nat :=
  let c0_i32_642 : BitVec 32 := 0#32
  ![v3.toNat, 0]

def k0_chk1 (v3 : BitVec 32) : Prop :=
  (∀ a, (k0_off2 v3) a + S1x4096.size a ≤ S16384x4096.size a) ∧
  (∀ a, (k0_off257 v3) a + S1x4096.size a ≤ S16384x4096.size a)
instance k0_chk1.dec : ∀ (v3 : BitVec 32), Decidable (k0_chk1 v3) := fun v3 => decidable_of_iff' _ (Iff.of_eq (k0_chk1.eq_1 v3))
theorem k0_off2_inb : ∀ (v3 : BitVec 32) (k0_hw1 : k0_chk1 v3), ∀ a, (k0_off2 v3) a + S1x4096.size a ≤ S16384x4096.size a := fun v3 k0_hw1 => k0_hw1.1
theorem k0_off257_inb : ∀ (v3 : BitVec 32) (k0_hw1 : k0_chk1 v3), ∀ a, (k0_off257 v3) a + S1x4096.size a ≤ S16384x4096.size a := fun v3 k0_hw1 => k0_hw1.2

def k0_off258 (v13 : BitVec 32) : Fin 2 → Nat :=
  let c0_i32_646 : BitVec 32 := 0#32
  ![v13.toNat, 0]

def k0_chk2 (v13 : BitVec 32) : Prop :=
  (∀ a, (k0_off4 v13) a + S1x4096.size a ≤ S16384x4096.size a) ∧
  (∀ a, (k0_off258 v13) a + S1x4096.size a ≤ S16384x4096.size a)
instance k0_chk2.dec : ∀ (v13 : BitVec 32), Decidable (k0_chk2 v13) := fun v13 => decidable_of_iff' _ (Iff.of_eq (k0_chk2.eq_1 v13))
theorem k0_off4_inb : ∀ (v13 : BitVec 32) (k0_hw2 : k0_chk2 v13), ∀ a, (k0_off4 v13) a + S1x4096.size a ≤ S16384x4096.size a := fun v13 k0_hw2 => k0_hw2.1
theorem k0_off258_inb : ∀ (v13 : BitVec 32) (k0_hw2 : k0_chk2 v13), ∀ a, (k0_off258 v13) a + S1x4096.size a ≤ S16384x4096.size a := fun v13 k0_hw2 => k0_hw2.2

def k0_off259 (v23 : BitVec 32) : Fin 2 → Nat :=
  let c0_i32_650 : BitVec 32 := 0#32
  ![v23.toNat, 0]

def k0_chk3 (v23 : BitVec 32) : Prop :=
  (∀ a, (k0_off6 v23) a + S1x4096.size a ≤ S16384x4096.size a) ∧
  (∀ a, (k0_off259 v23) a + S1x4096.size a ≤ S16384x4096.size a)
instance k0_chk3.dec : ∀ (v23 : BitVec 32), Decidable (k0_chk3 v23) := fun v23 => decidable_of_iff' _ (Iff.of_eq (k0_chk3.eq_1 v23))
theorem k0_off6_inb : ∀ (v23 : BitVec 32) (k0_hw3 : k0_chk3 v23), ∀ a, (k0_off6 v23) a + S1x4096.size a ≤ S16384x4096.size a := fun v23 k0_hw3 => k0_hw3.1
theorem k0_off259_inb : ∀ (v23 : BitVec 32) (k0_hw3 : k0_chk3 v23), ∀ a, (k0_off259 v23) a + S1x4096.size a ≤ S16384x4096.size a := fun v23 k0_hw3 => k0_hw3.2

def k0_off260 (v33 : BitVec 32) : Fin 2 → Nat :=
  let c0_i32_654 : BitVec 32 := 0#32
  ![v33.toNat, 0]

def k0_chk4 (v33 : BitVec 32) : Prop :=
  (∀ a, (k0_off8 v33) a + S1x4096.size a ≤ S16384x4096.size a) ∧
  (∀ a, (k0_off260 v33) a + S1x4096.size a ≤ S16384x4096.size a)
instance k0_chk4.dec : ∀ (v33 : BitVec 32), Decidable (k0_chk4 v33) := fun v33 => decidable_of_iff' _ (Iff.of_eq (k0_chk4.eq_1 v33))
theorem k0_off8_inb : ∀ (v33 : BitVec 32) (k0_hw4 : k0_chk4 v33), ∀ a, (k0_off8 v33) a + S1x4096.size a ≤ S16384x4096.size a := fun v33 k0_hw4 => k0_hw4.1
theorem k0_off260_inb : ∀ (v33 : BitVec 32) (k0_hw4 : k0_chk4 v33), ∀ a, (k0_off260 v33) a + S1x4096.size a ≤ S16384x4096.size a := fun v33 k0_hw4 => k0_hw4.2

def k0_off261 (v43 : BitVec 32) : Fin 2 → Nat :=
  let c0_i32_658 : BitVec 32 := 0#32
  ![v43.toNat, 0]

def k0_chk5 (v43 : BitVec 32) : Prop :=
  (∀ a, (k0_off10 v43) a + S1x4096.size a ≤ S16384x4096.size a) ∧
  (∀ a, (k0_off261 v43) a + S1x4096.size a ≤ S16384x4096.size a)
instance k0_chk5.dec : ∀ (v43 : BitVec 32), Decidable (k0_chk5 v43) := fun v43 => decidable_of_iff' _ (Iff.of_eq (k0_chk5.eq_1 v43))
theorem k0_off10_inb : ∀ (v43 : BitVec 32) (k0_hw5 : k0_chk5 v43), ∀ a, (k0_off10 v43) a + S1x4096.size a ≤ S16384x4096.size a := fun v43 k0_hw5 => k0_hw5.1
theorem k0_off261_inb : ∀ (v43 : BitVec 32) (k0_hw5 : k0_chk5 v43), ∀ a, (k0_off261 v43) a + S1x4096.size a ≤ S16384x4096.size a := fun v43 k0_hw5 => k0_hw5.2

def k0_off262 (v53 : BitVec 32) : Fin 2 → Nat :=
  let c0_i32_662 : BitVec 32 := 0#32
  ![v53.toNat, 0]

def k0_chk6 (v53 : BitVec 32) : Prop :=
  (∀ a, (k0_off12 v53) a + S1x4096.size a ≤ S16384x4096.size a) ∧
  (∀ a, (k0_off262 v53) a + S1x4096.size a ≤ S16384x4096.size a)
instance k0_chk6.dec : ∀ (v53 : BitVec 32), Decidable (k0_chk6 v53) := fun v53 => decidable_of_iff' _ (Iff.of_eq (k0_chk6.eq_1 v53))
theorem k0_off12_inb : ∀ (v53 : BitVec 32) (k0_hw6 : k0_chk6 v53), ∀ a, (k0_off12 v53) a + S1x4096.size a ≤ S16384x4096.size a := fun v53 k0_hw6 => k0_hw6.1
theorem k0_off262_inb : ∀ (v53 : BitVec 32) (k0_hw6 : k0_chk6 v53), ∀ a, (k0_off262 v53) a + S1x4096.size a ≤ S16384x4096.size a := fun v53 k0_hw6 => k0_hw6.2

def k0_off263 (v63 : BitVec 32) : Fin 2 → Nat :=
  let c0_i32_666 : BitVec 32 := 0#32
  ![v63.toNat, 0]

def k0_chk7 (v63 : BitVec 32) : Prop :=
  (∀ a, (k0_off14 v63) a + S1x4096.size a ≤ S16384x4096.size a) ∧
  (∀ a, (k0_off263 v63) a + S1x4096.size a ≤ S16384x4096.size a)
instance k0_chk7.dec : ∀ (v63 : BitVec 32), Decidable (k0_chk7 v63) := fun v63 => decidable_of_iff' _ (Iff.of_eq (k0_chk7.eq_1 v63))
theorem k0_off14_inb : ∀ (v63 : BitVec 32) (k0_hw7 : k0_chk7 v63), ∀ a, (k0_off14 v63) a + S1x4096.size a ≤ S16384x4096.size a := fun v63 k0_hw7 => k0_hw7.1
theorem k0_off263_inb : ∀ (v63 : BitVec 32) (k0_hw7 : k0_chk7 v63), ∀ a, (k0_off263 v63) a + S1x4096.size a ≤ S16384x4096.size a := fun v63 k0_hw7 => k0_hw7.2

def k0_off264 (v73 : BitVec 32) : Fin 2 → Nat :=
  let c0_i32_670 : BitVec 32 := 0#32
  ![v73.toNat, 0]

def k0_chk8 (v73 : BitVec 32) : Prop :=
  (∀ a, (k0_off16 v73) a + S1x4096.size a ≤ S16384x4096.size a) ∧
  (∀ a, (k0_off264 v73) a + S1x4096.size a ≤ S16384x4096.size a)
instance k0_chk8.dec : ∀ (v73 : BitVec 32), Decidable (k0_chk8 v73) := fun v73 => decidable_of_iff' _ (Iff.of_eq (k0_chk8.eq_1 v73))
theorem k0_off16_inb : ∀ (v73 : BitVec 32) (k0_hw8 : k0_chk8 v73), ∀ a, (k0_off16 v73) a + S1x4096.size a ≤ S16384x4096.size a := fun v73 k0_hw8 => k0_hw8.1
theorem k0_off264_inb : ∀ (v73 : BitVec 32) (k0_hw8 : k0_chk8 v73), ∀ a, (k0_off264 v73) a + S1x4096.size a ≤ S16384x4096.size a := fun v73 k0_hw8 => k0_hw8.2

def k0_off265 (v83 : BitVec 32) : Fin 2 → Nat :=
  let c0_i32_674 : BitVec 32 := 0#32
  ![v83.toNat, 0]

def k0_chk9 (v83 : BitVec 32) : Prop :=
  (∀ a, (k0_off18 v83) a + S1x4096.size a ≤ S16384x4096.size a) ∧
  (∀ a, (k0_off265 v83) a + S1x4096.size a ≤ S16384x4096.size a)
instance k0_chk9.dec : ∀ (v83 : BitVec 32), Decidable (k0_chk9 v83) := fun v83 => decidable_of_iff' _ (Iff.of_eq (k0_chk9.eq_1 v83))
theorem k0_off18_inb : ∀ (v83 : BitVec 32) (k0_hw9 : k0_chk9 v83), ∀ a, (k0_off18 v83) a + S1x4096.size a ≤ S16384x4096.size a := fun v83 k0_hw9 => k0_hw9.1
theorem k0_off265_inb : ∀ (v83 : BitVec 32) (k0_hw9 : k0_chk9 v83), ∀ a, (k0_off265 v83) a + S1x4096.size a ≤ S16384x4096.size a := fun v83 k0_hw9 => k0_hw9.2

def k0_off266 (v93 : BitVec 32) : Fin 2 → Nat :=
  let c0_i32_678 : BitVec 32 := 0#32
  ![v93.toNat, 0]

def k0_chk10 (v93 : BitVec 32) : Prop :=
  (∀ a, (k0_off20 v93) a + S1x4096.size a ≤ S16384x4096.size a) ∧
  (∀ a, (k0_off266 v93) a + S1x4096.size a ≤ S16384x4096.size a)
instance k0_chk10.dec : ∀ (v93 : BitVec 32), Decidable (k0_chk10 v93) := fun v93 => decidable_of_iff' _ (Iff.of_eq (k0_chk10.eq_1 v93))
theorem k0_off20_inb : ∀ (v93 : BitVec 32) (k0_hw10 : k0_chk10 v93), ∀ a, (k0_off20 v93) a + S1x4096.size a ≤ S16384x4096.size a := fun v93 k0_hw10 => k0_hw10.1
theorem k0_off266_inb : ∀ (v93 : BitVec 32) (k0_hw10 : k0_chk10 v93), ∀ a, (k0_off266 v93) a + S1x4096.size a ≤ S16384x4096.size a := fun v93 k0_hw10 => k0_hw10.2

def k0_off267 (v103 : BitVec 32) : Fin 2 → Nat :=
  let c0_i32_682 : BitVec 32 := 0#32
  ![v103.toNat, 0]

def k0_chk11 (v103 : BitVec 32) : Prop :=
  (∀ a, (k0_off22 v103) a + S1x4096.size a ≤ S16384x4096.size a) ∧
  (∀ a, (k0_off267 v103) a + S1x4096.size a ≤ S16384x4096.size a)
instance k0_chk11.dec : ∀ (v103 : BitVec 32), Decidable (k0_chk11 v103) := fun v103 => decidable_of_iff' _ (Iff.of_eq (k0_chk11.eq_1 v103))
theorem k0_off22_inb : ∀ (v103 : BitVec 32) (k0_hw11 : k0_chk11 v103), ∀ a, (k0_off22 v103) a + S1x4096.size a ≤ S16384x4096.size a := fun v103 k0_hw11 => k0_hw11.1
theorem k0_off267_inb : ∀ (v103 : BitVec 32) (k0_hw11 : k0_chk11 v103), ∀ a, (k0_off267 v103) a + S1x4096.size a ≤ S16384x4096.size a := fun v103 k0_hw11 => k0_hw11.2

def k0_off268 (v113 : BitVec 32) : Fin 2 → Nat :=
  let c0_i32_686 : BitVec 32 := 0#32
  ![v113.toNat, 0]

def k0_chk12 (v113 : BitVec 32) : Prop :=
  (∀ a, (k0_off24 v113) a + S1x4096.size a ≤ S16384x4096.size a) ∧
  (∀ a, (k0_off268 v113) a + S1x4096.size a ≤ S16384x4096.size a)
instance k0_chk12.dec : ∀ (v113 : BitVec 32), Decidable (k0_chk12 v113) := fun v113 => decidable_of_iff' _ (Iff.of_eq (k0_chk12.eq_1 v113))
theorem k0_off24_inb : ∀ (v113 : BitVec 32) (k0_hw12 : k0_chk12 v113), ∀ a, (k0_off24 v113) a + S1x4096.size a ≤ S16384x4096.size a := fun v113 k0_hw12 => k0_hw12.1
theorem k0_off268_inb : ∀ (v113 : BitVec 32) (k0_hw12 : k0_chk12 v113), ∀ a, (k0_off268 v113) a + S1x4096.size a ≤ S16384x4096.size a := fun v113 k0_hw12 => k0_hw12.2

def k0_off269 (v123 : BitVec 32) : Fin 2 → Nat :=
  let c0_i32_690 : BitVec 32 := 0#32
  ![v123.toNat, 0]

def k0_chk13 (v123 : BitVec 32) : Prop :=
  (∀ a, (k0_off26 v123) a + S1x4096.size a ≤ S16384x4096.size a) ∧
  (∀ a, (k0_off269 v123) a + S1x4096.size a ≤ S16384x4096.size a)
instance k0_chk13.dec : ∀ (v123 : BitVec 32), Decidable (k0_chk13 v123) := fun v123 => decidable_of_iff' _ (Iff.of_eq (k0_chk13.eq_1 v123))
theorem k0_off26_inb : ∀ (v123 : BitVec 32) (k0_hw13 : k0_chk13 v123), ∀ a, (k0_off26 v123) a + S1x4096.size a ≤ S16384x4096.size a := fun v123 k0_hw13 => k0_hw13.1
theorem k0_off269_inb : ∀ (v123 : BitVec 32) (k0_hw13 : k0_chk13 v123), ∀ a, (k0_off269 v123) a + S1x4096.size a ≤ S16384x4096.size a := fun v123 k0_hw13 => k0_hw13.2

def k0_off270 (v133 : BitVec 32) : Fin 2 → Nat :=
  let c0_i32_694 : BitVec 32 := 0#32
  ![v133.toNat, 0]

def k0_chk14 (v133 : BitVec 32) : Prop :=
  (∀ a, (k0_off28 v133) a + S1x4096.size a ≤ S16384x4096.size a) ∧
  (∀ a, (k0_off270 v133) a + S1x4096.size a ≤ S16384x4096.size a)
instance k0_chk14.dec : ∀ (v133 : BitVec 32), Decidable (k0_chk14 v133) := fun v133 => decidable_of_iff' _ (Iff.of_eq (k0_chk14.eq_1 v133))
theorem k0_off28_inb : ∀ (v133 : BitVec 32) (k0_hw14 : k0_chk14 v133), ∀ a, (k0_off28 v133) a + S1x4096.size a ≤ S16384x4096.size a := fun v133 k0_hw14 => k0_hw14.1
theorem k0_off270_inb : ∀ (v133 : BitVec 32) (k0_hw14 : k0_chk14 v133), ∀ a, (k0_off270 v133) a + S1x4096.size a ≤ S16384x4096.size a := fun v133 k0_hw14 => k0_hw14.2

def k0_off271 (v143 : BitVec 32) : Fin 2 → Nat :=
  let c0_i32_698 : BitVec 32 := 0#32
  ![v143.toNat, 0]

def k0_chk15 (v143 : BitVec 32) : Prop :=
  (∀ a, (k0_off30 v143) a + S1x4096.size a ≤ S16384x4096.size a) ∧
  (∀ a, (k0_off271 v143) a + S1x4096.size a ≤ S16384x4096.size a)
instance k0_chk15.dec : ∀ (v143 : BitVec 32), Decidable (k0_chk15 v143) := fun v143 => decidable_of_iff' _ (Iff.of_eq (k0_chk15.eq_1 v143))
theorem k0_off30_inb : ∀ (v143 : BitVec 32) (k0_hw15 : k0_chk15 v143), ∀ a, (k0_off30 v143) a + S1x4096.size a ≤ S16384x4096.size a := fun v143 k0_hw15 => k0_hw15.1
theorem k0_off271_inb : ∀ (v143 : BitVec 32) (k0_hw15 : k0_chk15 v143), ∀ a, (k0_off271 v143) a + S1x4096.size a ≤ S16384x4096.size a := fun v143 k0_hw15 => k0_hw15.2

def k0_off272 (v153 : BitVec 32) : Fin 2 → Nat :=
  let c0_i32_702 : BitVec 32 := 0#32
  ![v153.toNat, 0]

def k0_chk16 (v153 : BitVec 32) : Prop :=
  (∀ a, (k0_off32 v153) a + S1x4096.size a ≤ S16384x4096.size a) ∧
  (∀ a, (k0_off272 v153) a + S1x4096.size a ≤ S16384x4096.size a)
instance k0_chk16.dec : ∀ (v153 : BitVec 32), Decidable (k0_chk16 v153) := fun v153 => decidable_of_iff' _ (Iff.of_eq (k0_chk16.eq_1 v153))
theorem k0_off32_inb : ∀ (v153 : BitVec 32) (k0_hw16 : k0_chk16 v153), ∀ a, (k0_off32 v153) a + S1x4096.size a ≤ S16384x4096.size a := fun v153 k0_hw16 => k0_hw16.1
theorem k0_off272_inb : ∀ (v153 : BitVec 32) (k0_hw16 : k0_chk16 v153), ∀ a, (k0_off272 v153) a + S1x4096.size a ≤ S16384x4096.size a := fun v153 k0_hw16 => k0_hw16.2

def k0_off273 (v163 : BitVec 32) : Fin 2 → Nat :=
  let c0_i32_706 : BitVec 32 := 0#32
  ![v163.toNat, 0]

def k0_chk17 (v163 : BitVec 32) : Prop :=
  (∀ a, (k0_off34 v163) a + S1x4096.size a ≤ S16384x4096.size a) ∧
  (∀ a, (k0_off273 v163) a + S1x4096.size a ≤ S16384x4096.size a)
instance k0_chk17.dec : ∀ (v163 : BitVec 32), Decidable (k0_chk17 v163) := fun v163 => decidable_of_iff' _ (Iff.of_eq (k0_chk17.eq_1 v163))
theorem k0_off34_inb : ∀ (v163 : BitVec 32) (k0_hw17 : k0_chk17 v163), ∀ a, (k0_off34 v163) a + S1x4096.size a ≤ S16384x4096.size a := fun v163 k0_hw17 => k0_hw17.1
theorem k0_off273_inb : ∀ (v163 : BitVec 32) (k0_hw17 : k0_chk17 v163), ∀ a, (k0_off273 v163) a + S1x4096.size a ≤ S16384x4096.size a := fun v163 k0_hw17 => k0_hw17.2

def k0_off274 (v173 : BitVec 32) : Fin 2 → Nat :=
  let c0_i32_710 : BitVec 32 := 0#32
  ![v173.toNat, 0]

def k0_chk18 (v173 : BitVec 32) : Prop :=
  (∀ a, (k0_off36 v173) a + S1x4096.size a ≤ S16384x4096.size a) ∧
  (∀ a, (k0_off274 v173) a + S1x4096.size a ≤ S16384x4096.size a)
instance k0_chk18.dec : ∀ (v173 : BitVec 32), Decidable (k0_chk18 v173) := fun v173 => decidable_of_iff' _ (Iff.of_eq (k0_chk18.eq_1 v173))
theorem k0_off36_inb : ∀ (v173 : BitVec 32) (k0_hw18 : k0_chk18 v173), ∀ a, (k0_off36 v173) a + S1x4096.size a ≤ S16384x4096.size a := fun v173 k0_hw18 => k0_hw18.1
theorem k0_off274_inb : ∀ (v173 : BitVec 32) (k0_hw18 : k0_chk18 v173), ∀ a, (k0_off274 v173) a + S1x4096.size a ≤ S16384x4096.size a := fun v173 k0_hw18 => k0_hw18.2

def k0_off275 (v183 : BitVec 32) : Fin 2 → Nat :=
  let c0_i32_714 : BitVec 32 := 0#32
  ![v183.toNat, 0]

def k0_chk19 (v183 : BitVec 32) : Prop :=
  (∀ a, (k0_off38 v183) a + S1x4096.size a ≤ S16384x4096.size a) ∧
  (∀ a, (k0_off275 v183) a + S1x4096.size a ≤ S16384x4096.size a)
instance k0_chk19.dec : ∀ (v183 : BitVec 32), Decidable (k0_chk19 v183) := fun v183 => decidable_of_iff' _ (Iff.of_eq (k0_chk19.eq_1 v183))
theorem k0_off38_inb : ∀ (v183 : BitVec 32) (k0_hw19 : k0_chk19 v183), ∀ a, (k0_off38 v183) a + S1x4096.size a ≤ S16384x4096.size a := fun v183 k0_hw19 => k0_hw19.1
theorem k0_off275_inb : ∀ (v183 : BitVec 32) (k0_hw19 : k0_chk19 v183), ∀ a, (k0_off275 v183) a + S1x4096.size a ≤ S16384x4096.size a := fun v183 k0_hw19 => k0_hw19.2

def k0_off276 (v193 : BitVec 32) : Fin 2 → Nat :=
  let c0_i32_718 : BitVec 32 := 0#32
  ![v193.toNat, 0]

def k0_chk20 (v193 : BitVec 32) : Prop :=
  (∀ a, (k0_off40 v193) a + S1x4096.size a ≤ S16384x4096.size a) ∧
  (∀ a, (k0_off276 v193) a + S1x4096.size a ≤ S16384x4096.size a)
instance k0_chk20.dec : ∀ (v193 : BitVec 32), Decidable (k0_chk20 v193) := fun v193 => decidable_of_iff' _ (Iff.of_eq (k0_chk20.eq_1 v193))
theorem k0_off40_inb : ∀ (v193 : BitVec 32) (k0_hw20 : k0_chk20 v193), ∀ a, (k0_off40 v193) a + S1x4096.size a ≤ S16384x4096.size a := fun v193 k0_hw20 => k0_hw20.1
theorem k0_off276_inb : ∀ (v193 : BitVec 32) (k0_hw20 : k0_chk20 v193), ∀ a, (k0_off276 v193) a + S1x4096.size a ≤ S16384x4096.size a := fun v193 k0_hw20 => k0_hw20.2

def k0_off277 (v203 : BitVec 32) : Fin 2 → Nat :=
  let c0_i32_722 : BitVec 32 := 0#32
  ![v203.toNat, 0]

def k0_chk21 (v203 : BitVec 32) : Prop :=
  (∀ a, (k0_off42 v203) a + S1x4096.size a ≤ S16384x4096.size a) ∧
  (∀ a, (k0_off277 v203) a + S1x4096.size a ≤ S16384x4096.size a)
instance k0_chk21.dec : ∀ (v203 : BitVec 32), Decidable (k0_chk21 v203) := fun v203 => decidable_of_iff' _ (Iff.of_eq (k0_chk21.eq_1 v203))
theorem k0_off42_inb : ∀ (v203 : BitVec 32) (k0_hw21 : k0_chk21 v203), ∀ a, (k0_off42 v203) a + S1x4096.size a ≤ S16384x4096.size a := fun v203 k0_hw21 => k0_hw21.1
theorem k0_off277_inb : ∀ (v203 : BitVec 32) (k0_hw21 : k0_chk21 v203), ∀ a, (k0_off277 v203) a + S1x4096.size a ≤ S16384x4096.size a := fun v203 k0_hw21 => k0_hw21.2

def k0_off278 (v213 : BitVec 32) : Fin 2 → Nat :=
  let c0_i32_726 : BitVec 32 := 0#32
  ![v213.toNat, 0]

def k0_chk22 (v213 : BitVec 32) : Prop :=
  (∀ a, (k0_off44 v213) a + S1x4096.size a ≤ S16384x4096.size a) ∧
  (∀ a, (k0_off278 v213) a + S1x4096.size a ≤ S16384x4096.size a)
instance k0_chk22.dec : ∀ (v213 : BitVec 32), Decidable (k0_chk22 v213) := fun v213 => decidable_of_iff' _ (Iff.of_eq (k0_chk22.eq_1 v213))
theorem k0_off44_inb : ∀ (v213 : BitVec 32) (k0_hw22 : k0_chk22 v213), ∀ a, (k0_off44 v213) a + S1x4096.size a ≤ S16384x4096.size a := fun v213 k0_hw22 => k0_hw22.1
theorem k0_off278_inb : ∀ (v213 : BitVec 32) (k0_hw22 : k0_chk22 v213), ∀ a, (k0_off278 v213) a + S1x4096.size a ≤ S16384x4096.size a := fun v213 k0_hw22 => k0_hw22.2

def k0_off279 (v223 : BitVec 32) : Fin 2 → Nat :=
  let c0_i32_730 : BitVec 32 := 0#32
  ![v223.toNat, 0]

def k0_chk23 (v223 : BitVec 32) : Prop :=
  (∀ a, (k0_off46 v223) a + S1x4096.size a ≤ S16384x4096.size a) ∧
  (∀ a, (k0_off279 v223) a + S1x4096.size a ≤ S16384x4096.size a)
instance k0_chk23.dec : ∀ (v223 : BitVec 32), Decidable (k0_chk23 v223) := fun v223 => decidable_of_iff' _ (Iff.of_eq (k0_chk23.eq_1 v223))
theorem k0_off46_inb : ∀ (v223 : BitVec 32) (k0_hw23 : k0_chk23 v223), ∀ a, (k0_off46 v223) a + S1x4096.size a ≤ S16384x4096.size a := fun v223 k0_hw23 => k0_hw23.1
theorem k0_off279_inb : ∀ (v223 : BitVec 32) (k0_hw23 : k0_chk23 v223), ∀ a, (k0_off279 v223) a + S1x4096.size a ≤ S16384x4096.size a := fun v223 k0_hw23 => k0_hw23.2

def k0_off280 (v233 : BitVec 32) : Fin 2 → Nat :=
  let c0_i32_734 : BitVec 32 := 0#32
  ![v233.toNat, 0]

def k0_chk24 (v233 : BitVec 32) : Prop :=
  (∀ a, (k0_off48 v233) a + S1x4096.size a ≤ S16384x4096.size a) ∧
  (∀ a, (k0_off280 v233) a + S1x4096.size a ≤ S16384x4096.size a)
instance k0_chk24.dec : ∀ (v233 : BitVec 32), Decidable (k0_chk24 v233) := fun v233 => decidable_of_iff' _ (Iff.of_eq (k0_chk24.eq_1 v233))
theorem k0_off48_inb : ∀ (v233 : BitVec 32) (k0_hw24 : k0_chk24 v233), ∀ a, (k0_off48 v233) a + S1x4096.size a ≤ S16384x4096.size a := fun v233 k0_hw24 => k0_hw24.1
theorem k0_off280_inb : ∀ (v233 : BitVec 32) (k0_hw24 : k0_chk24 v233), ∀ a, (k0_off280 v233) a + S1x4096.size a ≤ S16384x4096.size a := fun v233 k0_hw24 => k0_hw24.2

def k0_off281 (v243 : BitVec 32) : Fin 2 → Nat :=
  let c0_i32_738 : BitVec 32 := 0#32
  ![v243.toNat, 0]

def k0_chk25 (v243 : BitVec 32) : Prop :=
  (∀ a, (k0_off50 v243) a + S1x4096.size a ≤ S16384x4096.size a) ∧
  (∀ a, (k0_off281 v243) a + S1x4096.size a ≤ S16384x4096.size a)
instance k0_chk25.dec : ∀ (v243 : BitVec 32), Decidable (k0_chk25 v243) := fun v243 => decidable_of_iff' _ (Iff.of_eq (k0_chk25.eq_1 v243))
theorem k0_off50_inb : ∀ (v243 : BitVec 32) (k0_hw25 : k0_chk25 v243), ∀ a, (k0_off50 v243) a + S1x4096.size a ≤ S16384x4096.size a := fun v243 k0_hw25 => k0_hw25.1
theorem k0_off281_inb : ∀ (v243 : BitVec 32) (k0_hw25 : k0_chk25 v243), ∀ a, (k0_off281 v243) a + S1x4096.size a ≤ S16384x4096.size a := fun v243 k0_hw25 => k0_hw25.2

def k0_off282 (v253 : BitVec 32) : Fin 2 → Nat :=
  let c0_i32_742 : BitVec 32 := 0#32
  ![v253.toNat, 0]

def k0_chk26 (v253 : BitVec 32) : Prop :=
  (∀ a, (k0_off52 v253) a + S1x4096.size a ≤ S16384x4096.size a) ∧
  (∀ a, (k0_off282 v253) a + S1x4096.size a ≤ S16384x4096.size a)
instance k0_chk26.dec : ∀ (v253 : BitVec 32), Decidable (k0_chk26 v253) := fun v253 => decidable_of_iff' _ (Iff.of_eq (k0_chk26.eq_1 v253))
theorem k0_off52_inb : ∀ (v253 : BitVec 32) (k0_hw26 : k0_chk26 v253), ∀ a, (k0_off52 v253) a + S1x4096.size a ≤ S16384x4096.size a := fun v253 k0_hw26 => k0_hw26.1
theorem k0_off282_inb : ∀ (v253 : BitVec 32) (k0_hw26 : k0_chk26 v253), ∀ a, (k0_off282 v253) a + S1x4096.size a ≤ S16384x4096.size a := fun v253 k0_hw26 => k0_hw26.2

def k0_off283 (v263 : BitVec 32) : Fin 2 → Nat :=
  let c0_i32_746 : BitVec 32 := 0#32
  ![v263.toNat, 0]

def k0_chk27 (v263 : BitVec 32) : Prop :=
  (∀ a, (k0_off54 v263) a + S1x4096.size a ≤ S16384x4096.size a) ∧
  (∀ a, (k0_off283 v263) a + S1x4096.size a ≤ S16384x4096.size a)
instance k0_chk27.dec : ∀ (v263 : BitVec 32), Decidable (k0_chk27 v263) := fun v263 => decidable_of_iff' _ (Iff.of_eq (k0_chk27.eq_1 v263))
theorem k0_off54_inb : ∀ (v263 : BitVec 32) (k0_hw27 : k0_chk27 v263), ∀ a, (k0_off54 v263) a + S1x4096.size a ≤ S16384x4096.size a := fun v263 k0_hw27 => k0_hw27.1
theorem k0_off283_inb : ∀ (v263 : BitVec 32) (k0_hw27 : k0_chk27 v263), ∀ a, (k0_off283 v263) a + S1x4096.size a ≤ S16384x4096.size a := fun v263 k0_hw27 => k0_hw27.2

def k0_off284 (v273 : BitVec 32) : Fin 2 → Nat :=
  let c0_i32_750 : BitVec 32 := 0#32
  ![v273.toNat, 0]

def k0_chk28 (v273 : BitVec 32) : Prop :=
  (∀ a, (k0_off56 v273) a + S1x4096.size a ≤ S16384x4096.size a) ∧
  (∀ a, (k0_off284 v273) a + S1x4096.size a ≤ S16384x4096.size a)
instance k0_chk28.dec : ∀ (v273 : BitVec 32), Decidable (k0_chk28 v273) := fun v273 => decidable_of_iff' _ (Iff.of_eq (k0_chk28.eq_1 v273))
theorem k0_off56_inb : ∀ (v273 : BitVec 32) (k0_hw28 : k0_chk28 v273), ∀ a, (k0_off56 v273) a + S1x4096.size a ≤ S16384x4096.size a := fun v273 k0_hw28 => k0_hw28.1
theorem k0_off284_inb : ∀ (v273 : BitVec 32) (k0_hw28 : k0_chk28 v273), ∀ a, (k0_off284 v273) a + S1x4096.size a ≤ S16384x4096.size a := fun v273 k0_hw28 => k0_hw28.2

def k0_off285 (v283 : BitVec 32) : Fin 2 → Nat :=
  let c0_i32_754 : BitVec 32 := 0#32
  ![v283.toNat, 0]

def k0_chk29 (v283 : BitVec 32) : Prop :=
  (∀ a, (k0_off58 v283) a + S1x4096.size a ≤ S16384x4096.size a) ∧
  (∀ a, (k0_off285 v283) a + S1x4096.size a ≤ S16384x4096.size a)
instance k0_chk29.dec : ∀ (v283 : BitVec 32), Decidable (k0_chk29 v283) := fun v283 => decidable_of_iff' _ (Iff.of_eq (k0_chk29.eq_1 v283))
theorem k0_off58_inb : ∀ (v283 : BitVec 32) (k0_hw29 : k0_chk29 v283), ∀ a, (k0_off58 v283) a + S1x4096.size a ≤ S16384x4096.size a := fun v283 k0_hw29 => k0_hw29.1
theorem k0_off285_inb : ∀ (v283 : BitVec 32) (k0_hw29 : k0_chk29 v283), ∀ a, (k0_off285 v283) a + S1x4096.size a ≤ S16384x4096.size a := fun v283 k0_hw29 => k0_hw29.2

def k0_off286 (v293 : BitVec 32) : Fin 2 → Nat :=
  let c0_i32_758 : BitVec 32 := 0#32
  ![v293.toNat, 0]

def k0_chk30 (v293 : BitVec 32) : Prop :=
  (∀ a, (k0_off60 v293) a + S1x4096.size a ≤ S16384x4096.size a) ∧
  (∀ a, (k0_off286 v293) a + S1x4096.size a ≤ S16384x4096.size a)
instance k0_chk30.dec : ∀ (v293 : BitVec 32), Decidable (k0_chk30 v293) := fun v293 => decidable_of_iff' _ (Iff.of_eq (k0_chk30.eq_1 v293))
theorem k0_off60_inb : ∀ (v293 : BitVec 32) (k0_hw30 : k0_chk30 v293), ∀ a, (k0_off60 v293) a + S1x4096.size a ≤ S16384x4096.size a := fun v293 k0_hw30 => k0_hw30.1
theorem k0_off286_inb : ∀ (v293 : BitVec 32) (k0_hw30 : k0_chk30 v293), ∀ a, (k0_off286 v293) a + S1x4096.size a ≤ S16384x4096.size a := fun v293 k0_hw30 => k0_hw30.2

def k0_off287 (v303 : BitVec 32) : Fin 2 → Nat :=
  let c0_i32_762 : BitVec 32 := 0#32
  ![v303.toNat, 0]

def k0_chk31 (v303 : BitVec 32) : Prop :=
  (∀ a, (k0_off62 v303) a + S1x4096.size a ≤ S16384x4096.size a) ∧
  (∀ a, (k0_off287 v303) a + S1x4096.size a ≤ S16384x4096.size a)
instance k0_chk31.dec : ∀ (v303 : BitVec 32), Decidable (k0_chk31 v303) := fun v303 => decidable_of_iff' _ (Iff.of_eq (k0_chk31.eq_1 v303))
theorem k0_off62_inb : ∀ (v303 : BitVec 32) (k0_hw31 : k0_chk31 v303), ∀ a, (k0_off62 v303) a + S1x4096.size a ≤ S16384x4096.size a := fun v303 k0_hw31 => k0_hw31.1
theorem k0_off287_inb : ∀ (v303 : BitVec 32) (k0_hw31 : k0_chk31 v303), ∀ a, (k0_off287 v303) a + S1x4096.size a ≤ S16384x4096.size a := fun v303 k0_hw31 => k0_hw31.2

def k0_off288 (v313 : BitVec 32) : Fin 2 → Nat :=
  let c0_i32_766 : BitVec 32 := 0#32
  ![v313.toNat, 0]

def k0_chk32 (v313 : BitVec 32) : Prop :=
  (∀ a, (k0_off64 v313) a + S1x4096.size a ≤ S16384x4096.size a) ∧
  (∀ a, (k0_off288 v313) a + S1x4096.size a ≤ S16384x4096.size a)
instance k0_chk32.dec : ∀ (v313 : BitVec 32), Decidable (k0_chk32 v313) := fun v313 => decidable_of_iff' _ (Iff.of_eq (k0_chk32.eq_1 v313))
theorem k0_off64_inb : ∀ (v313 : BitVec 32) (k0_hw32 : k0_chk32 v313), ∀ a, (k0_off64 v313) a + S1x4096.size a ≤ S16384x4096.size a := fun v313 k0_hw32 => k0_hw32.1
theorem k0_off288_inb : ∀ (v313 : BitVec 32) (k0_hw32 : k0_chk32 v313), ∀ a, (k0_off288 v313) a + S1x4096.size a ≤ S16384x4096.size a := fun v313 k0_hw32 => k0_hw32.2

def k0_off289 (v323 : BitVec 32) : Fin 2 → Nat :=
  let c0_i32_770 : BitVec 32 := 0#32
  ![v323.toNat, 0]

def k0_chk33 (v323 : BitVec 32) : Prop :=
  (∀ a, (k0_off66 v323) a + S1x4096.size a ≤ S16384x4096.size a) ∧
  (∀ a, (k0_off289 v323) a + S1x4096.size a ≤ S16384x4096.size a)
instance k0_chk33.dec : ∀ (v323 : BitVec 32), Decidable (k0_chk33 v323) := fun v323 => decidable_of_iff' _ (Iff.of_eq (k0_chk33.eq_1 v323))
theorem k0_off66_inb : ∀ (v323 : BitVec 32) (k0_hw33 : k0_chk33 v323), ∀ a, (k0_off66 v323) a + S1x4096.size a ≤ S16384x4096.size a := fun v323 k0_hw33 => k0_hw33.1
theorem k0_off289_inb : ∀ (v323 : BitVec 32) (k0_hw33 : k0_chk33 v323), ∀ a, (k0_off289 v323) a + S1x4096.size a ≤ S16384x4096.size a := fun v323 k0_hw33 => k0_hw33.2

def k0_off290 (v333 : BitVec 32) : Fin 2 → Nat :=
  let c0_i32_774 : BitVec 32 := 0#32
  ![v333.toNat, 0]

def k0_chk34 (v333 : BitVec 32) : Prop :=
  (∀ a, (k0_off68 v333) a + S1x4096.size a ≤ S16384x4096.size a) ∧
  (∀ a, (k0_off290 v333) a + S1x4096.size a ≤ S16384x4096.size a)
instance k0_chk34.dec : ∀ (v333 : BitVec 32), Decidable (k0_chk34 v333) := fun v333 => decidable_of_iff' _ (Iff.of_eq (k0_chk34.eq_1 v333))
theorem k0_off68_inb : ∀ (v333 : BitVec 32) (k0_hw34 : k0_chk34 v333), ∀ a, (k0_off68 v333) a + S1x4096.size a ≤ S16384x4096.size a := fun v333 k0_hw34 => k0_hw34.1
theorem k0_off290_inb : ∀ (v333 : BitVec 32) (k0_hw34 : k0_chk34 v333), ∀ a, (k0_off290 v333) a + S1x4096.size a ≤ S16384x4096.size a := fun v333 k0_hw34 => k0_hw34.2

def k0_off291 (v343 : BitVec 32) : Fin 2 → Nat :=
  let c0_i32_778 : BitVec 32 := 0#32
  ![v343.toNat, 0]

def k0_chk35 (v343 : BitVec 32) : Prop :=
  (∀ a, (k0_off70 v343) a + S1x4096.size a ≤ S16384x4096.size a) ∧
  (∀ a, (k0_off291 v343) a + S1x4096.size a ≤ S16384x4096.size a)
instance k0_chk35.dec : ∀ (v343 : BitVec 32), Decidable (k0_chk35 v343) := fun v343 => decidable_of_iff' _ (Iff.of_eq (k0_chk35.eq_1 v343))
theorem k0_off70_inb : ∀ (v343 : BitVec 32) (k0_hw35 : k0_chk35 v343), ∀ a, (k0_off70 v343) a + S1x4096.size a ≤ S16384x4096.size a := fun v343 k0_hw35 => k0_hw35.1
theorem k0_off291_inb : ∀ (v343 : BitVec 32) (k0_hw35 : k0_chk35 v343), ∀ a, (k0_off291 v343) a + S1x4096.size a ≤ S16384x4096.size a := fun v343 k0_hw35 => k0_hw35.2

def k0_off292 (v353 : BitVec 32) : Fin 2 → Nat :=
  let c0_i32_782 : BitVec 32 := 0#32
  ![v353.toNat, 0]

def k0_chk36 (v353 : BitVec 32) : Prop :=
  (∀ a, (k0_off72 v353) a + S1x4096.size a ≤ S16384x4096.size a) ∧
  (∀ a, (k0_off292 v353) a + S1x4096.size a ≤ S16384x4096.size a)
instance k0_chk36.dec : ∀ (v353 : BitVec 32), Decidable (k0_chk36 v353) := fun v353 => decidable_of_iff' _ (Iff.of_eq (k0_chk36.eq_1 v353))
theorem k0_off72_inb : ∀ (v353 : BitVec 32) (k0_hw36 : k0_chk36 v353), ∀ a, (k0_off72 v353) a + S1x4096.size a ≤ S16384x4096.size a := fun v353 k0_hw36 => k0_hw36.1
theorem k0_off292_inb : ∀ (v353 : BitVec 32) (k0_hw36 : k0_chk36 v353), ∀ a, (k0_off292 v353) a + S1x4096.size a ≤ S16384x4096.size a := fun v353 k0_hw36 => k0_hw36.2

def k0_off293 (v363 : BitVec 32) : Fin 2 → Nat :=
  let c0_i32_786 : BitVec 32 := 0#32
  ![v363.toNat, 0]

def k0_chk37 (v363 : BitVec 32) : Prop :=
  (∀ a, (k0_off74 v363) a + S1x4096.size a ≤ S16384x4096.size a) ∧
  (∀ a, (k0_off293 v363) a + S1x4096.size a ≤ S16384x4096.size a)
instance k0_chk37.dec : ∀ (v363 : BitVec 32), Decidable (k0_chk37 v363) := fun v363 => decidable_of_iff' _ (Iff.of_eq (k0_chk37.eq_1 v363))
theorem k0_off74_inb : ∀ (v363 : BitVec 32) (k0_hw37 : k0_chk37 v363), ∀ a, (k0_off74 v363) a + S1x4096.size a ≤ S16384x4096.size a := fun v363 k0_hw37 => k0_hw37.1
theorem k0_off293_inb : ∀ (v363 : BitVec 32) (k0_hw37 : k0_chk37 v363), ∀ a, (k0_off293 v363) a + S1x4096.size a ≤ S16384x4096.size a := fun v363 k0_hw37 => k0_hw37.2

def k0_off294 (v373 : BitVec 32) : Fin 2 → Nat :=
  let c0_i32_790 : BitVec 32 := 0#32
  ![v373.toNat, 0]

def k0_chk38 (v373 : BitVec 32) : Prop :=
  (∀ a, (k0_off76 v373) a + S1x4096.size a ≤ S16384x4096.size a) ∧
  (∀ a, (k0_off294 v373) a + S1x4096.size a ≤ S16384x4096.size a)
instance k0_chk38.dec : ∀ (v373 : BitVec 32), Decidable (k0_chk38 v373) := fun v373 => decidable_of_iff' _ (Iff.of_eq (k0_chk38.eq_1 v373))
theorem k0_off76_inb : ∀ (v373 : BitVec 32) (k0_hw38 : k0_chk38 v373), ∀ a, (k0_off76 v373) a + S1x4096.size a ≤ S16384x4096.size a := fun v373 k0_hw38 => k0_hw38.1
theorem k0_off294_inb : ∀ (v373 : BitVec 32) (k0_hw38 : k0_chk38 v373), ∀ a, (k0_off294 v373) a + S1x4096.size a ≤ S16384x4096.size a := fun v373 k0_hw38 => k0_hw38.2

def k0_off295 (v383 : BitVec 32) : Fin 2 → Nat :=
  let c0_i32_794 : BitVec 32 := 0#32
  ![v383.toNat, 0]

def k0_chk39 (v383 : BitVec 32) : Prop :=
  (∀ a, (k0_off78 v383) a + S1x4096.size a ≤ S16384x4096.size a) ∧
  (∀ a, (k0_off295 v383) a + S1x4096.size a ≤ S16384x4096.size a)
instance k0_chk39.dec : ∀ (v383 : BitVec 32), Decidable (k0_chk39 v383) := fun v383 => decidable_of_iff' _ (Iff.of_eq (k0_chk39.eq_1 v383))
theorem k0_off78_inb : ∀ (v383 : BitVec 32) (k0_hw39 : k0_chk39 v383), ∀ a, (k0_off78 v383) a + S1x4096.size a ≤ S16384x4096.size a := fun v383 k0_hw39 => k0_hw39.1
theorem k0_off295_inb : ∀ (v383 : BitVec 32) (k0_hw39 : k0_chk39 v383), ∀ a, (k0_off295 v383) a + S1x4096.size a ≤ S16384x4096.size a := fun v383 k0_hw39 => k0_hw39.2

def k0_off296 (v393 : BitVec 32) : Fin 2 → Nat :=
  let c0_i32_798 : BitVec 32 := 0#32
  ![v393.toNat, 0]

def k0_chk40 (v393 : BitVec 32) : Prop :=
  (∀ a, (k0_off80 v393) a + S1x4096.size a ≤ S16384x4096.size a) ∧
  (∀ a, (k0_off296 v393) a + S1x4096.size a ≤ S16384x4096.size a)
instance k0_chk40.dec : ∀ (v393 : BitVec 32), Decidable (k0_chk40 v393) := fun v393 => decidable_of_iff' _ (Iff.of_eq (k0_chk40.eq_1 v393))
theorem k0_off80_inb : ∀ (v393 : BitVec 32) (k0_hw40 : k0_chk40 v393), ∀ a, (k0_off80 v393) a + S1x4096.size a ≤ S16384x4096.size a := fun v393 k0_hw40 => k0_hw40.1
theorem k0_off296_inb : ∀ (v393 : BitVec 32) (k0_hw40 : k0_chk40 v393), ∀ a, (k0_off296 v393) a + S1x4096.size a ≤ S16384x4096.size a := fun v393 k0_hw40 => k0_hw40.2

def k0_off297 (v403 : BitVec 32) : Fin 2 → Nat :=
  let c0_i32_802 : BitVec 32 := 0#32
  ![v403.toNat, 0]

def k0_chk41 (v403 : BitVec 32) : Prop :=
  (∀ a, (k0_off82 v403) a + S1x4096.size a ≤ S16384x4096.size a) ∧
  (∀ a, (k0_off297 v403) a + S1x4096.size a ≤ S16384x4096.size a)
instance k0_chk41.dec : ∀ (v403 : BitVec 32), Decidable (k0_chk41 v403) := fun v403 => decidable_of_iff' _ (Iff.of_eq (k0_chk41.eq_1 v403))
theorem k0_off82_inb : ∀ (v403 : BitVec 32) (k0_hw41 : k0_chk41 v403), ∀ a, (k0_off82 v403) a + S1x4096.size a ≤ S16384x4096.size a := fun v403 k0_hw41 => k0_hw41.1
theorem k0_off297_inb : ∀ (v403 : BitVec 32) (k0_hw41 : k0_chk41 v403), ∀ a, (k0_off297 v403) a + S1x4096.size a ≤ S16384x4096.size a := fun v403 k0_hw41 => k0_hw41.2

def k0_off298 (v413 : BitVec 32) : Fin 2 → Nat :=
  let c0_i32_806 : BitVec 32 := 0#32
  ![v413.toNat, 0]

def k0_chk42 (v413 : BitVec 32) : Prop :=
  (∀ a, (k0_off84 v413) a + S1x4096.size a ≤ S16384x4096.size a) ∧
  (∀ a, (k0_off298 v413) a + S1x4096.size a ≤ S16384x4096.size a)
instance k0_chk42.dec : ∀ (v413 : BitVec 32), Decidable (k0_chk42 v413) := fun v413 => decidable_of_iff' _ (Iff.of_eq (k0_chk42.eq_1 v413))
theorem k0_off84_inb : ∀ (v413 : BitVec 32) (k0_hw42 : k0_chk42 v413), ∀ a, (k0_off84 v413) a + S1x4096.size a ≤ S16384x4096.size a := fun v413 k0_hw42 => k0_hw42.1
theorem k0_off298_inb : ∀ (v413 : BitVec 32) (k0_hw42 : k0_chk42 v413), ∀ a, (k0_off298 v413) a + S1x4096.size a ≤ S16384x4096.size a := fun v413 k0_hw42 => k0_hw42.2

def k0_off299 (v423 : BitVec 32) : Fin 2 → Nat :=
  let c0_i32_810 : BitVec 32 := 0#32
  ![v423.toNat, 0]

def k0_chk43 (v423 : BitVec 32) : Prop :=
  (∀ a, (k0_off86 v423) a + S1x4096.size a ≤ S16384x4096.size a) ∧
  (∀ a, (k0_off299 v423) a + S1x4096.size a ≤ S16384x4096.size a)
instance k0_chk43.dec : ∀ (v423 : BitVec 32), Decidable (k0_chk43 v423) := fun v423 => decidable_of_iff' _ (Iff.of_eq (k0_chk43.eq_1 v423))
theorem k0_off86_inb : ∀ (v423 : BitVec 32) (k0_hw43 : k0_chk43 v423), ∀ a, (k0_off86 v423) a + S1x4096.size a ≤ S16384x4096.size a := fun v423 k0_hw43 => k0_hw43.1
theorem k0_off299_inb : ∀ (v423 : BitVec 32) (k0_hw43 : k0_chk43 v423), ∀ a, (k0_off299 v423) a + S1x4096.size a ≤ S16384x4096.size a := fun v423 k0_hw43 => k0_hw43.2

def k0_off300 (v433 : BitVec 32) : Fin 2 → Nat :=
  let c0_i32_814 : BitVec 32 := 0#32
  ![v433.toNat, 0]

def k0_chk44 (v433 : BitVec 32) : Prop :=
  (∀ a, (k0_off88 v433) a + S1x4096.size a ≤ S16384x4096.size a) ∧
  (∀ a, (k0_off300 v433) a + S1x4096.size a ≤ S16384x4096.size a)
instance k0_chk44.dec : ∀ (v433 : BitVec 32), Decidable (k0_chk44 v433) := fun v433 => decidable_of_iff' _ (Iff.of_eq (k0_chk44.eq_1 v433))
theorem k0_off88_inb : ∀ (v433 : BitVec 32) (k0_hw44 : k0_chk44 v433), ∀ a, (k0_off88 v433) a + S1x4096.size a ≤ S16384x4096.size a := fun v433 k0_hw44 => k0_hw44.1
theorem k0_off300_inb : ∀ (v433 : BitVec 32) (k0_hw44 : k0_chk44 v433), ∀ a, (k0_off300 v433) a + S1x4096.size a ≤ S16384x4096.size a := fun v433 k0_hw44 => k0_hw44.2

def k0_off301 (v443 : BitVec 32) : Fin 2 → Nat :=
  let c0_i32_818 : BitVec 32 := 0#32
  ![v443.toNat, 0]

def k0_chk45 (v443 : BitVec 32) : Prop :=
  (∀ a, (k0_off90 v443) a + S1x4096.size a ≤ S16384x4096.size a) ∧
  (∀ a, (k0_off301 v443) a + S1x4096.size a ≤ S16384x4096.size a)
instance k0_chk45.dec : ∀ (v443 : BitVec 32), Decidable (k0_chk45 v443) := fun v443 => decidable_of_iff' _ (Iff.of_eq (k0_chk45.eq_1 v443))
theorem k0_off90_inb : ∀ (v443 : BitVec 32) (k0_hw45 : k0_chk45 v443), ∀ a, (k0_off90 v443) a + S1x4096.size a ≤ S16384x4096.size a := fun v443 k0_hw45 => k0_hw45.1
theorem k0_off301_inb : ∀ (v443 : BitVec 32) (k0_hw45 : k0_chk45 v443), ∀ a, (k0_off301 v443) a + S1x4096.size a ≤ S16384x4096.size a := fun v443 k0_hw45 => k0_hw45.2

def k0_off302 (v453 : BitVec 32) : Fin 2 → Nat :=
  let c0_i32_822 : BitVec 32 := 0#32
  ![v453.toNat, 0]

def k0_chk46 (v453 : BitVec 32) : Prop :=
  (∀ a, (k0_off92 v453) a + S1x4096.size a ≤ S16384x4096.size a) ∧
  (∀ a, (k0_off302 v453) a + S1x4096.size a ≤ S16384x4096.size a)
instance k0_chk46.dec : ∀ (v453 : BitVec 32), Decidable (k0_chk46 v453) := fun v453 => decidable_of_iff' _ (Iff.of_eq (k0_chk46.eq_1 v453))
theorem k0_off92_inb : ∀ (v453 : BitVec 32) (k0_hw46 : k0_chk46 v453), ∀ a, (k0_off92 v453) a + S1x4096.size a ≤ S16384x4096.size a := fun v453 k0_hw46 => k0_hw46.1
theorem k0_off302_inb : ∀ (v453 : BitVec 32) (k0_hw46 : k0_chk46 v453), ∀ a, (k0_off302 v453) a + S1x4096.size a ≤ S16384x4096.size a := fun v453 k0_hw46 => k0_hw46.2

def k0_off303 (v463 : BitVec 32) : Fin 2 → Nat :=
  let c0_i32_826 : BitVec 32 := 0#32
  ![v463.toNat, 0]

def k0_chk47 (v463 : BitVec 32) : Prop :=
  (∀ a, (k0_off94 v463) a + S1x4096.size a ≤ S16384x4096.size a) ∧
  (∀ a, (k0_off303 v463) a + S1x4096.size a ≤ S16384x4096.size a)
instance k0_chk47.dec : ∀ (v463 : BitVec 32), Decidable (k0_chk47 v463) := fun v463 => decidable_of_iff' _ (Iff.of_eq (k0_chk47.eq_1 v463))
theorem k0_off94_inb : ∀ (v463 : BitVec 32) (k0_hw47 : k0_chk47 v463), ∀ a, (k0_off94 v463) a + S1x4096.size a ≤ S16384x4096.size a := fun v463 k0_hw47 => k0_hw47.1
theorem k0_off303_inb : ∀ (v463 : BitVec 32) (k0_hw47 : k0_chk47 v463), ∀ a, (k0_off303 v463) a + S1x4096.size a ≤ S16384x4096.size a := fun v463 k0_hw47 => k0_hw47.2

def k0_off304 (v473 : BitVec 32) : Fin 2 → Nat :=
  let c0_i32_830 : BitVec 32 := 0#32
  ![v473.toNat, 0]

def k0_chk48 (v473 : BitVec 32) : Prop :=
  (∀ a, (k0_off96 v473) a + S1x4096.size a ≤ S16384x4096.size a) ∧
  (∀ a, (k0_off304 v473) a + S1x4096.size a ≤ S16384x4096.size a)
instance k0_chk48.dec : ∀ (v473 : BitVec 32), Decidable (k0_chk48 v473) := fun v473 => decidable_of_iff' _ (Iff.of_eq (k0_chk48.eq_1 v473))
theorem k0_off96_inb : ∀ (v473 : BitVec 32) (k0_hw48 : k0_chk48 v473), ∀ a, (k0_off96 v473) a + S1x4096.size a ≤ S16384x4096.size a := fun v473 k0_hw48 => k0_hw48.1
theorem k0_off304_inb : ∀ (v473 : BitVec 32) (k0_hw48 : k0_chk48 v473), ∀ a, (k0_off304 v473) a + S1x4096.size a ≤ S16384x4096.size a := fun v473 k0_hw48 => k0_hw48.2

def k0_off305 (v483 : BitVec 32) : Fin 2 → Nat :=
  let c0_i32_834 : BitVec 32 := 0#32
  ![v483.toNat, 0]

def k0_chk49 (v483 : BitVec 32) : Prop :=
  (∀ a, (k0_off98 v483) a + S1x4096.size a ≤ S16384x4096.size a) ∧
  (∀ a, (k0_off305 v483) a + S1x4096.size a ≤ S16384x4096.size a)
instance k0_chk49.dec : ∀ (v483 : BitVec 32), Decidable (k0_chk49 v483) := fun v483 => decidable_of_iff' _ (Iff.of_eq (k0_chk49.eq_1 v483))
theorem k0_off98_inb : ∀ (v483 : BitVec 32) (k0_hw49 : k0_chk49 v483), ∀ a, (k0_off98 v483) a + S1x4096.size a ≤ S16384x4096.size a := fun v483 k0_hw49 => k0_hw49.1
theorem k0_off305_inb : ∀ (v483 : BitVec 32) (k0_hw49 : k0_chk49 v483), ∀ a, (k0_off305 v483) a + S1x4096.size a ≤ S16384x4096.size a := fun v483 k0_hw49 => k0_hw49.2

def k0_off306 (v493 : BitVec 32) : Fin 2 → Nat :=
  let c0_i32_838 : BitVec 32 := 0#32
  ![v493.toNat, 0]

def k0_chk50 (v493 : BitVec 32) : Prop :=
  (∀ a, (k0_off100 v493) a + S1x4096.size a ≤ S16384x4096.size a) ∧
  (∀ a, (k0_off306 v493) a + S1x4096.size a ≤ S16384x4096.size a)
instance k0_chk50.dec : ∀ (v493 : BitVec 32), Decidable (k0_chk50 v493) := fun v493 => decidable_of_iff' _ (Iff.of_eq (k0_chk50.eq_1 v493))
theorem k0_off100_inb : ∀ (v493 : BitVec 32) (k0_hw50 : k0_chk50 v493), ∀ a, (k0_off100 v493) a + S1x4096.size a ≤ S16384x4096.size a := fun v493 k0_hw50 => k0_hw50.1
theorem k0_off306_inb : ∀ (v493 : BitVec 32) (k0_hw50 : k0_chk50 v493), ∀ a, (k0_off306 v493) a + S1x4096.size a ≤ S16384x4096.size a := fun v493 k0_hw50 => k0_hw50.2

def k0_off307 (v503 : BitVec 32) : Fin 2 → Nat :=
  let c0_i32_842 : BitVec 32 := 0#32
  ![v503.toNat, 0]

def k0_chk51 (v503 : BitVec 32) : Prop :=
  (∀ a, (k0_off102 v503) a + S1x4096.size a ≤ S16384x4096.size a) ∧
  (∀ a, (k0_off307 v503) a + S1x4096.size a ≤ S16384x4096.size a)
instance k0_chk51.dec : ∀ (v503 : BitVec 32), Decidable (k0_chk51 v503) := fun v503 => decidable_of_iff' _ (Iff.of_eq (k0_chk51.eq_1 v503))
theorem k0_off102_inb : ∀ (v503 : BitVec 32) (k0_hw51 : k0_chk51 v503), ∀ a, (k0_off102 v503) a + S1x4096.size a ≤ S16384x4096.size a := fun v503 k0_hw51 => k0_hw51.1
theorem k0_off307_inb : ∀ (v503 : BitVec 32) (k0_hw51 : k0_chk51 v503), ∀ a, (k0_off307 v503) a + S1x4096.size a ≤ S16384x4096.size a := fun v503 k0_hw51 => k0_hw51.2

def k0_off308 (v513 : BitVec 32) : Fin 2 → Nat :=
  let c0_i32_846 : BitVec 32 := 0#32
  ![v513.toNat, 0]

def k0_chk52 (v513 : BitVec 32) : Prop :=
  (∀ a, (k0_off104 v513) a + S1x4096.size a ≤ S16384x4096.size a) ∧
  (∀ a, (k0_off308 v513) a + S1x4096.size a ≤ S16384x4096.size a)
instance k0_chk52.dec : ∀ (v513 : BitVec 32), Decidable (k0_chk52 v513) := fun v513 => decidable_of_iff' _ (Iff.of_eq (k0_chk52.eq_1 v513))
theorem k0_off104_inb : ∀ (v513 : BitVec 32) (k0_hw52 : k0_chk52 v513), ∀ a, (k0_off104 v513) a + S1x4096.size a ≤ S16384x4096.size a := fun v513 k0_hw52 => k0_hw52.1
theorem k0_off308_inb : ∀ (v513 : BitVec 32) (k0_hw52 : k0_chk52 v513), ∀ a, (k0_off308 v513) a + S1x4096.size a ≤ S16384x4096.size a := fun v513 k0_hw52 => k0_hw52.2

def k0_off309 (v523 : BitVec 32) : Fin 2 → Nat :=
  let c0_i32_850 : BitVec 32 := 0#32
  ![v523.toNat, 0]

def k0_chk53 (v523 : BitVec 32) : Prop :=
  (∀ a, (k0_off106 v523) a + S1x4096.size a ≤ S16384x4096.size a) ∧
  (∀ a, (k0_off309 v523) a + S1x4096.size a ≤ S16384x4096.size a)
instance k0_chk53.dec : ∀ (v523 : BitVec 32), Decidable (k0_chk53 v523) := fun v523 => decidable_of_iff' _ (Iff.of_eq (k0_chk53.eq_1 v523))
theorem k0_off106_inb : ∀ (v523 : BitVec 32) (k0_hw53 : k0_chk53 v523), ∀ a, (k0_off106 v523) a + S1x4096.size a ≤ S16384x4096.size a := fun v523 k0_hw53 => k0_hw53.1
theorem k0_off309_inb : ∀ (v523 : BitVec 32) (k0_hw53 : k0_chk53 v523), ∀ a, (k0_off309 v523) a + S1x4096.size a ≤ S16384x4096.size a := fun v523 k0_hw53 => k0_hw53.2

def k0_off310 (v533 : BitVec 32) : Fin 2 → Nat :=
  let c0_i32_854 : BitVec 32 := 0#32
  ![v533.toNat, 0]

def k0_chk54 (v533 : BitVec 32) : Prop :=
  (∀ a, (k0_off108 v533) a + S1x4096.size a ≤ S16384x4096.size a) ∧
  (∀ a, (k0_off310 v533) a + S1x4096.size a ≤ S16384x4096.size a)
instance k0_chk54.dec : ∀ (v533 : BitVec 32), Decidable (k0_chk54 v533) := fun v533 => decidable_of_iff' _ (Iff.of_eq (k0_chk54.eq_1 v533))
theorem k0_off108_inb : ∀ (v533 : BitVec 32) (k0_hw54 : k0_chk54 v533), ∀ a, (k0_off108 v533) a + S1x4096.size a ≤ S16384x4096.size a := fun v533 k0_hw54 => k0_hw54.1
theorem k0_off310_inb : ∀ (v533 : BitVec 32) (k0_hw54 : k0_chk54 v533), ∀ a, (k0_off310 v533) a + S1x4096.size a ≤ S16384x4096.size a := fun v533 k0_hw54 => k0_hw54.2

def k0_off311 (v543 : BitVec 32) : Fin 2 → Nat :=
  let c0_i32_858 : BitVec 32 := 0#32
  ![v543.toNat, 0]

def k0_chk55 (v543 : BitVec 32) : Prop :=
  (∀ a, (k0_off110 v543) a + S1x4096.size a ≤ S16384x4096.size a) ∧
  (∀ a, (k0_off311 v543) a + S1x4096.size a ≤ S16384x4096.size a)
instance k0_chk55.dec : ∀ (v543 : BitVec 32), Decidable (k0_chk55 v543) := fun v543 => decidable_of_iff' _ (Iff.of_eq (k0_chk55.eq_1 v543))
theorem k0_off110_inb : ∀ (v543 : BitVec 32) (k0_hw55 : k0_chk55 v543), ∀ a, (k0_off110 v543) a + S1x4096.size a ≤ S16384x4096.size a := fun v543 k0_hw55 => k0_hw55.1
theorem k0_off311_inb : ∀ (v543 : BitVec 32) (k0_hw55 : k0_chk55 v543), ∀ a, (k0_off311 v543) a + S1x4096.size a ≤ S16384x4096.size a := fun v543 k0_hw55 => k0_hw55.2

def k0_off312 (v553 : BitVec 32) : Fin 2 → Nat :=
  let c0_i32_862 : BitVec 32 := 0#32
  ![v553.toNat, 0]

def k0_chk56 (v553 : BitVec 32) : Prop :=
  (∀ a, (k0_off112 v553) a + S1x4096.size a ≤ S16384x4096.size a) ∧
  (∀ a, (k0_off312 v553) a + S1x4096.size a ≤ S16384x4096.size a)
instance k0_chk56.dec : ∀ (v553 : BitVec 32), Decidable (k0_chk56 v553) := fun v553 => decidable_of_iff' _ (Iff.of_eq (k0_chk56.eq_1 v553))
theorem k0_off112_inb : ∀ (v553 : BitVec 32) (k0_hw56 : k0_chk56 v553), ∀ a, (k0_off112 v553) a + S1x4096.size a ≤ S16384x4096.size a := fun v553 k0_hw56 => k0_hw56.1
theorem k0_off312_inb : ∀ (v553 : BitVec 32) (k0_hw56 : k0_chk56 v553), ∀ a, (k0_off312 v553) a + S1x4096.size a ≤ S16384x4096.size a := fun v553 k0_hw56 => k0_hw56.2

def k0_off313 (v563 : BitVec 32) : Fin 2 → Nat :=
  let c0_i32_866 : BitVec 32 := 0#32
  ![v563.toNat, 0]

def k0_chk57 (v563 : BitVec 32) : Prop :=
  (∀ a, (k0_off114 v563) a + S1x4096.size a ≤ S16384x4096.size a) ∧
  (∀ a, (k0_off313 v563) a + S1x4096.size a ≤ S16384x4096.size a)
instance k0_chk57.dec : ∀ (v563 : BitVec 32), Decidable (k0_chk57 v563) := fun v563 => decidable_of_iff' _ (Iff.of_eq (k0_chk57.eq_1 v563))
theorem k0_off114_inb : ∀ (v563 : BitVec 32) (k0_hw57 : k0_chk57 v563), ∀ a, (k0_off114 v563) a + S1x4096.size a ≤ S16384x4096.size a := fun v563 k0_hw57 => k0_hw57.1
theorem k0_off313_inb : ∀ (v563 : BitVec 32) (k0_hw57 : k0_chk57 v563), ∀ a, (k0_off313 v563) a + S1x4096.size a ≤ S16384x4096.size a := fun v563 k0_hw57 => k0_hw57.2

def k0_off314 (v573 : BitVec 32) : Fin 2 → Nat :=
  let c0_i32_870 : BitVec 32 := 0#32
  ![v573.toNat, 0]

def k0_chk58 (v573 : BitVec 32) : Prop :=
  (∀ a, (k0_off116 v573) a + S1x4096.size a ≤ S16384x4096.size a) ∧
  (∀ a, (k0_off314 v573) a + S1x4096.size a ≤ S16384x4096.size a)
instance k0_chk58.dec : ∀ (v573 : BitVec 32), Decidable (k0_chk58 v573) := fun v573 => decidable_of_iff' _ (Iff.of_eq (k0_chk58.eq_1 v573))
theorem k0_off116_inb : ∀ (v573 : BitVec 32) (k0_hw58 : k0_chk58 v573), ∀ a, (k0_off116 v573) a + S1x4096.size a ≤ S16384x4096.size a := fun v573 k0_hw58 => k0_hw58.1
theorem k0_off314_inb : ∀ (v573 : BitVec 32) (k0_hw58 : k0_chk58 v573), ∀ a, (k0_off314 v573) a + S1x4096.size a ≤ S16384x4096.size a := fun v573 k0_hw58 => k0_hw58.2

def k0_off315 (v583 : BitVec 32) : Fin 2 → Nat :=
  let c0_i32_874 : BitVec 32 := 0#32
  ![v583.toNat, 0]

def k0_chk59 (v583 : BitVec 32) : Prop :=
  (∀ a, (k0_off118 v583) a + S1x4096.size a ≤ S16384x4096.size a) ∧
  (∀ a, (k0_off315 v583) a + S1x4096.size a ≤ S16384x4096.size a)
instance k0_chk59.dec : ∀ (v583 : BitVec 32), Decidable (k0_chk59 v583) := fun v583 => decidable_of_iff' _ (Iff.of_eq (k0_chk59.eq_1 v583))
theorem k0_off118_inb : ∀ (v583 : BitVec 32) (k0_hw59 : k0_chk59 v583), ∀ a, (k0_off118 v583) a + S1x4096.size a ≤ S16384x4096.size a := fun v583 k0_hw59 => k0_hw59.1
theorem k0_off315_inb : ∀ (v583 : BitVec 32) (k0_hw59 : k0_chk59 v583), ∀ a, (k0_off315 v583) a + S1x4096.size a ≤ S16384x4096.size a := fun v583 k0_hw59 => k0_hw59.2

def k0_off316 (v593 : BitVec 32) : Fin 2 → Nat :=
  let c0_i32_878 : BitVec 32 := 0#32
  ![v593.toNat, 0]

def k0_chk60 (v593 : BitVec 32) : Prop :=
  (∀ a, (k0_off120 v593) a + S1x4096.size a ≤ S16384x4096.size a) ∧
  (∀ a, (k0_off316 v593) a + S1x4096.size a ≤ S16384x4096.size a)
instance k0_chk60.dec : ∀ (v593 : BitVec 32), Decidable (k0_chk60 v593) := fun v593 => decidable_of_iff' _ (Iff.of_eq (k0_chk60.eq_1 v593))
theorem k0_off120_inb : ∀ (v593 : BitVec 32) (k0_hw60 : k0_chk60 v593), ∀ a, (k0_off120 v593) a + S1x4096.size a ≤ S16384x4096.size a := fun v593 k0_hw60 => k0_hw60.1
theorem k0_off316_inb : ∀ (v593 : BitVec 32) (k0_hw60 : k0_chk60 v593), ∀ a, (k0_off316 v593) a + S1x4096.size a ≤ S16384x4096.size a := fun v593 k0_hw60 => k0_hw60.2

def k0_off317 (v603 : BitVec 32) : Fin 2 → Nat :=
  let c0_i32_882 : BitVec 32 := 0#32
  ![v603.toNat, 0]

def k0_chk61 (v603 : BitVec 32) : Prop :=
  (∀ a, (k0_off122 v603) a + S1x4096.size a ≤ S16384x4096.size a) ∧
  (∀ a, (k0_off317 v603) a + S1x4096.size a ≤ S16384x4096.size a)
instance k0_chk61.dec : ∀ (v603 : BitVec 32), Decidable (k0_chk61 v603) := fun v603 => decidable_of_iff' _ (Iff.of_eq (k0_chk61.eq_1 v603))
theorem k0_off122_inb : ∀ (v603 : BitVec 32) (k0_hw61 : k0_chk61 v603), ∀ a, (k0_off122 v603) a + S1x4096.size a ≤ S16384x4096.size a := fun v603 k0_hw61 => k0_hw61.1
theorem k0_off317_inb : ∀ (v603 : BitVec 32) (k0_hw61 : k0_chk61 v603), ∀ a, (k0_off317 v603) a + S1x4096.size a ≤ S16384x4096.size a := fun v603 k0_hw61 => k0_hw61.2

def k0_off318 (v613 : BitVec 32) : Fin 2 → Nat :=
  let c0_i32_886 : BitVec 32 := 0#32
  ![v613.toNat, 0]

def k0_chk62 (v613 : BitVec 32) : Prop :=
  (∀ a, (k0_off124 v613) a + S1x4096.size a ≤ S16384x4096.size a) ∧
  (∀ a, (k0_off318 v613) a + S1x4096.size a ≤ S16384x4096.size a)
instance k0_chk62.dec : ∀ (v613 : BitVec 32), Decidable (k0_chk62 v613) := fun v613 => decidable_of_iff' _ (Iff.of_eq (k0_chk62.eq_1 v613))
theorem k0_off124_inb : ∀ (v613 : BitVec 32) (k0_hw62 : k0_chk62 v613), ∀ a, (k0_off124 v613) a + S1x4096.size a ≤ S16384x4096.size a := fun v613 k0_hw62 => k0_hw62.1
theorem k0_off318_inb : ∀ (v613 : BitVec 32) (k0_hw62 : k0_chk62 v613), ∀ a, (k0_off318 v613) a + S1x4096.size a ≤ S16384x4096.size a := fun v613 k0_hw62 => k0_hw62.2

def k0_off319 (v623 : BitVec 32) : Fin 2 → Nat :=
  let c0_i32_890 : BitVec 32 := 0#32
  ![v623.toNat, 0]

def k0_chk63 (v623 : BitVec 32) : Prop :=
  (∀ a, (k0_off126 v623) a + S1x4096.size a ≤ S16384x4096.size a) ∧
  (∀ a, (k0_off319 v623) a + S1x4096.size a ≤ S16384x4096.size a)
instance k0_chk63.dec : ∀ (v623 : BitVec 32), Decidable (k0_chk63 v623) := fun v623 => decidable_of_iff' _ (Iff.of_eq (k0_chk63.eq_1 v623))
theorem k0_off126_inb : ∀ (v623 : BitVec 32) (k0_hw63 : k0_chk63 v623), ∀ a, (k0_off126 v623) a + S1x4096.size a ≤ S16384x4096.size a := fun v623 k0_hw63 => k0_hw63.1
theorem k0_off319_inb : ∀ (v623 : BitVec 32) (k0_hw63 : k0_chk63 v623), ∀ a, (k0_off319 v623) a + S1x4096.size a ≤ S16384x4096.size a := fun v623 k0_hw63 => k0_hw63.2

def k0_off320 (v633 : BitVec 32) : Fin 2 → Nat :=
  let c0_i32_894 : BitVec 32 := 0#32
  ![v633.toNat, 0]

def k0_chk64 (v633 : BitVec 32) : Prop :=
  (∀ a, (k0_off128 v633) a + S1x4096.size a ≤ S16384x4096.size a) ∧
  (∀ a, (k0_off320 v633) a + S1x4096.size a ≤ S16384x4096.size a)
instance k0_chk64.dec : ∀ (v633 : BitVec 32), Decidable (k0_chk64 v633) := fun v633 => decidable_of_iff' _ (Iff.of_eq (k0_chk64.eq_1 v633))
theorem k0_off128_inb : ∀ (v633 : BitVec 32) (k0_hw64 : k0_chk64 v633), ∀ a, (k0_off128 v633) a + S1x4096.size a ≤ S16384x4096.size a := fun v633 k0_hw64 => k0_hw64.1
theorem k0_off320_inb : ∀ (v633 : BitVec 32) (k0_hw64 : k0_chk64 v633), ∀ a, (k0_off320 v633) a + S1x4096.size a ≤ S16384x4096.size a := fun v633 k0_hw64 => k0_hw64.2

def k0_off321 (v643 : BitVec 32) : Fin 2 → Nat :=
  let c0_i32_898 : BitVec 32 := 0#32
  ![v643.toNat, 0]

def k0_chk65 (v643 : BitVec 32) : Prop :=
  (∀ a, (k0_off130 v643) a + S1x4096.size a ≤ S16384x4096.size a) ∧
  (∀ a, (k0_off321 v643) a + S1x4096.size a ≤ S16384x4096.size a)
instance k0_chk65.dec : ∀ (v643 : BitVec 32), Decidable (k0_chk65 v643) := fun v643 => decidable_of_iff' _ (Iff.of_eq (k0_chk65.eq_1 v643))
theorem k0_off130_inb : ∀ (v643 : BitVec 32) (k0_hw65 : k0_chk65 v643), ∀ a, (k0_off130 v643) a + S1x4096.size a ≤ S16384x4096.size a := fun v643 k0_hw65 => k0_hw65.1
theorem k0_off321_inb : ∀ (v643 : BitVec 32) (k0_hw65 : k0_chk65 v643), ∀ a, (k0_off321 v643) a + S1x4096.size a ≤ S16384x4096.size a := fun v643 k0_hw65 => k0_hw65.2

def k0_off322 (v653 : BitVec 32) : Fin 2 → Nat :=
  let c0_i32_902 : BitVec 32 := 0#32
  ![v653.toNat, 0]

def k0_chk66 (v653 : BitVec 32) : Prop :=
  (∀ a, (k0_off132 v653) a + S1x4096.size a ≤ S16384x4096.size a) ∧
  (∀ a, (k0_off322 v653) a + S1x4096.size a ≤ S16384x4096.size a)
instance k0_chk66.dec : ∀ (v653 : BitVec 32), Decidable (k0_chk66 v653) := fun v653 => decidable_of_iff' _ (Iff.of_eq (k0_chk66.eq_1 v653))
theorem k0_off132_inb : ∀ (v653 : BitVec 32) (k0_hw66 : k0_chk66 v653), ∀ a, (k0_off132 v653) a + S1x4096.size a ≤ S16384x4096.size a := fun v653 k0_hw66 => k0_hw66.1
theorem k0_off322_inb : ∀ (v653 : BitVec 32) (k0_hw66 : k0_chk66 v653), ∀ a, (k0_off322 v653) a + S1x4096.size a ≤ S16384x4096.size a := fun v653 k0_hw66 => k0_hw66.2

def k0_off323 (v663 : BitVec 32) : Fin 2 → Nat :=
  let c0_i32_906 : BitVec 32 := 0#32
  ![v663.toNat, 0]

def k0_chk67 (v663 : BitVec 32) : Prop :=
  (∀ a, (k0_off134 v663) a + S1x4096.size a ≤ S16384x4096.size a) ∧
  (∀ a, (k0_off323 v663) a + S1x4096.size a ≤ S16384x4096.size a)
instance k0_chk67.dec : ∀ (v663 : BitVec 32), Decidable (k0_chk67 v663) := fun v663 => decidable_of_iff' _ (Iff.of_eq (k0_chk67.eq_1 v663))
theorem k0_off134_inb : ∀ (v663 : BitVec 32) (k0_hw67 : k0_chk67 v663), ∀ a, (k0_off134 v663) a + S1x4096.size a ≤ S16384x4096.size a := fun v663 k0_hw67 => k0_hw67.1
theorem k0_off323_inb : ∀ (v663 : BitVec 32) (k0_hw67 : k0_chk67 v663), ∀ a, (k0_off323 v663) a + S1x4096.size a ≤ S16384x4096.size a := fun v663 k0_hw67 => k0_hw67.2

def k0_off324 (v673 : BitVec 32) : Fin 2 → Nat :=
  let c0_i32_910 : BitVec 32 := 0#32
  ![v673.toNat, 0]

def k0_chk68 (v673 : BitVec 32) : Prop :=
  (∀ a, (k0_off136 v673) a + S1x4096.size a ≤ S16384x4096.size a) ∧
  (∀ a, (k0_off324 v673) a + S1x4096.size a ≤ S16384x4096.size a)
instance k0_chk68.dec : ∀ (v673 : BitVec 32), Decidable (k0_chk68 v673) := fun v673 => decidable_of_iff' _ (Iff.of_eq (k0_chk68.eq_1 v673))
theorem k0_off136_inb : ∀ (v673 : BitVec 32) (k0_hw68 : k0_chk68 v673), ∀ a, (k0_off136 v673) a + S1x4096.size a ≤ S16384x4096.size a := fun v673 k0_hw68 => k0_hw68.1
theorem k0_off324_inb : ∀ (v673 : BitVec 32) (k0_hw68 : k0_chk68 v673), ∀ a, (k0_off324 v673) a + S1x4096.size a ≤ S16384x4096.size a := fun v673 k0_hw68 => k0_hw68.2

def k0_off325 (v683 : BitVec 32) : Fin 2 → Nat :=
  let c0_i32_914 : BitVec 32 := 0#32
  ![v683.toNat, 0]

def k0_chk69 (v683 : BitVec 32) : Prop :=
  (∀ a, (k0_off138 v683) a + S1x4096.size a ≤ S16384x4096.size a) ∧
  (∀ a, (k0_off325 v683) a + S1x4096.size a ≤ S16384x4096.size a)
instance k0_chk69.dec : ∀ (v683 : BitVec 32), Decidable (k0_chk69 v683) := fun v683 => decidable_of_iff' _ (Iff.of_eq (k0_chk69.eq_1 v683))
theorem k0_off138_inb : ∀ (v683 : BitVec 32) (k0_hw69 : k0_chk69 v683), ∀ a, (k0_off138 v683) a + S1x4096.size a ≤ S16384x4096.size a := fun v683 k0_hw69 => k0_hw69.1
theorem k0_off325_inb : ∀ (v683 : BitVec 32) (k0_hw69 : k0_chk69 v683), ∀ a, (k0_off325 v683) a + S1x4096.size a ≤ S16384x4096.size a := fun v683 k0_hw69 => k0_hw69.2

def k0_off326 (v693 : BitVec 32) : Fin 2 → Nat :=
  let c0_i32_918 : BitVec 32 := 0#32
  ![v693.toNat, 0]

def k0_chk70 (v693 : BitVec 32) : Prop :=
  (∀ a, (k0_off140 v693) a + S1x4096.size a ≤ S16384x4096.size a) ∧
  (∀ a, (k0_off326 v693) a + S1x4096.size a ≤ S16384x4096.size a)
instance k0_chk70.dec : ∀ (v693 : BitVec 32), Decidable (k0_chk70 v693) := fun v693 => decidable_of_iff' _ (Iff.of_eq (k0_chk70.eq_1 v693))
theorem k0_off140_inb : ∀ (v693 : BitVec 32) (k0_hw70 : k0_chk70 v693), ∀ a, (k0_off140 v693) a + S1x4096.size a ≤ S16384x4096.size a := fun v693 k0_hw70 => k0_hw70.1
theorem k0_off326_inb : ∀ (v693 : BitVec 32) (k0_hw70 : k0_chk70 v693), ∀ a, (k0_off326 v693) a + S1x4096.size a ≤ S16384x4096.size a := fun v693 k0_hw70 => k0_hw70.2

def k0_off327 (v703 : BitVec 32) : Fin 2 → Nat :=
  let c0_i32_922 : BitVec 32 := 0#32
  ![v703.toNat, 0]

def k0_chk71 (v703 : BitVec 32) : Prop :=
  (∀ a, (k0_off142 v703) a + S1x4096.size a ≤ S16384x4096.size a) ∧
  (∀ a, (k0_off327 v703) a + S1x4096.size a ≤ S16384x4096.size a)
instance k0_chk71.dec : ∀ (v703 : BitVec 32), Decidable (k0_chk71 v703) := fun v703 => decidable_of_iff' _ (Iff.of_eq (k0_chk71.eq_1 v703))
theorem k0_off142_inb : ∀ (v703 : BitVec 32) (k0_hw71 : k0_chk71 v703), ∀ a, (k0_off142 v703) a + S1x4096.size a ≤ S16384x4096.size a := fun v703 k0_hw71 => k0_hw71.1
theorem k0_off327_inb : ∀ (v703 : BitVec 32) (k0_hw71 : k0_chk71 v703), ∀ a, (k0_off327 v703) a + S1x4096.size a ≤ S16384x4096.size a := fun v703 k0_hw71 => k0_hw71.2

def k0_off328 (v713 : BitVec 32) : Fin 2 → Nat :=
  let c0_i32_926 : BitVec 32 := 0#32
  ![v713.toNat, 0]

def k0_chk72 (v713 : BitVec 32) : Prop :=
  (∀ a, (k0_off144 v713) a + S1x4096.size a ≤ S16384x4096.size a) ∧
  (∀ a, (k0_off328 v713) a + S1x4096.size a ≤ S16384x4096.size a)
instance k0_chk72.dec : ∀ (v713 : BitVec 32), Decidable (k0_chk72 v713) := fun v713 => decidable_of_iff' _ (Iff.of_eq (k0_chk72.eq_1 v713))
theorem k0_off144_inb : ∀ (v713 : BitVec 32) (k0_hw72 : k0_chk72 v713), ∀ a, (k0_off144 v713) a + S1x4096.size a ≤ S16384x4096.size a := fun v713 k0_hw72 => k0_hw72.1
theorem k0_off328_inb : ∀ (v713 : BitVec 32) (k0_hw72 : k0_chk72 v713), ∀ a, (k0_off328 v713) a + S1x4096.size a ≤ S16384x4096.size a := fun v713 k0_hw72 => k0_hw72.2

def k0_off329 (v723 : BitVec 32) : Fin 2 → Nat :=
  let c0_i32_930 : BitVec 32 := 0#32
  ![v723.toNat, 0]

def k0_chk73 (v723 : BitVec 32) : Prop :=
  (∀ a, (k0_off146 v723) a + S1x4096.size a ≤ S16384x4096.size a) ∧
  (∀ a, (k0_off329 v723) a + S1x4096.size a ≤ S16384x4096.size a)
instance k0_chk73.dec : ∀ (v723 : BitVec 32), Decidable (k0_chk73 v723) := fun v723 => decidable_of_iff' _ (Iff.of_eq (k0_chk73.eq_1 v723))
theorem k0_off146_inb : ∀ (v723 : BitVec 32) (k0_hw73 : k0_chk73 v723), ∀ a, (k0_off146 v723) a + S1x4096.size a ≤ S16384x4096.size a := fun v723 k0_hw73 => k0_hw73.1
theorem k0_off329_inb : ∀ (v723 : BitVec 32) (k0_hw73 : k0_chk73 v723), ∀ a, (k0_off329 v723) a + S1x4096.size a ≤ S16384x4096.size a := fun v723 k0_hw73 => k0_hw73.2

def k0_off330 (v733 : BitVec 32) : Fin 2 → Nat :=
  let c0_i32_934 : BitVec 32 := 0#32
  ![v733.toNat, 0]

def k0_chk74 (v733 : BitVec 32) : Prop :=
  (∀ a, (k0_off148 v733) a + S1x4096.size a ≤ S16384x4096.size a) ∧
  (∀ a, (k0_off330 v733) a + S1x4096.size a ≤ S16384x4096.size a)
instance k0_chk74.dec : ∀ (v733 : BitVec 32), Decidable (k0_chk74 v733) := fun v733 => decidable_of_iff' _ (Iff.of_eq (k0_chk74.eq_1 v733))
theorem k0_off148_inb : ∀ (v733 : BitVec 32) (k0_hw74 : k0_chk74 v733), ∀ a, (k0_off148 v733) a + S1x4096.size a ≤ S16384x4096.size a := fun v733 k0_hw74 => k0_hw74.1
theorem k0_off330_inb : ∀ (v733 : BitVec 32) (k0_hw74 : k0_chk74 v733), ∀ a, (k0_off330 v733) a + S1x4096.size a ≤ S16384x4096.size a := fun v733 k0_hw74 => k0_hw74.2

def k0_off331 (v743 : BitVec 32) : Fin 2 → Nat :=
  let c0_i32_938 : BitVec 32 := 0#32
  ![v743.toNat, 0]

def k0_chk75 (v743 : BitVec 32) : Prop :=
  (∀ a, (k0_off150 v743) a + S1x4096.size a ≤ S16384x4096.size a) ∧
  (∀ a, (k0_off331 v743) a + S1x4096.size a ≤ S16384x4096.size a)
instance k0_chk75.dec : ∀ (v743 : BitVec 32), Decidable (k0_chk75 v743) := fun v743 => decidable_of_iff' _ (Iff.of_eq (k0_chk75.eq_1 v743))
theorem k0_off150_inb : ∀ (v743 : BitVec 32) (k0_hw75 : k0_chk75 v743), ∀ a, (k0_off150 v743) a + S1x4096.size a ≤ S16384x4096.size a := fun v743 k0_hw75 => k0_hw75.1
theorem k0_off331_inb : ∀ (v743 : BitVec 32) (k0_hw75 : k0_chk75 v743), ∀ a, (k0_off331 v743) a + S1x4096.size a ≤ S16384x4096.size a := fun v743 k0_hw75 => k0_hw75.2

def k0_off332 (v753 : BitVec 32) : Fin 2 → Nat :=
  let c0_i32_942 : BitVec 32 := 0#32
  ![v753.toNat, 0]

def k0_chk76 (v753 : BitVec 32) : Prop :=
  (∀ a, (k0_off152 v753) a + S1x4096.size a ≤ S16384x4096.size a) ∧
  (∀ a, (k0_off332 v753) a + S1x4096.size a ≤ S16384x4096.size a)
instance k0_chk76.dec : ∀ (v753 : BitVec 32), Decidable (k0_chk76 v753) := fun v753 => decidable_of_iff' _ (Iff.of_eq (k0_chk76.eq_1 v753))
theorem k0_off152_inb : ∀ (v753 : BitVec 32) (k0_hw76 : k0_chk76 v753), ∀ a, (k0_off152 v753) a + S1x4096.size a ≤ S16384x4096.size a := fun v753 k0_hw76 => k0_hw76.1
theorem k0_off332_inb : ∀ (v753 : BitVec 32) (k0_hw76 : k0_chk76 v753), ∀ a, (k0_off332 v753) a + S1x4096.size a ≤ S16384x4096.size a := fun v753 k0_hw76 => k0_hw76.2

def k0_off333 (v763 : BitVec 32) : Fin 2 → Nat :=
  let c0_i32_946 : BitVec 32 := 0#32
  ![v763.toNat, 0]

def k0_chk77 (v763 : BitVec 32) : Prop :=
  (∀ a, (k0_off154 v763) a + S1x4096.size a ≤ S16384x4096.size a) ∧
  (∀ a, (k0_off333 v763) a + S1x4096.size a ≤ S16384x4096.size a)
instance k0_chk77.dec : ∀ (v763 : BitVec 32), Decidable (k0_chk77 v763) := fun v763 => decidable_of_iff' _ (Iff.of_eq (k0_chk77.eq_1 v763))
theorem k0_off154_inb : ∀ (v763 : BitVec 32) (k0_hw77 : k0_chk77 v763), ∀ a, (k0_off154 v763) a + S1x4096.size a ≤ S16384x4096.size a := fun v763 k0_hw77 => k0_hw77.1
theorem k0_off333_inb : ∀ (v763 : BitVec 32) (k0_hw77 : k0_chk77 v763), ∀ a, (k0_off333 v763) a + S1x4096.size a ≤ S16384x4096.size a := fun v763 k0_hw77 => k0_hw77.2

def k0_off334 (v773 : BitVec 32) : Fin 2 → Nat :=
  let c0_i32_950 : BitVec 32 := 0#32
  ![v773.toNat, 0]

def k0_chk78 (v773 : BitVec 32) : Prop :=
  (∀ a, (k0_off156 v773) a + S1x4096.size a ≤ S16384x4096.size a) ∧
  (∀ a, (k0_off334 v773) a + S1x4096.size a ≤ S16384x4096.size a)
instance k0_chk78.dec : ∀ (v773 : BitVec 32), Decidable (k0_chk78 v773) := fun v773 => decidable_of_iff' _ (Iff.of_eq (k0_chk78.eq_1 v773))
theorem k0_off156_inb : ∀ (v773 : BitVec 32) (k0_hw78 : k0_chk78 v773), ∀ a, (k0_off156 v773) a + S1x4096.size a ≤ S16384x4096.size a := fun v773 k0_hw78 => k0_hw78.1
theorem k0_off334_inb : ∀ (v773 : BitVec 32) (k0_hw78 : k0_chk78 v773), ∀ a, (k0_off334 v773) a + S1x4096.size a ≤ S16384x4096.size a := fun v773 k0_hw78 => k0_hw78.2

def k0_off335 (v783 : BitVec 32) : Fin 2 → Nat :=
  let c0_i32_954 : BitVec 32 := 0#32
  ![v783.toNat, 0]

def k0_chk79 (v783 : BitVec 32) : Prop :=
  (∀ a, (k0_off158 v783) a + S1x4096.size a ≤ S16384x4096.size a) ∧
  (∀ a, (k0_off335 v783) a + S1x4096.size a ≤ S16384x4096.size a)
instance k0_chk79.dec : ∀ (v783 : BitVec 32), Decidable (k0_chk79 v783) := fun v783 => decidable_of_iff' _ (Iff.of_eq (k0_chk79.eq_1 v783))
theorem k0_off158_inb : ∀ (v783 : BitVec 32) (k0_hw79 : k0_chk79 v783), ∀ a, (k0_off158 v783) a + S1x4096.size a ≤ S16384x4096.size a := fun v783 k0_hw79 => k0_hw79.1
theorem k0_off335_inb : ∀ (v783 : BitVec 32) (k0_hw79 : k0_chk79 v783), ∀ a, (k0_off335 v783) a + S1x4096.size a ≤ S16384x4096.size a := fun v783 k0_hw79 => k0_hw79.2

def k0_off336 (v793 : BitVec 32) : Fin 2 → Nat :=
  let c0_i32_958 : BitVec 32 := 0#32
  ![v793.toNat, 0]

def k0_chk80 (v793 : BitVec 32) : Prop :=
  (∀ a, (k0_off160 v793) a + S1x4096.size a ≤ S16384x4096.size a) ∧
  (∀ a, (k0_off336 v793) a + S1x4096.size a ≤ S16384x4096.size a)
instance k0_chk80.dec : ∀ (v793 : BitVec 32), Decidable (k0_chk80 v793) := fun v793 => decidable_of_iff' _ (Iff.of_eq (k0_chk80.eq_1 v793))
theorem k0_off160_inb : ∀ (v793 : BitVec 32) (k0_hw80 : k0_chk80 v793), ∀ a, (k0_off160 v793) a + S1x4096.size a ≤ S16384x4096.size a := fun v793 k0_hw80 => k0_hw80.1
theorem k0_off336_inb : ∀ (v793 : BitVec 32) (k0_hw80 : k0_chk80 v793), ∀ a, (k0_off336 v793) a + S1x4096.size a ≤ S16384x4096.size a := fun v793 k0_hw80 => k0_hw80.2

def k0_off337 (v803 : BitVec 32) : Fin 2 → Nat :=
  let c0_i32_962 : BitVec 32 := 0#32
  ![v803.toNat, 0]

def k0_chk81 (v803 : BitVec 32) : Prop :=
  (∀ a, (k0_off162 v803) a + S1x4096.size a ≤ S16384x4096.size a) ∧
  (∀ a, (k0_off337 v803) a + S1x4096.size a ≤ S16384x4096.size a)
instance k0_chk81.dec : ∀ (v803 : BitVec 32), Decidable (k0_chk81 v803) := fun v803 => decidable_of_iff' _ (Iff.of_eq (k0_chk81.eq_1 v803))
theorem k0_off162_inb : ∀ (v803 : BitVec 32) (k0_hw81 : k0_chk81 v803), ∀ a, (k0_off162 v803) a + S1x4096.size a ≤ S16384x4096.size a := fun v803 k0_hw81 => k0_hw81.1
theorem k0_off337_inb : ∀ (v803 : BitVec 32) (k0_hw81 : k0_chk81 v803), ∀ a, (k0_off337 v803) a + S1x4096.size a ≤ S16384x4096.size a := fun v803 k0_hw81 => k0_hw81.2

def k0_off338 (v813 : BitVec 32) : Fin 2 → Nat :=
  let c0_i32_966 : BitVec 32 := 0#32
  ![v813.toNat, 0]

def k0_chk82 (v813 : BitVec 32) : Prop :=
  (∀ a, (k0_off164 v813) a + S1x4096.size a ≤ S16384x4096.size a) ∧
  (∀ a, (k0_off338 v813) a + S1x4096.size a ≤ S16384x4096.size a)
instance k0_chk82.dec : ∀ (v813 : BitVec 32), Decidable (k0_chk82 v813) := fun v813 => decidable_of_iff' _ (Iff.of_eq (k0_chk82.eq_1 v813))
theorem k0_off164_inb : ∀ (v813 : BitVec 32) (k0_hw82 : k0_chk82 v813), ∀ a, (k0_off164 v813) a + S1x4096.size a ≤ S16384x4096.size a := fun v813 k0_hw82 => k0_hw82.1
theorem k0_off338_inb : ∀ (v813 : BitVec 32) (k0_hw82 : k0_chk82 v813), ∀ a, (k0_off338 v813) a + S1x4096.size a ≤ S16384x4096.size a := fun v813 k0_hw82 => k0_hw82.2

def k0_off339 (v823 : BitVec 32) : Fin 2 → Nat :=
  let c0_i32_970 : BitVec 32 := 0#32
  ![v823.toNat, 0]

def k0_chk83 (v823 : BitVec 32) : Prop :=
  (∀ a, (k0_off166 v823) a + S1x4096.size a ≤ S16384x4096.size a) ∧
  (∀ a, (k0_off339 v823) a + S1x4096.size a ≤ S16384x4096.size a)
instance k0_chk83.dec : ∀ (v823 : BitVec 32), Decidable (k0_chk83 v823) := fun v823 => decidable_of_iff' _ (Iff.of_eq (k0_chk83.eq_1 v823))
theorem k0_off166_inb : ∀ (v823 : BitVec 32) (k0_hw83 : k0_chk83 v823), ∀ a, (k0_off166 v823) a + S1x4096.size a ≤ S16384x4096.size a := fun v823 k0_hw83 => k0_hw83.1
theorem k0_off339_inb : ∀ (v823 : BitVec 32) (k0_hw83 : k0_chk83 v823), ∀ a, (k0_off339 v823) a + S1x4096.size a ≤ S16384x4096.size a := fun v823 k0_hw83 => k0_hw83.2

def k0_off340 (v833 : BitVec 32) : Fin 2 → Nat :=
  let c0_i32_974 : BitVec 32 := 0#32
  ![v833.toNat, 0]

def k0_chk84 (v833 : BitVec 32) : Prop :=
  (∀ a, (k0_off168 v833) a + S1x4096.size a ≤ S16384x4096.size a) ∧
  (∀ a, (k0_off340 v833) a + S1x4096.size a ≤ S16384x4096.size a)
instance k0_chk84.dec : ∀ (v833 : BitVec 32), Decidable (k0_chk84 v833) := fun v833 => decidable_of_iff' _ (Iff.of_eq (k0_chk84.eq_1 v833))
theorem k0_off168_inb : ∀ (v833 : BitVec 32) (k0_hw84 : k0_chk84 v833), ∀ a, (k0_off168 v833) a + S1x4096.size a ≤ S16384x4096.size a := fun v833 k0_hw84 => k0_hw84.1
theorem k0_off340_inb : ∀ (v833 : BitVec 32) (k0_hw84 : k0_chk84 v833), ∀ a, (k0_off340 v833) a + S1x4096.size a ≤ S16384x4096.size a := fun v833 k0_hw84 => k0_hw84.2

def k0_off341 (v843 : BitVec 32) : Fin 2 → Nat :=
  let c0_i32_978 : BitVec 32 := 0#32
  ![v843.toNat, 0]

def k0_chk85 (v843 : BitVec 32) : Prop :=
  (∀ a, (k0_off170 v843) a + S1x4096.size a ≤ S16384x4096.size a) ∧
  (∀ a, (k0_off341 v843) a + S1x4096.size a ≤ S16384x4096.size a)
instance k0_chk85.dec : ∀ (v843 : BitVec 32), Decidable (k0_chk85 v843) := fun v843 => decidable_of_iff' _ (Iff.of_eq (k0_chk85.eq_1 v843))
theorem k0_off170_inb : ∀ (v843 : BitVec 32) (k0_hw85 : k0_chk85 v843), ∀ a, (k0_off170 v843) a + S1x4096.size a ≤ S16384x4096.size a := fun v843 k0_hw85 => k0_hw85.1
theorem k0_off341_inb : ∀ (v843 : BitVec 32) (k0_hw85 : k0_chk85 v843), ∀ a, (k0_off341 v843) a + S1x4096.size a ≤ S16384x4096.size a := fun v843 k0_hw85 => k0_hw85.2

def k0_off342 (v853 : BitVec 32) : Fin 2 → Nat :=
  let c0_i32_982 : BitVec 32 := 0#32
  ![v853.toNat, 0]

def k0_chk86 (v853 : BitVec 32) : Prop :=
  (∀ a, (k0_off172 v853) a + S1x4096.size a ≤ S16384x4096.size a) ∧
  (∀ a, (k0_off342 v853) a + S1x4096.size a ≤ S16384x4096.size a)
instance k0_chk86.dec : ∀ (v853 : BitVec 32), Decidable (k0_chk86 v853) := fun v853 => decidable_of_iff' _ (Iff.of_eq (k0_chk86.eq_1 v853))
theorem k0_off172_inb : ∀ (v853 : BitVec 32) (k0_hw86 : k0_chk86 v853), ∀ a, (k0_off172 v853) a + S1x4096.size a ≤ S16384x4096.size a := fun v853 k0_hw86 => k0_hw86.1
theorem k0_off342_inb : ∀ (v853 : BitVec 32) (k0_hw86 : k0_chk86 v853), ∀ a, (k0_off342 v853) a + S1x4096.size a ≤ S16384x4096.size a := fun v853 k0_hw86 => k0_hw86.2

def k0_off343 (v863 : BitVec 32) : Fin 2 → Nat :=
  let c0_i32_986 : BitVec 32 := 0#32
  ![v863.toNat, 0]

def k0_chk87 (v863 : BitVec 32) : Prop :=
  (∀ a, (k0_off174 v863) a + S1x4096.size a ≤ S16384x4096.size a) ∧
  (∀ a, (k0_off343 v863) a + S1x4096.size a ≤ S16384x4096.size a)
instance k0_chk87.dec : ∀ (v863 : BitVec 32), Decidable (k0_chk87 v863) := fun v863 => decidable_of_iff' _ (Iff.of_eq (k0_chk87.eq_1 v863))
theorem k0_off174_inb : ∀ (v863 : BitVec 32) (k0_hw87 : k0_chk87 v863), ∀ a, (k0_off174 v863) a + S1x4096.size a ≤ S16384x4096.size a := fun v863 k0_hw87 => k0_hw87.1
theorem k0_off343_inb : ∀ (v863 : BitVec 32) (k0_hw87 : k0_chk87 v863), ∀ a, (k0_off343 v863) a + S1x4096.size a ≤ S16384x4096.size a := fun v863 k0_hw87 => k0_hw87.2

def k0_off344 (v873 : BitVec 32) : Fin 2 → Nat :=
  let c0_i32_990 : BitVec 32 := 0#32
  ![v873.toNat, 0]

def k0_chk88 (v873 : BitVec 32) : Prop :=
  (∀ a, (k0_off176 v873) a + S1x4096.size a ≤ S16384x4096.size a) ∧
  (∀ a, (k0_off344 v873) a + S1x4096.size a ≤ S16384x4096.size a)
instance k0_chk88.dec : ∀ (v873 : BitVec 32), Decidable (k0_chk88 v873) := fun v873 => decidable_of_iff' _ (Iff.of_eq (k0_chk88.eq_1 v873))
theorem k0_off176_inb : ∀ (v873 : BitVec 32) (k0_hw88 : k0_chk88 v873), ∀ a, (k0_off176 v873) a + S1x4096.size a ≤ S16384x4096.size a := fun v873 k0_hw88 => k0_hw88.1
theorem k0_off344_inb : ∀ (v873 : BitVec 32) (k0_hw88 : k0_chk88 v873), ∀ a, (k0_off344 v873) a + S1x4096.size a ≤ S16384x4096.size a := fun v873 k0_hw88 => k0_hw88.2

def k0_off345 (v883 : BitVec 32) : Fin 2 → Nat :=
  let c0_i32_994 : BitVec 32 := 0#32
  ![v883.toNat, 0]

def k0_chk89 (v883 : BitVec 32) : Prop :=
  (∀ a, (k0_off178 v883) a + S1x4096.size a ≤ S16384x4096.size a) ∧
  (∀ a, (k0_off345 v883) a + S1x4096.size a ≤ S16384x4096.size a)
instance k0_chk89.dec : ∀ (v883 : BitVec 32), Decidable (k0_chk89 v883) := fun v883 => decidable_of_iff' _ (Iff.of_eq (k0_chk89.eq_1 v883))
theorem k0_off178_inb : ∀ (v883 : BitVec 32) (k0_hw89 : k0_chk89 v883), ∀ a, (k0_off178 v883) a + S1x4096.size a ≤ S16384x4096.size a := fun v883 k0_hw89 => k0_hw89.1
theorem k0_off345_inb : ∀ (v883 : BitVec 32) (k0_hw89 : k0_chk89 v883), ∀ a, (k0_off345 v883) a + S1x4096.size a ≤ S16384x4096.size a := fun v883 k0_hw89 => k0_hw89.2

def k0_off346 (v893 : BitVec 32) : Fin 2 → Nat :=
  let c0_i32_998 : BitVec 32 := 0#32
  ![v893.toNat, 0]

def k0_chk90 (v893 : BitVec 32) : Prop :=
  (∀ a, (k0_off180 v893) a + S1x4096.size a ≤ S16384x4096.size a) ∧
  (∀ a, (k0_off346 v893) a + S1x4096.size a ≤ S16384x4096.size a)
instance k0_chk90.dec : ∀ (v893 : BitVec 32), Decidable (k0_chk90 v893) := fun v893 => decidable_of_iff' _ (Iff.of_eq (k0_chk90.eq_1 v893))
theorem k0_off180_inb : ∀ (v893 : BitVec 32) (k0_hw90 : k0_chk90 v893), ∀ a, (k0_off180 v893) a + S1x4096.size a ≤ S16384x4096.size a := fun v893 k0_hw90 => k0_hw90.1
theorem k0_off346_inb : ∀ (v893 : BitVec 32) (k0_hw90 : k0_chk90 v893), ∀ a, (k0_off346 v893) a + S1x4096.size a ≤ S16384x4096.size a := fun v893 k0_hw90 => k0_hw90.2

def k0_off347 (v903 : BitVec 32) : Fin 2 → Nat :=
  let c0_i32_1002 : BitVec 32 := 0#32
  ![v903.toNat, 0]

def k0_chk91 (v903 : BitVec 32) : Prop :=
  (∀ a, (k0_off182 v903) a + S1x4096.size a ≤ S16384x4096.size a) ∧
  (∀ a, (k0_off347 v903) a + S1x4096.size a ≤ S16384x4096.size a)
instance k0_chk91.dec : ∀ (v903 : BitVec 32), Decidable (k0_chk91 v903) := fun v903 => decidable_of_iff' _ (Iff.of_eq (k0_chk91.eq_1 v903))
theorem k0_off182_inb : ∀ (v903 : BitVec 32) (k0_hw91 : k0_chk91 v903), ∀ a, (k0_off182 v903) a + S1x4096.size a ≤ S16384x4096.size a := fun v903 k0_hw91 => k0_hw91.1
theorem k0_off347_inb : ∀ (v903 : BitVec 32) (k0_hw91 : k0_chk91 v903), ∀ a, (k0_off347 v903) a + S1x4096.size a ≤ S16384x4096.size a := fun v903 k0_hw91 => k0_hw91.2

def k0_off348 (v913 : BitVec 32) : Fin 2 → Nat :=
  let c0_i32_1006 : BitVec 32 := 0#32
  ![v913.toNat, 0]

def k0_chk92 (v913 : BitVec 32) : Prop :=
  (∀ a, (k0_off184 v913) a + S1x4096.size a ≤ S16384x4096.size a) ∧
  (∀ a, (k0_off348 v913) a + S1x4096.size a ≤ S16384x4096.size a)
instance k0_chk92.dec : ∀ (v913 : BitVec 32), Decidable (k0_chk92 v913) := fun v913 => decidable_of_iff' _ (Iff.of_eq (k0_chk92.eq_1 v913))
theorem k0_off184_inb : ∀ (v913 : BitVec 32) (k0_hw92 : k0_chk92 v913), ∀ a, (k0_off184 v913) a + S1x4096.size a ≤ S16384x4096.size a := fun v913 k0_hw92 => k0_hw92.1
theorem k0_off348_inb : ∀ (v913 : BitVec 32) (k0_hw92 : k0_chk92 v913), ∀ a, (k0_off348 v913) a + S1x4096.size a ≤ S16384x4096.size a := fun v913 k0_hw92 => k0_hw92.2

def k0_off349 (v923 : BitVec 32) : Fin 2 → Nat :=
  let c0_i32_1010 : BitVec 32 := 0#32
  ![v923.toNat, 0]

def k0_chk93 (v923 : BitVec 32) : Prop :=
  (∀ a, (k0_off186 v923) a + S1x4096.size a ≤ S16384x4096.size a) ∧
  (∀ a, (k0_off349 v923) a + S1x4096.size a ≤ S16384x4096.size a)
instance k0_chk93.dec : ∀ (v923 : BitVec 32), Decidable (k0_chk93 v923) := fun v923 => decidable_of_iff' _ (Iff.of_eq (k0_chk93.eq_1 v923))
theorem k0_off186_inb : ∀ (v923 : BitVec 32) (k0_hw93 : k0_chk93 v923), ∀ a, (k0_off186 v923) a + S1x4096.size a ≤ S16384x4096.size a := fun v923 k0_hw93 => k0_hw93.1
theorem k0_off349_inb : ∀ (v923 : BitVec 32) (k0_hw93 : k0_chk93 v923), ∀ a, (k0_off349 v923) a + S1x4096.size a ≤ S16384x4096.size a := fun v923 k0_hw93 => k0_hw93.2

def k0_off350 (v933 : BitVec 32) : Fin 2 → Nat :=
  let c0_i32_1014 : BitVec 32 := 0#32
  ![v933.toNat, 0]

def k0_chk94 (v933 : BitVec 32) : Prop :=
  (∀ a, (k0_off188 v933) a + S1x4096.size a ≤ S16384x4096.size a) ∧
  (∀ a, (k0_off350 v933) a + S1x4096.size a ≤ S16384x4096.size a)
instance k0_chk94.dec : ∀ (v933 : BitVec 32), Decidable (k0_chk94 v933) := fun v933 => decidable_of_iff' _ (Iff.of_eq (k0_chk94.eq_1 v933))
theorem k0_off188_inb : ∀ (v933 : BitVec 32) (k0_hw94 : k0_chk94 v933), ∀ a, (k0_off188 v933) a + S1x4096.size a ≤ S16384x4096.size a := fun v933 k0_hw94 => k0_hw94.1
theorem k0_off350_inb : ∀ (v933 : BitVec 32) (k0_hw94 : k0_chk94 v933), ∀ a, (k0_off350 v933) a + S1x4096.size a ≤ S16384x4096.size a := fun v933 k0_hw94 => k0_hw94.2

def k0_off351 (v943 : BitVec 32) : Fin 2 → Nat :=
  let c0_i32_1018 : BitVec 32 := 0#32
  ![v943.toNat, 0]

def k0_chk95 (v943 : BitVec 32) : Prop :=
  (∀ a, (k0_off190 v943) a + S1x4096.size a ≤ S16384x4096.size a) ∧
  (∀ a, (k0_off351 v943) a + S1x4096.size a ≤ S16384x4096.size a)
instance k0_chk95.dec : ∀ (v943 : BitVec 32), Decidable (k0_chk95 v943) := fun v943 => decidable_of_iff' _ (Iff.of_eq (k0_chk95.eq_1 v943))
theorem k0_off190_inb : ∀ (v943 : BitVec 32) (k0_hw95 : k0_chk95 v943), ∀ a, (k0_off190 v943) a + S1x4096.size a ≤ S16384x4096.size a := fun v943 k0_hw95 => k0_hw95.1
theorem k0_off351_inb : ∀ (v943 : BitVec 32) (k0_hw95 : k0_chk95 v943), ∀ a, (k0_off351 v943) a + S1x4096.size a ≤ S16384x4096.size a := fun v943 k0_hw95 => k0_hw95.2

def k0_off352 (v953 : BitVec 32) : Fin 2 → Nat :=
  let c0_i32_1022 : BitVec 32 := 0#32
  ![v953.toNat, 0]

def k0_chk96 (v953 : BitVec 32) : Prop :=
  (∀ a, (k0_off192 v953) a + S1x4096.size a ≤ S16384x4096.size a) ∧
  (∀ a, (k0_off352 v953) a + S1x4096.size a ≤ S16384x4096.size a)
instance k0_chk96.dec : ∀ (v953 : BitVec 32), Decidable (k0_chk96 v953) := fun v953 => decidable_of_iff' _ (Iff.of_eq (k0_chk96.eq_1 v953))
theorem k0_off192_inb : ∀ (v953 : BitVec 32) (k0_hw96 : k0_chk96 v953), ∀ a, (k0_off192 v953) a + S1x4096.size a ≤ S16384x4096.size a := fun v953 k0_hw96 => k0_hw96.1
theorem k0_off352_inb : ∀ (v953 : BitVec 32) (k0_hw96 : k0_chk96 v953), ∀ a, (k0_off352 v953) a + S1x4096.size a ≤ S16384x4096.size a := fun v953 k0_hw96 => k0_hw96.2

def k0_off353 (v963 : BitVec 32) : Fin 2 → Nat :=
  let c0_i32_1026 : BitVec 32 := 0#32
  ![v963.toNat, 0]

def k0_chk97 (v963 : BitVec 32) : Prop :=
  (∀ a, (k0_off194 v963) a + S1x4096.size a ≤ S16384x4096.size a) ∧
  (∀ a, (k0_off353 v963) a + S1x4096.size a ≤ S16384x4096.size a)
instance k0_chk97.dec : ∀ (v963 : BitVec 32), Decidable (k0_chk97 v963) := fun v963 => decidable_of_iff' _ (Iff.of_eq (k0_chk97.eq_1 v963))
theorem k0_off194_inb : ∀ (v963 : BitVec 32) (k0_hw97 : k0_chk97 v963), ∀ a, (k0_off194 v963) a + S1x4096.size a ≤ S16384x4096.size a := fun v963 k0_hw97 => k0_hw97.1
theorem k0_off353_inb : ∀ (v963 : BitVec 32) (k0_hw97 : k0_chk97 v963), ∀ a, (k0_off353 v963) a + S1x4096.size a ≤ S16384x4096.size a := fun v963 k0_hw97 => k0_hw97.2

def k0_off354 (v973 : BitVec 32) : Fin 2 → Nat :=
  let c0_i32_1030 : BitVec 32 := 0#32
  ![v973.toNat, 0]

def k0_chk98 (v973 : BitVec 32) : Prop :=
  (∀ a, (k0_off196 v973) a + S1x4096.size a ≤ S16384x4096.size a) ∧
  (∀ a, (k0_off354 v973) a + S1x4096.size a ≤ S16384x4096.size a)
instance k0_chk98.dec : ∀ (v973 : BitVec 32), Decidable (k0_chk98 v973) := fun v973 => decidable_of_iff' _ (Iff.of_eq (k0_chk98.eq_1 v973))
theorem k0_off196_inb : ∀ (v973 : BitVec 32) (k0_hw98 : k0_chk98 v973), ∀ a, (k0_off196 v973) a + S1x4096.size a ≤ S16384x4096.size a := fun v973 k0_hw98 => k0_hw98.1
theorem k0_off354_inb : ∀ (v973 : BitVec 32) (k0_hw98 : k0_chk98 v973), ∀ a, (k0_off354 v973) a + S1x4096.size a ≤ S16384x4096.size a := fun v973 k0_hw98 => k0_hw98.2

def k0_off355 (v983 : BitVec 32) : Fin 2 → Nat :=
  let c0_i32_1034 : BitVec 32 := 0#32
  ![v983.toNat, 0]

def k0_chk99 (v983 : BitVec 32) : Prop :=
  (∀ a, (k0_off198 v983) a + S1x4096.size a ≤ S16384x4096.size a) ∧
  (∀ a, (k0_off355 v983) a + S1x4096.size a ≤ S16384x4096.size a)
instance k0_chk99.dec : ∀ (v983 : BitVec 32), Decidable (k0_chk99 v983) := fun v983 => decidable_of_iff' _ (Iff.of_eq (k0_chk99.eq_1 v983))
theorem k0_off198_inb : ∀ (v983 : BitVec 32) (k0_hw99 : k0_chk99 v983), ∀ a, (k0_off198 v983) a + S1x4096.size a ≤ S16384x4096.size a := fun v983 k0_hw99 => k0_hw99.1
theorem k0_off355_inb : ∀ (v983 : BitVec 32) (k0_hw99 : k0_chk99 v983), ∀ a, (k0_off355 v983) a + S1x4096.size a ≤ S16384x4096.size a := fun v983 k0_hw99 => k0_hw99.2

def k0_off356 (v993 : BitVec 32) : Fin 2 → Nat :=
  let c0_i32_1038 : BitVec 32 := 0#32
  ![v993.toNat, 0]

def k0_chk100 (v993 : BitVec 32) : Prop :=
  (∀ a, (k0_off200 v993) a + S1x4096.size a ≤ S16384x4096.size a) ∧
  (∀ a, (k0_off356 v993) a + S1x4096.size a ≤ S16384x4096.size a)
instance k0_chk100.dec : ∀ (v993 : BitVec 32), Decidable (k0_chk100 v993) := fun v993 => decidable_of_iff' _ (Iff.of_eq (k0_chk100.eq_1 v993))
theorem k0_off200_inb : ∀ (v993 : BitVec 32) (k0_hw100 : k0_chk100 v993), ∀ a, (k0_off200 v993) a + S1x4096.size a ≤ S16384x4096.size a := fun v993 k0_hw100 => k0_hw100.1
theorem k0_off356_inb : ∀ (v993 : BitVec 32) (k0_hw100 : k0_chk100 v993), ∀ a, (k0_off356 v993) a + S1x4096.size a ≤ S16384x4096.size a := fun v993 k0_hw100 => k0_hw100.2

def k0_off357 (v1003 : BitVec 32) : Fin 2 → Nat :=
  let c0_i32_1042 : BitVec 32 := 0#32
  ![v1003.toNat, 0]

def k0_chk101 (v1003 : BitVec 32) : Prop :=
  (∀ a, (k0_off202 v1003) a + S1x4096.size a ≤ S16384x4096.size a) ∧
  (∀ a, (k0_off357 v1003) a + S1x4096.size a ≤ S16384x4096.size a)
instance k0_chk101.dec : ∀ (v1003 : BitVec 32), Decidable (k0_chk101 v1003) := fun v1003 => decidable_of_iff' _ (Iff.of_eq (k0_chk101.eq_1 v1003))
theorem k0_off202_inb : ∀ (v1003 : BitVec 32) (k0_hw101 : k0_chk101 v1003), ∀ a, (k0_off202 v1003) a + S1x4096.size a ≤ S16384x4096.size a := fun v1003 k0_hw101 => k0_hw101.1
theorem k0_off357_inb : ∀ (v1003 : BitVec 32) (k0_hw101 : k0_chk101 v1003), ∀ a, (k0_off357 v1003) a + S1x4096.size a ≤ S16384x4096.size a := fun v1003 k0_hw101 => k0_hw101.2

def k0_off358 (v1013 : BitVec 32) : Fin 2 → Nat :=
  let c0_i32_1046 : BitVec 32 := 0#32
  ![v1013.toNat, 0]

def k0_chk102 (v1013 : BitVec 32) : Prop :=
  (∀ a, (k0_off204 v1013) a + S1x4096.size a ≤ S16384x4096.size a) ∧
  (∀ a, (k0_off358 v1013) a + S1x4096.size a ≤ S16384x4096.size a)
instance k0_chk102.dec : ∀ (v1013 : BitVec 32), Decidable (k0_chk102 v1013) := fun v1013 => decidable_of_iff' _ (Iff.of_eq (k0_chk102.eq_1 v1013))
theorem k0_off204_inb : ∀ (v1013 : BitVec 32) (k0_hw102 : k0_chk102 v1013), ∀ a, (k0_off204 v1013) a + S1x4096.size a ≤ S16384x4096.size a := fun v1013 k0_hw102 => k0_hw102.1
theorem k0_off358_inb : ∀ (v1013 : BitVec 32) (k0_hw102 : k0_chk102 v1013), ∀ a, (k0_off358 v1013) a + S1x4096.size a ≤ S16384x4096.size a := fun v1013 k0_hw102 => k0_hw102.2

def k0_off359 (v1023 : BitVec 32) : Fin 2 → Nat :=
  let c0_i32_1050 : BitVec 32 := 0#32
  ![v1023.toNat, 0]

def k0_chk103 (v1023 : BitVec 32) : Prop :=
  (∀ a, (k0_off206 v1023) a + S1x4096.size a ≤ S16384x4096.size a) ∧
  (∀ a, (k0_off359 v1023) a + S1x4096.size a ≤ S16384x4096.size a)
instance k0_chk103.dec : ∀ (v1023 : BitVec 32), Decidable (k0_chk103 v1023) := fun v1023 => decidable_of_iff' _ (Iff.of_eq (k0_chk103.eq_1 v1023))
theorem k0_off206_inb : ∀ (v1023 : BitVec 32) (k0_hw103 : k0_chk103 v1023), ∀ a, (k0_off206 v1023) a + S1x4096.size a ≤ S16384x4096.size a := fun v1023 k0_hw103 => k0_hw103.1
theorem k0_off359_inb : ∀ (v1023 : BitVec 32) (k0_hw103 : k0_chk103 v1023), ∀ a, (k0_off359 v1023) a + S1x4096.size a ≤ S16384x4096.size a := fun v1023 k0_hw103 => k0_hw103.2

def k0_off360 (v1033 : BitVec 32) : Fin 2 → Nat :=
  let c0_i32_1054 : BitVec 32 := 0#32
  ![v1033.toNat, 0]

def k0_chk104 (v1033 : BitVec 32) : Prop :=
  (∀ a, (k0_off208 v1033) a + S1x4096.size a ≤ S16384x4096.size a) ∧
  (∀ a, (k0_off360 v1033) a + S1x4096.size a ≤ S16384x4096.size a)
instance k0_chk104.dec : ∀ (v1033 : BitVec 32), Decidable (k0_chk104 v1033) := fun v1033 => decidable_of_iff' _ (Iff.of_eq (k0_chk104.eq_1 v1033))
theorem k0_off208_inb : ∀ (v1033 : BitVec 32) (k0_hw104 : k0_chk104 v1033), ∀ a, (k0_off208 v1033) a + S1x4096.size a ≤ S16384x4096.size a := fun v1033 k0_hw104 => k0_hw104.1
theorem k0_off360_inb : ∀ (v1033 : BitVec 32) (k0_hw104 : k0_chk104 v1033), ∀ a, (k0_off360 v1033) a + S1x4096.size a ≤ S16384x4096.size a := fun v1033 k0_hw104 => k0_hw104.2

def k0_off361 (v1043 : BitVec 32) : Fin 2 → Nat :=
  let c0_i32_1058 : BitVec 32 := 0#32
  ![v1043.toNat, 0]

def k0_chk105 (v1043 : BitVec 32) : Prop :=
  (∀ a, (k0_off210 v1043) a + S1x4096.size a ≤ S16384x4096.size a) ∧
  (∀ a, (k0_off361 v1043) a + S1x4096.size a ≤ S16384x4096.size a)
instance k0_chk105.dec : ∀ (v1043 : BitVec 32), Decidable (k0_chk105 v1043) := fun v1043 => decidable_of_iff' _ (Iff.of_eq (k0_chk105.eq_1 v1043))
theorem k0_off210_inb : ∀ (v1043 : BitVec 32) (k0_hw105 : k0_chk105 v1043), ∀ a, (k0_off210 v1043) a + S1x4096.size a ≤ S16384x4096.size a := fun v1043 k0_hw105 => k0_hw105.1
theorem k0_off361_inb : ∀ (v1043 : BitVec 32) (k0_hw105 : k0_chk105 v1043), ∀ a, (k0_off361 v1043) a + S1x4096.size a ≤ S16384x4096.size a := fun v1043 k0_hw105 => k0_hw105.2

def k0_off362 (v1053 : BitVec 32) : Fin 2 → Nat :=
  let c0_i32_1062 : BitVec 32 := 0#32
  ![v1053.toNat, 0]

def k0_chk106 (v1053 : BitVec 32) : Prop :=
  (∀ a, (k0_off212 v1053) a + S1x4096.size a ≤ S16384x4096.size a) ∧
  (∀ a, (k0_off362 v1053) a + S1x4096.size a ≤ S16384x4096.size a)
instance k0_chk106.dec : ∀ (v1053 : BitVec 32), Decidable (k0_chk106 v1053) := fun v1053 => decidable_of_iff' _ (Iff.of_eq (k0_chk106.eq_1 v1053))
theorem k0_off212_inb : ∀ (v1053 : BitVec 32) (k0_hw106 : k0_chk106 v1053), ∀ a, (k0_off212 v1053) a + S1x4096.size a ≤ S16384x4096.size a := fun v1053 k0_hw106 => k0_hw106.1
theorem k0_off362_inb : ∀ (v1053 : BitVec 32) (k0_hw106 : k0_chk106 v1053), ∀ a, (k0_off362 v1053) a + S1x4096.size a ≤ S16384x4096.size a := fun v1053 k0_hw106 => k0_hw106.2

def k0_off363 (v1063 : BitVec 32) : Fin 2 → Nat :=
  let c0_i32_1066 : BitVec 32 := 0#32
  ![v1063.toNat, 0]

def k0_chk107 (v1063 : BitVec 32) : Prop :=
  (∀ a, (k0_off214 v1063) a + S1x4096.size a ≤ S16384x4096.size a) ∧
  (∀ a, (k0_off363 v1063) a + S1x4096.size a ≤ S16384x4096.size a)
instance k0_chk107.dec : ∀ (v1063 : BitVec 32), Decidable (k0_chk107 v1063) := fun v1063 => decidable_of_iff' _ (Iff.of_eq (k0_chk107.eq_1 v1063))
theorem k0_off214_inb : ∀ (v1063 : BitVec 32) (k0_hw107 : k0_chk107 v1063), ∀ a, (k0_off214 v1063) a + S1x4096.size a ≤ S16384x4096.size a := fun v1063 k0_hw107 => k0_hw107.1
theorem k0_off363_inb : ∀ (v1063 : BitVec 32) (k0_hw107 : k0_chk107 v1063), ∀ a, (k0_off363 v1063) a + S1x4096.size a ≤ S16384x4096.size a := fun v1063 k0_hw107 => k0_hw107.2

def k0_off364 (v1073 : BitVec 32) : Fin 2 → Nat :=
  let c0_i32_1070 : BitVec 32 := 0#32
  ![v1073.toNat, 0]

def k0_chk108 (v1073 : BitVec 32) : Prop :=
  (∀ a, (k0_off216 v1073) a + S1x4096.size a ≤ S16384x4096.size a) ∧
  (∀ a, (k0_off364 v1073) a + S1x4096.size a ≤ S16384x4096.size a)
instance k0_chk108.dec : ∀ (v1073 : BitVec 32), Decidable (k0_chk108 v1073) := fun v1073 => decidable_of_iff' _ (Iff.of_eq (k0_chk108.eq_1 v1073))
theorem k0_off216_inb : ∀ (v1073 : BitVec 32) (k0_hw108 : k0_chk108 v1073), ∀ a, (k0_off216 v1073) a + S1x4096.size a ≤ S16384x4096.size a := fun v1073 k0_hw108 => k0_hw108.1
theorem k0_off364_inb : ∀ (v1073 : BitVec 32) (k0_hw108 : k0_chk108 v1073), ∀ a, (k0_off364 v1073) a + S1x4096.size a ≤ S16384x4096.size a := fun v1073 k0_hw108 => k0_hw108.2

def k0_off365 (v1083 : BitVec 32) : Fin 2 → Nat :=
  let c0_i32_1074 : BitVec 32 := 0#32
  ![v1083.toNat, 0]

def k0_chk109 (v1083 : BitVec 32) : Prop :=
  (∀ a, (k0_off218 v1083) a + S1x4096.size a ≤ S16384x4096.size a) ∧
  (∀ a, (k0_off365 v1083) a + S1x4096.size a ≤ S16384x4096.size a)
instance k0_chk109.dec : ∀ (v1083 : BitVec 32), Decidable (k0_chk109 v1083) := fun v1083 => decidable_of_iff' _ (Iff.of_eq (k0_chk109.eq_1 v1083))
theorem k0_off218_inb : ∀ (v1083 : BitVec 32) (k0_hw109 : k0_chk109 v1083), ∀ a, (k0_off218 v1083) a + S1x4096.size a ≤ S16384x4096.size a := fun v1083 k0_hw109 => k0_hw109.1
theorem k0_off365_inb : ∀ (v1083 : BitVec 32) (k0_hw109 : k0_chk109 v1083), ∀ a, (k0_off365 v1083) a + S1x4096.size a ≤ S16384x4096.size a := fun v1083 k0_hw109 => k0_hw109.2

def k0_off366 (v1093 : BitVec 32) : Fin 2 → Nat :=
  let c0_i32_1078 : BitVec 32 := 0#32
  ![v1093.toNat, 0]

def k0_chk110 (v1093 : BitVec 32) : Prop :=
  (∀ a, (k0_off220 v1093) a + S1x4096.size a ≤ S16384x4096.size a) ∧
  (∀ a, (k0_off366 v1093) a + S1x4096.size a ≤ S16384x4096.size a)
instance k0_chk110.dec : ∀ (v1093 : BitVec 32), Decidable (k0_chk110 v1093) := fun v1093 => decidable_of_iff' _ (Iff.of_eq (k0_chk110.eq_1 v1093))
theorem k0_off220_inb : ∀ (v1093 : BitVec 32) (k0_hw110 : k0_chk110 v1093), ∀ a, (k0_off220 v1093) a + S1x4096.size a ≤ S16384x4096.size a := fun v1093 k0_hw110 => k0_hw110.1
theorem k0_off366_inb : ∀ (v1093 : BitVec 32) (k0_hw110 : k0_chk110 v1093), ∀ a, (k0_off366 v1093) a + S1x4096.size a ≤ S16384x4096.size a := fun v1093 k0_hw110 => k0_hw110.2

def k0_off367 (v1103 : BitVec 32) : Fin 2 → Nat :=
  let c0_i32_1082 : BitVec 32 := 0#32
  ![v1103.toNat, 0]

def k0_chk111 (v1103 : BitVec 32) : Prop :=
  (∀ a, (k0_off222 v1103) a + S1x4096.size a ≤ S16384x4096.size a) ∧
  (∀ a, (k0_off367 v1103) a + S1x4096.size a ≤ S16384x4096.size a)
instance k0_chk111.dec : ∀ (v1103 : BitVec 32), Decidable (k0_chk111 v1103) := fun v1103 => decidable_of_iff' _ (Iff.of_eq (k0_chk111.eq_1 v1103))
theorem k0_off222_inb : ∀ (v1103 : BitVec 32) (k0_hw111 : k0_chk111 v1103), ∀ a, (k0_off222 v1103) a + S1x4096.size a ≤ S16384x4096.size a := fun v1103 k0_hw111 => k0_hw111.1
theorem k0_off367_inb : ∀ (v1103 : BitVec 32) (k0_hw111 : k0_chk111 v1103), ∀ a, (k0_off367 v1103) a + S1x4096.size a ≤ S16384x4096.size a := fun v1103 k0_hw111 => k0_hw111.2

def k0_off368 (v1113 : BitVec 32) : Fin 2 → Nat :=
  let c0_i32_1086 : BitVec 32 := 0#32
  ![v1113.toNat, 0]

def k0_chk112 (v1113 : BitVec 32) : Prop :=
  (∀ a, (k0_off224 v1113) a + S1x4096.size a ≤ S16384x4096.size a) ∧
  (∀ a, (k0_off368 v1113) a + S1x4096.size a ≤ S16384x4096.size a)
instance k0_chk112.dec : ∀ (v1113 : BitVec 32), Decidable (k0_chk112 v1113) := fun v1113 => decidable_of_iff' _ (Iff.of_eq (k0_chk112.eq_1 v1113))
theorem k0_off224_inb : ∀ (v1113 : BitVec 32) (k0_hw112 : k0_chk112 v1113), ∀ a, (k0_off224 v1113) a + S1x4096.size a ≤ S16384x4096.size a := fun v1113 k0_hw112 => k0_hw112.1
theorem k0_off368_inb : ∀ (v1113 : BitVec 32) (k0_hw112 : k0_chk112 v1113), ∀ a, (k0_off368 v1113) a + S1x4096.size a ≤ S16384x4096.size a := fun v1113 k0_hw112 => k0_hw112.2

def k0_off369 (v1123 : BitVec 32) : Fin 2 → Nat :=
  let c0_i32_1090 : BitVec 32 := 0#32
  ![v1123.toNat, 0]

def k0_chk113 (v1123 : BitVec 32) : Prop :=
  (∀ a, (k0_off226 v1123) a + S1x4096.size a ≤ S16384x4096.size a) ∧
  (∀ a, (k0_off369 v1123) a + S1x4096.size a ≤ S16384x4096.size a)
instance k0_chk113.dec : ∀ (v1123 : BitVec 32), Decidable (k0_chk113 v1123) := fun v1123 => decidable_of_iff' _ (Iff.of_eq (k0_chk113.eq_1 v1123))
theorem k0_off226_inb : ∀ (v1123 : BitVec 32) (k0_hw113 : k0_chk113 v1123), ∀ a, (k0_off226 v1123) a + S1x4096.size a ≤ S16384x4096.size a := fun v1123 k0_hw113 => k0_hw113.1
theorem k0_off369_inb : ∀ (v1123 : BitVec 32) (k0_hw113 : k0_chk113 v1123), ∀ a, (k0_off369 v1123) a + S1x4096.size a ≤ S16384x4096.size a := fun v1123 k0_hw113 => k0_hw113.2

def k0_off370 (v1133 : BitVec 32) : Fin 2 → Nat :=
  let c0_i32_1094 : BitVec 32 := 0#32
  ![v1133.toNat, 0]

def k0_chk114 (v1133 : BitVec 32) : Prop :=
  (∀ a, (k0_off228 v1133) a + S1x4096.size a ≤ S16384x4096.size a) ∧
  (∀ a, (k0_off370 v1133) a + S1x4096.size a ≤ S16384x4096.size a)
instance k0_chk114.dec : ∀ (v1133 : BitVec 32), Decidable (k0_chk114 v1133) := fun v1133 => decidable_of_iff' _ (Iff.of_eq (k0_chk114.eq_1 v1133))
theorem k0_off228_inb : ∀ (v1133 : BitVec 32) (k0_hw114 : k0_chk114 v1133), ∀ a, (k0_off228 v1133) a + S1x4096.size a ≤ S16384x4096.size a := fun v1133 k0_hw114 => k0_hw114.1
theorem k0_off370_inb : ∀ (v1133 : BitVec 32) (k0_hw114 : k0_chk114 v1133), ∀ a, (k0_off370 v1133) a + S1x4096.size a ≤ S16384x4096.size a := fun v1133 k0_hw114 => k0_hw114.2

def k0_off371 (v1143 : BitVec 32) : Fin 2 → Nat :=
  let c0_i32_1098 : BitVec 32 := 0#32
  ![v1143.toNat, 0]

def k0_chk115 (v1143 : BitVec 32) : Prop :=
  (∀ a, (k0_off230 v1143) a + S1x4096.size a ≤ S16384x4096.size a) ∧
  (∀ a, (k0_off371 v1143) a + S1x4096.size a ≤ S16384x4096.size a)
instance k0_chk115.dec : ∀ (v1143 : BitVec 32), Decidable (k0_chk115 v1143) := fun v1143 => decidable_of_iff' _ (Iff.of_eq (k0_chk115.eq_1 v1143))
theorem k0_off230_inb : ∀ (v1143 : BitVec 32) (k0_hw115 : k0_chk115 v1143), ∀ a, (k0_off230 v1143) a + S1x4096.size a ≤ S16384x4096.size a := fun v1143 k0_hw115 => k0_hw115.1
theorem k0_off371_inb : ∀ (v1143 : BitVec 32) (k0_hw115 : k0_chk115 v1143), ∀ a, (k0_off371 v1143) a + S1x4096.size a ≤ S16384x4096.size a := fun v1143 k0_hw115 => k0_hw115.2

def k0_off372 (v1153 : BitVec 32) : Fin 2 → Nat :=
  let c0_i32_1102 : BitVec 32 := 0#32
  ![v1153.toNat, 0]

def k0_chk116 (v1153 : BitVec 32) : Prop :=
  (∀ a, (k0_off232 v1153) a + S1x4096.size a ≤ S16384x4096.size a) ∧
  (∀ a, (k0_off372 v1153) a + S1x4096.size a ≤ S16384x4096.size a)
instance k0_chk116.dec : ∀ (v1153 : BitVec 32), Decidable (k0_chk116 v1153) := fun v1153 => decidable_of_iff' _ (Iff.of_eq (k0_chk116.eq_1 v1153))
theorem k0_off232_inb : ∀ (v1153 : BitVec 32) (k0_hw116 : k0_chk116 v1153), ∀ a, (k0_off232 v1153) a + S1x4096.size a ≤ S16384x4096.size a := fun v1153 k0_hw116 => k0_hw116.1
theorem k0_off372_inb : ∀ (v1153 : BitVec 32) (k0_hw116 : k0_chk116 v1153), ∀ a, (k0_off372 v1153) a + S1x4096.size a ≤ S16384x4096.size a := fun v1153 k0_hw116 => k0_hw116.2

def k0_off373 (v1163 : BitVec 32) : Fin 2 → Nat :=
  let c0_i32_1106 : BitVec 32 := 0#32
  ![v1163.toNat, 0]

def k0_chk117 (v1163 : BitVec 32) : Prop :=
  (∀ a, (k0_off234 v1163) a + S1x4096.size a ≤ S16384x4096.size a) ∧
  (∀ a, (k0_off373 v1163) a + S1x4096.size a ≤ S16384x4096.size a)
instance k0_chk117.dec : ∀ (v1163 : BitVec 32), Decidable (k0_chk117 v1163) := fun v1163 => decidable_of_iff' _ (Iff.of_eq (k0_chk117.eq_1 v1163))
theorem k0_off234_inb : ∀ (v1163 : BitVec 32) (k0_hw117 : k0_chk117 v1163), ∀ a, (k0_off234 v1163) a + S1x4096.size a ≤ S16384x4096.size a := fun v1163 k0_hw117 => k0_hw117.1
theorem k0_off373_inb : ∀ (v1163 : BitVec 32) (k0_hw117 : k0_chk117 v1163), ∀ a, (k0_off373 v1163) a + S1x4096.size a ≤ S16384x4096.size a := fun v1163 k0_hw117 => k0_hw117.2

def k0_off374 (v1173 : BitVec 32) : Fin 2 → Nat :=
  let c0_i32_1110 : BitVec 32 := 0#32
  ![v1173.toNat, 0]

def k0_chk118 (v1173 : BitVec 32) : Prop :=
  (∀ a, (k0_off236 v1173) a + S1x4096.size a ≤ S16384x4096.size a) ∧
  (∀ a, (k0_off374 v1173) a + S1x4096.size a ≤ S16384x4096.size a)
instance k0_chk118.dec : ∀ (v1173 : BitVec 32), Decidable (k0_chk118 v1173) := fun v1173 => decidable_of_iff' _ (Iff.of_eq (k0_chk118.eq_1 v1173))
theorem k0_off236_inb : ∀ (v1173 : BitVec 32) (k0_hw118 : k0_chk118 v1173), ∀ a, (k0_off236 v1173) a + S1x4096.size a ≤ S16384x4096.size a := fun v1173 k0_hw118 => k0_hw118.1
theorem k0_off374_inb : ∀ (v1173 : BitVec 32) (k0_hw118 : k0_chk118 v1173), ∀ a, (k0_off374 v1173) a + S1x4096.size a ≤ S16384x4096.size a := fun v1173 k0_hw118 => k0_hw118.2

def k0_off375 (v1183 : BitVec 32) : Fin 2 → Nat :=
  let c0_i32_1114 : BitVec 32 := 0#32
  ![v1183.toNat, 0]

def k0_chk119 (v1183 : BitVec 32) : Prop :=
  (∀ a, (k0_off238 v1183) a + S1x4096.size a ≤ S16384x4096.size a) ∧
  (∀ a, (k0_off375 v1183) a + S1x4096.size a ≤ S16384x4096.size a)
instance k0_chk119.dec : ∀ (v1183 : BitVec 32), Decidable (k0_chk119 v1183) := fun v1183 => decidable_of_iff' _ (Iff.of_eq (k0_chk119.eq_1 v1183))
theorem k0_off238_inb : ∀ (v1183 : BitVec 32) (k0_hw119 : k0_chk119 v1183), ∀ a, (k0_off238 v1183) a + S1x4096.size a ≤ S16384x4096.size a := fun v1183 k0_hw119 => k0_hw119.1
theorem k0_off375_inb : ∀ (v1183 : BitVec 32) (k0_hw119 : k0_chk119 v1183), ∀ a, (k0_off375 v1183) a + S1x4096.size a ≤ S16384x4096.size a := fun v1183 k0_hw119 => k0_hw119.2

def k0_off376 (v1193 : BitVec 32) : Fin 2 → Nat :=
  let c0_i32_1118 : BitVec 32 := 0#32
  ![v1193.toNat, 0]

def k0_chk120 (v1193 : BitVec 32) : Prop :=
  (∀ a, (k0_off240 v1193) a + S1x4096.size a ≤ S16384x4096.size a) ∧
  (∀ a, (k0_off376 v1193) a + S1x4096.size a ≤ S16384x4096.size a)
instance k0_chk120.dec : ∀ (v1193 : BitVec 32), Decidable (k0_chk120 v1193) := fun v1193 => decidable_of_iff' _ (Iff.of_eq (k0_chk120.eq_1 v1193))
theorem k0_off240_inb : ∀ (v1193 : BitVec 32) (k0_hw120 : k0_chk120 v1193), ∀ a, (k0_off240 v1193) a + S1x4096.size a ≤ S16384x4096.size a := fun v1193 k0_hw120 => k0_hw120.1
theorem k0_off376_inb : ∀ (v1193 : BitVec 32) (k0_hw120 : k0_chk120 v1193), ∀ a, (k0_off376 v1193) a + S1x4096.size a ≤ S16384x4096.size a := fun v1193 k0_hw120 => k0_hw120.2

def k0_off377 (v1203 : BitVec 32) : Fin 2 → Nat :=
  let c0_i32_1122 : BitVec 32 := 0#32
  ![v1203.toNat, 0]

def k0_chk121 (v1203 : BitVec 32) : Prop :=
  (∀ a, (k0_off242 v1203) a + S1x4096.size a ≤ S16384x4096.size a) ∧
  (∀ a, (k0_off377 v1203) a + S1x4096.size a ≤ S16384x4096.size a)
instance k0_chk121.dec : ∀ (v1203 : BitVec 32), Decidable (k0_chk121 v1203) := fun v1203 => decidable_of_iff' _ (Iff.of_eq (k0_chk121.eq_1 v1203))
theorem k0_off242_inb : ∀ (v1203 : BitVec 32) (k0_hw121 : k0_chk121 v1203), ∀ a, (k0_off242 v1203) a + S1x4096.size a ≤ S16384x4096.size a := fun v1203 k0_hw121 => k0_hw121.1
theorem k0_off377_inb : ∀ (v1203 : BitVec 32) (k0_hw121 : k0_chk121 v1203), ∀ a, (k0_off377 v1203) a + S1x4096.size a ≤ S16384x4096.size a := fun v1203 k0_hw121 => k0_hw121.2

def k0_off378 (v1213 : BitVec 32) : Fin 2 → Nat :=
  let c0_i32_1126 : BitVec 32 := 0#32
  ![v1213.toNat, 0]

def k0_chk122 (v1213 : BitVec 32) : Prop :=
  (∀ a, (k0_off244 v1213) a + S1x4096.size a ≤ S16384x4096.size a) ∧
  (∀ a, (k0_off378 v1213) a + S1x4096.size a ≤ S16384x4096.size a)
instance k0_chk122.dec : ∀ (v1213 : BitVec 32), Decidable (k0_chk122 v1213) := fun v1213 => decidable_of_iff' _ (Iff.of_eq (k0_chk122.eq_1 v1213))
theorem k0_off244_inb : ∀ (v1213 : BitVec 32) (k0_hw122 : k0_chk122 v1213), ∀ a, (k0_off244 v1213) a + S1x4096.size a ≤ S16384x4096.size a := fun v1213 k0_hw122 => k0_hw122.1
theorem k0_off378_inb : ∀ (v1213 : BitVec 32) (k0_hw122 : k0_chk122 v1213), ∀ a, (k0_off378 v1213) a + S1x4096.size a ≤ S16384x4096.size a := fun v1213 k0_hw122 => k0_hw122.2

def k0_off379 (v1223 : BitVec 32) : Fin 2 → Nat :=
  let c0_i32_1130 : BitVec 32 := 0#32
  ![v1223.toNat, 0]

def k0_chk123 (v1223 : BitVec 32) : Prop :=
  (∀ a, (k0_off246 v1223) a + S1x4096.size a ≤ S16384x4096.size a) ∧
  (∀ a, (k0_off379 v1223) a + S1x4096.size a ≤ S16384x4096.size a)
instance k0_chk123.dec : ∀ (v1223 : BitVec 32), Decidable (k0_chk123 v1223) := fun v1223 => decidable_of_iff' _ (Iff.of_eq (k0_chk123.eq_1 v1223))
theorem k0_off246_inb : ∀ (v1223 : BitVec 32) (k0_hw123 : k0_chk123 v1223), ∀ a, (k0_off246 v1223) a + S1x4096.size a ≤ S16384x4096.size a := fun v1223 k0_hw123 => k0_hw123.1
theorem k0_off379_inb : ∀ (v1223 : BitVec 32) (k0_hw123 : k0_chk123 v1223), ∀ a, (k0_off379 v1223) a + S1x4096.size a ≤ S16384x4096.size a := fun v1223 k0_hw123 => k0_hw123.2

def k0_off380 (v1233 : BitVec 32) : Fin 2 → Nat :=
  let c0_i32_1134 : BitVec 32 := 0#32
  ![v1233.toNat, 0]

def k0_chk124 (v1233 : BitVec 32) : Prop :=
  (∀ a, (k0_off248 v1233) a + S1x4096.size a ≤ S16384x4096.size a) ∧
  (∀ a, (k0_off380 v1233) a + S1x4096.size a ≤ S16384x4096.size a)
instance k0_chk124.dec : ∀ (v1233 : BitVec 32), Decidable (k0_chk124 v1233) := fun v1233 => decidable_of_iff' _ (Iff.of_eq (k0_chk124.eq_1 v1233))
theorem k0_off248_inb : ∀ (v1233 : BitVec 32) (k0_hw124 : k0_chk124 v1233), ∀ a, (k0_off248 v1233) a + S1x4096.size a ≤ S16384x4096.size a := fun v1233 k0_hw124 => k0_hw124.1
theorem k0_off380_inb : ∀ (v1233 : BitVec 32) (k0_hw124 : k0_chk124 v1233), ∀ a, (k0_off380 v1233) a + S1x4096.size a ≤ S16384x4096.size a := fun v1233 k0_hw124 => k0_hw124.2

def k0_off381 (v1243 : BitVec 32) : Fin 2 → Nat :=
  let c0_i32_1138 : BitVec 32 := 0#32
  ![v1243.toNat, 0]

def k0_chk125 (v1243 : BitVec 32) : Prop :=
  (∀ a, (k0_off250 v1243) a + S1x4096.size a ≤ S16384x4096.size a) ∧
  (∀ a, (k0_off381 v1243) a + S1x4096.size a ≤ S16384x4096.size a)
instance k0_chk125.dec : ∀ (v1243 : BitVec 32), Decidable (k0_chk125 v1243) := fun v1243 => decidable_of_iff' _ (Iff.of_eq (k0_chk125.eq_1 v1243))
theorem k0_off250_inb : ∀ (v1243 : BitVec 32) (k0_hw125 : k0_chk125 v1243), ∀ a, (k0_off250 v1243) a + S1x4096.size a ≤ S16384x4096.size a := fun v1243 k0_hw125 => k0_hw125.1
theorem k0_off381_inb : ∀ (v1243 : BitVec 32) (k0_hw125 : k0_chk125 v1243), ∀ a, (k0_off381 v1243) a + S1x4096.size a ≤ S16384x4096.size a := fun v1243 k0_hw125 => k0_hw125.2

def k0_off382 (v1253 : BitVec 32) : Fin 2 → Nat :=
  let c0_i32_1142 : BitVec 32 := 0#32
  ![v1253.toNat, 0]

def k0_chk126 (v1253 : BitVec 32) : Prop :=
  (∀ a, (k0_off252 v1253) a + S1x4096.size a ≤ S16384x4096.size a) ∧
  (∀ a, (k0_off382 v1253) a + S1x4096.size a ≤ S16384x4096.size a)
instance k0_chk126.dec : ∀ (v1253 : BitVec 32), Decidable (k0_chk126 v1253) := fun v1253 => decidable_of_iff' _ (Iff.of_eq (k0_chk126.eq_1 v1253))
theorem k0_off252_inb : ∀ (v1253 : BitVec 32) (k0_hw126 : k0_chk126 v1253), ∀ a, (k0_off252 v1253) a + S1x4096.size a ≤ S16384x4096.size a := fun v1253 k0_hw126 => k0_hw126.1
theorem k0_off382_inb : ∀ (v1253 : BitVec 32) (k0_hw126 : k0_chk126 v1253), ∀ a, (k0_off382 v1253) a + S1x4096.size a ≤ S16384x4096.size a := fun v1253 k0_hw126 => k0_hw126.2

def k0_off383 (v1263 : BitVec 32) : Fin 2 → Nat :=
  let c0_i32_1146 : BitVec 32 := 0#32
  ![v1263.toNat, 0]

def k0_chk127 (v1263 : BitVec 32) : Prop :=
  (∀ a, (k0_off254 v1263) a + S1x4096.size a ≤ S16384x4096.size a) ∧
  (∀ a, (k0_off383 v1263) a + S1x4096.size a ≤ S16384x4096.size a)
instance k0_chk127.dec : ∀ (v1263 : BitVec 32), Decidable (k0_chk127 v1263) := fun v1263 => decidable_of_iff' _ (Iff.of_eq (k0_chk127.eq_1 v1263))
theorem k0_off254_inb : ∀ (v1263 : BitVec 32) (k0_hw127 : k0_chk127 v1263), ∀ a, (k0_off254 v1263) a + S1x4096.size a ≤ S16384x4096.size a := fun v1263 k0_hw127 => k0_hw127.1
theorem k0_off383_inb : ∀ (v1263 : BitVec 32) (k0_hw127 : k0_chk127 v1263), ∀ a, (k0_off383 v1263) a + S1x4096.size a ≤ S16384x4096.size a := fun v1263 k0_hw127 => k0_hw127.2

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev grid1 : Pipeline.Grid := ⟨2, ![8, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  bcast_S_S16384 : S_.BroadcastsInDim S16384 (![] : Fin 0 → Fin S16384.rank)
  natLt_1_32 : 1 < 32
  bcast_S_S_ : S_.BroadcastsInDim S_ (![] : Fin 0 → Fin S_.rank)
  reduceWindows_S16384_S16384_w16384s1p16383_0 : S16384.ReduceWindows (![16384] : Fin 1 → Nat) ![1] ![16383] ![0] S16384
  h_S_ : 0 < S_.numel
  bcast_S_S8192 : S_.BroadcastsInDim S8192 (![] : Fin 0 → Fin S8192.rank)
  bcast_S16384_S16384x1_0 : S16384.BroadcastsInDim S16384x1 (![0] : Fin 1 → Fin S16384x1.rank)
  reduceWindows_S8192_S8192_w8192s1p8191_0 : S8192.ReduceWindows (![8192] : Fin 1 → Nat) ![1] ![8191] ![0] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  shapeCasts_S8192_S1x8192 : S8192.ShapeCasts S1x8192
  numel1_S1 : S1.numel = 1
  inb_S128_S1_0 : ∀ a, (![0] : Fin 1 → Nat) a + S1.size a ≤ S128.size a
  squeezes_S1_S_ : S1.Squeezes S_
  inb_S128x4096_S1x4096_0_0 : ∀ a, (![0, 0] : Fin 2 → Nat) a + S1x4096.size a ≤ S128x4096.size a
  squeezes_S1x4096_S4096 : S1x4096.Squeezes S4096
  inb_S128_S1_1 : ∀ a, (![1] : Fin 1 → Nat) a + S1.size a ≤ S128.size a
  inb_S128x4096_S1x4096_1_0 : ∀ a, (![1, 0] : Fin 2 → Nat) a + S1x4096.size a ≤ S128x4096.size a
  inb_S128_S1_2 : ∀ a, (![2] : Fin 1 → Nat) a + S1.size a ≤ S128.size a
  inb_S128x4096_S1x4096_2_0 : ∀ a, (![2, 0] : Fin 2 → Nat) a + S1x4096.size a ≤ S128x4096.size a
  inb_S128_S1_3 : ∀ a, (![3] : Fin 1 → Nat) a + S1.size a ≤ S128.size a
  inb_S128x4096_S1x4096_3_0 : ∀ a, (![3, 0] : Fin 2 → Nat) a + S1x4096.size a ≤ S128x4096.size a
  inb_S128_S1_4 : ∀ a, (![4] : Fin 1 → Nat) a + S1.size a ≤ S128.size a
  inb_S128x4096_S1x4096_4_0 : ∀ a, (![4, 0] : Fin 2 → Nat) a + S1x4096.size a ≤ S128x4096.size a
  inb_S128_S1_5 : ∀ a, (![5] : Fin 1 → Nat) a + S1.size a ≤ S128.size a
  inb_S128x4096_S1x4096_5_0 : ∀ a, (![5, 0] : Fin 2 → Nat) a + S1x4096.size a ≤ S128x4096.size a
  inb_S128_S1_6 : ∀ a, (![6] : Fin 1 → Nat) a + S1.size a ≤ S128.size a
  inb_S128x4096_S1x4096_6_0 : ∀ a, (![6, 0] : Fin 2 → Nat) a + S1x4096.size a ≤ S128x4096.size a
  inb_S128_S1_7 : ∀ a, (![7] : Fin 1 → Nat) a + S1.size a ≤ S128.size a
  inb_S128x4096_S1x4096_7_0 : ∀ a, (![7, 0] : Fin 2 → Nat) a + S1x4096.size a ≤ S128x4096.size a
  inb_S128_S1_8 : ∀ a, (![8] : Fin 1 → Nat) a + S1.size a ≤ S128.size a
  inb_S128x4096_S1x4096_8_0 : ∀ a, (![8, 0] : Fin 2 → Nat) a + S1x4096.size a ≤ S128x4096.size a
  inb_S128_S1_9 : ∀ a, (![9] : Fin 1 → Nat) a + S1.size a ≤ S128.size a
  inb_S128x4096_S1x4096_9_0 : ∀ a, (![9, 0] : Fin 2 → Nat) a + S1x4096.size a ≤ S128x4096.size a
  inb_S128_S1_10 : ∀ a, (![10] : Fin 1 → Nat) a + S1.size a ≤ S128.size a
  inb_S128x4096_S1x4096_10_0 : ∀ a, (![10, 0] : Fin 2 → Nat) a + S1x4096.size a ≤ S128x4096.size a
  inb_S128_S1_11 : ∀ a, (![11] : Fin 1 → Nat) a + S1.size a ≤ S128.size a
  inb_S128x4096_S1x4096_11_0 : ∀ a, (![11, 0] : Fin 2 → Nat) a + S1x4096.size a ≤ S128x4096.size a
  inb_S128_S1_12 : ∀ a, (![12] : Fin 1 → Nat) a + S1.size a ≤ S128.size a
  inb_S128x4096_S1x4096_12_0 : ∀ a, (![12, 0] : Fin 2 → Nat) a + S1x4096.size a ≤ S128x4096.size a
  inb_S128_S1_13 : ∀ a, (![13] : Fin 1 → Nat) a + S1.size a ≤ S128.size a
  inb_S128x4096_S1x4096_13_0 : ∀ a, (![13, 0] : Fin 2 → Nat) a + S1x4096.size a ≤ S128x4096.size a
  inb_S128_S1_14 : ∀ a, (![14] : Fin 1 → Nat) a + S1.size a ≤ S128.size a
  inb_S128x4096_S1x4096_14_0 : ∀ a, (![14, 0] : Fin 2 → Nat) a + S1x4096.size a ≤ S128x4096.size a
  inb_S128_S1_15 : ∀ a, (![15] : Fin 1 → Nat) a + S1.size a ≤ S128.size a
  inb_S128x4096_S1x4096_15_0 : ∀ a, (![15, 0] : Fin 2 → Nat) a + S1x4096.size a ≤ S128x4096.size a
  inb_S128_S1_16 : ∀ a, (![16] : Fin 1 → Nat) a + S1.size a ≤ S128.size a
  inb_S128x4096_S1x4096_16_0 : ∀ a, (![16, 0] : Fin 2 → Nat) a + S1x4096.size a ≤ S128x4096.size a
  inb_S128_S1_17 : ∀ a, (![17] : Fin 1 → Nat) a + S1.size a ≤ S128.size a
  inb_S128x4096_S1x4096_17_0 : ∀ a, (![17, 0] : Fin 2 → Nat) a + S1x4096.size a ≤ S128x4096.size a
  inb_S128_S1_18 : ∀ a, (![18] : Fin 1 → Nat) a + S1.size a ≤ S128.size a
  inb_S128x4096_S1x4096_18_0 : ∀ a, (![18, 0] : Fin 2 → Nat) a + S1x4096.size a ≤ S128x4096.size a
  inb_S128_S1_19 : ∀ a, (![19] : Fin 1 → Nat) a + S1.size a ≤ S128.size a
  inb_S128x4096_S1x4096_19_0 : ∀ a, (![19, 0] : Fin 2 → Nat) a + S1x4096.size a ≤ S128x4096.size a
  inb_S128_S1_20 : ∀ a, (![20] : Fin 1 → Nat) a + S1.size a ≤ S128.size a
  inb_S128x4096_S1x4096_20_0 : ∀ a, (![20, 0] : Fin 2 → Nat) a + S1x4096.size a ≤ S128x4096.size a
  inb_S128_S1_21 : ∀ a, (![21] : Fin 1 → Nat) a + S1.size a ≤ S128.size a
  inb_S128x4096_S1x4096_21_0 : ∀ a, (![21, 0] : Fin 2 → Nat) a + S1x4096.size a ≤ S128x4096.size a
  inb_S128_S1_22 : ∀ a, (![22] : Fin 1 → Nat) a + S1.size a ≤ S128.size a
  inb_S128x4096_S1x4096_22_0 : ∀ a, (![22, 0] : Fin 2 → Nat) a + S1x4096.size a ≤ S128x4096.size a
  inb_S128_S1_23 : ∀ a, (![23] : Fin 1 → Nat) a + S1.size a ≤ S128.size a
  inb_S128x4096_S1x4096_23_0 : ∀ a, (![23, 0] : Fin 2 → Nat) a + S1x4096.size a ≤ S128x4096.size a
  inb_S128_S1_24 : ∀ a, (![24] : Fin 1 → Nat) a + S1.size a ≤ S128.size a
  inb_S128x4096_S1x4096_24_0 : ∀ a, (![24, 0] : Fin 2 → Nat) a + S1x4096.size a ≤ S128x4096.size a
  inb_S128_S1_25 : ∀ a, (![25] : Fin 1 → Nat) a + S1.size a ≤ S128.size a
  inb_S128x4096_S1x4096_25_0 : ∀ a, (![25, 0] : Fin 2 → Nat) a + S1x4096.size a ≤ S128x4096.size a
  inb_S128_S1_26 : ∀ a, (![26] : Fin 1 → Nat) a + S1.size a ≤ S128.size a
  inb_S128x4096_S1x4096_26_0 : ∀ a, (![26, 0] : Fin 2 → Nat) a + S1x4096.size a ≤ S128x4096.size a
  inb_S128_S1_27 : ∀ a, (![27] : Fin 1 → Nat) a + S1.size a ≤ S128.size a
  inb_S128x4096_S1x4096_27_0 : ∀ a, (![27, 0] : Fin 2 → Nat) a + S1x4096.size a ≤ S128x4096.size a
  inb_S128_S1_28 : ∀ a, (![28] : Fin 1 → Nat) a + S1.size a ≤ S128.size a
  inb_S128x4096_S1x4096_28_0 : ∀ a, (![28, 0] : Fin 2 → Nat) a + S1x4096.size a ≤ S128x4096.size a
  inb_S128_S1_29 : ∀ a, (![29] : Fin 1 → Nat) a + S1.size a ≤ S128.size a
  inb_S128x4096_S1x4096_29_0 : ∀ a, (![29, 0] : Fin 2 → Nat) a + S1x4096.size a ≤ S128x4096.size a
  inb_S128_S1_30 : ∀ a, (![30] : Fin 1 → Nat) a + S1.size a ≤ S128.size a
  inb_S128x4096_S1x4096_30_0 : ∀ a, (![30, 0] : Fin 2 → Nat) a + S1x4096.size a ≤ S128x4096.size a
  inb_S128_S1_31 : ∀ a, (![31] : Fin 1 → Nat) a + S1.size a ≤ S128.size a
  inb_S128x4096_S1x4096_31_0 : ∀ a, (![31, 0] : Fin 2 → Nat) a + S1x4096.size a ≤ S128x4096.size a
  inb_S128_S1_32 : ∀ a, (![32] : Fin 1 → Nat) a + S1.size a ≤ S128.size a
  inb_S128x4096_S1x4096_32_0 : ∀ a, (![32, 0] : Fin 2 → Nat) a + S1x4096.size a ≤ S128x4096.size a
  inb_S128_S1_33 : ∀ a, (![33] : Fin 1 → Nat) a + S1.size a ≤ S128.size a
  inb_S128x4096_S1x4096_33_0 : ∀ a, (![33, 0] : Fin 2 → Nat) a + S1x4096.size a ≤ S128x4096.size a
  inb_S128_S1_34 : ∀ a, (![34] : Fin 1 → Nat) a + S1.size a ≤ S128.size a
  inb_S128x4096_S1x4096_34_0 : ∀ a, (![34, 0] : Fin 2 → Nat) a + S1x4096.size a ≤ S128x4096.size a
  inb_S128_S1_35 : ∀ a, (![35] : Fin 1 → Nat) a + S1.size a ≤ S128.size a
  inb_S128x4096_S1x4096_35_0 : ∀ a, (![35, 0] : Fin 2 → Nat) a + S1x4096.size a ≤ S128x4096.size a
  inb_S128_S1_36 : ∀ a, (![36] : Fin 1 → Nat) a + S1.size a ≤ S128.size a
  inb_S128x4096_S1x4096_36_0 : ∀ a, (![36, 0] : Fin 2 → Nat) a + S1x4096.size a ≤ S128x4096.size a
  inb_S128_S1_37 : ∀ a, (![37] : Fin 1 → Nat) a + S1.size a ≤ S128.size a
  inb_S128x4096_S1x4096_37_0 : ∀ a, (![37, 0] : Fin 2 → Nat) a + S1x4096.size a ≤ S128x4096.size a
  inb_S128_S1_38 : ∀ a, (![38] : Fin 1 → Nat) a + S1.size a ≤ S128.size a
  inb_S128x4096_S1x4096_38_0 : ∀ a, (![38, 0] : Fin 2 → Nat) a + S1x4096.size a ≤ S128x4096.size a
  inb_S128_S1_39 : ∀ a, (![39] : Fin 1 → Nat) a + S1.size a ≤ S128.size a
  inb_S128x4096_S1x4096_39_0 : ∀ a, (![39, 0] : Fin 2 → Nat) a + S1x4096.size a ≤ S128x4096.size a
  inb_S128_S1_40 : ∀ a, (![40] : Fin 1 → Nat) a + S1.size a ≤ S128.size a
  inb_S128x4096_S1x4096_40_0 : ∀ a, (![40, 0] : Fin 2 → Nat) a + S1x4096.size a ≤ S128x4096.size a
  inb_S128_S1_41 : ∀ a, (![41] : Fin 1 → Nat) a + S1.size a ≤ S128.size a
  inb_S128x4096_S1x4096_41_0 : ∀ a, (![41, 0] : Fin 2 → Nat) a + S1x4096.size a ≤ S128x4096.size a
  inb_S128_S1_42 : ∀ a, (![42] : Fin 1 → Nat) a + S1.size a ≤ S128.size a
  inb_S128x4096_S1x4096_42_0 : ∀ a, (![42, 0] : Fin 2 → Nat) a + S1x4096.size a ≤ S128x4096.size a
  inb_S128_S1_43 : ∀ a, (![43] : Fin 1 → Nat) a + S1.size a ≤ S128.size a
  inb_S128x4096_S1x4096_43_0 : ∀ a, (![43, 0] : Fin 2 → Nat) a + S1x4096.size a ≤ S128x4096.size a
  inb_S128_S1_44 : ∀ a, (![44] : Fin 1 → Nat) a + S1.size a ≤ S128.size a
  inb_S128x4096_S1x4096_44_0 : ∀ a, (![44, 0] : Fin 2 → Nat) a + S1x4096.size a ≤ S128x4096.size a
  inb_S128_S1_45 : ∀ a, (![45] : Fin 1 → Nat) a + S1.size a ≤ S128.size a
  inb_S128x4096_S1x4096_45_0 : ∀ a, (![45, 0] : Fin 2 → Nat) a + S1x4096.size a ≤ S128x4096.size a
  inb_S128_S1_46 : ∀ a, (![46] : Fin 1 → Nat) a + S1.size a ≤ S128.size a
  inb_S128x4096_S1x4096_46_0 : ∀ a, (![46, 0] : Fin 2 → Nat) a + S1x4096.size a ≤ S128x4096.size a
  inb_S128_S1_47 : ∀ a, (![47] : Fin 1 → Nat) a + S1.size a ≤ S128.size a
  inb_S128x4096_S1x4096_47_0 : ∀ a, (![47, 0] : Fin 2 → Nat) a + S1x4096.size a ≤ S128x4096.size a
  inb_S128_S1_48 : ∀ a, (![48] : Fin 1 → Nat) a + S1.size a ≤ S128.size a
  inb_S128x4096_S1x4096_48_0 : ∀ a, (![48, 0] : Fin 2 → Nat) a + S1x4096.size a ≤ S128x4096.size a
  inb_S128_S1_49 : ∀ a, (![49] : Fin 1 → Nat) a + S1.size a ≤ S128.size a
  inb_S128x4096_S1x4096_49_0 : ∀ a, (![49, 0] : Fin 2 → Nat) a + S1x4096.size a ≤ S128x4096.size a
  inb_S128_S1_50 : ∀ a, (![50] : Fin 1 → Nat) a + S1.size a ≤ S128.size a
  inb_S128x4096_S1x4096_50_0 : ∀ a, (![50, 0] : Fin 2 → Nat) a + S1x4096.size a ≤ S128x4096.size a
  inb_S128_S1_51 : ∀ a, (![51] : Fin 1 → Nat) a + S1.size a ≤ S128.size a
  inb_S128x4096_S1x4096_51_0 : ∀ a, (![51, 0] : Fin 2 → Nat) a + S1x4096.size a ≤ S128x4096.size a
  inb_S128_S1_52 : ∀ a, (![52] : Fin 1 → Nat) a + S1.size a ≤ S128.size a
  inb_S128x4096_S1x4096_52_0 : ∀ a, (![52, 0] : Fin 2 → Nat) a + S1x4096.size a ≤ S128x4096.size a
  inb_S128_S1_53 : ∀ a, (![53] : Fin 1 → Nat) a + S1.size a ≤ S128.size a
  inb_S128x4096_S1x4096_53_0 : ∀ a, (![53, 0] : Fin 2 → Nat) a + S1x4096.size a ≤ S128x4096.size a
  inb_S128_S1_54 : ∀ a, (![54] : Fin 1 → Nat) a + S1.size a ≤ S128.size a
  inb_S128x4096_S1x4096_54_0 : ∀ a, (![54, 0] : Fin 2 → Nat) a + S1x4096.size a ≤ S128x4096.size a
  inb_S128_S1_55 : ∀ a, (![55] : Fin 1 → Nat) a + S1.size a ≤ S128.size a
  inb_S128x4096_S1x4096_55_0 : ∀ a, (![55, 0] : Fin 2 → Nat) a + S1x4096.size a ≤ S128x4096.size a
  inb_S128_S1_56 : ∀ a, (![56] : Fin 1 → Nat) a + S1.size a ≤ S128.size a
  inb_S128x4096_S1x4096_56_0 : ∀ a, (![56, 0] : Fin 2 → Nat) a + S1x4096.size a ≤ S128x4096.size a
  inb_S128_S1_57 : ∀ a, (![57] : Fin 1 → Nat) a + S1.size a ≤ S128.size a
  inb_S128x4096_S1x4096_57_0 : ∀ a, (![57, 0] : Fin 2 → Nat) a + S1x4096.size a ≤ S128x4096.size a
  inb_S128_S1_58 : ∀ a, (![58] : Fin 1 → Nat) a + S1.size a ≤ S128.size a
  inb_S128x4096_S1x4096_58_0 : ∀ a, (![58, 0] : Fin 2 → Nat) a + S1x4096.size a ≤ S128x4096.size a
  inb_S128_S1_59 : ∀ a, (![59] : Fin 1 → Nat) a + S1.size a ≤ S128.size a
  inb_S128x4096_S1x4096_59_0 : ∀ a, (![59, 0] : Fin 2 → Nat) a + S1x4096.size a ≤ S128x4096.size a
  inb_S128_S1_60 : ∀ a, (![60] : Fin 1 → Nat) a + S1.size a ≤ S128.size a
  inb_S128x4096_S1x4096_60_0 : ∀ a, (![60, 0] : Fin 2 → Nat) a + S1x4096.size a ≤ S128x4096.size a
  inb_S128_S1_61 : ∀ a, (![61] : Fin 1 → Nat) a + S1.size a ≤ S128.size a
  inb_S128x4096_S1x4096_61_0 : ∀ a, (![61, 0] : Fin 2 → Nat) a + S1x4096.size a ≤ S128x4096.size a
  inb_S128_S1_62 : ∀ a, (![62] : Fin 1 → Nat) a + S1.size a ≤ S128.size a
  inb_S128x4096_S1x4096_62_0 : ∀ a, (![62, 0] : Fin 2 → Nat) a + S1x4096.size a ≤ S128x4096.size a
  inb_S128_S1_63 : ∀ a, (![63] : Fin 1 → Nat) a + S1.size a ≤ S128.size a
  inb_S128x4096_S1x4096_63_0 : ∀ a, (![63, 0] : Fin 2 → Nat) a + S1x4096.size a ≤ S128x4096.size a
  inb_S128_S1_64 : ∀ a, (![64] : Fin 1 → Nat) a + S1.size a ≤ S128.size a
  inb_S128x4096_S1x4096_64_0 : ∀ a, (![64, 0] : Fin 2 → Nat) a + S1x4096.size a ≤ S128x4096.size a
  inb_S128_S1_65 : ∀ a, (![65] : Fin 1 → Nat) a + S1.size a ≤ S128.size a
  inb_S128x4096_S1x4096_65_0 : ∀ a, (![65, 0] : Fin 2 → Nat) a + S1x4096.size a ≤ S128x4096.size a
  inb_S128_S1_66 : ∀ a, (![66] : Fin 1 → Nat) a + S1.size a ≤ S128.size a
  inb_S128x4096_S1x4096_66_0 : ∀ a, (![66, 0] : Fin 2 → Nat) a + S1x4096.size a ≤ S128x4096.size a
  inb_S128_S1_67 : ∀ a, (![67] : Fin 1 → Nat) a + S1.size a ≤ S128.size a
  inb_S128x4096_S1x4096_67_0 : ∀ a, (![67, 0] : Fin 2 → Nat) a + S1x4096.size a ≤ S128x4096.size a
  inb_S128_S1_68 : ∀ a, (![68] : Fin 1 → Nat) a + S1.size a ≤ S128.size a
  inb_S128x4096_S1x4096_68_0 : ∀ a, (![68, 0] : Fin 2 → Nat) a + S1x4096.size a ≤ S128x4096.size a
  inb_S128_S1_69 : ∀ a, (![69] : Fin 1 → Nat) a + S1.size a ≤ S128.size a
  inb_S128x4096_S1x4096_69_0 : ∀ a, (![69, 0] : Fin 2 → Nat) a + S1x4096.size a ≤ S128x4096.size a
  inb_S128_S1_70 : ∀ a, (![70] : Fin 1 → Nat) a + S1.size a ≤ S128.size a
  inb_S128x4096_S1x4096_70_0 : ∀ a, (![70, 0] : Fin 2 → Nat) a + S1x4096.size a ≤ S128x4096.size a
  inb_S128_S1_71 : ∀ a, (![71] : Fin 1 → Nat) a + S1.size a ≤ S128.size a
  inb_S128x4096_S1x4096_71_0 : ∀ a, (![71, 0] : Fin 2 → Nat) a + S1x4096.size a ≤ S128x4096.size a
  inb_S128_S1_72 : ∀ a, (![72] : Fin 1 → Nat) a + S1.size a ≤ S128.size a
  inb_S128x4096_S1x4096_72_0 : ∀ a, (![72, 0] : Fin 2 → Nat) a + S1x4096.size a ≤ S128x4096.size a
  inb_S128_S1_73 : ∀ a, (![73] : Fin 1 → Nat) a + S1.size a ≤ S128.size a
  inb_S128x4096_S1x4096_73_0 : ∀ a, (![73, 0] : Fin 2 → Nat) a + S1x4096.size a ≤ S128x4096.size a
  inb_S128_S1_74 : ∀ a, (![74] : Fin 1 → Nat) a + S1.size a ≤ S128.size a
  inb_S128x4096_S1x4096_74_0 : ∀ a, (![74, 0] : Fin 2 → Nat) a + S1x4096.size a ≤ S128x4096.size a
  inb_S128_S1_75 : ∀ a, (![75] : Fin 1 → Nat) a + S1.size a ≤ S128.size a
  inb_S128x4096_S1x4096_75_0 : ∀ a, (![75, 0] : Fin 2 → Nat) a + S1x4096.size a ≤ S128x4096.size a
  inb_S128_S1_76 : ∀ a, (![76] : Fin 1 → Nat) a + S1.size a ≤ S128.size a
  inb_S128x4096_S1x4096_76_0 : ∀ a, (![76, 0] : Fin 2 → Nat) a + S1x4096.size a ≤ S128x4096.size a
  inb_S128_S1_77 : ∀ a, (![77] : Fin 1 → Nat) a + S1.size a ≤ S128.size a
  inb_S128x4096_S1x4096_77_0 : ∀ a, (![77, 0] : Fin 2 → Nat) a + S1x4096.size a ≤ S128x4096.size a
  inb_S128_S1_78 : ∀ a, (![78] : Fin 1 → Nat) a + S1.size a ≤ S128.size a
  inb_S128x4096_S1x4096_78_0 : ∀ a, (![78, 0] : Fin 2 → Nat) a + S1x4096.size a ≤ S128x4096.size a
  inb_S128_S1_79 : ∀ a, (![79] : Fin 1 → Nat) a + S1.size a ≤ S128.size a
  inb_S128x4096_S1x4096_79_0 : ∀ a, (![79, 0] : Fin 2 → Nat) a + S1x4096.size a ≤ S128x4096.size a
  inb_S128_S1_80 : ∀ a, (![80] : Fin 1 → Nat) a + S1.size a ≤ S128.size a
  inb_S128x4096_S1x4096_80_0 : ∀ a, (![80, 0] : Fin 2 → Nat) a + S1x4096.size a ≤ S128x4096.size a
  inb_S128_S1_81 : ∀ a, (![81] : Fin 1 → Nat) a + S1.size a ≤ S128.size a
  inb_S128x4096_S1x4096_81_0 : ∀ a, (![81, 0] : Fin 2 → Nat) a + S1x4096.size a ≤ S128x4096.size a
  inb_S128_S1_82 : ∀ a, (![82] : Fin 1 → Nat) a + S1.size a ≤ S128.size a
  inb_S128x4096_S1x4096_82_0 : ∀ a, (![82, 0] : Fin 2 → Nat) a + S1x4096.size a ≤ S128x4096.size a
  inb_S128_S1_83 : ∀ a, (![83] : Fin 1 → Nat) a + S1.size a ≤ S128.size a
  inb_S128x4096_S1x4096_83_0 : ∀ a, (![83, 0] : Fin 2 → Nat) a + S1x4096.size a ≤ S128x4096.size a
  inb_S128_S1_84 : ∀ a, (![84] : Fin 1 → Nat) a + S1.size a ≤ S128.size a
  inb_S128x4096_S1x4096_84_0 : ∀ a, (![84, 0] : Fin 2 → Nat) a + S1x4096.size a ≤ S128x4096.size a
  inb_S128_S1_85 : ∀ a, (![85] : Fin 1 → Nat) a + S1.size a ≤ S128.size a
  inb_S128x4096_S1x4096_85_0 : ∀ a, (![85, 0] : Fin 2 → Nat) a + S1x4096.size a ≤ S128x4096.size a
  inb_S128_S1_86 : ∀ a, (![86] : Fin 1 → Nat) a + S1.size a ≤ S128.size a
  inb_S128x4096_S1x4096_86_0 : ∀ a, (![86, 0] : Fin 2 → Nat) a + S1x4096.size a ≤ S128x4096.size a
  inb_S128_S1_87 : ∀ a, (![87] : Fin 1 → Nat) a + S1.size a ≤ S128.size a
  inb_S128x4096_S1x4096_87_0 : ∀ a, (![87, 0] : Fin 2 → Nat) a + S1x4096.size a ≤ S128x4096.size a
  inb_S128_S1_88 : ∀ a, (![88] : Fin 1 → Nat) a + S1.size a ≤ S128.size a
  inb_S128x4096_S1x4096_88_0 : ∀ a, (![88, 0] : Fin 2 → Nat) a + S1x4096.size a ≤ S128x4096.size a
  inb_S128_S1_89 : ∀ a, (![89] : Fin 1 → Nat) a + S1.size a ≤ S128.size a
  inb_S128x4096_S1x4096_89_0 : ∀ a, (![89, 0] : Fin 2 → Nat) a + S1x4096.size a ≤ S128x4096.size a
  inb_S128_S1_90 : ∀ a, (![90] : Fin 1 → Nat) a + S1.size a ≤ S128.size a
  inb_S128x4096_S1x4096_90_0 : ∀ a, (![90, 0] : Fin 2 → Nat) a + S1x4096.size a ≤ S128x4096.size a
  inb_S128_S1_91 : ∀ a, (![91] : Fin 1 → Nat) a + S1.size a ≤ S128.size a
  inb_S128x4096_S1x4096_91_0 : ∀ a, (![91, 0] : Fin 2 → Nat) a + S1x4096.size a ≤ S128x4096.size a
  inb_S128_S1_92 : ∀ a, (![92] : Fin 1 → Nat) a + S1.size a ≤ S128.size a
  inb_S128x4096_S1x4096_92_0 : ∀ a, (![92, 0] : Fin 2 → Nat) a + S1x4096.size a ≤ S128x4096.size a
  inb_S128_S1_93 : ∀ a, (![93] : Fin 1 → Nat) a + S1.size a ≤ S128.size a
  inb_S128x4096_S1x4096_93_0 : ∀ a, (![93, 0] : Fin 2 → Nat) a + S1x4096.size a ≤ S128x4096.size a
  inb_S128_S1_94 : ∀ a, (![94] : Fin 1 → Nat) a + S1.size a ≤ S128.size a
  inb_S128x4096_S1x4096_94_0 : ∀ a, (![94, 0] : Fin 2 → Nat) a + S1x4096.size a ≤ S128x4096.size a
  inb_S128_S1_95 : ∀ a, (![95] : Fin 1 → Nat) a + S1.size a ≤ S128.size a
  inb_S128x4096_S1x4096_95_0 : ∀ a, (![95, 0] : Fin 2 → Nat) a + S1x4096.size a ≤ S128x4096.size a
  inb_S128_S1_96 : ∀ a, (![96] : Fin 1 → Nat) a + S1.size a ≤ S128.size a
  inb_S128x4096_S1x4096_96_0 : ∀ a, (![96, 0] : Fin 2 → Nat) a + S1x4096.size a ≤ S128x4096.size a
  inb_S128_S1_97 : ∀ a, (![97] : Fin 1 → Nat) a + S1.size a ≤ S128.size a
  inb_S128x4096_S1x4096_97_0 : ∀ a, (![97, 0] : Fin 2 → Nat) a + S1x4096.size a ≤ S128x4096.size a
  inb_S128_S1_98 : ∀ a, (![98] : Fin 1 → Nat) a + S1.size a ≤ S128.size a
  inb_S128x4096_S1x4096_98_0 : ∀ a, (![98, 0] : Fin 2 → Nat) a + S1x4096.size a ≤ S128x4096.size a
  inb_S128_S1_99 : ∀ a, (![99] : Fin 1 → Nat) a + S1.size a ≤ S128.size a
  inb_S128x4096_S1x4096_99_0 : ∀ a, (![99, 0] : Fin 2 → Nat) a + S1x4096.size a ≤ S128x4096.size a
  inb_S128_S1_100 : ∀ a, (![100] : Fin 1 → Nat) a + S1.size a ≤ S128.size a
  inb_S128x4096_S1x4096_100_0 : ∀ a, (![100, 0] : Fin 2 → Nat) a + S1x4096.size a ≤ S128x4096.size a
  inb_S128_S1_101 : ∀ a, (![101] : Fin 1 → Nat) a + S1.size a ≤ S128.size a
  inb_S128x4096_S1x4096_101_0 : ∀ a, (![101, 0] : Fin 2 → Nat) a + S1x4096.size a ≤ S128x4096.size a
  inb_S128_S1_102 : ∀ a, (![102] : Fin 1 → Nat) a + S1.size a ≤ S128.size a
  inb_S128x4096_S1x4096_102_0 : ∀ a, (![102, 0] : Fin 2 → Nat) a + S1x4096.size a ≤ S128x4096.size a
  inb_S128_S1_103 : ∀ a, (![103] : Fin 1 → Nat) a + S1.size a ≤ S128.size a
  inb_S128x4096_S1x4096_103_0 : ∀ a, (![103, 0] : Fin 2 → Nat) a + S1x4096.size a ≤ S128x4096.size a
  inb_S128_S1_104 : ∀ a, (![104] : Fin 1 → Nat) a + S1.size a ≤ S128.size a
  inb_S128x4096_S1x4096_104_0 : ∀ a, (![104, 0] : Fin 2 → Nat) a + S1x4096.size a ≤ S128x4096.size a
  inb_S128_S1_105 : ∀ a, (![105] : Fin 1 → Nat) a + S1.size a ≤ S128.size a
  inb_S128x4096_S1x4096_105_0 : ∀ a, (![105, 0] : Fin 2 → Nat) a + S1x4096.size a ≤ S128x4096.size a
  inb_S128_S1_106 : ∀ a, (![106] : Fin 1 → Nat) a + S1.size a ≤ S128.size a
  inb_S128x4096_S1x4096_106_0 : ∀ a, (![106, 0] : Fin 2 → Nat) a + S1x4096.size a ≤ S128x4096.size a
  inb_S128_S1_107 : ∀ a, (![107] : Fin 1 → Nat) a + S1.size a ≤ S128.size a
  inb_S128x4096_S1x4096_107_0 : ∀ a, (![107, 0] : Fin 2 → Nat) a + S1x4096.size a ≤ S128x4096.size a
  inb_S128_S1_108 : ∀ a, (![108] : Fin 1 → Nat) a + S1.size a ≤ S128.size a
  inb_S128x4096_S1x4096_108_0 : ∀ a, (![108, 0] : Fin 2 → Nat) a + S1x4096.size a ≤ S128x4096.size a
  inb_S128_S1_109 : ∀ a, (![109] : Fin 1 → Nat) a + S1.size a ≤ S128.size a
  inb_S128x4096_S1x4096_109_0 : ∀ a, (![109, 0] : Fin 2 → Nat) a + S1x4096.size a ≤ S128x4096.size a
  inb_S128_S1_110 : ∀ a, (![110] : Fin 1 → Nat) a + S1.size a ≤ S128.size a
  inb_S128x4096_S1x4096_110_0 : ∀ a, (![110, 0] : Fin 2 → Nat) a + S1x4096.size a ≤ S128x4096.size a
  inb_S128_S1_111 : ∀ a, (![111] : Fin 1 → Nat) a + S1.size a ≤ S128.size a
  inb_S128x4096_S1x4096_111_0 : ∀ a, (![111, 0] : Fin 2 → Nat) a + S1x4096.size a ≤ S128x4096.size a
  inb_S128_S1_112 : ∀ a, (![112] : Fin 1 → Nat) a + S1.size a ≤ S128.size a
  inb_S128x4096_S1x4096_112_0 : ∀ a, (![112, 0] : Fin 2 → Nat) a + S1x4096.size a ≤ S128x4096.size a
  inb_S128_S1_113 : ∀ a, (![113] : Fin 1 → Nat) a + S1.size a ≤ S128.size a
  inb_S128x4096_S1x4096_113_0 : ∀ a, (![113, 0] : Fin 2 → Nat) a + S1x4096.size a ≤ S128x4096.size a
  inb_S128_S1_114 : ∀ a, (![114] : Fin 1 → Nat) a + S1.size a ≤ S128.size a
  inb_S128x4096_S1x4096_114_0 : ∀ a, (![114, 0] : Fin 2 → Nat) a + S1x4096.size a ≤ S128x4096.size a
  inb_S128_S1_115 : ∀ a, (![115] : Fin 1 → Nat) a + S1.size a ≤ S128.size a
  inb_S128x4096_S1x4096_115_0 : ∀ a, (![115, 0] : Fin 2 → Nat) a + S1x4096.size a ≤ S128x4096.size a
  inb_S128_S1_116 : ∀ a, (![116] : Fin 1 → Nat) a + S1.size a ≤ S128.size a
  inb_S128x4096_S1x4096_116_0 : ∀ a, (![116, 0] : Fin 2 → Nat) a + S1x4096.size a ≤ S128x4096.size a
  inb_S128_S1_117 : ∀ a, (![117] : Fin 1 → Nat) a + S1.size a ≤ S128.size a
  inb_S128x4096_S1x4096_117_0 : ∀ a, (![117, 0] : Fin 2 → Nat) a + S1x4096.size a ≤ S128x4096.size a
  inb_S128_S1_118 : ∀ a, (![118] : Fin 1 → Nat) a + S1.size a ≤ S128.size a
  inb_S128x4096_S1x4096_118_0 : ∀ a, (![118, 0] : Fin 2 → Nat) a + S1x4096.size a ≤ S128x4096.size a
  inb_S128_S1_119 : ∀ a, (![119] : Fin 1 → Nat) a + S1.size a ≤ S128.size a
  inb_S128x4096_S1x4096_119_0 : ∀ a, (![119, 0] : Fin 2 → Nat) a + S1x4096.size a ≤ S128x4096.size a
  inb_S128_S1_120 : ∀ a, (![120] : Fin 1 → Nat) a + S1.size a ≤ S128.size a
  inb_S128x4096_S1x4096_120_0 : ∀ a, (![120, 0] : Fin 2 → Nat) a + S1x4096.size a ≤ S128x4096.size a
  inb_S128_S1_121 : ∀ a, (![121] : Fin 1 → Nat) a + S1.size a ≤ S128.size a
  inb_S128x4096_S1x4096_121_0 : ∀ a, (![121, 0] : Fin 2 → Nat) a + S1x4096.size a ≤ S128x4096.size a
  inb_S128_S1_122 : ∀ a, (![122] : Fin 1 → Nat) a + S1.size a ≤ S128.size a
  inb_S128x4096_S1x4096_122_0 : ∀ a, (![122, 0] : Fin 2 → Nat) a + S1x4096.size a ≤ S128x4096.size a
  inb_S128_S1_123 : ∀ a, (![123] : Fin 1 → Nat) a + S1.size a ≤ S128.size a
  inb_S128x4096_S1x4096_123_0 : ∀ a, (![123, 0] : Fin 2 → Nat) a + S1x4096.size a ≤ S128x4096.size a
  inb_S128_S1_124 : ∀ a, (![124] : Fin 1 → Nat) a + S1.size a ≤ S128.size a
  inb_S128x4096_S1x4096_124_0 : ∀ a, (![124, 0] : Fin 2 → Nat) a + S1x4096.size a ≤ S128x4096.size a
  inb_S128_S1_125 : ∀ a, (![125] : Fin 1 → Nat) a + S1.size a ≤ S128.size a
  inb_S128x4096_S1x4096_125_0 : ∀ a, (![125, 0] : Fin 2 → Nat) a + S1x4096.size a ≤ S128x4096.size a
  inb_S128_S1_126 : ∀ a, (![126] : Fin 1 → Nat) a + S1.size a ≤ S128.size a
  inb_S128x4096_S1x4096_126_0 : ∀ a, (![126, 0] : Fin 2 → Nat) a + S1x4096.size a ≤ S128x4096.size a
  inb_S128_S1_127 : ∀ a, (![127] : Fin 1 → Nat) a + S1.size a ≤ S128.size a
  inb_S128x4096_S1x4096_127_0 : ∀ a, (![127, 0] : Fin 2 → Nat) a + S1x4096.size a ≤ S128x4096.size a
  inb_S128x4096_S128x4096_0_0 : ∀ a, (![0, 0] : Fin 2 → Nat) a + S128x4096.size a ≤ S128x4096.size a
  h_S128x4096 : 0 < S128x4096.numel
  bitsLt_bf16_f32 : FTy.bits .bf16 < FTy.bits .f32
  packedbf16_S128x4096_S128x4096_0_0 : (Rect.unit (s := S128x4096) ![0, 0] S128x4096.size inb_S128x4096_S128x4096_0_0).PackedRows (EltTy.packing .bf16)
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  scatter_S8192_S16384x1_S16384_n_0_0_1_wf : ScatterDims.WF S8192 S16384x1 S16384 [] [0] [0] 1
  gather_S16384_S8192x1_S8192_n_0_n_n_0_1_1_wf : GatherDims.WF S16384 S8192x1 S8192 [] [0] [] [0] [] 1 ![1]
  dot_S1024x4096_S512x4096_S1024x512_1_1_0_0_n_n_wf : DotDims.WF S1024x4096 S512x4096 S1024x512 [1] [1] [0] [0] [] []
  hcc0_scratch1 : 2 + S128.numel ≤ 138
  hrank0 : 0 < grid0.rank
  k0_off1_inb : ∀ i : grid0.Coords, ∀ a, (k0_off1 i) a + S1.size a ≤ S8192.size a
  k0_off3_inb : ∀ i : grid0.Coords, ∀ a, (k0_off3 i) a + S1.size a ≤ S8192.size a
  k0_off5_inb : ∀ i : grid0.Coords, ∀ a, (k0_off5 i) a + S1.size a ≤ S8192.size a
  k0_off7_inb : ∀ i : grid0.Coords, ∀ a, (k0_off7 i) a + S1.size a ≤ S8192.size a
  k0_off9_inb : ∀ i : grid0.Coords, ∀ a, (k0_off9 i) a + S1.size a ≤ S8192.size a
  k0_off11_inb : ∀ i : grid0.Coords, ∀ a, (k0_off11 i) a + S1.size a ≤ S8192.size a
  k0_off13_inb : ∀ i : grid0.Coords, ∀ a, (k0_off13 i) a + S1.size a ≤ S8192.size a
  k0_off15_inb : ∀ i : grid0.Coords, ∀ a, (k0_off15 i) a + S1.size a ≤ S8192.size a
  k0_off17_inb : ∀ i : grid0.Coords, ∀ a, (k0_off17 i) a + S1.size a ≤ S8192.size a
  k0_off19_inb : ∀ i : grid0.Coords, ∀ a, (k0_off19 i) a + S1.size a ≤ S8192.size a
  k0_off21_inb : ∀ i : grid0.Coords, ∀ a, (k0_off21 i) a + S1.size a ≤ S8192.size a
  k0_off23_inb : ∀ i : grid0.Coords, ∀ a, (k0_off23 i) a + S1.size a ≤ S8192.size a
  k0_off25_inb : ∀ i : grid0.Coords, ∀ a, (k0_off25 i) a + S1.size a ≤ S8192.size a
  k0_off27_inb : ∀ i : grid0.Coords, ∀ a, (k0_off27 i) a + S1.size a ≤ S8192.size a
  k0_off29_inb : ∀ i : grid0.Coords, ∀ a, (k0_off29 i) a + S1.size a ≤ S8192.size a
  k0_off31_inb : ∀ i : grid0.Coords, ∀ a, (k0_off31 i) a + S1.size a ≤ S8192.size a
  k0_off33_inb : ∀ i : grid0.Coords, ∀ a, (k0_off33 i) a + S1.size a ≤ S8192.size a
  k0_off35_inb : ∀ i : grid0.Coords, ∀ a, (k0_off35 i) a + S1.size a ≤ S8192.size a
  k0_off37_inb : ∀ i : grid0.Coords, ∀ a, (k0_off37 i) a + S1.size a ≤ S8192.size a
  k0_off39_inb : ∀ i : grid0.Coords, ∀ a, (k0_off39 i) a + S1.size a ≤ S8192.size a
  k0_off41_inb : ∀ i : grid0.Coords, ∀ a, (k0_off41 i) a + S1.size a ≤ S8192.size a
  k0_off43_inb : ∀ i : grid0.Coords, ∀ a, (k0_off43 i) a + S1.size a ≤ S8192.size a
  k0_off45_inb : ∀ i : grid0.Coords, ∀ a, (k0_off45 i) a + S1.size a ≤ S8192.size a
  k0_off47_inb : ∀ i : grid0.Coords, ∀ a, (k0_off47 i) a + S1.size a ≤ S8192.size a
  k0_off49_inb : ∀ i : grid0.Coords, ∀ a, (k0_off49 i) a + S1.size a ≤ S8192.size a
  k0_off51_inb : ∀ i : grid0.Coords, ∀ a, (k0_off51 i) a + S1.size a ≤ S8192.size a
  k0_off53_inb : ∀ i : grid0.Coords, ∀ a, (k0_off53 i) a + S1.size a ≤ S8192.size a
  k0_off55_inb : ∀ i : grid0.Coords, ∀ a, (k0_off55 i) a + S1.size a ≤ S8192.size a
  k0_off57_inb : ∀ i : grid0.Coords, ∀ a, (k0_off57 i) a + S1.size a ≤ S8192.size a
  k0_off59_inb : ∀ i : grid0.Coords, ∀ a, (k0_off59 i) a + S1.size a ≤ S8192.size a
  k0_off61_inb : ∀ i : grid0.Coords, ∀ a, (k0_off61 i) a + S1.size a ≤ S8192.size a
  k0_off63_inb : ∀ i : grid0.Coords, ∀ a, (k0_off63 i) a + S1.size a ≤ S8192.size a
  k0_off65_inb : ∀ i : grid0.Coords, ∀ a, (k0_off65 i) a + S1.size a ≤ S8192.size a
  k0_off67_inb : ∀ i : grid0.Coords, ∀ a, (k0_off67 i) a + S1.size a ≤ S8192.size a
  k0_off69_inb : ∀ i : grid0.Coords, ∀ a, (k0_off69 i) a + S1.size a ≤ S8192.size a
  k0_off71_inb : ∀ i : grid0.Coords, ∀ a, (k0_off71 i) a + S1.size a ≤ S8192.size a
  k0_off73_inb : ∀ i : grid0.Coords, ∀ a, (k0_off73 i) a + S1.size a ≤ S8192.size a
  k0_off75_inb : ∀ i : grid0.Coords, ∀ a, (k0_off75 i) a + S1.size a ≤ S8192.size a
  k0_off77_inb : ∀ i : grid0.Coords, ∀ a, (k0_off77 i) a + S1.size a ≤ S8192.size a
  k0_off79_inb : ∀ i : grid0.Coords, ∀ a, (k0_off79 i) a + S1.size a ≤ S8192.size a
  k0_off81_inb : ∀ i : grid0.Coords, ∀ a, (k0_off81 i) a + S1.size a ≤ S8192.size a
  k0_off83_inb : ∀ i : grid0.Coords, ∀ a, (k0_off83 i) a + S1.size a ≤ S8192.size a
  k0_off85_inb : ∀ i : grid0.Coords, ∀ a, (k0_off85 i) a + S1.size a ≤ S8192.size a
  k0_off87_inb : ∀ i : grid0.Coords, ∀ a, (k0_off87 i) a + S1.size a ≤ S8192.size a
  k0_off89_inb : ∀ i : grid0.Coords, ∀ a, (k0_off89 i) a + S1.size a ≤ S8192.size a
  k0_off91_inb : ∀ i : grid0.Coords, ∀ a, (k0_off91 i) a + S1.size a ≤ S8192.size a
  k0_off93_inb : ∀ i : grid0.Coords, ∀ a, (k0_off93 i) a + S1.size a ≤ S8192.size a
  k0_off95_inb : ∀ i : grid0.Coords, ∀ a, (k0_off95 i) a + S1.size a ≤ S8192.size a
  k0_off97_inb : ∀ i : grid0.Coords, ∀ a, (k0_off97 i) a + S1.size a ≤ S8192.size a
  k0_off99_inb : ∀ i : grid0.Coords, ∀ a, (k0_off99 i) a + S1.size a ≤ S8192.size a
  k0_off101_inb : ∀ i : grid0.Coords, ∀ a, (k0_off101 i) a + S1.size a ≤ S8192.size a
  k0_off103_inb : ∀ i : grid0.Coords, ∀ a, (k0_off103 i) a + S1.size a ≤ S8192.size a
  k0_off105_inb : ∀ i : grid0.Coords, ∀ a, (k0_off105 i) a + S1.size a ≤ S8192.size a
  k0_off107_inb : ∀ i : grid0.Coords, ∀ a, (k0_off107 i) a + S1.size a ≤ S8192.size a
  k0_off109_inb : ∀ i : grid0.Coords, ∀ a, (k0_off109 i) a + S1.size a ≤ S8192.size a
  k0_off111_inb : ∀ i : grid0.Coords, ∀ a, (k0_off111 i) a + S1.size a ≤ S8192.size a
  k0_off113_inb : ∀ i : grid0.Coords, ∀ a, (k0_off113 i) a + S1.size a ≤ S8192.size a
  k0_off115_inb : ∀ i : grid0.Coords, ∀ a, (k0_off115 i) a + S1.size a ≤ S8192.size a
  k0_off117_inb : ∀ i : grid0.Coords, ∀ a, (k0_off117 i) a + S1.size a ≤ S8192.size a
  k0_off119_inb : ∀ i : grid0.Coords, ∀ a, (k0_off119 i) a + S1.size a ≤ S8192.size a
  k0_off121_inb : ∀ i : grid0.Coords, ∀ a, (k0_off121 i) a + S1.size a ≤ S8192.size a
  k0_off123_inb : ∀ i : grid0.Coords, ∀ a, (k0_off123 i) a + S1.size a ≤ S8192.size a
  k0_off125_inb : ∀ i : grid0.Coords, ∀ a, (k0_off125 i) a + S1.size a ≤ S8192.size a
  k0_off127_inb : ∀ i : grid0.Coords, ∀ a, (k0_off127 i) a + S1.size a ≤ S8192.size a
  k0_off129_inb : ∀ i : grid0.Coords, ∀ a, (k0_off129 i) a + S1.size a ≤ S8192.size a
  k0_off131_inb : ∀ i : grid0.Coords, ∀ a, (k0_off131 i) a + S1.size a ≤ S8192.size a
  k0_off133_inb : ∀ i : grid0.Coords, ∀ a, (k0_off133 i) a + S1.size a ≤ S8192.size a
  k0_off135_inb : ∀ i : grid0.Coords, ∀ a, (k0_off135 i) a + S1.size a ≤ S8192.size a
  k0_off137_inb : ∀ i : grid0.Coords, ∀ a, (k0_off137 i) a + S1.size a ≤ S8192.size a
  k0_off139_inb : ∀ i : grid0.Coords, ∀ a, (k0_off139 i) a + S1.size a ≤ S8192.size a
  k0_off141_inb : ∀ i : grid0.Coords, ∀ a, (k0_off141 i) a + S1.size a ≤ S8192.size a
  k0_off143_inb : ∀ i : grid0.Coords, ∀ a, (k0_off143 i) a + S1.size a ≤ S8192.size a
  k0_off145_inb : ∀ i : grid0.Coords, ∀ a, (k0_off145 i) a + S1.size a ≤ S8192.size a
  k0_off147_inb : ∀ i : grid0.Coords, ∀ a, (k0_off147 i) a + S1.size a ≤ S8192.size a
  k0_off149_inb : ∀ i : grid0.Coords, ∀ a, (k0_off149 i) a + S1.size a ≤ S8192.size a
  k0_off151_inb : ∀ i : grid0.Coords, ∀ a, (k0_off151 i) a + S1.size a ≤ S8192.size a
  k0_off153_inb : ∀ i : grid0.Coords, ∀ a, (k0_off153 i) a + S1.size a ≤ S8192.size a
  k0_off155_inb : ∀ i : grid0.Coords, ∀ a, (k0_off155 i) a + S1.size a ≤ S8192.size a
  k0_off157_inb : ∀ i : grid0.Coords, ∀ a, (k0_off157 i) a + S1.size a ≤ S8192.size a
  k0_off159_inb : ∀ i : grid0.Coords, ∀ a, (k0_off159 i) a + S1.size a ≤ S8192.size a
  k0_off161_inb : ∀ i : grid0.Coords, ∀ a, (k0_off161 i) a + S1.size a ≤ S8192.size a
  k0_off163_inb : ∀ i : grid0.Coords, ∀ a, (k0_off163 i) a + S1.size a ≤ S8192.size a
  k0_off165_inb : ∀ i : grid0.Coords, ∀ a, (k0_off165 i) a + S1.size a ≤ S8192.size a
  k0_off167_inb : ∀ i : grid0.Coords, ∀ a, (k0_off167 i) a + S1.size a ≤ S8192.size a
  k0_off169_inb : ∀ i : grid0.Coords, ∀ a, (k0_off169 i) a + S1.size a ≤ S8192.size a
  k0_off171_inb : ∀ i : grid0.Coords, ∀ a, (k0_off171 i) a + S1.size a ≤ S8192.size a
  k0_off173_inb : ∀ i : grid0.Coords, ∀ a, (k0_off173 i) a + S1.size a ≤ S8192.size a
  k0_off175_inb : ∀ i : grid0.Coords, ∀ a, (k0_off175 i) a + S1.size a ≤ S8192.size a
  k0_off177_inb : ∀ i : grid0.Coords, ∀ a, (k0_off177 i) a + S1.size a ≤ S8192.size a
  k0_off179_inb : ∀ i : grid0.Coords, ∀ a, (k0_off179 i) a + S1.size a ≤ S8192.size a
  k0_off181_inb : ∀ i : grid0.Coords, ∀ a, (k0_off181 i) a + S1.size a ≤ S8192.size a
  k0_off183_inb : ∀ i : grid0.Coords, ∀ a, (k0_off183 i) a + S1.size a ≤ S8192.size a
  k0_off185_inb : ∀ i : grid0.Coords, ∀ a, (k0_off185 i) a + S1.size a ≤ S8192.size a
  k0_off187_inb : ∀ i : grid0.Coords, ∀ a, (k0_off187 i) a + S1.size a ≤ S8192.size a
  k0_off189_inb : ∀ i : grid0.Coords, ∀ a, (k0_off189 i) a + S1.size a ≤ S8192.size a
  k0_off191_inb : ∀ i : grid0.Coords, ∀ a, (k0_off191 i) a + S1.size a ≤ S8192.size a
  k0_off193_inb : ∀ i : grid0.Coords, ∀ a, (k0_off193 i) a + S1.size a ≤ S8192.size a
  k0_off195_inb : ∀ i : grid0.Coords, ∀ a, (k0_off195 i) a + S1.size a ≤ S8192.size a
  k0_off197_inb : ∀ i : grid0.Coords, ∀ a, (k0_off197 i) a + S1.size a ≤ S8192.size a
  k0_off199_inb : ∀ i : grid0.Coords, ∀ a, (k0_off199 i) a + S1.size a ≤ S8192.size a
  k0_off201_inb : ∀ i : grid0.Coords, ∀ a, (k0_off201 i) a + S1.size a ≤ S8192.size a
  k0_off203_inb : ∀ i : grid0.Coords, ∀ a, (k0_off203 i) a + S1.size a ≤ S8192.size a
  k0_off205_inb : ∀ i : grid0.Coords, ∀ a, (k0_off205 i) a + S1.size a ≤ S8192.size a
  k0_off207_inb : ∀ i : grid0.Coords, ∀ a, (k0_off207 i) a + S1.size a ≤ S8192.size a
  k0_off209_inb : ∀ i : grid0.Coords, ∀ a, (k0_off209 i) a + S1.size a ≤ S8192.size a
  k0_off211_inb : ∀ i : grid0.Coords, ∀ a, (k0_off211 i) a + S1.size a ≤ S8192.size a
  k0_off213_inb : ∀ i : grid0.Coords, ∀ a, (k0_off213 i) a + S1.size a ≤ S8192.size a
  k0_off215_inb : ∀ i : grid0.Coords, ∀ a, (k0_off215 i) a + S1.size a ≤ S8192.size a
  k0_off217_inb : ∀ i : grid0.Coords, ∀ a, (k0_off217 i) a + S1.size a ≤ S8192.size a
  k0_off219_inb : ∀ i : grid0.Coords, ∀ a, (k0_off219 i) a + S1.size a ≤ S8192.size a
  k0_off221_inb : ∀ i : grid0.Coords, ∀ a, (k0_off221 i) a + S1.size a ≤ S8192.size a
  k0_off223_inb : ∀ i : grid0.Coords, ∀ a, (k0_off223 i) a + S1.size a ≤ S8192.size a
  k0_off225_inb : ∀ i : grid0.Coords, ∀ a, (k0_off225 i) a + S1.size a ≤ S8192.size a
  k0_off227_inb : ∀ i : grid0.Coords, ∀ a, (k0_off227 i) a + S1.size a ≤ S8192.size a
  k0_off229_inb : ∀ i : grid0.Coords, ∀ a, (k0_off229 i) a + S1.size a ≤ S8192.size a
  k0_off231_inb : ∀ i : grid0.Coords, ∀ a, (k0_off231 i) a + S1.size a ≤ S8192.size a
  k0_off233_inb : ∀ i : grid0.Coords, ∀ a, (k0_off233 i) a + S1.size a ≤ S8192.size a
  k0_off235_inb : ∀ i : grid0.Coords, ∀ a, (k0_off235 i) a + S1.size a ≤ S8192.size a
  k0_off237_inb : ∀ i : grid0.Coords, ∀ a, (k0_off237 i) a + S1.size a ≤ S8192.size a
  k0_off239_inb : ∀ i : grid0.Coords, ∀ a, (k0_off239 i) a + S1.size a ≤ S8192.size a
  k0_off241_inb : ∀ i : grid0.Coords, ∀ a, (k0_off241 i) a + S1.size a ≤ S8192.size a
  k0_off243_inb : ∀ i : grid0.Coords, ∀ a, (k0_off243 i) a + S1.size a ≤ S8192.size a
  k0_off245_inb : ∀ i : grid0.Coords, ∀ a, (k0_off245 i) a + S1.size a ≤ S8192.size a
  k0_off247_inb : ∀ i : grid0.Coords, ∀ a, (k0_off247 i) a + S1.size a ≤ S8192.size a
  k0_off249_inb : ∀ i : grid0.Coords, ∀ a, (k0_off249 i) a + S1.size a ≤ S8192.size a
  k0_off251_inb : ∀ i : grid0.Coords, ∀ a, (k0_off251 i) a + S1.size a ≤ S8192.size a
  k0_off253_inb : ∀ i : grid0.Coords, ∀ a, (k0_off253 i) a + S1.size a ≤ S8192.size a
  k0_off255_inb : ∀ i : grid0.Coords, ∀ a, (k0_off255 i) a + S1.size a ≤ S8192.size a
  hstage0_0 : ∀ j, (stage0_0 j).IsWhole
  nbuf0_0 : grid0.bufCount reads0_0 false = 2
  hreads0_0 : ∀ i i' : grid0.Coords, (∀ a, reads0_0 a = true → i a = i' a) → cc0_transform_1 i = cc0_transform_1 i'
  hinb0_0 : ∀ (i : grid0.Coords) a, (cc0_transform_1 i a + 1) * S128x4096.size a ≤ S8192x4096.size a
  hwx0_0 : ∀ i : grid0.Coords, EltTy.bits .bf16 = 32 ∨ (Rect.block (s := S8192x4096) S128x4096.size (cc0_transform_1 i) (hinb0_0 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S8192x4096.size a
  hwx1_0 : ∀ i : grid1.Coords, EltTy.bits .bf16 = 32 ∨ (Rect.block (s := S8192x4096) S1024x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S8192x4096.size a
  hwx1_1 : ∀ i : grid1.Coords, EltTy.bits .bf16 = 32 ∨ (Rect.block (s := S8192x4096) S512x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x8192.size a
  hwx1_2 : ∀ i : grid1.Coords, EltTy.bits .f32 = 32 ∨ (Rect.block (s := S1x8192) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S8192x8192.size a
  hwx1_3 : ∀ i : grid1.Coords, EltTy.bits .f32 = 32 ∨ (Rect.block (s := S8192x8192) S1024x512.size (cc1_transform_3 i) (hinb1_3 i)).WholeWords (EltTy.packing .f32)

variable [Facts₀]

abbrev cc0_scratch1 : DmaSems sig S128 := SemArray.consecutive 2 S128 hcc0_scratch1
def scatter_S8192_S16384x1_S16384_n_0_0_1 : ScatterDims S8192 S16384x1 S16384 where
  updateWindowDims := []
  insertedWindowDims := [0]
  scatterDimsToOperandDims := [0]
  indexVectorDim := 1
  wf := scatter_S8192_S16384x1_S16384_n_0_0_1_wf
def gather_S16384_S8192x1_S8192_n_0_n_n_0_1_1 : GatherDims S16384 S8192x1 S8192 where
  offsetDims := []
  collapsedSliceDims := [0]
  operandBatchingDims := []
  startIndicesBatchingDims := []
  startIndexMap := [0]
  indexVectorDim := 1
  sliceSizes := ![1]
  wf := gather_S16384_S8192x1_S8192_n_0_n_n_0_1_1_wf
def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf

abbrev spec0_0 : Pipeline.WinSpec sig grid0.rank :=
  Pipeline.WinSpec.ofSpec (Memref.whole main_v18) S128x4096.size reads0_0 true false 2 stage0_0 sem0_0 nbuf0_0 hstage0_0

abbrev spec0 : Fin 1 → Pipeline.WinSpec sig grid0.rank := fun | 0 => spec0_0 | ⟨_ + 1, h⟩ => absurd h (Nat.not_lt.2 (Nat.le_add_left _ _))
theorem hcount0 : ∀ w, grid0.bufCount (spec0 w).reads (spec0 w).sync = (spec0 w).nbuf := fun | 0 => nbuf0_0 | ⟨_ + 1, h⟩ => absurd h (Nat.not_lt.2 (Nat.le_add_left _ _))
abbrev ix0 (pf : pre0.Contents (Elt F)) : (w : Fin 1) → grid0.Coords → Fin (spec0 w).shape.rank → Nat := fun | 0 => cc0_transform_1 | ⟨_ + 1, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | ⟨_ + 1, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | ⟨_ + 1, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | ⟨_ + 1, h⟩ => absurd h (Nat.not_lt.2 (Nat.le_add_left _ _))
abbrev win1_0 : Pipeline.Window sig grid1 :=
  Pipeline.Window.ofSpec (Memref.whole main_v19) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S512x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1024x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where
  harr0 : ∀ w, (spec0 w).arr.IsWhole

variable [Facts]
-- ==== ReferenceIdeal.lean ====
abbrev S8192x4096 : Shape := ⟨2, ![8192, 4096]⟩
abbrev S16384x4096 : Shape := ⟨2, ![16384, 4096]⟩
abbrev S16384 : Shape := ⟨1, ![16384]⟩
abbrev S_ : Shape := ⟨0, ![]⟩
abbrev S8192 : Shape := ⟨1, ![8192]⟩
abbrev S16384x1 : Shape := ⟨2, ![16384, 1]⟩
abbrev S8192x1 : Shape := ⟨2, ![8192, 1]⟩
abbrev S1 : Shape := ⟨1, ![1]⟩
abbrev S1x1 : Shape := ⟨2, ![1, 1]⟩
abbrev S8192x8192 : Shape := ⟨2, ![8192, 8192]⟩
abbrev S1x8192 : Shape := ⟨2, ![1, 8192]⟩

abbrev nBuf : Space → Nat
  | .hbm => 119
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S16384x4096, .f32⟩
  | .hbm, ⟨2, _⟩ => ⟨S16384, .f32⟩
  | .hbm, ⟨3, _⟩ => ⟨S16384, .i32⟩
  | .hbm, ⟨4, _⟩ => ⟨S_, .i32⟩
  | .hbm, ⟨5, _⟩ => ⟨S16384, .i32⟩
  | .hbm, ⟨6, _⟩ => ⟨S16384, .i1⟩
  | .hbm, ⟨7, _⟩ => ⟨S16384, .i32⟩
  | .hbm, ⟨8, _⟩ => ⟨S_, .i32⟩
  | .hbm, ⟨9, _⟩ => ⟨S_, .i32⟩
  | .hbm, ⟨10, _⟩ => ⟨S16384, .i32⟩
  | .hbm, ⟨11, _⟩ => ⟨S_, .i32⟩
  | .hbm, ⟨12, _⟩ => ⟨S8192, .i32⟩
  | .hbm, ⟨13, _⟩ => ⟨S_, .i32⟩
  | .hbm, ⟨14, _⟩ => ⟨S_, .i32⟩
  | .hbm, ⟨15, _⟩ => ⟨S16384, .i32⟩
  | .hbm, ⟨16, _⟩ => ⟨S16384, .i32⟩
  | .hbm, ⟨17, _⟩ => ⟨S_, .i32⟩
  | .hbm, ⟨18, _⟩ => ⟨S16384, .i32⟩
  | .hbm, ⟨19, _⟩ => ⟨S16384, .i1⟩
  | .hbm, ⟨20, _⟩ => ⟨S_, .i32⟩
  | .hbm, ⟨21, _⟩ => ⟨S16384, .i32⟩
  | .hbm, ⟨22, _⟩ => ⟨S16384, .i32⟩
  | .hbm, ⟨23, _⟩ => ⟨S16384, .i32⟩
  | .hbm, ⟨24, _⟩ => ⟨S16384x1, .i32⟩
  | .hbm, ⟨25, _⟩ => ⟨S_, .i32⟩
  | .hbm, ⟨26, _⟩ => ⟨S16384, .i32⟩
  | .hbm, ⟨27, _⟩ => ⟨S8192, .i32⟩
  | .hbm, ⟨28, _⟩ => ⟨S_, .i32⟩
  | .hbm, ⟨29, _⟩ => ⟨S_, .i32⟩
  | .hbm, ⟨30, _⟩ => ⟨S8192, .i32⟩
  | .hbm, ⟨31, _⟩ => ⟨S_, .i32⟩
  | .hbm, ⟨32, _⟩ => ⟨S8192, .i32⟩
  | .hbm, ⟨33, _⟩ => ⟨S8192, .i32⟩
  | .hbm, ⟨34, _⟩ => ⟨S8192, .i32⟩
  | .hbm, ⟨35, _⟩ => ⟨S_, .i32⟩
  | .hbm, ⟨36, _⟩ => ⟨S8192, .i32⟩
  | .hbm, ⟨37, _⟩ => ⟨S8192, .i1⟩
  | .hbm, ⟨38, _⟩ => ⟨S8192, .i32⟩
  | .hbm, ⟨39, _⟩ => ⟨S8192, .i32⟩
  | .hbm, ⟨40, _⟩ => ⟨S_, .i32⟩
  | .hbm, ⟨41, _⟩ => ⟨S8192, .i32⟩
  | .hbm, ⟨42, _⟩ => ⟨S8192, .i1⟩
  | .hbm, ⟨43, _⟩ => ⟨S8192, .i1⟩
  | .hbm, ⟨44, _⟩ => ⟨S_, .i32⟩
  | .hbm, ⟨45, _⟩ => ⟨S8192, .i32⟩
  | .hbm, ⟨46, _⟩ => ⟨S8192, .i32⟩
  | .hbm, ⟨47, _⟩ => ⟨S8192, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i1⟩
  | .hbm, ⟨52, _⟩ => ⟨S_, .i32⟩
  | .hbm, ⟨53, _⟩ => ⟨S_, .i32⟩
  | .hbm, ⟨54, _⟩ => ⟨S8192, .i32⟩
  | .hbm, ⟨55, _⟩ => ⟨S8192, .i32⟩
  | .hbm, ⟨56, _⟩ => ⟨S_, .i32⟩
  | .hbm, ⟨57, _⟩ => ⟨S8192, .i32⟩
  | .hbm, ⟨58, _⟩ => ⟨S8192, .i1⟩
  | .hbm, ⟨59, _⟩ => ⟨S_, .i32⟩
  | .hbm, ⟨60, _⟩ => ⟨S8192, .i32⟩
  | .hbm, ⟨61, _⟩ => ⟨S8192, .i1⟩
  | .hbm, ⟨62, _⟩ => ⟨S_, .i32⟩
  | .hbm, ⟨63, _⟩ => ⟨S_, .i1⟩
  | .hbm, ⟨64, _⟩ => ⟨S8192, .i1⟩
  | .hbm, ⟨65, _⟩ => ⟨S8192, .i1⟩
  | .hbm, ⟨66, _⟩ => ⟨S8192, .i1⟩
  | .hbm, ⟨67, _⟩ => ⟨S8192, .i32⟩
  | .hbm, ⟨68, _⟩ => ⟨S8192, .i32⟩
  | .hbm, ⟨69, _⟩ => ⟨S8192, .i32⟩
  | .hbm, ⟨70, _⟩ => ⟨S_, .i32⟩
  | .hbm, ⟨71, _⟩ => ⟨S8192, .i32⟩
  | .hbm, ⟨72, _⟩ => ⟨S8192, .i1⟩
  | .hbm, ⟨73, _⟩ => ⟨S_, .i32⟩
  | .hbm, ⟨74, _⟩ => ⟨S8192, .i32⟩
  | .hbm, ⟨75, _⟩ => ⟨S8192, .i32⟩
  | .hbm, ⟨76, _⟩ => ⟨S8192, .i32⟩
  | .hbm, ⟨77, _⟩ => ⟨S8192x1, .i32⟩
  | .hbm, ⟨78, _⟩ => ⟨S1, .i32⟩
  | .hbm, ⟨79, _⟩ => ⟨S_, .i32⟩
  | .hbm, ⟨80, _⟩ => ⟨S8192x1, .i32⟩
  | .hbm, ⟨81, _⟩ => ⟨S8192x1, .i1⟩
  | .hbm, ⟨82, _⟩ => ⟨S1x1, .i32⟩
  | .hbm, ⟨83, _⟩ => ⟨S8192x1, .i32⟩
  | .hbm, ⟨84, _⟩ => ⟨S8192x1, .i1⟩
  | .hbm, ⟨85, _⟩ => ⟨S8192x1, .i1⟩
  | .hbm, ⟨86, _⟩ => ⟨S_, .i1⟩
  | .hbm, ⟨87, _⟩ => ⟨S8192, .i1⟩
  | .hbm, ⟨88, _⟩ => ⟨S8192x4096, .f32⟩
  | .hbm, ⟨89, _⟩ => ⟨S8192x4096, .i1⟩
  | .hbm, ⟨90, _⟩ => ⟨S_, .f32⟩
  | .hbm, ⟨91, _⟩ => ⟨S8192x4096, .f32⟩
  | .hbm, ⟨92, _⟩ => ⟨S8192x4096, .f32⟩
  | .hbm, ⟨93, _⟩ => ⟨S_, .i32⟩
  | .hbm, ⟨94, _⟩ => ⟨S8192, .i32⟩
  | .hbm, ⟨95, _⟩ => ⟨S8192, .i1⟩
  | .hbm, ⟨96, _⟩ => ⟨S_, .i32⟩
  | .hbm, ⟨97, _⟩ => ⟨S8192, .i32⟩
  | .hbm, ⟨98, _⟩ => ⟨S8192, .i32⟩
  | .hbm, ⟨99, _⟩ => ⟨S8192, .i32⟩
  | .hbm, ⟨100, _⟩ => ⟨S8192x1, .i32⟩
  | .hbm, ⟨101, _⟩ => ⟨S1, .i32⟩
  | .hbm, ⟨102, _⟩ => ⟨S_, .i32⟩
  | .hbm, ⟨103, _⟩ => ⟨S8192x1, .i32⟩
  | .hbm, ⟨104, _⟩ => ⟨S8192x1, .i1⟩
  | .hbm, ⟨105, _⟩ => ⟨S1x1, .i32⟩
  | .hbm, ⟨106, _⟩ => ⟨S8192x1, .i32⟩
  | .hbm, ⟨107, _⟩ => ⟨S8192x1, .i1⟩
  | .hbm, ⟨108, _⟩ => ⟨S8192x1, .i1⟩
  | .hbm, ⟨109, _⟩ => ⟨S_, .i1⟩
  | .hbm, ⟨110, _⟩ => ⟨S8192, .i1⟩
  | .hbm, ⟨111, _⟩ => ⟨S8192, .f32⟩
  | .hbm, ⟨112, _⟩ => ⟨S_, .f32⟩
  | .hbm, ⟨113, _⟩ => ⟨S8192, .f32⟩
  | .hbm, ⟨114, _⟩ => ⟨S8192, .f32⟩
  | .hbm, ⟨115, _⟩ => ⟨S8192x8192, .f32⟩
  | .hbm, ⟨116, _⟩ => ⟨S1x8192, .f32⟩
  | .hbm, ⟨117, _⟩ => ⟨S8192x8192, .f32⟩
  | .hbm, ⟨118, _⟩ => ⟨S8192x8192, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_call0_c : Ref sig .tc := ⟨.hbm, 8, rfl⟩
abbrev main_call0_call0_v0 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_c_1 : Ref sig .tc := ⟨.hbm, 13, rfl⟩
abbrev main_call1_v0 : Ref sig .tc := ⟨.hbm, 14, rfl⟩
abbrev main_call1_v1 : Ref sig .tc := ⟨.hbm, 15, rfl⟩
abbrev main_v4 : Ref sig .tc := ⟨.hbm, 16, rfl⟩
abbrev main_c_2 : Ref sig .tc := ⟨.hbm, 17, rfl⟩
abbrev main_v5 : Ref sig .tc := ⟨.hbm, 18, rfl⟩
abbrev main_v6 : Ref sig .tc := ⟨.hbm, 19, rfl⟩
abbrev main_c_3 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_4 : Ref sig .tc := ⟨.hbm, 25, rfl⟩
abbrev main_v11 : Ref sig .tc := ⟨.hbm, 26, rfl⟩
abbrev main_v12 : Ref sig .tc := ⟨.hbm, 27, rfl⟩
abbrev main_call2_call0_c : Ref sig .tc := ⟨.hbm, 28, rfl⟩
abbrev main_call2_call0_v0 : Ref sig .tc := ⟨.hbm, 29, rfl⟩
abbrev main_v13 : Ref sig .tc := ⟨.hbm, 30, rfl⟩
abbrev main_c_5 : Ref sig .tc := ⟨.hbm, 31, rfl⟩
abbrev main_call3_v0 : Ref sig .tc := ⟨.hbm, 32, rfl⟩
abbrev main_call3_v1 : Ref sig .tc := ⟨.hbm, 33, rfl⟩
abbrev main_call3_v2 : Ref sig .tc := ⟨.hbm, 34, rfl⟩
abbrev main_call3_v3 : Ref sig .tc := ⟨.hbm, 35, rfl⟩
abbrev main_call3_v4 : Ref sig .tc := ⟨.hbm, 36, rfl⟩
abbrev main_call3_v5 : Ref sig .tc := ⟨.hbm, 37, rfl⟩
abbrev main_call3_v6 : Ref sig .tc := ⟨.hbm, 38, rfl⟩
abbrev main_call3_v7 : Ref sig .tc := ⟨.hbm, 39, rfl⟩
abbrev main_call3_c : Ref sig .tc := ⟨.hbm, 40, rfl⟩
abbrev main_call3_v8 : Ref sig .tc := ⟨.hbm, 41, rfl⟩
abbrev main_call3_v9 : Ref sig .tc := ⟨.hbm, 42, rfl⟩
abbrev main_call3_v10 : Ref sig .tc := ⟨.hbm, 43, rfl⟩
abbrev main_call3_c_0 : Ref sig .tc := ⟨.hbm, 44, rfl⟩
abbrev main_call3_v11 : Ref sig .tc := ⟨.hbm, 45, rfl⟩
abbrev main_call3_v12 : Ref sig .tc := ⟨.hbm, 46, rfl⟩
abbrev main_v14 : Ref sig .tc := ⟨.hbm, 47, rfl⟩
abbrev main_c_6 : Ref sig .tc := ⟨.hbm, 48, rfl⟩
abbrev main_call4_v0 : Ref sig .tc := ⟨.hbm, 49, rfl⟩
abbrev main_call4_c : Ref sig .tc := ⟨.hbm, 50, rfl⟩
abbrev main_call4_v1 : Ref sig .tc := ⟨.hbm, 51, rfl⟩
abbrev main_call4_c_0 : Ref sig .tc := ⟨.hbm, 52, rfl⟩
abbrev main_call4_v2 : Ref sig .tc := ⟨.hbm, 53, rfl⟩
abbrev main_call4_v3 : Ref sig .tc := ⟨.hbm, 54, rfl⟩
abbrev main_call4_v4 : Ref sig .tc := ⟨.hbm, 55, rfl⟩
abbrev main_call4_c_1 : Ref sig .tc := ⟨.hbm, 56, rfl⟩
abbrev main_call4_v5 : Ref sig .tc := ⟨.hbm, 57, rfl⟩
abbrev main_call4_v6 : Ref sig .tc := ⟨.hbm, 58, rfl⟩
abbrev main_call4_c_2 : Ref sig .tc := ⟨.hbm, 59, rfl⟩
abbrev main_call4_v7 : Ref sig .tc := ⟨.hbm, 60, rfl⟩
abbrev main_call4_v8 : Ref sig .tc := ⟨.hbm, 61, rfl⟩
abbrev main_call4_c_3 : Ref sig .tc := ⟨.hbm, 62, rfl⟩
abbrev main_call4_v9 : Ref sig .tc := ⟨.hbm, 63, rfl⟩
abbrev main_call4_v10 : Ref sig .tc := ⟨.hbm, 64, rfl⟩
abbrev main_call4_v11 : Ref sig .tc := ⟨.hbm, 65, rfl⟩
abbrev main_call4_v12 : Ref sig .tc := ⟨.hbm, 66, rfl⟩
abbrev main_call4_v13 : Ref sig .tc := ⟨.hbm, 67, rfl⟩
abbrev main_call4_v14 : Ref sig .tc := ⟨.hbm, 68, rfl⟩
abbrev main_v15 : Ref sig .tc := ⟨.hbm, 69, rfl⟩
abbrev main_call5_c : Ref sig .tc := ⟨.hbm, 70, rfl⟩
abbrev main_call5_v0 : Ref sig .tc := ⟨.hbm, 71, rfl⟩
abbrev main_call5_v1 : Ref sig .tc := ⟨.hbm, 72, rfl⟩
abbrev main_call5_c_0 : Ref sig .tc := ⟨.hbm, 73, rfl⟩
abbrev main_call5_v2 : Ref sig .tc := ⟨.hbm, 74, rfl⟩
abbrev main_call5_v3 : Ref sig .tc := ⟨.hbm, 75, rfl⟩
abbrev main_call5_v4 : Ref sig .tc := ⟨.hbm, 76, rfl⟩
abbrev main_call5_v5 : Ref sig .tc := ⟨.hbm, 77, rfl⟩
abbrev main_call5_c_1 : Ref sig .tc := ⟨.hbm, 78, rfl⟩
abbrev main_call5_c_2 : Ref sig .tc := ⟨.hbm, 79, rfl⟩
abbrev main_call5_v6 : Ref sig .tc := ⟨.hbm, 80, rfl⟩
abbrev main_call5_v7 : Ref sig .tc := ⟨.hbm, 81, rfl⟩
abbrev main_call5_v8 : Ref sig .tc := ⟨.hbm, 82, rfl⟩
abbrev main_call5_v9 : Ref sig .tc := ⟨.hbm, 83, rfl⟩
abbrev main_call5_v10 : Ref sig .tc := ⟨.hbm, 84, rfl⟩
abbrev main_call5_v11 : Ref sig .tc := ⟨.hbm, 85, rfl⟩
abbrev main_call5_c_3 : Ref sig .tc := ⟨.hbm, 86, rfl⟩
abbrev main_call5_v12 : Ref sig .tc := ⟨.hbm, 87, rfl⟩
abbrev main_call5_v13 : Ref sig .tc := ⟨.hbm, 88, rfl⟩
abbrev main_call5_v14 : Ref sig .tc := ⟨.hbm, 89, rfl⟩
abbrev main_call5_cst : Ref sig .tc := ⟨.hbm, 90, rfl⟩
abbrev main_call5_v15 : Ref sig .tc := ⟨.hbm, 91, rfl⟩
abbrev main_v16 : Ref sig .tc := ⟨.hbm, 92, rfl⟩
abbrev main_call6_c : Ref sig .tc := ⟨.hbm, 93, rfl⟩
abbrev main_call6_v0 : Ref sig .tc := ⟨.hbm, 94, rfl⟩
abbrev main_call6_v1 : Ref sig .tc := ⟨.hbm, 95, rfl⟩
abbrev main_call6_c_0 : Ref sig .tc := ⟨.hbm, 96, rfl⟩
abbrev main_call6_v2 : Ref sig .tc := ⟨.hbm, 97, rfl⟩
abbrev main_call6_v3 : Ref sig .tc := ⟨.hbm, 98, rfl⟩
abbrev main_call6_v4 : Ref sig .tc := ⟨.hbm, 99, rfl⟩
abbrev main_call6_v5 : Ref sig .tc := ⟨.hbm, 100, rfl⟩
abbrev main_call6_c_1 : Ref sig .tc := ⟨.hbm, 101, rfl⟩
abbrev main_call6_c_2 : Ref sig .tc := ⟨.hbm, 102, rfl⟩
abbrev main_call6_v6 : Ref sig .tc := ⟨.hbm, 103, rfl⟩
abbrev main_call6_v7 : Ref sig .tc := ⟨.hbm, 104, rfl⟩
abbrev main_call6_v8 : Ref sig .tc := ⟨.hbm, 105, rfl⟩
abbrev main_call6_v9 : Ref sig .tc := ⟨.hbm, 106, rfl⟩
abbrev main_call6_v10 : Ref sig .tc := ⟨.hbm, 107, rfl⟩
abbrev main_call6_v11 : Ref sig .tc := ⟨.hbm, 108, rfl⟩
abbrev main_call6_c_3 : Ref sig .tc := ⟨.hbm, 109, rfl⟩
abbrev main_call6_v12 : Ref sig .tc := ⟨.hbm, 110, rfl⟩
abbrev main_call6_v13 : Ref sig .tc := ⟨.hbm, 111, rfl⟩
abbrev main_call6_cst : Ref sig .tc := ⟨.hbm, 112, rfl⟩
abbrev main_call6_v14 : Ref sig .tc := ⟨.hbm, 113, rfl⟩
abbrev main_v17 : Ref sig .tc := ⟨.hbm, 114, rfl⟩
abbrev main_v18 : Ref sig .tc := ⟨.hbm, 115, rfl⟩
abbrev main_v19 : Ref sig .tc := ⟨.hbm, 116, rfl⟩
abbrev main_v20 : Ref sig .tc := ⟨.hbm, 117, rfl⟩
abbrev main_v21 : Ref sig .tc := ⟨.hbm, 118, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  natLt_1_32 : 1 < 32
  bcast_S_S_ : S_.BroadcastsInDim S_ (![] : Fin 0 → Fin S_.rank)
  reduceWindows_S16384_S16384_w16384s1p16383_0 : S16384.ReduceWindows (![16384] : Fin 1 → Nat) ![1] ![16383] ![0] S16384
  h_S_ : 0 < S_.numel
  bcast_S_S8192 : S_.BroadcastsInDim S8192 (![] : Fin 0 → Fin S8192.rank)
  bcast_S16384_S16384x1_0 : S16384.BroadcastsInDim S16384x1 (![0] : Fin 1 → Fin S16384x1.rank)
  reduceWindows_S8192_S8192_w8192s1p8191_0 : S8192.ReduceWindows (![8192] : Fin 1 → Nat) ![1] ![8191] ![0] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  bcast_S8192_S8192x4096_0 : S8192.BroadcastsInDim S8192x4096 (![0] : Fin 1 → Fin S8192x4096.rank)
  bcast_S_S8192x4096 : S_.BroadcastsInDim S8192x4096 (![] : Fin 0 → Fin S8192x4096.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  scatter_S8192_S16384x1_S16384_n_0_0_1_wf : ScatterDims.WF S8192 S16384x1 S16384 [] [0] [0] 1
  gather_S16384x4096_S8192x1_S8192x4096_1_0_n_n_0_1_14096_wf : GatherDims.WF S16384x4096 S8192x1 S8192x4096 [1] [0] [] [0] [] 1 ![1, 4096]
  gather_S16384_S8192x1_S8192_n_0_n_n_0_1_1_wf : GatherDims.WF S16384 S8192x1 S8192 [] [0] [] [0] [] 1 ![1]
  dot_S8192x4096_S8192x4096_S8192x8192_1_1_0_0_n_n_wf : DotDims.WF S8192x4096 S8192x4096 S8192x8192 [1] [1] [0] [0] [] []

variable [Facts₀]

def scatter_S8192_S16384x1_S16384_n_0_0_1 : ScatterDims S8192 S16384x1 S16384 where
  updateWindowDims := []
  insertedWindowDims := [0]
  scatterDimsToOperandDims := [0]
  indexVectorDim := 1
  wf := scatter_S8192_S16384x1_S16384_n_0_0_1_wf
def gather_S16384x4096_S8192x1_S8192x4096_1_0_n_n_0_1_14096 : GatherDims S16384x4096 S8192x1 S8192x4096 where
  offsetDims := [1]
  collapsedSliceDims := [0]
  operandBatchingDims := []
  startIndicesBatchingDims := []
  startIndexMap := [0]
  indexVectorDim := 1
  sliceSizes := ![1, 4096]
  wf := gather_S16384x4096_S8192x1_S8192x4096_1_0_n_n_0_1_14096_wf
def gather_S16384_S8192x1_S8192_n_0_n_n_0_1_1 : GatherDims S16384 S8192x1 S8192 where
  offsetDims := []
  collapsedSliceDims := [0]
  operandBatchingDims := []
  startIndicesBatchingDims := []
  startIndexMap := [0]
  indexVectorDim := 1
  sliceSizes := ![1]
  wf := gather_S16384_S8192x1_S8192_n_0_n_n_0_1_1_wf
def dot_S8192x4096_S8192x4096_S8192x8192_1_1_0_0_n_n : DotDims S8192x4096 S8192x4096 S8192x8192 where
  lhsContracting := [1]
  rhsContracting := [1]
  lhsNonContracting := [0]
  rhsNonContracting := [0]
  lhsBatch := []
  rhsBatch := []
  wf := dot_S8192x4096_S8192x4096_S8192x8192_1_1_0_0_n_n_wf

class Facts : Prop extends Facts₀ where

variable [Facts]
-- ==== Proof.K.Rows.lean ====
/-
  The 128×4096 scratch buffer cut into its 128 rows: the rows are pairwise disjoint rectangles that cover the buffer, so
  holding the buffer whole is holding each row, in both directions — what lets 128 copies, one per row, be in flight at
  once, each having taken its own row.
-/
import proofs.«172148_j16612933501330_2_alg».proof.Kernel
import Idealize.ShloMosaic.Rules.PointsTo
import Idealize.ShloMosaic.Lib.Exec.Geometry

noncomputable section

namespace Cert.Kernel.Hand

open Cert.Kernel
open Idealize.ShloMosaic
open Idealize.SL
open Idealize.SL.RA Idealize.SL.Sem Idealize.SL.ProofMode
open Idealize.SL.BI (sProp bigSep)
open scoped Idealize.SL.BI
open Idealize.SL.BI.BIBase Idealize.SL.BI.Laws

/-- Row `r` of the scratch buffer, as a unit-stride rectangle of one row and all 4096 columns. -/
def rowRect (r : Fin 128) : Rect S128x4096 :=
  Rect.unit (s := S128x4096) ![r.val, 0] S1x4096.size (fun a => by
    match a with
    | ⟨0, _⟩ => show r.val + 1 ≤ 128; omega
    | ⟨1, _⟩ => show 0 + 4096 ≤ 4096; omega)

/-- An index lies in row `r` exactly when its first coordinate is `r`. -/
theorem mem_rowRect (r : Fin 128) (i : S128x4096.Idx) : i ∈ (rowRect r).set ↔ (i 0).val = r.val := by
  unfold rowRect
  rw [Rect.mem_set_unit]
  constructor
  · intro h
    have h0 := h 0
    have e0 : (![r.val, 0] : Fin 2 → Nat) 0 = r.val := rfl
    have s0 : S1x4096.size (0 : Fin 2) = 1 := rfl
    rw [e0, s0] at h0
    omega
  · intro h a
    match a with
    | ⟨0, _⟩ =>
      show r.val ≤ (i 0).val ∧ (i 0).val < r.val + 1
      omega
    | ⟨1, _⟩ =>
      have hi : (i 1).val < 4096 := (i 1).isLt
      show 0 ≤ (i 1).val ∧ (i 1).val < 0 + 4096
      omega

theorem rows_disjoint (r r' : Fin 128) (h : r ≠ r') : Disjoint (rowRect r).set (rowRect r').set := by
  rw [Finset.disjoint_left]
  intro i hi hi'
  rw [mem_rowRect] at hi hi'
  exact h (Fin.ext (hi.symm.trans hi'))

theorem rows_cover : (Finset.univ : Finset (Fin 128)).biUnion (fun r => (rowRect r).set) = Finset.univ := by
  ext i
  simp only [Finset.mem_biUnion, Finset.mem_univ, true_and, iff_true]
  have hi : (i 0).val < 128 := (i 0).isLt
  exact ⟨⟨(i 0).val, hi⟩, (mem_rowRect _ i).mpr rfl⟩

end Cert.Kernel.Hand

end
-- ==== Proof.K.Checks.lean ====
/-
  The side conditions the gather kernel's body assumes of the 128 words it loads from the prefetched index table.
  Each condition says that the row named by the word, a block of shape [1, 4096] at offset [v, 0], lies inside the
  [16384, 4096] weight array, which holds exactly when v < 16384 as an unsigned number. The table is held whole at the
  contents that read x0, so the word loaded through a one-element rectangle is some entry of x0; when every entry of
  x0 is below 16384, every condition holds. The 128 theorems below are one case each of the same two-line argument
  (word_lt, then rowFits on each conjunct): a table of cases.
-/
import proofs.«172148_j16612933501330_2_alg».proof.Proof.Gen.Kernel.Skeleton
import Idealize.ShloMosaic.Lib.WholeRead

set_option maxRecDepth 16384

noncomputable section

namespace Cert.Kernel.Hand

open Cert.Kernel Cert.Kernel.Gen
open Idealize.ShloMosaic Idealize.SL.Sem

variable {F : FTy → Type} [FloatOps F]

/-- A row offset below 16384 leaves room for a [1, 4096] block inside the [16384, 4096] array, on both axes. -/
theorem rowFits (v : BitVec 32) (h : v.toNat < 16384) (a : Fin 2) :
    (![v.toNat, 0] : Fin 2 → Nat) a + S1x4096.size a ≤ S16384x4096.size a := by
  match a with
  | ⟨0, _⟩ => show v.toNat + 1 ≤ 16384; omega
  | ⟨1, _⟩ => show 0 + 4096 ≤ 4096; omega

/-- The word loaded through a one-element rectangle of the whole table, held at the contents that read x0, is an entry
of x0, so a bound on every entry of x0 bounds it (whatever the rectangle's offset). -/
theorem word_lt (arg1 : Memref sig .tc .smem S8192 .i32) (harg1 : arg1.IsWhole) (x0 : Vec F S8192 .i32)
    (hx : ∀ k : S8192.Idx, (x0 k).toNat < 16384) (off : Fin 1 → Nat)
    (inb : ∀ a, off a + S1.size a ≤ S8192.size a) (h1 : 0 < S1.numel) :
    (arg1.view.readAt (Elt F) (Rect.unit (s := S8192) off S1.size inb).toLoadRect (harg1.unread x0)
      (Shape.Idx.first h1)).toNat < 16384 := by
  obtain ⟨y, hy⟩ := harg1.exists_readAt_unread x0 (Rect.unit (s := S8192) off S1.size inb).toLoadRect (Shape.Idx.first h1)
  rw [hy]
  exact hx y

theorem chk1_of_table (i : grid0.Coords) (arg1 : Memref sig .tc .smem S8192 .i32) (harg1 : arg1.IsWhole)
    (x0 : Vec F S8192 .i32) (hx : ∀ k : S8192.Idx, (x0 k).toNat < 16384) :
    k0_chk1 (arg1.view.readAt (Elt F) (Rect.unit (s := S8192) (k0_off1 i) S1.size (k0_off1_inb i)).toLoadRect (harg1.unread x0) (Shape.Idx.first (numel1_S1.symm ▸ Nat.one_pos))) := by
  have h := word_lt arg1 harg1 x0 hx (k0_off1 i) (k0_off1_inb i) (numel1_S1.symm ▸ Nat.one_pos)
  unfold k0_chk1
  exact ⟨fun a => rowFits _ h a, fun a => rowFits _ h a⟩

theorem chk2_of_table (i : grid0.Coords) (arg1 : Memref sig .tc .smem S8192 .i32) (harg1 : arg1.IsWhole)
    (x0 : Vec F S8192 .i32) (hx : ∀ k : S8192.Idx, (x0 k).toNat < 16384) :
    k0_chk2 (arg1.view.readAt (Elt F) (Rect.unit (s := S8192) (k0_off3 i) S1.size (k0_off3_inb i)).toLoadRect (harg1.unread x0) (Shape.Idx.first (numel1_S1.symm ▸ Nat.one_pos))) := by
  have h := word_lt arg1 harg1 x0 hx (k0_off3 i) (k0_off3_inb i) (numel1_S1.symm ▸ Nat.one_pos)
  unfold k0_chk2
  exact ⟨fun a => rowFits _ h a, fun a => rowFits _ h a⟩

theorem chk3_of_table (i : grid0.Coords) (arg1 : Memref sig .tc .smem S8192 .i32) (harg1 : arg1.IsWhole)
    (x0 : Vec F S8192 .i32) (hx : ∀ k : S8192.Idx, (x0 k).toNat < 16384) :
    k0_chk3 (arg1.view.readAt (Elt F) (Rect.unit (s := S8192) (k0_off5 i) S1.size (k0_off5_inb i)).toLoadRect (harg1.unread x0) (Shape.Idx.first (numel1_S1.symm ▸ Nat.one_pos))) := by
  have h := word_lt arg1 harg1 x0 hx (k0_off5 i) (k0_off5_inb i) (numel1_S1.symm ▸ Nat.one_pos)
  unfold k0_chk3
  exact ⟨fun a => rowFits _ h a, fun a => rowFits _ h a⟩

theorem chk4_of_table (i : grid0.Coords) (arg1 : Memref sig .tc .smem S8192 .i32) (harg1 : arg1.IsWhole)
    (x0 : Vec F S8192 .i32) (hx : ∀ k : S8192.Idx, (x0 k).toNat < 16384) :
    k0_chk4 (arg1.view.readAt (Elt F) (Rect.unit (s := S8192) (k0_off7 i) S1.size (k0_off7_inb i)).toLoadRect (harg1.unread x0) (Shape.Idx.first (numel1_S1.symm ▸ Nat.one_pos))) := by
  have h := word_lt arg1 harg1 x0 hx (k0_off7 i) (k0_off7_inb i) (numel1_S1.symm ▸ Nat.one_pos)
  unfold k0_chk4
  exact ⟨fun a => rowFits _ h a, fun a => rowFits _ h a⟩

theorem chk5_of_table (i : grid0.Coords) (arg1 : Memref sig .tc .smem S8192 .i32) (harg1 : arg1.IsWhole)
    (x0 : Vec F S8192 .i32) (hx : ∀ k : S8192.Idx, (x0 k).toNat < 16384) :
    k0_chk5 (arg1.view.readAt (Elt F) (Rect.unit (s := S8192) (k0_off9 i) S1.size (k0_off9_inb i)).toLoadRect (harg1.unread x0) (Shape.Idx.first (numel1_S1.symm ▸ Nat.one_pos))) := by
  have h := word_lt arg1 harg1 x0 hx (k0_off9 i) (k0_off9_inb i) (numel1_S1.symm ▸ Nat.one_pos)
  unfold k0_chk5
  exact ⟨fun a => rowFits _ h a, fun a => rowFits _ h a⟩

theorem chk6_of_table (i : grid0.Coords) (arg1 : Memref sig .tc .smem S8192 .i32) (harg1 : arg1.IsWhole)
    (x0 : Vec F S8192 .i32) (hx : ∀ k : S8192.Idx, (x0 k).toNat < 16384) :
    k0_chk6 (arg1.view.readAt (Elt F) (Rect.unit (s := S8192) (k0_off11 i) S1.size (k0_off11_inb i)).toLoadRect (harg1.unread x0) (Shape.Idx.first (numel1_S1.symm ▸ Nat.one_pos))) := by
  have h := word_lt arg1 harg1 x0 hx (k0_off11 i) (k0_off11_inb i) (numel1_S1.symm ▸ Nat.one_pos)
  unfold k0_chk6
  exact ⟨fun a => rowFits _ h a, fun a => rowFits _ h a⟩

theorem chk7_of_table (i : grid0.Coords) (arg1 : Memref sig .tc .smem S8192 .i32) (harg1 : arg1.IsWhole)
    (x0 : Vec F S8192 .i32) (hx : ∀ k : S8192.Idx, (x0 k).toNat < 16384) :
    k0_chk7 (arg1.view.readAt (Elt F) (Rect.unit (s := S8192) (k0_off13 i) S1.size (k0_off13_inb i)).toLoadRect (harg1.unread x0) (Shape.Idx.first (numel1_S1.symm ▸ Nat.one_pos))) := by
  have h := word_lt arg1 harg1 x0 hx (k0_off13 i) (k0_off13_inb i) (numel1_S1.symm ▸ Nat.one_pos)
  unfold k0_chk7
  exact ⟨fun a => rowFits _ h a, fun a => rowFits _ h a⟩

theorem chk8_of_table (i : grid0.Coords) (arg1 : Memref sig .tc .smem S8192 .i32) (harg1 : arg1.IsWhole)
    (x0 : Vec F S8192 .i32) (hx : ∀ k : S8192.Idx, (x0 k).toNat < 16384) :
    k0_chk8 (arg1.view.readAt (Elt F) (Rect.unit (s := S8192) (k0_off15 i) S1.size (k0_off15_inb i)).toLoadRect (harg1.unread x0) (Shape.Idx.first (numel1_S1.symm ▸ Nat.one_pos))) := by
  have h := word_lt arg1 harg1 x0 hx (k0_off15 i) (k0_off15_inb i) (numel1_S1.symm ▸ Nat.one_pos)
  unfold k0_chk8
  exact ⟨fun a => rowFits _ h a, fun a => rowFits _ h a⟩

theorem chk9_of_table (i : grid0.Coords) (arg1 : Memref sig .tc .smem S8192 .i32) (harg1 : arg1.IsWhole)
    (x0 : Vec F S8192 .i32) (hx : ∀ k : S8192.Idx, (x0 k).toNat < 16384) :
    k0_chk9 (arg1.view.readAt (Elt F) (Rect.unit (s := S8192) (k0_off17 i) S1.size (k0_off17_inb i)).toLoadRect (harg1.unread x0) (Shape.Idx.first (numel1_S1.symm ▸ Nat.one_pos))) := by
  have h := word_lt arg1 harg1 x0 hx (k0_off17 i) (k0_off17_inb i) (numel1_S1.symm ▸ Nat.one_pos)
  unfold k0_chk9
  exact ⟨fun a => rowFits _ h a, fun a => rowFits _ h a⟩

theorem chk10_of_table (i : grid0.Coords) (arg1 : Memref sig .tc .smem S8192 .i32) (harg1 : arg1.IsWhole)
    (x0 : Vec F S8192 .i32) (hx : ∀ k : S8192.Idx, (x0 k).toNat < 16384) :
    k0_chk10 (arg1.view.readAt (Elt F) (Rect.unit (s := S8192) (k0_off19 i) S1.size (k0_off19_inb i)).toLoadRect (harg1.unread x0) (Shape.Idx.first (numel1_S1.symm ▸ Nat.one_pos))) := by
  have h := word_lt arg1 harg1 x0 hx (k0_off19 i) (k0_off19_inb i) (numel1_S1.symm ▸ Nat.one_pos)
  unfold k0_chk10
  exact ⟨fun a => rowFits _ h a, fun a => rowFits _ h a⟩

theorem chk11_of_table (i : grid0.Coords) (arg1 : Memref sig .tc .smem S8192 .i32) (harg1 : arg1.IsWhole)
    (x0 : Vec F S8192 .i32) (hx : ∀ k : S8192.Idx, (x0 k).toNat < 16384) :
    k0_chk11 (arg1.view.readAt (Elt F) (Rect.unit (s := S8192) (k0_off21 i) S1.size (k0_off21_inb i)).toLoadRect (harg1.unread x0) (Shape.Idx.first (numel1_S1.symm ▸ Nat.one_pos))) := by
  have h := word_lt arg1 harg1 x0 hx (k0_off21 i) (k0_off21_inb i) (numel1_S1.symm ▸ Nat.one_pos)
  unfold k0_chk11
  exact ⟨fun a => rowFits _ h a, fun a => rowFits _ h a⟩

theorem chk12_of_table (i : grid0.Coords) (arg1 : Memref sig .tc .smem S8192 .i32) (harg1 : arg1.IsWhole)
    (x0 : Vec F S8192 .i32) (hx : ∀ k : S8192.Idx, (x0 k).toNat < 16384) :
    k0_chk12 (arg1.view.readAt (Elt F) (Rect.unit (s := S8192) (k0_off23 i) S1.size (k0_off23_inb i)).toLoadRect (harg1.unread x0) (Shape.Idx.first (numel1_S1.symm ▸ Nat.one_pos))) := by
  have h := word_lt arg1 harg1 x0 hx (k0_off23 i) (k0_off23_inb i) (numel1_S1.symm ▸ Nat.one_pos)
  unfold k0_chk12
  exact ⟨fun a => rowFits _ h a, fun a => rowFits _ h a⟩

theorem chk13_of_table (i : grid0.Coords) (arg1 : Memref sig .tc .smem S8192 .i32) (harg1 : arg1.IsWhole)
    (x0 : Vec F S8192 .i32) (hx : ∀ k : S8192.Idx, (x0 k).toNat < 16384) :
    k0_chk13 (arg1.view.readAt (Elt F) (Rect.unit (s := S8192) (k0_off25 i) S1.size (k0_off25_inb i)).toLoadRect (harg1.unread x0) (Shape.Idx.first (numel1_S1.symm ▸ Nat.one_pos))) := by
  have h := word_lt arg1 harg1 x0 hx (k0_off25 i) (k0_off25_inb i) (numel1_S1.symm ▸ Nat.one_pos)
  unfold k0_chk13
  exact ⟨fun a => rowFits _ h a, fun a => rowFits _ h a⟩

theorem chk14_of_table (i : grid0.Coords) (arg1 : Memref sig .tc .smem S8192 .i32) (harg1 : arg1.IsWhole)
    (x0 : Vec F S8192 .i32) (hx : ∀ k : S8192.Idx, (x0 k).toNat < 16384) :
    k0_chk14 (arg1.view.readAt (Elt F) (Rect.unit (s := S8192) (k0_off27 i) S1.size (k0_off27_inb i)).toLoadRect (harg1.unread x0) (Shape.Idx.first (numel1_S1.symm ▸ Nat.one_pos))) := by
  have h := word_lt arg1 harg1 x0 hx (k0_off27 i) (k0_off27_inb i) (numel1_S1.symm ▸ Nat.one_pos)
  unfold k0_chk14
  exact ⟨fun a => rowFits _ h a, fun a => rowFits _ h a⟩

theorem chk15_of_table (i : grid0.Coords) (arg1 : Memref sig .tc .smem S8192 .i32) (harg1 : arg1.IsWhole)
    (x0 : Vec F S8192 .i32) (hx : ∀ k : S8192.Idx, (x0 k).toNat < 16384) :
    k0_chk15 (arg1.view.readAt (Elt F) (Rect.unit (s := S8192) (k0_off29 i) S1.size (k0_off29_inb i)).toLoadRect (harg1.unread x0) (Shape.Idx.first (numel1_S1.symm ▸ Nat.one_pos))) := by
  have h := word_lt arg1 harg1 x0 hx (k0_off29 i) (k0_off29_inb i) (numel1_S1.symm ▸ Nat.one_pos)
  unfold k0_chk15
  exact ⟨fun a => rowFits _ h a, fun a => rowFits _ h a⟩

theorem chk16_of_table (i : grid0.Coords) (arg1 : Memref sig .tc .smem S8192 .i32) (harg1 : arg1.IsWhole)
    (x0 : Vec F S8192 .i32) (hx : ∀ k : S8192.Idx, (x0 k).toNat < 16384) :
    k0_chk16 (arg1.view.readAt (Elt F) (Rect.unit (s := S8192) (k0_off31 i) S1.size (k0_off31_inb i)).toLoadRect (harg1.unread x0) (Shape.Idx.first (numel1_S1.symm ▸ Nat.one_pos))) := by
  have h := word_lt arg1 harg1 x0 hx (k0_off31 i) (k0_off31_inb i) (numel1_S1.symm ▸ Nat.one_pos)
  unfold k0_chk16
  exact ⟨fun a => rowFits _ h a, fun a => rowFits _ h a⟩

theorem chk17_of_table (i : grid0.Coords) (arg1 : Memref sig .tc .smem S8192 .i32) (harg1 : arg1.IsWhole)
    (x0 : Vec F S8192 .i32) (hx : ∀ k : S8192.Idx, (x0 k).toNat < 16384) :
    k0_chk17 (arg1.view.readAt (Elt F) (Rect.unit (s := S8192) (k0_off33 i) S1.size (k0_off33_inb i)).toLoadRect (harg1.unread x0) (Shape.Idx.first (numel1_S1.symm ▸ Nat.one_pos))) := by
  have h := word_lt arg1 harg1 x0 hx (k0_off33 i) (k0_off33_inb i) (numel1_S1.symm ▸ Nat.one_pos)
  unfold k0_chk17
  exact ⟨fun a => rowFits _ h a, fun a => rowFits _ h a⟩

theorem chk18_of_table (i : grid0.Coords) (arg1 : Memref sig .tc .smem S8192 .i32) (harg1 : arg1.IsWhole)
    (x0 : Vec F S8192 .i32) (hx : ∀ k : S8192.Idx, (x0 k).toNat < 16384) :
    k0_chk18 (arg1.view.readAt (Elt F) (Rect.unit (s := S8192) (k0_off35 i) S1.size (k0_off35_inb i)).toLoadRect (harg1.unread x0) (Shape.Idx.first (numel1_S1.symm ▸ Nat.one_pos))) := by
  have h := word_lt arg1 harg1 x0 hx (k0_off35 i) (k0_off35_inb i) (numel1_S1.symm ▸ Nat.one_pos)
  unfold k0_chk18
  exact ⟨fun a => rowFits _ h a, fun a => rowFits _ h a⟩

theorem chk19_of_table (i : grid0.Coords) (arg1 : Memref sig .tc .smem S8192 .i32) (harg1 : arg1.IsWhole)
    (x0 : Vec F S8192 .i32) (hx : ∀ k : S8192.Idx, (x0 k).toNat < 16384) :
    k0_chk19 (arg1.view.readAt (Elt F) (Rect.unit (s := S8192) (k0_off37 i) S1.size (k0_off37_inb i)).toLoadRect (harg1.unread x0) (Shape.Idx.first (numel1_S1.symm ▸ Nat.one_pos))) := by
  have h := word_lt arg1 harg1 x0 hx (k0_off37 i) (k0_off37_inb i) (numel1_S1.symm ▸ Nat.one_pos)
  unfold k0_chk19
  exact ⟨fun a => rowFits _ h a, fun a => rowFits _ h a⟩

theorem chk20_of_table (i : grid0.Coords) (arg1 : Memref sig .tc .smem S8192 .i32) (harg1 : arg1.IsWhole)
    (x0 : Vec F S8192 .i32) (hx : ∀ k : S8192.Idx, (x0 k).toNat < 16384) :
    k0_chk20 (arg1.view.readAt (Elt F) (Rect.unit (s := S8192) (k0_off39 i) S1.size (k0_off39_inb i)).toLoadRect (harg1.unread x0) (Shape.Idx.first (numel1_S1.symm ▸ Nat.one_pos))) := by
  have h := word_lt arg1 harg1 x0 hx (k0_off39 i) (k0_off39_inb i) (numel1_S1.symm ▸ Nat.one_pos)
  unfold k0_chk20
  exact ⟨fun a => rowFits _ h a, fun a => rowFits _ h a⟩

theorem chk21_of_table (i : grid0.Coords) (arg1 : Memref sig .tc .smem S8192 .i32) (harg1 : arg1.IsWhole)
    (x0 : Vec F S8192 .i32) (hx : ∀ k : S8192.Idx, (x0 k).toNat < 16384) :
    k0_chk21 (arg1.view.readAt (Elt F) (Rect.unit (s := S8192) (k0_off41 i) S1.size (k0_off41_inb i)).toLoadRect (harg1.unread x0) (Shape.Idx.first (numel1_S1.symm ▸ Nat.one_pos))) := by
  have h := word_lt arg1 harg1 x0 hx (k0_off41 i) (k0_off41_inb i) (numel1_S1.symm ▸ Nat.one_pos)
  unfold k0_chk21
  exact ⟨fun a => rowFits _ h a, fun a => rowFits _ h a⟩

theorem chk22_of_table (i : grid0.Coords) (arg1 : Memref sig .tc .smem S8192 .i32) (harg1 : arg1.IsWhole)
    (x0 : Vec F S8192 .i32) (hx : ∀ k : S8192.Idx, (x0 k).toNat < 16384) :
    k0_chk22 (arg1.view.readAt (Elt F) (Rect.unit (s := S8192) (k0_off43 i) S1.size (k0_off43_inb i)).toLoadRect (harg1.unread x0) (Shape.Idx.first (numel1_S1.symm ▸ Nat.one_pos))) := by
  have h := word_lt arg1 harg1 x0 hx (k0_off43 i) (k0_off43_inb i) (numel1_S1.symm ▸ Nat.one_pos)
  unfold k0_chk22
  exact ⟨fun a => rowFits _ h a, fun a => rowFits _ h a⟩

theorem chk23_of_table (i : grid0.Coords) (arg1 : Memref sig .tc .smem S8192 .i32) (harg1 : arg1.IsWhole)
    (x0 : Vec F S8192 .i32) (hx : ∀ k : S8192.Idx, (x0 k).toNat < 16384) :
    k0_chk23 (arg1.view.readAt (Elt F) (Rect.unit (s := S8192) (k0_off45 i) S1.size (k0_off45_inb i)).toLoadRect (harg1.unread x0) (Shape.Idx.first (numel1_S1.symm ▸ Nat.one_pos))) := by
  have h := word_lt arg1 harg1 x0 hx (k0_off45 i) (k0_off45_inb i) (numel1_S1.symm ▸ Nat.one_pos)
  unfold k0_chk23
  exact ⟨fun a => rowFits _ h a, fun a => rowFits _ h a⟩

theorem chk24_of_table (i : grid0.Coords) (arg1 : Memref sig .tc .smem S8192 .i32) (harg1 : arg1.IsWhole)
    (x0 : Vec F S8192 .i32) (hx : ∀ k : S8192.Idx, (x0 k).toNat < 16384) :
    k0_chk24 (arg1.view.readAt (Elt F) (Rect.unit (s := S8192) (k0_off47 i) S1.size (k0_off47_inb i)).toLoadRect (harg1.unread x0) (Shape.Idx.first (numel1_S1.symm ▸ Nat.one_pos))) := by
  have h := word_lt arg1 harg1 x0 hx (k0_off47 i) (k0_off47_inb i) (numel1_S1.symm ▸ Nat.one_pos)
  unfold k0_chk24
  exact ⟨fun a => rowFits _ h a, fun a => rowFits _ h a⟩

theorem chk25_of_table (i : grid0.Coords) (arg1 : Memref sig .tc .smem S8192 .i32) (harg1 : arg1.IsWhole)
    (x0 : Vec F S8192 .i32) (hx : ∀ k : S8192.Idx, (x0 k).toNat < 16384) :
    k0_chk25 (arg1.view.readAt (Elt F) (Rect.unit (s := S8192) (k0_off49 i) S1.size (k0_off49_inb i)).toLoadRect (harg1.unread x0) (Shape.Idx.first (numel1_S1.symm ▸ Nat.one_pos))) := by
  have h := word_lt arg1 harg1 x0 hx (k0_off49 i) (k0_off49_inb i) (numel1_S1.symm ▸ Nat.one_pos)
  unfold k0_chk25
  exact ⟨fun a => rowFits _ h a, fun a => rowFits _ h a⟩

theorem chk26_of_table (i : grid0.Coords) (arg1 : Memref sig .tc .smem S8192 .i32) (harg1 : arg1.IsWhole)
    (x0 : Vec F S8192 .i32) (hx : ∀ k : S8192.Idx, (x0 k).toNat < 16384) :
    k0_chk26 (arg1.view.readAt (Elt F) (Rect.unit (s := S8192) (k0_off51 i) S1.size (k0_off51_inb i)).toLoadRect (harg1.unread x0) (Shape.Idx.first (numel1_S1.symm ▸ Nat.one_pos))) := by
  have h := word_lt arg1 harg1 x0 hx (k0_off51 i) (k0_off51_inb i) (numel1_S1.symm ▸ Nat.one_pos)
  unfold k0_chk26
  exact ⟨fun a => rowFits _ h a, fun a => rowFits _ h a⟩

theorem chk27_of_table (i : grid0.Coords) (arg1 : Memref sig .tc .smem S8192 .i32) (harg1 : arg1.IsWhole)
    (x0 : Vec F S8192 .i32) (hx : ∀ k : S8192.Idx, (x0 k).toNat < 16384) :
    k0_chk27 (arg1.view.readAt (Elt F) (Rect.unit (s := S8192) (k0_off53 i) S1.size (k0_off53_inb i)).toLoadRect (harg1.unread x0) (Shape.Idx.first (numel1_S1.symm ▸ Nat.one_pos))) := by
  have h := word_lt arg1 harg1 x0 hx (k0_off53 i) (k0_off53_inb i) (numel1_S1.symm ▸ Nat.one_pos)
  unfold k0_chk27
  exact ⟨fun a => rowFits _ h a, fun a => rowFits _ h a⟩

theorem chk28_of_table (i : grid0.Coords) (arg1 : Memref sig .tc .smem S8192 .i32) (harg1 : arg1.IsWhole)
    (x0 : Vec F S8192 .i32) (hx : ∀ k : S8192.Idx, (x0 k).toNat < 16384) :
    k0_chk28 (arg1.view.readAt (Elt F) (Rect.unit (s := S8192) (k0_off55 i) S1.size (k0_off55_inb i)).toLoadRect (harg1.unread x0) (Shape.Idx.first (numel1_S1.symm ▸ Nat.one_pos))) := by
  have h := word_lt arg1 harg1 x0 hx (k0_off55 i) (k0_off55_inb i) (numel1_S1.symm ▸ Nat.one_pos)
  unfold k0_chk28
  exact ⟨fun a => rowFits _ h a, fun a => rowFits _ h a⟩

theorem chk29_of_table (i : grid0.Coords) (arg1 : Memref sig .tc .smem S8192 .i32) (harg1 : arg1.IsWhole)
    (x0 : Vec F S8192 .i32) (hx : ∀ k : S8192.Idx, (x0 k).toNat < 16384) :
    k0_chk29 (arg1.view.readAt (Elt F) (Rect.unit (s := S8192) (k0_off57 i) S1.size (k0_off57_inb i)).toLoadRect (harg1.unread x0) (Shape.Idx.first (numel1_S1.symm ▸ Nat.one_pos))) := by
  have h := word_lt arg1 harg1 x0 hx (k0_off57 i) (k0_off57_inb i) (numel1_S1.symm ▸ Nat.one_pos)
  unfold k0_chk29
  exact ⟨fun a => rowFits _ h a, fun a => rowFits _ h a⟩

theorem chk30_of_table (i : grid0.Coords) (arg1 : Memref sig .tc .smem S8192 .i32) (harg1 : arg1.IsWhole)
    (x0 : Vec F S8192 .i32) (hx : ∀ k : S8192.Idx, (x0 k).toNat < 16384) :
    k0_chk30 (arg1.view.readAt (Elt F) (Rect.unit (s := S8192) (k0_off59 i) S1.size (k0_off59_inb i)).toLoadRect (harg1.unread x0) (Shape.Idx.first (numel1_S1.symm ▸ Nat.one_pos))) := by
  have h := word_lt arg1 harg1 x0 hx (k0_off59 i) (k0_off59_inb i) (numel1_S1.symm ▸ Nat.one_pos)
  unfold k0_chk30
  exact ⟨fun a => rowFits _ h a, fun a => rowFits _ h a⟩

theorem chk31_of_table (i : grid0.Coords) (arg1 : Memref sig .tc .smem S8192 .i32) (harg1 : arg1.IsWhole)
    (x0 : Vec F S8192 .i32) (hx : ∀ k : S8192.Idx, (x0 k).toNat < 16384) :
    k0_chk31 (arg1.view.readAt (Elt F) (Rect.unit (s := S8192) (k0_off61 i) S1.size (k0_off61_inb i)).toLoadRect (harg1.unread x0) (Shape.Idx.first (numel1_S1.symm ▸ Nat.one_pos))) := by
  have h := word_lt arg1 harg1 x0 hx (k0_off61 i) (k0_off61_inb i) (numel1_S1.symm ▸ Nat.one_pos)
  unfold k0_chk31
  exact ⟨fun a => rowFits _ h a, fun a => rowFits _ h a⟩

theorem chk32_of_table (i : grid0.Coords) (arg1 : Memref sig .tc .smem S8192 .i32) (harg1 : arg1.IsWhole)
    (x0 : Vec F S8192 .i32) (hx : ∀ k : S8192.Idx, (x0 k).toNat < 16384) :
    k0_chk32 (arg1.view.readAt (Elt F) (Rect.unit (s := S8192) (k0_off63 i) S1.size (k0_off63_inb i)).toLoadRect (harg1.unread x0) (Shape.Idx.first (numel1_S1.symm ▸ Nat.one_pos))) := by
  have h := word_lt arg1 harg1 x0 hx (k0_off63 i) (k0_off63_inb i) (numel1_S1.symm ▸ Nat.one_pos)
  unfold k0_chk32
  exact ⟨fun a => rowFits _ h a, fun a => rowFits _ h a⟩

theorem chk33_of_table (i : grid0.Coords) (arg1 : Memref sig .tc .smem S8192 .i32) (harg1 : arg1.IsWhole)
    (x0 : Vec F S8192 .i32) (hx : ∀ k : S8192.Idx, (x0 k).toNat < 16384) :
    k0_chk33 (arg1.view.readAt (Elt F) (Rect.unit (s := S8192) (k0_off65 i) S1.size (k0_off65_inb i)).toLoadRect (harg1.unread x0) (Shape.Idx.first (numel1_S1.symm ▸ Nat.one_pos))) := by
  have h := word_lt arg1 harg1 x0 hx (k0_off65 i) (k0_off65_inb i) (numel1_S1.symm ▸ Nat.one_pos)
  unfold k0_chk33
  exact ⟨fun a => rowFits _ h a, fun a => rowFits _ h a⟩

theorem chk34_of_table (i : grid0.Coords) (arg1 : Memref sig .tc .smem S8192 .i32) (harg1 : arg1.IsWhole)
    (x0 : Vec F S8192 .i32) (hx : ∀ k : S8192.Idx, (x0 k).toNat < 16384) :
    k0_chk34 (arg1.view.readAt (Elt F) (Rect.unit (s := S8192) (k0_off67 i) S1.size (k0_off67_inb i)).toLoadRect (harg1.unread x0) (Shape.Idx.first (numel1_S1.symm ▸ Nat.one_pos))) := by
  have h := word_lt arg1 harg1 x0 hx (k0_off67 i) (k0_off67_inb i) (numel1_S1.symm ▸ Nat.one_pos)
  unfold k0_chk34
  exact ⟨fun a => rowFits _ h a, fun a => rowFits _ h a⟩

theorem chk35_of_table (i : grid0.Coords) (arg1 : Memref sig .tc .smem S8192 .i32) (harg1 : arg1.IsWhole)
    (x0 : Vec F S8192 .i32) (hx : ∀ k : S8192.Idx, (x0 k).toNat < 16384) :
    k0_chk35 (arg1.view.readAt (Elt F) (Rect.unit (s := S8192) (k0_off69 i) S1.size (k0_off69_inb i)).toLoadRect (harg1.unread x0) (Shape.Idx.first (numel1_S1.symm ▸ Nat.one_pos))) := by
  have h := word_lt arg1 harg1 x0 hx (k0_off69 i) (k0_off69_inb i) (numel1_S1.symm ▸ Nat.one_pos)
  unfold k0_chk35
  exact ⟨fun a => rowFits _ h a, fun a => rowFits _ h a⟩

theorem chk36_of_table (i : grid0.Coords) (arg1 : Memref sig .tc .smem S8192 .i32) (harg1 : arg1.IsWhole)
    (x0 : Vec F S8192 .i32) (hx : ∀ k : S8192.Idx, (x0 k).toNat < 16384) :
    k0_chk36 (arg1.view.readAt (Elt F) (Rect.unit (s := S8192) (k0_off71 i) S1.size (k0_off71_inb i)).toLoadRect (harg1.unread x0) (Shape.Idx.first (numel1_S1.symm ▸ Nat.one_pos))) := by
  have h := word_lt arg1 harg1 x0 hx (k0_off71 i) (k0_off71_inb i) (numel1_S1.symm ▸ Nat.one_pos)
  unfold k0_chk36
  exact ⟨fun a => rowFits _ h a, fun a => rowFits _ h a⟩

theorem chk37_of_table (i : grid0.Coords) (arg1 : Memref sig .tc .smem S8192 .i32) (harg1 : arg1.IsWhole)
    (x0 : Vec F S8192 .i32) (hx : ∀ k : S8192.Idx, (x0 k).toNat < 16384) :
    k0_chk37 (arg1.view.readAt (Elt F) (Rect.unit (s := S8192) (k0_off73 i) S1.size (k0_off73_inb i)).toLoadRect (harg1.unread x0) (Shape.Idx.first (numel1_S1.symm ▸ Nat.one_pos))) := by
  have h := word_lt arg1 harg1 x0 hx (k0_off73 i) (k0_off73_inb i) (numel1_S1.symm ▸ Nat.one_pos)
  unfold k0_chk37
  exact ⟨fun a => rowFits _ h a, fun a => rowFits _ h a⟩

theorem chk38_of_table (i : grid0.Coords) (arg1 : Memref sig .tc .smem S8192 .i32) (harg1 : arg1.IsWhole)
    (x0 : Vec F S8192 .i32) (hx : ∀ k : S8192.Idx, (x0 k).toNat < 16384) :
    k0_chk38 (arg1.view.readAt (Elt F) (Rect.unit (s := S8192) (k0_off75 i) S1.size (k0_off75_inb i)).toLoadRect (harg1.unread x0) (Shape.Idx.first (numel1_S1.symm ▸ Nat.one_pos))) := by
  have h := word_lt arg1 harg1 x0 hx (k0_off75 i) (k0_off75_inb i) (numel1_S1.symm ▸ Nat.one_pos)
  unfold k0_chk38
  exact ⟨fun a => rowFits _ h a, fun a => rowFits _ h a⟩

theorem chk39_of_table (i : grid0.Coords) (arg1 : Memref sig .tc .smem S8192 .i32) (harg1 : arg1.IsWhole)
    (x0 : Vec F S8192 .i32) (hx : ∀ k : S8192.Idx, (x0 k).toNat < 16384) :
    k0_chk39 (arg1.view.readAt (Elt F) (Rect.unit (s := S8192) (k0_off77 i) S1.size (k0_off77_inb i)).toLoadRect (harg1.unread x0) (Shape.Idx.first (numel1_S1.symm ▸ Nat.one_pos))) := by
  have h := word_lt arg1 harg1 x0 hx (k0_off77 i) (k0_off77_inb i) (numel1_S1.symm ▸ Nat.one_pos)
  unfold k0_chk39
  exact ⟨fun a => rowFits _ h a, fun a => rowFits _ h a⟩

theorem chk40_of_table (i : grid0.Coords) (arg1 : Memref sig .tc .smem S8192 .i32) (harg1 : arg1.IsWhole)
    (x0 : Vec F S8192 .i32) (hx : ∀ k : S8192.Idx, (x0 k).toNat < 16384) :
    k0_chk40 (arg1.view.readAt (Elt F) (Rect.unit (s := S8192) (k0_off79 i) S1.size (k0_off79_inb i)).toLoadRect (harg1.unread x0) (Shape.Idx.first (numel1_S1.symm ▸ Nat.one_pos))) := by
  have h := word_lt arg1 harg1 x0 hx (k0_off79 i) (k0_off79_inb i) (numel1_S1.symm ▸ Nat.one_pos)
  unfold k0_chk40
  exact ⟨fun a => rowFits _ h a, fun a => rowFits _ h a⟩

theorem chk41_of_table (i : grid0.Coords) (arg1 : Memref sig .tc .smem S8192 .i32) (harg1 : arg1.IsWhole)
    (x0 : Vec F S8192 .i32) (hx : ∀ k : S8192.Idx, (x0 k).toNat < 16384) :
    k0_chk41 (arg1.view.readAt (Elt F) (Rect.unit (s := S8192) (k0_off81 i) S1.size (k0_off81_inb i)).toLoadRect (harg1.unread x0) (Shape.Idx.first (numel1_S1.symm ▸ Nat.one_pos))) := by
  have h := word_lt arg1 harg1 x0 hx (k0_off81 i) (k0_off81_inb i) (numel1_S1.symm ▸ Nat.one_pos)
  unfold k0_chk41
  exact ⟨fun a => rowFits _ h a, fun a => rowFits _ h a⟩

theorem chk42_of_table (i : grid0.Coords) (arg1 : Memref sig .tc .smem S8192 .i32) (harg1 : arg1.IsWhole)
    (x0 : Vec F S8192 .i32) (hx : ∀ k : S8192.Idx, (x0 k).toNat < 16384) :
    k0_chk42 (arg1.view.readAt (Elt F) (Rect.unit (s := S8192) (k0_off83 i) S1.size (k0_off83_inb i)).toLoadRect (harg1.unread x0) (Shape.Idx.first (numel1_S1.symm ▸ Nat.one_pos))) := by
  have h := word_lt arg1 harg1 x0 hx (k0_off83 i) (k0_off83_inb i) (numel1_S1.symm ▸ Nat.one_pos)
  unfold k0_chk42
  exact ⟨fun a => rowFits _ h a, fun a => rowFits _ h a⟩

theorem chk43_of_table (i : grid0.Coords) (arg1 : Memref sig .tc .smem S8192 .i32) (harg1 : arg1.IsWhole)
    (x0 : Vec F S8192 .i32) (hx : ∀ k : S8192.Idx, (x0 k).toNat < 16384) :
    k0_chk43 (arg1.view.readAt (Elt F) (Rect.unit (s := S8192) (k0_off85 i) S1.size (k0_off85_inb i)).toLoadRect (harg1.unread x0) (Shape.Idx.first (numel1_S1.symm ▸ Nat.one_pos))) := by
  have h := word_lt arg1 harg1 x0 hx (k0_off85 i) (k0_off85_inb i) (numel1_S1.symm ▸ Nat.one_pos)
  unfold k0_chk43
  exact ⟨fun a => rowFits _ h a, fun a => rowFits _ h a⟩

theorem chk44_of_table (i : grid0.Coords) (arg1 : Memref sig .tc .smem S8192 .i32) (harg1 : arg1.IsWhole)
    (x0 : Vec F S8192 .i32) (hx : ∀ k : S8192.Idx, (x0 k).toNat < 16384) :
    k0_chk44 (arg1.view.readAt (Elt F) (Rect.unit (s := S8192) (k0_off87 i) S1.size (k0_off87_inb i)).toLoadRect (harg1.unread x0) (Shape.Idx.first (numel1_S1.symm ▸ Nat.one_pos))) := by
  have h := word_lt arg1 harg1 x0 hx (k0_off87 i) (k0_off87_inb i) (numel1_S1.symm ▸ Nat.one_pos)
  unfold k0_chk44
  exact ⟨fun a => rowFits _ h a, fun a => rowFits _ h a⟩

theorem chk45_of_table (i : grid0.Coords) (arg1 : Memref sig .tc .smem S8192 .i32) (harg1 : arg1.IsWhole)
    (x0 : Vec F S8192 .i32) (hx : ∀ k : S8192.Idx, (x0 k).toNat < 16384) :
    k0_chk45 (arg1.view.readAt (Elt F) (Rect.unit (s := S8192) (k0_off89 i) S1.size (k0_off89_inb i)).toLoadRect (harg1.unread x0) (Shape.Idx.first (numel1_S1.symm ▸ Nat.one_pos))) := by
  have h := word_lt arg1 harg1 x0 hx (k0_off89 i) (k0_off89_inb i) (numel1_S1.symm ▸ Nat.one_pos)
  unfold k0_chk45
  exact ⟨fun a => rowFits _ h a, fun a => rowFits _ h a⟩

theorem chk46_of_table (i : grid0.Coords) (arg1 : Memref sig .tc .smem S8192 .i32) (harg1 : arg1.IsWhole)
    (x0 : Vec F S8192 .i32) (hx : ∀ k : S8192.Idx, (x0 k).toNat < 16384) :
    k0_chk46 (arg1.view.readAt (Elt F) (Rect.unit (s := S8192) (k0_off91 i) S1.size (k0_off91_inb i)).toLoadRect (harg1.unread x0) (Shape.Idx.first (numel1_S1.symm ▸ Nat.one_pos))) := by
  have h := word_lt arg1 harg1 x0 hx (k0_off91 i) (k0_off91_inb i) (numel1_S1.symm ▸ Nat.one_pos)
  unfold k0_chk46
  exact ⟨fun a => rowFits _ h a, fun a => rowFits _ h a⟩

theorem chk47_of_table (i : grid0.Coords) (arg1 : Memref sig .tc .smem S8192 .i32) (harg1 : arg1.IsWhole)
    (x0 : Vec F S8192 .i32) (hx : ∀ k : S8192.Idx, (x0 k).toNat < 16384) :
    k0_chk47 (arg1.view.readAt (Elt F) (Rect.unit (s := S8192) (k0_off93 i) S1.size (k0_off93_inb i)).toLoadRect (harg1.unread x0) (Shape.Idx.first (numel1_S1.symm ▸ Nat.one_pos))) := by
  have h := word_lt arg1 harg1 x0 hx (k0_off93 i) (k0_off93_inb i) (numel1_S1.symm ▸ Nat.one_pos)
  unfold k0_chk47
  exact ⟨fun a => rowFits _ h a, fun a => rowFits _ h a⟩

theorem chk48_of_table (i : grid0.Coords) (arg1 : Memref sig .tc .smem S8192 .i32) (harg1 : arg1.IsWhole)
    (x0 : Vec F S8192 .i32) (hx : ∀ k : S8192.Idx, (x0 k).toNat < 16384) :
    k0_chk48 (arg1.view.readAt (Elt F) (Rect.unit (s := S8192) (k0_off95 i) S1.size (k0_off95_inb i)).toLoadRect (harg1.unread x0) (Shape.Idx.first (numel1_S1.symm ▸ Nat.one_pos))) := by
  have h := word_lt arg1 harg1 x0 hx (k0_off95 i) (k0_off95_inb i) (numel1_S1.symm ▸ Nat.one_pos)
  unfold k0_chk48
  exact ⟨fun a => rowFits _ h a, fun a => rowFits _ h a⟩

theorem chk49_of_table (i : grid0.Coords) (arg1 : Memref sig .tc .smem S8192 .i32) (harg1 : arg1.IsWhole)
    (x0 : Vec F S8192 .i32) (hx : ∀ k : S8192.Idx, (x0 k).toNat < 16384) :
    k0_chk49 (arg1.view.readAt (Elt F) (Rect.unit (s := S8192) (k0_off97 i) S1.size (k0_off97_inb i)).toLoadRect (harg1.unread x0) (Shape.Idx.first (numel1_S1.symm ▸ Nat.one_pos))) := by
  have h := word_lt arg1 harg1 x0 hx (k0_off97 i) (k0_off97_inb i) (numel1_S1.symm ▸ Nat.one_pos)
  unfold k0_chk49
  exact ⟨fun a => rowFits _ h a, fun a => rowFits _ h a⟩

theorem chk50_of_table (i : grid0.Coords) (arg1 : Memref sig .tc .smem S8192 .i32) (harg1 : arg1.IsWhole)
    (x0 : Vec F S8192 .i32) (hx : ∀ k : S8192.Idx, (x0 k).toNat < 16384) :
    k0_chk50 (arg1.view.readAt (Elt F) (Rect.unit (s := S8192) (k0_off99 i) S1.size (k0_off99_inb i)).toLoadRect (harg1.unread x0) (Shape.Idx.first (numel1_S1.symm ▸ Nat.one_pos))) := by
  have h := word_lt arg1 harg1 x0 hx (k0_off99 i) (k0_off99_inb i) (numel1_S1.symm ▸ Nat.one_pos)
  unfold k0_chk50
  exact ⟨fun a => rowFits _ h a, fun a => rowFits _ h a⟩

theorem chk51_of_table (i : grid0.Coords) (arg1 : Memref sig .tc .smem S8192 .i32) (harg1 : arg1.IsWhole)
    (x0 : Vec F S8192 .i32) (hx : ∀ k : S8192.Idx, (x0 k).toNat < 16384) :
    k0_chk51 (arg1.view.readAt (Elt F) (Rect.unit (s := S8192) (k0_off101 i) S1.size (k0_off101_inb i)).toLoadRect (harg1.unread x0) (Shape.Idx.first (numel1_S1.symm ▸ Nat.one_pos))) := by
  have h := word_lt arg1 harg1 x0 hx (k0_off101 i) (k0_off101_inb i) (numel1_S1.symm ▸ Nat.one_pos)
  unfold k0_chk51
  exact ⟨fun a => rowFits _ h a, fun a => rowFits _ h a⟩

theorem chk52_of_table (i : grid0.Coords) (arg1 : Memref sig .tc .smem S8192 .i32) (harg1 : arg1.IsWhole)
    (x0 : Vec F S8192 .i32) (hx : ∀ k : S8192.Idx, (x0 k).toNat < 16384) :
    k0_chk52 (arg1.view.readAt (Elt F) (Rect.unit (s := S8192) (k0_off103 i) S1.size (k0_off103_inb i)).toLoadRect (harg1.unread x0) (Shape.Idx.first (numel1_S1.symm ▸ Nat.one_pos))) := by
  have h := word_lt arg1 harg1 x0 hx (k0_off103 i) (k0_off103_inb i) (numel1_S1.symm ▸ Nat.one_pos)
  unfold k0_chk52
  exact ⟨fun a => rowFits _ h a, fun a => rowFits _ h a⟩

theorem chk53_of_table (i : grid0.Coords) (arg1 : Memref sig .tc .smem S8192 .i32) (harg1 : arg1.IsWhole)
    (x0 : Vec F S8192 .i32) (hx : ∀ k : S8192.Idx, (x0 k).toNat < 16384) :
    k0_chk53 (arg1.view.readAt (Elt F) (Rect.unit (s := S8192) (k0_off105 i) S1.size (k0_off105_inb i)).toLoadRect (harg1.unread x0) (Shape.Idx.first (numel1_S1.symm ▸ Nat.one_pos))) := by
  have h := word_lt arg1 harg1 x0 hx (k0_off105 i) (k0_off105_inb i) (numel1_S1.symm ▸ Nat.one_pos)
  unfold k0_chk53
  exact ⟨fun a => rowFits _ h a, fun a => rowFits _ h a⟩

theorem chk54_of_table (i : grid0.Coords) (arg1 : Memref sig .tc .smem S8192 .i32) (harg1 : arg1.IsWhole)
    (x0 : Vec F S8192 .i32) (hx : ∀ k : S8192.Idx, (x0 k).toNat < 16384) :
    k0_chk54 (arg1.view.readAt (Elt F) (Rect.unit (s := S8192) (k0_off107 i) S1.size (k0_off107_inb i)).toLoadRect (harg1.unread x0) (Shape.Idx.first (numel1_S1.symm ▸ Nat.one_pos))) := by
  have h := word_lt arg1 harg1 x0 hx (k0_off107 i) (k0_off107_inb i) (numel1_S1.symm ▸ Nat.one_pos)
  unfold k0_chk54
  exact ⟨fun a => rowFits _ h a, fun a => rowFits _ h a⟩

theorem chk55_of_table (i : grid0.Coords) (arg1 : Memref sig .tc .smem S8192 .i32) (harg1 : arg1.IsWhole)
    (x0 : Vec F S8192 .i32) (hx : ∀ k : S8192.Idx, (x0 k).toNat < 16384) :
    k0_chk55 (arg1.view.readAt (Elt F) (Rect.unit (s := S8192) (k0_off109 i) S1.size (k0_off109_inb i)).toLoadRect (harg1.unread x0) (Shape.Idx.first (numel1_S1.symm ▸ Nat.one_pos))) := by
  have h := word_lt arg1 harg1 x0 hx (k0_off109 i) (k0_off109_inb i) (numel1_S1.symm ▸ Nat.one_pos)
  unfold k0_chk55
  exact ⟨fun a => rowFits _ h a, fun a => rowFits _ h a⟩

theorem chk56_of_table (i : grid0.Coords) (arg1 : Memref sig .tc .smem S8192 .i32) (harg1 : arg1.IsWhole)
    (x0 : Vec F S8192 .i32) (hx : ∀ k : S8192.Idx, (x0 k).toNat < 16384) :
    k0_chk56 (arg1.view.readAt (Elt F) (Rect.unit (s := S8192) (k0_off111 i) S1.size (k0_off111_inb i)).toLoadRect (harg1.unread x0) (Shape.Idx.first (numel1_S1.symm ▸ Nat.one_pos))) := by
  have h := word_lt arg1 harg1 x0 hx (k0_off111 i) (k0_off111_inb i) (numel1_S1.symm ▸ Nat.one_pos)
  unfold k0_chk56
  exact ⟨fun a => rowFits _ h a, fun a => rowFits _ h a⟩

theorem chk57_of_table (i : grid0.Coords) (arg1 : Memref sig .tc .smem S8192 .i32) (harg1 : arg1.IsWhole)
    (x0 : Vec F S8192 .i32) (hx : ∀ k : S8192.Idx, (x0 k).toNat < 16384) :
    k0_chk57 (arg1.view.readAt (Elt F) (Rect.unit (s := S8192) (k0_off113 i) S1.size (k0_off113_inb i)).toLoadRect (harg1.unread x0) (Shape.Idx.first (numel1_S1.symm ▸ Nat.one_pos))) := by
  have h := word_lt arg1 harg1 x0 hx (k0_off113 i) (k0_off113_inb i) (numel1_S1.symm ▸ Nat.one_pos)
  unfold k0_chk57
  exact ⟨fun a => rowFits _ h a, fun a => rowFits _ h a⟩

theorem chk58_of_table (i : grid0.Coords) (arg1 : Memref sig .tc .smem S8192 .i32) (harg1 : arg1.IsWhole)
    (x0 : Vec F S8192 .i32) (hx : ∀ k : S8192.Idx, (x0 k).toNat < 16384) :
    k0_chk58 (arg1.view.readAt (Elt F) (Rect.unit (s := S8192) (k0_off115 i) S1.size (k0_off115_inb i)).toLoadRect (harg1.unread x0) (Shape.Idx.first (numel1_S1.symm ▸ Nat.one_pos))) := by
  have h := word_lt arg1 harg1 x0 hx (k0_off115 i) (k0_off115_inb i) (numel1_S1.symm ▸ Nat.one_pos)
  unfold k0_chk58
  exact ⟨fun a => rowFits _ h a, fun a => rowFits _ h a⟩

theorem chk59_of_table (i : grid0.Coords) (arg1 : Memref sig .tc .smem S8192 .i32) (harg1 : arg1.IsWhole)
    (x0 : Vec F S8192 .i32) (hx : ∀ k : S8192.Idx, (x0 k).toNat < 16384) :
    k0_chk59 (arg1.view.readAt (Elt F) (Rect.unit (s := S8192) (k0_off117 i) S1.size (k0_off117_inb i)).toLoadRect (harg1.unread x0) (Shape.Idx.first (numel1_S1.symm ▸ Nat.one_pos))) := by
  have h := word_lt arg1 harg1 x0 hx (k0_off117 i) (k0_off117_inb i) (numel1_S1.symm ▸ Nat.one_pos)
  unfold k0_chk59
  exact ⟨fun a => rowFits _ h a, fun a => rowFits _ h a⟩

theorem chk60_of_table (i : grid0.Coords) (arg1 : Memref sig .tc .smem S8192 .i32) (harg1 : arg1.IsWhole)
    (x0 : Vec F S8192 .i32) (hx : ∀ k : S8192.Idx, (x0 k).toNat < 16384) :
    k0_chk60 (arg1.view.readAt (Elt F) (Rect.unit (s := S8192) (k0_off119 i) S1.size (k0_off119_inb i)).toLoadRect (harg1.unread x0) (Shape.Idx.first (numel1_S1.symm ▸ Nat.one_pos))) := by
  have h := word_lt arg1 harg1 x0 hx (k0_off119 i) (k0_off119_inb i) (numel1_S1.symm ▸ Nat.one_pos)
  unfold k0_chk60
  exact ⟨fun a => rowFits _ h a, fun a => rowFits _ h a⟩

theorem chk61_of_table (i : grid0.Coords) (arg1 : Memref sig .tc .smem S8192 .i32) (harg1 : arg1.IsWhole)
    (x0 : Vec F S8192 .i32) (hx : ∀ k : S8192.Idx, (x0 k).toNat < 16384) :
    k0_chk61 (arg1.view.readAt (Elt F) (Rect.unit (s := S8192) (k0_off121 i) S1.size (k0_off121_inb i)).toLoadRect (harg1.unread x0) (Shape.Idx.first (numel1_S1.symm ▸ Nat.one_pos))) := by
  have h := word_lt arg1 harg1 x0 hx (k0_off121 i) (k0_off121_inb i) (numel1_S1.symm ▸ Nat.one_pos)
  unfold k0_chk61
  exact ⟨fun a => rowFits _ h a, fun a => rowFits _ h a⟩

theorem chk62_of_table (i : grid0.Coords) (arg1 : Memref sig .tc .smem S8192 .i32) (harg1 : arg1.IsWhole)
    (x0 : Vec F S8192 .i32) (hx : ∀ k : S8192.Idx, (x0 k).toNat < 16384) :
    k0_chk62 (arg1.view.readAt (Elt F) (Rect.unit (s := S8192) (k0_off123 i) S1.size (k0_off123_inb i)).toLoadRect (harg1.unread x0) (Shape.Idx.first (numel1_S1.symm ▸ Nat.one_pos))) := by
  have h := word_lt arg1 harg1 x0 hx (k0_off123 i) (k0_off123_inb i) (numel1_S1.symm ▸ Nat.one_pos)
  unfold k0_chk62
  exact ⟨fun a => rowFits _ h a, fun a => rowFits _ h a⟩

theorem chk63_of_table (i : grid0.Coords) (arg1 : Memref sig .tc .smem S8192 .i32) (harg1 : arg1.IsWhole)
    (x0 : Vec F S8192 .i32) (hx : ∀ k : S8192.Idx, (x0 k).toNat < 16384) :
    k0_chk63 (arg1.view.readAt (Elt F) (Rect.unit (s := S8192) (k0_off125 i) S1.size (k0_off125_inb i)).toLoadRect (harg1.unread x0) (Shape.Idx.first (numel1_S1.symm ▸ Nat.one_pos))) := by
  have h := word_lt arg1 harg1 x0 hx (k0_off125 i) (k0_off125_inb i) (numel1_S1.symm ▸ Nat.one_pos)
  unfold k0_chk63
  exact ⟨fun a => rowFits _ h a, fun a => rowFits _ h a⟩

theorem chk64_of_table (i : grid0.Coords) (arg1 : Memref sig .tc .smem S8192 .i32) (harg1 : arg1.IsWhole)
    (x0 : Vec F S8192 .i32) (hx : ∀ k : S8192.Idx, (x0 k).toNat < 16384) :
    k0_chk64 (arg1.view.readAt (Elt F) (Rect.unit (s := S8192) (k0_off127 i) S1.size (k0_off127_inb i)).toLoadRect (harg1.unread x0) (Shape.Idx.first (numel1_S1.symm ▸ Nat.one_pos))) := by
  have h := word_lt arg1 harg1 x0 hx (k0_off127 i) (k0_off127_inb i) (numel1_S1.symm ▸ Nat.one_pos)
  unfold k0_chk64
  exact ⟨fun a => rowFits _ h a, fun a => rowFits _ h a⟩

theorem chk65_of_table (i : grid0.Coords) (arg1 : Memref sig .tc .smem S8192 .i32) (harg1 : arg1.IsWhole)
    (x0 : Vec F S8192 .i32) (hx : ∀ k : S8192.Idx, (x0 k).toNat < 16384) :
    k0_chk65 (arg1.view.readAt (Elt F) (Rect.unit (s := S8192) (k0_off129 i) S1.size (k0_off129_inb i)).toLoadRect (harg1.unread x0) (Shape.Idx.first (numel1_S1.symm ▸ Nat.one_pos))) := by
  have h := word_lt arg1 harg1 x0 hx (k0_off129 i) (k0_off129_inb i) (numel1_S1.symm ▸ Nat.one_pos)
  unfold k0_chk65
  exact ⟨fun a => rowFits _ h a, fun a => rowFits _ h a⟩

theorem chk66_of_table (i : grid0.Coords) (arg1 : Memref sig .tc .smem S8192 .i32) (harg1 : arg1.IsWhole)
    (x0 : Vec F S8192 .i32) (hx : ∀ k : S8192.Idx, (x0 k).toNat < 16384) :
    k0_chk66 (arg1.view.readAt (Elt F) (Rect.unit (s := S8192) (k0_off131 i) S1.size (k0_off131_inb i)).toLoadRect (harg1.unread x0) (Shape.Idx.first (numel1_S1.symm ▸ Nat.one_pos))) := by
  have h := word_lt arg1 harg1 x0 hx (k0_off131 i) (k0_off131_inb i) (numel1_S1.symm ▸ Nat.one_pos)
  unfold k0_chk66
  exact ⟨fun a => rowFits _ h a, fun a => rowFits _ h a⟩

theorem chk67_of_table (i : grid0.Coords) (arg1 : Memref sig .tc .smem S8192 .i32) (harg1 : arg1.IsWhole)
    (x0 : Vec F S8192 .i32) (hx : ∀ k : S8192.Idx, (x0 k).toNat < 16384) :
    k0_chk67 (arg1.view.readAt (Elt F) (Rect.unit (s := S8192) (k0_off133 i) S1.size (k0_off133_inb i)).toLoadRect (harg1.unread x0) (Shape.Idx.first (numel1_S1.symm ▸ Nat.one_pos))) := by
  have h := word_lt arg1 harg1 x0 hx (k0_off133 i) (k0_off133_inb i) (numel1_S1.symm ▸ Nat.one_pos)
  unfold k0_chk67
  exact ⟨fun a => rowFits _ h a, fun a => rowFits _ h a⟩

theorem chk68_of_table (i : grid0.Coords) (arg1 : Memref sig .tc .smem S8192 .i32) (harg1 : arg1.IsWhole)
    (x0 : Vec F S8192 .i32) (hx : ∀ k : S8192.Idx, (x0 k).toNat < 16384) :
    k0_chk68 (arg1.view.readAt (Elt F) (Rect.unit (s := S8192) (k0_off135 i) S1.size (k0_off135_inb i)).toLoadRect (harg1.unread x0) (Shape.Idx.first (numel1_S1.symm ▸ Nat.one_pos))) := by
  have h := word_lt arg1 harg1 x0 hx (k0_off135 i) (k0_off135_inb i) (numel1_S1.symm ▸ Nat.one_pos)
  unfold k0_chk68
  exact ⟨fun a => rowFits _ h a, fun a => rowFits _ h a⟩

theorem chk69_of_table (i : grid0.Coords) (arg1 : Memref sig .tc .smem S8192 .i32) (harg1 : arg1.IsWhole)
    (x0 : Vec F S8192 .i32) (hx : ∀ k : S8192.Idx, (x0 k).toNat < 16384) :
    k0_chk69 (arg1.view.readAt (Elt F) (Rect.unit (s := S8192) (k0_off137 i) S1.size (k0_off137_inb i)).toLoadRect (harg1.unread x0) (Shape.Idx.first (numel1_S1.symm ▸ Nat.one_pos))) := by
  have h := word_lt arg1 harg1 x0 hx (k0_off137 i) (k0_off137_inb i) (numel1_S1.symm ▸ Nat.one_pos)
  unfold k0_chk69
  exact ⟨fun a => rowFits _ h a, fun a => rowFits _ h a⟩

theorem chk70_of_table (i : grid0.Coords) (arg1 : Memref sig .tc .smem S8192 .i32) (harg1 : arg1.IsWhole)
    (x0 : Vec F S8192 .i32) (hx : ∀ k : S8192.Idx, (x0 k).toNat < 16384) :
    k0_chk70 (arg1.view.readAt (Elt F) (Rect.unit (s := S8192) (k0_off139 i) S1.size (k0_off139_inb i)).toLoadRect (harg1.unread x0) (Shape.Idx.first (numel1_S1.symm ▸ Nat.one_pos))) := by
  have h := word_lt arg1 harg1 x0 hx (k0_off139 i) (k0_off139_inb i) (numel1_S1.symm ▸ Nat.one_pos)
  unfold k0_chk70
  exact ⟨fun a => rowFits _ h a, fun a => rowFits _ h a⟩

theorem chk71_of_table (i : grid0.Coords) (arg1 : Memref sig .tc .smem S8192 .i32) (harg1 : arg1.IsWhole)
    (x0 : Vec F S8192 .i32) (hx : ∀ k : S8192.Idx, (x0 k).toNat < 16384) :
    k0_chk71 (arg1.view.readAt (Elt F) (Rect.unit (s := S8192) (k0_off141 i) S1.size (k0_off141_inb i)).toLoadRect (harg1.unread x0) (Shape.Idx.first (numel1_S1.symm ▸ Nat.one_pos))) := by
  have h := word_lt arg1 harg1 x0 hx (k0_off141 i) (k0_off141_inb i) (numel1_S1.symm ▸ Nat.one_pos)
  unfold k0_chk71
  exact ⟨fun a => rowFits _ h a, fun a => rowFits _ h a⟩

theorem chk72_of_table (i : grid0.Coords) (arg1 : Memref sig .tc .smem S8192 .i32) (harg1 : arg1.IsWhole)
    (x0 : Vec F S8192 .i32) (hx : ∀ k : S8192.Idx, (x0 k).toNat < 16384) :
    k0_chk72 (arg1.view.readAt (Elt F) (Rect.unit (s := S8192) (k0_off143 i) S1.size (k0_off143_inb i)).toLoadRect (harg1.unread x0) (Shape.Idx.first (numel1_S1.symm ▸ Nat.one_pos))) := by
  have h := word_lt arg1 harg1 x0 hx (k0_off143 i) (k0_off143_inb i) (numel1_S1.symm ▸ Nat.one_pos)
  unfold k0_chk72
  exact ⟨fun a => rowFits _ h a, fun a => rowFits _ h a⟩

theorem chk73_of_table (i : grid0.Coords) (arg1 : Memref sig .tc .smem S8192 .i32) (harg1 : arg1.IsWhole)
    (x0 : Vec F S8192 .i32) (hx : ∀ k : S8192.Idx, (x0 k).toNat < 16384) :
    k0_chk73 (arg1.view.readAt (Elt F) (Rect.unit (s := S8192) (k0_off145 i) S1.size (k0_off145_inb i)).toLoadRect (harg1.unread x0) (Shape.Idx.first (numel1_S1.symm ▸ Nat.one_pos))) := by
  have h := word_lt arg1 harg1 x0 hx (k0_off145 i) (k0_off145_inb i) (numel1_S1.symm ▸ Nat.one_pos)
  unfold k0_chk73
  exact ⟨fun a => rowFits _ h a, fun a => rowFits _ h a⟩

theorem chk74_of_table (i : grid0.Coords) (arg1 : Memref sig .tc .smem S8192 .i32) (harg1 : arg1.IsWhole)
    (x0 : Vec F S8192 .i32) (hx : ∀ k : S8192.Idx, (x0 k).toNat < 16384) :
    k0_chk74 (arg1.view.readAt (Elt F) (Rect.unit (s := S8192) (k0_off147 i) S1.size (k0_off147_inb i)).toLoadRect (harg1.unread x0) (Shape.Idx.first (numel1_S1.symm ▸ Nat.one_pos))) := by
  have h := word_lt arg1 harg1 x0 hx (k0_off147 i) (k0_off147_inb i) (numel1_S1.symm ▸ Nat.one_pos)
  unfold k0_chk74
  exact ⟨fun a => rowFits _ h a, fun a => rowFits _ h a⟩

theorem chk75_of_table (i : grid0.Coords) (arg1 : Memref sig .tc .smem S8192 .i32) (harg1 : arg1.IsWhole)
    (x0 : Vec F S8192 .i32) (hx : ∀ k : S8192.Idx, (x0 k).toNat < 16384) :
    k0_chk75 (arg1.view.readAt (Elt F) (Rect.unit (s := S8192) (k0_off149 i) S1.size (k0_off149_inb i)).toLoadRect (harg1.unread x0) (Shape.Idx.first (numel1_S1.symm ▸ Nat.one_pos))) := by
  have h := word_lt arg1 harg1 x0 hx (k0_off149 i) (k0_off149_inb i) (numel1_S1.symm ▸ Nat.one_pos)
  unfold k0_chk75
  exact ⟨fun a => rowFits _ h a, fun a => rowFits _ h a⟩

theorem chk76_of_table (i : grid0.Coords) (arg1 : Memref sig .tc .smem S8192 .i32) (harg1 : arg1.IsWhole)
    (x0 : Vec F S8192 .i32) (hx : ∀ k : S8192.Idx, (x0 k).toNat < 16384) :
    k0_chk76 (arg1.view.readAt (Elt F) (Rect.unit (s := S8192) (k0_off151 i) S1.size (k0_off151_inb i)).toLoadRect (harg1.unread x0) (Shape.Idx.first (numel1_S1.symm ▸ Nat.one_pos))) := by
  have h := word_lt arg1 harg1 x0 hx (k0_off151 i) (k0_off151_inb i) (numel1_S1.symm ▸ Nat.one_pos)
  unfold k0_chk76
  exact ⟨fun a => rowFits _ h a, fun a => rowFits _ h a⟩

theorem chk77_of_table (i : grid0.Coords) (arg1 : Memref sig .tc .smem S8192 .i32) (harg1 : arg1.IsWhole)
    (x0 : Vec F S8192 .i32) (hx : ∀ k : S8192.Idx, (x0 k).toNat < 16384) :
    k0_chk77 (arg1.view.readAt (Elt F) (Rect.unit (s := S8192) (k0_off153 i) S1.size (k0_off153_inb i)).toLoadRect (harg1.unread x0) (Shape.Idx.first (numel1_S1.symm ▸ Nat.one_pos))) := by
  have h := word_lt arg1 harg1 x0 hx (k0_off153 i) (k0_off153_inb i) (numel1_S1.symm ▸ Nat.one_pos)
  unfold k0_chk77
  exact ⟨fun a => rowFits _ h a, fun a => rowFits _ h a⟩

theorem chk78_of_table (i : grid0.Coords) (arg1 : Memref sig .tc .smem S8192 .i32) (harg1 : arg1.IsWhole)
    (x0 : Vec F S8192 .i32) (hx : ∀ k : S8192.Idx, (x0 k).toNat < 16384) :
    k0_chk78 (arg1.view.readAt (Elt F) (Rect.unit (s := S8192) (k0_off155 i) S1.size (k0_off155_inb i)).toLoadRect (harg1.unread x0) (Shape.Idx.first (numel1_S1.symm ▸ Nat.one_pos))) := by
  have h := word_lt arg1 harg1 x0 hx (k0_off155 i) (k0_off155_inb i) (numel1_S1.symm ▸ Nat.one_pos)
  unfold k0_chk78
  exact ⟨fun a => rowFits _ h a, fun a => rowFits _ h a⟩

theorem chk79_of_table (i : grid0.Coords) (arg1 : Memref sig .tc .smem S8192 .i32) (harg1 : arg1.IsWhole)
    (x0 : Vec F S8192 .i32) (hx : ∀ k : S8192.Idx, (x0 k).toNat < 16384) :
    k0_chk79 (arg1.view.readAt (Elt F) (Rect.unit (s := S8192) (k0_off157 i) S1.size (k0_off157_inb i)).toLoadRect (harg1.unread x0) (Shape.Idx.first (numel1_S1.symm ▸ Nat.one_pos))) := by
  have h := word_lt arg1 harg1 x0 hx (k0_off157 i) (k0_off157_inb i) (numel1_S1.symm ▸ Nat.one_pos)
  unfold k0_chk79
  exact ⟨fun a => rowFits _ h a, fun a => rowFits _ h a⟩

theorem chk80_of_table (i : grid0.Coords) (arg1 : Memref sig .tc .smem S8192 .i32) (harg1 : arg1.IsWhole)
    (x0 : Vec F S8192 .i32) (hx : ∀ k : S8192.Idx, (x0 k).toNat < 16384) :
    k0_chk80 (arg1.view.readAt (Elt F) (Rect.unit (s := S8192) (k0_off159 i) S1.size (k0_off159_inb i)).toLoadRect (harg1.unread x0) (Shape.Idx.first (numel1_S1.symm ▸ Nat.one_pos))) := by
  have h := word_lt arg1 harg1 x0 hx (k0_off159 i) (k0_off159_inb i) (numel1_S1.symm ▸ Nat.one_pos)
  unfold k0_chk80
  exact ⟨fun a => rowFits _ h a, fun a => rowFits _ h a⟩

theorem chk81_of_table (i : grid0.Coords) (arg1 : Memref sig .tc .smem S8192 .i32) (harg1 : arg1.IsWhole)
    (x0 : Vec F S8192 .i32) (hx : ∀ k : S8192.Idx, (x0 k).toNat < 16384) :
    k0_chk81 (arg1.view.readAt (Elt F) (Rect.unit (s := S8192) (k0_off161 i) S1.size (k0_off161_inb i)).toLoadRect (harg1.unread x0) (Shape.Idx.first (numel1_S1.symm ▸ Nat.one_pos))) := by
  have h := word_lt arg1 harg1 x0 hx (k0_off161 i) (k0_off161_inb i) (numel1_S1.symm ▸ Nat.one_pos)
  unfold k0_chk81
  exact ⟨fun a => rowFits _ h a, fun a => rowFits _ h a⟩

theorem chk82_of_table (i : grid0.Coords) (arg1 : Memref sig .tc .smem S8192 .i32) (harg1 : arg1.IsWhole)
    (x0 : Vec F S8192 .i32) (hx : ∀ k : S8192.Idx, (x0 k).toNat < 16384) :
    k0_chk82 (arg1.view.readAt (Elt F) (Rect.unit (s := S8192) (k0_off163 i) S1.size (k0_off163_inb i)).toLoadRect (harg1.unread x0) (Shape.Idx.first (numel1_S1.symm ▸ Nat.one_pos))) := by
  have h := word_lt arg1 harg1 x0 hx (k0_off163 i) (k0_off163_inb i) (numel1_S1.symm ▸ Nat.one_pos)
  unfold k0_chk82
  exact ⟨fun a => rowFits _ h a, fun a => rowFits _ h a⟩

theorem chk83_of_table (i : grid0.Coords) (arg1 : Memref sig .tc .smem S8192 .i32) (harg1 : arg1.IsWhole)
    (x0 : Vec F S8192 .i32) (hx : ∀ k : S8192.Idx, (x0 k).toNat < 16384) :
    k0_chk83 (arg1.view.readAt (Elt F) (Rect.unit (s := S8192) (k0_off165 i) S1.size (k0_off165_inb i)).toLoadRect (harg1.unread x0) (Shape.Idx.first (numel1_S1.symm ▸ Nat.one_pos))) := by
  have h := word_lt arg1 harg1 x0 hx (k0_off165 i) (k0_off165_inb i) (numel1_S1.symm ▸ Nat.one_pos)
  unfold k0_chk83
  exact ⟨fun a => rowFits _ h a, fun a => rowFits _ h a⟩

theorem chk84_of_table (i : grid0.Coords) (arg1 : Memref sig .tc .smem S8192 .i32) (harg1 : arg1.IsWhole)
    (x0 : Vec F S8192 .i32) (hx : ∀ k : S8192.Idx, (x0 k).toNat < 16384) :
    k0_chk84 (arg1.view.readAt (Elt F) (Rect.unit (s := S8192) (k0_off167 i) S1.size (k0_off167_inb i)).toLoadRect (harg1.unread x0) (Shape.Idx.first (numel1_S1.symm ▸ Nat.one_pos))) := by
  have h := word_lt arg1 harg1 x0 hx (k0_off167 i) (k0_off167_inb i) (numel1_S1.symm ▸ Nat.one_pos)
  unfold k0_chk84
  exact ⟨fun a => rowFits _ h a, fun a => rowFits _ h a⟩

theorem chk85_of_table (i : grid0.Coords) (arg1 : Memref sig .tc .smem S8192 .i32) (harg1 : arg1.IsWhole)
    (x0 : Vec F S8192 .i32) (hx : ∀ k : S8192.Idx, (x0 k).toNat < 16384) :
    k0_chk85 (arg1.view.readAt (Elt F) (Rect.unit (s := S8192) (k0_off169 i) S1.size (k0_off169_inb i)).toLoadRect (harg1.unread x0) (Shape.Idx.first (numel1_S1.symm ▸ Nat.one_pos))) := by
  have h := word_lt arg1 harg1 x0 hx (k0_off169 i) (k0_off169_inb i) (numel1_S1.symm ▸ Nat.one_pos)
  unfold k0_chk85
  exact ⟨fun a => rowFits _ h a, fun a => rowFits _ h a⟩

theorem chk86_of_table (i : grid0.Coords) (arg1 : Memref sig .tc .smem S8192 .i32) (harg1 : arg1.IsWhole)
    (x0 : Vec F S8192 .i32) (hx : ∀ k : S8192.Idx, (x0 k).toNat < 16384) :
    k0_chk86 (arg1.view.readAt (Elt F) (Rect.unit (s := S8192) (k0_off171 i) S1.size (k0_off171_inb i)).toLoadRect (harg1.unread x0) (Shape.Idx.first (numel1_S1.symm ▸ Nat.one_pos))) := by
  have h := word_lt arg1 harg1 x0 hx (k0_off171 i) (k0_off171_inb i) (numel1_S1.symm ▸ Nat.one_pos)
  unfold k0_chk86
  exact ⟨fun a => rowFits _ h a, fun a => rowFits _ h a⟩

theorem chk87_of_table (i : grid0.Coords) (arg1 : Memref sig .tc .smem S8192 .i32) (harg1 : arg1.IsWhole)
    (x0 : Vec F S8192 .i32) (hx : ∀ k : S8192.Idx, (x0 k).toNat < 16384) :
    k0_chk87 (arg1.view.readAt (Elt F) (Rect.unit (s := S8192) (k0_off173 i) S1.size (k0_off173_inb i)).toLoadRect (harg1.unread x0) (Shape.Idx.first (numel1_S1.symm ▸ Nat.one_pos))) := by
  have h := word_lt arg1 harg1 x0 hx (k0_off173 i) (k0_off173_inb i) (numel1_S1.symm ▸ Nat.one_pos)
  unfold k0_chk87
  exact ⟨fun a => rowFits _ h a, fun a => rowFits _ h a⟩

theorem chk88_of_table (i : grid0.Coords) (arg1 : Memref sig .tc .smem S8192 .i32) (harg1 : arg1.IsWhole)
    (x0 : Vec F S8192 .i32) (hx : ∀ k : S8192.Idx, (x0 k).toNat < 16384) :
    k0_chk88 (arg1.view.readAt (Elt F) (Rect.unit (s := S8192) (k0_off175 i) S1.size (k0_off175_inb i)).toLoadRect (harg1.unread x0) (Shape.Idx.first (numel1_S1.symm ▸ Nat.one_pos))) := by
  have h := word_lt arg1 harg1 x0 hx (k0_off175 i) (k0_off175_inb i) (numel1_S1.symm ▸ Nat.one_pos)
  unfold k0_chk88
  exact ⟨fun a => rowFits _ h a, fun a => rowFits _ h a⟩

theorem chk89_of_table (i : grid0.Coords) (arg1 : Memref sig .tc .smem S8192 .i32) (harg1 : arg1.IsWhole)
    (x0 : Vec F S8192 .i32) (hx : ∀ k : S8192.Idx, (x0 k).toNat < 16384) :
    k0_chk89 (arg1.view.readAt (Elt F) (Rect.unit (s := S8192) (k0_off177 i) S1.size (k0_off177_inb i)).toLoadRect (harg1.unread x0) (Shape.Idx.first (numel1_S1.symm ▸ Nat.one_pos))) := by
  have h := word_lt arg1 harg1 x0 hx (k0_off177 i) (k0_off177_inb i) (numel1_S1.symm ▸ Nat.one_pos)
  unfold k0_chk89
  exact ⟨fun a => rowFits _ h a, fun a => rowFits _ h a⟩

theorem chk90_of_table (i : grid0.Coords) (arg1 : Memref sig .tc .smem S8192 .i32) (harg1 : arg1.IsWhole)
    (x0 : Vec F S8192 .i32) (hx : ∀ k : S8192.Idx, (x0 k).toNat < 16384) :
    k0_chk90 (arg1.view.readAt (Elt F) (Rect.unit (s := S8192) (k0_off179 i) S1.size (k0_off179_inb i)).toLoadRect (harg1.unread x0) (Shape.Idx.first (numel1_S1.symm ▸ Nat.one_pos))) := by
  have h := word_lt arg1 harg1 x0 hx (k0_off179 i) (k0_off179_inb i) (numel1_S1.symm ▸ Nat.one_pos)
  unfold k0_chk90
  exact ⟨fun a => rowFits _ h a, fun a => rowFits _ h a⟩

theorem chk91_of_table (i : grid0.Coords) (arg1 : Memref sig .tc .smem S8192 .i32) (harg1 : arg1.IsWhole)
    (x0 : Vec F S8192 .i32) (hx : ∀ k : S8192.Idx, (x0 k).toNat < 16384) :
    k0_chk91 (arg1.view.readAt (Elt F) (Rect.unit (s := S8192) (k0_off181 i) S1.size (k0_off181_inb i)).toLoadRect (harg1.unread x0) (Shape.Idx.first (numel1_S1.symm ▸ Nat.one_pos))) := by
  have h := word_lt arg1 harg1 x0 hx (k0_off181 i) (k0_off181_inb i) (numel1_S1.symm ▸ Nat.one_pos)
  unfold k0_chk91
  exact ⟨fun a => rowFits _ h a, fun a => rowFits _ h a⟩

theorem chk92_of_table (i : grid0.Coords) (arg1 : Memref sig .tc .smem S8192 .i32) (harg1 : arg1.IsWhole)
    (x0 : Vec F S8192 .i32) (hx : ∀ k : S8192.Idx, (x0 k).toNat < 16384) :
    k0_chk92 (arg1.view.readAt (Elt F) (Rect.unit (s := S8192) (k0_off183 i) S1.size (k0_off183_inb i)).toLoadRect (harg1.unread x0) (Shape.Idx.first (numel1_S1.symm ▸ Nat.one_pos))) := by
  have h := word_lt arg1 harg1 x0 hx (k0_off183 i) (k0_off183_inb i) (numel1_S1.symm ▸ Nat.one_pos)
  unfold k0_chk92
  exact ⟨fun a => rowFits _ h a, fun a => rowFits _ h a⟩

theorem chk93_of_table (i : grid0.Coords) (arg1 : Memref sig .tc .smem S8192 .i32) (harg1 : arg1.IsWhole)
    (x0 : Vec F S8192 .i32) (hx : ∀ k : S8192.Idx, (x0 k).toNat < 16384) :
    k0_chk93 (arg1.view.readAt (Elt F) (Rect.unit (s := S8192) (k0_off185 i) S1.size (k0_off185_inb i)).toLoadRect (harg1.unread x0) (Shape.Idx.first (numel1_S1.symm ▸ Nat.one_pos))) := by
  have h := word_lt arg1 harg1 x0 hx (k0_off185 i) (k0_off185_inb i) (numel1_S1.symm ▸ Nat.one_pos)
  unfold k0_chk93
  exact ⟨fun a => rowFits _ h a, fun a => rowFits _ h a⟩

theorem chk94_of_table (i : grid0.Coords) (arg1 : Memref sig .tc .smem S8192 .i32) (harg1 : arg1.IsWhole)
    (x0 : Vec F S8192 .i32) (hx : ∀ k : S8192.Idx, (x0 k).toNat < 16384) :
    k0_chk94 (arg1.view.readAt (Elt F) (Rect.unit (s := S8192) (k0_off187 i) S1.size (k0_off187_inb i)).toLoadRect (harg1.unread x0) (Shape.Idx.first (numel1_S1.symm ▸ Nat.one_pos))) := by
  have h := word_lt arg1 harg1 x0 hx (k0_off187 i) (k0_off187_inb i) (numel1_S1.symm ▸ Nat.one_pos)
  unfold k0_chk94
  exact ⟨fun a => rowFits _ h a, fun a => rowFits _ h a⟩

theorem chk95_of_table (i : grid0.Coords) (arg1 : Memref sig .tc .smem S8192 .i32) (harg1 : arg1.IsWhole)
    (x0 : Vec F S8192 .i32) (hx : ∀ k : S8192.Idx, (x0 k).toNat < 16384) :
    k0_chk95 (arg1.view.readAt (Elt F) (Rect.unit (s := S8192) (k0_off189 i) S1.size (k0_off189_inb i)).toLoadRect (harg1.unread x0) (Shape.Idx.first (numel1_S1.symm ▸ Nat.one_pos))) := by
  have h := word_lt arg1 harg1 x0 hx (k0_off189 i) (k0_off189_inb i) (numel1_S1.symm ▸ Nat.one_pos)
  unfold k0_chk95
  exact ⟨fun a => rowFits _ h a, fun a => rowFits _ h a⟩

theorem chk96_of_table (i : grid0.Coords) (arg1 : Memref sig .tc .smem S8192 .i32) (harg1 : arg1.IsWhole)
    (x0 : Vec F S8192 .i32) (hx : ∀ k : S8192.Idx, (x0 k).toNat < 16384) :
    k0_chk96 (arg1.view.readAt (Elt F) (Rect.unit (s := S8192) (k0_off191 i) S1.size (k0_off191_inb i)).toLoadRect (harg1.unread x0) (Shape.Idx.first (numel1_S1.symm ▸ Nat.one_pos))) := by
  have h := word_lt arg1 harg1 x0 hx (k0_off191 i) (k0_off191_inb i) (numel1_S1.symm ▸ Nat.one_pos)
  unfold k0_chk96
  exact ⟨fun a => rowFits _ h a, fun a => rowFits _ h a⟩

theorem chk97_of_table (i : grid0.Coords) (arg1 : Memref sig .tc .smem S8192 .i32) (harg1 : arg1.IsWhole)
    (x0 : Vec F S8192 .i32) (hx : ∀ k : S8192.Idx, (x0 k).toNat < 16384) :
    k0_chk97 (arg1.view.readAt (Elt F) (Rect.unit (s := S8192) (k0_off193 i) S1.size (k0_off193_inb i)).toLoadRect (harg1.unread x0) (Shape.Idx.first (numel1_S1.symm ▸ Nat.one_pos))) := by
  have h := word_lt arg1 harg1 x0 hx (k0_off193 i) (k0_off193_inb i) (numel1_S1.symm ▸ Nat.one_pos)
  unfold k0_chk97
  exact ⟨fun a => rowFits _ h a, fun a => rowFits _ h a⟩

theorem chk98_of_table (i : grid0.Coords) (arg1 : Memref sig .tc .smem S8192 .i32) (harg1 : arg1.IsWhole)
    (x0 : Vec F S8192 .i32) (hx : ∀ k : S8192.Idx, (x0 k).toNat < 16384) :
    k0_chk98 (arg1.view.readAt (Elt F) (Rect.unit (s := S8192) (k0_off195 i) S1.size (k0_off195_inb i)).toLoadRect (harg1.unread x0) (Shape.Idx.first (numel1_S1.symm ▸ Nat.one_pos))) := by
  have h := word_lt arg1 harg1 x0 hx (k0_off195 i) (k0_off195_inb i) (numel1_S1.symm ▸ Nat.one_pos)
  unfold k0_chk98
  exact ⟨fun a => rowFits _ h a, fun a => rowFits _ h a⟩

theorem chk99_of_table (i : grid0.Coords) (arg1 : Memref sig .tc .smem S8192 .i32) (harg1 : arg1.IsWhole)
    (x0 : Vec F S8192 .i32) (hx : ∀ k : S8192.Idx, (x0 k).toNat < 16384) :
    k0_chk99 (arg1.view.readAt (Elt F) (Rect.unit (s := S8192) (k0_off197 i) S1.size (k0_off197_inb i)).toLoadRect (harg1.unread x0) (Shape.Idx.first (numel1_S1.symm ▸ Nat.one_pos))) := by
  have h := word_lt arg1 harg1 x0 hx (k0_off197 i) (k0_off197_inb i) (numel1_S1.symm ▸ Nat.one_pos)
  unfold k0_chk99
  exact ⟨fun a => rowFits _ h a, fun a => rowFits _ h a⟩

theorem chk100_of_table (i : grid0.Coords) (arg1 : Memref sig .tc .smem S8192 .i32) (harg1 : arg1.IsWhole)
    (x0 : Vec F S8192 .i32) (hx : ∀ k : S8192.Idx, (x0 k).toNat < 16384) :
    k0_chk100 (arg1.view.readAt (Elt F) (Rect.unit (s := S8192) (k0_off199 i) S1.size (k0_off199_inb i)).toLoadRect (harg1.unread x0) (Shape.Idx.first (numel1_S1.symm ▸ Nat.one_pos))) := by
  have h := word_lt arg1 harg1 x0 hx (k0_off199 i) (k0_off199_inb i) (numel1_S1.symm ▸ Nat.one_pos)
  unfold k0_chk100
  exact ⟨fun a => rowFits _ h a, fun a => rowFits _ h a⟩

theorem chk101_of_table (i : grid0.Coords) (arg1 : Memref sig .tc .smem S8192 .i32) (harg1 : arg1.IsWhole)
    (x0 : Vec F S8192 .i32) (hx : ∀ k : S8192.Idx, (x0 k).toNat < 16384) :
    k0_chk101 (arg1.view.readAt (Elt F) (Rect.unit (s := S8192) (k0_off201 i) S1.size (k0_off201_inb i)).toLoadRect (harg1.unread x0) (Shape.Idx.first (numel1_S1.symm ▸ Nat.one_pos))) := by
  have h := word_lt arg1 harg1 x0 hx (k0_off201 i) (k0_off201_inb i) (numel1_S1.symm ▸ Nat.one_pos)
  unfold k0_chk101
  exact ⟨fun a => rowFits _ h a, fun a => rowFits _ h a⟩

theorem chk102_of_table (i : grid0.Coords) (arg1 : Memref sig .tc .smem S8192 .i32) (harg1 : arg1.IsWhole)
    (x0 : Vec F S8192 .i32) (hx : ∀ k : S8192.Idx, (x0 k).toNat < 16384) :
    k0_chk102 (arg1.view.readAt (Elt F) (Rect.unit (s := S8192) (k0_off203 i) S1.size (k0_off203_inb i)).toLoadRect (harg1.unread x0) (Shape.Idx.first (numel1_S1.symm ▸ Nat.one_pos))) := by
  have h := word_lt arg1 harg1 x0 hx (k0_off203 i) (k0_off203_inb i) (numel1_S1.symm ▸ Nat.one_pos)
  unfold k0_chk102
  exact ⟨fun a => rowFits _ h a, fun a => rowFits _ h a⟩

theorem chk103_of_table (i : grid0.Coords) (arg1 : Memref sig .tc .smem S8192 .i32) (harg1 : arg1.IsWhole)
    (x0 : Vec F S8192 .i32) (hx : ∀ k : S8192.Idx, (x0 k).toNat < 16384) :
    k0_chk103 (arg1.view.readAt (Elt F) (Rect.unit (s := S8192) (k0_off205 i) S1.size (k0_off205_inb i)).toLoadRect (harg1.unread x0) (Shape.Idx.first (numel1_S1.symm ▸ Nat.one_pos))) := by
  have h := word_lt arg1 harg1 x0 hx (k0_off205 i) (k0_off205_inb i) (numel1_S1.symm ▸ Nat.one_pos)
  unfold k0_chk103
  exact ⟨fun a => rowFits _ h a, fun a => rowFits _ h a⟩

theorem chk104_of_table (i : grid0.Coords) (arg1 : Memref sig .tc .smem S8192 .i32) (harg1 : arg1.IsWhole)
    (x0 : Vec F S8192 .i32) (hx : ∀ k : S8192.Idx, (x0 k).toNat < 16384) :
    k0_chk104 (arg1.view.readAt (Elt F) (Rect.unit (s := S8192) (k0_off207 i) S1.size (k0_off207_inb i)).toLoadRect (harg1.unread x0) (Shape.Idx.first (numel1_S1.symm ▸ Nat.one_pos))) := by
  have h := word_lt arg1 harg1 x0 hx (k0_off207 i) (k0_off207_inb i) (numel1_S1.symm ▸ Nat.one_pos)
  unfold k0_chk104
  exact ⟨fun a => rowFits _ h a, fun a => rowFits _ h a⟩

theorem chk105_of_table (i : grid0.Coords) (arg1 : Memref sig .tc .smem S8192 .i32) (harg1 : arg1.IsWhole)
    (x0 : Vec F S8192 .i32) (hx : ∀ k : S8192.Idx, (x0 k).toNat < 16384) :
    k0_chk105 (arg1.view.readAt (Elt F) (Rect.unit (s := S8192) (k0_off209 i) S1.size (k0_off209_inb i)).toLoadRect (harg1.unread x0) (Shape.Idx.first (numel1_S1.symm ▸ Nat.one_pos))) := by
  have h := word_lt arg1 harg1 x0 hx (k0_off209 i) (k0_off209_inb i) (numel1_S1.symm ▸ Nat.one_pos)
  unfold k0_chk105
  exact ⟨fun a => rowFits _ h a, fun a => rowFits _ h a⟩

theorem chk106_of_table (i : grid0.Coords) (arg1 : Memref sig .tc .smem S8192 .i32) (harg1 : arg1.IsWhole)
    (x0 : Vec F S8192 .i32) (hx : ∀ k : S8192.Idx, (x0 k).toNat < 16384) :
    k0_chk106 (arg1.view.readAt (Elt F) (Rect.unit (s := S8192) (k0_off211 i) S1.size (k0_off211_inb i)).toLoadRect (harg1.unread x0) (Shape.Idx.first (numel1_S1.symm ▸ Nat.one_pos))) := by
  have h := word_lt arg1 harg1 x0 hx (k0_off211 i) (k0_off211_inb i) (numel1_S1.symm ▸ Nat.one_pos)
  unfold k0_chk106
  exact ⟨fun a => rowFits _ h a, fun a => rowFits _ h a⟩

theorem chk107_of_table (i : grid0.Coords) (arg1 : Memref sig .tc .smem S8192 .i32) (harg1 : arg1.IsWhole)
    (x0 : Vec F S8192 .i32) (hx : ∀ k : S8192.Idx, (x0 k).toNat < 16384) :
    k0_chk107 (arg1.view.readAt (Elt F) (Rect.unit (s := S8192) (k0_off213 i) S1.size (k0_off213_inb i)).toLoadRect (harg1.unread x0) (Shape.Idx.first (numel1_S1.symm ▸ Nat.one_pos))) := by
  have h := word_lt arg1 harg1 x0 hx (k0_off213 i) (k0_off213_inb i) (numel1_S1.symm ▸ Nat.one_pos)
  unfold k0_chk107
  exact ⟨fun a => rowFits _ h a, fun a => rowFits _ h a⟩

theorem chk108_of_table (i : grid0.Coords) (arg1 : Memref sig .tc .smem S8192 .i32) (harg1 : arg1.IsWhole)
    (x0 : Vec F S8192 .i32) (hx : ∀ k : S8192.Idx, (x0 k).toNat < 16384) :
    k0_chk108 (arg1.view.readAt (Elt F) (Rect.unit (s := S8192) (k0_off215 i) S1.size (k0_off215_inb i)).toLoadRect (harg1.unread x0) (Shape.Idx.first (numel1_S1.symm ▸ Nat.one_pos))) := by
  have h := word_lt arg1 harg1 x0 hx (k0_off215 i) (k0_off215_inb i) (numel1_S1.symm ▸ Nat.one_pos)
  unfold k0_chk108
  exact ⟨fun a => rowFits _ h a, fun a => rowFits _ h a⟩

theorem chk109_of_table (i : grid0.Coords) (arg1 : Memref sig .tc .smem S8192 .i32) (harg1 : arg1.IsWhole)
    (x0 : Vec F S8192 .i32) (hx : ∀ k : S8192.Idx, (x0 k).toNat < 16384) :
    k0_chk109 (arg1.view.readAt (Elt F) (Rect.unit (s := S8192) (k0_off217 i) S1.size (k0_off217_inb i)).toLoadRect (harg1.unread x0) (Shape.Idx.first (numel1_S1.symm ▸ Nat.one_pos))) := by
  have h := word_lt arg1 harg1 x0 hx (k0_off217 i) (k0_off217_inb i) (numel1_S1.symm ▸ Nat.one_pos)
  unfold k0_chk109
  exact ⟨fun a => rowFits _ h a, fun a => rowFits _ h a⟩

theorem chk110_of_table (i : grid0.Coords) (arg1 : Memref sig .tc .smem S8192 .i32) (harg1 : arg1.IsWhole)
    (x0 : Vec F S8192 .i32) (hx : ∀ k : S8192.Idx, (x0 k).toNat < 16384) :
    k0_chk110 (arg1.view.readAt (Elt F) (Rect.unit (s := S8192) (k0_off219 i) S1.size (k0_off219_inb i)).toLoadRect (harg1.unread x0) (Shape.Idx.first (numel1_S1.symm ▸ Nat.one_pos))) := by
  have h := word_lt arg1 harg1 x0 hx (k0_off219 i) (k0_off219_inb i) (numel1_S1.symm ▸ Nat.one_pos)
  unfold k0_chk110
  exact ⟨fun a => rowFits _ h a, fun a => rowFits _ h a⟩

theorem chk111_of_table (i : grid0.Coords) (arg1 : Memref sig .tc .smem S8192 .i32) (harg1 : arg1.IsWhole)
    (x0 : Vec F S8192 .i32) (hx : ∀ k : S8192.Idx, (x0 k).toNat < 16384) :
    k0_chk111 (arg1.view.readAt (Elt F) (Rect.unit (s := S8192) (k0_off221 i) S1.size (k0_off221_inb i)).toLoadRect (harg1.unread x0) (Shape.Idx.first (numel1_S1.symm ▸ Nat.one_pos))) := by
  have h := word_lt arg1 harg1 x0 hx (k0_off221 i) (k0_off221_inb i) (numel1_S1.symm ▸ Nat.one_pos)
  unfold k0_chk111
  exact ⟨fun a => rowFits _ h a, fun a => rowFits _ h a⟩

theorem chk112_of_table (i : grid0.Coords) (arg1 : Memref sig .tc .smem S8192 .i32) (harg1 : arg1.IsWhole)
    (x0 : Vec F S8192 .i32) (hx : ∀ k : S8192.Idx, (x0 k).toNat < 16384) :
    k0_chk112 (arg1.view.readAt (Elt F) (Rect.unit (s := S8192) (k0_off223 i) S1.size (k0_off223_inb i)).toLoadRect (harg1.unread x0) (Shape.Idx.first (numel1_S1.symm ▸ Nat.one_pos))) := by
  have h := word_lt arg1 harg1 x0 hx (k0_off223 i) (k0_off223_inb i) (numel1_S1.symm ▸ Nat.one_pos)
  unfold k0_chk112
  exact ⟨fun a => rowFits _ h a, fun a => rowFits _ h a⟩

theorem chk113_of_table (i : grid0.Coords) (arg1 : Memref sig .tc .smem S8192 .i32) (harg1 : arg1.IsWhole)
    (x0 : Vec F S8192 .i32) (hx : ∀ k : S8192.Idx, (x0 k).toNat < 16384) :
    k0_chk113 (arg1.view.readAt (Elt F) (Rect.unit (s := S8192) (k0_off225 i) S1.size (k0_off225_inb i)).toLoadRect (harg1.unread x0) (Shape.Idx.first (numel1_S1.symm ▸ Nat.one_pos))) := by
  have h := word_lt arg1 harg1 x0 hx (k0_off225 i) (k0_off225_inb i) (numel1_S1.symm ▸ Nat.one_pos)
  unfold k0_chk113
  exact ⟨fun a => rowFits _ h a, fun a => rowFits _ h a⟩

theorem chk114_of_table (i : grid0.Coords) (arg1 : Memref sig .tc .smem S8192 .i32) (harg1 : arg1.IsWhole)
    (x0 : Vec F S8192 .i32) (hx : ∀ k : S8192.Idx, (x0 k).toNat < 16384) :
    k0_chk114 (arg1.view.readAt (Elt F) (Rect.unit (s := S8192) (k0_off227 i) S1.size (k0_off227_inb i)).toLoadRect (harg1.unread x0) (Shape.Idx.first (numel1_S1.symm ▸ Nat.one_pos))) := by
  have h := word_lt arg1 harg1 x0 hx (k0_off227 i) (k0_off227_inb i) (numel1_S1.symm ▸ Nat.one_pos)
  unfold k0_chk114
  exact ⟨fun a => rowFits _ h a, fun a => rowFits _ h a⟩

theorem chk115_of_table (i : grid0.Coords) (arg1 : Memref sig .tc .smem S8192 .i32) (harg1 : arg1.IsWhole)
    (x0 : Vec F S8192 .i32) (hx : ∀ k : S8192.Idx, (x0 k).toNat < 16384) :
    k0_chk115 (arg1.view.readAt (Elt F) (Rect.unit (s := S8192) (k0_off229 i) S1.size (k0_off229_inb i)).toLoadRect (harg1.unread x0) (Shape.Idx.first (numel1_S1.symm ▸ Nat.one_pos))) := by
  have h := word_lt arg1 harg1 x0 hx (k0_off229 i) (k0_off229_inb i) (numel1_S1.symm ▸ Nat.one_pos)
  unfold k0_chk115
  exact ⟨fun a => rowFits _ h a, fun a => rowFits _ h a⟩

theorem chk116_of_table (i : grid0.Coords) (arg1 : Memref sig .tc .smem S8192 .i32) (harg1 : arg1.IsWhole)
    (x0 : Vec F S8192 .i32) (hx : ∀ k : S8192.Idx, (x0 k).toNat < 16384) :
    k0_chk116 (arg1.view.readAt (Elt F) (Rect.unit (s := S8192) (k0_off231 i) S1.size (k0_off231_inb i)).toLoadRect (harg1.unread x0) (Shape.Idx.first (numel1_S1.symm ▸ Nat.one_pos))) := by
  have h := word_lt arg1 harg1 x0 hx (k0_off231 i) (k0_off231_inb i) (numel1_S1.symm ▸ Nat.one_pos)
  unfold k0_chk116
  exact ⟨fun a => rowFits _ h a, fun a => rowFits _ h a⟩

theorem chk117_of_table (i : grid0.Coords) (arg1 : Memref sig .tc .smem S8192 .i32) (harg1 : arg1.IsWhole)
    (x0 : Vec F S8192 .i32) (hx : ∀ k : S8192.Idx, (x0 k).toNat < 16384) :
    k0_chk117 (arg1.view.readAt (Elt F) (Rect.unit (s := S8192) (k0_off233 i) S1.size (k0_off233_inb i)).toLoadRect (harg1.unread x0) (Shape.Idx.first (numel1_S1.symm ▸ Nat.one_pos))) := by
  have h := word_lt arg1 harg1 x0 hx (k0_off233 i) (k0_off233_inb i) (numel1_S1.symm ▸ Nat.one_pos)
  unfold k0_chk117
  exact ⟨fun a => rowFits _ h a, fun a => rowFits _ h a⟩

theorem chk118_of_table (i : grid0.Coords) (arg1 : Memref sig .tc .smem S8192 .i32) (harg1 : arg1.IsWhole)
    (x0 : Vec F S8192 .i32) (hx : ∀ k : S8192.Idx, (x0 k).toNat < 16384) :
    k0_chk118 (arg1.view.readAt (Elt F) (Rect.unit (s := S8192) (k0_off235 i) S1.size (k0_off235_inb i)).toLoadRect (harg1.unread x0) (Shape.Idx.first (numel1_S1.symm ▸ Nat.one_pos))) := by
  have h := word_lt arg1 harg1 x0 hx (k0_off235 i) (k0_off235_inb i) (numel1_S1.symm ▸ Nat.one_pos)
  unfold k0_chk118
  exact ⟨fun a => rowFits _ h a, fun a => rowFits _ h a⟩

theorem chk119_of_table (i : grid0.Coords) (arg1 : Memref sig .tc .smem S8192 .i32) (harg1 : arg1.IsWhole)
    (x0 : Vec F S8192 .i32) (hx : ∀ k : S8192.Idx, (x0 k).toNat < 16384) :
    k0_chk119 (arg1.view.readAt (Elt F) (Rect.unit (s := S8192) (k0_off237 i) S1.size (k0_off237_inb i)).toLoadRect (harg1.unread x0) (Shape.Idx.first (numel1_S1.symm ▸ Nat.one_pos))) := by
  have h := word_lt arg1 harg1 x0 hx (k0_off237 i) (k0_off237_inb i) (numel1_S1.symm ▸ Nat.one_pos)
  unfold k0_chk119
  exact ⟨fun a => rowFits _ h a, fun a => rowFits _ h a⟩

theorem chk120_of_table (i : grid0.Coords) (arg1 : Memref sig .tc .smem S8192 .i32) (harg1 : arg1.IsWhole)
    (x0 : Vec F S8192 .i32) (hx : ∀ k : S8192.Idx, (x0 k).toNat < 16384) :
    k0_chk120 (arg1.view.readAt (Elt F) (Rect.unit (s := S8192) (k0_off239 i) S1.size (k0_off239_inb i)).toLoadRect (harg1.unread x0) (Shape.Idx.first (numel1_S1.symm ▸ Nat.one_pos))) := by
  have h := word_lt arg1 harg1 x0 hx (k0_off239 i) (k0_off239_inb i) (numel1_S1.symm ▸ Nat.one_pos)
  unfold k0_chk120
  exact ⟨fun a => rowFits _ h a, fun a => rowFits _ h a⟩

theorem chk121_of_table (i : grid0.Coords) (arg1 : Memref sig .tc .smem S8192 .i32) (harg1 : arg1.IsWhole)
    (x0 : Vec F S8192 .i32) (hx : ∀ k : S8192.Idx, (x0 k).toNat < 16384) :
    k0_chk121 (arg1.view.readAt (Elt F) (Rect.unit (s := S8192) (k0_off241 i) S1.size (k0_off241_inb i)).toLoadRect (harg1.unread x0) (Shape.Idx.first (numel1_S1.symm ▸ Nat.one_pos))) := by
  have h := word_lt arg1 harg1 x0 hx (k0_off241 i) (k0_off241_inb i) (numel1_S1.symm ▸ Nat.one_pos)
  unfold k0_chk121
  exact ⟨fun a => rowFits _ h a, fun a => rowFits _ h a⟩

theorem chk122_of_table (i : grid0.Coords) (arg1 : Memref sig .tc .smem S8192 .i32) (harg1 : arg1.IsWhole)
    (x0 : Vec F S8192 .i32) (hx : ∀ k : S8192.Idx, (x0 k).toNat < 16384) :
    k0_chk122 (arg1.view.readAt (Elt F) (Rect.unit (s := S8192) (k0_off243 i) S1.size (k0_off243_inb i)).toLoadRect (harg1.unread x0) (Shape.Idx.first (numel1_S1.symm ▸ Nat.one_pos))) := by
  have h := word_lt arg1 harg1 x0 hx (k0_off243 i) (k0_off243_inb i) (numel1_S1.symm ▸ Nat.one_pos)
  unfold k0_chk122
  exact ⟨fun a => rowFits _ h a, fun a => rowFits _ h a⟩

theorem chk123_of_table (i : grid0.Coords) (arg1 : Memref sig .tc .smem S8192 .i32) (harg1 : arg1.IsWhole)
    (x0 : Vec F S8192 .i32) (hx : ∀ k : S8192.Idx, (x0 k).toNat < 16384) :
    k0_chk123 (arg1.view.readAt (Elt F) (Rect.unit (s := S8192) (k0_off245 i) S1.size (k0_off245_inb i)).toLoadRect (harg1.unread x0) (Shape.Idx.first (numel1_S1.symm ▸ Nat.one_pos))) := by
  have h := word_lt arg1 harg1 x0 hx (k0_off245 i) (k0_off245_inb i) (numel1_S1.symm ▸ Nat.one_pos)
  unfold k0_chk123
  exact ⟨fun a => rowFits _ h a, fun a => rowFits _ h a⟩

theorem chk124_of_table (i : grid0.Coords) (arg1 : Memref sig .tc .smem S8192 .i32) (harg1 : arg1.IsWhole)
    (x0 : Vec F S8192 .i32) (hx : ∀ k : S8192.Idx, (x0 k).toNat < 16384) :
    k0_chk124 (arg1.view.readAt (Elt F) (Rect.unit (s := S8192) (k0_off247 i) S1.size (k0_off247_inb i)).toLoadRect (harg1.unread x0) (Shape.Idx.first (numel1_S1.symm ▸ Nat.one_pos))) := by
  have h := word_lt arg1 harg1 x0 hx (k0_off247 i) (k0_off247_inb i) (numel1_S1.symm ▸ Nat.one_pos)
  unfold k0_chk124
  exact ⟨fun a => rowFits _ h a, fun a => rowFits _ h a⟩

theorem chk125_of_table (i : grid0.Coords) (arg1 : Memref sig .tc .smem S8192 .i32) (harg1 : arg1.IsWhole)
    (x0 : Vec F S8192 .i32) (hx : ∀ k : S8192.Idx, (x0 k).toNat < 16384) :
    k0_chk125 (arg1.view.readAt (Elt F) (Rect.unit (s := S8192) (k0_off249 i) S1.size (k0_off249_inb i)).toLoadRect (harg1.unread x0) (Shape.Idx.first (numel1_S1.symm ▸ Nat.one_pos))) := by
  have h := word_lt arg1 harg1 x0 hx (k0_off249 i) (k0_off249_inb i) (numel1_S1.symm ▸ Nat.one_pos)
  unfold k0_chk125
  exact ⟨fun a => rowFits _ h a, fun a => rowFits _ h a⟩

theorem chk126_of_table (i : grid0.Coords) (arg1 : Memref sig .tc .smem S8192 .i32) (harg1 : arg1.IsWhole)
    (x0 : Vec F S8192 .i32) (hx : ∀ k : S8192.Idx, (x0 k).toNat < 16384) :
    k0_chk126 (arg1.view.readAt (Elt F) (Rect.unit (s := S8192) (k0_off251 i) S1.size (k0_off251_inb i)).toLoadRect (harg1.unread x0) (Shape.Idx.first (numel1_S1.symm ▸ Nat.one_pos))) := by
  have h := word_lt arg1 harg1 x0 hx (k0_off251 i) (k0_off251_inb i) (numel1_S1.symm ▸ Nat.one_pos)
  unfold k0_chk126
  exact ⟨fun a => rowFits _ h a, fun a => rowFits _ h a⟩

theorem chk127_of_table (i : grid0.Coords) (arg1 : Memref sig .tc .smem S8192 .i32) (harg1 : arg1.IsWhole)
    (x0 : Vec F S8192 .i32) (hx : ∀ k : S8192.Idx, (x0 k).toNat < 16384) :
    k0_chk127 (arg1.view.readAt (Elt F) (Rect.unit (s := S8192) (k0_off253 i) S1.size (k0_off253_inb i)).toLoadRect (harg1.unread x0) (Shape.Idx.first (numel1_S1.symm ▸ Nat.one_pos))) := by
  have h := word_lt arg1 harg1 x0 hx (k0_off253 i) (k0_off253_inb i) (numel1_S1.symm ▸ Nat.one_pos)
  unfold k0_chk127
  exact ⟨fun a => rowFits _ h a, fun a => rowFits _ h a⟩

theorem chk128_of_table (i : grid0.Coords) (arg1 : Memref sig .tc .smem S8192 .i32) (harg1 : arg1.IsWhole)
    (x0 : Vec F S8192 .i32) (hx : ∀ k : S8192.Idx, (x0 k).toNat < 16384) :
    k0_chk128 (arg1.view.readAt (Elt F) (Rect.unit (s := S8192) (k0_off255 i) S1.size (k0_off255_inb i)).toLoadRect (harg1.unread x0) (Shape.Idx.first (numel1_S1.symm ▸ Nat.one_pos))) := by
  have h := word_lt arg1 harg1 x0 hx (k0_off255 i) (k0_off255_inb i) (numel1_S1.symm ▸ Nat.one_pos)
  unfold k0_chk128
  exact fun a => rowFits _ h a

end Cert.Kernel.Hand

end
-- ==== Proof.LibShareChain.lean ====
/-
  A positive share split along a chain of halvings. From a share `q₀` take its left half and keep the right half, take
  the right half's left half and keep its right half, and so on: after `n` steps the share is the composite of the `n`
  left halves taken and the last right half kept. A points-to at the share is therefore, in both directions, the
  separating conjunction of the points-tos at those `n + 1` shares: what lets `n + 1` readers hold one buffer at once
  (each transfer reading a row of one array needs a positive share of it, and two rows read may coincide).
-/
import Idealize.ShloMosaic.Rules.PointsTo

noncomputable section

namespace Cert.LibShareChain

open Idealize.ShloMosaic
open Idealize.SL
open Idealize.SL.RA Idealize.SL.Sem Idealize.SL.ProofMode
open Idealize.SL.BI (sProp)
open scoped Idealize.SL.BI
open Idealize.SL.BI.BIBase Idealize.SL.BI.Laws

variable {nD : Nat} {τ : Topo} {sig : RefSig} {Ix : Type} [DecidableEq Ix]
variable {Val : EltTy → Type} {Name : Type} [DecidableEq Name]
variable {U : Type} [URA U]
variable {Lvl : Type}
local notation "𝕄" => MT nD τ sig Ix Val Name U Lvl

/-- The share kept after `n` halvings of the full share: the right half of the right half … of the whole. -/
def kept : Nat → PosShare TreeShare
  | 0 => fullShare
  | n + 1 => (kept n).right

/-- `P` at the left halves taken at steps `k, …, k + n − 1`, then at the share kept after step `k + n − 1`. -/
def chainSep (P : PosShare TreeShare → sProp 𝕄) : Nat → Nat → sProp 𝕄
  | k, 0 => P (kept k)
  | k, n + 1 => iprop(P (kept k).left ∗ chainSep P (k + 1) n)

/-- A points-to at the share kept after `k` halvings is the conjunction of the points-tos along `n` further halvings. -/
theorem pointsTo_chain {ℓ : Loc nD τ sig} (I : Finset (Idx ℓ)) (f : Buf Val ℓ) (k n : Nat) :
    (ℓ ↦[I]{kept k} f : sProp 𝕄) ⊣⊢ chainSep (fun q => (ℓ ↦[I]{q} f : sProp 𝕄)) k n := by
  induction n generalizing k with
  | zero => exact ⟨.rfl, .rfl⟩
  | succ n ih =>
    have h : (ℓ ↦[I]{kept k} f : sProp 𝕄) ⊣⊢ iprop((ℓ ↦[I]{(kept k).left} f) ∗ ℓ ↦[I]{(kept k).right} f) :=
      pointsTo_share (PosShare.mem_left_op_right (kept k))
    exact ⟨h.1.trans (sep_mono .rfl (ih (k + 1)).1), (sep_mono .rfl (ih (k + 1)).2).trans h.2⟩

end Cert.LibShareChain

end
-- ==== Proof.K.GatherLem.lean ====
/-
  Holding a 128×4096 buffer row by row, and one array through 128 shares: the two ways of dividing what is held that let
  128 row copies be in flight at once — each copy takes its own row of the scratch buffer (rows are disjoint and cover it)
  and its own positive share of the array it reads (the full share halved along a chain; two copies may read one row).
-/
import proofs.«172148_j16612933501330_2_alg».proof.Proof.Gen.Kernel.Launch
import proofs.«172148_j16612933501330_2_alg».proof.Proof.Gen.Kernel.Skeleton
import proofs.«172148_j16612933501330_2_alg».proof.Proof.Gen.Kernel.Points
import proofs.«172148_j16612933501330_2_alg».proof.Proof.K.Rows
import proofs.«172148_j16612933501330_2_alg».proof.Proof.K.Checks
import proofs.«172148_j16612933501330_2_alg».proof.Proof.LibShareChain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.LibShareChain
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## Conjunctions over the 128 rows, written out -/

set_option maxRecDepth 100000 in
/-- A conjunction over the 128 indices, index by index. -/
theorem bigSep128 {M : Type} [URA M] (Φ : Fin 128 → sProp M) :
    bigSep Finset.univ Φ = iprop(Φ (0 : Fin 128) ∗ Φ (1 : Fin 128) ∗ Φ (2 : Fin 128) ∗ Φ (3 : Fin 128) ∗ Φ (4 : Fin 128) ∗ Φ (5 : Fin 128) ∗ Φ (6 : Fin 128) ∗ Φ (7 : Fin 128) ∗ Φ (8 : Fin 128) ∗ Φ (9 : Fin 128) ∗ Φ (10 : Fin 128) ∗ Φ (11 : Fin 128) ∗ Φ (12 : Fin 128) ∗ Φ (13 : Fin 128) ∗ Φ (14 : Fin 128) ∗ Φ (15 : Fin 128) ∗ Φ (16 : Fin 128) ∗ Φ (17 : Fin 128) ∗ Φ (18 : Fin 128) ∗ Φ (19 : Fin 128) ∗ Φ (20 : Fin 128) ∗ Φ (21 : Fin 128) ∗ Φ (22 : Fin 128) ∗ Φ (23 : Fin 128) ∗ Φ (24 : Fin 128) ∗ Φ (25 : Fin 128) ∗ Φ (26 : Fin 128) ∗ Φ (27 : Fin 128) ∗ Φ (28 : Fin 128) ∗ Φ (29 : Fin 128) ∗ Φ (30 : Fin 128) ∗ Φ (31 : Fin 128) ∗ Φ (32 : Fin 128) ∗ Φ (33 : Fin 128) ∗ Φ (34 : Fin 128) ∗ Φ (35 : Fin 128) ∗ Φ (36 : Fin 128) ∗ Φ (37 : Fin 128) ∗ Φ (38 : Fin 128) ∗ Φ (39 : Fin 128) ∗ Φ (40 : Fin 128) ∗ Φ (41 : Fin 128) ∗ Φ (42 : Fin 128) ∗ Φ (43 : Fin 128) ∗ Φ (44 : Fin 128) ∗ Φ (45 : Fin 128) ∗ Φ (46 : Fin 128) ∗ Φ (47 : Fin 128) ∗ Φ (48 : Fin 128) ∗ Φ (49 : Fin 128) ∗ Φ (50 : Fin 128) ∗ Φ (51 : Fin 128) ∗ Φ (52 : Fin 128) ∗ Φ (53 : Fin 128) ∗ Φ (54 : Fin 128) ∗ Φ (55 : Fin 128) ∗ Φ (56 : Fin 128) ∗ Φ (57 : Fin 128) ∗ Φ (58 : Fin 128) ∗ Φ (59 : Fin 128) ∗ Φ (60 : Fin 128) ∗ Φ (61 : Fin 128) ∗ Φ (62 : Fin 128) ∗ Φ (63 : Fin 128) ∗ Φ (64 : Fin 128) ∗ Φ (65 : Fin 128) ∗ Φ (66 : Fin 128) ∗ Φ (67 : Fin 128) ∗ Φ (68 : Fin 128) ∗ Φ (69 : Fin 128) ∗ Φ (70 : Fin 128) ∗ Φ (71 : Fin 128) ∗ Φ (72 : Fin 128) ∗ Φ (73 : Fin 128) ∗ Φ (74 : Fin 128) ∗ Φ (75 : Fin 128) ∗ Φ (76 : Fin 128) ∗ Φ (77 : Fin 128) ∗ Φ (78 : Fin 128) ∗ Φ (79 : Fin 128) ∗ Φ (80 : Fin 128) ∗ Φ (81 : Fin 128) ∗ Φ (82 : Fin 128) ∗ Φ (83 : Fin 128) ∗ Φ (84 : Fin 128) ∗ Φ (85 : Fin 128) ∗ Φ (86 : Fin 128) ∗ Φ (87 : Fin 128) ∗ Φ (88 : Fin 128) ∗ Φ (89 : Fin 128) ∗ Φ (90 : Fin 128) ∗ Φ (91 : Fin 128) ∗ Φ (92 : Fin 128) ∗ Φ (93 : Fin 128) ∗ Φ (94 : Fin 128) ∗ Φ (95 : Fin 128) ∗ Φ (96 : Fin 128) ∗ Φ (97 : Fin 128) ∗ Φ (98 : Fin 128) ∗ Φ (99 : Fin 128) ∗ Φ (100 : Fin 128) ∗ Φ (101 : Fin 128) ∗ Φ (102 : Fin 128) ∗ Φ (103 : Fin 128) ∗ Φ (104 : Fin 128) ∗ Φ (105 : Fin 128) ∗ Φ (106 : Fin 128) ∗ Φ (107 : Fin 128) ∗ Φ (108 : Fin 128) ∗ Φ (109 : Fin 128) ∗ Φ (110 : Fin 128) ∗ Φ (111 : Fin 128) ∗ Φ (112 : Fin 128) ∗ Φ (113 : Fin 128) ∗ Φ (114 : Fin 128) ∗ Φ (115 : Fin 128) ∗ Φ (116 : Fin 128) ∗ Φ (117 : Fin 128) ∗ Φ (118 : Fin 128) ∗ Φ (119 : Fin 128) ∗ Φ (120 : Fin 128) ∗ Φ (121 : Fin 128) ∗ Φ (122 : Fin 128) ∗ Φ (123 : Fin 128) ∗ Φ (124 : Fin 128) ∗ Φ (125 : Fin 128) ∗ Φ (126 : Fin 128) ∗ Φ (127 : Fin 128)) :=
  bigSep_univ_eq_bigSepL [(0 : Fin 128), (1 : Fin 128), (2 : Fin 128), (3 : Fin 128), (4 : Fin 128), (5 : Fin 128), (6 : Fin 128), (7 : Fin 128), (8 : Fin 128), (9 : Fin 128), (10 : Fin 128), (11 : Fin 128), (12 : Fin 128), (13 : Fin 128), (14 : Fin 128), (15 : Fin 128), (16 : Fin 128), (17 : Fin 128), (18 : Fin 128), (19 : Fin 128), (20 : Fin 128), (21 : Fin 128), (22 : Fin 128), (23 : Fin 128), (24 : Fin 128), (25 : Fin 128), (26 : Fin 128), (27 : Fin 128), (28 : Fin 128), (29 : Fin 128), (30 : Fin 128), (31 : Fin 128), (32 : Fin 128), (33 : Fin 128), (34 : Fin 128), (35 : Fin 128), (36 : Fin 128), (37 : Fin 128), (38 : Fin 128), (39 : Fin 128), (40 : Fin 128), (41 : Fin 128), (42 : Fin 128), (43 : Fin 128), (44 : Fin 128), (45 : Fin 128), (46 : Fin 128), (47 : Fin 128), (48 : Fin 128), (49 : Fin 128), (50 : Fin 128), (51 : Fin 128), (52 : Fin 128), (53 : Fin 128), (54 : Fin 128), (55 : Fin 128), (56 : Fin 128), (57 : Fin 128), (58 : Fin 128), (59 : Fin 128), (60 : Fin 128), (61 : Fin 128), (62 : Fin 128), (63 : Fin 128), (64 : Fin 128), (65 : Fin 128), (66 : Fin 128), (67 : Fin 128), (68 : Fin 128), (69 : Fin 128), (70 : Fin 128), (71 : Fin 128), (72 : Fin 128), (73 : Fin 128), (74 : Fin 128), (75 : Fin 128), (76 : Fin 128), (77 : Fin 128), (78 : Fin 128), (79 : Fin 128), (80 : Fin 128), (81 : Fin 128), (82 : Fin 128), (83 : Fin 128), (84 : Fin 128), (85 : Fin 128), (86 : Fin 128), (87 : Fin 128), (88 : Fin 128), (89 : Fin 128), (90 : Fin 128), (91 : Fin 128), (92 : Fin 128), (93 : Fin 128), (94 : Fin 128), (95 : Fin 128), (96 : Fin 128), (97 : Fin 128), (98 : Fin 128), (99 : Fin 128), (100 : Fin 128), (101 : Fin 128), (102 : Fin 128), (103 : Fin 128), (104 : Fin 128), (105 : Fin 128), (106 : Fin 128), (107 : Fin 128), (108 : Fin 128), (109 : Fin 128), (110 : Fin 128), (111 : Fin 128), (112 : Fin 128), (113 : Fin 128), (114 : Fin 128), (115 : Fin 128), (116 : Fin 128), (117 : Fin 128), (118 : Fin 128), (119 : Fin 128), (120 : Fin 128), (121 : Fin 128), (122 : Fin 128), (123 : Fin 128), (124 : Fin 128), (125 : Fin 128), (126 : Fin 128), (127 : Fin 128)] (by decide +kernel) (by decide +kernel) Φ

/-! ## The scratch buffer held row by row -/

/-- The elements of a whole 128×4096 view are those of its rows. -/
theorem setOn_rows (v : View sig .tc .vmem S128x4096 .f32) :
    v.set = (Finset.univ : Finset (Fin 128)).biUnion fun r => v.setOn (rowRect r).set := by
  rw [← View.setOn_univ, ← rows_cover]
  ext i
  simp only [View.setOn, Finset.mem_map, Finset.mem_biUnion, Finset.mem_univ, true_and]
  constructor
  · rintro ⟨y, ⟨r, hy⟩, rfl⟩; exact ⟨r, y, hy, rfl⟩
  · rintro ⟨r, y, hy, rfl⟩; exact ⟨y, ⟨r, hy⟩, rfl⟩

/-- Holding the view whole at `f` is holding each of its rows at `f`. -/
theorem scratch_rows (c : Dev nD) (v : View sig .tc .vmem S128x4096 .f32) (q : PosShare TreeShare) (f : Buf (Elt F) (v.loc (c : Thread nD τ))) :
    (v.loc (c : Thread nD τ) ↦[v.set]{q} f : sProp 𝕄)
      = bigSep (Finset.univ : Finset (Fin 128)) fun r => (v.loc (c : Thread nD τ) ↦[v.setOn (rowRect r).set]{q} f : sProp 𝕄) := by
  rw [setOn_rows v]
  exact pointsTo_biUnion _ _ fun r _ r' _ h => v.disjoint_setOn (rows_disjoint r r' h)

/-- The buffer that holds on row `r` what `fs r` holds there. -/
def rowsBuf (c : Dev nD) (v : View sig .tc .vmem S128x4096 .f32) (fs : Fin 128 → Buf (Elt F) (v.loc (c : Thread nD τ))) :
    Buf (Elt F) (v.loc (c : Thread nD τ)) :=
  fun i => match preimage? v.emb i with
    | some y => fs ⟨(y 0).val, (y 0).isLt⟩ i
    | none => fs 0 i

/-- At an element of row `r` it is `fs r`. -/
theorem rowsBuf_emb (c : Dev nD) (v : View sig .tc .vmem S128x4096 .f32) (fs : Fin 128 → Buf (Elt F) (v.loc (c : Thread nD τ)))
    (y : S128x4096.Idx) : rowsBuf c v fs (v.emb y) = fs ⟨(y 0).val, (y 0).isLt⟩ (v.emb y) := by
  unfold rowsBuf; rw [preimage?_emb]

/-- Where every row's buffer agrees with `g` on that row, the joined buffer agrees with `g` on all of them. -/
theorem rows_agree (c : Dev nD) (v : View sig .tc .vmem S128x4096 .f32) (fs : Fin 128 → Buf (Elt F) (v.loc (c : Thread nD τ)))
    (g : Buf (Elt F) (v.loc (c : Thread nD τ)))
    (hg : ∀ r ∈ (Finset.univ : Finset (Fin 128)), ∀ i ∈ v.setOn (rowRect r).set, g i = fs r i) :
    ∀ i ∈ (Finset.univ : Finset (Fin 128)).biUnion (fun r => v.setOn (rowRect r).set), rowsBuf c v fs i = g i := by
  intro i hi
  obtain ⟨r, -, hir⟩ := Finset.mem_biUnion.mp hi
  obtain ⟨y, hy, rfl⟩ := Finset.mem_map.mp hir
  rw [rowsBuf_emb]
  have e : (⟨(y 0).val, (y 0).isLt⟩ : Fin 128) = r := Fin.ext ((mem_rowRect r y).mp hy)
  rw [e]
  exact (hg r (Finset.mem_univ _) _ hir).symm

section
attribute [local irreducible] rowRect
/-- Rows held each at its own contents are the view held whole at the buffer joining them. -/
theorem rows_join (c : Dev nD) (v : View sig .tc .vmem S128x4096 .f32) (q : PosShare TreeShare) (fs : Fin 128 → Buf (Elt F) (v.loc (c : Thread nD τ))) :
    (bigSep (Finset.univ : Finset (Fin 128)) fun r => (v.loc (c : Thread nD τ) ↦[v.setOn (rowRect r).set]{q} fs r : sProp 𝕄))
      ⊢ (v.loc (c : Thread nD τ) ↦[v.set]{q} rowsBuf c v fs : sProp 𝕄) := by
  have hset : (v.loc (c : Thread nD τ) ↦[v.set]{q} rowsBuf c v fs : sProp 𝕄)
      = (v.loc (c : Thread nD τ) ↦[(Finset.univ : Finset (Fin 128)).biUnion (fun r => v.setOn (rowRect r).set)]{q} rowsBuf c v fs : sProp 𝕄) :=
    congrArg (fun S => (v.loc (c : Thread nD τ) ↦[S]{q} rowsBuf c v fs : sProp 𝕄)) (setOn_rows v)
  rw [hset]
  iintro H
  ihave H' := (pointsTo_biUnion_join Finset.univ (fun r => v.setOn (rowRect r).set) fs (fs 0)
    (fun r _ r' _ h => v.disjoint_setOn (rows_disjoint r r' h))) $$ H
  icases H' with ⟨%g, %hg, H⟩
  rw [pointsTo_congr (f := rowsBuf c v fs) (g := g) (rows_agree c v fs g hg)]
  iexact H
end

set_option maxHeartbeats 8000000 in
/-- The same, the rows listed one by one. -/
theorem scratch_rows128 (c : Dev nD) (arg4 : Memref sig .tc .vmem S128x4096 .f32) (f : Buf (Elt F) (arg4.view.loc (c : Thread nD τ))) :
    (arg4.view.loc (c : Thread nD τ) ↦[arg4.view.set]{fullShare} f : sProp 𝕄)
      = iprop((arg4.view.loc (c : Thread nD τ) ↦[arg4.view.setOn (Rect.unit (s := S128x4096) ![0, 0] S1x4096.size inb_S128x4096_S1x4096_0_0).set]{fullShare} f) ∗ (arg4.view.loc (c : Thread nD τ) ↦[arg4.view.setOn (Rect.unit (s := S128x4096) ![1, 0] S1x4096.size inb_S128x4096_S1x4096_1_0).set]{fullShare} f) ∗ (arg4.view.loc (c : Thread nD τ) ↦[arg4.view.setOn (Rect.unit (s := S128x4096) ![2, 0] S1x4096.size inb_S128x4096_S1x4096_2_0).set]{fullShare} f) ∗ (arg4.view.loc (c : Thread nD τ) ↦[arg4.view.setOn (Rect.unit (s := S128x4096) ![3, 0] S1x4096.size inb_S128x4096_S1x4096_3_0).set]{fullShare} f) ∗ (arg4.view.loc (c : Thread nD τ) ↦[arg4.view.setOn (Rect.unit (s := S128x4096) ![4, 0] S1x4096.size inb_S128x4096_S1x4096_4_0).set]{fullShare} f) ∗ (arg4.view.loc (c : Thread nD τ) ↦[arg4.view.setOn (Rect.unit (s := S128x4096) ![5, 0] S1x4096.size inb_S128x4096_S1x4096_5_0).set]{fullShare} f) ∗ (arg4.view.loc (c : Thread nD τ) ↦[arg4.view.setOn (Rect.unit (s := S128x4096) ![6, 0] S1x4096.size inb_S128x4096_S1x4096_6_0).set]{fullShare} f) ∗ (arg4.view.loc (c : Thread nD τ) ↦[arg4.view.setOn (Rect.unit (s := S128x4096) ![7, 0] S1x4096.size inb_S128x4096_S1x4096_7_0).set]{fullShare} f) ∗ (arg4.view.loc (c : Thread nD τ) ↦[arg4.view.setOn (Rect.unit (s := S128x4096) ![8, 0] S1x4096.size inb_S128x4096_S1x4096_8_0).set]{fullShare} f) ∗ (arg4.view.loc (c : Thread nD τ) ↦[arg4.view.setOn (Rect.unit (s := S128x4096) ![9, 0] S1x4096.size inb_S128x4096_S1x4096_9_0).set]{fullShare} f) ∗ (arg4.view.loc (c : Thread nD τ) ↦[arg4.view.setOn (Rect.unit (s := S128x4096) ![10, 0] S1x4096.size inb_S128x4096_S1x4096_10_0).set]{fullShare} f) ∗ (arg4.view.loc (c : Thread nD τ) ↦[arg4.view.setOn (Rect.unit (s := S128x4096) ![11, 0] S1x4096.size inb_S128x4096_S1x4096_11_0).set]{fullShare} f) ∗ (arg4.view.loc (c : Thread nD τ) ↦[arg4.view.setOn (Rect.unit (s := S128x4096) ![12, 0] S1x4096.size inb_S128x4096_S1x4096_12_0).set]{fullShare} f) ∗ (arg4.view.loc (c : Thread nD τ) ↦[arg4.view.setOn (Rect.unit (s := S128x4096) ![13, 0] S1x4096.size inb_S128x4096_S1x4096_13_0).set]{fullShare} f) ∗ (arg4.view.loc (c : Thread nD τ) ↦[arg4.view.setOn (Rect.unit (s := S128x4096) ![14, 0] S1x4096.size inb_S128x4096_S1x4096_14_0).set]{fullShare} f) ∗ (arg4.view.loc (c : Thread nD τ) ↦[arg4.view.setOn (Rect.unit (s := S128x4096) ![15, 0] S1x4096.size inb_S128x4096_S1x4096_15_0).set]{fullShare} f) ∗ (arg4.view.loc (c : Thread nD τ) ↦[arg4.view.setOn (Rect.unit (s := S128x4096) ![16, 0] S1x4096.size inb_S128x4096_S1x4096_16_0).set]{fullShare} f) ∗ (arg4.view.loc (c : Thread nD τ) ↦[arg4.view.setOn (Rect.unit (s := S128x4096) ![17, 0] S1x4096.size inb_S128x4096_S1x4096_17_0).set]{fullShare} f) ∗ (arg4.view.loc (c : Thread nD τ) ↦[arg4.view.setOn (Rect.unit (s := S128x4096) ![18, 0] S1x4096.size inb_S128x4096_S1x4096_18_0).set]{fullShare} f) ∗ (arg4.view.loc (c : Thread nD τ) ↦[arg4.view.setOn (Rect.unit (s := S128x4096) ![19, 0] S1x4096.size inb_S128x4096_S1x4096_19_0).set]{fullShare} f) ∗ (arg4.view.loc (c : Thread nD τ) ↦[arg4.view.setOn (Rect.unit (s := S128x4096) ![20, 0] S1x4096.size inb_S128x4096_S1x4096_20_0).set]{fullShare} f) ∗ (arg4.view.loc (c : Thread nD τ) ↦[arg4.view.setOn (Rect.unit (s := S128x4096) ![21, 0] S1x4096.size inb_S128x4096_S1x4096_21_0).set]{fullShare} f) ∗ (arg4.view.loc (c : Thread nD τ) ↦[arg4.view.setOn (Rect.unit (s := S128x4096) ![22, 0] S1x4096.size inb_S128x4096_S1x4096_22_0).set]{fullShare} f) ∗ (arg4.view.loc (c : Thread nD τ) ↦[arg4.view.setOn (Rect.unit (s := S128x4096) ![23, 0] S1x4096.size inb_S128x4096_S1x4096_23_0).set]{fullShare} f) ∗ (arg4.view.loc (c : Thread nD τ) ↦[arg4.view.setOn (Rect.unit (s := S128x4096) ![24, 0] S1x4096.size inb_S128x4096_S1x4096_24_0).set]{fullShare} f) ∗ (arg4.view.loc (c : Thread nD τ) ↦[arg4.view.setOn (Rect.unit (s := S128x4096) ![25, 0] S1x4096.size inb_S128x4096_S1x4096_25_0).set]{fullShare} f) ∗ (arg4.view.loc (c : Thread nD τ) ↦[arg4.view.setOn (Rect.unit (s := S128x4096) ![26, 0] S1x4096.size inb_S128x4096_S1x4096_26_0).set]{fullShare} f) ∗ (arg4.view.loc (c : Thread nD τ) ↦[arg4.view.setOn (Rect.unit (s := S128x4096) ![27, 0] S1x4096.size inb_S128x4096_S1x4096_27_0).set]{fullShare} f) ∗ (arg4.view.loc (c : Thread nD τ) ↦[arg4.view.setOn (Rect.unit (s := S128x4096) ![28, 0] S1x4096.size inb_S128x4096_S1x4096_28_0).set]{fullShare} f) ∗ (arg4.view.loc (c : Thread nD τ) ↦[arg4.view.setOn (Rect.unit (s := S128x4096) ![29, 0] S1x4096.size inb_S128x4096_S1x4096_29_0).set]{fullShare} f) ∗ (arg4.view.loc (c : Thread nD τ) ↦[arg4.view.setOn (Rect.unit (s := S128x4096) ![30, 0] S1x4096.size inb_S128x4096_S1x4096_30_0).set]{fullShare} f) ∗ (arg4.view.loc (c : Thread nD τ) ↦[arg4.view.setOn (Rect.unit (s := S128x4096) ![31, 0] S1x4096.size inb_S128x4096_S1x4096_31_0).set]{fullShare} f) ∗ (arg4.view.loc (c : Thread nD τ) ↦[arg4.view.setOn (Rect.unit (s := S128x4096) ![32, 0] S1x4096.size inb_S128x4096_S1x4096_32_0).set]{fullShare} f) ∗ (arg4.view.loc (c : Thread nD τ) ↦[arg4.view.setOn (Rect.unit (s := S128x4096) ![33, 0] S1x4096.size inb_S128x4096_S1x4096_33_0).set]{fullShare} f) ∗ (arg4.view.loc (c : Thread nD τ) ↦[arg4.view.setOn (Rect.unit (s := S128x4096) ![34, 0] S1x4096.size inb_S128x4096_S1x4096_34_0).set]{fullShare} f) ∗ (arg4.view.loc (c : Thread nD τ) ↦[arg4.view.setOn (Rect.unit (s := S128x4096) ![35, 0] S1x4096.size inb_S128x4096_S1x4096_35_0).set]{fullShare} f) ∗ (arg4.view.loc (c : Thread nD τ) ↦[arg4.view.setOn (Rect.unit (s := S128x4096) ![36, 0] S1x4096.size inb_S128x4096_S1x4096_36_0).set]{fullShare} f) ∗ (arg4.view.loc (c : Thread nD τ) ↦[arg4.view.setOn (Rect.unit (s := S128x4096) ![37, 0] S1x4096.size inb_S128x4096_S1x4096_37_0).set]{fullShare} f) ∗ (arg4.view.loc (c : Thread nD τ) ↦[arg4.view.setOn (Rect.unit (s := S128x4096) ![38, 0] S1x4096.size inb_S128x4096_S1x4096_38_0).set]{fullShare} f) ∗ (arg4.view.loc (c : Thread nD τ) ↦[arg4.view.setOn (Rect.unit (s := S128x4096) ![39, 0] S1x4096.size inb_S128x4096_S1x4096_39_0).set]{fullShare} f) ∗ (arg4.view.loc (c : Thread nD τ) ↦[arg4.view.setOn (Rect.unit (s := S128x4096) ![40, 0] S1x4096.size inb_S128x4096_S1x4096_40_0).set]{fullShare} f) ∗ (arg4.view.loc (c : Thread nD τ) ↦[arg4.view.setOn (Rect.unit (s := S128x4096) ![41, 0] S1x4096.size inb_S128x4096_S1x4096_41_0).set]{fullShare} f) ∗ (arg4.view.loc (c : Thread nD τ) ↦[arg4.view.setOn (Rect.unit (s := S128x4096) ![42, 0] S1x4096.size inb_S128x4096_S1x4096_42_0).set]{fullShare} f) ∗ (arg4.view.loc (c : Thread nD τ) ↦[arg4.view.setOn (Rect.unit (s := S128x4096) ![43, 0] S1x4096.size inb_S128x4096_S1x4096_43_0).set]{fullShare} f) ∗ (arg4.view.loc (c : Thread nD τ) ↦[arg4.view.setOn (Rect.unit (s := S128x4096) ![44, 0] S1x4096.size inb_S128x4096_S1x4096_44_0).set]{fullShare} f) ∗ (arg4.view.loc (c : Thread nD τ) ↦[arg4.view.setOn (Rect.unit (s := S128x4096) ![45, 0] S1x4096.size inb_S128x4096_S1x4096_45_0).set]{fullShare} f) ∗ (arg4.view.loc (c : Thread nD τ) ↦[arg4.view.setOn (Rect.unit (s := S128x4096) ![46, 0] S1x4096.size inb_S128x4096_S1x4096_46_0).set]{fullShare} f) ∗ (arg4.view.loc (c : Thread nD τ) ↦[arg4.view.setOn (Rect.unit (s := S128x4096) ![47, 0] S1x4096.size inb_S128x4096_S1x4096_47_0).set]{fullShare} f) ∗ (arg4.view.loc (c : Thread nD τ) ↦[arg4.view.setOn (Rect.unit (s := S128x4096) ![48, 0] S1x4096.size inb_S128x4096_S1x4096_48_0).set]{fullShare} f) ∗ (arg4.view.loc (c : Thread nD τ) ↦[arg4.view.setOn (Rect.unit (s := S128x4096) ![49, 0] S1x4096.size inb_S128x4096_S1x4096_49_0).set]{fullShare} f) ∗ (arg4.view.loc (c : Thread nD τ) ↦[arg4.view.setOn (Rect.unit (s := S128x4096) ![50, 0] S1x4096.size inb_S128x4096_S1x4096_50_0).set]{fullShare} f) ∗ (arg4.view.loc (c : Thread nD τ) ↦[arg4.view.setOn (Rect.unit (s := S128x4096) ![51, 0] S1x4096.size inb_S128x4096_S1x4096_51_0).set]{fullShare} f) ∗ (arg4.view.loc (c : Thread nD τ) ↦[arg4.view.setOn (Rect.unit (s := S128x4096) ![52, 0] S1x4096.size inb_S128x4096_S1x4096_52_0).set]{fullShare} f) ∗ (arg4.view.loc (c : Thread nD τ) ↦[arg4.view.setOn (Rect.unit (s := S128x4096) ![53, 0] S1x4096.size inb_S128x4096_S1x4096_53_0).set]{fullShare} f) ∗ (arg4.view.loc (c : Thread nD τ) ↦[arg4.view.setOn (Rect.unit (s := S128x4096) ![54, 0] S1x4096.size inb_S128x4096_S1x4096_54_0).set]{fullShare} f) ∗ (arg4.view.loc (c : Thread nD τ) ↦[arg4.view.setOn (Rect.unit (s := S128x4096) ![55, 0] S1x4096.size inb_S128x4096_S1x4096_55_0).set]{fullShare} f) ∗ (arg4.view.loc (c : Thread nD τ) ↦[arg4.view.setOn (Rect.unit (s := S128x4096) ![56, 0] S1x4096.size inb_S128x4096_S1x4096_56_0).set]{fullShare} f) ∗ (arg4.view.loc (c : Thread nD τ) ↦[arg4.view.setOn (Rect.unit (s := S128x4096) ![57, 0] S1x4096.size inb_S128x4096_S1x4096_57_0).set]{fullShare} f) ∗ (arg4.view.loc (c : Thread nD τ) ↦[arg4.view.setOn (Rect.unit (s := S128x4096) ![58, 0] S1x4096.size inb_S128x4096_S1x4096_58_0).set]{fullShare} f) ∗ (arg4.view.loc (c : Thread nD τ) ↦[arg4.view.setOn (Rect.unit (s := S128x4096) ![59, 0] S1x4096.size inb_S128x4096_S1x4096_59_0).set]{fullShare} f) ∗ (arg4.view.loc (c : Thread nD τ) ↦[arg4.view.setOn (Rect.unit (s := S128x4096) ![60, 0] S1x4096.size inb_S128x4096_S1x4096_60_0).set]{fullShare} f) ∗ (arg4.view.loc (c : Thread nD τ) ↦[arg4.view.setOn (Rect.unit (s := S128x4096) ![61, 0] S1x4096.size inb_S128x4096_S1x4096_61_0).set]{fullShare} f) ∗ (arg4.view.loc (c : Thread nD τ) ↦[arg4.view.setOn (Rect.unit (s := S128x4096) ![62, 0] S1x4096.size inb_S128x4096_S1x4096_62_0).set]{fullShare} f) ∗ (arg4.view.loc (c : Thread nD τ) ↦[arg4.view.setOn (Rect.unit (s := S128x4096) ![63, 0] S1x4096.size inb_S128x4096_S1x4096_63_0).set]{fullShare} f) ∗ (arg4.view.loc (c : Thread nD τ) ↦[arg4.view.setOn (Rect.unit (s := S128x4096) ![64, 0] S1x4096.size inb_S128x4096_S1x4096_64_0).set]{fullShare} f) ∗ (arg4.view.loc (c : Thread nD τ) ↦[arg4.view.setOn (Rect.unit (s := S128x4096) ![65, 0] S1x4096.size inb_S128x4096_S1x4096_65_0).set]{fullShare} f) ∗ (arg4.view.loc (c : Thread nD τ) ↦[arg4.view.setOn (Rect.unit (s := S128x4096) ![66, 0] S1x4096.size inb_S128x4096_S1x4096_66_0).set]{fullShare} f) ∗ (arg4.view.loc (c : Thread nD τ) ↦[arg4.view.setOn (Rect.unit (s := S128x4096) ![67, 0] S1x4096.size inb_S128x4096_S1x4096_67_0).set]{fullShare} f) ∗ (arg4.view.loc (c : Thread nD τ) ↦[arg4.view.setOn (Rect.unit (s := S128x4096) ![68, 0] S1x4096.size inb_S128x4096_S1x4096_68_0).set]{fullShare} f) ∗ (arg4.view.loc (c : Thread nD τ) ↦[arg4.view.setOn (Rect.unit (s := S128x4096) ![69, 0] S1x4096.size inb_S128x4096_S1x4096_69_0).set]{fullShare} f) ∗ (arg4.view.loc (c : Thread nD τ) ↦[arg4.view.setOn (Rect.unit (s := S128x4096) ![70, 0] S1x4096.size inb_S128x4096_S1x4096_70_0).set]{fullShare} f) ∗ (arg4.view.loc (c : Thread nD τ) ↦[arg4.view.setOn (Rect.unit (s := S128x4096) ![71, 0] S1x4096.size inb_S128x4096_S1x4096_71_0).set]{fullShare} f) ∗ (arg4.view.loc (c : Thread nD τ) ↦[arg4.view.setOn (Rect.unit (s := S128x4096) ![72, 0] S1x4096.size inb_S128x4096_S1x4096_72_0).set]{fullShare} f) ∗ (arg4.view.loc (c : Thread nD τ) ↦[arg4.view.setOn (Rect.unit (s := S128x4096) ![73, 0] S1x4096.size inb_S128x4096_S1x4096_73_0).set]{fullShare} f) ∗ (arg4.view.loc (c : Thread nD τ) ↦[arg4.view.setOn (Rect.unit (s := S128x4096) ![74, 0] S1x4096.size inb_S128x4096_S1x4096_74_0).set]{fullShare} f) ∗ (arg4.view.loc (c : Thread nD τ) ↦[arg4.view.setOn (Rect.unit (s := S128x4096) ![75, 0] S1x4096.size inb_S128x4096_S1x4096_75_0).set]{fullShare} f) ∗ (arg4.view.loc (c : Thread nD τ) ↦[arg4.view.setOn (Rect.unit (s := S128x4096) ![76, 0] S1x4096.size inb_S128x4096_S1x4096_76_0).set]{fullShare} f) ∗ (arg4.view.loc (c : Thread nD τ) ↦[arg4.view.setOn (Rect.unit (s := S128x4096) ![77, 0] S1x4096.size inb_S128x4096_S1x4096_77_0).set]{fullShare} f) ∗ (arg4.view.loc (c : Thread nD τ) ↦[arg4.view.setOn (Rect.unit (s := S128x4096) ![78, 0] S1x4096.size inb_S128x4096_S1x4096_78_0).set]{fullShare} f) ∗ (arg4.view.loc (c : Thread nD τ) ↦[arg4.view.setOn (Rect.unit (s := S128x4096) ![79, 0] S1x4096.size inb_S128x4096_S1x4096_79_0).set]{fullShare} f) ∗ (arg4.view.loc (c : Thread nD τ) ↦[arg4.view.setOn (Rect.unit (s := S128x4096) ![80, 0] S1x4096.size inb_S128x4096_S1x4096_80_0).set]{fullShare} f) ∗ (arg4.view.loc (c : Thread nD τ) ↦[arg4.view.setOn (Rect.unit (s := S128x4096) ![81, 0] S1x4096.size inb_S128x4096_S1x4096_81_0).set]{fullShare} f) ∗ (arg4.view.loc (c : Thread nD τ) ↦[arg4.view.setOn (Rect.unit (s := S128x4096) ![82, 0] S1x4096.size inb_S128x4096_S1x4096_82_0).set]{fullShare} f) ∗ (arg4.view.loc (c : Thread nD τ) ↦[arg4.view.setOn (Rect.unit (s := S128x4096) ![83, 0] S1x4096.size inb_S128x4096_S1x4096_83_0).set]{fullShare} f) ∗ (arg4.view.loc (c : Thread nD τ) ↦[arg4.view.setOn (Rect.unit (s := S128x4096) ![84, 0] S1x4096.size inb_S128x4096_S1x4096_84_0).set]{fullShare} f) ∗ (arg4.view.loc (c : Thread nD τ) ↦[arg4.view.setOn (Rect.unit (s := S128x4096) ![85, 0] S1x4096.size inb_S128x4096_S1x4096_85_0).set]{fullShare} f) ∗ (arg4.view.loc (c : Thread nD τ) ↦[arg4.view.setOn (Rect.unit (s := S128x4096) ![86, 0] S1x4096.size inb_S128x4096_S1x4096_86_0).set]{fullShare} f) ∗ (arg4.view.loc (c : Thread nD τ) ↦[arg4.view.setOn (Rect.unit (s := S128x4096) ![87, 0] S1x4096.size inb_S128x4096_S1x4096_87_0).set]{fullShare} f) ∗ (arg4.view.loc (c : Thread nD τ) ↦[arg4.view.setOn (Rect.unit (s := S128x4096) ![88, 0] S1x4096.size inb_S128x4096_S1x4096_88_0).set]{fullShare} f) ∗ (arg4.view.loc (c : Thread nD τ) ↦[arg4.view.setOn (Rect.unit (s := S128x4096) ![89, 0] S1x4096.size inb_S128x4096_S1x4096_89_0).set]{fullShare} f) ∗ (arg4.view.loc (c : Thread nD τ) ↦[arg4.view.setOn (Rect.unit (s := S128x4096) ![90, 0] S1x4096.size inb_S128x4096_S1x4096_90_0).set]{fullShare} f) ∗ (arg4.view.loc (c : Thread nD τ) ↦[arg4.view.setOn (Rect.unit (s := S128x4096) ![91, 0] S1x4096.size inb_S128x4096_S1x4096_91_0).set]{fullShare} f) ∗ (arg4.view.loc (c : Thread nD τ) ↦[arg4.view.setOn (Rect.unit (s := S128x4096) ![92, 0] S1x4096.size inb_S128x4096_S1x4096_92_0).set]{fullShare} f) ∗ (arg4.view.loc (c : Thread nD τ) ↦[arg4.view.setOn (Rect.unit (s := S128x4096) ![93, 0] S1x4096.size inb_S128x4096_S1x4096_93_0).set]{fullShare} f) ∗ (arg4.view.loc (c : Thread nD τ) ↦[arg4.view.setOn (Rect.unit (s := S128x4096) ![94, 0] S1x4096.size inb_S128x4096_S1x4096_94_0).set]{fullShare} f) ∗ (arg4.view.loc (c : Thread nD τ) ↦[arg4.view.setOn (Rect.unit (s := S128x4096) ![95, 0] S1x4096.size inb_S128x4096_S1x4096_95_0).set]{fullShare} f) ∗ (arg4.view.loc (c : Thread nD τ) ↦[arg4.view.setOn (Rect.unit (s := S128x4096) ![96, 0] S1x4096.size inb_S128x4096_S1x4096_96_0).set]{fullShare} f) ∗ (arg4.view.loc (c : Thread nD τ) ↦[arg4.view.setOn (Rect.unit (s := S128x4096) ![97, 0] S1x4096.size inb_S128x4096_S1x4096_97_0).set]{fullShare} f) ∗ (arg4.view.loc (c : Thread nD τ) ↦[arg4.view.setOn (Rect.unit (s := S128x4096) ![98, 0] S1x4096.size inb_S128x4096_S1x4096_98_0).set]{fullShare} f) ∗ (arg4.view.loc (c : Thread nD τ) ↦[arg4.view.setOn (Rect.unit (s := S128x4096) ![99, 0] S1x4096.size inb_S128x4096_S1x4096_99_0).set]{fullShare} f) ∗ (arg4.view.loc (c : Thread nD τ) ↦[arg4.view.setOn (Rect.unit (s := S128x4096) ![100, 0] S1x4096.size inb_S128x4096_S1x4096_100_0).set]{fullShare} f) ∗ (arg4.view.loc (c : Thread nD τ) ↦[arg4.view.setOn (Rect.unit (s := S128x4096) ![101, 0] S1x4096.size inb_S128x4096_S1x4096_101_0).set]{fullShare} f) ∗ (arg4.view.loc (c : Thread nD τ) ↦[arg4.view.setOn (Rect.unit (s := S128x4096) ![102, 0] S1x4096.size inb_S128x4096_S1x4096_102_0).set]{fullShare} f) ∗ (arg4.view.loc (c : Thread nD τ) ↦[arg4.view.setOn (Rect.unit (s := S128x4096) ![103, 0] S1x4096.size inb_S128x4096_S1x4096_103_0).set]{fullShare} f) ∗ (arg4.view.loc (c : Thread nD τ) ↦[arg4.view.setOn (Rect.unit (s := S128x4096) ![104, 0] S1x4096.size inb_S128x4096_S1x4096_104_0).set]{fullShare} f) ∗ (arg4.view.loc (c : Thread nD τ) ↦[arg4.view.setOn (Rect.unit (s := S128x4096) ![105, 0] S1x4096.size inb_S128x4096_S1x4096_105_0).set]{fullShare} f) ∗ (arg4.view.loc (c : Thread nD τ) ↦[arg4.view.setOn (Rect.unit (s := S128x4096) ![106, 0] S1x4096.size inb_S128x4096_S1x4096_106_0).set]{fullShare} f) ∗ (arg4.view.loc (c : Thread nD τ) ↦[arg4.view.setOn (Rect.unit (s := S128x4096) ![107, 0] S1x4096.size inb_S128x4096_S1x4096_107_0).set]{fullShare} f) ∗ (arg4.view.loc (c : Thread nD τ) ↦[arg4.view.setOn (Rect.unit (s := S128x4096) ![108, 0] S1x4096.size inb_S128x4096_S1x4096_108_0).set]{fullShare} f) ∗ (arg4.view.loc (c : Thread nD τ) ↦[arg4.view.setOn (Rect.unit (s := S128x4096) ![109, 0] S1x4096.size inb_S128x4096_S1x4096_109_0).set]{fullShare} f) ∗ (arg4.view.loc (c : Thread nD τ) ↦[arg4.view.setOn (Rect.unit (s := S128x4096) ![110, 0] S1x4096.size inb_S128x4096_S1x4096_110_0).set]{fullShare} f) ∗ (arg4.view.loc (c : Thread nD τ) ↦[arg4.view.setOn (Rect.unit (s := S128x4096) ![111, 0] S1x4096.size inb_S128x4096_S1x4096_111_0).set]{fullShare} f) ∗ (arg4.view.loc (c : Thread nD τ) ↦[arg4.view.setOn (Rect.unit (s := S128x4096) ![112, 0] S1x4096.size inb_S128x4096_S1x4096_112_0).set]{fullShare} f) ∗ (arg4.view.loc (c : Thread nD τ) ↦[arg4.view.setOn (Rect.unit (s := S128x4096) ![113, 0] S1x4096.size inb_S128x4096_S1x4096_113_0).set]{fullShare} f) ∗ (arg4.view.loc (c : Thread nD τ) ↦[arg4.view.setOn (Rect.unit (s := S128x4096) ![114, 0] S1x4096.size inb_S128x4096_S1x4096_114_0).set]{fullShare} f) ∗ (arg4.view.loc (c : Thread nD τ) ↦[arg4.view.setOn (Rect.unit (s := S128x4096) ![115, 0] S1x4096.size inb_S128x4096_S1x4096_115_0).set]{fullShare} f) ∗ (arg4.view.loc (c : Thread nD τ) ↦[arg4.view.setOn (Rect.unit (s := S128x4096) ![116, 0] S1x4096.size inb_S128x4096_S1x4096_116_0).set]{fullShare} f) ∗ (arg4.view.loc (c : Thread nD τ) ↦[arg4.view.setOn (Rect.unit (s := S128x4096) ![117, 0] S1x4096.size inb_S128x4096_S1x4096_117_0).set]{fullShare} f) ∗ (arg4.view.loc (c : Thread nD τ) ↦[arg4.view.setOn (Rect.unit (s := S128x4096) ![118, 0] S1x4096.size inb_S128x4096_S1x4096_118_0).set]{fullShare} f) ∗ (arg4.view.loc (c : Thread nD τ) ↦[arg4.view.setOn (Rect.unit (s := S128x4096) ![119, 0] S1x4096.size inb_S128x4096_S1x4096_119_0).set]{fullShare} f) ∗ (arg4.view.loc (c : Thread nD τ) ↦[arg4.view.setOn (Rect.unit (s := S128x4096) ![120, 0] S1x4096.size inb_S128x4096_S1x4096_120_0).set]{fullShare} f) ∗ (arg4.view.loc (c : Thread nD τ) ↦[arg4.view.setOn (Rect.unit (s := S128x4096) ![121, 0] S1x4096.size inb_S128x4096_S1x4096_121_0).set]{fullShare} f) ∗ (arg4.view.loc (c : Thread nD τ) ↦[arg4.view.setOn (Rect.unit (s := S128x4096) ![122, 0] S1x4096.size inb_S128x4096_S1x4096_122_0).set]{fullShare} f) ∗ (arg4.view.loc (c : Thread nD τ) ↦[arg4.view.setOn (Rect.unit (s := S128x4096) ![123, 0] S1x4096.size inb_S128x4096_S1x4096_123_0).set]{fullShare} f) ∗ (arg4.view.loc (c : Thread nD τ) ↦[arg4.view.setOn (Rect.unit (s := S128x4096) ![124, 0] S1x4096.size inb_S128x4096_S1x4096_124_0).set]{fullShare} f) ∗ (arg4.view.loc (c : Thread nD τ) ↦[arg4.view.setOn (Rect.unit (s := S128x4096) ![125, 0] S1x4096.size inb_S128x4096_S1x4096_125_0).set]{fullShare} f) ∗ (arg4.view.loc (c : Thread nD τ) ↦[arg4.view.setOn (Rect.unit (s := S128x4096) ![126, 0] S1x4096.size inb_S128x4096_S1x4096_126_0).set]{fullShare} f) ∗ (arg4.view.loc (c : Thread nD τ) ↦[arg4.view.setOn (Rect.unit (s := S128x4096) ![127, 0] S1x4096.size inb_S128x4096_S1x4096_127_0).set]{fullShare} f)) := by
  rw [scratch_rows c arg4.view fullShare f, bigSep128]
  rfl

set_option maxHeartbeats 8000000 in
theorem rows_join128 (c : Dev nD) (arg4 : Memref sig .tc .vmem S128x4096 .f32)
    (f0 : Buf (Elt F) (arg4.view.loc (c : Thread nD τ))) (f1 : Buf (Elt F) (arg4.view.loc (c : Thread nD τ))) (f2 : Buf (Elt F) (arg4.view.loc (c : Thread nD τ))) (f3 : Buf (Elt F) (arg4.view.loc (c : Thread nD τ))) (f4 : Buf (Elt F) (arg4.view.loc (c : Thread nD τ))) (f5 : Buf (Elt F) (arg4.view.loc (c : Thread nD τ))) (f6 : Buf (Elt F) (arg4.view.loc (c : Thread nD τ))) (f7 : Buf (Elt F) (arg4.view.loc (c : Thread nD τ))) (f8 : Buf (Elt F) (arg4.view.loc (c : Thread nD τ))) (f9 : Buf (Elt F) (arg4.view.loc (c : Thread nD τ))) (f10 : Buf (Elt F) (arg4.view.loc (c : Thread nD τ))) (f11 : Buf (Elt F) (arg4.view.loc (c : Thread nD τ))) (f12 : Buf (Elt F) (arg4.view.loc (c : Thread nD τ))) (f13 : Buf (Elt F) (arg4.view.loc (c : Thread nD τ))) (f14 : Buf (Elt F) (arg4.view.loc (c : Thread nD τ))) (f15 : Buf (Elt F) (arg4.view.loc (c : Thread nD τ))) (f16 : Buf (Elt F) (arg4.view.loc (c : Thread nD τ))) (f17 : Buf (Elt F) (arg4.view.loc (c : Thread nD τ))) (f18 : Buf (Elt F) (arg4.view.loc (c : Thread nD τ))) (f19 : Buf (Elt F) (arg4.view.loc (c : Thread nD τ))) (f20 : Buf (Elt F) (arg4.view.loc (c : Thread nD τ))) (f21 : Buf (Elt F) (arg4.view.loc (c : Thread nD τ))) (f22 : Buf (Elt F) (arg4.view.loc (c : Thread nD τ))) (f23 : Buf (Elt F) (arg4.view.loc (c : Thread nD τ))) (f24 : Buf (Elt F) (arg4.view.loc (c : Thread nD τ))) (f25 : Buf (Elt F) (arg4.view.loc (c : Thread nD τ))) (f26 : Buf (Elt F) (arg4.view.loc (c : Thread nD τ))) (f27 : Buf (Elt F) (arg4.view.loc (c : Thread nD τ))) (f28 : Buf (Elt F) (arg4.view.loc (c : Thread nD τ))) (f29 : Buf (Elt F) (arg4.view.loc (c : Thread nD τ))) (f30 : Buf (Elt F) (arg4.view.loc (c : Thread nD τ))) (f31 : Buf (Elt F) (arg4.view.loc (c : Thread nD τ))) (f32 : Buf (Elt F) (arg4.view.loc (c : Thread nD τ))) (f33 : Buf (Elt F) (arg4.view.loc (c : Thread nD τ))) (f34 : Buf (Elt F) (arg4.view.loc (c : Thread nD τ))) (f35 : Buf (Elt F) (arg4.view.loc (c : Thread nD τ))) (f36 : Buf (Elt F) (arg4.view.loc (c : Thread nD τ))) (f37 : Buf (Elt F) (arg4.view.loc (c : Thread nD τ))) (f38 : Buf (Elt F) (arg4.view.loc (c : Thread nD τ))) (f39 : Buf (Elt F) (arg4.view.loc (c : Thread nD τ))) (f40 : Buf (Elt F) (arg4.view.loc (c : Thread nD τ))) (f41 : Buf (Elt F) (arg4.view.loc (c : Thread nD τ))) (f42 : Buf (Elt F) (arg4.view.loc (c : Thread nD τ))) (f43 : Buf (Elt F) (arg4.view.loc (c : Thread nD τ))) (f44 : Buf (Elt F) (arg4.view.loc (c : Thread nD τ))) (f45 : Buf (Elt F) (arg4.view.loc (c : Thread nD τ))) (f46 : Buf (Elt F) (arg4.view.loc (c : Thread nD τ))) (f47 : Buf (Elt F) (arg4.view.loc (c : Thread nD τ))) (f48 : Buf (Elt F) (arg4.view.loc (c : Thread nD τ))) (f49 : Buf (Elt F) (arg4.view.loc (c : Thread nD τ))) (f50 : Buf (Elt F) (arg4.view.loc (c : Thread nD τ))) (f51 : Buf (Elt F) (arg4.view.loc (c : Thread nD τ))) (f52 : Buf (Elt F) (arg4.view.loc (c : Thread nD τ))) (f53 : Buf (Elt F) (arg4.view.loc (c : Thread nD τ))) (f54 : Buf (Elt F) (arg4.view.loc (c : Thread nD τ))) (f55 : Buf (Elt F) (arg4.view.loc (c : Thread nD τ))) (f56 : Buf (Elt F) (arg4.view.loc (c : Thread nD τ))) (f57 : Buf (Elt F) (arg4.view.loc (c : Thread nD τ))) (f58 : Buf (Elt F) (arg4.view.loc (c : Thread nD τ))) (f59 : Buf (Elt F) (arg4.view.loc (c : Thread nD τ))) (f60 : Buf (Elt F) (arg4.view.loc (c : Thread nD τ))) (f61 : Buf (Elt F) (arg4.view.loc (c : Thread nD τ))) (f62 : Buf (Elt F) (arg4.view.loc (c : Thread nD τ))) (f63 : Buf (Elt F) (arg4.view.loc (c : Thread nD τ))) (f64 : Buf (Elt F) (arg4.view.loc (c : Thread nD τ))) (f65 : Buf (Elt F) (arg4.view.loc (c : Thread nD τ))) (f66 : Buf (Elt F) (arg4.view.loc (c : Thread nD τ))) (f67 : Buf (Elt F) (arg4.view.loc (c : Thread nD τ))) (f68 : Buf (Elt F) (arg4.view.loc (c : Thread nD τ))) (f69 : Buf (Elt F) (arg4.view.loc (c : Thread nD τ))) (f70 : Buf (Elt F) (arg4.view.loc (c : Thread nD τ))) (f71 : Buf (Elt F) (arg4.view.loc (c : Thread nD τ))) (f72 : Buf (Elt F) (arg4.view.loc (c : Thread nD τ))) (f73 : Buf (Elt F) (arg4.view.loc (c : Thread nD τ))) (f74 : Buf (Elt F) (arg4.view.loc (c : Thread nD τ))) (f75 : Buf (Elt F) (arg4.view.loc (c : Thread nD τ))) (f76 : Buf (Elt F) (arg4.view.loc (c : Thread nD τ))) (f77 : Buf (Elt F) (arg4.view.loc (c : Thread nD τ))) (f78 : Buf (Elt F) (arg4.view.loc (c : Thread nD τ))) (f79 : Buf (Elt F) (arg4.view.loc (c : Thread nD τ))) (f80 : Buf (Elt F) (arg4.view.loc (c : Thread nD τ))) (f81 : Buf (Elt F) (arg4.view.loc (c : Thread nD τ))) (f82 : Buf (Elt F) (arg4.view.loc (c : Thread nD τ))) (f83 : Buf (Elt F) (arg4.view.loc (c : Thread nD τ))) (f84 : Buf (Elt F) (arg4.view.loc (c : Thread nD τ))) (f85 : Buf (Elt F) (arg4.view.loc (c : Thread nD τ))) (f86 : Buf (Elt F) (arg4.view.loc (c : Thread nD τ))) (f87 : Buf (Elt F) (arg4.view.loc (c : Thread nD τ))) (f88 : Buf (Elt F) (arg4.view.loc (c : Thread nD τ))) (f89 : Buf (Elt F) (arg4.view.loc (c : Thread nD τ))) (f90 : Buf (Elt F) (arg4.view.loc (c : Thread nD τ))) (f91 : Buf (Elt F) (arg4.view.loc (c : Thread nD τ))) (f92 : Buf (Elt F) (arg4.view.loc (c : Thread nD τ))) (f93 : Buf (Elt F) (arg4.view.loc (c : Thread nD τ))) (f94 : Buf (Elt F) (arg4.view.loc (c : Thread nD τ))) (f95 : Buf (Elt F) (arg4.view.loc (c : Thread nD τ))) (f96 : Buf (Elt F) (arg4.view.loc (c : Thread nD τ))) (f97 : Buf (Elt F) (arg4.view.loc (c : Thread nD τ))) (f98 : Buf (Elt F) (arg4.view.loc (c : Thread nD τ))) (f99 : Buf (Elt F) (arg4.view.loc (c : Thread nD τ))) (f100 : Buf (Elt F) (arg4.view.loc (c : Thread nD τ))) (f101 : Buf (Elt F) (arg4.view.loc (c : Thread nD τ))) (f102 : Buf (Elt F) (arg4.view.loc (c : Thread nD τ))) (f103 : Buf (Elt F) (arg4.view.loc (c : Thread nD τ))) (f104 : Buf (Elt F) (arg4.view.loc (c : Thread nD τ))) (f105 : Buf (Elt F) (arg4.view.loc (c : Thread nD τ))) (f106 : Buf (Elt F) (arg4.view.loc (c : Thread nD τ))) (f107 : Buf (Elt F) (arg4.view.loc (c : Thread nD τ))) (f108 : Buf (Elt F) (arg4.view.loc (c : Thread nD τ))) (f109 : Buf (Elt F) (arg4.view.loc (c : Thread nD τ))) (f110 : Buf (Elt F) (arg4.view.loc (c : Thread nD τ))) (f111 : Buf (Elt F) (arg4.view.loc (c : Thread nD τ))) (f112 : Buf (Elt F) (arg4.view.loc (c : Thread nD τ))) (f113 : Buf (Elt F) (arg4.view.loc (c : Thread nD τ))) (f114 : Buf (Elt F) (arg4.view.loc (c : Thread nD τ))) (f115 : Buf (Elt F) (arg4.view.loc (c : Thread nD τ))) (f116 : Buf (Elt F) (arg4.view.loc (c : Thread nD τ))) (f117 : Buf (Elt F) (arg4.view.loc (c : Thread nD τ))) (f118 : Buf (Elt F) (arg4.view.loc (c : Thread nD τ))) (f119 : Buf (Elt F) (arg4.view.loc (c : Thread nD τ))) (f120 : Buf (Elt F) (arg4.view.loc (c : Thread nD τ))) (f121 : Buf (Elt F) (arg4.view.loc (c : Thread nD τ))) (f122 : Buf (Elt F) (arg4.view.loc (c : Thread nD τ))) (f123 : Buf (Elt F) (arg4.view.loc (c : Thread nD τ))) (f124 : Buf (Elt F) (arg4.view.loc (c : Thread nD τ))) (f125 : Buf (Elt F) (arg4.view.loc (c : Thread nD τ))) (f126 : Buf (Elt F) (arg4.view.loc (c : Thread nD τ))) (f127 : Buf (Elt F) (arg4.view.loc (c : Thread nD τ))) :
    (iprop((arg4.view.loc (c : Thread nD τ) ↦[arg4.view.setOn (Rect.unit (s := S128x4096) ![0, 0] S1x4096.size inb_S128x4096_S1x4096_0_0).set]{fullShare} f0) ∗ (arg4.view.loc (c : Thread nD τ) ↦[arg4.view.setOn (Rect.unit (s := S128x4096) ![1, 0] S1x4096.size inb_S128x4096_S1x4096_1_0).set]{fullShare} f1) ∗ (arg4.view.loc (c : Thread nD τ) ↦[arg4.view.setOn (Rect.unit (s := S128x4096) ![2, 0] S1x4096.size inb_S128x4096_S1x4096_2_0).set]{fullShare} f2) ∗ (arg4.view.loc (c : Thread nD τ) ↦[arg4.view.setOn (Rect.unit (s := S128x4096) ![3, 0] S1x4096.size inb_S128x4096_S1x4096_3_0).set]{fullShare} f3) ∗ (arg4.view.loc (c : Thread nD τ) ↦[arg4.view.setOn (Rect.unit (s := S128x4096) ![4, 0] S1x4096.size inb_S128x4096_S1x4096_4_0).set]{fullShare} f4) ∗ (arg4.view.loc (c : Thread nD τ) ↦[arg4.view.setOn (Rect.unit (s := S128x4096) ![5, 0] S1x4096.size inb_S128x4096_S1x4096_5_0).set]{fullShare} f5) ∗ (arg4.view.loc (c : Thread nD τ) ↦[arg4.view.setOn (Rect.unit (s := S128x4096) ![6, 0] S1x4096.size inb_S128x4096_S1x4096_6_0).set]{fullShare} f6) ∗ (arg4.view.loc (c : Thread nD τ) ↦[arg4.view.setOn (Rect.unit (s := S128x4096) ![7, 0] S1x4096.size inb_S128x4096_S1x4096_7_0).set]{fullShare} f7) ∗ (arg4.view.loc (c : Thread nD τ) ↦[arg4.view.setOn (Rect.unit (s := S128x4096) ![8, 0] S1x4096.size inb_S128x4096_S1x4096_8_0).set]{fullShare} f8) ∗ (arg4.view.loc (c : Thread nD τ) ↦[arg4.view.setOn (Rect.unit (s := S128x4096) ![9, 0] S1x4096.size inb_S128x4096_S1x4096_9_0).set]{fullShare} f9) ∗ (arg4.view.loc (c : Thread nD τ) ↦[arg4.view.setOn (Rect.unit (s := S128x4096) ![10, 0] S1x4096.size inb_S128x4096_S1x4096_10_0).set]{fullShare} f10) ∗ (arg4.view.loc (c : Thread nD τ) ↦[arg4.view.setOn (Rect.unit (s := S128x4096) ![11, 0] S1x4096.size inb_S128x4096_S1x4096_11_0).set]{fullShare} f11) ∗ (arg4.view.loc (c : Thread nD τ) ↦[arg4.view.setOn (Rect.unit (s := S128x4096) ![12, 0] S1x4096.size inb_S128x4096_S1x4096_12_0).set]{fullShare} f12) ∗ (arg4.view.loc (c : Thread nD τ) ↦[arg4.view.setOn (Rect.unit (s := S128x4096) ![13, 0] S1x4096.size inb_S128x4096_S1x4096_13_0).set]{fullShare} f13) ∗ (arg4.view.loc (c : Thread nD τ) ↦[arg4.view.setOn (Rect.unit (s := S128x4096) ![14, 0] S1x4096.size inb_S128x4096_S1x4096_14_0).set]{fullShare} f14) ∗ (arg4.view.loc (c : Thread nD τ) ↦[arg4.view.setOn (Rect.unit (s := S128x4096) ![15, 0] S1x4096.size inb_S128x4096_S1x4096_15_0).set]{fullShare} f15) ∗ (arg4.view.loc (c : Thread nD τ) ↦[arg4.view.setOn (Rect.unit (s := S128x4096) ![16, 0] S1x4096.size inb_S128x4096_S1x4096_16_0).set]{fullShare} f16) ∗ (arg4.view.loc (c : Thread nD τ) ↦[arg4.view.setOn (Rect.unit (s := S128x4096) ![17, 0] S1x4096.size inb_S128x4096_S1x4096_17_0).set]{fullShare} f17) ∗ (arg4.view.loc (c : Thread nD τ) ↦[arg4.view.setOn (Rect.unit (s := S128x4096) ![18, 0] S1x4096.size inb_S128x4096_S1x4096_18_0).set]{fullShare} f18) ∗ (arg4.view.loc (c : Thread nD τ) ↦[arg4.view.setOn (Rect.unit (s := S128x4096) ![19, 0] S1x4096.size inb_S128x4096_S1x4096_19_0).set]{fullShare} f19) ∗ (arg4.view.loc (c : Thread nD τ) ↦[arg4.view.setOn (Rect.unit (s := S128x4096) ![20, 0] S1x4096.size inb_S128x4096_S1x4096_20_0).set]{fullShare} f20) ∗ (arg4.view.loc (c : Thread nD τ) ↦[arg4.view.setOn (Rect.unit (s := S128x4096) ![21, 0] S1x4096.size inb_S128x4096_S1x4096_21_0).set]{fullShare} f21) ∗ (arg4.view.loc (c : Thread nD τ) ↦[arg4.view.setOn (Rect.unit (s := S128x4096) ![22, 0] S1x4096.size inb_S128x4096_S1x4096_22_0).set]{fullShare} f22) ∗ (arg4.view.loc (c : Thread nD τ) ↦[arg4.view.setOn (Rect.unit (s := S128x4096) ![23, 0] S1x4096.size inb_S128x4096_S1x4096_23_0).set]{fullShare} f23) ∗ (arg4.view.loc (c : Thread nD τ) ↦[arg4.view.setOn (Rect.unit (s := S128x4096) ![24, 0] S1x4096.size inb_S128x4096_S1x4096_24_0).set]{fullShare} f24) ∗ (arg4.view.loc (c : Thread nD τ) ↦[arg4.view.setOn (Rect.unit (s := S128x4096) ![25, 0] S1x4096.size inb_S128x4096_S1x4096_25_0).set]{fullShare} f25) ∗ (arg4.view.loc (c : Thread nD τ) ↦[arg4.view.setOn (Rect.unit (s := S128x4096) ![26, 0] S1x4096.size inb_S128x4096_S1x4096_26_0).set]{fullShare} f26) ∗ (arg4.view.loc (c : Thread nD τ) ↦[arg4.view.setOn (Rect.unit (s := S128x4096) ![27, 0] S1x4096.size inb_S128x4096_S1x4096_27_0).set]{fullShare} f27) ∗ (arg4.view.loc (c : Thread nD τ) ↦[arg4.view.setOn (Rect.unit (s := S128x4096) ![28, 0] S1x4096.size inb_S128x4096_S1x4096_28_0).set]{fullShare} f28) ∗ (arg4.view.loc (c : Thread nD τ) ↦[arg4.view.setOn (Rect.unit (s := S128x4096) ![29, 0] S1x4096.size inb_S128x4096_S1x4096_29_0).set]{fullShare} f29) ∗ (arg4.view.loc (c : Thread nD τ) ↦[arg4.view.setOn (Rect.unit (s := S128x4096) ![30, 0] S1x4096.size inb_S128x4096_S1x4096_30_0).set]{fullShare} f30) ∗ (arg4.view.loc (c : Thread nD τ) ↦[arg4.view.setOn (Rect.unit (s := S128x4096) ![31, 0] S1x4096.size inb_S128x4096_S1x4096_31_0).set]{fullShare} f31) ∗ (arg4.view.loc (c : Thread nD τ) ↦[arg4.view.setOn (Rect.unit (s := S128x4096) ![32, 0] S1x4096.size inb_S128x4096_S1x4096_32_0).set]{fullShare} f32) ∗ (arg4.view.loc (c : Thread nD τ) ↦[arg4.view.setOn (Rect.unit (s := S128x4096) ![33, 0] S1x4096.size inb_S128x4096_S1x4096_33_0).set]{fullShare} f33) ∗ (arg4.view.loc (c : Thread nD τ) ↦[arg4.view.setOn (Rect.unit (s := S128x4096) ![34, 0] S1x4096.size inb_S128x4096_S1x4096_34_0).set]{fullShare} f34) ∗ (arg4.view.loc (c : Thread nD τ) ↦[arg4.view.setOn (Rect.unit (s := S128x4096) ![35, 0] S1x4096.size inb_S128x4096_S1x4096_35_0).set]{fullShare} f35) ∗ (arg4.view.loc (c : Thread nD τ) ↦[arg4.view.setOn (Rect.unit (s := S128x4096) ![36, 0] S1x4096.size inb_S128x4096_S1x4096_36_0).set]{fullShare} f36) ∗ (arg4.view.loc (c : Thread nD τ) ↦[arg4.view.setOn (Rect.unit (s := S128x4096) ![37, 0] S1x4096.size inb_S128x4096_S1x4096_37_0).set]{fullShare} f37) ∗ (arg4.view.loc (c : Thread nD τ) ↦[arg4.view.setOn (Rect.unit (s := S128x4096) ![38, 0] S1x4096.size inb_S128x4096_S1x4096_38_0).set]{fullShare} f38) ∗ (arg4.view.loc (c : Thread nD τ) ↦[arg4.view.setOn (Rect.unit (s := S128x4096) ![39, 0] S1x4096.size inb_S128x4096_S1x4096_39_0).set]{fullShare} f39) ∗ (arg4.view.loc (c : Thread nD τ) ↦[arg4.view.setOn (Rect.unit (s := S128x4096) ![40, 0] S1x4096.size inb_S128x4096_S1x4096_40_0).set]{fullShare} f40) ∗ (arg4.view.loc (c : Thread nD τ) ↦[arg4.view.setOn (Rect.unit (s := S128x4096) ![41, 0] S1x4096.size inb_S128x4096_S1x4096_41_0).set]{fullShare} f41) ∗ (arg4.view.loc (c : Thread nD τ) ↦[arg4.view.setOn (Rect.unit (s := S128x4096) ![42, 0] S1x4096.size inb_S128x4096_S1x4096_42_0).set]{fullShare} f42) ∗ (arg4.view.loc (c : Thread nD τ) ↦[arg4.view.setOn (Rect.unit (s := S128x4096) ![43, 0] S1x4096.size inb_S128x4096_S1x4096_43_0).set]{fullShare} f43) ∗ (arg4.view.loc (c : Thread nD τ) ↦[arg4.view.setOn (Rect.unit (s := S128x4096) ![44, 0] S1x4096.size inb_S128x4096_S1x4096_44_0).set]{fullShare} f44) ∗ (arg4.view.loc (c : Thread nD τ) ↦[arg4.view.setOn (Rect.unit (s := S128x4096) ![45, 0] S1x4096.size inb_S128x4096_S1x4096_45_0).set]{fullShare} f45) ∗ (arg4.view.loc (c : Thread nD τ) ↦[arg4.view.setOn (Rect.unit (s := S128x4096) ![46, 0] S1x4096.size inb_S128x4096_S1x4096_46_0).set]{fullShare} f46) ∗ (arg4.view.loc (c : Thread nD τ) ↦[arg4.view.setOn (Rect.unit (s := S128x4096) ![47, 0] S1x4096.size inb_S128x4096_S1x4096_47_0).set]{fullShare} f47) ∗ (arg4.view.loc (c : Thread nD τ) ↦[arg4.view.setOn (Rect.unit (s := S128x4096) ![48, 0] S1x4096.size inb_S128x4096_S1x4096_48_0).set]{fullShare} f48) ∗ (arg4.view.loc (c : Thread nD τ) ↦[arg4.view.setOn (Rect.unit (s := S128x4096) ![49, 0] S1x4096.size inb_S128x4096_S1x4096_49_0).set]{fullShare} f49) ∗ (arg4.view.loc (c : Thread nD τ) ↦[arg4.view.setOn (Rect.unit (s := S128x4096) ![50, 0] S1x4096.size inb_S128x4096_S1x4096_50_0).set]{fullShare} f50) ∗ (arg4.view.loc (c : Thread nD τ) ↦[arg4.view.setOn (Rect.unit (s := S128x4096) ![51, 0] S1x4096.size inb_S128x4096_S1x4096_51_0).set]{fullShare} f51) ∗ (arg4.view.loc (c : Thread nD τ) ↦[arg4.view.setOn (Rect.unit (s := S128x4096) ![52, 0] S1x4096.size inb_S128x4096_S1x4096_52_0).set]{fullShare} f52) ∗ (arg4.view.loc (c : Thread nD τ) ↦[arg4.view.setOn (Rect.unit (s := S128x4096) ![53, 0] S1x4096.size inb_S128x4096_S1x4096_53_0).set]{fullShare} f53) ∗ (arg4.view.loc (c : Thread nD τ) ↦[arg4.view.setOn (Rect.unit (s := S128x4096) ![54, 0] S1x4096.size inb_S128x4096_S1x4096_54_0).set]{fullShare} f54) ∗ (arg4.view.loc (c : Thread nD τ) ↦[arg4.view.setOn (Rect.unit (s := S128x4096) ![55, 0] S1x4096.size inb_S128x4096_S1x4096_55_0).set]{fullShare} f55) ∗ (arg4.view.loc (c : Thread nD τ) ↦[arg4.view.setOn (Rect.unit (s := S128x4096) ![56, 0] S1x4096.size inb_S128x4096_S1x4096_56_0).set]{fullShare} f56) ∗ (arg4.view.loc (c : Thread nD τ) ↦[arg4.view.setOn (Rect.unit (s := S128x4096) ![57, 0] S1x4096.size inb_S128x4096_S1x4096_57_0).set]{fullShare} f57) ∗ (arg4.view.loc (c : Thread nD τ) ↦[arg4.view.setOn (Rect.unit (s := S128x4096) ![58, 0] S1x4096.size inb_S128x4096_S1x4096_58_0).set]{fullShare} f58) ∗ (arg4.view.loc (c : Thread nD τ) ↦[arg4.view.setOn (Rect.unit (s := S128x4096) ![59, 0] S1x4096.size inb_S128x4096_S1x4096_59_0).set]{fullShare} f59) ∗ (arg4.view.loc (c : Thread nD τ) ↦[arg4.view.setOn (Rect.unit (s := S128x4096) ![60, 0] S1x4096.size inb_S128x4096_S1x4096_60_0).set]{fullShare} f60) ∗ (arg4.view.loc (c : Thread nD τ) ↦[arg4.view.setOn (Rect.unit (s := S128x4096) ![61, 0] S1x4096.size inb_S128x4096_S1x4096_61_0).set]{fullShare} f61) ∗ (arg4.view.loc (c : Thread nD τ) ↦[arg4.view.setOn (Rect.unit (s := S128x4096) ![62, 0] S1x4096.size inb_S128x4096_S1x4096_62_0).set]{fullShare} f62) ∗ (arg4.view.loc (c : Thread nD τ) ↦[arg4.view.setOn (Rect.unit (s := S128x4096) ![63, 0] S1x4096.size inb_S128x4096_S1x4096_63_0).set]{fullShare} f63) ∗ (arg4.view.loc (c : Thread nD τ) ↦[arg4.view.setOn (Rect.unit (s := S128x4096) ![64, 0] S1x4096.size inb_S128x4096_S1x4096_64_0).set]{fullShare} f64) ∗ (arg4.view.loc (c : Thread nD τ) ↦[arg4.view.setOn (Rect.unit (s := S128x4096) ![65, 0] S1x4096.size inb_S128x4096_S1x4096_65_0).set]{fullShare} f65) ∗ (arg4.view.loc (c : Thread nD τ) ↦[arg4.view.setOn (Rect.unit (s := S128x4096) ![66, 0] S1x4096.size inb_S128x4096_S1x4096_66_0).set]{fullShare} f66) ∗ (arg4.view.loc (c : Thread nD τ) ↦[arg4.view.setOn (Rect.unit (s := S128x4096) ![67, 0] S1x4096.size inb_S128x4096_S1x4096_67_0).set]{fullShare} f67) ∗ (arg4.view.loc (c : Thread nD τ) ↦[arg4.view.setOn (Rect.unit (s := S128x4096) ![68, 0] S1x4096.size inb_S128x4096_S1x4096_68_0).set]{fullShare} f68) ∗ (arg4.view.loc (c : Thread nD τ) ↦[arg4.view.setOn (Rect.unit (s := S128x4096) ![69, 0] S1x4096.size inb_S128x4096_S1x4096_69_0).set]{fullShare} f69) ∗ (arg4.view.loc (c : Thread nD τ) ↦[arg4.view.setOn (Rect.unit (s := S128x4096) ![70, 0] S1x4096.size inb_S128x4096_S1x4096_70_0).set]{fullShare} f70) ∗ (arg4.view.loc (c : Thread nD τ) ↦[arg4.view.setOn (Rect.unit (s := S128x4096) ![71, 0] S1x4096.size inb_S128x4096_S1x4096_71_0).set]{fullShare} f71) ∗ (arg4.view.loc (c : Thread nD τ) ↦[arg4.view.setOn (Rect.unit (s := S128x4096) ![72, 0] S1x4096.size inb_S128x4096_S1x4096_72_0).set]{fullShare} f72) ∗ (arg4.view.loc (c : Thread nD τ) ↦[arg4.view.setOn (Rect.unit (s := S128x4096) ![73, 0] S1x4096.size inb_S128x4096_S1x4096_73_0).set]{fullShare} f73) ∗ (arg4.view.loc (c : Thread nD τ) ↦[arg4.view.setOn (Rect.unit (s := S128x4096) ![74, 0] S1x4096.size inb_S128x4096_S1x4096_74_0).set]{fullShare} f74) ∗ (arg4.view.loc (c : Thread nD τ) ↦[arg4.view.setOn (Rect.unit (s := S128x4096) ![75, 0] S1x4096.size inb_S128x4096_S1x4096_75_0).set]{fullShare} f75) ∗ (arg4.view.loc (c : Thread nD τ) ↦[arg4.view.setOn (Rect.unit (s := S128x4096) ![76, 0] S1x4096.size inb_S128x4096_S1x4096_76_0).set]{fullShare} f76) ∗ (arg4.view.loc (c : Thread nD τ) ↦[arg4.view.setOn (Rect.unit (s := S128x4096) ![77, 0] S1x4096.size inb_S128x4096_S1x4096_77_0).set]{fullShare} f77) ∗ (arg4.view.loc (c : Thread nD τ) ↦[arg4.view.setOn (Rect.unit (s := S128x4096) ![78, 0] S1x4096.size inb_S128x4096_S1x4096_78_0).set]{fullShare} f78) ∗ (arg4.view.loc (c : Thread nD τ) ↦[arg4.view.setOn (Rect.unit (s := S128x4096) ![79, 0] S1x4096.size inb_S128x4096_S1x4096_79_0).set]{fullShare} f79) ∗ (arg4.view.loc (c : Thread nD τ) ↦[arg4.view.setOn (Rect.unit (s := S128x4096) ![80, 0] S1x4096.size inb_S128x4096_S1x4096_80_0).set]{fullShare} f80) ∗ (arg4.view.loc (c : Thread nD τ) ↦[arg4.view.setOn (Rect.unit (s := S128x4096) ![81, 0] S1x4096.size inb_S128x4096_S1x4096_81_0).set]{fullShare} f81) ∗ (arg4.view.loc (c : Thread nD τ) ↦[arg4.view.setOn (Rect.unit (s := S128x4096) ![82, 0] S1x4096.size inb_S128x4096_S1x4096_82_0).set]{fullShare} f82) ∗ (arg4.view.loc (c : Thread nD τ) ↦[arg4.view.setOn (Rect.unit (s := S128x4096) ![83, 0] S1x4096.size inb_S128x4096_S1x4096_83_0).set]{fullShare} f83) ∗ (arg4.view.loc (c : Thread nD τ) ↦[arg4.view.setOn (Rect.unit (s := S128x4096) ![84, 0] S1x4096.size inb_S128x4096_S1x4096_84_0).set]{fullShare} f84) ∗ (arg4.view.loc (c : Thread nD τ) ↦[arg4.view.setOn (Rect.unit (s := S128x4096) ![85, 0] S1x4096.size inb_S128x4096_S1x4096_85_0).set]{fullShare} f85) ∗ (arg4.view.loc (c : Thread nD τ) ↦[arg4.view.setOn (Rect.unit (s := S128x4096) ![86, 0] S1x4096.size inb_S128x4096_S1x4096_86_0).set]{fullShare} f86) ∗ (arg4.view.loc (c : Thread nD τ) ↦[arg4.view.setOn (Rect.unit (s := S128x4096) ![87, 0] S1x4096.size inb_S128x4096_S1x4096_87_0).set]{fullShare} f87) ∗ (arg4.view.loc (c : Thread nD τ) ↦[arg4.view.setOn (Rect.unit (s := S128x4096) ![88, 0] S1x4096.size inb_S128x4096_S1x4096_88_0).set]{fullShare} f88) ∗ (arg4.view.loc (c : Thread nD τ) ↦[arg4.view.setOn (Rect.unit (s := S128x4096) ![89, 0] S1x4096.size inb_S128x4096_S1x4096_89_0).set]{fullShare} f89) ∗ (arg4.view.loc (c : Thread nD τ) ↦[arg4.view.setOn (Rect.unit (s := S128x4096) ![90, 0] S1x4096.size inb_S128x4096_S1x4096_90_0).set]{fullShare} f90) ∗ (arg4.view.loc (c : Thread nD τ) ↦[arg4.view.setOn (Rect.unit (s := S128x4096) ![91, 0] S1x4096.size inb_S128x4096_S1x4096_91_0).set]{fullShare} f91) ∗ (arg4.view.loc (c : Thread nD τ) ↦[arg4.view.setOn (Rect.unit (s := S128x4096) ![92, 0] S1x4096.size inb_S128x4096_S1x4096_92_0).set]{fullShare} f92) ∗ (arg4.view.loc (c : Thread nD τ) ↦[arg4.view.setOn (Rect.unit (s := S128x4096) ![93, 0] S1x4096.size inb_S128x4096_S1x4096_93_0).set]{fullShare} f93) ∗ (arg4.view.loc (c : Thread nD τ) ↦[arg4.view.setOn (Rect.unit (s := S128x4096) ![94, 0] S1x4096.size inb_S128x4096_S1x4096_94_0).set]{fullShare} f94) ∗ (arg4.view.loc (c : Thread nD τ) ↦[arg4.view.setOn (Rect.unit (s := S128x4096) ![95, 0] S1x4096.size inb_S128x4096_S1x4096_95_0).set]{fullShare} f95) ∗ (arg4.view.loc (c : Thread nD τ) ↦[arg4.view.setOn (Rect.unit (s := S128x4096) ![96, 0] S1x4096.size inb_S128x4096_S1x4096_96_0).set]{fullShare} f96) ∗ (arg4.view.loc (c : Thread nD τ) ↦[arg4.view.setOn (Rect.unit (s := S128x4096) ![97, 0] S1x4096.size inb_S128x4096_S1x4096_97_0).set]{fullShare} f97) ∗ (arg4.view.loc (c : Thread nD τ) ↦[arg4.view.setOn (Rect.unit (s := S128x4096) ![98, 0] S1x4096.size inb_S128x4096_S1x4096_98_0).set]{fullShare} f98) ∗ (arg4.view.loc (c : Thread nD τ) ↦[arg4.view.setOn (Rect.unit (s := S128x4096) ![99, 0] S1x4096.size inb_S128x4096_S1x4096_99_0).set]{fullShare} f99) ∗ (arg4.view.loc (c : Thread nD τ) ↦[arg4.view.setOn (Rect.unit (s := S128x4096) ![100, 0] S1x4096.size inb_S128x4096_S1x4096_100_0).set]{fullShare} f100) ∗ (arg4.view.loc (c : Thread nD τ) ↦[arg4.view.setOn (Rect.unit (s := S128x4096) ![101, 0] S1x4096.size inb_S128x4096_S1x4096_101_0).set]{fullShare} f101) ∗ (arg4.view.loc (c : Thread nD τ) ↦[arg4.view.setOn (Rect.unit (s := S128x4096) ![102, 0] S1x4096.size inb_S128x4096_S1x4096_102_0).set]{fullShare} f102) ∗ (arg4.view.loc (c : Thread nD τ) ↦[arg4.view.setOn (Rect.unit (s := S128x4096) ![103, 0] S1x4096.size inb_S128x4096_S1x4096_103_0).set]{fullShare} f103) ∗ (arg4.view.loc (c : Thread nD τ) ↦[arg4.view.setOn (Rect.unit (s := S128x4096) ![104, 0] S1x4096.size inb_S128x4096_S1x4096_104_0).set]{fullShare} f104) ∗ (arg4.view.loc (c : Thread nD τ) ↦[arg4.view.setOn (Rect.unit (s := S128x4096) ![105, 0] S1x4096.size inb_S128x4096_S1x4096_105_0).set]{fullShare} f105) ∗ (arg4.view.loc (c : Thread nD τ) ↦[arg4.view.setOn (Rect.unit (s := S128x4096) ![106, 0] S1x4096.size inb_S128x4096_S1x4096_106_0).set]{fullShare} f106) ∗ (arg4.view.loc (c : Thread nD τ) ↦[arg4.view.setOn (Rect.unit (s := S128x4096) ![107, 0] S1x4096.size inb_S128x4096_S1x4096_107_0).set]{fullShare} f107) ∗ (arg4.view.loc (c : Thread nD τ) ↦[arg4.view.setOn (Rect.unit (s := S128x4096) ![108, 0] S1x4096.size inb_S128x4096_S1x4096_108_0).set]{fullShare} f108) ∗ (arg4.view.loc (c : Thread nD τ) ↦[arg4.view.setOn (Rect.unit (s := S128x4096) ![109, 0] S1x4096.size inb_S128x4096_S1x4096_109_0).set]{fullShare} f109) ∗ (arg4.view.loc (c : Thread nD τ) ↦[arg4.view.setOn (Rect.unit (s := S128x4096) ![110, 0] S1x4096.size inb_S128x4096_S1x4096_110_0).set]{fullShare} f110) ∗ (arg4.view.loc (c : Thread nD τ) ↦[arg4.view.setOn (Rect.unit (s := S128x4096) ![111, 0] S1x4096.size inb_S128x4096_S1x4096_111_0).set]{fullShare} f111) ∗ (arg4.view.loc (c : Thread nD τ) ↦[arg4.view.setOn (Rect.unit (s := S128x4096) ![112, 0] S1x4096.size inb_S128x4096_S1x4096_112_0).set]{fullShare} f112) ∗ (arg4.view.loc (c : Thread nD τ) ↦[arg4.view.setOn (Rect.unit (s := S128x4096) ![113, 0] S1x4096.size inb_S128x4096_S1x4096_113_0).set]{fullShare} f113) ∗ (arg4.view.loc (c : Thread nD τ) ↦[arg4.view.setOn (Rect.unit (s := S128x4096) ![114, 0] S1x4096.size inb_S128x4096_S1x4096_114_0).set]{fullShare} f114) ∗ (arg4.view.loc (c : Thread nD τ) ↦[arg4.view.setOn (Rect.unit (s := S128x4096) ![115, 0] S1x4096.size inb_S128x4096_S1x4096_115_0).set]{fullShare} f115) ∗ (arg4.view.loc (c : Thread nD τ) ↦[arg4.view.setOn (Rect.unit (s := S128x4096) ![116, 0] S1x4096.size inb_S128x4096_S1x4096_116_0).set]{fullShare} f116) ∗ (arg4.view.loc (c : Thread nD τ) ↦[arg4.view.setOn (Rect.unit (s := S128x4096) ![117, 0] S1x4096.size inb_S128x4096_S1x4096_117_0).set]{fullShare} f117) ∗ (arg4.view.loc (c : Thread nD τ) ↦[arg4.view.setOn (Rect.unit (s := S128x4096) ![118, 0] S1x4096.size inb_S128x4096_S1x4096_118_0).set]{fullShare} f118) ∗ (arg4.view.loc (c : Thread nD τ) ↦[arg4.view.setOn (Rect.unit (s := S128x4096) ![119, 0] S1x4096.size inb_S128x4096_S1x4096_119_0).set]{fullShare} f119) ∗ (arg4.view.loc (c : Thread nD τ) ↦[arg4.view.setOn (Rect.unit (s := S128x4096) ![120, 0] S1x4096.size inb_S128x4096_S1x4096_120_0).set]{fullShare} f120) ∗ (arg4.view.loc (c : Thread nD τ) ↦[arg4.view.setOn (Rect.unit (s := S128x4096) ![121, 0] S1x4096.size inb_S128x4096_S1x4096_121_0).set]{fullShare} f121) ∗ (arg4.view.loc (c : Thread nD τ) ↦[arg4.view.setOn (Rect.unit (s := S128x4096) ![122, 0] S1x4096.size inb_S128x4096_S1x4096_122_0).set]{fullShare} f122) ∗ (arg4.view.loc (c : Thread nD τ) ↦[arg4.view.setOn (Rect.unit (s := S128x4096) ![123, 0] S1x4096.size inb_S128x4096_S1x4096_123_0).set]{fullShare} f123) ∗ (arg4.view.loc (c : Thread nD τ) ↦[arg4.view.setOn (Rect.unit (s := S128x4096) ![124, 0] S1x4096.size inb_S128x4096_S1x4096_124_0).set]{fullShare} f124) ∗ (arg4.view.loc (c : Thread nD τ) ↦[arg4.view.setOn (Rect.unit (s := S128x4096) ![125, 0] S1x4096.size inb_S128x4096_S1x4096_125_0).set]{fullShare} f125) ∗ (arg4.view.loc (c : Thread nD τ) ↦[arg4.view.setOn (Rect.unit (s := S128x4096) ![126, 0] S1x4096.size inb_S128x4096_S1x4096_126_0).set]{fullShare} f126) ∗ (arg4.view.loc (c : Thread nD τ) ↦[arg4.view.setOn (Rect.unit (s := S128x4096) ![127, 0] S1x4096.size inb_S128x4096_S1x4096_127_0).set]{fullShare} f127)) : sProp 𝕄)
      ⊢ (arg4.view.loc (c : Thread nD τ) ↦[arg4.view.set]{fullShare} rowsBuf c arg4.view ![f0, f1, f2, f3, f4, f5, f6, f7, f8, f9, f10, f11, f12, f13, f14, f15, f16, f17, f18, f19, f20, f21, f22, f23, f24, f25, f26, f27, f28, f29, f30, f31, f32, f33, f34, f35, f36, f37, f38, f39, f40, f41, f42, f43, f44, f45, f46, f47, f48, f49, f50, f51, f52, f53, f54, f55, f56, f57, f58, f59, f60, f61, f62, f63, f64, f65, f66, f67, f68, f69, f70, f71, f72, f73, f74, f75, f76, f77, f78, f79, f80, f81, f82, f83, f84, f85, f86, f87, f88, f89, f90, f91, f92, f93, f94, f95, f96, f97, f98, f99, f100, f101, f102, f103, f104, f105, f106, f107, f108, f109, f110, f111, f112, f113, f114, f115, f116, f117, f118, f119, f120, f121, f122, f123, f124, f125, f126, f127] : sProp 𝕄) := by
  refine (Entails.of_eq ?_).trans (rows_join c arg4.view fullShare ![f0, f1, f2, f3, f4, f5, f6, f7, f8, f9, f10, f11, f12, f13, f14, f15, f16, f17, f18, f19, f20, f21, f22, f23, f24, f25, f26, f27, f28, f29, f30, f31, f32, f33, f34, f35, f36, f37, f38, f39, f40, f41, f42, f43, f44, f45, f46, f47, f48, f49, f50, f51, f52, f53, f54, f55, f56, f57, f58, f59, f60, f61, f62, f63, f64, f65, f66, f67, f68, f69, f70, f71, f72, f73, f74, f75, f76, f77, f78, f79, f80, f81, f82, f83, f84, f85, f86, f87, f88, f89, f90, f91, f92, f93, f94, f95, f96, f97, f98, f99, f100, f101, f102, f103, f104, f105, f106, f107, f108, f109, f110, f111, f112, f113, f114, f115, f116, f117, f118, f119, f120, f121, f122, f123, f124, f125, f126, f127])
  rw [bigSep128]
  rfl

/-! ## The weight array read through one share per copy -/

abbrev hbM : Memref sig .tc .hbm S16384x4096 .f32 := Memref.whole main_arg1
abbrev HbBuf (c : Dev nD) {sp : Space} {S : Shape} {e : EltTy} (M : Memref sig .tc sp S e) : Type := Buf (Elt F) (M.view.loc (c : Thread nD τ))
/-- A memref's buffer held whole at share `q`. -/
abbrev hbPtq (c : Dev nD) {sp : Space} {S : Shape} {e : EltTy} (M : Memref sig .tc sp S e) (q : PosShare TreeShare) (f : HbBuf (F := F) c M) : sProp 𝕄 :=
  M.view.loc (c : Thread nD τ) ↦{q} f

set_option maxHeartbeats 8000000 in
/-- The weight array held at the full share is the array held at the 128 shares of the chain of halvings. -/
theorem weight_shares (c : Dev nD) (fh : HbBuf (F := F) c hbM) :
    (hbPtq c hbM fullShare fh : sProp 𝕄)
      ⊣⊢ iprop(hbPtq c hbM (kept 0).left fh ∗ hbPtq c hbM (kept 1).left fh ∗ hbPtq c hbM (kept 2).left fh ∗ hbPtq c hbM (kept 3).left fh ∗ hbPtq c hbM (kept 4).left fh ∗ hbPtq c hbM (kept 5).left fh ∗ hbPtq c hbM (kept 6).left fh ∗ hbPtq c hbM (kept 7).left fh ∗ hbPtq c hbM (kept 8).left fh ∗ hbPtq c hbM (kept 9).left fh ∗ hbPtq c hbM (kept 10).left fh ∗ hbPtq c hbM (kept 11).left fh ∗ hbPtq c hbM (kept 12).left fh ∗ hbPtq c hbM (kept 13).left fh ∗ hbPtq c hbM (kept 14).left fh ∗ hbPtq c hbM (kept 15).left fh ∗ hbPtq c hbM (kept 16).left fh ∗ hbPtq c hbM (kept 17).left fh ∗ hbPtq c hbM (kept 18).left fh ∗ hbPtq c hbM (kept 19).left fh ∗ hbPtq c hbM (kept 20).left fh ∗ hbPtq c hbM (kept 21).left fh ∗ hbPtq c hbM (kept 22).left fh ∗ hbPtq c hbM (kept 23).left fh ∗ hbPtq c hbM (kept 24).left fh ∗ hbPtq c hbM (kept 25).left fh ∗ hbPtq c hbM (kept 26).left fh ∗ hbPtq c hbM (kept 27).left fh ∗ hbPtq c hbM (kept 28).left fh ∗ hbPtq c hbM (kept 29).left fh ∗ hbPtq c hbM (kept 30).left fh ∗ hbPtq c hbM (kept 31).left fh ∗ hbPtq c hbM (kept 32).left fh ∗ hbPtq c hbM (kept 33).left fh ∗ hbPtq c hbM (kept 34).left fh ∗ hbPtq c hbM (kept 35).left fh ∗ hbPtq c hbM (kept 36).left fh ∗ hbPtq c hbM (kept 37).left fh ∗ hbPtq c hbM (kept 38).left fh ∗ hbPtq c hbM (kept 39).left fh ∗ hbPtq c hbM (kept 40).left fh ∗ hbPtq c hbM (kept 41).left fh ∗ hbPtq c hbM (kept 42).left fh ∗ hbPtq c hbM (kept 43).left fh ∗ hbPtq c hbM (kept 44).left fh ∗ hbPtq c hbM (kept 45).left fh ∗ hbPtq c hbM (kept 46).left fh ∗ hbPtq c hbM (kept 47).left fh ∗ hbPtq c hbM (kept 48).left fh ∗ hbPtq c hbM (kept 49).left fh ∗ hbPtq c hbM (kept 50).left fh ∗ hbPtq c hbM (kept 51).left fh ∗ hbPtq c hbM (kept 52).left fh ∗ hbPtq c hbM (kept 53).left fh ∗ hbPtq c hbM (kept 54).left fh ∗ hbPtq c hbM (kept 55).left fh ∗ hbPtq c hbM (kept 56).left fh ∗ hbPtq c hbM (kept 57).left fh ∗ hbPtq c hbM (kept 58).left fh ∗ hbPtq c hbM (kept 59).left fh ∗ hbPtq c hbM (kept 60).left fh ∗ hbPtq c hbM (kept 61).left fh ∗ hbPtq c hbM (kept 62).left fh ∗ hbPtq c hbM (kept 63).left fh ∗ hbPtq c hbM (kept 64).left fh ∗ hbPtq c hbM (kept 65).left fh ∗ hbPtq c hbM (kept 66).left fh ∗ hbPtq c hbM (kept 67).left fh ∗ hbPtq c hbM (kept 68).left fh ∗ hbPtq c hbM (kept 69).left fh ∗ hbPtq c hbM (kept 70).left fh ∗ hbPtq c hbM (kept 71).left fh ∗ hbPtq c hbM (kept 72).left fh ∗ hbPtq c hbM (kept 73).left fh ∗ hbPtq c hbM (kept 74).left fh ∗ hbPtq c hbM (kept 75).left fh ∗ hbPtq c hbM (kept 76).left fh ∗ hbPtq c hbM (kept 77).left fh ∗ hbPtq c hbM (kept 78).left fh ∗ hbPtq c hbM (kept 79).left fh ∗ hbPtq c hbM (kept 80).left fh ∗ hbPtq c hbM (kept 81).left fh ∗ hbPtq c hbM (kept 82).left fh ∗ hbPtq c hbM (kept 83).left fh ∗ hbPtq c hbM (kept 84).left fh ∗ hbPtq c hbM (kept 85).left fh ∗ hbPtq c hbM (kept 86).left fh ∗ hbPtq c hbM (kept 87).left fh ∗ hbPtq c hbM (kept 88).left fh ∗ hbPtq c hbM (kept 89).left fh ∗ hbPtq c hbM (kept 90).left fh ∗ hbPtq c hbM (kept 91).left fh ∗ hbPtq c hbM (kept 92).left fh ∗ hbPtq c hbM (kept 93).left fh ∗ hbPtq c hbM (kept 94).left fh ∗ hbPtq c hbM (kept 95).left fh ∗ hbPtq c hbM (kept 96).left fh ∗ hbPtq c hbM (kept 97).left fh ∗ hbPtq c hbM (kept 98).left fh ∗ hbPtq c hbM (kept 99).left fh ∗ hbPtq c hbM (kept 100).left fh ∗ hbPtq c hbM (kept 101).left fh ∗ hbPtq c hbM (kept 102).left fh ∗ hbPtq c hbM (kept 103).left fh ∗ hbPtq c hbM (kept 104).left fh ∗ hbPtq c hbM (kept 105).left fh ∗ hbPtq c hbM (kept 106).left fh ∗ hbPtq c hbM (kept 107).left fh ∗ hbPtq c hbM (kept 108).left fh ∗ hbPtq c hbM (kept 109).left fh ∗ hbPtq c hbM (kept 110).left fh ∗ hbPtq c hbM (kept 111).left fh ∗ hbPtq c hbM (kept 112).left fh ∗ hbPtq c hbM (kept 113).left fh ∗ hbPtq c hbM (kept 114).left fh ∗ hbPtq c hbM (kept 115).left fh ∗ hbPtq c hbM (kept 116).left fh ∗ hbPtq c hbM (kept 117).left fh ∗ hbPtq c hbM (kept 118).left fh ∗ hbPtq c hbM (kept 119).left fh ∗ hbPtq c hbM (kept 120).left fh ∗ hbPtq c hbM (kept 121).left fh ∗ hbPtq c hbM (kept 122).left fh ∗ hbPtq c hbM (kept 123).left fh ∗ hbPtq c hbM (kept 124).left fh ∗ hbPtq c hbM (kept 125).left fh ∗ hbPtq c hbM (kept 126).left fh ∗ hbPtq c hbM (kept 127) fh) :=
  pointsTo_chain (ℓ := hbM.view.loc (c : Thread nD τ)) Finset.univ fh 0 127

end Cert.Kernel.Hand

end
-- ==== Proof.K.GatherGeneric.lean ====
/-
  Reading one gathered row, piece by piece.
  Point i of the 64 loads table entries 128·i, …, 128·i + 127 (the 32-bit index arithmetic does not wrap); a
  one-element load off the whole table reads that entry; row n of a [R, 4096] array, taken as a [1, 4096] slice and
  squeezed to [4096], reads at j the array's entry (n, j); so the payload of one row copy is the weight array's row named
  by the table word, and a scratch row written whole with a payload reads back as the payload. A buffer that agrees
  row by row with 128 row buffers is read, at an element of row r, as row r's buffer.
-/
import proofs.«172148_j16612933501330_2_alg».proof.Proof.Gen.Kernel.Skeleton
import Idealize.ShloMosaic.Lib.WholeRead
import Idealize.ShloMosaic.Lib.ValueIdx
import Idealize.ShloMosaic.Lib.Pipeline.Value

set_option maxRecDepth 16384

noncomputable section

namespace Cert.Kernel.Hand

open Cert.Kernel Cert.Kernel.Gen
open Idealize.ShloMosaic Idealize.ShloMosaic.TcCoe Idealize.SL.Sem
open Idealize.ShloMosaic.ValueIdx

variable {F : FTy → Type} [FloatOps F]

/-- The index arithmetic of the table loads: point n of 64, word k of 128, no wrap-around. -/
theorem off_val (n k : Nat) (hn : n < 64) (hk : k < 128) :
    (Scalar.indexCast (Scalar.addi (Scalar.muli (BitVec.ofNat 32 n) 128#32) (BitVec.ofNat 32 k))).toNat = n * 128 + k := by
  show (BitVec.ofNat 32 n * 128#32 + BitVec.ofNat 32 k).toNat = _
  rw [BitVec.toNat_add, BitVec.toNat_mul, BitVec.toNat_ofNat, BitVec.toNat_ofNat, BitVec.toNat_ofNat]
  omega

/-- The word a one-element load reads off the whole table held at the contents that read x0: entry n, n the load's offset. -/
theorem word_eq (arg1 : Memref sig .tc .smem S8192 .i32) (harg1 : arg1.IsWhole) (x0 : Vec F S8192 .i32)
    (off : Fin 1 → Nat) (inb : ∀ a, off a + S1.size a ≤ S8192.size a) (h1 : 0 < S1.numel)
    (n : Nat) (hn : n < 8192) (hoff : off 0 = n) :
    arg1.view.readAt (Elt F) (Rect.unit (s := S8192) off S1.size inb).toLoadRect (harg1.unread x0) (Shape.Idx.first h1)
      = x0 (ix1 ⟨n, hn⟩) := by
  rw [harg1.readAt_unread]
  refine congrArg x0 (funext fun a => Fin.ext ?_)
  match a with
  | ⟨0, _⟩ =>
    show off 0 + 1 * (Shape.Idx.first h1 (0 : Fin 1)).val = n
    have h0 : (Shape.Idx.first h1 (0 : Fin 1)).val = 0 := by
      have hl := (Shape.Idx.first h1 (0 : Fin 1)).isLt
      have e : S1.size (0 : Fin 1) = 1 := by decide
      omega
    rw [h0, hoff]; omega

/-- Row n of a [R, 4096] memref, taken as a [1, 4096] slice and squeezed to [4096], reads at j what the memref reads at (n, j). -/
theorem row_read {κ : Kind} {sp : Space} {e : EltTy} {R : Nat} (M : Memref sig κ sp ⟨2, ![R, 4096]⟩ e)
    (f : M.view.ty.Contents (Elt F)) (n : Nat) (hn : n < R) (off : Fin 2 → Nat) (hoff : off = ![n, 0])
    (inb : ∀ a, off a + S1x4096.size a ≤ (⟨2, ![R, 4096]⟩ : Shape).size a) (hr) (hq)
    (j : Fin 4096) :
    ((M.slice (Rect.unit (s := ⟨2, ![R, 4096]⟩) off S1x4096.size inb) hr).squeeze S4096 hq).view.read (Elt F) f (ix1 j)
      = M.view.read (Elt F) f (ix2 ⟨n, hn⟩ j) := by
  subst hoff
  rw [Memref.read_squeeze_slice M _ hr hq (show S1x4096.ShapeCasts S4096 by decide) f]
  rw [shapeCast_apply _ _ (ix1 j) (ix2 (0 : Fin 1) j) (by
    show ((⟨2, ![1, 4096]⟩ : Shape).rowMajor (ix2 (0 : Fin 1) j)).val = ((⟨1, ![4096]⟩ : Shape).rowMajor (ix1 j)).val
    rw [Shape.rowMajor_val_two, Shape.rowMajor_val_one]
    show 0 * 4096 + j.val = j.val
    omega)]
  rw [View.readAt_apply]
  refine congrArg _ (funext fun a => Fin.ext ?_)
  match a with
  | ⟨0, _⟩ => show n + 1 * 0 = n; omega
  | ⟨1, _⟩ => show 0 + 1 * j.val = j.val; omega

/-- A row of the scratch written whole with a payload and read back through the scratch's own view: the payload. -/
theorem scratchRow_read (arg4 : Memref sig .tc .vmem S128x4096 .f32) (fs0 : arg4.view.ty.Contents (Elt F))
    (p : S4096.Idx → Elt F .f32) (n : Nat) (hn : n < 128) (off : Fin 2 → Nat) (hoff : off = ![n, 0])
    (inb : ∀ a, off a + S1x4096.size a ≤ S128x4096.size a) (hr) (hq) (j : Fin 4096) :
    arg4.view.read (Elt F)
        (View.write (Elt F) ((arg4.slice (Rect.unit (s := S128x4096) off S1x4096.size inb) hr).squeeze S4096 hq).view fs0 p Finset.univ)
        (ix2 ⟨n, hn⟩ j)
      = p (ix1 j) :=
  (row_read arg4 _ n hn off hoff inb hr hq j).symm.trans (congrFun (View.read_write_univ (v := ((arg4.slice (Rect.unit (s := S128x4096) off S1x4096.size inb) hr).squeeze S4096 hq).view) fs0 p) (ix1 j))

/-- The payload of one row copy: the weight array's row named by the table word, the word being entry m of the table. -/
theorem payload_apply (x0 : Vec F S8192 .i32) (hx : ∀ k : S8192.Idx, (x0 k).toNat < 16384)
    (fh : (Memref.whole main_arg1 : Memref sig .tc .hbm S16384x4096 .f32).view.ty.Contents (Elt F))
    (m : Nat) (hm : m < 8192) (w : BitVec 32) (hw : w = x0 (ix1 ⟨m, hm⟩))
    (off : Fin 2 → Nat) (hoff : off = ![w.toNat, 0])
    (inb : ∀ a, off a + S1x4096.size a ≤ S16384x4096.size a) (hr) (hq) (j : Fin 4096) :
    (((Memref.whole main_arg1 : Memref sig .tc .hbm S16384x4096 .f32).slice (Rect.unit (s := S16384x4096) off S1x4096.size inb) hr).squeeze S4096 hq).view.read (Elt F) fh (ix1 j)
      = (Memref.whole main_arg1 : Memref sig .tc .hbm S16384x4096 .f32).view.read (Elt F) fh (ix2 ⟨(x0 (ix1 ⟨m, hm⟩)).toNat, hx _⟩ j) := by
  subst hw
  exact row_read (Memref.whole main_arg1 : Memref sig .tc .hbm S16384x4096 .f32) fh _ (hx _) off hoff inb hr hq j

/-- A buffer that agrees on every row with that row's own buffer is read, at an element of row r, as row r's buffer. -/
theorem read_of_rows (arg4 : Memref sig .tc .vmem S128x4096 .f32) (X : arg4.view.ty.Contents (Elt F))
    (fs : Fin 128 → arg4.view.ty.Contents (Elt F))
    (hX : ∀ y : S128x4096.Idx, X (arg4.view.emb y) = fs ⟨(y 0).val, (y 0).isLt⟩ (arg4.view.emb y))
    (r : Fin 128) (j : Fin 4096) :
    arg4.view.read (Elt F) X (ix2 r j) = arg4.view.read (Elt F) (fs r) (ix2 r j) := by
  rw [View.read_apply, View.read_apply, hX]

/-! The table offsets of the 128 loads: load N of point i reads entry 128·i + (N−1). A table of cases. -/
theorem off1_eq (i : grid0.Coords) : k0_off1 i 0 = (i 0).val * 128 + 0 := off_val (i 0).val 0 (i 0).isLt (by decide)
theorem off3_eq (i : grid0.Coords) : k0_off3 i 0 = (i 0).val * 128 + 1 := off_val (i 0).val 1 (i 0).isLt (by decide)
theorem off5_eq (i : grid0.Coords) : k0_off5 i 0 = (i 0).val * 128 + 2 := off_val (i 0).val 2 (i 0).isLt (by decide)
theorem off7_eq (i : grid0.Coords) : k0_off7 i 0 = (i 0).val * 128 + 3 := off_val (i 0).val 3 (i 0).isLt (by decide)
theorem off9_eq (i : grid0.Coords) : k0_off9 i 0 = (i 0).val * 128 + 4 := off_val (i 0).val 4 (i 0).isLt (by decide)
theorem off11_eq (i : grid0.Coords) : k0_off11 i 0 = (i 0).val * 128 + 5 := off_val (i 0).val 5 (i 0).isLt (by decide)
theorem off13_eq (i : grid0.Coords) : k0_off13 i 0 = (i 0).val * 128 + 6 := off_val (i 0).val 6 (i 0).isLt (by decide)
theorem off15_eq (i : grid0.Coords) : k0_off15 i 0 = (i 0).val * 128 + 7 := off_val (i 0).val 7 (i 0).isLt (by decide)
theorem off17_eq (i : grid0.Coords) : k0_off17 i 0 = (i 0).val * 128 + 8 := off_val (i 0).val 8 (i 0).isLt (by decide)
theorem off19_eq (i : grid0.Coords) : k0_off19 i 0 = (i 0).val * 128 + 9 := off_val (i 0).val 9 (i 0).isLt (by decide)
theorem off21_eq (i : grid0.Coords) : k0_off21 i 0 = (i 0).val * 128 + 10 := off_val (i 0).val 10 (i 0).isLt (by decide)
theorem off23_eq (i : grid0.Coords) : k0_off23 i 0 = (i 0).val * 128 + 11 := off_val (i 0).val 11 (i 0).isLt (by decide)
theorem off25_eq (i : grid0.Coords) : k0_off25 i 0 = (i 0).val * 128 + 12 := off_val (i 0).val 12 (i 0).isLt (by decide)
theorem off27_eq (i : grid0.Coords) : k0_off27 i 0 = (i 0).val * 128 + 13 := off_val (i 0).val 13 (i 0).isLt (by decide)
theorem off29_eq (i : grid0.Coords) : k0_off29 i 0 = (i 0).val * 128 + 14 := off_val (i 0).val 14 (i 0).isLt (by decide)
theorem off31_eq (i : grid0.Coords) : k0_off31 i 0 = (i 0).val * 128 + 15 := off_val (i 0).val 15 (i 0).isLt (by decide)
theorem off33_eq (i : grid0.Coords) : k0_off33 i 0 = (i 0).val * 128 + 16 := off_val (i 0).val 16 (i 0).isLt (by decide)
theorem off35_eq (i : grid0.Coords) : k0_off35 i 0 = (i 0).val * 128 + 17 := off_val (i 0).val 17 (i 0).isLt (by decide)
theorem off37_eq (i : grid0.Coords) : k0_off37 i 0 = (i 0).val * 128 + 18 := off_val (i 0).val 18 (i 0).isLt (by decide)
theorem off39_eq (i : grid0.Coords) : k0_off39 i 0 = (i 0).val * 128 + 19 := off_val (i 0).val 19 (i 0).isLt (by decide)
theorem off41_eq (i : grid0.Coords) : k0_off41 i 0 = (i 0).val * 128 + 20 := off_val (i 0).val 20 (i 0).isLt (by decide)
theorem off43_eq (i : grid0.Coords) : k0_off43 i 0 = (i 0).val * 128 + 21 := off_val (i 0).val 21 (i 0).isLt (by decide)
theorem off45_eq (i : grid0.Coords) : k0_off45 i 0 = (i 0).val * 128 + 22 := off_val (i 0).val 22 (i 0).isLt (by decide)
theorem off47_eq (i : grid0.Coords) : k0_off47 i 0 = (i 0).val * 128 + 23 := off_val (i 0).val 23 (i 0).isLt (by decide)
theorem off49_eq (i : grid0.Coords) : k0_off49 i 0 = (i 0).val * 128 + 24 := off_val (i 0).val 24 (i 0).isLt (by decide)
theorem off51_eq (i : grid0.Coords) : k0_off51 i 0 = (i 0).val * 128 + 25 := off_val (i 0).val 25 (i 0).isLt (by decide)
theorem off53_eq (i : grid0.Coords) : k0_off53 i 0 = (i 0).val * 128 + 26 := off_val (i 0).val 26 (i 0).isLt (by decide)
theorem off55_eq (i : grid0.Coords) : k0_off55 i 0 = (i 0).val * 128 + 27 := off_val (i 0).val 27 (i 0).isLt (by decide)
theorem off57_eq (i : grid0.Coords) : k0_off57 i 0 = (i 0).val * 128 + 28 := off_val (i 0).val 28 (i 0).isLt (by decide)
theorem off59_eq (i : grid0.Coords) : k0_off59 i 0 = (i 0).val * 128 + 29 := off_val (i 0).val 29 (i 0).isLt (by decide)
theorem off61_eq (i : grid0.Coords) : k0_off61 i 0 = (i 0).val * 128 + 30 := off_val (i 0).val 30 (i 0).isLt (by decide)
theorem off63_eq (i : grid0.Coords) : k0_off63 i 0 = (i 0).val * 128 + 31 := off_val (i 0).val 31 (i 0).isLt (by decide)
theorem off65_eq (i : grid0.Coords) : k0_off65 i 0 = (i 0).val * 128 + 32 := off_val (i 0).val 32 (i 0).isLt (by decide)
theorem off67_eq (i : grid0.Coords) : k0_off67 i 0 = (i 0).val * 128 + 33 := off_val (i 0).val 33 (i 0).isLt (by decide)
theorem off69_eq (i : grid0.Coords) : k0_off69 i 0 = (i 0).val * 128 + 34 := off_val (i 0).val 34 (i 0).isLt (by decide)
theorem off71_eq (i : grid0.Coords) : k0_off71 i 0 = (i 0).val * 128 + 35 := off_val (i 0).val 35 (i 0).isLt (by decide)
theorem off73_eq (i : grid0.Coords) : k0_off73 i 0 = (i 0).val * 128 + 36 := off_val (i 0).val 36 (i 0).isLt (by decide)
theorem off75_eq (i : grid0.Coords) : k0_off75 i 0 = (i 0).val * 128 + 37 := off_val (i 0).val 37 (i 0).isLt (by decide)
theorem off77_eq (i : grid0.Coords) : k0_off77 i 0 = (i 0).val * 128 + 38 := off_val (i 0).val 38 (i 0).isLt (by decide)
theorem off79_eq (i : grid0.Coords) : k0_off79 i 0 = (i 0).val * 128 + 39 := off_val (i 0).val 39 (i 0).isLt (by decide)
theorem off81_eq (i : grid0.Coords) : k0_off81 i 0 = (i 0).val * 128 + 40 := off_val (i 0).val 40 (i 0).isLt (by decide)
theorem off83_eq (i : grid0.Coords) : k0_off83 i 0 = (i 0).val * 128 + 41 := off_val (i 0).val 41 (i 0).isLt (by decide)
theorem off85_eq (i : grid0.Coords) : k0_off85 i 0 = (i 0).val * 128 + 42 := off_val (i 0).val 42 (i 0).isLt (by decide)
theorem off87_eq (i : grid0.Coords) : k0_off87 i 0 = (i 0).val * 128 + 43 := off_val (i 0).val 43 (i 0).isLt (by decide)
theorem off89_eq (i : grid0.Coords) : k0_off89 i 0 = (i 0).val * 128 + 44 := off_val (i 0).val 44 (i 0).isLt (by decide)
theorem off91_eq (i : grid0.Coords) : k0_off91 i 0 = (i 0).val * 128 + 45 := off_val (i 0).val 45 (i 0).isLt (by decide)
theorem off93_eq (i : grid0.Coords) : k0_off93 i 0 = (i 0).val * 128 + 46 := off_val (i 0).val 46 (i 0).isLt (by decide)
theorem off95_eq (i : grid0.Coords) : k0_off95 i 0 = (i 0).val * 128 + 47 := off_val (i 0).val 47 (i 0).isLt (by decide)
theorem off97_eq (i : grid0.Coords) : k0_off97 i 0 = (i 0).val * 128 + 48 := off_val (i 0).val 48 (i 0).isLt (by decide)
theorem off99_eq (i : grid0.Coords) : k0_off99 i 0 = (i 0).val * 128 + 49 := off_val (i 0).val 49 (i 0).isLt (by decide)
theorem off101_eq (i : grid0.Coords) : k0_off101 i 0 = (i 0).val * 128 + 50 := off_val (i 0).val 50 (i 0).isLt (by decide)
theorem off103_eq (i : grid0.Coords) : k0_off103 i 0 = (i 0).val * 128 + 51 := off_val (i 0).val 51 (i 0).isLt (by decide)
theorem off105_eq (i : grid0.Coords) : k0_off105 i 0 = (i 0).val * 128 + 52 := off_val (i 0).val 52 (i 0).isLt (by decide)
theorem off107_eq (i : grid0.Coords) : k0_off107 i 0 = (i 0).val * 128 + 53 := off_val (i 0).val 53 (i 0).isLt (by decide)
theorem off109_eq (i : grid0.Coords) : k0_off109 i 0 = (i 0).val * 128 + 54 := off_val (i 0).val 54 (i 0).isLt (by decide)
theorem off111_eq (i : grid0.Coords) : k0_off111 i 0 = (i 0).val * 128 + 55 := off_val (i 0).val 55 (i 0).isLt (by decide)
theorem off113_eq (i : grid0.Coords) : k0_off113 i 0 = (i 0).val * 128 + 56 := off_val (i 0).val 56 (i 0).isLt (by decide)
theorem off115_eq (i : grid0.Coords) : k0_off115 i 0 = (i 0).val * 128 + 57 := off_val (i 0).val 57 (i 0).isLt (by decide)
theorem off117_eq (i : grid0.Coords) : k0_off117 i 0 = (i 0).val * 128 + 58 := off_val (i 0).val 58 (i 0).isLt (by decide)
theorem off119_eq (i : grid0.Coords) : k0_off119 i 0 = (i 0).val * 128 + 59 := off_val (i 0).val 59 (i 0).isLt (by decide)
theorem off121_eq (i : grid0.Coords) : k0_off121 i 0 = (i 0).val * 128 + 60 := off_val (i 0).val 60 (i 0).isLt (by decide)
theorem off123_eq (i : grid0.Coords) : k0_off123 i 0 = (i 0).val * 128 + 61 := off_val (i 0).val 61 (i 0).isLt (by decide)
theorem off125_eq (i : grid0.Coords) : k0_off125 i 0 = (i 0).val * 128 + 62 := off_val (i 0).val 62 (i 0).isLt (by decide)
theorem off127_eq (i : grid0.Coords) : k0_off127 i 0 = (i 0).val * 128 + 63 := off_val (i 0).val 63 (i 0).isLt (by decide)
theorem off129_eq (i : grid0.Coords) : k0_off129 i 0 = (i 0).val * 128 + 64 := off_val (i 0).val 64 (i 0).isLt (by decide)
theorem off131_eq (i : grid0.Coords) : k0_off131 i 0 = (i 0).val * 128 + 65 := off_val (i 0).val 65 (i 0).isLt (by decide)
theorem off133_eq (i : grid0.Coords) : k0_off133 i 0 = (i 0).val * 128 + 66 := off_val (i 0).val 66 (i 0).isLt (by decide)
theorem off135_eq (i : grid0.Coords) : k0_off135 i 0 = (i 0).val * 128 + 67 := off_val (i 0).val 67 (i 0).isLt (by decide)
theorem off137_eq (i : grid0.Coords) : k0_off137 i 0 = (i 0).val * 128 + 68 := off_val (i 0).val 68 (i 0).isLt (by decide)
theorem off139_eq (i : grid0.Coords) : k0_off139 i 0 = (i 0).val * 128 + 69 := off_val (i 0).val 69 (i 0).isLt (by decide)
theorem off141_eq (i : grid0.Coords) : k0_off141 i 0 = (i 0).val * 128 + 70 := off_val (i 0).val 70 (i 0).isLt (by decide)
theorem off143_eq (i : grid0.Coords) : k0_off143 i 0 = (i 0).val * 128 + 71 := off_val (i 0).val 71 (i 0).isLt (by decide)
theorem off145_eq (i : grid0.Coords) : k0_off145 i 0 = (i 0).val * 128 + 72 := off_val (i 0).val 72 (i 0).isLt (by decide)
theorem off147_eq (i : grid0.Coords) : k0_off147 i 0 = (i 0).val * 128 + 73 := off_val (i 0).val 73 (i 0).isLt (by decide)
theorem off149_eq (i : grid0.Coords) : k0_off149 i 0 = (i 0).val * 128 + 74 := off_val (i 0).val 74 (i 0).isLt (by decide)
theorem off151_eq (i : grid0.Coords) : k0_off151 i 0 = (i 0).val * 128 + 75 := off_val (i 0).val 75 (i 0).isLt (by decide)
theorem off153_eq (i : grid0.Coords) : k0_off153 i 0 = (i 0).val * 128 + 76 := off_val (i 0).val 76 (i 0).isLt (by decide)
theorem off155_eq (i : grid0.Coords) : k0_off155 i 0 = (i 0).val * 128 + 77 := off_val (i 0).val 77 (i 0).isLt (by decide)
theorem off157_eq (i : grid0.Coords) : k0_off157 i 0 = (i 0).val * 128 + 78 := off_val (i 0).val 78 (i 0).isLt (by decide)
theorem off159_eq (i : grid0.Coords) : k0_off159 i 0 = (i 0).val * 128 + 79 := off_val (i 0).val 79 (i 0).isLt (by decide)
theorem off161_eq (i : grid0.Coords) : k0_off161 i 0 = (i 0).val * 128 + 80 := off_val (i 0).val 80 (i 0).isLt (by decide)
theorem off163_eq (i : grid0.Coords) : k0_off163 i 0 = (i 0).val * 128 + 81 := off_val (i 0).val 81 (i 0).isLt (by decide)
theorem off165_eq (i : grid0.Coords) : k0_off165 i 0 = (i 0).val * 128 + 82 := off_val (i 0).val 82 (i 0).isLt (by decide)
theorem off167_eq (i : grid0.Coords) : k0_off167 i 0 = (i 0).val * 128 + 83 := off_val (i 0).val 83 (i 0).isLt (by decide)
theorem off169_eq (i : grid0.Coords) : k0_off169 i 0 = (i 0).val * 128 + 84 := off_val (i 0).val 84 (i 0).isLt (by decide)
theorem off171_eq (i : grid0.Coords) : k0_off171 i 0 = (i 0).val * 128 + 85 := off_val (i 0).val 85 (i 0).isLt (by decide)
theorem off173_eq (i : grid0.Coords) : k0_off173 i 0 = (i 0).val * 128 + 86 := off_val (i 0).val 86 (i 0).isLt (by decide)
theorem off175_eq (i : grid0.Coords) : k0_off175 i 0 = (i 0).val * 128 + 87 := off_val (i 0).val 87 (i 0).isLt (by decide)
theorem off177_eq (i : grid0.Coords) : k0_off177 i 0 = (i 0).val * 128 + 88 := off_val (i 0).val 88 (i 0).isLt (by decide)
theorem off179_eq (i : grid0.Coords) : k0_off179 i 0 = (i 0).val * 128 + 89 := off_val (i 0).val 89 (i 0).isLt (by decide)
theorem off181_eq (i : grid0.Coords) : k0_off181 i 0 = (i 0).val * 128 + 90 := off_val (i 0).val 90 (i 0).isLt (by decide)
theorem off183_eq (i : grid0.Coords) : k0_off183 i 0 = (i 0).val * 128 + 91 := off_val (i 0).val 91 (i 0).isLt (by decide)
theorem off185_eq (i : grid0.Coords) : k0_off185 i 0 = (i 0).val * 128 + 92 := off_val (i 0).val 92 (i 0).isLt (by decide)
theorem off187_eq (i : grid0.Coords) : k0_off187 i 0 = (i 0).val * 128 + 93 := off_val (i 0).val 93 (i 0).isLt (by decide)
theorem off189_eq (i : grid0.Coords) : k0_off189 i 0 = (i 0).val * 128 + 94 := off_val (i 0).val 94 (i 0).isLt (by decide)
theorem off191_eq (i : grid0.Coords) : k0_off191 i 0 = (i 0).val * 128 + 95 := off_val (i 0).val 95 (i 0).isLt (by decide)
theorem off193_eq (i : grid0.Coords) : k0_off193 i 0 = (i 0).val * 128 + 96 := off_val (i 0).val 96 (i 0).isLt (by decide)
theorem off195_eq (i : grid0.Coords) : k0_off195 i 0 = (i 0).val * 128 + 97 := off_val (i 0).val 97 (i 0).isLt (by decide)
theorem off197_eq (i : grid0.Coords) : k0_off197 i 0 = (i 0).val * 128 + 98 := off_val (i 0).val 98 (i 0).isLt (by decide)
theorem off199_eq (i : grid0.Coords) : k0_off199 i 0 = (i 0).val * 128 + 99 := off_val (i 0).val 99 (i 0).isLt (by decide)
theorem off201_eq (i : grid0.Coords) : k0_off201 i 0 = (i 0).val * 128 + 100 := off_val (i 0).val 100 (i 0).isLt (by decide)
theorem off203_eq (i : grid0.Coords) : k0_off203 i 0 = (i 0).val * 128 + 101 := off_val (i 0).val 101 (i 0).isLt (by decide)
theorem off205_eq (i : grid0.Coords) : k0_off205 i 0 = (i 0).val * 128 + 102 := off_val (i 0).val 102 (i 0).isLt (by decide)
theorem off207_eq (i : grid0.Coords) : k0_off207 i 0 = (i 0).val * 128 + 103 := off_val (i 0).val 103 (i 0).isLt (by decide)
theorem off209_eq (i : grid0.Coords) : k0_off209 i 0 = (i 0).val * 128 + 104 := off_val (i 0).val 104 (i 0).isLt (by decide)
theorem off211_eq (i : grid0.Coords) : k0_off211 i 0 = (i 0).val * 128 + 105 := off_val (i 0).val 105 (i 0).isLt (by decide)
theorem off213_eq (i : grid0.Coords) : k0_off213 i 0 = (i 0).val * 128 + 106 := off_val (i 0).val 106 (i 0).isLt (by decide)
theorem off215_eq (i : grid0.Coords) : k0_off215 i 0 = (i 0).val * 128 + 107 := off_val (i 0).val 107 (i 0).isLt (by decide)
theorem off217_eq (i : grid0.Coords) : k0_off217 i 0 = (i 0).val * 128 + 108 := off_val (i 0).val 108 (i 0).isLt (by decide)
theorem off219_eq (i : grid0.Coords) : k0_off219 i 0 = (i 0).val * 128 + 109 := off_val (i 0).val 109 (i 0).isLt (by decide)
theorem off221_eq (i : grid0.Coords) : k0_off221 i 0 = (i 0).val * 128 + 110 := off_val (i 0).val 110 (i 0).isLt (by decide)
theorem off223_eq (i : grid0.Coords) : k0_off223 i 0 = (i 0).val * 128 + 111 := off_val (i 0).val 111 (i 0).isLt (by decide)
theorem off225_eq (i : grid0.Coords) : k0_off225 i 0 = (i 0).val * 128 + 112 := off_val (i 0).val 112 (i 0).isLt (by decide)
theorem off227_eq (i : grid0.Coords) : k0_off227 i 0 = (i 0).val * 128 + 113 := off_val (i 0).val 113 (i 0).isLt (by decide)
theorem off229_eq (i : grid0.Coords) : k0_off229 i 0 = (i 0).val * 128 + 114 := off_val (i 0).val 114 (i 0).isLt (by decide)
theorem off231_eq (i : grid0.Coords) : k0_off231 i 0 = (i 0).val * 128 + 115 := off_val (i 0).val 115 (i 0).isLt (by decide)
theorem off233_eq (i : grid0.Coords) : k0_off233 i 0 = (i 0).val * 128 + 116 := off_val (i 0).val 116 (i 0).isLt (by decide)
theorem off235_eq (i : grid0.Coords) : k0_off235 i 0 = (i 0).val * 128 + 117 := off_val (i 0).val 117 (i 0).isLt (by decide)
theorem off237_eq (i : grid0.Coords) : k0_off237 i 0 = (i 0).val * 128 + 118 := off_val (i 0).val 118 (i 0).isLt (by decide)
theorem off239_eq (i : grid0.Coords) : k0_off239 i 0 = (i 0).val * 128 + 119 := off_val (i 0).val 119 (i 0).isLt (by decide)
theorem off241_eq (i : grid0.Coords) : k0_off241 i 0 = (i 0).val * 128 + 120 := off_val (i 0).val 120 (i 0).isLt (by decide)
theorem off243_eq (i : grid0.Coords) : k0_off243 i 0 = (i 0).val * 128 + 121 := off_val (i 0).val 121 (i 0).isLt (by decide)
theorem off245_eq (i : grid0.Coords) : k0_off245 i 0 = (i 0).val * 128 + 122 := off_val (i 0).val 122 (i 0).isLt (by decide)
theorem off247_eq (i : grid0.Coords) : k0_off247 i 0 = (i 0).val * 128 + 123 := off_val (i 0).val 123 (i 0).isLt (by decide)
theorem off249_eq (i : grid0.Coords) : k0_off249 i 0 = (i 0).val * 128 + 124 := off_val (i 0).val 124 (i 0).isLt (by decide)
theorem off251_eq (i : grid0.Coords) : k0_off251 i 0 = (i 0).val * 128 + 125 := off_val (i 0).val 125 (i 0).isLt (by decide)
theorem off253_eq (i : grid0.Coords) : k0_off253 i 0 = (i 0).val * 128 + 126 := off_val (i 0).val 126 (i 0).isLt (by decide)
theorem off255_eq (i : grid0.Coords) : k0_off255 i 0 = (i 0).val * 128 + 127 := off_val (i 0).val 127 (i 0).isLt (by decide)

end Cert.Kernel.Hand

end
-- ==== Proof.K.GatherCanon.lean ====
/-
  The scratch buffer after the 128 row copies, as one buffer that depends on the copies' payloads only: row r of the scratch
  was written whole with payload r, so whatever the scratch held before, it now reads as the 128×4096 array whose row r is
  payload r — and a whole buffer is determined by what it reads as.
-/
import proofs.«172148_j16612933501330_2_alg».proof.Proof.K.GatherLem
import proofs.«172148_j16612933501330_2_alg».proof.Proof.K.GatherGeneric

set_option maxRecDepth 16384

noncomputable section

namespace Cert.Kernel.Hand

open Cert.Kernel Cert.Kernel.Gen Cert.LibShareChain
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The 128×4096 array whose row `r` is `ps r`. -/
def rowsVec (ps : Fin 128 → (S4096.Idx → Elt F .f32)) : S128x4096.Idx → Elt F .f32 :=
  fun y => ps ⟨(y 0).val, (y 0).isLt⟩ (ix1 ⟨(y 1).val, (y 1).isLt⟩)

theorem rowsVec_apply (ps : Fin 128 → (S4096.Idx → Elt F .f32)) (r : Fin 128) (j : Fin 4096) :
    rowsVec ps (ix2 r j) = ps r (ix1 j) := rfl

theorem rowInb (r : Fin 128) : ∀ a, (![r.val, 0] : Fin 2 → Nat) a + S1x4096.size a ≤ S128x4096.size a := fun a => by
  match a with
  | ⟨0, _⟩ => show r.val + 1 ≤ 128; omega
  | ⟨1, _⟩ => show 0 + 4096 ≤ 4096; omega

/-- Row `r` of the scratch, as the view a row copy writes through. -/
abbrev rowView (arg4 : Memref sig .tc .vmem S128x4096 .f32) (r : Fin 128) : View sig .tc .vmem S4096 .f32 :=
  ((arg4.slice (Rect.unit (s := S128x4096) ![r.val, 0] S1x4096.size (rowInb r)) (fun _ => rfl)).squeeze S4096 squeezes_S1x4096_S4096).view

/-- The joined buffer of rows each written whole with its payload reads as the array of the payloads. -/
theorem rowsBuf_read (c : Dev nD) (arg4 : Memref sig .tc .vmem S128x4096 .f32) (fs0 : Buf (Elt F) (arg4.view.loc (c : Thread nD τ)))
    (ps : Fin 128 → (S4096.Idx → Elt F .f32)) :
    arg4.view.read (Elt F) (rowsBuf c arg4.view (fun r => View.write (Elt F) (rowView arg4 r) fs0 (ps r) Finset.univ)) = rowsVec ps := by
  funext y
  obtain ⟨r, j, rfl⟩ : ∃ (r : Fin 128) (j : Fin 4096), y = ix2 r j := ⟨y 0, y 1, eq_ix2 y⟩
  rw [read_of_rows arg4 _ _ (fun y => rowsBuf_emb c arg4.view _ y) r j]
  exact scratchRow_read arg4 fs0 (ps r) r.val r.isLt _ rfl (rowInb r) _ _ j

/-- Rows held each at its payload written over anything are the scratch held whole at the buffer of the payloads. -/
theorem rows_canon (c : Dev nD) (arg4 : Memref sig .tc .vmem S128x4096 .f32) (harg4 : arg4.IsWhole)
    (fs0 : Buf (Elt F) (arg4.view.loc (c : Thread nD τ))) (ps : Fin 128 → (S4096.Idx → Elt F .f32)) :
    (bigSep (Finset.univ : Finset (Fin 128)) fun r =>
        (arg4.view.loc (c : Thread nD τ) ↦[arg4.view.setOn (rowRect r).set]{fullShare} View.write (Elt F) (rowView arg4 r) fs0 (ps r) Finset.univ : sProp 𝕄))
      ⊢ (arg4.view.loc (c : Thread nD τ) ↦[arg4.view.set]{fullShare} harg4.unread (rowsVec ps) : sProp 𝕄) := by
  rw [← harg4.eq_unread (rowsBuf_read c arg4 fs0 ps)]
  exact rows_join c arg4.view fullShare _

set_option maxHeartbeats 8000000 in
/-- The same, the rows listed one by one. -/
theorem rows_canon128 (c : Dev nD) (arg4 : Memref sig .tc .vmem S128x4096 .f32) (harg4 : arg4.IsWhole)
    (fs0 : Buf (Elt F) (arg4.view.loc (c : Thread nD τ)))
    (p0 : S4096.Idx → Elt F .f32) (p1 : S4096.Idx → Elt F .f32) (p2 : S4096.Idx → Elt F .f32) (p3 : S4096.Idx → Elt F .f32) (p4 : S4096.Idx → Elt F .f32) (p5 : S4096.Idx → Elt F .f32) (p6 : S4096.Idx → Elt F .f32) (p7 : S4096.Idx → Elt F .f32) (p8 : S4096.Idx → Elt F .f32) (p9 : S4096.Idx → Elt F .f32) (p10 : S4096.Idx → Elt F .f32) (p11 : S4096.Idx → Elt F .f32) (p12 : S4096.Idx → Elt F .f32) (p13 : S4096.Idx → Elt F .f32) (p14 : S4096.Idx → Elt F .f32) (p15 : S4096.Idx → Elt F .f32) (p16 : S4096.Idx → Elt F .f32) (p17 : S4096.Idx → Elt F .f32) (p18 : S4096.Idx → Elt F .f32) (p19 : S4096.Idx → Elt F .f32) (p20 : S4096.Idx → Elt F .f32) (p21 : S4096.Idx → Elt F .f32) (p22 : S4096.Idx → Elt F .f32) (p23 : S4096.Idx → Elt F .f32) (p24 : S4096.Idx → Elt F .f32) (p25 : S4096.Idx → Elt F .f32) (p26 : S4096.Idx → Elt F .f32) (p27 : S4096.Idx → Elt F .f32) (p28 : S4096.Idx → Elt F .f32) (p29 : S4096.Idx → Elt F .f32) (p30 : S4096.Idx → Elt F .f32) (p31 : S4096.Idx → Elt F .f32) (p32 : S4096.Idx → Elt F .f32) (p33 : S4096.Idx → Elt F .f32) (p34 : S4096.Idx → Elt F .f32) (p35 : S4096.Idx → Elt F .f32) (p36 : S4096.Idx → Elt F .f32) (p37 : S4096.Idx → Elt F .f32) (p38 : S4096.Idx → Elt F .f32) (p39 : S4096.Idx → Elt F .f32) (p40 : S4096.Idx → Elt F .f32) (p41 : S4096.Idx → Elt F .f32) (p42 : S4096.Idx → Elt F .f32) (p43 : S4096.Idx → Elt F .f32) (p44 : S4096.Idx → Elt F .f32) (p45 : S4096.Idx → Elt F .f32) (p46 : S4096.Idx → Elt F .f32) (p47 : S4096.Idx → Elt F .f32) (p48 : S4096.Idx → Elt F .f32) (p49 : S4096.Idx → Elt F .f32) (p50 : S4096.Idx → Elt F .f32) (p51 : S4096.Idx → Elt F .f32) (p52 : S4096.Idx → Elt F .f32) (p53 : S4096.Idx → Elt F .f32) (p54 : S4096.Idx → Elt F .f32) (p55 : S4096.Idx → Elt F .f32) (p56 : S4096.Idx → Elt F .f32) (p57 : S4096.Idx → Elt F .f32) (p58 : S4096.Idx → Elt F .f32) (p59 : S4096.Idx → Elt F .f32) (p60 : S4096.Idx → Elt F .f32) (p61 : S4096.Idx → Elt F .f32) (p62 : S4096.Idx → Elt F .f32) (p63 : S4096.Idx → Elt F .f32) (p64 : S4096.Idx → Elt F .f32) (p65 : S4096.Idx → Elt F .f32) (p66 : S4096.Idx → Elt F .f32) (p67 : S4096.Idx → Elt F .f32) (p68 : S4096.Idx → Elt F .f32) (p69 : S4096.Idx → Elt F .f32) (p70 : S4096.Idx → Elt F .f32) (p71 : S4096.Idx → Elt F .f32) (p72 : S4096.Idx → Elt F .f32) (p73 : S4096.Idx → Elt F .f32) (p74 : S4096.Idx → Elt F .f32) (p75 : S4096.Idx → Elt F .f32) (p76 : S4096.Idx → Elt F .f32) (p77 : S4096.Idx → Elt F .f32) (p78 : S4096.Idx → Elt F .f32) (p79 : S4096.Idx → Elt F .f32) (p80 : S4096.Idx → Elt F .f32) (p81 : S4096.Idx → Elt F .f32) (p82 : S4096.Idx → Elt F .f32) (p83 : S4096.Idx → Elt F .f32) (p84 : S4096.Idx → Elt F .f32) (p85 : S4096.Idx → Elt F .f32) (p86 : S4096.Idx → Elt F .f32) (p87 : S4096.Idx → Elt F .f32) (p88 : S4096.Idx → Elt F .f32) (p89 : S4096.Idx → Elt F .f32) (p90 : S4096.Idx → Elt F .f32) (p91 : S4096.Idx → Elt F .f32) (p92 : S4096.Idx → Elt F .f32) (p93 : S4096.Idx → Elt F .f32) (p94 : S4096.Idx → Elt F .f32) (p95 : S4096.Idx → Elt F .f32) (p96 : S4096.Idx → Elt F .f32) (p97 : S4096.Idx → Elt F .f32) (p98 : S4096.Idx → Elt F .f32) (p99 : S4096.Idx → Elt F .f32) (p100 : S4096.Idx → Elt F .f32) (p101 : S4096.Idx → Elt F .f32) (p102 : S4096.Idx → Elt F .f32) (p103 : S4096.Idx → Elt F .f32) (p104 : S4096.Idx → Elt F .f32) (p105 : S4096.Idx → Elt F .f32) (p106 : S4096.Idx → Elt F .f32) (p107 : S4096.Idx → Elt F .f32) (p108 : S4096.Idx → Elt F .f32) (p109 : S4096.Idx → Elt F .f32) (p110 : S4096.Idx → Elt F .f32) (p111 : S4096.Idx → Elt F .f32) (p112 : S4096.Idx → Elt F .f32) (p113 : S4096.Idx → Elt F .f32) (p114 : S4096.Idx → Elt F .f32) (p115 : S4096.Idx → Elt F .f32) (p116 : S4096.Idx → Elt F .f32) (p117 : S4096.Idx → Elt F .f32) (p118 : S4096.Idx → Elt F .f32) (p119 : S4096.Idx → Elt F .f32) (p120 : S4096.Idx → Elt F .f32) (p121 : S4096.Idx → Elt F .f32) (p122 : S4096.Idx → Elt F .f32) (p123 : S4096.Idx → Elt F .f32) (p124 : S4096.Idx → Elt F .f32) (p125 : S4096.Idx → Elt F .f32) (p126 : S4096.Idx → Elt F .f32) (p127 : S4096.Idx → Elt F .f32) :
    (iprop((arg4.view.loc (c : Thread nD τ) ↦[arg4.view.setOn (Rect.unit (s := S128x4096) ![0, 0] S1x4096.size inb_S128x4096_S1x4096_0_0).set]{fullShare} View.write (Elt F) ((arg4.slice (Rect.unit (s := S128x4096) ![0, 0] S1x4096.size inb_S128x4096_S1x4096_0_0) (fun _ => rfl)).squeeze S4096 squeezes_S1x4096_S4096).view fs0 p0 Finset.univ) ∗ (arg4.view.loc (c : Thread nD τ) ↦[arg4.view.setOn (Rect.unit (s := S128x4096) ![1, 0] S1x4096.size inb_S128x4096_S1x4096_1_0).set]{fullShare} View.write (Elt F) ((arg4.slice (Rect.unit (s := S128x4096) ![1, 0] S1x4096.size inb_S128x4096_S1x4096_1_0) (fun _ => rfl)).squeeze S4096 squeezes_S1x4096_S4096).view fs0 p1 Finset.univ) ∗ (arg4.view.loc (c : Thread nD τ) ↦[arg4.view.setOn (Rect.unit (s := S128x4096) ![2, 0] S1x4096.size inb_S128x4096_S1x4096_2_0).set]{fullShare} View.write (Elt F) ((arg4.slice (Rect.unit (s := S128x4096) ![2, 0] S1x4096.size inb_S128x4096_S1x4096_2_0) (fun _ => rfl)).squeeze S4096 squeezes_S1x4096_S4096).view fs0 p2 Finset.univ) ∗ (arg4.view.loc (c : Thread nD τ) ↦[arg4.view.setOn (Rect.unit (s := S128x4096) ![3, 0] S1x4096.size inb_S128x4096_S1x4096_3_0).set]{fullShare} View.write (Elt F) ((arg4.slice (Rect.unit (s := S128x4096) ![3, 0] S1x4096.size inb_S128x4096_S1x4096_3_0) (fun _ => rfl)).squeeze S4096 squeezes_S1x4096_S4096).view fs0 p3 Finset.univ) ∗ (arg4.view.loc (c : Thread nD τ) ↦[arg4.view.setOn (Rect.unit (s := S128x4096) ![4, 0] S1x4096.size inb_S128x4096_S1x4096_4_0).set]{fullShare} View.write (Elt F) ((arg4.slice (Rect.unit (s := S128x4096) ![4, 0] S1x4096.size inb_S128x4096_S1x4096_4_0) (fun _ => rfl)).squeeze S4096 squeezes_S1x4096_S4096).view fs0 p4 Finset.univ) ∗ (arg4.view.loc (c : Thread nD τ) ↦[arg4.view.setOn (Rect.unit (s := S128x4096) ![5, 0] S1x4096.size inb_S128x4096_S1x4096_5_0).set]{fullShare} View.write (Elt F) ((arg4.slice (Rect.unit (s := S128x4096) ![5, 0] S1x4096.size inb_S128x4096_S1x4096_5_0) (fun _ => rfl)).squeeze S4096 squeezes_S1x4096_S4096).view fs0 p5 Finset.univ) ∗ (arg4.view.loc (c : Thread nD τ) ↦[arg4.view.setOn (Rect.unit (s := S128x4096) ![6, 0] S1x4096.size inb_S128x4096_S1x4096_6_0).set]{fullShare} View.write (Elt F) ((arg4.slice (Rect.unit (s := S128x4096) ![6, 0] S1x4096.size inb_S128x4096_S1x4096_6_0) (fun _ => rfl)).squeeze S4096 squeezes_S1x4096_S4096).view fs0 p6 Finset.univ) ∗ (arg4.view.loc (c : Thread nD τ) ↦[arg4.view.setOn (Rect.unit (s := S128x4096) ![7, 0] S1x4096.size inb_S128x4096_S1x4096_7_0).set]{fullShare} View.write (Elt F) ((arg4.slice (Rect.unit (s := S128x4096) ![7, 0] S1x4096.size inb_S128x4096_S1x4096_7_0) (fun _ => rfl)).squeeze S4096 squeezes_S1x4096_S4096).view fs0 p7 Finset.univ) ∗ (arg4.view.loc (c : Thread nD τ) ↦[arg4.view.setOn (Rect.unit (s := S128x4096) ![8, 0] S1x4096.size inb_S128x4096_S1x4096_8_0).set]{fullShare} View.write (Elt F) ((arg4.slice (Rect.unit (s := S128x4096) ![8, 0] S1x4096.size inb_S128x4096_S1x4096_8_0) (fun _ => rfl)).squeeze S4096 squeezes_S1x4096_S4096).view fs0 p8 Finset.univ) ∗ (arg4.view.loc (c : Thread nD τ) ↦[arg4.view.setOn (Rect.unit (s := S128x4096) ![9, 0] S1x4096.size inb_S128x4096_S1x4096_9_0).set]{fullShare} View.write (Elt F) ((arg4.slice (Rect.unit (s := S128x4096) ![9, 0] S1x4096.size inb_S128x4096_S1x4096_9_0) (fun _ => rfl)).squeeze S4096 squeezes_S1x4096_S4096).view fs0 p9 Finset.univ) ∗ (arg4.view.loc (c : Thread nD τ) ↦[arg4.view.setOn (Rect.unit (s := S128x4096) ![10, 0] S1x4096.size inb_S128x4096_S1x4096_10_0).set]{fullShare} View.write (Elt F) ((arg4.slice (Rect.unit (s := S128x4096) ![10, 0] S1x4096.size inb_S128x4096_S1x4096_10_0) (fun _ => rfl)).squeeze S4096 squeezes_S1x4096_S4096).view fs0 p10 Finset.univ) ∗ (arg4.view.loc (c : Thread nD τ) ↦[arg4.view.setOn (Rect.unit (s := S128x4096) ![11, 0] S1x4096.size inb_S128x4096_S1x4096_11_0).set]{fullShare} View.write (Elt F) ((arg4.slice (Rect.unit (s := S128x4096) ![11, 0] S1x4096.size inb_S128x4096_S1x4096_11_0) (fun _ => rfl)).squeeze S4096 squeezes_S1x4096_S4096).view fs0 p11 Finset.univ) ∗ (arg4.view.loc (c : Thread nD τ) ↦[arg4.view.setOn (Rect.unit (s := S128x4096) ![12, 0] S1x4096.size inb_S128x4096_S1x4096_12_0).set]{fullShare} View.write (Elt F) ((arg4.slice (Rect.unit (s := S128x4096) ![12, 0] S1x4096.size inb_S128x4096_S1x4096_12_0) (fun _ => rfl)).squeeze S4096 squeezes_S1x4096_S4096).view fs0 p12 Finset.univ) ∗ (arg4.view.loc (c : Thread nD τ) ↦[arg4.view.setOn (Rect.unit (s := S128x4096) ![13, 0] S1x4096.size inb_S128x4096_S1x4096_13_0).set]{fullShare} View.write (Elt F) ((arg4.slice (Rect.unit (s := S128x4096) ![13, 0] S1x4096.size inb_S128x4096_S1x4096_13_0) (fun _ => rfl)).squeeze S4096 squeezes_S1x4096_S4096).view fs0 p13 Finset.univ) ∗ (arg4.view.loc (c : Thread nD τ) ↦[arg4.view.setOn (Rect.unit (s := S128x4096) ![14, 0] S1x4096.size inb_S128x4096_S1x4096_14_0).set]{fullShare} View.write (Elt F) ((arg4.slice (Rect.unit (s := S128x4096) ![14, 0] S1x4096.size inb_S128x4096_S1x4096_14_0) (fun _ => rfl)).squeeze S4096 squeezes_S1x4096_S4096).view fs0 p14 Finset.univ) ∗ (arg4.view.loc (c : Thread nD τ) ↦[arg4.view.setOn (Rect.unit (s := S128x4096) ![15, 0] S1x4096.size inb_S128x4096_S1x4096_15_0).set]{fullShare} View.write (Elt F) ((arg4.slice (Rect.unit (s := S128x4096) ![15, 0] S1x4096.size inb_S128x4096_S1x4096_15_0) (fun _ => rfl)).squeeze S4096 squeezes_S1x4096_S4096).view fs0 p15 Finset.univ) ∗ (arg4.view.loc (c : Thread nD τ) ↦[arg4.view.setOn (Rect.unit (s := S128x4096) ![16, 0] S1x4096.size inb_S128x4096_S1x4096_16_0).set]{fullShare} View.write (Elt F) ((arg4.slice (Rect.unit (s := S128x4096) ![16, 0] S1x4096.size inb_S128x4096_S1x4096_16_0) (fun _ => rfl)).squeeze S4096 squeezes_S1x4096_S4096).view fs0 p16 Finset.univ) ∗ (arg4.view.loc (c : Thread nD τ) ↦[arg4.view.setOn (Rect.unit (s := S128x4096) ![17, 0] S1x4096.size inb_S128x4096_S1x4096_17_0).set]{fullShare} View.write (Elt F) ((arg4.slice (Rect.unit (s := S128x4096) ![17, 0] S1x4096.size inb_S128x4096_S1x4096_17_0) (fun _ => rfl)).squeeze S4096 squeezes_S1x4096_S4096).view fs0 p17 Finset.univ) ∗ (arg4.view.loc (c : Thread nD τ) ↦[arg4.view.setOn (Rect.unit (s := S128x4096) ![18, 0] S1x4096.size inb_S128x4096_S1x4096_18_0).set]{fullShare} View.write (Elt F) ((arg4.slice (Rect.unit (s := S128x4096) ![18, 0] S1x4096.size inb_S128x4096_S1x4096_18_0) (fun _ => rfl)).squeeze S4096 squeezes_S1x4096_S4096).view fs0 p18 Finset.univ) ∗ (arg4.view.loc (c : Thread nD τ) ↦[arg4.view.setOn (Rect.unit (s := S128x4096) ![19, 0] S1x4096.size inb_S128x4096_S1x4096_19_0).set]{fullShare} View.write (Elt F) ((arg4.slice (Rect.unit (s := S128x4096) ![19, 0] S1x4096.size inb_S128x4096_S1x4096_19_0) (fun _ => rfl)).squeeze S4096 squeezes_S1x4096_S4096).view fs0 p19 Finset.univ) ∗ (arg4.view.loc (c : Thread nD τ) ↦[arg4.view.setOn (Rect.unit (s := S128x4096) ![20, 0] S1x4096.size inb_S128x4096_S1x4096_20_0).set]{fullShare} View.write (Elt F) ((arg4.slice (Rect.unit (s := S128x4096) ![20, 0] S1x4096.size inb_S128x4096_S1x4096_20_0) (fun _ => rfl)).squeeze S4096 squeezes_S1x4096_S4096).view fs0 p20 Finset.univ) ∗ (arg4.view.loc (c : Thread nD τ) ↦[arg4.view.setOn (Rect.unit (s := S128x4096) ![21, 0] S1x4096.size inb_S128x4096_S1x4096_21_0).set]{fullShare} View.write (Elt F) ((arg4.slice (Rect.unit (s := S128x4096) ![21, 0] S1x4096.size inb_S128x4096_S1x4096_21_0) (fun _ => rfl)).squeeze S4096 squeezes_S1x4096_S4096).view fs0 p21 Finset.univ) ∗ (arg4.view.loc (c : Thread nD τ) ↦[arg4.view.setOn (Rect.unit (s := S128x4096) ![22, 0] S1x4096.size inb_S128x4096_S1x4096_22_0).set]{fullShare} View.write (Elt F) ((arg4.slice (Rect.unit (s := S128x4096) ![22, 0] S1x4096.size inb_S128x4096_S1x4096_22_0) (fun _ => rfl)).squeeze S4096 squeezes_S1x4096_S4096).view fs0 p22 Finset.univ) ∗ (arg4.view.loc (c : Thread nD τ) ↦[arg4.view.setOn (Rect.unit (s := S128x4096) ![23, 0] S1x4096.size inb_S128x4096_S1x4096_23_0).set]{fullShare} View.write (Elt F) ((arg4.slice (Rect.unit (s := S128x4096) ![23, 0] S1x4096.size inb_S128x4096_S1x4096_23_0) (fun _ => rfl)).squeeze S4096 squeezes_S1x4096_S4096).view fs0 p23 Finset.univ) ∗ (arg4.view.loc (c : Thread nD τ) ↦[arg4.view.setOn (Rect.unit (s := S128x4096) ![24, 0] S1x4096.size inb_S128x4096_S1x4096_24_0).set]{fullShare} View.write (Elt F) ((arg4.slice (Rect.unit (s := S128x4096) ![24, 0] S1x4096.size inb_S128x4096_S1x4096_24_0) (fun _ => rfl)).squeeze S4096 squeezes_S1x4096_S4096).view fs0 p24 Finset.univ) ∗ (arg4.view.loc (c : Thread nD τ) ↦[arg4.view.setOn (Rect.unit (s := S128x4096) ![25, 0] S1x4096.size inb_S128x4096_S1x4096_25_0).set]{fullShare} View.write (Elt F) ((arg4.slice (Rect.unit (s := S128x4096) ![25, 0] S1x4096.size inb_S128x4096_S1x4096_25_0) (fun _ => rfl)).squeeze S4096 squeezes_S1x4096_S4096).view fs0 p25 Finset.univ) ∗ (arg4.view.loc (c : Thread nD τ) ↦[arg4.view.setOn (Rect.unit (s := S128x4096) ![26, 0] S1x4096.size inb_S128x4096_S1x4096_26_0).set]{fullShare} View.write (Elt F) ((arg4.slice (Rect.unit (s := S128x4096) ![26, 0] S1x4096.size inb_S128x4096_S1x4096_26_0) (fun _ => rfl)).squeeze S4096 squeezes_S1x4096_S4096).view fs0 p26 Finset.univ) ∗ (arg4.view.loc (c : Thread nD τ) ↦[arg4.view.setOn (Rect.unit (s := S128x4096) ![27, 0] S1x4096.size inb_S128x4096_S1x4096_27_0).set]{fullShare} View.write (Elt F) ((arg4.slice (Rect.unit (s := S128x4096) ![27, 0] S1x4096.size inb_S128x4096_S1x4096_27_0) (fun _ => rfl)).squeeze S4096 squeezes_S1x4096_S4096).view fs0 p27 Finset.univ) ∗ (arg4.view.loc (c : Thread nD τ) ↦[arg4.view.setOn (Rect.unit (s := S128x4096) ![28, 0] S1x4096.size inb_S128x4096_S1x4096_28_0).set]{fullShare} View.write (Elt F) ((arg4.slice (Rect.unit (s := S128x4096) ![28, 0] S1x4096.size inb_S128x4096_S1x4096_28_0) (fun _ => rfl)).squeeze S4096 squeezes_S1x4096_S4096).view fs0 p28 Finset.univ) ∗ (arg4.view.loc (c : Thread nD τ) ↦[arg4.view.setOn (Rect.unit (s := S128x4096) ![29, 0] S1x4096.size inb_S128x4096_S1x4096_29_0).set]{fullShare} View.write (Elt F) ((arg4.slice (Rect.unit (s := S128x4096) ![29, 0] S1x4096.size inb_S128x4096_S1x4096_29_0) (fun _ => rfl)).squeeze S4096 squeezes_S1x4096_S4096).view fs0 p29 Finset.univ) ∗ (arg4.view.loc (c : Thread nD τ) ↦[arg4.view.setOn (Rect.unit (s := S128x4096) ![30, 0] S1x4096.size inb_S128x4096_S1x4096_30_0).set]{fullShare} View.write (Elt F) ((arg4.slice (Rect.unit (s := S128x4096) ![30, 0] S1x4096.size inb_S128x4096_S1x4096_30_0) (fun _ => rfl)).squeeze S4096 squeezes_S1x4096_S4096).view fs0 p30 Finset.univ) ∗ (arg4.view.loc (c : Thread nD τ) ↦[arg4.view.setOn (Rect.unit (s := S128x4096) ![31, 0] S1x4096.size inb_S128x4096_S1x4096_31_0).set]{fullShare} View.write (Elt F) ((arg4.slice (Rect.unit (s := S128x4096) ![31, 0] S1x4096.size inb_S128x4096_S1x4096_31_0) (fun _ => rfl)).squeeze S4096 squeezes_S1x4096_S4096).view fs0 p31 Finset.univ) ∗ (arg4.view.loc (c : Thread nD τ) ↦[arg4.view.setOn (Rect.unit (s := S128x4096) ![32, 0] S1x4096.size inb_S128x4096_S1x4096_32_0).set]{fullShare} View.write (Elt F) ((arg4.slice (Rect.unit (s := S128x4096) ![32, 0] S1x4096.size inb_S128x4096_S1x4096_32_0) (fun _ => rfl)).squeeze S4096 squeezes_S1x4096_S4096).view fs0 p32 Finset.univ) ∗ (arg4.view.loc (c : Thread nD τ) ↦[arg4.view.setOn (Rect.unit (s := S128x4096) ![33, 0] S1x4096.size inb_S128x4096_S1x4096_33_0).set]{fullShare} View.write (Elt F) ((arg4.slice (Rect.unit (s := S128x4096) ![33, 0] S1x4096.size inb_S128x4096_S1x4096_33_0) (fun _ => rfl)).squeeze S4096 squeezes_S1x4096_S4096).view fs0 p33 Finset.univ) ∗ (arg4.view.loc (c : Thread nD τ) ↦[arg4.view.setOn (Rect.unit (s := S128x4096) ![34, 0] S1x4096.size inb_S128x4096_S1x4096_34_0).set]{fullShare} View.write (Elt F) ((arg4.slice (Rect.unit (s := S128x4096) ![34, 0] S1x4096.size inb_S128x4096_S1x4096_34_0) (fun _ => rfl)).squeeze S4096 squeezes_S1x4096_S4096).view fs0 p34 Finset.univ) ∗ (arg4.view.loc (c : Thread nD τ) ↦[arg4.view.setOn (Rect.unit (s := S128x4096) ![35, 0] S1x4096.size inb_S128x4096_S1x4096_35_0).set]{fullShare} View.write (Elt F) ((arg4.slice (Rect.unit (s := S128x4096) ![35, 0] S1x4096.size inb_S128x4096_S1x4096_35_0) (fun _ => rfl)).squeeze S4096 squeezes_S1x4096_S4096).view fs0 p35 Finset.univ) ∗ (arg4.view.loc (c : Thread nD τ) ↦[arg4.view.setOn (Rect.unit (s := S128x4096) ![36, 0] S1x4096.size inb_S128x4096_S1x4096_36_0).set]{fullShare} View.write (Elt F) ((arg4.slice (Rect.unit (s := S128x4096) ![36, 0] S1x4096.size inb_S128x4096_S1x4096_36_0) (fun _ => rfl)).squeeze S4096 squeezes_S1x4096_S4096).view fs0 p36 Finset.univ) ∗ (arg4.view.loc (c : Thread nD τ) ↦[arg4.view.setOn (Rect.unit (s := S128x4096) ![37, 0] S1x4096.size inb_S128x4096_S1x4096_37_0).set]{fullShare} View.write (Elt F) ((arg4.slice (Rect.unit (s := S128x4096) ![37, 0] S1x4096.size inb_S128x4096_S1x4096_37_0) (fun _ => rfl)).squeeze S4096 squeezes_S1x4096_S4096).view fs0 p37 Finset.univ) ∗ (arg4.view.loc (c : Thread nD τ) ↦[arg4.view.setOn (Rect.unit (s := S128x4096) ![38, 0] S1x4096.size inb_S128x4096_S1x4096_38_0).set]{fullShare} View.write (Elt F) ((arg4.slice (Rect.unit (s := S128x4096) ![38, 0] S1x4096.size inb_S128x4096_S1x4096_38_0) (fun _ => rfl)).squeeze S4096 squeezes_S1x4096_S4096).view fs0 p38 Finset.univ) ∗ (arg4.view.loc (c : Thread nD τ) ↦[arg4.view.setOn (Rect.unit (s := S128x4096) ![39, 0] S1x4096.size inb_S128x4096_S1x4096_39_0).set]{fullShare} View.write (Elt F) ((arg4.slice (Rect.unit (s := S128x4096) ![39, 0] S1x4096.size inb_S128x4096_S1x4096_39_0) (fun _ => rfl)).squeeze S4096 squeezes_S1x4096_S4096).view fs0 p39 Finset.univ) ∗ (arg4.view.loc (c : Thread nD τ) ↦[arg4.view.setOn (Rect.unit (s := S128x4096) ![40, 0] S1x4096.size inb_S128x4096_S1x4096_40_0).set]{fullShare} View.write (Elt F) ((arg4.slice (Rect.unit (s := S128x4096) ![40, 0] S1x4096.size inb_S128x4096_S1x4096_40_0) (fun _ => rfl)).squeeze S4096 squeezes_S1x4096_S4096).view fs0 p40 Finset.univ) ∗ (arg4.view.loc (c : Thread nD τ) ↦[arg4.view.setOn (Rect.unit (s := S128x4096) ![41, 0] S1x4096.size inb_S128x4096_S1x4096_41_0).set]{fullShare} View.write (Elt F) ((arg4.slice (Rect.unit (s := S128x4096) ![41, 0] S1x4096.size inb_S128x4096_S1x4096_41_0) (fun _ => rfl)).squeeze S4096 squeezes_S1x4096_S4096).view fs0 p41 Finset.univ) ∗ (arg4.view.loc (c : Thread nD τ) ↦[arg4.view.setOn (Rect.unit (s := S128x4096) ![42, 0] S1x4096.size inb_S128x4096_S1x4096_42_0).set]{fullShare} View.write (Elt F) ((arg4.slice (Rect.unit (s := S128x4096) ![42, 0] S1x4096.size inb_S128x4096_S1x4096_42_0) (fun _ => rfl)).squeeze S4096 squeezes_S1x4096_S4096).view fs0 p42 Finset.univ) ∗ (arg4.view.loc (c : Thread nD τ) ↦[arg4.view.setOn (Rect.unit (s := S128x4096) ![43, 0] S1x4096.size inb_S128x4096_S1x4096_43_0).set]{fullShare} View.write (Elt F) ((arg4.slice (Rect.unit (s := S128x4096) ![43, 0] S1x4096.size inb_S128x4096_S1x4096_43_0) (fun _ => rfl)).squeeze S4096 squeezes_S1x4096_S4096).view fs0 p43 Finset.univ) ∗ (arg4.view.loc (c : Thread nD τ) ↦[arg4.view.setOn (Rect.unit (s := S128x4096) ![44, 0] S1x4096.size inb_S128x4096_S1x4096_44_0).set]{fullShare} View.write (Elt F) ((arg4.slice (Rect.unit (s := S128x4096) ![44, 0] S1x4096.size inb_S128x4096_S1x4096_44_0) (fun _ => rfl)).squeeze S4096 squeezes_S1x4096_S4096).view fs0 p44 Finset.univ) ∗ (arg4.view.loc (c : Thread nD τ) ↦[arg4.view.setOn (Rect.unit (s := S128x4096) ![45, 0] S1x4096.size inb_S128x4096_S1x4096_45_0).set]{fullShare} View.write (Elt F) ((arg4.slice (Rect.unit (s := S128x4096) ![45, 0] S1x4096.size inb_S128x4096_S1x4096_45_0) (fun _ => rfl)).squeeze S4096 squeezes_S1x4096_S4096).view fs0 p45 Finset.univ) ∗ (arg4.view.loc (c : Thread nD τ) ↦[arg4.view.setOn (Rect.unit (s := S128x4096) ![46, 0] S1x4096.size inb_S128x4096_S1x4096_46_0).set]{fullShare} View.write (Elt F) ((arg4.slice (Rect.unit (s := S128x4096) ![46, 0] S1x4096.size inb_S128x4096_S1x4096_46_0) (fun _ => rfl)).squeeze S4096 squeezes_S1x4096_S4096).view fs0 p46 Finset.univ) ∗ (arg4.view.loc (c : Thread nD τ) ↦[arg4.view.setOn (Rect.unit (s := S128x4096) ![47, 0] S1x4096.size inb_S128x4096_S1x4096_47_0).set]{fullShare} View.write (Elt F) ((arg4.slice (Rect.unit (s := S128x4096) ![47, 0] S1x4096.size inb_S128x4096_S1x4096_47_0) (fun _ => rfl)).squeeze S4096 squeezes_S1x4096_S4096).view fs0 p47 Finset.univ) ∗ (arg4.view.loc (c : Thread nD τ) ↦[arg4.view.setOn (Rect.unit (s := S128x4096) ![48, 0] S1x4096.size inb_S128x4096_S1x4096_48_0).set]{fullShare} View.write (Elt F) ((arg4.slice (Rect.unit (s := S128x4096) ![48, 0] S1x4096.size inb_S128x4096_S1x4096_48_0) (fun _ => rfl)).squeeze S4096 squeezes_S1x4096_S4096).view fs0 p48 Finset.univ) ∗ (arg4.view.loc (c : Thread nD τ) ↦[arg4.view.setOn (Rect.unit (s := S128x4096) ![49, 0] S1x4096.size inb_S128x4096_S1x4096_49_0).set]{fullShare} View.write (Elt F) ((arg4.slice (Rect.unit (s := S128x4096) ![49, 0] S1x4096.size inb_S128x4096_S1x4096_49_0) (fun _ => rfl)).squeeze S4096 squeezes_S1x4096_S4096).view fs0 p49 Finset.univ) ∗ (arg4.view.loc (c : Thread nD τ) ↦[arg4.view.setOn (Rect.unit (s := S128x4096) ![50, 0] S1x4096.size inb_S128x4096_S1x4096_50_0).set]{fullShare} View.write (Elt F) ((arg4.slice (Rect.unit (s := S128x4096) ![50, 0] S1x4096.size inb_S128x4096_S1x4096_50_0) (fun _ => rfl)).squeeze S4096 squeezes_S1x4096_S4096).view fs0 p50 Finset.univ) ∗ (arg4.view.loc (c : Thread nD τ) ↦[arg4.view.setOn (Rect.unit (s := S128x4096) ![51, 0] S1x4096.size inb_S128x4096_S1x4096_51_0).set]{fullShare} View.write (Elt F) ((arg4.slice (Rect.unit (s := S128x4096) ![51, 0] S1x4096.size inb_S128x4096_S1x4096_51_0) (fun _ => rfl)).squeeze S4096 squeezes_S1x4096_S4096).view fs0 p51 Finset.univ) ∗ (arg4.view.loc (c : Thread nD τ) ↦[arg4.view.setOn (Rect.unit (s := S128x4096) ![52, 0] S1x4096.size inb_S128x4096_S1x4096_52_0).set]{fullShare} View.write (Elt F) ((arg4.slice (Rect.unit (s := S128x4096) ![52, 0] S1x4096.size inb_S128x4096_S1x4096_52_0) (fun _ => rfl)).squeeze S4096 squeezes_S1x4096_S4096).view fs0 p52 Finset.univ) ∗ (arg4.view.loc (c : Thread nD τ) ↦[arg4.view.setOn (Rect.unit (s := S128x4096) ![53, 0] S1x4096.size inb_S128x4096_S1x4096_53_0).set]{fullShare} View.write (Elt F) ((arg4.slice (Rect.unit (s := S128x4096) ![53, 0] S1x4096.size inb_S128x4096_S1x4096_53_0) (fun _ => rfl)).squeeze S4096 squeezes_S1x4096_S4096).view fs0 p53 Finset.univ) ∗ (arg4.view.loc (c : Thread nD τ) ↦[arg4.view.setOn (Rect.unit (s := S128x4096) ![54, 0] S1x4096.size inb_S128x4096_S1x4096_54_0).set]{fullShare} View.write (Elt F) ((arg4.slice (Rect.unit (s := S128x4096) ![54, 0] S1x4096.size inb_S128x4096_S1x4096_54_0) (fun _ => rfl)).squeeze S4096 squeezes_S1x4096_S4096).view fs0 p54 Finset.univ) ∗ (arg4.view.loc (c : Thread nD τ) ↦[arg4.view.setOn (Rect.unit (s := S128x4096) ![55, 0] S1x4096.size inb_S128x4096_S1x4096_55_0).set]{fullShare} View.write (Elt F) ((arg4.slice (Rect.unit (s := S128x4096) ![55, 0] S1x4096.size inb_S128x4096_S1x4096_55_0) (fun _ => rfl)).squeeze S4096 squeezes_S1x4096_S4096).view fs0 p55 Finset.univ) ∗ (arg4.view.loc (c : Thread nD τ) ↦[arg4.view.setOn (Rect.unit (s := S128x4096) ![56, 0] S1x4096.size inb_S128x4096_S1x4096_56_0).set]{fullShare} View.write (Elt F) ((arg4.slice (Rect.unit (s := S128x4096) ![56, 0] S1x4096.size inb_S128x4096_S1x4096_56_0) (fun _ => rfl)).squeeze S4096 squeezes_S1x4096_S4096).view fs0 p56 Finset.univ) ∗ (arg4.view.loc (c : Thread nD τ) ↦[arg4.view.setOn (Rect.unit (s := S128x4096) ![57, 0] S1x4096.size inb_S128x4096_S1x4096_57_0).set]{fullShare} View.write (Elt F) ((arg4.slice (Rect.unit (s := S128x4096) ![57, 0] S1x4096.size inb_S128x4096_S1x4096_57_0) (fun _ => rfl)).squeeze S4096 squeezes_S1x4096_S4096).view fs0 p57 Finset.univ) ∗ (arg4.view.loc (c : Thread nD τ) ↦[arg4.view.setOn (Rect.unit (s := S128x4096) ![58, 0] S1x4096.size inb_S128x4096_S1x4096_58_0).set]{fullShare} View.write (Elt F) ((arg4.slice (Rect.unit (s := S128x4096) ![58, 0] S1x4096.size inb_S128x4096_S1x4096_58_0) (fun _ => rfl)).squeeze S4096 squeezes_S1x4096_S4096).view fs0 p58 Finset.univ) ∗ (arg4.view.loc (c : Thread nD τ) ↦[arg4.view.setOn (Rect.unit (s := S128x4096) ![59, 0] S1x4096.size inb_S128x4096_S1x4096_59_0).set]{fullShare} View.write (Elt F) ((arg4.slice (Rect.unit (s := S128x4096) ![59, 0] S1x4096.size inb_S128x4096_S1x4096_59_0) (fun _ => rfl)).squeeze S4096 squeezes_S1x4096_S4096).view fs0 p59 Finset.univ) ∗ (arg4.view.loc (c : Thread nD τ) ↦[arg4.view.setOn (Rect.unit (s := S128x4096) ![60, 0] S1x4096.size inb_S128x4096_S1x4096_60_0).set]{fullShare} View.write (Elt F) ((arg4.slice (Rect.unit (s := S128x4096) ![60, 0] S1x4096.size inb_S128x4096_S1x4096_60_0) (fun _ => rfl)).squeeze S4096 squeezes_S1x4096_S4096).view fs0 p60 Finset.univ) ∗ (arg4.view.loc (c : Thread nD τ) ↦[arg4.view.setOn (Rect.unit (s := S128x4096) ![61, 0] S1x4096.size inb_S128x4096_S1x4096_61_0).set]{fullShare} View.write (Elt F) ((arg4.slice (Rect.unit (s := S128x4096) ![61, 0] S1x4096.size inb_S128x4096_S1x4096_61_0) (fun _ => rfl)).squeeze S4096 squeezes_S1x4096_S4096).view fs0 p61 Finset.univ) ∗ (arg4.view.loc (c : Thread nD τ) ↦[arg4.view.setOn (Rect.unit (s := S128x4096) ![62, 0] S1x4096.size inb_S128x4096_S1x4096_62_0).set]{fullShare} View.write (Elt F) ((arg4.slice (Rect.unit (s := S128x4096) ![62, 0] S1x4096.size inb_S128x4096_S1x4096_62_0) (fun _ => rfl)).squeeze S4096 squeezes_S1x4096_S4096).view fs0 p62 Finset.univ) ∗ (arg4.view.loc (c : Thread nD τ) ↦[arg4.view.setOn (Rect.unit (s := S128x4096) ![63, 0] S1x4096.size inb_S128x4096_S1x4096_63_0).set]{fullShare} View.write (Elt F) ((arg4.slice (Rect.unit (s := S128x4096) ![63, 0] S1x4096.size inb_S128x4096_S1x4096_63_0) (fun _ => rfl)).squeeze S4096 squeezes_S1x4096_S4096).view fs0 p63 Finset.univ) ∗ (arg4.view.loc (c : Thread nD τ) ↦[arg4.view.setOn (Rect.unit (s := S128x4096) ![64, 0] S1x4096.size inb_S128x4096_S1x4096_64_0).set]{fullShare} View.write (Elt F) ((arg4.slice (Rect.unit (s := S128x4096) ![64, 0] S1x4096.size inb_S128x4096_S1x4096_64_0) (fun _ => rfl)).squeeze S4096 squeezes_S1x4096_S4096).view fs0 p64 Finset.univ) ∗ (arg4.view.loc (c : Thread nD τ) ↦[arg4.view.setOn (Rect.unit (s := S128x4096) ![65, 0] S1x4096.size inb_S128x4096_S1x4096_65_0).set]{fullShare} View.write (Elt F) ((arg4.slice (Rect.unit (s := S128x4096) ![65, 0] S1x4096.size inb_S128x4096_S1x4096_65_0) (fun _ => rfl)).squeeze S4096 squeezes_S1x4096_S4096).view fs0 p65 Finset.univ) ∗ (arg4.view.loc (c : Thread nD τ) ↦[arg4.view.setOn (Rect.unit (s := S128x4096) ![66, 0] S1x4096.size inb_S128x4096_S1x4096_66_0).set]{fullShare} View.write (Elt F) ((arg4.slice (Rect.unit (s := S128x4096) ![66, 0] S1x4096.size inb_S128x4096_S1x4096_66_0) (fun _ => rfl)).squeeze S4096 squeezes_S1x4096_S4096).view fs0 p66 Finset.univ) ∗ (arg4.view.loc (c : Thread nD τ) ↦[arg4.view.setOn (Rect.unit (s := S128x4096) ![67, 0] S1x4096.size inb_S128x4096_S1x4096_67_0).set]{fullShare} View.write (Elt F) ((arg4.slice (Rect.unit (s := S128x4096) ![67, 0] S1x4096.size inb_S128x4096_S1x4096_67_0) (fun _ => rfl)).squeeze S4096 squeezes_S1x4096_S4096).view fs0 p67 Finset.univ) ∗ (arg4.view.loc (c : Thread nD τ) ↦[arg4.view.setOn (Rect.unit (s := S128x4096) ![68, 0] S1x4096.size inb_S128x4096_S1x4096_68_0).set]{fullShare} View.write (Elt F) ((arg4.slice (Rect.unit (s := S128x4096) ![68, 0] S1x4096.size inb_S128x4096_S1x4096_68_0) (fun _ => rfl)).squeeze S4096 squeezes_S1x4096_S4096).view fs0 p68 Finset.univ) ∗ (arg4.view.loc (c : Thread nD τ) ↦[arg4.view.setOn (Rect.unit (s := S128x4096) ![69, 0] S1x4096.size inb_S128x4096_S1x4096_69_0).set]{fullShare} View.write (Elt F) ((arg4.slice (Rect.unit (s := S128x4096) ![69, 0] S1x4096.size inb_S128x4096_S1x4096_69_0) (fun _ => rfl)).squeeze S4096 squeezes_S1x4096_S4096).view fs0 p69 Finset.univ) ∗ (arg4.view.loc (c : Thread nD τ) ↦[arg4.view.setOn (Rect.unit (s := S128x4096) ![70, 0] S1x4096.size inb_S128x4096_S1x4096_70_0).set]{fullShare} View.write (Elt F) ((arg4.slice (Rect.unit (s := S128x4096) ![70, 0] S1x4096.size inb_S128x4096_S1x4096_70_0) (fun _ => rfl)).squeeze S4096 squeezes_S1x4096_S4096).view fs0 p70 Finset.univ) ∗ (arg4.view.loc (c : Thread nD τ) ↦[arg4.view.setOn (Rect.unit (s := S128x4096) ![71, 0] S1x4096.size inb_S128x4096_S1x4096_71_0).set]{fullShare} View.write (Elt F) ((arg4.slice (Rect.unit (s := S128x4096) ![71, 0] S1x4096.size inb_S128x4096_S1x4096_71_0) (fun _ => rfl)).squeeze S4096 squeezes_S1x4096_S4096).view fs0 p71 Finset.univ) ∗ (arg4.view.loc (c : Thread nD τ) ↦[arg4.view.setOn (Rect.unit (s := S128x4096) ![72, 0] S1x4096.size inb_S128x4096_S1x4096_72_0).set]{fullShare} View.write (Elt F) ((arg4.slice (Rect.unit (s := S128x4096) ![72, 0] S1x4096.size inb_S128x4096_S1x4096_72_0) (fun _ => rfl)).squeeze S4096 squeezes_S1x4096_S4096).view fs0 p72 Finset.univ) ∗ (arg4.view.loc (c : Thread nD τ) ↦[arg4.view.setOn (Rect.unit (s := S128x4096) ![73, 0] S1x4096.size inb_S128x4096_S1x4096_73_0).set]{fullShare} View.write (Elt F) ((arg4.slice (Rect.unit (s := S128x4096) ![73, 0] S1x4096.size inb_S128x4096_S1x4096_73_0) (fun _ => rfl)).squeeze S4096 squeezes_S1x4096_S4096).view fs0 p73 Finset.univ) ∗ (arg4.view.loc (c : Thread nD τ) ↦[arg4.view.setOn (Rect.unit (s := S128x4096) ![74, 0] S1x4096.size inb_S128x4096_S1x4096_74_0).set]{fullShare} View.write (Elt F) ((arg4.slice (Rect.unit (s := S128x4096) ![74, 0] S1x4096.size inb_S128x4096_S1x4096_74_0) (fun _ => rfl)).squeeze S4096 squeezes_S1x4096_S4096).view fs0 p74 Finset.univ) ∗ (arg4.view.loc (c : Thread nD τ) ↦[arg4.view.setOn (Rect.unit (s := S128x4096) ![75, 0] S1x4096.size inb_S128x4096_S1x4096_75_0).set]{fullShare} View.write (Elt F) ((arg4.slice (Rect.unit (s := S128x4096) ![75, 0] S1x4096.size inb_S128x4096_S1x4096_75_0) (fun _ => rfl)).squeeze S4096 squeezes_S1x4096_S4096).view fs0 p75 Finset.univ) ∗ (arg4.view.loc (c : Thread nD τ) ↦[arg4.view.setOn (Rect.unit (s := S128x4096) ![76, 0] S1x4096.size inb_S128x4096_S1x4096_76_0).set]{fullShare} View.write (Elt F) ((arg4.slice (Rect.unit (s := S128x4096) ![76, 0] S1x4096.size inb_S128x4096_S1x4096_76_0) (fun _ => rfl)).squeeze S4096 squeezes_S1x4096_S4096).view fs0 p76 Finset.univ) ∗ (arg4.view.loc (c : Thread nD τ) ↦[arg4.view.setOn (Rect.unit (s := S128x4096) ![77, 0] S1x4096.size inb_S128x4096_S1x4096_77_0).set]{fullShare} View.write (Elt F) ((arg4.slice (Rect.unit (s := S128x4096) ![77, 0] S1x4096.size inb_S128x4096_S1x4096_77_0) (fun _ => rfl)).squeeze S4096 squeezes_S1x4096_S4096).view fs0 p77 Finset.univ) ∗ (arg4.view.loc (c : Thread nD τ) ↦[arg4.view.setOn (Rect.unit (s := S128x4096) ![78, 0] S1x4096.size inb_S128x4096_S1x4096_78_0).set]{fullShare} View.write (Elt F) ((arg4.slice (Rect.unit (s := S128x4096) ![78, 0] S1x4096.size inb_S128x4096_S1x4096_78_0) (fun _ => rfl)).squeeze S4096 squeezes_S1x4096_S4096).view fs0 p78 Finset.univ) ∗ (arg4.view.loc (c : Thread nD τ) ↦[arg4.view.setOn (Rect.unit (s := S128x4096) ![79, 0] S1x4096.size inb_S128x4096_S1x4096_79_0).set]{fullShare} View.write (Elt F) ((arg4.slice (Rect.unit (s := S128x4096) ![79, 0] S1x4096.size inb_S128x4096_S1x4096_79_0) (fun _ => rfl)).squeeze S4096 squeezes_S1x4096_S4096).view fs0 p79 Finset.univ) ∗ (arg4.view.loc (c : Thread nD τ) ↦[arg4.view.setOn (Rect.unit (s := S128x4096) ![80, 0] S1x4096.size inb_S128x4096_S1x4096_80_0).set]{fullShare} View.write (Elt F) ((arg4.slice (Rect.unit (s := S128x4096) ![80, 0] S1x4096.size inb_S128x4096_S1x4096_80_0) (fun _ => rfl)).squeeze S4096 squeezes_S1x4096_S4096).view fs0 p80 Finset.univ) ∗ (arg4.view.loc (c : Thread nD τ) ↦[arg4.view.setOn (Rect.unit (s := S128x4096) ![81, 0] S1x4096.size inb_S128x4096_S1x4096_81_0).set]{fullShare} View.write (Elt F) ((arg4.slice (Rect.unit (s := S128x4096) ![81, 0] S1x4096.size inb_S128x4096_S1x4096_81_0) (fun _ => rfl)).squeeze S4096 squeezes_S1x4096_S4096).view fs0 p81 Finset.univ) ∗ (arg4.view.loc (c : Thread nD τ) ↦[arg4.view.setOn (Rect.unit (s := S128x4096) ![82, 0] S1x4096.size inb_S128x4096_S1x4096_82_0).set]{fullShare} View.write (Elt F) ((arg4.slice (Rect.unit (s := S128x4096) ![82, 0] S1x4096.size inb_S128x4096_S1x4096_82_0) (fun _ => rfl)).squeeze S4096 squeezes_S1x4096_S4096).view fs0 p82 Finset.univ) ∗ (arg4.view.loc (c : Thread nD τ) ↦[arg4.view.setOn (Rect.unit (s := S128x4096) ![83, 0] S1x4096.size inb_S128x4096_S1x4096_83_0).set]{fullShare} View.write (Elt F) ((arg4.slice (Rect.unit (s := S128x4096) ![83, 0] S1x4096.size inb_S128x4096_S1x4096_83_0) (fun _ => rfl)).squeeze S4096 squeezes_S1x4096_S4096).view fs0 p83 Finset.univ) ∗ (arg4.view.loc (c : Thread nD τ) ↦[arg4.view.setOn (Rect.unit (s := S128x4096) ![84, 0] S1x4096.size inb_S128x4096_S1x4096_84_0).set]{fullShare} View.write (Elt F) ((arg4.slice (Rect.unit (s := S128x4096) ![84, 0] S1x4096.size inb_S128x4096_S1x4096_84_0) (fun _ => rfl)).squeeze S4096 squeezes_S1x4096_S4096).view fs0 p84 Finset.univ) ∗ (arg4.view.loc (c : Thread nD τ) ↦[arg4.view.setOn (Rect.unit (s := S128x4096) ![85, 0] S1x4096.size inb_S128x4096_S1x4096_85_0).set]{fullShare} View.write (Elt F) ((arg4.slice (Rect.unit (s := S128x4096) ![85, 0] S1x4096.size inb_S128x4096_S1x4096_85_0) (fun _ => rfl)).squeeze S4096 squeezes_S1x4096_S4096).view fs0 p85 Finset.univ) ∗ (arg4.view.loc (c : Thread nD τ) ↦[arg4.view.setOn (Rect.unit (s := S128x4096) ![86, 0] S1x4096.size inb_S128x4096_S1x4096_86_0).set]{fullShare} View.write (Elt F) ((arg4.slice (Rect.unit (s := S128x4096) ![86, 0] S1x4096.size inb_S128x4096_S1x4096_86_0) (fun _ => rfl)).squeeze S4096 squeezes_S1x4096_S4096).view fs0 p86 Finset.univ) ∗ (arg4.view.loc (c : Thread nD τ) ↦[arg4.view.setOn (Rect.unit (s := S128x4096) ![87, 0] S1x4096.size inb_S128x4096_S1x4096_87_0).set]{fullShare} View.write (Elt F) ((arg4.slice (Rect.unit (s := S128x4096) ![87, 0] S1x4096.size inb_S128x4096_S1x4096_87_0) (fun _ => rfl)).squeeze S4096 squeezes_S1x4096_S4096).view fs0 p87 Finset.univ) ∗ (arg4.view.loc (c : Thread nD τ) ↦[arg4.view.setOn (Rect.unit (s := S128x4096) ![88, 0] S1x4096.size inb_S128x4096_S1x4096_88_0).set]{fullShare} View.write (Elt F) ((arg4.slice (Rect.unit (s := S128x4096) ![88, 0] S1x4096.size inb_S128x4096_S1x4096_88_0) (fun _ => rfl)).squeeze S4096 squeezes_S1x4096_S4096).view fs0 p88 Finset.univ) ∗ (arg4.view.loc (c : Thread nD τ) ↦[arg4.view.setOn (Rect.unit (s := S128x4096) ![89, 0] S1x4096.size inb_S128x4096_S1x4096_89_0).set]{fullShare} View.write (Elt F) ((arg4.slice (Rect.unit (s := S128x4096) ![89, 0] S1x4096.size inb_S128x4096_S1x4096_89_0) (fun _ => rfl)).squeeze S4096 squeezes_S1x4096_S4096).view fs0 p89 Finset.univ) ∗ (arg4.view.loc (c : Thread nD τ) ↦[arg4.view.setOn (Rect.unit (s := S128x4096) ![90, 0] S1x4096.size inb_S128x4096_S1x4096_90_0).set]{fullShare} View.write (Elt F) ((arg4.slice (Rect.unit (s := S128x4096) ![90, 0] S1x4096.size inb_S128x4096_S1x4096_90_0) (fun _ => rfl)).squeeze S4096 squeezes_S1x4096_S4096).view fs0 p90 Finset.univ) ∗ (arg4.view.loc (c : Thread nD τ) ↦[arg4.view.setOn (Rect.unit (s := S128x4096) ![91, 0] S1x4096.size inb_S128x4096_S1x4096_91_0).set]{fullShare} View.write (Elt F) ((arg4.slice (Rect.unit (s := S128x4096) ![91, 0] S1x4096.size inb_S128x4096_S1x4096_91_0) (fun _ => rfl)).squeeze S4096 squeezes_S1x4096_S4096).view fs0 p91 Finset.univ) ∗ (arg4.view.loc (c : Thread nD τ) ↦[arg4.view.setOn (Rect.unit (s := S128x4096) ![92, 0] S1x4096.size inb_S128x4096_S1x4096_92_0).set]{fullShare} View.write (Elt F) ((arg4.slice (Rect.unit (s := S128x4096) ![92, 0] S1x4096.size inb_S128x4096_S1x4096_92_0) (fun _ => rfl)).squeeze S4096 squeezes_S1x4096_S4096).view fs0 p92 Finset.univ) ∗ (arg4.view.loc (c : Thread nD τ) ↦[arg4.view.setOn (Rect.unit (s := S128x4096) ![93, 0] S1x4096.size inb_S128x4096_S1x4096_93_0).set]{fullShare} View.write (Elt F) ((arg4.slice (Rect.unit (s := S128x4096) ![93, 0] S1x4096.size inb_S128x4096_S1x4096_93_0) (fun _ => rfl)).squeeze S4096 squeezes_S1x4096_S4096).view fs0 p93 Finset.univ) ∗ (arg4.view.loc (c : Thread nD τ) ↦[arg4.view.setOn (Rect.unit (s := S128x4096) ![94, 0] S1x4096.size inb_S128x4096_S1x4096_94_0).set]{fullShare} View.write (Elt F) ((arg4.slice (Rect.unit (s := S128x4096) ![94, 0] S1x4096.size inb_S128x4096_S1x4096_94_0) (fun _ => rfl)).squeeze S4096 squeezes_S1x4096_S4096).view fs0 p94 Finset.univ) ∗ (arg4.view.loc (c : Thread nD τ) ↦[arg4.view.setOn (Rect.unit (s := S128x4096) ![95, 0] S1x4096.size inb_S128x4096_S1x4096_95_0).set]{fullShare} View.write (Elt F) ((arg4.slice (Rect.unit (s := S128x4096) ![95, 0] S1x4096.size inb_S128x4096_S1x4096_95_0) (fun _ => rfl)).squeeze S4096 squeezes_S1x4096_S4096).view fs0 p95 Finset.univ) ∗ (arg4.view.loc (c : Thread nD τ) ↦[arg4.view.setOn (Rect.unit (s := S128x4096) ![96, 0] S1x4096.size inb_S128x4096_S1x4096_96_0).set]{fullShare} View.write (Elt F) ((arg4.slice (Rect.unit (s := S128x4096) ![96, 0] S1x4096.size inb_S128x4096_S1x4096_96_0) (fun _ => rfl)).squeeze S4096 squeezes_S1x4096_S4096).view fs0 p96 Finset.univ) ∗ (arg4.view.loc (c : Thread nD τ) ↦[arg4.view.setOn (Rect.unit (s := S128x4096) ![97, 0] S1x4096.size inb_S128x4096_S1x4096_97_0).set]{fullShare} View.write (Elt F) ((arg4.slice (Rect.unit (s := S128x4096) ![97, 0] S1x4096.size inb_S128x4096_S1x4096_97_0) (fun _ => rfl)).squeeze S4096 squeezes_S1x4096_S4096).view fs0 p97 Finset.univ) ∗ (arg4.view.loc (c : Thread nD τ) ↦[arg4.view.setOn (Rect.unit (s := S128x4096) ![98, 0] S1x4096.size inb_S128x4096_S1x4096_98_0).set]{fullShare} View.write (Elt F) ((arg4.slice (Rect.unit (s := S128x4096) ![98, 0] S1x4096.size inb_S128x4096_S1x4096_98_0) (fun _ => rfl)).squeeze S4096 squeezes_S1x4096_S4096).view fs0 p98 Finset.univ) ∗ (arg4.view.loc (c : Thread nD τ) ↦[arg4.view.setOn (Rect.unit (s := S128x4096) ![99, 0] S1x4096.size inb_S128x4096_S1x4096_99_0).set]{fullShare} View.write (Elt F) ((arg4.slice (Rect.unit (s := S128x4096) ![99, 0] S1x4096.size inb_S128x4096_S1x4096_99_0) (fun _ => rfl)).squeeze S4096 squeezes_S1x4096_S4096).view fs0 p99 Finset.univ) ∗ (arg4.view.loc (c : Thread nD τ) ↦[arg4.view.setOn (Rect.unit (s := S128x4096) ![100, 0] S1x4096.size inb_S128x4096_S1x4096_100_0).set]{fullShare} View.write (Elt F) ((arg4.slice (Rect.unit (s := S128x4096) ![100, 0] S1x4096.size inb_S128x4096_S1x4096_100_0) (fun _ => rfl)).squeeze S4096 squeezes_S1x4096_S4096).view fs0 p100 Finset.univ) ∗ (arg4.view.loc (c : Thread nD τ) ↦[arg4.view.setOn (Rect.unit (s := S128x4096) ![101, 0] S1x4096.size inb_S128x4096_S1x4096_101_0).set]{fullShare} View.write (Elt F) ((arg4.slice (Rect.unit (s := S128x4096) ![101, 0] S1x4096.size inb_S128x4096_S1x4096_101_0) (fun _ => rfl)).squeeze S4096 squeezes_S1x4096_S4096).view fs0 p101 Finset.univ) ∗ (arg4.view.loc (c : Thread nD τ) ↦[arg4.view.setOn (Rect.unit (s := S128x4096) ![102, 0] S1x4096.size inb_S128x4096_S1x4096_102_0).set]{fullShare} View.write (Elt F) ((arg4.slice (Rect.unit (s := S128x4096) ![102, 0] S1x4096.size inb_S128x4096_S1x4096_102_0) (fun _ => rfl)).squeeze S4096 squeezes_S1x4096_S4096).view fs0 p102 Finset.univ) ∗ (arg4.view.loc (c : Thread nD τ) ↦[arg4.view.setOn (Rect.unit (s := S128x4096) ![103, 0] S1x4096.size inb_S128x4096_S1x4096_103_0).set]{fullShare} View.write (Elt F) ((arg4.slice (Rect.unit (s := S128x4096) ![103, 0] S1x4096.size inb_S128x4096_S1x4096_103_0) (fun _ => rfl)).squeeze S4096 squeezes_S1x4096_S4096).view fs0 p103 Finset.univ) ∗ (arg4.view.loc (c : Thread nD τ) ↦[arg4.view.setOn (Rect.unit (s := S128x4096) ![104, 0] S1x4096.size inb_S128x4096_S1x4096_104_0).set]{fullShare} View.write (Elt F) ((arg4.slice (Rect.unit (s := S128x4096) ![104, 0] S1x4096.size inb_S128x4096_S1x4096_104_0) (fun _ => rfl)).squeeze S4096 squeezes_S1x4096_S4096).view fs0 p104 Finset.univ) ∗ (arg4.view.loc (c : Thread nD τ) ↦[arg4.view.setOn (Rect.unit (s := S128x4096) ![105, 0] S1x4096.size inb_S128x4096_S1x4096_105_0).set]{fullShare} View.write (Elt F) ((arg4.slice (Rect.unit (s := S128x4096) ![105, 0] S1x4096.size inb_S128x4096_S1x4096_105_0) (fun _ => rfl)).squeeze S4096 squeezes_S1x4096_S4096).view fs0 p105 Finset.univ) ∗ (arg4.view.loc (c : Thread nD τ) ↦[arg4.view.setOn (Rect.unit (s := S128x4096) ![106, 0] S1x4096.size inb_S128x4096_S1x4096_106_0).set]{fullShare} View.write (Elt F) ((arg4.slice (Rect.unit (s := S128x4096) ![106, 0] S1x4096.size inb_S128x4096_S1x4096_106_0) (fun _ => rfl)).squeeze S4096 squeezes_S1x4096_S4096).view fs0 p106 Finset.univ) ∗ (arg4.view.loc (c : Thread nD τ) ↦[arg4.view.setOn (Rect.unit (s := S128x4096) ![107, 0] S1x4096.size inb_S128x4096_S1x4096_107_0).set]{fullShare} View.write (Elt F) ((arg4.slice (Rect.unit (s := S128x4096) ![107, 0] S1x4096.size inb_S128x4096_S1x4096_107_0) (fun _ => rfl)).squeeze S4096 squeezes_S1x4096_S4096).view fs0 p107 Finset.univ) ∗ (arg4.view.loc (c : Thread nD τ) ↦[arg4.view.setOn (Rect.unit (s := S128x4096) ![108, 0] S1x4096.size inb_S128x4096_S1x4096_108_0).set]{fullShare} View.write (Elt F) ((arg4.slice (Rect.unit (s := S128x4096) ![108, 0] S1x4096.size inb_S128x4096_S1x4096_108_0) (fun _ => rfl)).squeeze S4096 squeezes_S1x4096_S4096).view fs0 p108 Finset.univ) ∗ (arg4.view.loc (c : Thread nD τ) ↦[arg4.view.setOn (Rect.unit (s := S128x4096) ![109, 0] S1x4096.size inb_S128x4096_S1x4096_109_0).set]{fullShare} View.write (Elt F) ((arg4.slice (Rect.unit (s := S128x4096) ![109, 0] S1x4096.size inb_S128x4096_S1x4096_109_0) (fun _ => rfl)).squeeze S4096 squeezes_S1x4096_S4096).view fs0 p109 Finset.univ) ∗ (arg4.view.loc (c : Thread nD τ) ↦[arg4.view.setOn (Rect.unit (s := S128x4096) ![110, 0] S1x4096.size inb_S128x4096_S1x4096_110_0).set]{fullShare} View.write (Elt F) ((arg4.slice (Rect.unit (s := S128x4096) ![110, 0] S1x4096.size inb_S128x4096_S1x4096_110_0) (fun _ => rfl)).squeeze S4096 squeezes_S1x4096_S4096).view fs0 p110 Finset.univ) ∗ (arg4.view.loc (c : Thread nD τ) ↦[arg4.view.setOn (Rect.unit (s := S128x4096) ![111, 0] S1x4096.size inb_S128x4096_S1x4096_111_0).set]{fullShare} View.write (Elt F) ((arg4.slice (Rect.unit (s := S128x4096) ![111, 0] S1x4096.size inb_S128x4096_S1x4096_111_0) (fun _ => rfl)).squeeze S4096 squeezes_S1x4096_S4096).view fs0 p111 Finset.univ) ∗ (arg4.view.loc (c : Thread nD τ) ↦[arg4.view.setOn (Rect.unit (s := S128x4096) ![112, 0] S1x4096.size inb_S128x4096_S1x4096_112_0).set]{fullShare} View.write (Elt F) ((arg4.slice (Rect.unit (s := S128x4096) ![112, 0] S1x4096.size inb_S128x4096_S1x4096_112_0) (fun _ => rfl)).squeeze S4096 squeezes_S1x4096_S4096).view fs0 p112 Finset.univ) ∗ (arg4.view.loc (c : Thread nD τ) ↦[arg4.view.setOn (Rect.unit (s := S128x4096) ![113, 0] S1x4096.size inb_S128x4096_S1x4096_113_0).set]{fullShare} View.write (Elt F) ((arg4.slice (Rect.unit (s := S128x4096) ![113, 0] S1x4096.size inb_S128x4096_S1x4096_113_0) (fun _ => rfl)).squeeze S4096 squeezes_S1x4096_S4096).view fs0 p113 Finset.univ) ∗ (arg4.view.loc (c : Thread nD τ) ↦[arg4.view.setOn (Rect.unit (s := S128x4096) ![114, 0] S1x4096.size inb_S128x4096_S1x4096_114_0).set]{fullShare} View.write (Elt F) ((arg4.slice (Rect.unit (s := S128x4096) ![114, 0] S1x4096.size inb_S128x4096_S1x4096_114_0) (fun _ => rfl)).squeeze S4096 squeezes_S1x4096_S4096).view fs0 p114 Finset.univ) ∗ (arg4.view.loc (c : Thread nD τ) ↦[arg4.view.setOn (Rect.unit (s := S128x4096) ![115, 0] S1x4096.size inb_S128x4096_S1x4096_115_0).set]{fullShare} View.write (Elt F) ((arg4.slice (Rect.unit (s := S128x4096) ![115, 0] S1x4096.size inb_S128x4096_S1x4096_115_0) (fun _ => rfl)).squeeze S4096 squeezes_S1x4096_S4096).view fs0 p115 Finset.univ) ∗ (arg4.view.loc (c : Thread nD τ) ↦[arg4.view.setOn (Rect.unit (s := S128x4096) ![116, 0] S1x4096.size inb_S128x4096_S1x4096_116_0).set]{fullShare} View.write (Elt F) ((arg4.slice (Rect.unit (s := S128x4096) ![116, 0] S1x4096.size inb_S128x4096_S1x4096_116_0) (fun _ => rfl)).squeeze S4096 squeezes_S1x4096_S4096).view fs0 p116 Finset.univ) ∗ (arg4.view.loc (c : Thread nD τ) ↦[arg4.view.setOn (Rect.unit (s := S128x4096) ![117, 0] S1x4096.size inb_S128x4096_S1x4096_117_0).set]{fullShare} View.write (Elt F) ((arg4.slice (Rect.unit (s := S128x4096) ![117, 0] S1x4096.size inb_S128x4096_S1x4096_117_0) (fun _ => rfl)).squeeze S4096 squeezes_S1x4096_S4096).view fs0 p117 Finset.univ) ∗ (arg4.view.loc (c : Thread nD τ) ↦[arg4.view.setOn (Rect.unit (s := S128x4096) ![118, 0] S1x4096.size inb_S128x4096_S1x4096_118_0).set]{fullShare} View.write (Elt F) ((arg4.slice (Rect.unit (s := S128x4096) ![118, 0] S1x4096.size inb_S128x4096_S1x4096_118_0) (fun _ => rfl)).squeeze S4096 squeezes_S1x4096_S4096).view fs0 p118 Finset.univ) ∗ (arg4.view.loc (c : Thread nD τ) ↦[arg4.view.setOn (Rect.unit (s := S128x4096) ![119, 0] S1x4096.size inb_S128x4096_S1x4096_119_0).set]{fullShare} View.write (Elt F) ((arg4.slice (Rect.unit (s := S128x4096) ![119, 0] S1x4096.size inb_S128x4096_S1x4096_119_0) (fun _ => rfl)).squeeze S4096 squeezes_S1x4096_S4096).view fs0 p119 Finset.univ) ∗ (arg4.view.loc (c : Thread nD τ) ↦[arg4.view.setOn (Rect.unit (s := S128x4096) ![120, 0] S1x4096.size inb_S128x4096_S1x4096_120_0).set]{fullShare} View.write (Elt F) ((arg4.slice (Rect.unit (s := S128x4096) ![120, 0] S1x4096.size inb_S128x4096_S1x4096_120_0) (fun _ => rfl)).squeeze S4096 squeezes_S1x4096_S4096).view fs0 p120 Finset.univ) ∗ (arg4.view.loc (c : Thread nD τ) ↦[arg4.view.setOn (Rect.unit (s := S128x4096) ![121, 0] S1x4096.size inb_S128x4096_S1x4096_121_0).set]{fullShare} View.write (Elt F) ((arg4.slice (Rect.unit (s := S128x4096) ![121, 0] S1x4096.size inb_S128x4096_S1x4096_121_0) (fun _ => rfl)).squeeze S4096 squeezes_S1x4096_S4096).view fs0 p121 Finset.univ) ∗ (arg4.view.loc (c : Thread nD τ) ↦[arg4.view.setOn (Rect.unit (s := S128x4096) ![122, 0] S1x4096.size inb_S128x4096_S1x4096_122_0).set]{fullShare} View.write (Elt F) ((arg4.slice (Rect.unit (s := S128x4096) ![122, 0] S1x4096.size inb_S128x4096_S1x4096_122_0) (fun _ => rfl)).squeeze S4096 squeezes_S1x4096_S4096).view fs0 p122 Finset.univ) ∗ (arg4.view.loc (c : Thread nD τ) ↦[arg4.view.setOn (Rect.unit (s := S128x4096) ![123, 0] S1x4096.size inb_S128x4096_S1x4096_123_0).set]{fullShare} View.write (Elt F) ((arg4.slice (Rect.unit (s := S128x4096) ![123, 0] S1x4096.size inb_S128x4096_S1x4096_123_0) (fun _ => rfl)).squeeze S4096 squeezes_S1x4096_S4096).view fs0 p123 Finset.univ) ∗ (arg4.view.loc (c : Thread nD τ) ↦[arg4.view.setOn (Rect.unit (s := S128x4096) ![124, 0] S1x4096.size inb_S128x4096_S1x4096_124_0).set]{fullShare} View.write (Elt F) ((arg4.slice (Rect.unit (s := S128x4096) ![124, 0] S1x4096.size inb_S128x4096_S1x4096_124_0) (fun _ => rfl)).squeeze S4096 squeezes_S1x4096_S4096).view fs0 p124 Finset.univ) ∗ (arg4.view.loc (c : Thread nD τ) ↦[arg4.view.setOn (Rect.unit (s := S128x4096) ![125, 0] S1x4096.size inb_S128x4096_S1x4096_125_0).set]{fullShare} View.write (Elt F) ((arg4.slice (Rect.unit (s := S128x4096) ![125, 0] S1x4096.size inb_S128x4096_S1x4096_125_0) (fun _ => rfl)).squeeze S4096 squeezes_S1x4096_S4096).view fs0 p125 Finset.univ) ∗ (arg4.view.loc (c : Thread nD τ) ↦[arg4.view.setOn (Rect.unit (s := S128x4096) ![126, 0] S1x4096.size inb_S128x4096_S1x4096_126_0).set]{fullShare} View.write (Elt F) ((arg4.slice (Rect.unit (s := S128x4096) ![126, 0] S1x4096.size inb_S128x4096_S1x4096_126_0) (fun _ => rfl)).squeeze S4096 squeezes_S1x4096_S4096).view fs0 p126 Finset.univ) ∗ (arg4.view.loc (c : Thread nD τ) ↦[arg4.view.setOn (Rect.unit (s := S128x4096) ![127, 0] S1x4096.size inb_S128x4096_S1x4096_127_0).set]{fullShare} View.write (Elt F) ((arg4.slice (Rect.unit (s := S128x4096) ![127, 0] S1x4096.size inb_S128x4096_S1x4096_127_0) (fun _ => rfl)).squeeze S4096 squeezes_S1x4096_S4096).view fs0 p127 Finset.univ)) : sProp 𝕄)
      ⊢ (arg4.view.loc (c : Thread nD τ) ↦[arg4.view.set]{fullShare} harg4.unread (rowsVec ![p0, p1, p2, p3, p4, p5, p6, p7, p8, p9, p10, p11, p12, p13, p14, p15, p16, p17, p18, p19, p20, p21, p22, p23, p24, p25, p26, p27, p28, p29, p30, p31, p32, p33, p34, p35, p36, p37, p38, p39, p40, p41, p42, p43, p44, p45, p46, p47, p48, p49, p50, p51, p52, p53, p54, p55, p56, p57, p58, p59, p60, p61, p62, p63, p64, p65, p66, p67, p68, p69, p70, p71, p72, p73, p74, p75, p76, p77, p78, p79, p80, p81, p82, p83, p84, p85, p86, p87, p88, p89, p90, p91, p92, p93, p94, p95, p96, p97, p98, p99, p100, p101, p102, p103, p104, p105, p106, p107, p108, p109, p110, p111, p112, p113, p114, p115, p116, p117, p118, p119, p120, p121, p122, p123, p124, p125, p126, p127]) : sProp 𝕄) := by
  refine (Entails.of_eq ?_).trans (rows_canon c arg4 harg4 fs0 ![p0, p1, p2, p3, p4, p5, p6, p7, p8, p9, p10, p11, p12, p13, p14, p15, p16, p17, p18, p19, p20, p21, p22, p23, p24, p25, p26, p27, p28, p29, p30, p31, p32, p33, p34, p35, p36, p37, p38, p39, p40, p41, p42, p43, p44, p45, p46, p47, p48, p49, p50, p51, p52, p53, p54, p55, p56, p57, p58, p59, p60, p61, p62, p63, p64, p65, p66, p67, p68, p69, p70, p71, p72, p73, p74, p75, p76, p77, p78, p79, p80, p81, p82, p83, p84, p85, p86, p87, p88, p89, p90, p91, p92, p93, p94, p95, p96, p97, p98, p99, p100, p101, p102, p103, p104, p105, p106, p107, p108, p109, p110, p111, p112, p113, p114, p115, p116, p117, p118, p119, p120, p121, p122, p123, p124, p125, p126, p127])
  rw [bigSep128]
  rfl

end Cert.Kernel.Hand

end
-- ==== Proof.K.Gather.lean ====
/-
  The first kernel region: one grid point copies 128 rows of the weight array, the rows named by 128 consecutive words of
  the index table, into a 128×4096 scratch buffer — one asynchronous copy per row, all 128 started before any is awaited —
  and then stores the scratch, rounded to bf16, as its block of the selected-rows array. Two rows copied may be the same
  row of the weight array, so each copy reads it through a positive share of its own (the full share halved along a chain);
  each copy writes its own row of the scratch, so the scratch is held row by row while the copies are in flight and joined
  into one buffer again before it is loaded whole.
-/
import proofs.«172148_j16612933501330_2_alg».proof.Proof.Gen.Kernel.Launch
import proofs.«172148_j16612933501330_2_alg».proof.Proof.Gen.Kernel.Skeleton
import proofs.«172148_j16612933501330_2_alg».proof.Proof.Gen.Kernel.Points
import proofs.«172148_j16612933501330_2_alg».proof.Proof.K.GatherCanon
import proofs.«172148_j16612933501330_2_alg».proof.Proof.K.Checks
import proofs.«172148_j16612933501330_2_alg».proof.Proof.LibShareChain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.LibShareChain
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's triple -/

/-- The kernel's 128 copy semaphores, at zero. -/
abbrev cells0 (c : Dev nD) : sProp 𝕄 := iprop(semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0 ∗ semVal ((c : Thread nD τ), SemLoc.dma 55) 0 ∗ semVal ((c : Thread nD τ), SemLoc.dma 56) 0 ∗ semVal ((c : Thread nD τ), SemLoc.dma 57) 0 ∗ semVal ((c : Thread nD τ), SemLoc.dma 58) 0 ∗ semVal ((c : Thread nD τ), SemLoc.dma 59) 0 ∗ semVal ((c : Thread nD τ), SemLoc.dma 60) 0 ∗ semVal ((c : Thread nD τ), SemLoc.dma 61) 0 ∗ semVal ((c : Thread nD τ), SemLoc.dma 62) 0 ∗ semVal ((c : Thread nD τ), SemLoc.dma 63) 0 ∗ semVal ((c : Thread nD τ), SemLoc.dma 64) 0 ∗ semVal ((c : Thread nD τ), SemLoc.dma 65) 0 ∗ semVal ((c : Thread nD τ), SemLoc.dma 66) 0 ∗ semVal ((c : Thread nD τ), SemLoc.dma 67) 0 ∗ semVal ((c : Thread nD τ), SemLoc.dma 68) 0 ∗ semVal ((c : Thread nD τ), SemLoc.dma 69) 0 ∗ semVal ((c : Thread nD τ), SemLoc.dma 70) 0 ∗ semVal ((c : Thread nD τ), SemLoc.dma 71) 0 ∗ semVal ((c : Thread nD τ), SemLoc.dma 72) 0 ∗ semVal ((c : Thread nD τ), SemLoc.dma 73) 0 ∗ semVal ((c : Thread nD τ), SemLoc.dma 74) 0 ∗ semVal ((c : Thread nD τ), SemLoc.dma 75) 0 ∗ semVal ((c : Thread nD τ), SemLoc.dma 76) 0 ∗ semVal ((c : Thread nD τ), SemLoc.dma 77) 0 ∗ semVal ((c : Thread nD τ), SemLoc.dma 78) 0 ∗ semVal ((c : Thread nD τ), SemLoc.dma 79) 0 ∗ semVal ((c : Thread nD τ), SemLoc.dma 80) 0 ∗ semVal ((c : Thread nD τ), SemLoc.dma 81) 0 ∗ semVal ((c : Thread nD τ), SemLoc.dma 82) 0 ∗ semVal ((c : Thread nD τ), SemLoc.dma 83) 0 ∗ semVal ((c : Thread nD τ), SemLoc.dma 84) 0 ∗ semVal ((c : Thread nD τ), SemLoc.dma 85) 0 ∗ semVal ((c : Thread nD τ), SemLoc.dma 86) 0 ∗ semVal ((c : Thread nD τ), SemLoc.dma 87) 0 ∗ semVal ((c : Thread nD τ), SemLoc.dma 88) 0 ∗ semVal ((c : Thread nD τ), SemLoc.dma 89) 0 ∗ semVal ((c : Thread nD τ), SemLoc.dma 90) 0 ∗ semVal ((c : Thread nD τ), SemLoc.dma 91) 0 ∗ semVal ((c : Thread nD τ), SemLoc.dma 92) 0 ∗ semVal ((c : Thread nD τ), SemLoc.dma 93) 0 ∗ semVal ((c : Thread nD τ), SemLoc.dma 94) 0 ∗ semVal ((c : Thread nD τ), SemLoc.dma 95) 0 ∗ semVal ((c : Thread nD τ), SemLoc.dma 96) 0 ∗ semVal ((c : Thread nD τ), SemLoc.dma 97) 0 ∗ semVal ((c : Thread nD τ), SemLoc.dma 98) 0 ∗ semVal ((c : Thread nD τ), SemLoc.dma 99) 0 ∗ semVal ((c : Thread nD τ), SemLoc.dma 100) 0 ∗ semVal ((c : Thread nD τ), SemLoc.dma 101) 0 ∗ semVal ((c : Thread nD τ), SemLoc.dma 102) 0 ∗ semVal ((c : Thread nD τ), SemLoc.dma 103) 0 ∗ semVal ((c : Thread nD τ), SemLoc.dma 104) 0 ∗ semVal ((c : Thread nD τ), SemLoc.dma 105) 0 ∗ semVal ((c : Thread nD τ), SemLoc.dma 106) 0 ∗ semVal ((c : Thread nD τ), SemLoc.dma 107) 0 ∗ semVal ((c : Thread nD τ), SemLoc.dma 108) 0 ∗ semVal ((c : Thread nD τ), SemLoc.dma 109) 0 ∗ semVal ((c : Thread nD τ), SemLoc.dma 110) 0 ∗ semVal ((c : Thread nD τ), SemLoc.dma 111) 0 ∗ semVal ((c : Thread nD τ), SemLoc.dma 112) 0 ∗ semVal ((c : Thread nD τ), SemLoc.dma 113) 0 ∗ semVal ((c : Thread nD τ), SemLoc.dma 114) 0 ∗ semVal ((c : Thread nD τ), SemLoc.dma 115) 0 ∗ semVal ((c : Thread nD τ), SemLoc.dma 116) 0 ∗ semVal ((c : Thread nD τ), SemLoc.dma 117) 0 ∗ semVal ((c : Thread nD τ), SemLoc.dma 118) 0 ∗ semVal ((c : Thread nD τ), SemLoc.dma 119) 0 ∗ semVal ((c : Thread nD τ), SemLoc.dma 120) 0 ∗ semVal ((c : Thread nD τ), SemLoc.dma 121) 0 ∗ semVal ((c : Thread nD τ), SemLoc.dma 122) 0 ∗ semVal ((c : Thread nD τ), SemLoc.dma 123) 0 ∗ semVal ((c : Thread nD τ), SemLoc.dma 124) 0 ∗ semVal ((c : Thread nD τ), SemLoc.dma 125) 0 ∗ semVal ((c : Thread nD τ), SemLoc.dma 126) 0 ∗ semVal ((c : Thread nD τ), SemLoc.dma 127) 0 ∗ semVal ((c : Thread nD τ), SemLoc.dma 128) 0 ∗ semVal ((c : Thread nD τ), SemLoc.dma 129) 0)

set_option sl_exec.dmaWindow true in
set_option sl_exec.dmaWindowSet true in
set_option maxHeartbeats 0 in
/-- What the body's one store leaves in the output block's staging memref, as pieces, WITH the proof that on whole
    memrefs — the index table at contents `x0` every word of which is below 16384, the output's and the scratch at anything,
    the weight array whole at `fh`, the 128 cells at zero, the core owing nothing — the body runs to the continuation
    holding the table, the scratch, the weight array and the cells as they were and the output with its piece written. -/
noncomputable def gatherRun (c : Dev nD) (i : grid0.Coords) (arg1 : Memref sig .tc .smem S8192 .i32) (harg1 : arg1.IsWhole)
    (arg3 : Memref sig .tc .vmem S128x4096 .bf16) (harg3 : arg3.IsWhole) (arg4 : Memref sig .tc .vmem S128x4096 .f32) (harg4 : arg4.IsWhole)
    (x0 : Vec F S8192 .i32) (hx : ∀ k : S8192.Idx, (x0 k).toNat < 16384) (fh : HbBuf (F := F) c hbM) :
    { L : List (View.Piece (Elt F) S128x4096 .bf16) //
      ∀ (W : Waits sig Unit) (K : PUnit → sProp 𝕄),
        iprop(owns (c : Thread nD τ) arg1 fullShare x0 ∗ (∃ d, owns (c : Thread nD τ) arg3 fullShare d) ∗ (∃ d, owns (c : Thread nD τ) arg4 fullShare d)
            ∗ cells0 c ∗ hbPtq c hbM fullShare fh ∗ owes (c : Thread nD τ) 0 W
            ∗ (iprop(owns (c : Thread nD τ) arg1 fullShare x0 ∗ (∃ f, arg3.view.loc (c : Thread nD τ) ↦[arg3.view.set]{fullShare} arg3.view.writes (Elt F) f L)
                ∗ (∃ d, owns (c : Thread nD τ) arg4 fullShare d) ∗ cells0 c ∗ hbPtq c hbM fullShare fh ∗ (∃ W', owes (c : Thread nD τ) 0 W')) -∗ K ⟨⟩))
          ⊢ wp frame (wpE (defs₀ (F := F)) Variants.none c none) Set.univ
              (cc0__gather_kernel i arg1 harg1 (Memref.whole main_arg1) (Memref.isWhole_whole _) arg3 harg3 arg4 harg4 cc0_scratch1) K } := by
  have k0_hw1 := chk1_of_table i arg1 harg1 x0 hx
  have k0_hw2 := chk2_of_table i arg1 harg1 x0 hx
  have k0_hw3 := chk3_of_table i arg1 harg1 x0 hx
  have k0_hw4 := chk4_of_table i arg1 harg1 x0 hx
  have k0_hw5 := chk5_of_table i arg1 harg1 x0 hx
  have k0_hw6 := chk6_of_table i arg1 harg1 x0 hx
  have k0_hw7 := chk7_of_table i arg1 harg1 x0 hx
  have k0_hw8 := chk8_of_table i arg1 harg1 x0 hx
  have k0_hw9 := chk9_of_table i arg1 harg1 x0 hx
  have k0_hw10 := chk10_of_table i arg1 harg1 x0 hx
  have k0_hw11 := chk11_of_table i arg1 harg1 x0 hx
  have k0_hw12 := chk12_of_table i arg1 harg1 x0 hx
  have k0_hw13 := chk13_of_table i arg1 harg1 x0 hx
  have k0_hw14 := chk14_of_table i arg1 harg1 x0 hx
  have k0_hw15 := chk15_of_table i arg1 harg1 x0 hx
  have k0_hw16 := chk16_of_table i arg1 harg1 x0 hx
  have k0_hw17 := chk17_of_table i arg1 harg1 x0 hx
  have k0_hw18 := chk18_of_table i arg1 harg1 x0 hx
  have k0_hw19 := chk19_of_table i arg1 harg1 x0 hx
  have k0_hw20 := chk20_of_table i arg1 harg1 x0 hx
  have k0_hw21 := chk21_of_table i arg1 harg1 x0 hx
  have k0_hw22 := chk22_of_table i arg1 harg1 x0 hx
  have k0_hw23 := chk23_of_table i arg1 harg1 x0 hx
  have k0_hw24 := chk24_of_table i arg1 harg1 x0 hx
  have k0_hw25 := chk25_of_table i arg1 harg1 x0 hx
  have k0_hw26 := chk26_of_table i arg1 harg1 x0 hx
  have k0_hw27 := chk27_of_table i arg1 harg1 x0 hx
  have k0_hw28 := chk28_of_table i arg1 harg1 x0 hx
  have k0_hw29 := chk29_of_table i arg1 harg1 x0 hx
  have k0_hw30 := chk30_of_table i arg1 harg1 x0 hx
  have k0_hw31 := chk31_of_table i arg1 harg1 x0 hx
  have k0_hw32 := chk32_of_table i arg1 harg1 x0 hx
  have k0_hw33 := chk33_of_table i arg1 harg1 x0 hx
  have k0_hw34 := chk34_of_table i arg1 harg1 x0 hx
  have k0_hw35 := chk35_of_table i arg1 harg1 x0 hx
  have k0_hw36 := chk36_of_table i arg1 harg1 x0 hx
  have k0_hw37 := chk37_of_table i arg1 harg1 x0 hx
  have k0_hw38 := chk38_of_table i arg1 harg1 x0 hx
  have k0_hw39 := chk39_of_table i arg1 harg1 x0 hx
  have k0_hw40 := chk40_of_table i arg1 harg1 x0 hx
  have k0_hw41 := chk41_of_table i arg1 harg1 x0 hx
  have k0_hw42 := chk42_of_table i arg1 harg1 x0 hx
  have k0_hw43 := chk43_of_table i arg1 harg1 x0 hx
  have k0_hw44 := chk44_of_table i arg1 harg1 x0 hx
  have k0_hw45 := chk45_of_table i arg1 harg1 x0 hx
  have k0_hw46 := chk46_of_table i arg1 harg1 x0 hx
  have k0_hw47 := chk47_of_table i arg1 harg1 x0 hx
  have k0_hw48 := chk48_of_table i arg1 harg1 x0 hx
  have k0_hw49 := chk49_of_table i arg1 harg1 x0 hx
  have k0_hw50 := chk50_of_table i arg1 harg1 x0 hx
  have k0_hw51 := chk51_of_table i arg1 harg1 x0 hx
  have k0_hw52 := chk52_of_table i arg1 harg1 x0 hx
  have k0_hw53 := chk53_of_table i arg1 harg1 x0 hx
  have k0_hw54 := chk54_of_table i arg1 harg1 x0 hx
  have k0_hw55 := chk55_of_table i arg1 harg1 x0 hx
  have k0_hw56 := chk56_of_table i arg1 harg1 x0 hx
  have k0_hw57 := chk57_of_table i arg1 harg1 x0 hx
  have k0_hw58 := chk58_of_table i arg1 harg1 x0 hx
  have k0_hw59 := chk59_of_table i arg1 harg1 x0 hx
  have k0_hw60 := chk60_of_table i arg1 harg1 x0 hx
  have k0_hw61 := chk61_of_table i arg1 harg1 x0 hx
  have k0_hw62 := chk62_of_table i arg1 harg1 x0 hx
  have k0_hw63 := chk63_of_table i arg1 harg1 x0 hx
  have k0_hw64 := chk64_of_table i arg1 harg1 x0 hx
  have k0_hw65 := chk65_of_table i arg1 harg1 x0 hx
  have k0_hw66 := chk66_of_table i arg1 harg1 x0 hx
  have k0_hw67 := chk67_of_table i arg1 harg1 x0 hx
  have k0_hw68 := chk68_of_table i arg1 harg1 x0 hx
  have k0_hw69 := chk69_of_table i arg1 harg1 x0 hx
  have k0_hw70 := chk70_of_table i arg1 harg1 x0 hx
  have k0_hw71 := chk71_of_table i arg1 harg1 x0 hx
  have k0_hw72 := chk72_of_table i arg1 harg1 x0 hx
  have k0_hw73 := chk73_of_table i arg1 harg1 x0 hx
  have k0_hw74 := chk74_of_table i arg1 harg1 x0 hx
  have k0_hw75 := chk75_of_table i arg1 harg1 x0 hx
  have k0_hw76 := chk76_of_table i arg1 harg1 x0 hx
  have k0_hw77 := chk77_of_table i arg1 harg1 x0 hx
  have k0_hw78 := chk78_of_table i arg1 harg1 x0 hx
  have k0_hw79 := chk79_of_table i arg1 harg1 x0 hx
  have k0_hw80 := chk80_of_table i arg1 harg1 x0 hx
  have k0_hw81 := chk81_of_table i arg1 harg1 x0 hx
  have k0_hw82 := chk82_of_table i arg1 harg1 x0 hx
  have k0_hw83 := chk83_of_table i arg1 harg1 x0 hx
  have k0_hw84 := chk84_of_table i arg1 harg1 x0 hx
  have k0_hw85 := chk85_of_table i arg1 harg1 x0 hx
  have k0_hw86 := chk86_of_table i arg1 harg1 x0 hx
  have k0_hw87 := chk87_of_table i arg1 harg1 x0 hx
  have k0_hw88 := chk88_of_table i arg1 harg1 x0 hx
  have k0_hw89 := chk89_of_table i arg1 harg1 x0 hx
  have k0_hw90 := chk90_of_table i arg1 harg1 x0 hx
  have k0_hw91 := chk91_of_table i arg1 harg1 x0 hx
  have k0_hw92 := chk92_of_table i arg1 harg1 x0 hx
  have k0_hw93 := chk93_of_table i arg1 harg1 x0 hx
  have k0_hw94 := chk94_of_table i arg1 harg1 x0 hx
  have k0_hw95 := chk95_of_table i arg1 harg1 x0 hx
  have k0_hw96 := chk96_of_table i arg1 harg1 x0 hx
  have k0_hw97 := chk97_of_table i arg1 harg1 x0 hx
  have k0_hw98 := chk98_of_table i arg1 harg1 x0 hx
  have k0_hw99 := chk99_of_table i arg1 harg1 x0 hx
  have k0_hw100 := chk100_of_table i arg1 harg1 x0 hx
  have k0_hw101 := chk101_of_table i arg1 harg1 x0 hx
  have k0_hw102 := chk102_of_table i arg1 harg1 x0 hx
  have k0_hw103 := chk103_of_table i arg1 harg1 x0 hx
  have k0_hw104 := chk104_of_table i arg1 harg1 x0 hx
  have k0_hw105 := chk105_of_table i arg1 harg1 x0 hx
  have k0_hw106 := chk106_of_table i arg1 harg1 x0 hx
  have k0_hw107 := chk107_of_table i arg1 harg1 x0 hx
  have k0_hw108 := chk108_of_table i arg1 harg1 x0 hx
  have k0_hw109 := chk109_of_table i arg1 harg1 x0 hx
  have k0_hw110 := chk110_of_table i arg1 harg1 x0 hx
  have k0_hw111 := chk111_of_table i arg1 harg1 x0 hx
  have k0_hw112 := chk112_of_table i arg1 harg1 x0 hx
  have k0_hw113 := chk113_of_table i arg1 harg1 x0 hx
  have k0_hw114 := chk114_of_table i arg1 harg1 x0 hx
  have k0_hw115 := chk115_of_table i arg1 harg1 x0 hx
  have k0_hw116 := chk116_of_table i arg1 harg1 x0 hx
  have k0_hw117 := chk117_of_table i arg1 harg1 x0 hx
  have k0_hw118 := chk118_of_table i arg1 harg1 x0 hx
  have k0_hw119 := chk119_of_table i arg1 harg1 x0 hx
  have k0_hw120 := chk120_of_table i arg1 harg1 x0 hx
  have k0_hw121 := chk121_of_table i arg1 harg1 x0 hx
  have k0_hw122 := chk122_of_table i arg1 harg1 x0 hx
  have k0_hw123 := chk123_of_table i arg1 harg1 x0 hx
  have k0_hw124 := chk124_of_table i arg1 harg1 x0 hx
  have k0_hw125 := chk125_of_table i arg1 harg1 x0 hx
  have k0_hw126 := chk126_of_table i arg1 harg1 x0 hx
  have k0_hw127 := chk127_of_table i arg1 harg1 x0 hx
  have k0_hw128 := chk128_of_table i arg1 harg1 x0 hx
  refine ⟨?_, fun W K => ?run⟩
  case run =>
    simp only [cc0__gather_kernel_eq_skeleton]; unfold cc0__gather_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton]
    unfold owns cells0
    iintro ⟨⟨%f0, %hf0, H0⟩, ⟨%d1, %f1, -, H1⟩, ⟨%ds0, %fs0, -, HS⟩, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hq38, Hq39, Hq40, Hq41, Hq42, Hq43, Hq44, Hq45, Hq46, Hq47, Hq48, Hq49, Hq50, Hq51, Hq52, Hq53, Hq54, Hq55, Hq56, Hq57, Hq58, Hq59, Hq60, Hq61, Hq62, Hq63, Hq64, Hq65, Hq66, Hq67, Hq68, Hq69, Hq70, Hq71, Hq72, Hq73, Hq74, Hq75, Hq76, Hq77, Hq78, Hq79, Hq80, Hq81, Hq82, Hq83, Hq84, Hq85, Hq86, Hq87, Hq88, Hq89, Hq90, Hq91, Hq92, Hq93, Hq94, Hq95, Hq96, Hq97, Hq98, Hq99, Hq100, Hq101, Hq102, Hq103, Hq104, Hq105, Hq106, Hq107, Hq108, Hq109, Hq110, Hq111, Hq112, Hq113, Hq114, Hq115, Hq116, Hq117, Hq118, Hq119, Hq120, Hq121, Hq122, Hq123, Hq124, Hq125, Hq126, Hq127⟩, Hh, HW, Hk⟩
    obtain rfl := harg1.eq_unread hf0
    ihave HSr := (Entails.of_eq (scratch_rows128 c arg4 fs0)) $$ HS
    icases HSr with ⟨HS0, HS1, HS2, HS3, HS4, HS5, HS6, HS7, HS8, HS9, HS10, HS11, HS12, HS13, HS14, HS15, HS16, HS17, HS18, HS19, HS20, HS21, HS22, HS23, HS24, HS25, HS26, HS27, HS28, HS29, HS30, HS31, HS32, HS33, HS34, HS35, HS36, HS37, HS38, HS39, HS40, HS41, HS42, HS43, HS44, HS45, HS46, HS47, HS48, HS49, HS50, HS51, HS52, HS53, HS54, HS55, HS56, HS57, HS58, HS59, HS60, HS61, HS62, HS63, HS64, HS65, HS66, HS67, HS68, HS69, HS70, HS71, HS72, HS73, HS74, HS75, HS76, HS77, HS78, HS79, HS80, HS81, HS82, HS83, HS84, HS85, HS86, HS87, HS88, HS89, HS90, HS91, HS92, HS93, HS94, HS95, HS96, HS97, HS98, HS99, HS100, HS101, HS102, HS103, HS104, HS105, HS106, HS107, HS108, HS109, HS110, HS111, HS112, HS113, HS114, HS115, HS116, HS117, HS118, HS119, HS120, HS121, HS122, HS123, HS124, HS125, HS126, HS127⟩
    ihave Hhs := (weight_shares c fh).1 $$ Hh
    icases Hhs with ⟨Hh0, Hh1, Hh2, Hh3, Hh4, Hh5, Hh6, Hh7, Hh8, Hh9, Hh10, Hh11, Hh12, Hh13, Hh14, Hh15, Hh16, Hh17, Hh18, Hh19, Hh20, Hh21, Hh22, Hh23, Hh24, Hh25, Hh26, Hh27, Hh28, Hh29, Hh30, Hh31, Hh32, Hh33, Hh34, Hh35, Hh36, Hh37, Hh38, Hh39, Hh40, Hh41, Hh42, Hh43, Hh44, Hh45, Hh46, Hh47, Hh48, Hh49, Hh50, Hh51, Hh52, Hh53, Hh54, Hh55, Hh56, Hh57, Hh58, Hh59, Hh60, Hh61, Hh62, Hh63, Hh64, Hh65, Hh66, Hh67, Hh68, Hh69, Hh70, Hh71, Hh72, Hh73, Hh74, Hh75, Hh76, Hh77, Hh78, Hh79, Hh80, Hh81, Hh82, Hh83, Hh84, Hh85, Hh86, Hh87, Hh88, Hh89, Hh90, Hh91, Hh92, Hh93, Hh94, Hh95, Hh96, Hh97, Hh98, Hh99, Hh100, Hh101, Hh102, Hh103, Hh104, Hh105, Hh106, Hh107, Hh108, Hh109, Hh110, Hh111, Hh112, Hh113, Hh114, Hh115, Hh116, Hh117, Hh118, Hh119, Hh120, Hh121, Hh122, Hh123, Hh124, Hh125, Hh126, Hh127⟩
    sl_exec (disch := first | sl_exact k0_hw1 | sl_exact k0_hw2 | sl_exact k0_hw3 | sl_exact k0_hw4 | sl_exact k0_hw5 | sl_exact k0_hw6 | sl_exact k0_hw7 | sl_exact k0_hw8 | sl_exact k0_hw9 | sl_exact k0_hw10 | sl_exact k0_hw11 | sl_exact k0_hw12 | sl_exact k0_hw13 | sl_exact k0_hw14 | sl_exact k0_hw15 | sl_exact k0_hw16 | sl_exact k0_hw17 | sl_exact k0_hw18 | sl_exact k0_hw19 | sl_exact k0_hw20 | sl_exact k0_hw21 | sl_exact k0_hw22 | sl_exact k0_hw23 | sl_exact k0_hw24 | sl_exact k0_hw25 | sl_exact k0_hw26 | sl_exact k0_hw27 | sl_exact k0_hw28 | sl_exact k0_hw29 | sl_exact k0_hw30 | sl_exact k0_hw31 | sl_exact k0_hw32 | sl_exact k0_hw33 | sl_exact k0_hw34 | sl_exact k0_hw35 | sl_exact k0_hw36 | sl_exact k0_hw37 | sl_exact k0_hw38 | sl_exact k0_hw39 | sl_exact k0_hw40 | sl_exact k0_hw41 | sl_exact k0_hw42 | sl_exact k0_hw43 | sl_exact k0_hw44 | sl_exact k0_hw45 | sl_exact k0_hw46 | sl_exact k0_hw47 | sl_exact k0_hw48 | sl_exact k0_hw49 | sl_exact k0_hw50 | sl_exact k0_hw51 | sl_exact k0_hw52 | sl_exact k0_hw53 | sl_exact k0_hw54 | sl_exact k0_hw55 | sl_exact k0_hw56 | sl_exact k0_hw57 | sl_exact k0_hw58 | sl_exact k0_hw59 | sl_exact k0_hw60 | sl_exact k0_hw61 | sl_exact k0_hw62 | sl_exact k0_hw63 | sl_exact k0_hw64 | sl_exact k0_hw65 | sl_exact k0_hw66 | sl_exact k0_hw67 | sl_exact k0_hw68 | sl_exact k0_hw69 | sl_exact k0_hw70 | sl_exact k0_hw71 | sl_exact k0_hw72 | sl_exact k0_hw73 | sl_exact k0_hw74 | sl_exact k0_hw75 | sl_exact k0_hw76 | sl_exact k0_hw77 | sl_exact k0_hw78 | sl_exact k0_hw79 | sl_exact k0_hw80 | sl_exact k0_hw81 | sl_exact k0_hw82 | sl_exact k0_hw83 | sl_exact k0_hw84 | sl_exact k0_hw85 | sl_exact k0_hw86 | sl_exact k0_hw87 | sl_exact k0_hw88 | sl_exact k0_hw89 | sl_exact k0_hw90 | sl_exact k0_hw91 | sl_exact k0_hw92 | sl_exact k0_hw93 | sl_exact k0_hw94 | sl_exact k0_hw95 | sl_exact k0_hw96 | sl_exact k0_hw97 | sl_exact k0_hw98 | sl_exact k0_hw99 | sl_exact k0_hw100 | sl_exact k0_hw101 | sl_exact k0_hw102 | sl_exact k0_hw103 | sl_exact k0_hw104 | sl_exact k0_hw105 | sl_exact k0_hw106 | sl_exact k0_hw107 | sl_exact k0_hw108 | sl_exact k0_hw109 | sl_exact k0_hw110 | sl_exact k0_hw111 | sl_exact k0_hw112 | sl_exact k0_hw113 | sl_exact k0_hw114 | sl_exact k0_hw115 | sl_exact k0_hw116 | sl_exact k0_hw117 | sl_exact k0_hw118 | sl_exact k0_hw119 | sl_exact k0_hw120 | sl_exact k0_hw121 | sl_exact k0_hw122 | sl_exact k0_hw123 | sl_exact k0_hw124 | sl_exact k0_hw125 | sl_exact k0_hw126 | sl_exact k0_hw127 | sl_exact k0_hw128)
    ihave HS := (rows_canon128 c arg4 harg4 fs0 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) $$ [HS0 HS1 HS2 HS3 HS4 HS5 HS6 HS7 HS8 HS9 HS10 HS11 HS12 HS13 HS14 HS15 HS16 HS17 HS18 HS19 HS20 HS21 HS22 HS23 HS24 HS25 HS26 HS27 HS28 HS29 HS30 HS31 HS32 HS33 HS34 HS35 HS36 HS37 HS38 HS39 HS40 HS41 HS42 HS43 HS44 HS45 HS46 HS47 HS48 HS49 HS50 HS51 HS52 HS53 HS54 HS55 HS56 HS57 HS58 HS59 HS60 HS61 HS62 HS63 HS64 HS65 HS66 HS67 HS68 HS69 HS70 HS71 HS72 HS73 HS74 HS75 HS76 HS77 HS78 HS79 HS80 HS81 HS82 HS83 HS84 HS85 HS86 HS87 HS88 HS89 HS90 HS91 HS92 HS93 HS94 HS95 HS96 HS97 HS98 HS99 HS100 HS101 HS102 HS103 HS104 HS105 HS106 HS107 HS108 HS109 HS110 HS111 HS112 HS113 HS114 HS115 HS116 HS117 HS118 HS119 HS120 HS121 HS122 HS123 HS124 HS125 HS126 HS127]
    ·
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      isplitl [HS13]; · iexact HS13
      isplitl [HS14]; · iexact HS14
      isplitl [HS15]; · iexact HS15
      isplitl [HS16]; · iexact HS16
      isplitl [HS17]; · iexact HS17
      isplitl [HS18]; · iexact HS18
      isplitl [HS19]; · iexact HS19
      isplitl [HS20]; · iexact HS20
      isplitl [HS21]; · iexact HS21
      isplitl [HS22]; · iexact HS22
      isplitl [HS23]; · iexact HS23
      isplitl [HS24]; · iexact HS24
      isplitl [HS25]; · iexact HS25
      isplitl [HS26]; · iexact HS26
      isplitl [HS27]; · iexact HS27
      isplitl [HS28]; · iexact HS28
      isplitl [HS29]; · iexact HS29
      isplitl [HS30]; · iexact HS30
      isplitl [HS31]; · iexact HS31
      isplitl [HS32]; · iexact HS32
      isplitl [HS33]; · iexact HS33
      isplitl [HS34]; · iexact HS34
      isplitl [HS35]; · iexact HS35
      isplitl [HS36]; · iexact HS36
      isplitl [HS37]; · iexact HS37
      isplitl [HS38]; · iexact HS38
      isplitl [HS39]; · iexact HS39
      isplitl [HS40]; · iexact HS40
      isplitl [HS41]; · iexact HS41
      isplitl [HS42]; · iexact HS42
      isplitl [HS43]; · iexact HS43
      isplitl [HS44]; · iexact HS44
      isplitl [HS45]; · iexact HS45
      isplitl [HS46]; · iexact HS46
      isplitl [HS47]; · iexact HS47
      isplitl [HS48]; · iexact HS48
      isplitl [HS49]; · iexact HS49
      isplitl [HS50]; · iexact HS50
      isplitl [HS51]; · iexact HS51
      isplitl [HS52]; · iexact HS52
      isplitl [HS53]; · iexact HS53
      isplitl [HS54]; · iexact HS54
      isplitl [HS55]; · iexact HS55
      isplitl [HS56]; · iexact HS56
      isplitl [HS57]; · iexact HS57
      isplitl [HS58]; · iexact HS58
      isplitl [HS59]; · iexact HS59
      isplitl [HS60]; · iexact HS60
      isplitl [HS61]; · iexact HS61
      isplitl [HS62]; · iexact HS62
      isplitl [HS63]; · iexact HS63
      isplitl [HS64]; · iexact HS64
      isplitl [HS65]; · iexact HS65
      isplitl [HS66]; · iexact HS66
      isplitl [HS67]; · iexact HS67
      isplitl [HS68]; · iexact HS68
      isplitl [HS69]; · iexact HS69
      isplitl [HS70]; · iexact HS70
      isplitl [HS71]; · iexact HS71
      isplitl [HS72]; · iexact HS72
      isplitl [HS73]; · iexact HS73
      isplitl [HS74]; · iexact HS74
      isplitl [HS75]; · iexact HS75
      isplitl [HS76]; · iexact HS76
      isplitl [HS77]; · iexact HS77
      isplitl [HS78]; · iexact HS78
      isplitl [HS79]; · iexact HS79
      isplitl [HS80]; · iexact HS80
      isplitl [HS81]; · iexact HS81
      isplitl [HS82]; · iexact HS82
      isplitl [HS83]; · iexact HS83
      isplitl [HS84]; · iexact HS84
      isplitl [HS85]; · iexact HS85
      isplitl [HS86]; · iexact HS86
      isplitl [HS87]; · iexact HS87
      isplitl [HS88]; · iexact HS88
      isplitl [HS89]; · iexact HS89
      isplitl [HS90]; · iexact HS90
      isplitl [HS91]; · iexact HS91
      isplitl [HS92]; · iexact HS92
      isplitl [HS93]; · iexact HS93
      isplitl [HS94]; · iexact HS94
      isplitl [HS95]; · iexact HS95
      isplitl [HS96]; · iexact HS96
      isplitl [HS97]; · iexact HS97
      isplitl [HS98]; · iexact HS98
      isplitl [HS99]; · iexact HS99
      isplitl [HS100]; · iexact HS100
      isplitl [HS101]; · iexact HS101
      isplitl [HS102]; · iexact HS102
      isplitl [HS103]; · iexact HS103
      isplitl [HS104]; · iexact HS104
      isplitl [HS105]; · iexact HS105
      isplitl [HS106]; · iexact HS106
      isplitl [HS107]; · iexact HS107
      isplitl [HS108]; · iexact HS108
      isplitl [HS109]; · iexact HS109
      isplitl [HS110]; · iexact HS110
      isplitl [HS111]; · iexact HS111
      isplitl [HS112]; · iexact HS112
      isplitl [HS113]; · iexact HS113
      isplitl [HS114]; · iexact HS114
      isplitl [HS115]; · iexact HS115
      isplitl [HS116]; · iexact HS116
      isplitl [HS117]; · iexact HS117
      isplitl [HS118]; · iexact HS118
      isplitl [HS119]; · iexact HS119
      isplitl [HS120]; · iexact HS120
      isplitl [HS121]; · iexact HS121
      isplitl [HS122]; · iexact HS122
      isplitl [HS123]; · iexact HS123
      isplitl [HS124]; · iexact HS124
      isplitl [HS125]; · iexact HS125
      isplitl [HS126]; · iexact HS126
      iexact HS127
    sl_exec
    sl_step
    ihave Hh := (weight_shares c fh).2 $$ [Hh0 Hh1 Hh2 Hh3 Hh4 Hh5 Hh6 Hh7 Hh8 Hh9 Hh10 Hh11 Hh12 Hh13 Hh14 Hh15 Hh16 Hh17 Hh18 Hh19 Hh20 Hh21 Hh22 Hh23 Hh24 Hh25 Hh26 Hh27 Hh28 Hh29 Hh30 Hh31 Hh32 Hh33 Hh34 Hh35 Hh36 Hh37 Hh38 Hh39 Hh40 Hh41 Hh42 Hh43 Hh44 Hh45 Hh46 Hh47 Hh48 Hh49 Hh50 Hh51 Hh52 Hh53 Hh54 Hh55 Hh56 Hh57 Hh58 Hh59 Hh60 Hh61 Hh62 Hh63 Hh64 Hh65 Hh66 Hh67 Hh68 Hh69 Hh70 Hh71 Hh72 Hh73 Hh74 Hh75 Hh76 Hh77 Hh78 Hh79 Hh80 Hh81 Hh82 Hh83 Hh84 Hh85 Hh86 Hh87 Hh88 Hh89 Hh90 Hh91 Hh92 Hh93 Hh94 Hh95 Hh96 Hh97 Hh98 Hh99 Hh100 Hh101 Hh102 Hh103 Hh104 Hh105 Hh106 Hh107 Hh108 Hh109 Hh110 Hh111 Hh112 Hh113 Hh114 Hh115 Hh116 Hh117 Hh118 Hh119 Hh120 Hh121 Hh122 Hh123 Hh124 Hh125 Hh126 Hh127]
    ·
      isplitl [Hh0]; · iexact Hh0
      isplitl [Hh1]; · iexact Hh1
      isplitl [Hh2]; · iexact Hh2
      isplitl [Hh3]; · iexact Hh3
      isplitl [Hh4]; · iexact Hh4
      isplitl [Hh5]; · iexact Hh5
      isplitl [Hh6]; · iexact Hh6
      isplitl [Hh7]; · iexact Hh7
      isplitl [Hh8]; · iexact Hh8
      isplitl [Hh9]; · iexact Hh9
      isplitl [Hh10]; · iexact Hh10
      isplitl [Hh11]; · iexact Hh11
      isplitl [Hh12]; · iexact Hh12
      isplitl [Hh13]; · iexact Hh13
      isplitl [Hh14]; · iexact Hh14
      isplitl [Hh15]; · iexact Hh15
      isplitl [Hh16]; · iexact Hh16
      isplitl [Hh17]; · iexact Hh17
      isplitl [Hh18]; · iexact Hh18
      isplitl [Hh19]; · iexact Hh19
      isplitl [Hh20]; · iexact Hh20
      isplitl [Hh21]; · iexact Hh21
      isplitl [Hh22]; · iexact Hh22
      isplitl [Hh23]; · iexact Hh23
      isplitl [Hh24]; · iexact Hh24
      isplitl [Hh25]; · iexact Hh25
      isplitl [Hh26]; · iexact Hh26
      isplitl [Hh27]; · iexact Hh27
      isplitl [Hh28]; · iexact Hh28
      isplitl [Hh29]; · iexact Hh29
      isplitl [Hh30]; · iexact Hh30
      isplitl [Hh31]; · iexact Hh31
      isplitl [Hh32]; · iexact Hh32
      isplitl [Hh33]; · iexact Hh33
      isplitl [Hh34]; · iexact Hh34
      isplitl [Hh35]; · iexact Hh35
      isplitl [Hh36]; · iexact Hh36
      isplitl [Hh37]; · iexact Hh37
      isplitl [Hh38]; · iexact Hh38
      isplitl [Hh39]; · iexact Hh39
      isplitl [Hh40]; · iexact Hh40
      isplitl [Hh41]; · iexact Hh41
      isplitl [Hh42]; · iexact Hh42
      isplitl [Hh43]; · iexact Hh43
      isplitl [Hh44]; · iexact Hh44
      isplitl [Hh45]; · iexact Hh45
      isplitl [Hh46]; · iexact Hh46
      isplitl [Hh47]; · iexact Hh47
      isplitl [Hh48]; · iexact Hh48
      isplitl [Hh49]; · iexact Hh49
      isplitl [Hh50]; · iexact Hh50
      isplitl [Hh51]; · iexact Hh51
      isplitl [Hh52]; · iexact Hh52
      isplitl [Hh53]; · iexact Hh53
      isplitl [Hh54]; · iexact Hh54
      isplitl [Hh55]; · iexact Hh55
      isplitl [Hh56]; · iexact Hh56
      isplitl [Hh57]; · iexact Hh57
      isplitl [Hh58]; · iexact Hh58
      isplitl [Hh59]; · iexact Hh59
      isplitl [Hh60]; · iexact Hh60
      isplitl [Hh61]; · iexact Hh61
      isplitl [Hh62]; · iexact Hh62
      isplitl [Hh63]; · iexact Hh63
      isplitl [Hh64]; · iexact Hh64
      isplitl [Hh65]; · iexact Hh65
      isplitl [Hh66]; · iexact Hh66
      isplitl [Hh67]; · iexact Hh67
      isplitl [Hh68]; · iexact Hh68
      isplitl [Hh69]; · iexact Hh69
      isplitl [Hh70]; · iexact Hh70
      isplitl [Hh71]; · iexact Hh71
      isplitl [Hh72]; · iexact Hh72
      isplitl [Hh73]; · iexact Hh73
      isplitl [Hh74]; · iexact Hh74
      isplitl [Hh75]; · iexact Hh75
      isplitl [Hh76]; · iexact Hh76
      isplitl [Hh77]; · iexact Hh77
      isplitl [Hh78]; · iexact Hh78
      isplitl [Hh79]; · iexact Hh79
      isplitl [Hh80]; · iexact Hh80
      isplitl [Hh81]; · iexact Hh81
      isplitl [Hh82]; · iexact Hh82
      isplitl [Hh83]; · iexact Hh83
      isplitl [Hh84]; · iexact Hh84
      isplitl [Hh85]; · iexact Hh85
      isplitl [Hh86]; · iexact Hh86
      isplitl [Hh87]; · iexact Hh87
      isplitl [Hh88]; · iexact Hh88
      isplitl [Hh89]; · iexact Hh89
      isplitl [Hh90]; · iexact Hh90
      isplitl [Hh91]; · iexact Hh91
      isplitl [Hh92]; · iexact Hh92
      isplitl [Hh93]; · iexact Hh93
      isplitl [Hh94]; · iexact Hh94
      isplitl [Hh95]; · iexact Hh95
      isplitl [Hh96]; · iexact Hh96
      isplitl [Hh97]; · iexact Hh97
      isplitl [Hh98]; · iexact Hh98
      isplitl [Hh99]; · iexact Hh99
      isplitl [Hh100]; · iexact Hh100
      isplitl [Hh101]; · iexact Hh101
      isplitl [Hh102]; · iexact Hh102
      isplitl [Hh103]; · iexact Hh103
      isplitl [Hh104]; · iexact Hh104
      isplitl [Hh105]; · iexact Hh105
      isplitl [Hh106]; · iexact Hh106
      isplitl [Hh107]; · iexact Hh107
      isplitl [Hh108]; · iexact Hh108
      isplitl [Hh109]; · iexact Hh109
      isplitl [Hh110]; · iexact Hh110
      isplitl [Hh111]; · iexact Hh111
      isplitl [Hh112]; · iexact Hh112
      isplitl [Hh113]; · iexact Hh113
      isplitl [Hh114]; · iexact Hh114
      isplitl [Hh115]; · iexact Hh115
      isplitl [Hh116]; · iexact Hh116
      isplitl [Hh117]; · iexact Hh117
      isplitl [Hh118]; · iexact Hh118
      isplitl [Hh119]; · iexact Hh119
      isplitl [Hh120]; · iexact Hh120
      isplitl [Hh121]; · iexact Hh121
      isplitl [Hh122]; · iexact Hh122
      isplitl [Hh123]; · iexact Hh123
      isplitl [Hh124]; · iexact Hh124
      isplitl [Hh125]; · iexact Hh125
      isplitl [Hh126]; · iexact Hh126
      iexact Hh127
    iapply Hk
    isplitl [H0]
    · iexists _; isplitr; · ipureintro; exact harg1.read_unread _
      iexact H0
    isplitl [H1]; · iexists _; iexact H1
    isplitl [HS]
    · iexists _, _; isplitr; swap; · iexact HS
      ipureintro; rfl
    isplitl [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hq33 Hq34 Hq35 Hq36 Hq37 Hq38 Hq39 Hq40 Hq41 Hq42 Hq43 Hq44 Hq45 Hq46 Hq47 Hq48 Hq49 Hq50 Hq51 Hq52 Hq53 Hq54 Hq55 Hq56 Hq57 Hq58 Hq59 Hq60 Hq61 Hq62 Hq63 Hq64 Hq65 Hq66 Hq67 Hq68 Hq69 Hq70 Hq71 Hq72 Hq73 Hq74 Hq75 Hq76 Hq77 Hq78 Hq79 Hq80 Hq81 Hq82 Hq83 Hq84 Hq85 Hq86 Hq87 Hq88 Hq89 Hq90 Hq91 Hq92 Hq93 Hq94 Hq95 Hq96 Hq97 Hq98 Hq99 Hq100 Hq101 Hq102 Hq103 Hq104 Hq105 Hq106 Hq107 Hq108 Hq109 Hq110 Hq111 Hq112 Hq113 Hq114 Hq115 Hq116 Hq117 Hq118 Hq119 Hq120 Hq121 Hq122 Hq123 Hq124 Hq125 Hq126 Hq127]
    ·
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      isplitl [Hq23]; · iexact Hq23
      isplitl [Hq24]; · iexact Hq24
      isplitl [Hq25]; · iexact Hq25
      isplitl [Hq26]; · iexact Hq26
      isplitl [Hq27]; · iexact Hq27
      isplitl [Hq28]; · iexact Hq28
      isplitl [Hq29]; · iexact Hq29
      isplitl [Hq30]; · iexact Hq30
      isplitl [Hq31]; · iexact Hq31
      isplitl [Hq32]; · iexact Hq32
      isplitl [Hq33]; · iexact Hq33
      isplitl [Hq34]; · iexact Hq34
      isplitl [Hq35]; · iexact Hq35
      isplitl [Hq36]; · iexact Hq36
      isplitl [Hq37]; · iexact Hq37
      isplitl [Hq38]; · iexact Hq38
      isplitl [Hq39]; · iexact Hq39
      isplitl [Hq40]; · iexact Hq40
      isplitl [Hq41]; · iexact Hq41
      isplitl [Hq42]; · iexact Hq42
      isplitl [Hq43]; · iexact Hq43
      isplitl [Hq44]; · iexact Hq44
      isplitl [Hq45]; · iexact Hq45
      isplitl [Hq46]; · iexact Hq46
      isplitl [Hq47]; · iexact Hq47
      isplitl [Hq48]; · iexact Hq48
      isplitl [Hq49]; · iexact Hq49
      isplitl [Hq50]; · iexact Hq50
      isplitl [Hq51]; · iexact Hq51
      isplitl [Hq52]; · iexact Hq52
      isplitl [Hq53]; · iexact Hq53
      isplitl [Hq54]; · iexact Hq54
      isplitl [Hq55]; · iexact Hq55
      isplitl [Hq56]; · iexact Hq56
      isplitl [Hq57]; · iexact Hq57
      isplitl [Hq58]; · iexact Hq58
      isplitl [Hq59]; · iexact Hq59
      isplitl [Hq60]; · iexact Hq60
      isplitl [Hq61]; · iexact Hq61
      isplitl [Hq62]; · iexact Hq62
      isplitl [Hq63]; · iexact Hq63
      isplitl [Hq64]; · iexact Hq64
      isplitl [Hq65]; · iexact Hq65
      isplitl [Hq66]; · iexact Hq66
      isplitl [Hq67]; · iexact Hq67
      isplitl [Hq68]; · iexact Hq68
      isplitl [Hq69]; · iexact Hq69
      isplitl [Hq70]; · iexact Hq70
      isplitl [Hq71]; · iexact Hq71
      isplitl [Hq72]; · iexact Hq72
      isplitl [Hq73]; · iexact Hq73
      isplitl [Hq74]; · iexact Hq74
      isplitl [Hq75]; · iexact Hq75
      isplitl [Hq76]; · iexact Hq76
      isplitl [Hq77]; · iexact Hq77
      isplitl [Hq78]; · iexact Hq78
      isplitl [Hq79]; · iexact Hq79
      isplitl [Hq80]; · iexact Hq80
      isplitl [Hq81]; · iexact Hq81
      isplitl [Hq82]; · iexact Hq82
      isplitl [Hq83]; · iexact Hq83
      isplitl [Hq84]; · iexact Hq84
      isplitl [Hq85]; · iexact Hq85
      isplitl [Hq86]; · iexact Hq86
      isplitl [Hq87]; · iexact Hq87
      isplitl [Hq88]; · iexact Hq88
      isplitl [Hq89]; · iexact Hq89
      isplitl [Hq90]; · iexact Hq90
      isplitl [Hq91]; · iexact Hq91
      isplitl [Hq92]; · iexact Hq92
      isplitl [Hq93]; · iexact Hq93
      isplitl [Hq94]; · iexact Hq94
      isplitl [Hq95]; · iexact Hq95
      isplitl [Hq96]; · iexact Hq96
      isplitl [Hq97]; · iexact Hq97
      isplitl [Hq98]; · iexact Hq98
      isplitl [Hq99]; · iexact Hq99
      isplitl [Hq100]; · iexact Hq100
      isplitl [Hq101]; · iexact Hq101
      isplitl [Hq102]; · iexact Hq102
      isplitl [Hq103]; · iexact Hq103
      isplitl [Hq104]; · iexact Hq104
      isplitl [Hq105]; · iexact Hq105
      isplitl [Hq106]; · iexact Hq106
      isplitl [Hq107]; · iexact Hq107
      isplitl [Hq108]; · iexact Hq108
      isplitl [Hq109]; · iexact Hq109
      isplitl [Hq110]; · iexact Hq110
      isplitl [Hq111]; · iexact Hq111
      isplitl [Hq112]; · iexact Hq112
      isplitl [Hq113]; · iexact Hq113
      isplitl [Hq114]; · iexact Hq114
      isplitl [Hq115]; · iexact Hq115
      isplitl [Hq116]; · iexact Hq116
      isplitl [Hq117]; · iexact Hq117
      isplitl [Hq118]; · iexact Hq118
      isplitl [Hq119]; · iexact Hq119
      isplitl [Hq120]; · iexact Hq120
      isplitl [Hq121]; · iexact Hq121
      isplitl [Hq122]; · iexact Hq122
      isplitl [Hq123]; · iexact Hq123
      isplitl [Hq124]; · iexact Hq124
      isplitl [Hq125]; · iexact Hq125
      isplitl [Hq126]; · iexact Hq126
      iexact Hq127
    isplitl [Hh]; · iexact Hh
    iexists _; iexact HW

end Cert.Kernel.Hand

end
-- ==== Proof.K.GatherDat.lean ====
/-
  The first kernel region's proof data: what its output block holds after the body (the run's one piece read back), the
  index table as the admissible contents of the pipeline's prefetched table, the kernel's 128 copy cells, the invariant
  handed to the body at every point (the scratch, the generator register, the cells at zero, the weight array whole, the
  table whole) and the body obligation.
-/
import proofs.«172148_j16612933501330_2_alg».proof.Proof.K.Gather

set_option maxRecDepth 16384

noncomputable section

namespace Cert.Kernel.Hand

open Cert.Kernel Cert.Kernel.Gen Cert.LibShareChain
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The run's one store tiles the output block, so it covers it. -/
theorem gCover (c : Dev nD) (i : grid0.Coords) (arg1 : Memref sig .tc .smem S8192 .i32) (harg1 : arg1.IsWhole)
    (arg3 : Memref sig .tc .vmem S128x4096 .bf16) (harg3 : arg3.IsWhole) (arg4 : Memref sig .tc .vmem S128x4096 .f32) (harg4 : arg4.IsWhole)
    (x0 : Vec F S8192 .i32) (hx : ∀ k : S8192.Idx, (x0 k).toNat < 16384) (fh : HbBuf (F := F) c hbM) (y : S128x4096.Idx) :
    ∃ pc ∈ (gatherRun c i arg1 harg1 arg3 harg3 arg4 harg4 x0 hx fh).1, y ∈ pc.1.set :=
  View.cover_of_tiledL (gatherRun c i arg1 harg1 arg3 harg3 arg4 harg4 x0 hx fh).1 S128x4096.size (by sl_kernel_rfl) y

/-- One staging buffer of the output window, through which its contents are stated. -/
abbrev VO0 : View sig .tc .vmem S128x4096 .bf16 := (Memref.whole cc0_stg0_0 : Memref sig .tc .vmem S128x4096 .bf16).view

/-- What the run leaves in the output block's staging buffer: its piece read back over junk. -/
def gOut (c : Dev nD) (i : grid0.Coords) (arg1 : Memref sig .tc .smem S8192 .i32) (harg1 : arg1.IsWhole)
    (arg3 : Memref sig .tc .vmem S128x4096 .bf16) (harg3 : arg3.IsWhole) (arg4 : Memref sig .tc .vmem S128x4096 .f32) (harg4 : arg4.IsWhole)
    (x0 : Vec F S8192 .i32) (hx : ∀ k : S8192.Idx, (x0 k).toNat < 16384) (fh : HbBuf (F := F) c hbM) : Vec F S128x4096 .bf16 :=
  VO0.read (Elt F) (VO0.writes (Elt F) VO0.junk (gatherRun c i arg1 harg1 arg3 harg3 arg4 harg4 x0 hx fh).1)

variable (V : (c : Dev nD) → (b : Ref sig .tc) → Buf (Elt F) ((c : Thread nD τ).loc b))

/-- Every word of the index table, as the region finds it, names a row of the weight array. -/
def TblOk : Prop := ∀ (c : Dev nD) (k : S8192.Idx), ((V c main_v15 : S8192.Idx → BitVec 32) k).toNat < 16384

/-- The table's contents when the region is entered (one device: device 0's). -/
def gTbl : pre0.Contents (Elt F) := fun j => V (0 : Dev nD) (pre0.ref j)
theorem gV_pre (c : Dev nD) (j : Fin 1) : V c (pre0.ref j) = gTbl V j := by
  obtain rfl : c = 0 := Subsingleton.elim _ _; rfl
/-- They are admissible: the pipeline's one window does not read the table. -/
abbrev gAdm : (pcfg0 (F := F)).Adm := ⟨gTbl V, trivial⟩
abbrev gCfg : Pipeline.Cfg sig Λ₀ := cfg0 (gAdm V)

/-- The table, the output's current staging memref at a point, the scratch: as the body is handed them. -/
abbrev tbM : Memref sig .tc .smem S8192 .i32 := Memref.whole main_v15
abbrev htbM : tbM.IsWhole := Memref.isWhole_whole _
abbrev gms (t : Fin (gCfg V).N) : Memref sig .tc .vmem S128x4096 .bf16 := spec0_0.stage ((gCfg V).slots t 0)
abbrev ghs (t : Fin (gCfg V).N) : (gms V t).IsWhole := hstage0_0 (((gCfg V).slots t 0).cast nbuf0_0)
abbrev scM : Memref sig .tc .vmem S128x4096 .f32 := Memref.whole cc0_scratch0

/-- The kernel's own 128 copy semaphores, cell by cell. -/
abbrev osem0 : Fin 128 → SemLoc sig := fun j => (![SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27, SemLoc.dma 28, SemLoc.dma 29, SemLoc.dma 30, SemLoc.dma 31, SemLoc.dma 32, SemLoc.dma 33, SemLoc.dma 34, SemLoc.dma 35, SemLoc.dma 36, SemLoc.dma 37, SemLoc.dma 38, SemLoc.dma 39, SemLoc.dma 40, SemLoc.dma 41, SemLoc.dma 42, SemLoc.dma 43, SemLoc.dma 44, SemLoc.dma 45, SemLoc.dma 46, SemLoc.dma 47, SemLoc.dma 48, SemLoc.dma 49, SemLoc.dma 50, SemLoc.dma 51, SemLoc.dma 52, SemLoc.dma 53, SemLoc.dma 54, SemLoc.dma 55, SemLoc.dma 56, SemLoc.dma 57, SemLoc.dma 58, SemLoc.dma 59, SemLoc.dma 60, SemLoc.dma 61, SemLoc.dma 62, SemLoc.dma 63, SemLoc.dma 64, SemLoc.dma 65, SemLoc.dma 66, SemLoc.dma 67, SemLoc.dma 68, SemLoc.dma 69, SemLoc.dma 70, SemLoc.dma 71, SemLoc.dma 72, SemLoc.dma 73, SemLoc.dma 74, SemLoc.dma 75, SemLoc.dma 76, SemLoc.dma 77, SemLoc.dma 78, SemLoc.dma 79, SemLoc.dma 80, SemLoc.dma 81, SemLoc.dma 82, SemLoc.dma 83, SemLoc.dma 84, SemLoc.dma 85, SemLoc.dma 86, SemLoc.dma 87, SemLoc.dma 88, SemLoc.dma 89, SemLoc.dma 90, SemLoc.dma 91, SemLoc.dma 92, SemLoc.dma 93, SemLoc.dma 94, SemLoc.dma 95, SemLoc.dma 96, SemLoc.dma 97, SemLoc.dma 98, SemLoc.dma 99, SemLoc.dma 100, SemLoc.dma 101, SemLoc.dma 102, SemLoc.dma 103, SemLoc.dma 104, SemLoc.dma 105, SemLoc.dma 106, SemLoc.dma 107, SemLoc.dma 108, SemLoc.dma 109, SemLoc.dma 110, SemLoc.dma 111, SemLoc.dma 112, SemLoc.dma 113, SemLoc.dma 114, SemLoc.dma 115, SemLoc.dma 116, SemLoc.dma 117, SemLoc.dma 118, SemLoc.dma 119, SemLoc.dma 120, SemLoc.dma 121, SemLoc.dma 122, SemLoc.dma 123, SemLoc.dma 124, SemLoc.dma 125, SemLoc.dma 126, SemLoc.dma 127, SemLoc.dma 128, SemLoc.dma 129] : Fin 128 → SemLoc sig) j
set_option maxRecDepth 100000 in
theorem ownSemFacts0 : Pipeline.OwnSemFacts spec0 osem0 := by decide +kernel
set_option maxRecDepth 100000 in
theorem ownSems00_eq (c : Dev nD) :
    (Pipeline.ownSems0 (Ix := Unit) (Name := ℕ) (U := Pipeline.UD sig nD τ) (Lvl := ℕ) (Val := Elt F) (τ := τ) osem0 c : sProp 𝕄)
      = cells0 c := by
  rw [Pipeline.ownSems0_eq_of_list c osem0 [(0 : Fin 128), (1 : Fin 128), (2 : Fin 128), (3 : Fin 128), (4 : Fin 128), (5 : Fin 128), (6 : Fin 128), (7 : Fin 128), (8 : Fin 128), (9 : Fin 128), (10 : Fin 128), (11 : Fin 128), (12 : Fin 128), (13 : Fin 128), (14 : Fin 128), (15 : Fin 128), (16 : Fin 128), (17 : Fin 128), (18 : Fin 128), (19 : Fin 128), (20 : Fin 128), (21 : Fin 128), (22 : Fin 128), (23 : Fin 128), (24 : Fin 128), (25 : Fin 128), (26 : Fin 128), (27 : Fin 128), (28 : Fin 128), (29 : Fin 128), (30 : Fin 128), (31 : Fin 128), (32 : Fin 128), (33 : Fin 128), (34 : Fin 128), (35 : Fin 128), (36 : Fin 128), (37 : Fin 128), (38 : Fin 128), (39 : Fin 128), (40 : Fin 128), (41 : Fin 128), (42 : Fin 128), (43 : Fin 128), (44 : Fin 128), (45 : Fin 128), (46 : Fin 128), (47 : Fin 128), (48 : Fin 128), (49 : Fin 128), (50 : Fin 128), (51 : Fin 128), (52 : Fin 128), (53 : Fin 128), (54 : Fin 128), (55 : Fin 128), (56 : Fin 128), (57 : Fin 128), (58 : Fin 128), (59 : Fin 128), (60 : Fin 128), (61 : Fin 128), (62 : Fin 128), (63 : Fin 128), (64 : Fin 128), (65 : Fin 128), (66 : Fin 128), (67 : Fin 128), (68 : Fin 128), (69 : Fin 128), (70 : Fin 128), (71 : Fin 128), (72 : Fin 128), (73 : Fin 128), (74 : Fin 128), (75 : Fin 128), (76 : Fin 128), (77 : Fin 128), (78 : Fin 128), (79 : Fin 128), (80 : Fin 128), (81 : Fin 128), (82 : Fin 128), (83 : Fin 128), (84 : Fin 128), (85 : Fin 128), (86 : Fin 128), (87 : Fin 128), (88 : Fin 128), (89 : Fin 128), (90 : Fin 128), (91 : Fin 128), (92 : Fin 128), (93 : Fin 128), (94 : Fin 128), (95 : Fin 128), (96 : Fin 128), (97 : Fin 128), (98 : Fin 128), (99 : Fin 128), (100 : Fin 128), (101 : Fin 128), (102 : Fin 128), (103 : Fin 128), (104 : Fin 128), (105 : Fin 128), (106 : Fin 128), (107 : Fin 128), (108 : Fin 128), (109 : Fin 128), (110 : Fin 128), (111 : Fin 128), (112 : Fin 128), (113 : Fin 128), (114 : Fin 128), (115 : Fin 128), (116 : Fin 128), (117 : Fin 128), (118 : Fin 128), (119 : Fin 128), (120 : Fin 128), (121 : Fin 128), (122 : Fin 128), (123 : Fin 128), (124 : Fin 128), (125 : Fin 128), (126 : Fin 128), (127 : Fin 128)] (by decide +kernel) (by decide +kernel)]; rfl

/-- The weight array: the one unscoped buffer the body reads by copies of its own. -/
def gH : Finset (Ref sig .tc) := {main_arg1}
theorem gH_sub : gH ⊆ Pipeline.restRefsP sig pre0 spec0 := by decide
theorem hbmPts0_eq (c : Dev nD) :
    (bigSep gH (fun b => ((c : Thread nD τ).loc b) ↦{fullShare} V c b) : sProp 𝕄) = iprop(hbPtq c hbM fullShare (V c main_arg1)) := by
  rw [BI.bigSep_eq_bigSepL_of_eq [main_arg1] (by decide) (by decide)]; rfl
/-- The table held whole, as the body reads it. -/
theorem tblPt_eq (c : Dev nD) :
    (Pipeline.prefHeld pre0 c (fun _ => fullShare) (gTbl V) : sProp 𝕄) = iprop(((c : Thread nD τ).loc main_v15) ↦{fullShare} (gTbl V 0)) := by
  unfold Pipeline.prefHeld
  rw [show (Finset.univ : Finset (Fin 1)) = {(0 : Fin 1)} from by decide, bigSep_singleton]
  rfl

/-- Every word of the table as entered is below 16384. -/
theorem gTbl_lt (hT : TblOk V) (k : S8192.Idx) : ((gTbl V 0 : S8192.Idx → BitVec 32) k).toNat < 16384 := hT 0 k

/-- What the output block's staging buffer holds after the body at point `t`. -/
def gOutsAt (hT : TblOk V) (c : Dev nD) (t : Fin (gCfg V).N) : Vec F S128x4096 .bf16 :=
  gOut c (grid0.coords t) tbM htbM (gms V t) (ghs V t) scM (Memref.isWhole_whole _) (gTbl V 0) (gTbl_lt V hT) (V c main_arg1)

/-- The invariant of the region: the scoped buffers no window stages (the scratch among them), the generator register,
    the kernel's cells at zero, the weight array and the table whole at their region-entry contents. -/
abbrev gPhi (c : Dev nD) : sProp 𝕄 :=
  iprop(Pipeline.ΦD osem0 spec0 gH V c ∗ Pipeline.prefHeld pre0 c (fun _ => fullShare) (gTbl V))

theorem gPhi_eq (c : Dev nD) :
    (gPhi V c : sProp 𝕄)
      = iprop(iprop(iprop((∃ d, owns (c : Thread nD τ) scM fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f)) ∗ (∃ r, prngReg c r) ∗ cells0 c ∗ hbPtq c hbM fullShare (V c main_arg1))
          ∗ owns (c : Thread nD τ) tbM fullShare (gTbl V 0)) := by
  unfold gPhi
  rw [Pipeline.ΦD_eq, scopedRest0_eq, ownSems00_eq, hbmPts0_eq, tblPt_eq]; simp only [scM, tbM, owns_whole]
  first
    | rfl
    | exact congrArg _ (owns_whole (c : Thread nD τ) main_v15 fullShare (gTbl V 0)).symm

/-- The proof data of the first pipeline on core `c`. -/
def gDat (hT : TblOk V) (c : Dev nD) : Dat τ (Elt F) Unit ℕ (Pipeline.UD sig nD τ) ℕ (gCfg V) c where
  A w := V c (Pipeline.arrRef spec0 w)
  after w t := match w with
    | ⟨0, _⟩ => gOutsAt V hT c t
  Φ _ := gPhi V c
  q _ := fullShare
  owed _ := 0

theorem gA_eq (hT : TblOk V) (c : Dev nD) (w : Fin (gCfg V).W) : (gDat V hT c).A w = V c (Pipeline.arrRef spec0 w) := by
  dsimp only [gDat]
theorem gAfter0 (hT : TblOk V) (c : Dev nD) (t : Fin (gCfg V).N) : (gDat V hT c).after 0 t = gOutsAt V hT c t := by dsimp only [gDat]; try rfl

/-- The kernel body at point `t`, on what the pipeline calls it with. -/
abbrev gBodyAt (t : Fin (gCfg V).N) : Prog (TpuEff nD τ sig (Elt F) Λ₀ .tc) PUnit :=
  cc0__gather_kernel (grid0.coords t) (Memref.whole main_v15) (Memref.isWhole_whole _) (Memref.whole main_arg1) (Memref.isWhole_whole _) (spec0_0.stage ((gCfg V).slots t 0)) (hstage0_0 (((gCfg V).slots t 0).cast nbuf0_0)) (Memref.whole cc0_scratch0) (Memref.isWhole_whole _) cc0_scratch1

def gBodyPre (hT : TblOk V) (c : Dev nD) (t : Fin (gCfg V).N) : sProp 𝕄 :=
  iprop((gDat V hT c).Φ t.castSucc ∗ (gDat V hT c).owesAt () t.castSucc
    ∗ (∃ d, owns (c : Thread nD τ) (gms V t) fullShare ((gDat V hT c).before 0 t d)))

def gBodyPost (hT : TblOk V) (c : Dev nD) (t : Fin (gCfg V).N) : sProp 𝕄 :=
  iprop((gDat V hT c).Φ t.succ ∗ (gDat V hT c).owesAt () t.succ
    ∗ owns (c : Thread nD τ) (gms V t) fullShare ((gDat V hT c).after 0 t))

/-- The body at any point: the invariant hands the run the scratch, the cells at zero, the weight array and the table, and
    takes them back as they were; the core's `owes` comes back with this point's 128 waits recorded. -/
theorem gSoundBody (hT : TblOk V) (c : Dev nD) (t : Fin (gCfg V).N) :
    gBodyPre V hT c t ⊢ wp frame (wpE (defs₀ (F := F)) Variants.none c none) Set.univ (gBodyAt V t) (fun _ => gBodyPost V hT c t) := by
  unfold gBodyPre gBodyPost gBodyAt
  rw [show (gDat V hT c).Φ t.succ = (gDat V hT c).Φ t.castSucc from rfl, gAfter0]
  rw [show (gDat V hT c).Φ t.castSucc = gPhi V c from rfl, gPhi_eq]
  unfold Dat.owesAt Pipeline.owesWithin
  rw [show (gDat V hT c).owed t.castSucc = 0 from rfl, show (gDat V hT c).owed t.succ = 0 from rfl]
  unfold gOutsAt
  unfold gOut
  iintro ⟨⟨⟨⟨HS0, HR⟩, Hg, Hq, Hh⟩, HT⟩, ⟨%W, -, HW⟩, ⟨%d0, H0⟩⟩
  iapply ((gatherRun c (grid0.coords t) tbM htbM (gms V t) (ghs V t) scM (Memref.isWhole_whole _) (gTbl V 0) (gTbl_lt V hT) (V c main_arg1)).2 W _)
  isplitl [HT]; · iexact HT
  isplitl [H0]; · iexists _; iexact H0
  isplitl [HS0]; · iexact HS0
  isplitl [Hq]; · iexact Hq
  isplitl [Hh]; · iexact Hh
  isplitl [HW]; · iexact HW
  iintro ⟨HT, ⟨%e0, H0⟩, HS0, Hq, Hh, ⟨%W', HW'⟩⟩
  isplitl [HS0 HR Hg Hq Hh HT]
  · isplitl [HS0 HR Hg Hq Hh]
    · isplitl [HS0 HR]
      · isplitl [HS0]; · iexact HS0
        iexact HR
      isplitl [Hg]; · iexact Hg
      isplitl [Hq]; · iexact Hq
      iexact Hh
    iexact HT
  isplitl [HW']
  · iexists W'; isplitr; · ipureintro; exact fun _ _ => Or.inl trivial
    iexact HW'
  unfold owns; iexists _; isplitr
  swap; · iexact H0
  ipureintro; exact View.read_writes_of_cover _ _ _ _ _ (gCover c _ _ _ _ _ _ _ _ _ _)

set_option maxRecDepth 1000000 in
/-- The library's body obligation, at every point. -/
theorem gBodyObligation (hT : TblOk V) (c : Dev nD) : BodyObligation (gDat (F := F) V hT c) (defs₀ (F := F)) Variants.none () Set.univ := fun t => by
  rw [bigSep_W0, bigSep_W0]
  exact gSoundBody V hT c t

end Cert.Kernel.Hand

end
-- ==== Proof.K.Gemm.lean ====
/-
  The second kernel region: one grid point multiplies a 1024×4096 block of the activations by the transpose of a
  512×4096 block of the selected weight rows and adds a 1×512 block of the selected bias, broadcast over the rows.
  Here: what the output block holds after the body as one function of the three input blocks, the body's triple,
  and the pipeline's proof data over it, at any contents `V` the region is entered from.
-/
import proofs.«172148_j16612933501330_2_alg».proof.Proof.Gen.Kernel.Launch
import proofs.«172148_j16612933501330_2_alg».proof.Proof.Gen.Kernel.Skeleton
import proofs.«172148_j16612933501330_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block at grid point `t`, read off its array as the region finds it. -/
def mmBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (the activations'
    block is fetched once per row of the grid and stays put for the sixteen points of that row). -/
theorem mmBefore0_of {c : Dev nD} (dat : Dat τ (Elt F) Unit ℕ (Pipeline.UD sig nD τ) ℕ cfg1 c) (hA : dat.A 0 = V c (Pipeline.arrRef spec1 0))
    (hafter : ∀ t, dat.after 0 t = mmBlk V c 0 t) (t : Fin cfg1.N) (d) : dat.before 0 t d = mmBlk V c 0 t :=
  (dat.before_in_eq_fetched 0 rfl (fun _ => rfl) (fun _ _ _ => rfl) (fun t => by rw [hafter]; unfold Dat.blockOf mmBlk; rw [hA]; try rfl) t d).trans
    (by unfold Dat.fetched Dat.blockOf mmBlk; rw [hA]; try rfl)
theorem mmBefore1_of {c : Dev nD} (dat : Dat τ (Elt F) Unit ℕ (Pipeline.UD sig nD τ) ℕ cfg1 c) (hA : dat.A 1 = V c (Pipeline.arrRef spec1 1))
    (hafter : ∀ t, dat.after 1 t = mmBlk V c 1 t) (t : Fin cfg1.N) (d) : dat.before 1 t d = mmBlk V c 1 t :=
  (dat.before_in_eq_fetched 1 rfl (fun _ => rfl) (fun _ _ _ => rfl) (fun t => by rw [hafter]; unfold Dat.blockOf mmBlk; rw [hA]; try rfl) t d).trans
    (by unfold Dat.fetched Dat.blockOf mmBlk; rw [hA]; try rfl)
theorem mmBefore2_of {c : Dev nD} (dat : Dat τ (Elt F) Unit ℕ (Pipeline.UD sig nD τ) ℕ cfg1 c) (hA : dat.A 2 = V c (Pipeline.arrRef spec1 2))
    (hafter : ∀ t, dat.after 2 t = mmBlk V c 2 t) (t : Fin cfg1.N) (d) : dat.before 2 t d = mmBlk V c 2 t :=
  (dat.before_in_eq_fetched 2 rfl (fun _ => rfl) (fun _ _ _ => rfl) (fun t => by rw [hafter]; unfold Dat.blockOf mmBlk; rw [hA]; try rfl) t d).trans
    (by unfold Dat.fetched Dat.blockOf mmBlk; rw [hA]; try rfl)

/-- The whole-block rectangles the body loads and stores through. -/
abbrev rAct : Rect S1024x4096 := Rect.unit (s := S1024x4096) ![0, 0] S1024x4096.size inb_S1024x4096_S1024x4096_0_0
abbrev rWgt : Rect S512x4096 := Rect.unit (s := S512x4096) ![0, 0] S512x4096.size inb_S512x4096_S512x4096_0_0
abbrev rBias : Rect S1x512 := Rect.unit (s := S1x512) ![0, 0] S1x512.size inb_S1x512_S1x512_0_0
abbrev rOut : Rect S1024x512 := Rect.unit (s := S1024x512) ![0, 0] S1024x512.size inb_S1024x512_S1024x512_0_0

/-- The output block after the body: the one whole-block store of (activations · weightsᵀ + bias) of the three input blocks. -/
def mmOut (x0 : Vec F S1024x4096 .bf16) (x1 : Vec F S512x4096 .bf16) (x2 : Vec F S1x512 .f32) : Vec F S1024x512 .f32 :=
  View.canon [⟨rOut, k1_pay1 (View.ld x0 rAct) (View.ld x1 rWgt) (View.ld x2 rBias)⟩]

/-- The one store covers the block. -/
theorem mmCover (p0 : Vec F S1024x512 .f32) (y : S1024x512.Idx) :
    ∃ pc ∈ ([⟨rOut, p0⟩] : List (View.Piece (Elt F) S1024x512 .f32)), y ∈ pc.1.set :=
  View.cover_of_tiled [⟨rOut, p0⟩] S1024x512.size (by rfl) y

set_option maxHeartbeats 1000000 in
/-- The body on whole staging memrefs — the three inputs' at contents `x0 x1 x2`, the output's at anything — runs to the
    continuation with the inputs as they were and the output at `mmOut x0 x1 x2`. -/
theorem mmKernel (c : Dev nD) (E : Set ℕ) (i : grid1.Coords)
    (arg2 : Memref sig .tc .vmem S1024x4096 .bf16) (harg2 : arg2.IsWhole) (arg3 : Memref sig .tc .vmem S512x4096 .bf16) (harg3 : arg3.IsWhole)
    (arg4 : Memref sig .tc .vmem S1x512 .f32) (harg4 : arg4.IsWhole) (arg5 : Memref sig .tc .vmem S1024x512 .f32) (harg5 : arg5.IsWhole)
    (x0 : Vec F S1024x4096 .bf16) (x1 : Vec F S512x4096 .bf16) (x2 : Vec F S1x512 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (mmOut x0 x1 x2)) -∗ K ⟨⟩))
      ⊢ wp frame (wpE (defs₀ (F := F)) Variants.none c none) E (cc1__gemm_kernel i arg2 harg2 arg3 harg3 arg4 harg4 arg5 harg5) K := by
  simp only [cc1__gemm_kernel_eq_skeleton]; unfold cc1__gemm_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (mmCover _)

/-- The proof data of the second pipeline on core `c`: its arrays as the region finds them; after the body at point `t`
    each input's staging buffer at its block and the output's at `mmOut` of the input blocks; the invariant the scoped
    rest and the generator register, untouched; nothing owed; full shares. -/
def mmDat (c : Dev nD) : Dat τ (Elt F) Unit ℕ (Pipeline.UD sig nD τ) ℕ cfg1 c where
  A w := V c (Pipeline.arrRef spec1 w)
  after w t := match w with
    | ⟨0, _⟩ => mmBlk V c 0 t
    | ⟨1, _⟩ => mmBlk V c 1 t
    | ⟨2, _⟩ => mmBlk V c 2 t
    | ⟨3, _⟩ => mmOut (mmBlk V c 0 t) (mmBlk V c 1 t) (mmBlk V c 2 t)
  Φ _ := Pipeline.ΦA spec1 c
  q _ := fullShare
  owed _ := 0

theorem mmA_eq (c : Dev nD) (w : Fin cfg1.W) : (mmDat V c).A w = V c (Pipeline.arrRef spec1 w) := by
  dsimp only [mmDat]

theorem mmAfter0 (c : Dev nD) (t : Fin cfg1.N) : (mmDat V c).after 0 t = mmBlk V c 0 t := by dsimp only [mmDat]
theorem mmAfter1 (c : Dev nD) (t : Fin cfg1.N) : (mmDat V c).after 1 t = mmBlk V c 1 t := by dsimp only [mmDat]
theorem mmAfter2 (c : Dev nD) (t : Fin cfg1.N) : (mmDat V c).after 2 t = mmBlk V c 2 t := by dsimp only [mmDat]
theorem mmAfter3 (c : Dev nD) (t : Fin cfg1.N) :
    (mmDat V c).after 3 t = mmOut (mmBlk V c 0 t) (mmBlk V c 1 t) (mmBlk V c 2 t) := by dsimp only [mmDat]

theorem mmBefore0 (c : Dev nD) (t : Fin cfg1.N) (d) : (mmDat V c).before 0 t d = mmBlk V c 0 t :=
  mmBefore0_of V (mmDat V c) (mmA_eq V c 0) (mmAfter0 V c) t d
theorem mmBefore1 (c : Dev nD) (t : Fin cfg1.N) (d) : (mmDat V c).before 1 t d = mmBlk V c 1 t :=
  mmBefore1_of V (mmDat V c) (mmA_eq V c 1) (mmAfter1 V c) t d
theorem mmBefore2 (c : Dev nD) (t : Fin cfg1.N) (d) : (mmDat V c).before 2 t d = mmBlk V c 2 t :=
  mmBefore2_of V (mmDat V c) (mmA_eq V c 2) (mmAfter2 V c) t d

/-- What the body is called with at point `t`, the windows one by one, -/
def mmBodyPre (c : Dev nD) (t : Fin cfg1.N) : sProp 𝕄 :=
  iprop((mmDat V c).Φ t.castSucc ∗ (mmDat V c).owesAt () t.castSucc
    ∗ (∃ d, owns (c : Thread nD τ) (st1_0 t) fullShare ((mmDat V c).before 0 t d))
    ∗ (∃ d, owns (c : Thread nD τ) (st1_1 t) fullShare ((mmDat V c).before 1 t d))
    ∗ (∃ d, owns (c : Thread nD τ) (st1_2 t) fullShare ((mmDat V c).before 2 t d))
    ∗ (∃ d, owns (c : Thread nD τ) (st1_3 t) fullShare ((mmDat V c).before 3 t d)))

/-- and what it returns. -/
def mmBodyPost (c : Dev nD) (t : Fin cfg1.N) : sProp 𝕄 :=
  iprop((mmDat V c).Φ t.succ ∗ (mmDat V c).owesAt () t.succ
    ∗ owns (c : Thread nD τ) (st1_0 t) fullShare ((mmDat V c).after 0 t)
    ∗ owns (c : Thread nD τ) (st1_1 t) fullShare ((mmDat V c).after 1 t)
    ∗ owns (c : Thread nD τ) (st1_2 t) fullShare ((mmDat V c).after 2 t)
    ∗ owns (c : Thread nD τ) (st1_3 t) fullShare ((mmDat V c).after 3 t))

/-- The body at any point: the inputs' memrefs hold their blocks, so `mmKernel` applies; the invariant and the core's
    `owes` pass through unread. -/
theorem mmSoundBody (c : Dev nD) (t : Fin cfg1.N) :
    mmBodyPre V c t ⊢ wp frame (wpE (defs₀ (F := F)) Variants.none c none) Set.univ (bodyAt1 t) (fun _ => mmBodyPost V c t) := by
  unfold mmBodyPre mmBodyPost bodyAt1
  simp only [mmBefore0, mmBefore1, mmBefore2]
  rw [show (mmDat V c).Φ t.succ = (mmDat V c).Φ t.castSucc from rfl,
    show (mmDat V c).owesAt () t.succ = (mmDat V c).owesAt () t.castSucc from rfl,
    mmAfter0, mmAfter1, mmAfter2, mmAfter3]
  iintro ⟨HΦ, Ho, ⟨%d0, H0⟩, ⟨%d1, H1⟩, ⟨%d2, H2⟩, ⟨%d3, H3⟩⟩
  iapply (mmKernel c Set.univ (grid1.coords t) _ _ _ _ _ _ _ _ (mmBlk V c 0 t) (mmBlk V c 1 t) (mmBlk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem mmBodyObligation (c : Dev nD) : BodyObligation (mmDat (F := F) V c) (defs₀ (F := F)) Variants.none () Set.univ := fun t => by
  rw [bigSep_W1, bigSep_W1]
  exact mmSoundBody V c t

end Cert.Kernel.Hand

end
-- ==== Proof.K.Run.lean ====
/-
  The whole program as a run: twelve stretches of host operations, the first kernel region (the gather of the selected
  weight rows), one more stretch (the activations cast to bf16), the second kernel region (the product). The contents of
  every buffer at each boundary are a fold from the launch memory: a stretch applies its operations; a region leaves its
  windows' arrays at what its write-backs fold to and every other buffer as it found it. Every terminating execution ends
  with every unscoped buffer at the fold's last stage; the arguments end as launched.
-/
import proofs.«172148_j16612933501330_2_alg».proof.Proof.K.GatherDat
import proofs.«172148_j16612933501330_2_alg».proof.Proof.K.Gemm
import proofs.«172148_j16612933501330_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! ## The buffer contents at each boundary: a fold through the program -/

/-- Core `c`'s buffers at launch. -/
abbrev W0 : Dev nD → Valuation τ sig (Elt F) := fun c => Gen.V0 m c
/-- After the host stretch `hostOps0`. -/
abbrev W1 : Dev nD → Valuation τ sig (Elt F) := fun c => StableHlo.after hostOps0 (W0 m c)
/-- After the host stretch `hostOps0_1`. -/
abbrev W2 : Dev nD → Valuation τ sig (Elt F) := fun c => StableHlo.after hostOps0_1 (W1 m c)
/-- After the host stretch `hostOps0_2`. -/
abbrev W3 : Dev nD → Valuation τ sig (Elt F) := fun c => StableHlo.after hostOps0_2 (W2 m c)
/-- After the host stretch `hostOps0_3`. -/
abbrev W4 : Dev nD → Valuation τ sig (Elt F) := fun c => StableHlo.after hostOps0_3 (W3 m c)
/-- After the host stretch `hostOps0_4`. -/
abbrev W5 : Dev nD → Valuation τ sig (Elt F) := fun c => StableHlo.after hostOps0_4 (W4 m c)
/-- After the host stretch `hostOps0_5`. -/
abbrev W6 : Dev nD → Valuation τ sig (Elt F) := fun c => StableHlo.after hostOps0_5 (W5 m c)
/-- After the host stretch `hostOps0_6`. -/
abbrev W7 : Dev nD → Valuation τ sig (Elt F) := fun c => StableHlo.after hostOps0_6 (W6 m c)
/-- After the host stretch `hostOps0_7`. -/
abbrev W8 : Dev nD → Valuation τ sig (Elt F) := fun c => StableHlo.after hostOps0_7 (W7 m c)
/-- After the host stretch `hostOps0_8`. -/
abbrev W9 : Dev nD → Valuation τ sig (Elt F) := fun c => StableHlo.after hostOps0_8 (W8 m c)
/-- After the host stretch `hostOps0_9`. -/
abbrev W10 : Dev nD → Valuation τ sig (Elt F) := fun c => StableHlo.after hostOps0_9 (W9 m c)
/-- After the host stretch `hostOps0_10`. -/
abbrev W11 : Dev nD → Valuation τ sig (Elt F) := fun c => StableHlo.after hostOps0_10 (W10 m c)
/-- After the host stretch `hostOps0_11`. -/
abbrev W12 : Dev nD → Valuation τ sig (Elt F) := fun c => StableHlo.after hostOps0_11 (W11 m c)
/-- The same read at the TensorCore's references: what the first region is entered from. -/
abbrev V12 : (c : Dev nD) → (b : Ref sig .tc) → Buf (Elt F) ((c : Thread nD τ).loc b) := fun c b => W12 m c b

variable (hT : TblOk (V12 m))

/-- After the first region: its output array (the selected weight rows) at what its write-backs fold to, every other
    buffer as the region found it. -/
def W13 (c : Dev nD) : Valuation τ sig (Elt F) :=
  Pipeline.withArrays spec0 c (W12 m c) fun w => (gDat (V12 m) hT c).arrAt w (gCfg (V12 m)).N
theorem W13_arr (c : Dev nD) (w : Fin (gCfg (V12 m)).W) :
    W13 m hT c (Proc.devRef .tc (Pipeline.arrRef spec0 w)) = (gDat (V12 m) hT c).arrAt w (gCfg (V12 m)).N := by
  unfold W13; exact Pipeline.withArrays_arr spec0 (launch0 (F := F)).win.arr_inj c _ _ w
theorem W13_of_ne (c : Dev nD) (b : Ref sig .tc) (hb : ∀ w, Pipeline.arrRef spec0 w ≠ b) :
    W13 m hT c (Proc.devRef .tc b) = W12 m c (Proc.devRef .tc b) := by
  unfold W13; exact Pipeline.withArrays_of_ne spec0 c _ _ b hb
abbrev V13 : (c : Dev nD) → (b : Ref sig .tc) → Buf (Elt F) ((c : Thread nD τ).loc b) := fun c b => W13 m hT c b
theorem hF0 (c : Dev nD) (w : Fin (gCfg (V12 m)).W) :
    (gDat (V12 m) hT c).arrAt w (gCfg (V12 m)).N = V13 m hT c (Pipeline.arrRef spec0 w) := (W13_arr m hT c w).symm
theorem hrest0 (c : Dev nD) : ∀ b, b ∉ Finset.univ.image (Pipeline.arrRef spec0) → V13 m hT c b = V12 m c b :=
  fun b hb => W13_of_ne m hT c b fun w e => hb (Finset.mem_image.mpr ⟨w, Finset.mem_univ _, e⟩)

/-- After the stretch between the regions (the activations cast to bf16). -/
abbrev W14 : Dev nD → Valuation τ sig (Elt F) := fun c => StableHlo.after hostOps1 (W13 m hT c)
/-- The same read at the TensorCore's references: what the second region is entered from. -/
abbrev V14 : (c : Dev nD) → (b : Ref sig .tc) → Buf (Elt F) ((c : Thread nD τ).loc b) := fun c b => W14 m hT c b

/-- After the second region: its output array (the product) at what its write-backs fold to, every other buffer as the
    region found it. -/
def W15 (c : Dev nD) : Valuation τ sig (Elt F) :=
  Pipeline.withArrays spec1 c (W14 m hT c) fun w => (mmDat (V14 m hT) c).arrAt w cfg1.N
theorem W15_arr (c : Dev nD) (w : Fin cfg1.W) :
    W15 m hT c (Proc.devRef .tc (Pipeline.arrRef spec1 w)) = (mmDat (V14 m hT) c).arrAt w cfg1.N := by
  unfold W15; exact Pipeline.withArrays_arr spec1 (launch1 (F := F)).win.arr_inj c _ _ w
theorem W15_of_ne (c : Dev nD) (b : Ref sig .tc) (hb : ∀ w, Pipeline.arrRef spec1 w ≠ b) :
    W15 m hT c (Proc.devRef .tc b) = W14 m hT c (Proc.devRef .tc b) := by
  unfold W15; exact Pipeline.withArrays_of_ne spec1 c _ _ b hb
abbrev V15 : (c : Dev nD) → (b : Ref sig .tc) → Buf (Elt F) ((c : Thread nD τ).loc b) := fun c b => W15 m hT c b
theorem hF1 (c : Dev nD) (w : Fin cfg1.W) : (mmDat (V14 m hT) c).arrAt w cfg1.N = V15 m hT c (Pipeline.arrRef spec1 w) :=
  (W15_arr m hT c w).symm
theorem hrest1 (c : Dev nD) : ∀ b, b ∉ Finset.univ.image (Pipeline.arrRef spec1) → V15 m hT c b = V14 m hT c b :=
  fun b hb => W15_of_ne m hT c b fun w e => hb (Finset.mem_image.mpr ⟨w, Finset.mem_univ _, e⟩)

/-- The product's array after the run is what the second region's write-backs fold to. -/
theorem W15_main_v20 (c : Dev nD) : W15 m hT c (Proc.devRef .tc main_v20) = (mmDat (V14 m hT) c).arrAt 3 cfg1.N :=
  W15_arr m hT c 3

/-! ### The arguments end as launched: no stretch writes one and neither region's windows hold one (the first region reads
    the weight array by copies of its own and hands it back unchanged) -/

/-- A buffer no host stretch before the first region writes holds its launch contents when that region is entered. -/
theorem W12_of (c : Dev nD) (r : Ref sig .tc) (h0 : r ∉ hostOps0_W) (h1 : r ∉ hostOps0_1_W) (h2 : r ∉ hostOps0_2_W) (h3 : r ∉ hostOps0_3_W)
    (h4 : r ∉ hostOps0_4_W) (h5 : r ∉ hostOps0_5_W) (h6 : r ∉ hostOps0_6_W) (h7 : r ∉ hostOps0_7_W) (h8 : r ∉ hostOps0_8_W)
    (h9 : r ∉ hostOps0_9_W) (h10 : r ∉ hostOps0_10_W) (h11 : r ∉ hostOps0_11_W) :
    W12 m c (Proc.devRef .tc r) = m ((c : Thread nD τ).loc r) :=
  (V12_of m c r h11).trans <| (V11_of m c r h10).trans <| (V10_of m c r h9).trans <| (V9_of m c r h8).trans <| (V8_of m c r h7).trans <|
    (V7_of m c r h6).trans <| (V6_of m c r h5).trans <| (V5_of m c r h4).trans <| (V4_of m c r h3).trans <| (V3_of m c r h2).trans <|
    (V2_of m c r h1).trans <| (V1_of m c r h0).trans rfl
theorem W15_main_arg0 (c : Dev nD) : W15 m hT c (Proc.devRef .tc main_arg0) = m ((c : Thread nD τ).loc main_arg0) :=
  calc W15 m hT c (Proc.devRef .tc main_arg0)
    _ = W14 m hT c (Proc.devRef .tc main_arg0) := W15_of_ne m hT c main_arg0 (by decide)
    _ = W13 m hT c (Proc.devRef .tc main_arg0) := StableHlo.after_of_writes_sub hostOps1 _ hostOps1_writes (by decide)
    _ = W12 m c (Proc.devRef .tc main_arg0) := W13_of_ne m hT c main_arg0 (by decide)
    _ = m ((c : Thread nD τ).loc main_arg0) := W12_of m c main_arg0 (by decide) (by decide) (by decide) (by decide) (by decide) (by decide) (by decide) (by decide) (by decide) (by decide) (by decide) (by decide)
theorem W15_main_arg1 (c : Dev nD) : W15 m hT c (Proc.devRef .tc main_arg1) = m ((c : Thread nD τ).loc main_arg1) :=
  calc W15 m hT c (Proc.devRef .tc main_arg1)
    _ = W14 m hT c (Proc.devRef .tc main_arg1) := W15_of_ne m hT c main_arg1 (by decide)
    _ = W13 m hT c (Proc.devRef .tc main_arg1) := StableHlo.after_of_writes_sub hostOps1 _ hostOps1_writes (by decide)
    _ = W12 m c (Proc.devRef .tc main_arg1) := W13_of_ne m hT c main_arg1 (by decide)
    _ = m ((c : Thread nD τ).loc main_arg1) := W12_of m c main_arg1 (by decide) (by decide) (by decide) (by decide) (by decide) (by decide) (by decide) (by decide) (by decide) (by decide) (by decide) (by decide)
theorem W15_main_arg2 (c : Dev nD) : W15 m hT c (Proc.devRef .tc main_arg2) = m ((c : Thread nD τ).loc main_arg2) :=
  calc W15 m hT c (Proc.devRef .tc main_arg2)
    _ = W14 m hT c (Proc.devRef .tc main_arg2) := W15_of_ne m hT c main_arg2 (by decide)
    _ = W13 m hT c (Proc.devRef .tc main_arg2) := StableHlo.after_of_writes_sub hostOps1 _ hostOps1_writes (by decide)
    _ = W12 m c (Proc.devRef .tc main_arg2) := W13_of_ne m hT c main_arg2 (by decide)
    _ = m ((c : Thread nD τ).loc main_arg2) := W12_of m c main_arg2 (by decide) (by decide) (by decide) (by decide) (by decide) (by decide) (by decide) (by decide) (by decide) (by decide) (by decide) (by decide)
theorem W15_main_arg3 (c : Dev nD) : W15 m hT c (Proc.devRef .tc main_arg3) = m ((c : Thread nD τ).loc main_arg3) :=
  calc W15 m hT c (Proc.devRef .tc main_arg3)
    _ = W14 m hT c (Proc.devRef .tc main_arg3) := W15_of_ne m hT c main_arg3 (by decide)
    _ = W13 m hT c (Proc.devRef .tc main_arg3) := StableHlo.after_of_writes_sub hostOps1 _ hostOps1_writes (by decide)
    _ = W12 m c (Proc.devRef .tc main_arg3) := W13_of_ne m hT c main_arg3 (by decide)
    _ = m ((c : Thread nD τ).loc main_arg3) := W12_of m c main_arg3 (by decide) (by decide) (by decide) (by decide) (by decide) (by decide) (by decide) (by decide) (by decide) (by decide) (by decide) (by decide)

/-! ## The proof data family and the thread state -/

/-- The prefetched tables' admissible contents: the first pipeline's index table as the region finds it; the second has none. -/
abbrev adm : (p : Fin 2) → (pcfgs (F := F) p).Adm
  | ⟨0, _⟩ => gAdm (V12 m)
  | ⟨1, _⟩ => cfg1.toPCfg_adm
/-- Every pipeline's proof data, each at its region's entry contents. -/
def pdats : (p : Fin 2) → (c : Dev nD) → Dat τ (Elt F) Unit ℕ (Pipeline.UD sig nD τ) ℕ (Pipeline.pin (pcfgs (F := F)) (adm m) p) c
  | ⟨0, _⟩ => fun c => gDat (V12 m) hT c
  | ⟨1, _⟩ => fun c => mmDat (V14 m hT) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register at some state. -/
abbrev Tₙ (c : Dev nD) : sProp 𝕄 := iprop(StableHlo.held (c : Thread nD τ) (Pipeline.ucRefs τ sig) (W15 m hT c) ∗ ∃ r, prngReg c r)

/-- The unscoped buffers that are not the first region's array: its index table, the weight array it copies from itself,
    and the others. -/
theorem rest0_eq (c : Dev nD) :
    (Pipeline.unscopedRest (Ix := Unit) (Name := ℕ) (U := Pipeline.UD sig nD τ) (Lvl := ℕ) spec0 c (V12 m c) : sProp 𝕄)
      = iprop(Pipeline.prefHeld pre0 c (fun _ => fullShare) (gTbl (V12 m))
          ∗ (bigSep gH fun b => ((c : Thread nD τ).loc b) ↦{fullShare} V12 m c b)
          ∗ (bigSep (Pipeline.restRefsP sig pre0 spec0 \ gH) fun b => ((c : Thread nD τ).loc b) ↦{fullShare} V12 m c b)) := by
  rw [Pipeline.unscopedRest_split preFacts0 c (V12 m c), Pipeline.unscopedRestP_sdiff pre0 spec0 gH gH_sub c (V12 m c),
    show (fun k => V12 m c (pre0.ref k)) = gTbl (V12 m) from funext fun k => gV_pre (V12 m) c k]

/-! ## The regions as segments -/

set_option backward.isDefEq.respectTransparency.types false in
/-- The first region over the thread state: entered from every unscoped buffer at `W12`, left at `W13`. Its array splits
    out of the unscoped buffers and is put back at the exit contents; the index table, the generator register, the kernel's
    own copy cells (at zero from the boundary and back) and the weight array enter the invariant and come back; nothing owed. -/
def reg0 : Pipeline.RegionSeg (pcfgs (F := F)) (adm m) (pdats m hT) () defs₀ 𝒱₀ L lv 0 where
  win := (launch0 (F := F)).win.to₀
  block_pos := (launch0 (F := F)).block_pos
  stage_whole := (launch0 (F := F)).stage_whole
  K := Fin 128
  osem := osem0
  ho := ownSemFacts0
  hbody c := (gBodyObligation (V12 m) hT c).loose
  hwaits := Pipeline.hwaits_of_owed_zero _ _ _ _ L lv 0 fun _ _ => rfl
  pre c := iprop(StableHlo.held (c : Thread nD τ) (Pipeline.ucRefs τ sig) (W12 m c) ∗ R c)
  post c := iprop(StableHlo.held (c : Thread nD τ) (Pipeline.ucRefs τ sig) (W13 m hT c) ∗ R c)
  X c := iprop((∃ r, prngReg c r) ∗ Pipeline.ownSems0 (Ix := Unit) (Name := ℕ) (U := Pipeline.UD sig nD τ) (Lvl := ℕ) (Val := Elt F) (τ := τ) osem0 c ∗ (bigSep gH fun b => ((c : Thread nD τ).loc b) ↦{fullShare} V12 m c b))
  Y c := iprop((∃ r, prngReg c r) ∗ (bigSep gH fun b => ((c : Thread nD τ).loc b) ↦{fullShare} V12 m c b) ∗ Pipeline.prefHeld pre0 c (fun _ => fullShare) (gTbl (V12 m)))
  Z c := bigSep (Pipeline.restRefsP sig pre0 spec0 \ gH) fun b => ((c : Thread nD τ).loc b) ↦{fullShare} V12 m c b
  hentry c := by
    have hsplit := Pipeline.arrays_of_unscopedBufs (p := 0) (pcfgs (F := F)) (adm m) (pdats m hT) (launch0 (F := F)).win (launch0 (F := F)).arr_whole c
      ((pdats m hT 0 c).share_full fun _ => rfl) (V12 m c) fun _ => rfl
    rw [Pipeline.unscopedBufs_held] at hsplit
    iintro ⟨⟨Hub, Hp, HO⟩, Hos, -⟩
    ihave H := hsplit $$ Hub
    icases H with ⟨Ha, Hrest⟩
    ihave H' := (Entails.of_eq (rest0_eq m c)) $$ Hrest
    icases H' with ⟨Htb, HH, HR⟩
    imodintro
    isplitl [Ha]; · iexact Ha
    isplitl [Htb]; · iexact Htb
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [show (pdats m hT 0 c).Φ 0 = iprop(Pipeline.ΦD osem0 spec0 gH (V12 m) c ∗ Pipeline.prefHeld pre0 c (fun _ => fullShare) (gTbl (V12 m))) from rfl, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [show (pdats m hT 0 c).Φ (Fin.last _) = iprop(Pipeline.ΦD osem0 spec0 gH (V12 m) c ∗ Pipeline.prefHeld pre0 c (fun _ => fullShare) (gTbl (V12 m))) from rfl, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    have hjoin := Pipeline.unscopedBufs_of_arrays (p := 0) (pcfgs (F := F)) (adm m) (Ix := Unit) (Name := ℕ) (U := Pipeline.UD sig nD τ) (Lvl := ℕ)
      (launch0 (F := F)).win (launch0 (F := F)).arr_whole c (pdats m hT) ((pdats m hT 0 c).share_full fun _ => rfl)
      (V12 m c) (V13 m hT c) ((pdats m hT 0 c).arrAt · (gCfg (V12 m)).N) (hF0 m hT c) (hrest0 m hT c)
    rw [Pipeline.unscopedBufs_held] at hjoin
    iintro ⟨Ha, HO, ⟨HY, HH, Htb⟩, HR⟩
    ihave Hrest := (Entails.of_eq (rest0_eq m c).symm) $$ [Htb HH HR]
    · isplitl [Htb]; · iexact Htb
      isplitl [HH]; · iexact HH
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W14`, left at `W15`. Its arrays split
    out of the unscoped buffers and are put back at the exit contents; the generator register into the invariant and out;
    nothing owed; no semaphore of the kernel's own. -/
def reg1 : Pipeline.RegionSeg (pcfgs (F := F)) (adm m) (pdats m hT) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (mmBodyObligation (V14 m hT) c).loose
  hwaits := Pipeline.hwaits_of_owed_zero _ _ _ _ L lv 1 fun _ _ => rfl
  pre c := iprop(StableHlo.held (c : Thread nD τ) (Pipeline.ucRefs τ sig) (W14 m hT c) ∗ R c)
  post c := iprop(Tₙ m hT c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (V14 m hT c)
  hentry c := by
    rw [Pipeline.ownSems0_none]
    have hsplit := Pipeline.arrays_of_unscopedBufs (p := 1) (pcfgs (F := F)) (adm m) (pdats m hT) (launch1 (F := F)).win (launch1 (F := F)).arr_whole c
      ((pdats m hT 1 c).share_full fun _ => rfl) (V14 m hT c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hT 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m hT 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm m) (Ix := Unit) (Name := ℕ) (U := Pipeline.UD sig nD τ) (Lvl := ℕ)
      (launch1 (F := F)).win (launch1 (F := F)).arr_whole c (pdats m hT) ((pdats m hT 1 c).share_full fun _ => rfl)
      (V14 m hT c) (V15 m hT c) ((pdats m hT 1 c).arrAt · cfg1.N) (hF1 m hT c) (hrest1 m hT c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's fifteen segments in order: a host segment per stretch from its boundary's contents, a region per kernel. -/
abbrev segs : List (Pipeline.Seg (pcfgs (F := F)) (adm m) (pdats m hT) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .host (hseg hostOps0_5 hostOps0_5_sub hostOps0_5_fresh (W5 m)),
    .host (hseg hostOps0_6 hostOps0_6_sub hostOps0_6_fresh (W6 m)),
    .host (hseg hostOps0_7 hostOps0_7_sub hostOps0_7_fresh (W7 m)),
    .host (hseg hostOps0_8 hostOps0_8_sub hostOps0_8_fresh (W8 m)),
    .host (hseg hostOps0_9 hostOps0_9_sub hostOps0_9_fresh (W9 m)),
    .host (hseg hostOps0_10 hostOps0_10_sub hostOps0_10_fresh (W10 m)),
    .host (hseg hostOps0_11 hostOps0_11_sub hostOps0_11_fresh (W11 m)),
    .region (reg0 m hT),
    .host (hseg hostOps1 hostOps1_sub hostOps1_fresh (W13 m hT)),
    .region (reg1 m hT) ]

variable (ρ : Dev nD → PrngReg)

set_option backward.isDefEq.respectTransparency.types false in
/-- THE RUN. From any memory with zero counters, every weakly fair execution of the program on the TensorCores terminates,
    nothing faulting, and every final state has every unscoped buffer at the fold's last stage `W15`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W15 m hT c b) :=
  Pipeline.θ_run_regions_kit (pcfgs (F := F)) (adm m) (pdats m hT) () (cellOf_inj (adm m)) embL defs₀ 𝒱₀ L lv m ρ main (segs m hT)
    (fun c Q => by
      rewrite [main_chain c, Pipeline.Seg.run_eq_chain,
        show (segs m hT).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          Prog.lift (.customCall (Pipeline.entry 0) ()),
          StableHlo.seq hostOps1,
          Prog.lift (.customCall (Pipeline.entry 1) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells (Pipeline.pin (pcfgs (F := F)) (adm m)) (cellOf_inj (adm m))) (Pipeline.launchToks (Pipeline.pin (pcfgs (F := F)) (adm m)) (cellOf_inj (adm m))), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m hT)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m hT c b)
    (hfin := fun c s' => by
      iintro ⟨⟨Hh, -⟩, HSI⟩
      unfold StableHlo.held
      imodintro
      iapply (pointsTo_read_all (Pipeline.ucRefs τ sig) (fun b => (((c : Thread nD τ)).1, b)) (W15 m hT c) s')
      isplitl [Hh] <;> iassumption)
    (hQ := fun s h => h)

end Cert.Kernel.Hand

end
-- ==== Proof.K.TableRange.lean ====
/-
  Every word of the index table main_v15 is below 16384, read unsigned.
  The table is the result of the host's remainder chain: with d the divisor (16384, or 1 were it zero) and
  r := x srem d (the remainder of the dividend's sign), the word is r + d when r and d differ in sign and r ≠ 0,
  and r otherwise. For d = 16384 the remainder r lies strictly between -16384 and 16384; a negative r is moved up by
  16384 into (0, 16384), a nonnegative one is already in [0, 16384). No later host operation writes the table, so what
  the kernel's launch reads is this chain's result.
-/
import proofs.«172148_j16612933501330_2_alg».proof.Proof.Gen.Kernel.Regions
import Idealize.ShloMosaic.Lib.ValueIdx
import Idealize.ShloMosaic.Lib.WordArith

set_option maxRecDepth 16384

noncomputable section

namespace Cert.Kernel.Hand

open Cert.Kernel Cert.Kernel.Gen
open Idealize.ShloMosaic Idealize.ShloMosaic.TcCoe Idealize.SL.Sem

variable {F : FTy → Type} [FloatOps F]

/-- Division by 16384 meets neither corner of signed division, so the remainder is the plain signed remainder. -/
theorem remsi_host (x : BitVec 32) : IntOp.remsi .host x 16384#32 = x.srem 16384#32 := by
  unfold IntOp.remsi
  rw [if_neg]
  unfold IntOp.SDivCorner
  have h0 : ¬ (16384#32 : BitVec 32) = 0 := by decide
  have h1 : ¬ (16384#32 : BitVec 32) = -1 := by decide
  exact fun h => h.elim h0 (fun h' => h1 h'.2)

/-- The signed remainder by 16384 lies strictly between -16384 and 16384. -/
theorem srem_range (x : BitVec 32) : -16384 < (x.srem 16384#32).toInt ∧ (x.srem 16384#32).toInt < 16384 := by
  rw [BitVec.toInt_srem]
  have e : (16384#32 : BitVec 32).toInt = 16384 := by decide
  rw [e]
  exact ⟨Int.lt_tmod_of_pos _ (by omega), Int.tmod_lt_of_pos _ (by omega)⟩

/-- The floor-remainder chain at the divisor 16384: r := x srem 16384, moved up by 16384 when r is negative (its sign
differs from the divisor's and it is not zero). The result is in [0, 16384). -/
theorem floorMod_lt (x : BitVec 32) :
    (Scalar.select
      (IntOp.andi (IntOp.cmpi .ne (IntOp.cmpi .slt (IntOp.remsi .host x 16384#32) 0#32) (IntOp.cmpi .slt 16384#32 0#32))
        (IntOp.cmpi .ne (IntOp.remsi .host x 16384#32) 0#32))
      (IntOp.addi (IntOp.remsi .host x 16384#32) 16384#32) (IntOp.remsi .host x 16384#32)).toNat < 16384 := by
  rw [remsi_host]
  obtain ⟨h1, h2⟩ := srem_range x
  generalize x.srem 16384#32 = r at h1 h2
  have hI := BitVec.toInt_eq_toNat_cond r
  have hlt := r.isLt
  by_cases h : r.toInt < 0
  · have hs : r.slt 0#32 = true := by
      unfold BitVec.slt
      simpa using h
    have hne : (r != 0#32) = true := by
      rw [bne_iff_ne]
      intro h0
      rw [h0] at h
      simp at h
    have hc : IntOp.andi (IntOp.cmpi .ne (IntOp.cmpi .slt r 0#32) (IntOp.cmpi .slt 16384#32 0#32)) (IntOp.cmpi .ne r 0#32) = 1#1 := by
      simp only [IntOp.cmpi, IntOp.andi, hs, hne]
      decide
    rw [hc, ValueIdx.select_one]
    show (r + 16384#32).toNat < 16384
    rw [BitVec.toNat_add]
    have e : (16384#32 : BitVec 32).toNat = 16384 := by decide
    rw [e]
    split at hI <;> omega
  · have hs : r.slt 0#32 = false := by
      unfold BitVec.slt
      simpa using h
    have hc : IntOp.andi (IntOp.cmpi .ne (IntOp.cmpi .slt r 0#32) (IntOp.cmpi .slt 16384#32 0#32)) (IntOp.cmpi .ne r 0#32) = 0#1 := by
      simp only [IntOp.cmpi, IntOp.andi, hs]
      have : (BitVec.ofBool (BitVec.ofBool false != BitVec.ofBool (BitVec.slt 16384#32 0#32))) = 0#1 := by decide
      rw [this, BitVec.zero_and]
    rw [hc, ValueIdx.select_zero]
    split at hI <;> omega

/-- The divisor the chain divides by: the given one unless it is zero. At 16384 it is 16384. -/
theorem divisor_eq : Scalar.select (IntOp.cmpi .eq 16384#32 0#32) 1#32 (16384#32 : BitVec 32) = 16384#32 := by decide

/-- The same bound with the divisor as the chain computes it. -/
theorem floorMod_lt' (x : BitVec 32) :
    (Scalar.select
      (IntOp.andi (IntOp.cmpi .ne (IntOp.cmpi .slt (IntOp.remsi .host x (Scalar.select (IntOp.cmpi .eq 16384#32 0#32) 1#32 (16384#32 : BitVec 32))) 0#32)
          (IntOp.cmpi .slt (Scalar.select (IntOp.cmpi .eq 16384#32 0#32) 1#32 (16384#32 : BitVec 32)) 0#32))
        (IntOp.cmpi .ne (IntOp.remsi .host x (Scalar.select (IntOp.cmpi .eq 16384#32 0#32) 1#32 (16384#32 : BitVec 32))) 0#32))
      (IntOp.addi (IntOp.remsi .host x (Scalar.select (IntOp.cmpi .eq 16384#32 0#32) 1#32 (16384#32 : BitVec 32)))
        (Scalar.select (IntOp.cmpi .eq 16384#32 0#32) 1#32 (16384#32 : BitVec 32)))
      (IntOp.remsi .host x (Scalar.select (IntOp.cmpi .eq 16384#32 0#32) 1#32 (16384#32 : BitVec 32)))).toNat < 16384 := by
  rw [divisor_eq]
  exact floorMod_lt x

set_option maxHeartbeats 4000000 in
/-- The remainder chain's result, from any contents whose divisor word is 16384: every word of main_v15 is below
16384. The dividend (main_v14) is arbitrary. -/
theorem remainder_lt (W : Valuation τ sig (Elt F))
    (hd : (W (Proc.devRef .tc main_c_6) : S_.Idx → BitVec 32) = constantI S_ 32 16384#32) (k : S8192.Idx) :
    ((StableHlo.after hostOps0_9 W (Proc.devRef .tc main_v15) : S8192.Idx → BitVec 32) k).toNat < 16384 := by
  open StableHlo in after_results_simp
  rw [hd]
  exact floorMod_lt' ((W (Proc.devRef .tc main_v14) : S8192.Idx → BitVec 32) k)

/-- The divisor word after the stretch that writes it is the constant 16384. -/
theorem divisor_V9 (m : (ℓ : Loc nD τ sig) → Buf (Elt F) ℓ) (c : Dev nD) :
    (Gen.V9 m c (Proc.devRef .tc main_c_6) : S_.Idx → BitVec 32) = constantI S_ 32 16384#32 := by
  show StableHlo.after hostOps0_8 _ (Proc.devRef .tc main_c_6) = _
  open StableHlo in after_results

theorem tableRange (m : (ℓ : Loc nD τ sig) → Buf (Elt F) ℓ) (c : Dev nD) (k : S8192.Idx) :
    ((Gen.V12 m c main_v15 : S8192.Idx → BitVec 32) k).toNat < 16384 := by
  have e : Gen.V12 m c main_v15 = Gen.V10 m c main_v15 :=
    (Gen.V12_of m c main_v15 (by decide)).trans (Gen.V11_of m c main_v15 (by decide))
  rw [e]
  exact remainder_lt (Gen.V9 m c) (divisor_V9 m c) k

end Cert.Kernel.Hand

end
-- ==== Proof.KI.Rows.lean ====
/-
  The 128×4096 scratch buffer cut into its 128 rows: the rows are pairwise disjoint rectangles that cover the buffer, so
  holding the buffer whole is holding each row, in both directions — what lets 128 copies, one per row, be in flight at
  once, each having taken its own row.
-/
import proofs.«172148_j16612933501330_2_alg».proof.KernelIdeal
import Idealize.ShloMosaic.Rules.PointsTo
import Idealize.ShloMosaic.Lib.Exec.Geometry

noncomputable section

namespace Cert.KernelIdeal.Hand

open Cert.KernelIdeal
open Idealize.ShloMosaic
open Idealize.SL
open Idealize.SL.RA Idealize.SL.Sem Idealize.SL.ProofMode
open Idealize.SL.BI (sProp bigSep)
open scoped Idealize.SL.BI
open Idealize.SL.BI.BIBase Idealize.SL.BI.Laws

/-- Row `r` of the scratch buffer, as a unit-stride rectangle of one row and all 4096 columns. -/
def rowRect (r : Fin 128) : Rect S128x4096 :=
  Rect.unit (s := S128x4096) ![r.val, 0] S1x4096.size (fun a => by
    match a with
    | ⟨0, _⟩ => show r.val + 1 ≤ 128; omega
    | ⟨1, _⟩ => show 0 + 4096 ≤ 4096; omega)

/-- An index lies in row `r` exactly when its first coordinate is `r`. -/
theorem mem_rowRect (r : Fin 128) (i : S128x4096.Idx) : i ∈ (rowRect r).set ↔ (i 0).val = r.val := by
  unfold rowRect
  rw [Rect.mem_set_unit]
  constructor
  · intro h
    have h0 := h 0
    have e0 : (![r.val, 0] : Fin 2 → Nat) 0 = r.val := rfl
    have s0 : S1x4096.size (0 : Fin 2) = 1 := rfl
    rw [e0, s0] at h0
    omega
  · intro h a
    match a with
    | ⟨0, _⟩ =>
      show r.val ≤ (i 0).val ∧ (i 0).val < r.val + 1
      omega
    | ⟨1, _⟩ =>
      have hi : (i 1).val < 4096 := (i 1).isLt
      show 0 ≤ (i 1).val ∧ (i 1).val < 0 + 4096
      omega

theorem rows_disjoint (r r' : Fin 128) (h : r ≠ r') : Disjoint (rowRect r).set (rowRect r').set := by
  rw [Finset.disjoint_left]
  intro i hi hi'
  rw [mem_rowRect] at hi hi'
  exact h (Fin.ext (hi.symm.trans hi'))

theorem rows_cover : (Finset.univ : Finset (Fin 128)).biUnion (fun r => (rowRect r).set) = Finset.univ := by
  ext i
  simp only [Finset.mem_biUnion, Finset.mem_univ, true_and, iff_true]
  have hi : (i 0).val < 128 := (i 0).isLt
  exact ⟨⟨(i 0).val, hi⟩, (mem_rowRect _ i).mpr rfl⟩

end Cert.KernelIdeal.Hand

end
-- ==== Proof.KI.Checks.lean ====
/-
  The side conditions the gather kernel's body assumes of the 128 words it loads from the prefetched index table.
  Each condition says that the row named by the word, a block of shape [1, 4096] at offset [v, 0], lies inside the
  [16384, 4096] weight array, which holds exactly when v < 16384 as an unsigned number. The table is held whole at the
  contents that read x0, so the word loaded through a one-element rectangle is some entry of x0; when every entry of
  x0 is below 16384, every condition holds. The 128 theorems below are one case each of the same two-line argument
  (word_lt, then rowFits on each conjunct): a table of cases.
-/
import proofs.«172148_j16612933501330_2_alg».proof.Proof.Gen.KernelIdeal.Skeleton
import Idealize.ShloMosaic.Lib.WholeRead

set_option maxRecDepth 16384

noncomputable section

namespace Cert.KernelIdeal.Hand

open Cert.KernelIdeal Cert.KernelIdeal.Gen
open Idealize.ShloMosaic Idealize.SL.Sem

variable {F : FTy → Type} [FloatOps F]

/-- A row offset below 16384 leaves room for a [1, 4096] block inside the [16384, 4096] array, on both axes. -/
theorem rowFits (v : BitVec 32) (h : v.toNat < 16384) (a : Fin 2) :
    (![v.toNat, 0] : Fin 2 → Nat) a + S1x4096.size a ≤ S16384x4096.size a := by
  match a with
  | ⟨0, _⟩ => show v.toNat + 1 ≤ 16384; omega
  | ⟨1, _⟩ => show 0 + 4096 ≤ 4096; omega

/-- The word loaded through a one-element rectangle of the whole table, held at the contents that read x0, is an entry
of x0, so a bound on every entry of x0 bounds it (whatever the rectangle's offset). -/
theorem word_lt (arg1 : Memref sig .tc .smem S8192 .i32) (harg1 : arg1.IsWhole) (x0 : Vec F S8192 .i32)
    (hx : ∀ k : S8192.Idx, (x0 k).toNat < 16384) (off : Fin 1 → Nat)
    (inb : ∀ a, off a + S1.size a ≤ S8192.size a) (h1 : 0 < S1.numel) :
    (arg1.view.readAt (Elt F) (Rect.unit (s := S8192) off S1.size inb).toLoadRect (harg1.unread x0)
      (Shape.Idx.first h1)).toNat < 16384 := by
  obtain ⟨y, hy⟩ := harg1.exists_readAt_unread x0 (Rect.unit (s := S8192) off S1.size inb).toLoadRect (Shape.Idx.first h1)
  rw [hy]
  exact hx y

theorem chk1_of_table (i : grid0.Coords) (arg1 : Memref sig .tc .smem S8192 .i32) (harg1 : arg1.IsWhole)
    (x0 : Vec F S8192 .i32) (hx : ∀ k : S8192.Idx, (x0 k).toNat < 16384) :
    k0_chk1 (arg1.view.readAt (Elt F) (Rect.unit (s := S8192) (k0_off1 i) S1.size (k0_off1_inb i)).toLoadRect (harg1.unread x0) (Shape.Idx.first (numel1_S1.symm ▸ Nat.one_pos))) := by
  have h := word_lt arg1 harg1 x0 hx (k0_off1 i) (k0_off1_inb i) (numel1_S1.symm ▸ Nat.one_pos)
  unfold k0_chk1
  exact ⟨fun a => rowFits _ h a, fun a => rowFits _ h a⟩

theorem chk2_of_table (i : grid0.Coords) (arg1 : Memref sig .tc .smem S8192 .i32) (harg1 : arg1.IsWhole)
    (x0 : Vec F S8192 .i32) (hx : ∀ k : S8192.Idx, (x0 k).toNat < 16384) :
    k0_chk2 (arg1.view.readAt (Elt F) (Rect.unit (s := S8192) (k0_off3 i) S1.size (k0_off3_inb i)).toLoadRect (harg1.unread x0) (Shape.Idx.first (numel1_S1.symm ▸ Nat.one_pos))) := by
  have h := word_lt arg1 harg1 x0 hx (k0_off3 i) (k0_off3_inb i) (numel1_S1.symm ▸ Nat.one_pos)
  unfold k0_chk2
  exact ⟨fun a => rowFits _ h a, fun a => rowFits _ h a⟩

theorem chk3_of_table (i : grid0.Coords) (arg1 : Memref sig .tc .smem S8192 .i32) (harg1 : arg1.IsWhole)
    (x0 : Vec F S8192 .i32) (hx : ∀ k : S8192.Idx, (x0 k).toNat < 16384) :
    k0_chk3 (arg1.view.readAt (Elt F) (Rect.unit (s := S8192) (k0_off5 i) S1.size (k0_off5_inb i)).toLoadRect (harg1.unread x0) (Shape.Idx.first (numel1_S1.symm ▸ Nat.one_pos))) := by
  have h := word_lt arg1 harg1 x0 hx (k0_off5 i) (k0_off5_inb i) (numel1_S1.symm ▸ Nat.one_pos)
  unfold k0_chk3
  exact ⟨fun a => rowFits _ h a, fun a => rowFits _ h a⟩

theorem chk4_of_table (i : grid0.Coords) (arg1 : Memref sig .tc .smem S8192 .i32) (harg1 : arg1.IsWhole)
    (x0 : Vec F S8192 .i32) (hx : ∀ k : S8192.Idx, (x0 k).toNat < 16384) :
    k0_chk4 (arg1.view.readAt (Elt F) (Rect.unit (s := S8192) (k0_off7 i) S1.size (k0_off7_inb i)).toLoadRect (harg1.unread x0) (Shape.Idx.first (numel1_S1.symm ▸ Nat.one_pos))) := by
  have h := word_lt arg1 harg1 x0 hx (k0_off7 i) (k0_off7_inb i) (numel1_S1.symm ▸ Nat.one_pos)
  unfold k0_chk4
  exact ⟨fun a => rowFits _ h a, fun a => rowFits _ h a⟩

theorem chk5_of_table (i : grid0.Coords) (arg1 : Memref sig .tc .smem S8192 .i32) (harg1 : arg1.IsWhole)
    (x0 : Vec F S8192 .i32) (hx : ∀ k : S8192.Idx, (x0 k).toNat < 16384) :
    k0_chk5 (arg1.view.readAt (Elt F) (Rect.unit (s := S8192) (k0_off9 i) S1.size (k0_off9_inb i)).toLoadRect (harg1.unread x0) (Shape.Idx.first (numel1_S1.symm ▸ Nat.one_pos))) := by
  have h := word_lt arg1 harg1 x0 hx (k0_off9 i) (k0_off9_inb i) (numel1_S1.symm ▸ Nat.one_pos)
  unfold k0_chk5
  exact ⟨fun a => rowFits _ h a, fun a => rowFits _ h a⟩

theorem chk6_of_table (i : grid0.Coords) (arg1 : Memref sig .tc .smem S8192 .i32) (harg1 : arg1.IsWhole)
    (x0 : Vec F S8192 .i32) (hx : ∀ k : S8192.Idx, (x0 k).toNat < 16384) :
    k0_chk6 (arg1.view.readAt (Elt F) (Rect.unit (s := S8192) (k0_off11 i) S1.size (k0_off11_inb i)).toLoadRect (harg1.unread x0) (Shape.Idx.first (numel1_S1.symm ▸ Nat.one_pos))) := by
  have h := word_lt arg1 harg1 x0 hx (k0_off11 i) (k0_off11_inb i) (numel1_S1.symm ▸ Nat.one_pos)
  unfold k0_chk6
  exact ⟨fun a => rowFits _ h a, fun a => rowFits _ h a⟩

theorem chk7_of_table (i : grid0.Coords) (arg1 : Memref sig .tc .smem S8192 .i32) (harg1 : arg1.IsWhole)
    (x0 : Vec F S8192 .i32) (hx : ∀ k : S8192.Idx, (x0 k).toNat < 16384) :
    k0_chk7 (arg1.view.readAt (Elt F) (Rect.unit (s := S8192) (k0_off13 i) S1.size (k0_off13_inb i)).toLoadRect (harg1.unread x0) (Shape.Idx.first (numel1_S1.symm ▸ Nat.one_pos))) := by
  have h := word_lt arg1 harg1 x0 hx (k0_off13 i) (k0_off13_inb i) (numel1_S1.symm ▸ Nat.one_pos)
  unfold k0_chk7
  exact ⟨fun a => rowFits _ h a, fun a => rowFits _ h a⟩

theorem chk8_of_table (i : grid0.Coords) (arg1 : Memref sig .tc .smem S8192 .i32) (harg1 : arg1.IsWhole)
    (x0 : Vec F S8192 .i32) (hx : ∀ k : S8192.Idx, (x0 k).toNat < 16384) :
    k0_chk8 (arg1.view.readAt (Elt F) (Rect.unit (s := S8192) (k0_off15 i) S1.size (k0_off15_inb i)).toLoadRect (harg1.unread x0) (Shape.Idx.first (numel1_S1.symm ▸ Nat.one_pos))) := by
  have h := word_lt arg1 harg1 x0 hx (k0_off15 i) (k0_off15_inb i) (numel1_S1.symm ▸ Nat.one_pos)
  unfold k0_chk8
  exact ⟨fun a => rowFits _ h a, fun a => rowFits _ h a⟩

theorem chk9_of_table (i : grid0.Coords) (arg1 : Memref sig .tc .smem S8192 .i32) (harg1 : arg1.IsWhole)
    (x0 : Vec F S8192 .i32) (hx : ∀ k : S8192.Idx, (x0 k).toNat < 16384) :
    k0_chk9 (arg1.view.readAt (Elt F) (Rect.unit (s := S8192) (k0_off17 i) S1.size (k0_off17_inb i)).toLoadRect (harg1.unread x0) (Shape.Idx.first (numel1_S1.symm ▸ Nat.one_pos))) := by
  have h := word_lt arg1 harg1 x0 hx (k0_off17 i) (k0_off17_inb i) (numel1_S1.symm ▸ Nat.one_pos)
  unfold k0_chk9
  exact ⟨fun a => rowFits _ h a, fun a => rowFits _ h a⟩

theorem chk10_of_table (i : grid0.Coords) (arg1 : Memref sig .tc .smem S8192 .i32) (harg1 : arg1.IsWhole)
    (x0 : Vec F S8192 .i32) (hx : ∀ k : S8192.Idx, (x0 k).toNat < 16384) :
    k0_chk10 (arg1.view.readAt (Elt F) (Rect.unit (s := S8192) (k0_off19 i) S1.size (k0_off19_inb i)).toLoadRect (harg1.unread x0) (Shape.Idx.first (numel1_S1.symm ▸ Nat.one_pos))) := by
  have h := word_lt arg1 harg1 x0 hx (k0_off19 i) (k0_off19_inb i) (numel1_S1.symm ▸ Nat.one_pos)
  unfold k0_chk10
  exact ⟨fun a => rowFits _ h a, fun a => rowFits _ h a⟩

theorem chk11_of_table (i : grid0.Coords) (arg1 : Memref sig .tc .smem S8192 .i32) (harg1 : arg1.IsWhole)
    (x0 : Vec F S8192 .i32) (hx : ∀ k : S8192.Idx, (x0 k).toNat < 16384) :
    k0_chk11 (arg1.view.readAt (Elt F) (Rect.unit (s := S8192) (k0_off21 i) S1.size (k0_off21_inb i)).toLoadRect (harg1.unread x0) (Shape.Idx.first (numel1_S1.symm ▸ Nat.one_pos))) := by
  have h := word_lt arg1 harg1 x0 hx (k0_off21 i) (k0_off21_inb i) (numel1_S1.symm ▸ Nat.one_pos)
  unfold k0_chk11
  exact ⟨fun a => rowFits _ h a, fun a => rowFits _ h a⟩

theorem chk12_of_table (i : grid0.Coords) (arg1 : Memref sig .tc .smem S8192 .i32) (harg1 : arg1.IsWhole)
    (x0 : Vec F S8192 .i32) (hx : ∀ k : S8192.Idx, (x0 k).toNat < 16384) :
    k0_chk12 (arg1.view.readAt (Elt F) (Rect.unit (s := S8192) (k0_off23 i) S1.size (k0_off23_inb i)).toLoadRect (harg1.unread x0) (Shape.Idx.first (numel1_S1.symm ▸ Nat.one_pos))) := by
  have h := word_lt arg1 harg1 x0 hx (k0_off23 i) (k0_off23_inb i) (numel1_S1.symm ▸ Nat.one_pos)
  unfold k0_chk12
  exact ⟨fun a => rowFits _ h a, fun a => rowFits _ h a⟩

theorem chk13_of_table (i : grid0.Coords) (arg1 : Memref sig .tc .smem S8192 .i32) (harg1 : arg1.IsWhole)
    (x0 : Vec F S8192 .i32) (hx : ∀ k : S8192.Idx, (x0 k).toNat < 16384) :
    k0_chk13 (arg1.view.readAt (Elt F) (Rect.unit (s := S8192) (k0_off25 i) S1.size (k0_off25_inb i)).toLoadRect (harg1.unread x0) (Shape.Idx.first (numel1_S1.symm ▸ Nat.one_pos))) := by
  have h := word_lt arg1 harg1 x0 hx (k0_off25 i) (k0_off25_inb i) (numel1_S1.symm ▸ Nat.one_pos)
  unfold k0_chk13
  exact ⟨fun a => rowFits _ h a, fun a => rowFits _ h a⟩

theorem chk14_of_table (i : grid0.Coords) (arg1 : Memref sig .tc .smem S8192 .i32) (harg1 : arg1.IsWhole)
    (x0 : Vec F S8192 .i32) (hx : ∀ k : S8192.Idx, (x0 k).toNat < 16384) :
    k0_chk14 (arg1.view.readAt (Elt F) (Rect.unit (s := S8192) (k0_off27 i) S1.size (k0_off27_inb i)).toLoadRect (harg1.unread x0) (Shape.Idx.first (numel1_S1.symm ▸ Nat.one_pos))) := by
  have h := word_lt arg1 harg1 x0 hx (k0_off27 i) (k0_off27_inb i) (numel1_S1.symm ▸ Nat.one_pos)
  unfold k0_chk14
  exact ⟨fun a => rowFits _ h a, fun a => rowFits _ h a⟩

theorem chk15_of_table (i : grid0.Coords) (arg1 : Memref sig .tc .smem S8192 .i32) (harg1 : arg1.IsWhole)
    (x0 : Vec F S8192 .i32) (hx : ∀ k : S8192.Idx, (x0 k).toNat < 16384) :
    k0_chk15 (arg1.view.readAt (Elt F) (Rect.unit (s := S8192) (k0_off29 i) S1.size (k0_off29_inb i)).toLoadRect (harg1.unread x0) (Shape.Idx.first (numel1_S1.symm ▸ Nat.one_pos))) := by
  have h := word_lt arg1 harg1 x0 hx (k0_off29 i) (k0_off29_inb i) (numel1_S1.symm ▸ Nat.one_pos)
  unfold k0_chk15
  exact ⟨fun a => rowFits _ h a, fun a => rowFits _ h a⟩

theorem chk16_of_table (i : grid0.Coords) (arg1 : Memref sig .tc .smem S8192 .i32) (harg1 : arg1.IsWhole)
    (x0 : Vec F S8192 .i32) (hx : ∀ k : S8192.Idx, (x0 k).toNat < 16384) :
    k0_chk16 (arg1.view.readAt (Elt F) (Rect.unit (s := S8192) (k0_off31 i) S1.size (k0_off31_inb i)).toLoadRect (harg1.unread x0) (Shape.Idx.first (numel1_S1.symm ▸ Nat.one_pos))) := by
  have h := word_lt arg1 harg1 x0 hx (k0_off31 i) (k0_off31_inb i) (numel1_S1.symm ▸ Nat.one_pos)
  unfold k0_chk16
  exact ⟨fun a => rowFits _ h a, fun a => rowFits _ h a⟩

theorem chk17_of_table (i : grid0.Coords) (arg1 : Memref sig .tc .smem S8192 .i32) (harg1 : arg1.IsWhole)
    (x0 : Vec F S8192 .i32) (hx : ∀ k : S8192.Idx, (x0 k).toNat < 16384) :
    k0_chk17 (arg1.view.readAt (Elt F) (Rect.unit (s := S8192) (k0_off33 i) S1.size (k0_off33_inb i)).toLoadRect (harg1.unread x0) (Shape.Idx.first (numel1_S1.symm ▸ Nat.one_pos))) := by
  have h := word_lt arg1 harg1 x0 hx (k0_off33 i) (k0_off33_inb i) (numel1_S1.symm ▸ Nat.one_pos)
  unfold k0_chk17
  exact ⟨fun a => rowFits _ h a, fun a => rowFits _ h a⟩

theorem chk18_of_table (i : grid0.Coords) (arg1 : Memref sig .tc .smem S8192 .i32) (harg1 : arg1.IsWhole)
    (x0 : Vec F S8192 .i32) (hx : ∀ k : S8192.Idx, (x0 k).toNat < 16384) :
    k0_chk18 (arg1.view.readAt (Elt F) (Rect.unit (s := S8192) (k0_off35 i) S1.size (k0_off35_inb i)).toLoadRect (harg1.unread x0) (Shape.Idx.first (numel1_S1.symm ▸ Nat.one_pos))) := by
  have h := word_lt arg1 harg1 x0 hx (k0_off35 i) (k0_off35_inb i) (numel1_S1.symm ▸ Nat.one_pos)
  unfold k0_chk18
  exact ⟨fun a => rowFits _ h a, fun a => rowFits _ h a⟩

theorem chk19_of_table (i : grid0.Coords) (arg1 : Memref sig .tc .smem S8192 .i32) (harg1 : arg1.IsWhole)
    (x0 : Vec F S8192 .i32) (hx : ∀ k : S8192.Idx, (x0 k).toNat < 16384) :
    k0_chk19 (arg1.view.readAt (Elt F) (Rect.unit (s := S8192) (k0_off37 i) S1.size (k0_off37_inb i)).toLoadRect (harg1.unread x0) (Shape.Idx.first (numel1_S1.symm ▸ Nat.one_pos))) := by
  have h := word_lt arg1 harg1 x0 hx (k0_off37 i) (k0_off37_inb i) (numel1_S1.symm ▸ Nat.one_pos)
  unfold k0_chk19
  exact ⟨fun a => rowFits _ h a, fun a => rowFits _ h a⟩

theorem chk20_of_table (i : grid0.Coords) (arg1 : Memref sig .tc .smem S8192 .i32) (harg1 : arg1.IsWhole)
    (x0 : Vec F S8192 .i32) (hx : ∀ k : S8192.Idx, (x0 k).toNat < 16384) :
    k0_chk20 (arg1.view.readAt (Elt F) (Rect.unit (s := S8192) (k0_off39 i) S1.size (k0_off39_inb i)).toLoadRect (harg1.unread x0) (Shape.Idx.first (numel1_S1.symm ▸ Nat.one_pos))) := by
  have h := word_lt arg1 harg1 x0 hx (k0_off39 i) (k0_off39_inb i) (numel1_S1.symm ▸ Nat.one_pos)
  unfold k0_chk20
  exact ⟨fun a => rowFits _ h a, fun a => rowFits _ h a⟩

theorem chk21_of_table (i : grid0.Coords) (arg1 : Memref sig .tc .smem S8192 .i32) (harg1 : arg1.IsWhole)
    (x0 : Vec F S8192 .i32) (hx : ∀ k : S8192.Idx, (x0 k).toNat < 16384) :
    k0_chk21 (arg1.view.readAt (Elt F) (Rect.unit (s := S8192) (k0_off41 i) S1.size (k0_off41_inb i)).toLoadRect (harg1.unread x0) (Shape.Idx.first (numel1_S1.symm ▸ Nat.one_pos))) := by
  have h := word_lt arg1 harg1 x0 hx (k0_off41 i) (k0_off41_inb i) (numel1_S1.symm ▸ Nat.one_pos)
  unfold k0_chk21
  exact ⟨fun a => rowFits _ h a, fun a => rowFits _ h a⟩

theorem chk22_of_table (i : grid0.Coords) (arg1 : Memref sig .tc .smem S8192 .i32) (harg1 : arg1.IsWhole)
    (x0 : Vec F S8192 .i32) (hx : ∀ k : S8192.Idx, (x0 k).toNat < 16384) :
    k0_chk22 (arg1.view.readAt (Elt F) (Rect.unit (s := S8192) (k0_off43 i) S1.size (k0_off43_inb i)).toLoadRect (harg1.unread x0) (Shape.Idx.first (numel1_S1.symm ▸ Nat.one_pos))) := by
  have h := word_lt arg1 harg1 x0 hx (k0_off43 i) (k0_off43_inb i) (numel1_S1.symm ▸ Nat.one_pos)
  unfold k0_chk22
  exact ⟨fun a => rowFits _ h a, fun a => rowFits _ h a⟩

theorem chk23_of_table (i : grid0.Coords) (arg1 : Memref sig .tc .smem S8192 .i32) (harg1 : arg1.IsWhole)
    (x0 : Vec F S8192 .i32) (hx : ∀ k : S8192.Idx, (x0 k).toNat < 16384) :
    k0_chk23 (arg1.view.readAt (Elt F) (Rect.unit (s := S8192) (k0_off45 i) S1.size (k0_off45_inb i)).toLoadRect (harg1.unread x0) (Shape.Idx.first (numel1_S1.symm ▸ Nat.one_pos))) := by
  have h := word_lt arg1 harg1 x0 hx (k0_off45 i) (k0_off45_inb i) (numel1_S1.symm ▸ Nat.one_pos)
  unfold k0_chk23
  exact ⟨fun a => rowFits _ h a, fun a => rowFits _ h a⟩

theorem chk24_of_table (i : grid0.Coords) (arg1 : Memref sig .tc .smem S8192 .i32) (harg1 : arg1.IsWhole)
    (x0 : Vec F S8192 .i32) (hx : ∀ k : S8192.Idx, (x0 k).toNat < 16384) :
    k0_chk24 (arg1.view.readAt (Elt F) (Rect.unit (s := S8192) (k0_off47 i) S1.size (k0_off47_inb i)).toLoadRect (harg1.unread x0) (Shape.Idx.first (numel1_S1.symm ▸ Nat.one_pos))) := by
  have h := word_lt arg1 harg1 x0 hx (k0_off47 i) (k0_off47_inb i) (numel1_S1.symm ▸ Nat.one_pos)
  unfold k0_chk24
  exact ⟨fun a => rowFits _ h a, fun a => rowFits _ h a⟩

theorem chk25_of_table (i : grid0.Coords) (arg1 : Memref sig .tc .smem S8192 .i32) (harg1 : arg1.IsWhole)
    (x0 : Vec F S8192 .i32) (hx : ∀ k : S8192.Idx, (x0 k).toNat < 16384) :
    k0_chk25 (arg1.view.readAt (Elt F) (Rect.unit (s := S8192) (k0_off49 i) S1.size (k0_off49_inb i)).toLoadRect (harg1.unread x0) (Shape.Idx.first (numel1_S1.symm ▸ Nat.one_pos))) := by
  have h := word_lt arg1 harg1 x0 hx (k0_off49 i) (k0_off49_inb i) (numel1_S1.symm ▸ Nat.one_pos)
  unfold k0_chk25
  exact ⟨fun a => rowFits _ h a, fun a => rowFits _ h a⟩

theorem chk26_of_table (i : grid0.Coords) (arg1 : Memref sig .tc .smem S8192 .i32) (harg1 : arg1.IsWhole)
    (x0 : Vec F S8192 .i32) (hx : ∀ k : S8192.Idx, (x0 k).toNat < 16384) :
    k0_chk26 (arg1.view.readAt (Elt F) (Rect.unit (s := S8192) (k0_off51 i) S1.size (k0_off51_inb i)).toLoadRect (harg1.unread x0) (Shape.Idx.first (numel1_S1.symm ▸ Nat.one_pos))) := by
  have h := word_lt arg1 harg1 x0 hx (k0_off51 i) (k0_off51_inb i) (numel1_S1.symm ▸ Nat.one_pos)
  unfold k0_chk26
  exact ⟨fun a => rowFits _ h a, fun a => rowFits _ h a⟩

theorem chk27_of_table (i : grid0.Coords) (arg1 : Memref sig .tc .smem S8192 .i32) (harg1 : arg1.IsWhole)
    (x0 : Vec F S8192 .i32) (hx : ∀ k : S8192.Idx, (x0 k).toNat < 16384) :
    k0_chk27 (arg1.view.readAt (Elt F) (Rect.unit (s := S8192) (k0_off53 i) S1.size (k0_off53_inb i)).toLoadRect (harg1.unread x0) (Shape.Idx.first (numel1_S1.symm ▸ Nat.one_pos))) := by
  have h := word_lt arg1 harg1 x0 hx (k0_off53 i) (k0_off53_inb i) (numel1_S1.symm ▸ Nat.one_pos)
  unfold k0_chk27
  exact ⟨fun a => rowFits _ h a, fun a => rowFits _ h a⟩

theorem chk28_of_table (i : grid0.Coords) (arg1 : Memref sig .tc .smem S8192 .i32) (harg1 : arg1.IsWhole)
    (x0 : Vec F S8192 .i32) (hx : ∀ k : S8192.Idx, (x0 k).toNat < 16384) :
    k0_chk28 (arg1.view.readAt (Elt F) (Rect.unit (s := S8192) (k0_off55 i) S1.size (k0_off55_inb i)).toLoadRect (harg1.unread x0) (Shape.Idx.first (numel1_S1.symm ▸ Nat.one_pos))) := by
  have h := word_lt arg1 harg1 x0 hx (k0_off55 i) (k0_off55_inb i) (numel1_S1.symm ▸ Nat.one_pos)
  unfold k0_chk28
  exact ⟨fun a => rowFits _ h a, fun a => rowFits _ h a⟩

theorem chk29_of_table (i : grid0.Coords) (arg1 : Memref sig .tc .smem S8192 .i32) (harg1 : arg1.IsWhole)
    (x0 : Vec F S8192 .i32) (hx : ∀ k : S8192.Idx, (x0 k).toNat < 16384) :
    k0_chk29 (arg1.view.readAt (Elt F) (Rect.unit (s := S8192) (k0_off57 i) S1.size (k0_off57_inb i)).toLoadRect (harg1.unread x0) (Shape.Idx.first (numel1_S1.symm ▸ Nat.one_pos))) := by
  have h := word_lt arg1 harg1 x0 hx (k0_off57 i) (k0_off57_inb i) (numel1_S1.symm ▸ Nat.one_pos)
  unfold k0_chk29
  exact ⟨fun a => rowFits _ h a, fun a => rowFits _ h a⟩

theorem chk30_of_table (i : grid0.Coords) (arg1 : Memref sig .tc .smem S8192 .i32) (harg1 : arg1.IsWhole)
    (x0 : Vec F S8192 .i32) (hx : ∀ k : S8192.Idx, (x0 k).toNat < 16384) :
    k0_chk30 (arg1.view.readAt (Elt F) (Rect.unit (s := S8192) (k0_off59 i) S1.size (k0_off59_inb i)).toLoadRect (harg1.unread x0) (Shape.Idx.first (numel1_S1.symm ▸ Nat.one_pos))) := by
  have h := word_lt arg1 harg1 x0 hx (k0_off59 i) (k0_off59_inb i) (numel1_S1.symm ▸ Nat.one_pos)
  unfold k0_chk30
  exact ⟨fun a => rowFits _ h a, fun a => rowFits _ h a⟩

theorem chk31_of_table (i : grid0.Coords) (arg1 : Memref sig .tc .smem S8192 .i32) (harg1 : arg1.IsWhole)
    (x0 : Vec F S8192 .i32) (hx : ∀ k : S8192.Idx, (x0 k).toNat < 16384) :
    k0_chk31 (arg1.view.readAt (Elt F) (Rect.unit (s := S8192) (k0_off61 i) S1.size (k0_off61_inb i)).toLoadRect (harg1.unread x0) (Shape.Idx.first (numel1_S1.symm ▸ Nat.one_pos))) := by
  have h := word_lt arg1 harg1 x0 hx (k0_off61 i) (k0_off61_inb i) (numel1_S1.symm ▸ Nat.one_pos)
  unfold k0_chk31
  exact ⟨fun a => rowFits _ h a, fun a => rowFits _ h a⟩

theorem chk32_of_table (i : grid0.Coords) (arg1 : Memref sig .tc .smem S8192 .i32) (harg1 : arg1.IsWhole)
    (x0 : Vec F S8192 .i32) (hx : ∀ k : S8192.Idx, (x0 k).toNat < 16384) :
    k0_chk32 (arg1.view.readAt (Elt F) (Rect.unit (s := S8192) (k0_off63 i) S1.size (k0_off63_inb i)).toLoadRect (harg1.unread x0) (Shape.Idx.first (numel1_S1.symm ▸ Nat.one_pos))) := by
  have h := word_lt arg1 harg1 x0 hx (k0_off63 i) (k0_off63_inb i) (numel1_S1.symm ▸ Nat.one_pos)
  unfold k0_chk32
  exact ⟨fun a => rowFits _ h a, fun a => rowFits _ h a⟩

theorem chk33_of_table (i : grid0.Coords) (arg1 : Memref sig .tc .smem S8192 .i32) (harg1 : arg1.IsWhole)
    (x0 : Vec F S8192 .i32) (hx : ∀ k : S8192.Idx, (x0 k).toNat < 16384) :
    k0_chk33 (arg1.view.readAt (Elt F) (Rect.unit (s := S8192) (k0_off65 i) S1.size (k0_off65_inb i)).toLoadRect (harg1.unread x0) (Shape.Idx.first (numel1_S1.symm ▸ Nat.one_pos))) := by
  have h := word_lt arg1 harg1 x0 hx (k0_off65 i) (k0_off65_inb i) (numel1_S1.symm ▸ Nat.one_pos)
  unfold k0_chk33
  exact ⟨fun a => rowFits _ h a, fun a => rowFits _ h a⟩

theorem chk34_of_table (i : grid0.Coords) (arg1 : Memref sig .tc .smem S8192 .i32) (harg1 : arg1.IsWhole)
    (x0 : Vec F S8192 .i32) (hx : ∀ k : S8192.Idx, (x0 k).toNat < 16384) :
    k0_chk34 (arg1.view.readAt (Elt F) (Rect.unit (s := S8192) (k0_off67 i) S1.size (k0_off67_inb i)).toLoadRect (harg1.unread x0) (Shape.Idx.first (numel1_S1.symm ▸ Nat.one_pos))) := by
  have h := word_lt arg1 harg1 x0 hx (k0_off67 i) (k0_off67_inb i) (numel1_S1.symm ▸ Nat.one_pos)
  unfold k0_chk34
  exact ⟨fun a => rowFits _ h a, fun a => rowFits _ h a⟩

theorem chk35_of_table (i : grid0.Coords) (arg1 : Memref sig .tc .smem S8192 .i32) (harg1 : arg1.IsWhole)
    (x0 : Vec F S8192 .i32) (hx : ∀ k : S8192.Idx, (x0 k).toNat < 16384) :
    k0_chk35 (arg1.view.readAt (Elt F) (Rect.unit (s := S8192) (k0_off69 i) S1.size (k0_off69_inb i)).toLoadRect (harg1.unread x0) (Shape.Idx.first (numel1_S1.symm ▸ Nat.one_pos))) := by
  have h := word_lt arg1 harg1 x0 hx (k0_off69 i) (k0_off69_inb i) (numel1_S1.symm ▸ Nat.one_pos)
  unfold k0_chk35
  exact ⟨fun a => rowFits _ h a, fun a => rowFits _ h a⟩

theorem chk36_of_table (i : grid0.Coords) (arg1 : Memref sig .tc .smem S8192 .i32) (harg1 : arg1.IsWhole)
    (x0 : Vec F S8192 .i32) (hx : ∀ k : S8192.Idx, (x0 k).toNat < 16384) :
    k0_chk36 (arg1.view.readAt (Elt F) (Rect.unit (s := S8192) (k0_off71 i) S1.size (k0_off71_inb i)).toLoadRect (harg1.unread x0) (Shape.Idx.first (numel1_S1.symm ▸ Nat.one_pos))) := by
  have h := word_lt arg1 harg1 x0 hx (k0_off71 i) (k0_off71_inb i) (numel1_S1.symm ▸ Nat.one_pos)
  unfold k0_chk36
  exact ⟨fun a => rowFits _ h a, fun a => rowFits _ h a⟩

theorem chk37_of_table (i : grid0.Coords) (arg1 : Memref sig .tc .smem S8192 .i32) (harg1 : arg1.IsWhole)
    (x0 : Vec F S8192 .i32) (hx : ∀ k : S8192.Idx, (x0 k).toNat < 16384) :
    k0_chk37 (arg1.view.readAt (Elt F) (Rect.unit (s := S8192) (k0_off73 i) S1.size (k0_off73_inb i)).toLoadRect (harg1.unread x0) (Shape.Idx.first (numel1_S1.symm ▸ Nat.one_pos))) := by
  have h := word_lt arg1 harg1 x0 hx (k0_off73 i) (k0_off73_inb i) (numel1_S1.symm ▸ Nat.one_pos)
  unfold k0_chk37
  exact ⟨fun a => rowFits _ h a, fun a => rowFits _ h a⟩

theorem chk38_of_table (i : grid0.Coords) (arg1 : Memref sig .tc .smem S8192 .i32) (harg1 : arg1.IsWhole)
    (x0 : Vec F S8192 .i32) (hx : ∀ k : S8192.Idx, (x0 k).toNat < 16384) :
    k0_chk38 (arg1.view.readAt (Elt F) (Rect.unit (s := S8192) (k0_off75 i) S1.size (k0_off75_inb i)).toLoadRect (harg1.unread x0) (Shape.Idx.first (numel1_S1.symm ▸ Nat.one_pos))) := by
  have h := word_lt arg1 harg1 x0 hx (k0_off75 i) (k0_off75_inb i) (numel1_S1.symm ▸ Nat.one_pos)
  unfold k0_chk38
  exact ⟨fun a => rowFits _ h a, fun a => rowFits _ h a⟩

theorem chk39_of_table (i : grid0.Coords) (arg1 : Memref sig .tc .smem S8192 .i32) (harg1 : arg1.IsWhole)
    (x0 : Vec F S8192 .i32) (hx : ∀ k : S8192.Idx, (x0 k).toNat < 16384) :
    k0_chk39 (arg1.view.readAt (Elt F) (Rect.unit (s := S8192) (k0_off77 i) S1.size (k0_off77_inb i)).toLoadRect (harg1.unread x0) (Shape.Idx.first (numel1_S1.symm ▸ Nat.one_pos))) := by
  have h := word_lt arg1 harg1 x0 hx (k0_off77 i) (k0_off77_inb i) (numel1_S1.symm ▸ Nat.one_pos)
  unfold k0_chk39
  exact ⟨fun a => rowFits _ h a, fun a => rowFits _ h a⟩

theorem chk40_of_table (i : grid0.Coords) (arg1 : Memref sig .tc .smem S8192 .i32) (harg1 : arg1.IsWhole)
    (x0 : Vec F S8192 .i32) (hx : ∀ k : S8192.Idx, (x0 k).toNat < 16384) :
    k0_chk40 (arg1.view.readAt (Elt F) (Rect.unit (s := S8192) (k0_off79 i) S1.size (k0_off79_inb i)).toLoadRect (harg1.unread x0) (Shape.Idx.first (numel1_S1.symm ▸ Nat.one_pos))) := by
  have h := word_lt arg1 harg1 x0 hx (k0_off79 i) (k0_off79_inb i) (numel1_S1.symm ▸ Nat.one_pos)
  unfold k0_chk40
  exact ⟨fun a => rowFits _ h a, fun a => rowFits _ h a⟩

theorem chk41_of_table (i : grid0.Coords) (arg1 : Memref sig .tc .smem S8192 .i32) (harg1 : arg1.IsWhole)
    (x0 : Vec F S8192 .i32) (hx : ∀ k : S8192.Idx, (x0 k).toNat < 16384) :
    k0_chk41 (arg1.view.readAt (Elt F) (Rect.unit (s := S8192) (k0_off81 i) S1.size (k0_off81_inb i)).toLoadRect (harg1.unread x0) (Shape.Idx.first (numel1_S1.symm ▸ Nat.one_pos))) := by
  have h := word_lt arg1 harg1 x0 hx (k0_off81 i) (k0_off81_inb i) (numel1_S1.symm ▸ Nat.one_pos)
  unfold k0_chk41
  exact ⟨fun a => rowFits _ h a, fun a => rowFits _ h a⟩

theorem chk42_of_table (i : grid0.Coords) (arg1 : Memref sig .tc .smem S8192 .i32) (harg1 : arg1.IsWhole)
    (x0 : Vec F S8192 .i32) (hx : ∀ k : S8192.Idx, (x0 k).toNat < 16384) :
    k0_chk42 (arg1.view.readAt (Elt F) (Rect.unit (s := S8192) (k0_off83 i) S1.size (k0_off83_inb i)).toLoadRect (harg1.unread x0) (Shape.Idx.first (numel1_S1.symm ▸ Nat.one_pos))) := by
  have h := word_lt arg1 harg1 x0 hx (k0_off83 i) (k0_off83_inb i) (numel1_S1.symm ▸ Nat.one_pos)
  unfold k0_chk42
  exact ⟨fun a => rowFits _ h a, fun a => rowFits _ h a⟩

theorem chk43_of_table (i : grid0.Coords) (arg1 : Memref sig .tc .smem S8192 .i32) (harg1 : arg1.IsWhole)
    (x0 : Vec F S8192 .i32) (hx : ∀ k : S8192.Idx, (x0 k).toNat < 16384) :
    k0_chk43 (arg1.view.readAt (Elt F) (Rect.unit (s := S8192) (k0_off85 i) S1.size (k0_off85_inb i)).toLoadRect (harg1.unread x0) (Shape.Idx.first (numel1_S1.symm ▸ Nat.one_pos))) := by
  have h := word_lt arg1 harg1 x0 hx (k0_off85 i) (k0_off85_inb i) (numel1_S1.symm ▸ Nat.one_pos)
  unfold k0_chk43
  exact ⟨fun a => rowFits _ h a, fun a => rowFits _ h a⟩

theorem chk44_of_table (i : grid0.Coords) (arg1 : Memref sig .tc .smem S8192 .i32) (harg1 : arg1.IsWhole)
    (x0 : Vec F S8192 .i32) (hx : ∀ k : S8192.Idx, (x0 k).toNat < 16384) :
    k0_chk44 (arg1.view.readAt (Elt F) (Rect.unit (s := S8192) (k0_off87 i) S1.size (k0_off87_inb i)).toLoadRect (harg1.unread x0) (Shape.Idx.first (numel1_S1.symm ▸ Nat.one_pos))) := by
  have h := word_lt arg1 harg1 x0 hx (k0_off87 i) (k0_off87_inb i) (numel1_S1.symm ▸ Nat.one_pos)
  unfold k0_chk44
  exact ⟨fun a => rowFits _ h a, fun a => rowFits _ h a⟩

theorem chk45_of_table (i : grid0.Coords) (arg1 : Memref sig .tc .smem S8192 .i32) (harg1 : arg1.IsWhole)
    (x0 : Vec F S8192 .i32) (hx : ∀ k : S8192.Idx, (x0 k).toNat < 16384) :
    k0_chk45 (arg1.view.readAt (Elt F) (Rect.unit (s := S8192) (k0_off89 i) S1.size (k0_off89_inb i)).toLoadRect (harg1.unread x0) (Shape.Idx.first (numel1_S1.symm ▸ Nat.one_pos))) := by
  have h := word_lt arg1 harg1 x0 hx (k0_off89 i) (k0_off89_inb i) (numel1_S1.symm ▸ Nat.one_pos)
  unfold k0_chk45
  exact ⟨fun a => rowFits _ h a, fun a => rowFits _ h a⟩

theorem chk46_of_table (i : grid0.Coords) (arg1 : Memref sig .tc .smem S8192 .i32) (harg1 : arg1.IsWhole)
    (x0 : Vec F S8192 .i32) (hx : ∀ k : S8192.Idx, (x0 k).toNat < 16384) :
    k0_chk46 (arg1.view.readAt (Elt F) (Rect.unit (s := S8192) (k0_off91 i) S1.size (k0_off91_inb i)).toLoadRect (harg1.unread x0) (Shape.Idx.first (numel1_S1.symm ▸ Nat.one_pos))) := by
  have h := word_lt arg1 harg1 x0 hx (k0_off91 i) (k0_off91_inb i) (numel1_S1.symm ▸ Nat.one_pos)
  unfold k0_chk46
  exact ⟨fun a => rowFits _ h a, fun a => rowFits _ h a⟩

theorem chk47_of_table (i : grid0.Coords) (arg1 : Memref sig .tc .smem S8192 .i32) (harg1 : arg1.IsWhole)
    (x0 : Vec F S8192 .i32) (hx : ∀ k : S8192.Idx, (x0 k).toNat < 16384) :
    k0_chk47 (arg1.view.readAt (Elt F) (Rect.unit (s := S8192) (k0_off93 i) S1.size (k0_off93_inb i)).toLoadRect (harg1.unread x0) (Shape.Idx.first (numel1_S1.symm ▸ Nat.one_pos))) := by
  have h := word_lt arg1 harg1 x0 hx (k0_off93 i) (k0_off93_inb i) (numel1_S1.symm ▸ Nat.one_pos)
  unfold k0_chk47
  exact ⟨fun a => rowFits _ h a, fun a => rowFits _ h a⟩

theorem chk48_of_table (i : grid0.Coords) (arg1 : Memref sig .tc .smem S8192 .i32) (harg1 : arg1.IsWhole)
    (x0 : Vec F S8192 .i32) (hx : ∀ k : S8192.Idx, (x0 k).toNat < 16384) :
    k0_chk48 (arg1.view.readAt (Elt F) (Rect.unit (s := S8192) (k0_off95 i) S1.size (k0_off95_inb i)).toLoadRect (harg1.unread x0) (Shape.Idx.first (numel1_S1.symm ▸ Nat.one_pos))) := by
  have h := word_lt arg1 harg1 x0 hx (k0_off95 i) (k0_off95_inb i) (numel1_S1.symm ▸ Nat.one_pos)
  unfold k0_chk48
  exact ⟨fun a => rowFits _ h a, fun a => rowFits _ h a⟩

theorem chk49_of_table (i : grid0.Coords) (arg1 : Memref sig .tc .smem S8192 .i32) (harg1 : arg1.IsWhole)
    (x0 : Vec F S8192 .i32) (hx : ∀ k : S8192.Idx, (x0 k).toNat < 16384) :
    k0_chk49 (arg1.view.readAt (Elt F) (Rect.unit (s := S8192) (k0_off97 i) S1.size (k0_off97_inb i)).toLoadRect (harg1.unread x0) (Shape.Idx.first (numel1_S1.symm ▸ Nat.one_pos))) := by
  have h := word_lt arg1 harg1 x0 hx (k0_off97 i) (k0_off97_inb i) (numel1_S1.symm ▸ Nat.one_pos)
  unfold k0_chk49
  exact ⟨fun a => rowFits _ h a, fun a => rowFits _ h a⟩

theorem chk50_of_table (i : grid0.Coords) (arg1 : Memref sig .tc .smem S8192 .i32) (harg1 : arg1.IsWhole)
    (x0 : Vec F S8192 .i32) (hx : ∀ k : S8192.Idx, (x0 k).toNat < 16384) :
    k0_chk50 (arg1.view.readAt (Elt F) (Rect.unit (s := S8192) (k0_off99 i) S1.size (k0_off99_inb i)).toLoadRect (harg1.unread x0) (Shape.Idx.first (numel1_S1.symm ▸ Nat.one_pos))) := by
  have h := word_lt arg1 harg1 x0 hx (k0_off99 i) (k0_off99_inb i) (numel1_S1.symm ▸ Nat.one_pos)
  unfold k0_chk50
  exact ⟨fun a => rowFits _ h a, fun a => rowFits _ h a⟩

theorem chk51_of_table (i : grid0.Coords) (arg1 : Memref sig .tc .smem S8192 .i32) (harg1 : arg1.IsWhole)
    (x0 : Vec F S8192 .i32) (hx : ∀ k : S8192.Idx, (x0 k).toNat < 16384) :
    k0_chk51 (arg1.view.readAt (Elt F) (Rect.unit (s := S8192) (k0_off101 i) S1.size (k0_off101_inb i)).toLoadRect (harg1.unread x0) (Shape.Idx.first (numel1_S1.symm ▸ Nat.one_pos))) := by
  have h := word_lt arg1 harg1 x0 hx (k0_off101 i) (k0_off101_inb i) (numel1_S1.symm ▸ Nat.one_pos)
  unfold k0_chk51
  exact ⟨fun a => rowFits _ h a, fun a => rowFits _ h a⟩

theorem chk52_of_table (i : grid0.Coords) (arg1 : Memref sig .tc .smem S8192 .i32) (harg1 : arg1.IsWhole)
    (x0 : Vec F S8192 .i32) (hx : ∀ k : S8192.Idx, (x0 k).toNat < 16384) :
    k0_chk52 (arg1.view.readAt (Elt F) (Rect.unit (s := S8192) (k0_off103 i) S1.size (k0_off103_inb i)).toLoadRect (harg1.unread x0) (Shape.Idx.first (numel1_S1.symm ▸ Nat.one_pos))) := by
  have h := word_lt arg1 harg1 x0 hx (k0_off103 i) (k0_off103_inb i) (numel1_S1.symm ▸ Nat.one_pos)
  unfold k0_chk52
  exact ⟨fun a => rowFits _ h a, fun a => rowFits _ h a⟩

theorem chk53_of_table (i : grid0.Coords) (arg1 : Memref sig .tc .smem S8192 .i32) (harg1 : arg1.IsWhole)
    (x0 : Vec F S8192 .i32) (hx : ∀ k : S8192.Idx, (x0 k).toNat < 16384) :
    k0_chk53 (arg1.view.readAt (Elt F) (Rect.unit (s := S8192) (k0_off105 i) S1.size (k0_off105_inb i)).toLoadRect (harg1.unread x0) (Shape.Idx.first (numel1_S1.symm ▸ Nat.one_pos))) := by
  have h := word_lt arg1 harg1 x0 hx (k0_off105 i) (k0_off105_inb i) (numel1_S1.symm ▸ Nat.one_pos)
  unfold k0_chk53
  exact ⟨fun a => rowFits _ h a, fun a => rowFits _ h a⟩

theorem chk54_of_table (i : grid0.Coords) (arg1 : Memref sig .tc .smem S8192 .i32) (harg1 : arg1.IsWhole)
    (x0 : Vec F S8192 .i32) (hx : ∀ k : S8192.Idx, (x0 k).toNat < 16384) :
    k0_chk54 (arg1.view.readAt (Elt F) (Rect.unit (s := S8192) (k0_off107 i) S1.size (k0_off107_inb i)).toLoadRect (harg1.unread x0) (Shape.Idx.first (numel1_S1.symm ▸ Nat.one_pos))) := by
  have h := word_lt arg1 harg1 x0 hx (k0_off107 i) (k0_off107_inb i) (numel1_S1.symm ▸ Nat.one_pos)
  unfold k0_chk54
  exact ⟨fun a => rowFits _ h a, fun a => rowFits _ h a⟩

theorem chk55_of_table (i : grid0.Coords) (arg1 : Memref sig .tc .smem S8192 .i32) (harg1 : arg1.IsWhole)
    (x0 : Vec F S8192 .i32) (hx : ∀ k : S8192.Idx, (x0 k).toNat < 16384) :
    k0_chk55 (arg1.view.readAt (Elt F) (Rect.unit (s := S8192) (k0_off109 i) S1.size (k0_off109_inb i)).toLoadRect (harg1.unread x0) (Shape.Idx.first (numel1_S1.symm ▸ Nat.one_pos))) := by
  have h := word_lt arg1 harg1 x0 hx (k0_off109 i) (k0_off109_inb i) (numel1_S1.symm ▸ Nat.one_pos)
  unfold k0_chk55
  exact ⟨fun a => rowFits _ h a, fun a => rowFits _ h a⟩

theorem chk56_of_table (i : grid0.Coords) (arg1 : Memref sig .tc .smem S8192 .i32) (harg1 : arg1.IsWhole)
    (x0 : Vec F S8192 .i32) (hx : ∀ k : S8192.Idx, (x0 k).toNat < 16384) :
    k0_chk56 (arg1.view.readAt (Elt F) (Rect.unit (s := S8192) (k0_off111 i) S1.size (k0_off111_inb i)).toLoadRect (harg1.unread x0) (Shape.Idx.first (numel1_S1.symm ▸ Nat.one_pos))) := by
  have h := word_lt arg1 harg1 x0 hx (k0_off111 i) (k0_off111_inb i) (numel1_S1.symm ▸ Nat.one_pos)
  unfold k0_chk56
  exact ⟨fun a => rowFits _ h a, fun a => rowFits _ h a⟩

theorem chk57_of_table (i : grid0.Coords) (arg1 : Memref sig .tc .smem S8192 .i32) (harg1 : arg1.IsWhole)
    (x0 : Vec F S8192 .i32) (hx : ∀ k : S8192.Idx, (x0 k).toNat < 16384) :
    k0_chk57 (arg1.view.readAt (Elt F) (Rect.unit (s := S8192) (k0_off113 i) S1.size (k0_off113_inb i)).toLoadRect (harg1.unread x0) (Shape.Idx.first (numel1_S1.symm ▸ Nat.one_pos))) := by
  have h := word_lt arg1 harg1 x0 hx (k0_off113 i) (k0_off113_inb i) (numel1_S1.symm ▸ Nat.one_pos)
  unfold k0_chk57
  exact ⟨fun a => rowFits _ h a, fun a => rowFits _ h a⟩

theorem chk58_of_table (i : grid0.Coords) (arg1 : Memref sig .tc .smem S8192 .i32) (harg1 : arg1.IsWhole)
    (x0 : Vec F S8192 .i32) (hx : ∀ k : S8192.Idx, (x0 k).toNat < 16384) :
    k0_chk58 (arg1.view.readAt (Elt F) (Rect.unit (s := S8192) (k0_off115 i) S1.size (k0_off115_inb i)).toLoadRect (harg1.unread x0) (Shape.Idx.first (numel1_S1.symm ▸ Nat.one_pos))) := by
  have h := word_lt arg1 harg1 x0 hx (k0_off115 i) (k0_off115_inb i) (numel1_S1.symm ▸ Nat.one_pos)
  unfold k0_chk58
  exact ⟨fun a => rowFits _ h a, fun a => rowFits _ h a⟩

theorem chk59_of_table (i : grid0.Coords) (arg1 : Memref sig .tc .smem S8192 .i32) (harg1 : arg1.IsWhole)
    (x0 : Vec F S8192 .i32) (hx : ∀ k : S8192.Idx, (x0 k).toNat < 16384) :
    k0_chk59 (arg1.view.readAt (Elt F) (Rect.unit (s := S8192) (k0_off117 i) S1.size (k0_off117_inb i)).toLoadRect (harg1.unread x0) (Shape.Idx.first (numel1_S1.symm ▸ Nat.one_pos))) := by
  have h := word_lt arg1 harg1 x0 hx (k0_off117 i) (k0_off117_inb i) (numel1_S1.symm ▸ Nat.one_pos)
  unfold k0_chk59
  exact ⟨fun a => rowFits _ h a, fun a => rowFits _ h a⟩

theorem chk60_of_table (i : grid0.Coords) (arg1 : Memref sig .tc .smem S8192 .i32) (harg1 : arg1.IsWhole)
    (x0 : Vec F S8192 .i32) (hx : ∀ k : S8192.Idx, (x0 k).toNat < 16384) :
    k0_chk60 (arg1.view.readAt (Elt F) (Rect.unit (s := S8192) (k0_off119 i) S1.size (k0_off119_inb i)).toLoadRect (harg1.unread x0) (Shape.Idx.first (numel1_S1.symm ▸ Nat.one_pos))) := by
  have h := word_lt arg1 harg1 x0 hx (k0_off119 i) (k0_off119_inb i) (numel1_S1.symm ▸ Nat.one_pos)
  unfold k0_chk60
  exact ⟨fun a => rowFits _ h a, fun a => rowFits _ h a⟩

theorem chk61_of_table (i : grid0.Coords) (arg1 : Memref sig .tc .smem S8192 .i32) (harg1 : arg1.IsWhole)
    (x0 : Vec F S8192 .i32) (hx : ∀ k : S8192.Idx, (x0 k).toNat < 16384) :
    k0_chk61 (arg1.view.readAt (Elt F) (Rect.unit (s := S8192) (k0_off121 i) S1.size (k0_off121_inb i)).toLoadRect (harg1.unread x0) (Shape.Idx.first (numel1_S1.symm ▸ Nat.one_pos))) := by
  have h := word_lt arg1 harg1 x0 hx (k0_off121 i) (k0_off121_inb i) (numel1_S1.symm ▸ Nat.one_pos)
  unfold k0_chk61
  exact ⟨fun a => rowFits _ h a, fun a => rowFits _ h a⟩

theorem chk62_of_table (i : grid0.Coords) (arg1 : Memref sig .tc .smem S8192 .i32) (harg1 : arg1.IsWhole)
    (x0 : Vec F S8192 .i32) (hx : ∀ k : S8192.Idx, (x0 k).toNat < 16384) :
    k0_chk62 (arg1.view.readAt (Elt F) (Rect.unit (s := S8192) (k0_off123 i) S1.size (k0_off123_inb i)).toLoadRect (harg1.unread x0) (Shape.Idx.first (numel1_S1.symm ▸ Nat.one_pos))) := by
  have h := word_lt arg1 harg1 x0 hx (k0_off123 i) (k0_off123_inb i) (numel1_S1.symm ▸ Nat.one_pos)
  unfold k0_chk62
  exact ⟨fun a => rowFits _ h a, fun a => rowFits _ h a⟩

theorem chk63_of_table (i : grid0.Coords) (arg1 : Memref sig .tc .smem S8192 .i32) (harg1 : arg1.IsWhole)
    (x0 : Vec F S8192 .i32) (hx : ∀ k : S8192.Idx, (x0 k).toNat < 16384) :
    k0_chk63 (arg1.view.readAt (Elt F) (Rect.unit (s := S8192) (k0_off125 i) S1.size (k0_off125_inb i)).toLoadRect (harg1.unread x0) (Shape.Idx.first (numel1_S1.symm ▸ Nat.one_pos))) := by
  have h := word_lt arg1 harg1 x0 hx (k0_off125 i) (k0_off125_inb i) (numel1_S1.symm ▸ Nat.one_pos)
  unfold k0_chk63
  exact ⟨fun a => rowFits _ h a, fun a => rowFits _ h a⟩

theorem chk64_of_table (i : grid0.Coords) (arg1 : Memref sig .tc .smem S8192 .i32) (harg1 : arg1.IsWhole)
    (x0 : Vec F S8192 .i32) (hx : ∀ k : S8192.Idx, (x0 k).toNat < 16384) :
    k0_chk64 (arg1.view.readAt (Elt F) (Rect.unit (s := S8192) (k0_off127 i) S1.size (k0_off127_inb i)).toLoadRect (harg1.unread x0) (Shape.Idx.first (numel1_S1.symm ▸ Nat.one_pos))) := by
  have h := word_lt arg1 harg1 x0 hx (k0_off127 i) (k0_off127_inb i) (numel1_S1.symm ▸ Nat.one_pos)
  unfold k0_chk64
  exact ⟨fun a => rowFits _ h a, fun a => rowFits _ h a⟩

theorem chk65_of_table (i : grid0.Coords) (arg1 : Memref sig .tc .smem S8192 .i32) (harg1 : arg1.IsWhole)
    (x0 : Vec F S8192 .i32) (hx : ∀ k : S8192.Idx, (x0 k).toNat < 16384) :
    k0_chk65 (arg1.view.readAt (Elt F) (Rect.unit (s := S8192) (k0_off129 i) S1.size (k0_off129_inb i)).toLoadRect (harg1.unread x0) (Shape.Idx.first (numel1_S1.symm ▸ Nat.one_pos))) := by
  have h := word_lt arg1 harg1 x0 hx (k0_off129 i) (k0_off129_inb i) (numel1_S1.symm ▸ Nat.one_pos)
  unfold k0_chk65
  exact ⟨fun a => rowFits _ h a, fun a => rowFits _ h a⟩

theorem chk66_of_table (i : grid0.Coords) (arg1 : Memref sig .tc .smem S8192 .i32) (harg1 : arg1.IsWhole)
    (x0 : Vec F S8192 .i32) (hx : ∀ k : S8192.Idx, (x0 k).toNat < 16384) :
    k0_chk66 (arg1.view.readAt (Elt F) (Rect.unit (s := S8192) (k0_off131 i) S1.size (k0_off131_inb i)).toLoadRect (harg1.unread x0) (Shape.Idx.first (numel1_S1.symm ▸ Nat.one_pos))) := by
  have h := word_lt arg1 harg1 x0 hx (k0_off131 i) (k0_off131_inb i) (numel1_S1.symm ▸ Nat.one_pos)
  unfold k0_chk66
  exact ⟨fun a => rowFits _ h a, fun a => rowFits _ h a⟩

theorem chk67_of_table (i : grid0.Coords) (arg1 : Memref sig .tc .smem S8192 .i32) (harg1 : arg1.IsWhole)
    (x0 : Vec F S8192 .i32) (hx : ∀ k : S8192.Idx, (x0 k).toNat < 16384) :
    k0_chk67 (arg1.view.readAt (Elt F) (Rect.unit (s := S8192) (k0_off133 i) S1.size (k0_off133_inb i)).toLoadRect (harg1.unread x0) (Shape.Idx.first (numel1_S1.symm ▸ Nat.one_pos))) := by
  have h := word_lt arg1 harg1 x0 hx (k0_off133 i) (k0_off133_inb i) (numel1_S1.symm ▸ Nat.one_pos)
  unfold k0_chk67
  exact ⟨fun a => rowFits _ h a, fun a => rowFits _ h a⟩

theorem chk68_of_table (i : grid0.Coords) (arg1 : Memref sig .tc .smem S8192 .i32) (harg1 : arg1.IsWhole)
    (x0 : Vec F S8192 .i32) (hx : ∀ k : S8192.Idx, (x0 k).toNat < 16384) :
    k0_chk68 (arg1.view.readAt (Elt F) (Rect.unit (s := S8192) (k0_off135 i) S1.size (k0_off135_inb i)).toLoadRect (harg1.unread x0) (Shape.Idx.first (numel1_S1.symm ▸ Nat.one_pos))) := by
  have h := word_lt arg1 harg1 x0 hx (k0_off135 i) (k0_off135_inb i) (numel1_S1.symm ▸ Nat.one_pos)
  unfold k0_chk68
  exact ⟨fun a => rowFits _ h a, fun a => rowFits _ h a⟩

theorem chk69_of_table (i : grid0.Coords) (arg1 : Memref sig .tc .smem S8192 .i32) (harg1 : arg1.IsWhole)
    (x0 : Vec F S8192 .i32) (hx : ∀ k : S8192.Idx, (x0 k).toNat < 16384) :
    k0_chk69 (arg1.view.readAt (Elt F) (Rect.unit (s := S8192) (k0_off137 i) S1.size (k0_off137_inb i)).toLoadRect (harg1.unread x0) (Shape.Idx.first (numel1_S1.symm ▸ Nat.one_pos))) := by
  have h := word_lt arg1 harg1 x0 hx (k0_off137 i) (k0_off137_inb i) (numel1_S1.symm ▸ Nat.one_pos)
  unfold k0_chk69
  exact ⟨fun a => rowFits _ h a, fun a => rowFits _ h a⟩

theorem chk70_of_table (i : grid0.Coords) (arg1 : Memref sig .tc .smem S8192 .i32) (harg1 : arg1.IsWhole)
    (x0 : Vec F S8192 .i32) (hx : ∀ k : S8192.Idx, (x0 k).toNat < 16384) :
    k0_chk70 (arg1.view.readAt (Elt F) (Rect.unit (s := S8192) (k0_off139 i) S1.size (k0_off139_inb i)).toLoadRect (harg1.unread x0) (Shape.Idx.first (numel1_S1.symm ▸ Nat.one_pos))) := by
  have h := word_lt arg1 harg1 x0 hx (k0_off139 i) (k0_off139_inb i) (numel1_S1.symm ▸ Nat.one_pos)
  unfold k0_chk70
  exact ⟨fun a => rowFits _ h a, fun a => rowFits _ h a⟩

theorem chk71_of_table (i : grid0.Coords) (arg1 : Memref sig .tc .smem S8192 .i32) (harg1 : arg1.IsWhole)
    (x0 : Vec F S8192 .i32) (hx : ∀ k : S8192.Idx, (x0 k).toNat < 16384) :
    k0_chk71 (arg1.view.readAt (Elt F) (Rect.unit (s := S8192) (k0_off141 i) S1.size (k0_off141_inb i)).toLoadRect (harg1.unread x0) (Shape.Idx.first (numel1_S1.symm ▸ Nat.one_pos))) := by
  have h := word_lt arg1 harg1 x0 hx (k0_off141 i) (k0_off141_inb i) (numel1_S1.symm ▸ Nat.one_pos)
  unfold k0_chk71
  exact ⟨fun a => rowFits _ h a, fun a => rowFits _ h a⟩

theorem chk72_of_table (i : grid0.Coords) (arg1 : Memref sig .tc .smem S8192 .i32) (harg1 : arg1.IsWhole)
    (x0 : Vec F S8192 .i32) (hx : ∀ k : S8192.Idx, (x0 k).toNat < 16384) :
    k0_chk72 (arg1.view.readAt (Elt F) (Rect.unit (s := S8192) (k0_off143 i) S1.size (k0_off143_inb i)).toLoadRect (harg1.unread x0) (Shape.Idx.first (numel1_S1.symm ▸ Nat.one_pos))) := by
  have h := word_lt arg1 harg1 x0 hx (k0_off143 i) (k0_off143_inb i) (numel1_S1.symm ▸ Nat.one_pos)
  unfold k0_chk72
  exact ⟨fun a => rowFits _ h a, fun a => rowFits _ h a⟩

theorem chk73_of_table (i : grid0.Coords) (arg1 : Memref sig .tc .smem S8192 .i32) (harg1 : arg1.IsWhole)
    (x0 : Vec F S8192 .i32) (hx : ∀ k : S8192.Idx, (x0 k).toNat < 16384) :
    k0_chk73 (arg1.view.readAt (Elt F) (Rect.unit (s := S8192) (k0_off145 i) S1.size (k0_off145_inb i)).toLoadRect (harg1.unread x0) (Shape.Idx.first (numel1_S1.symm ▸ Nat.one_pos))) := by
  have h := word_lt arg1 harg1 x0 hx (k0_off145 i) (k0_off145_inb i) (numel1_S1.symm ▸ Nat.one_pos)
  unfold k0_chk73
  exact ⟨fun a => rowFits _ h a, fun a => rowFits _ h a⟩

theorem chk74_of_table (i : grid0.Coords) (arg1 : Memref sig .tc .smem S8192 .i32) (harg1 : arg1.IsWhole)
    (x0 : Vec F S8192 .i32) (hx : ∀ k : S8192.Idx, (x0 k).toNat < 16384) :
    k0_chk74 (arg1.view.readAt (Elt F) (Rect.unit (s := S8192) (k0_off147 i) S1.size (k0_off147_inb i)).toLoadRect (harg1.unread x0) (Shape.Idx.first (numel1_S1.symm ▸ Nat.one_pos))) := by
  have h := word_lt arg1 harg1 x0 hx (k0_off147 i) (k0_off147_inb i) (numel1_S1.symm ▸ Nat.one_pos)
  unfold k0_chk74
  exact ⟨fun a => rowFits _ h a, fun a => rowFits _ h a⟩

theorem chk75_of_table (i : grid0.Coords) (arg1 : Memref sig .tc .smem S8192 .i32) (harg1 : arg1.IsWhole)
    (x0 : Vec F S8192 .i32) (hx : ∀ k : S8192.Idx, (x0 k).toNat < 16384) :
    k0_chk75 (arg1.view.readAt (Elt F) (Rect.unit (s := S8192) (k0_off149 i) S1.size (k0_off149_inb i)).toLoadRect (harg1.unread x0) (Shape.Idx.first (numel1_S1.symm ▸ Nat.one_pos))) := by
  have h := word_lt arg1 harg1 x0 hx (k0_off149 i) (k0_off149_inb i) (numel1_S1.symm ▸ Nat.one_pos)
  unfold k0_chk75
  exact ⟨fun a => rowFits _ h a, fun a => rowFits _ h a⟩

theorem chk76_of_table (i : grid0.Coords) (arg1 : Memref sig .tc .smem S8192 .i32) (harg1 : arg1.IsWhole)
    (x0 : Vec F S8192 .i32) (hx : ∀ k : S8192.Idx, (x0 k).toNat < 16384) :
    k0_chk76 (arg1.view.readAt (Elt F) (Rect.unit (s := S8192) (k0_off151 i) S1.size (k0_off151_inb i)).toLoadRect (harg1.unread x0) (Shape.Idx.first (numel1_S1.symm ▸ Nat.one_pos))) := by
  have h := word_lt arg1 harg1 x0 hx (k0_off151 i) (k0_off151_inb i) (numel1_S1.symm ▸ Nat.one_pos)
  unfold k0_chk76
  exact ⟨fun a => rowFits _ h a, fun a => rowFits _ h a⟩

theorem chk77_of_table (i : grid0.Coords) (arg1 : Memref sig .tc .smem S8192 .i32) (harg1 : arg1.IsWhole)
    (x0 : Vec F S8192 .i32) (hx : ∀ k : S8192.Idx, (x0 k).toNat < 16384) :
    k0_chk77 (arg1.view.readAt (Elt F) (Rect.unit (s := S8192) (k0_off153 i) S1.size (k0_off153_inb i)).toLoadRect (harg1.unread x0) (Shape.Idx.first (numel1_S1.symm ▸ Nat.one_pos))) := by
  have h := word_lt arg1 harg1 x0 hx (k0_off153 i) (k0_off153_inb i) (numel1_S1.symm ▸ Nat.one_pos)
  unfold k0_chk77
  exact ⟨fun a => rowFits _ h a, fun a => rowFits _ h a⟩

theorem chk78_of_table (i : grid0.Coords) (arg1 : Memref sig .tc .smem S8192 .i32) (harg1 : arg1.IsWhole)
    (x0 : Vec F S8192 .i32) (hx : ∀ k : S8192.Idx, (x0 k).toNat < 16384) :
    k0_chk78 (arg1.view.readAt (Elt F) (Rect.unit (s := S8192) (k0_off155 i) S1.size (k0_off155_inb i)).toLoadRect (harg1.unread x0) (Shape.Idx.first (numel1_S1.symm ▸ Nat.one_pos))) := by
  have h := word_lt arg1 harg1 x0 hx (k0_off155 i) (k0_off155_inb i) (numel1_S1.symm ▸ Nat.one_pos)
  unfold k0_chk78
  exact ⟨fun a => rowFits _ h a, fun a => rowFits _ h a⟩

theorem chk79_of_table (i : grid0.Coords) (arg1 : Memref sig .tc .smem S8192 .i32) (harg1 : arg1.IsWhole)
    (x0 : Vec F S8192 .i32) (hx : ∀ k : S8192.Idx, (x0 k).toNat < 16384) :
    k0_chk79 (arg1.view.readAt (Elt F) (Rect.unit (s := S8192) (k0_off157 i) S1.size (k0_off157_inb i)).toLoadRect (harg1.unread x0) (Shape.Idx.first (numel1_S1.symm ▸ Nat.one_pos))) := by
  have h := word_lt arg1 harg1 x0 hx (k0_off157 i) (k0_off157_inb i) (numel1_S1.symm ▸ Nat.one_pos)
  unfold k0_chk79
  exact ⟨fun a => rowFits _ h a, fun a => rowFits _ h a⟩

theorem chk80_of_table (i : grid0.Coords) (arg1 : Memref sig .tc .smem S8192 .i32) (harg1 : arg1.IsWhole)
    (x0 : Vec F S8192 .i32) (hx : ∀ k : S8192.Idx, (x0 k).toNat < 16384) :
    k0_chk80 (arg1.view.readAt (Elt F) (Rect.unit (s := S8192) (k0_off159 i) S1.size (k0_off159_inb i)).toLoadRect (harg1.unread x0) (Shape.Idx.first (numel1_S1.symm ▸ Nat.one_pos))) := by
  have h := word_lt arg1 harg1 x0 hx (k0_off159 i) (k0_off159_inb i) (numel1_S1.symm ▸ Nat.one_pos)
  unfold k0_chk80
  exact ⟨fun a => rowFits _ h a, fun a => rowFits _ h a⟩

theorem chk81_of_table (i : grid0.Coords) (arg1 : Memref sig .tc .smem S8192 .i32) (harg1 : arg1.IsWhole)
    (x0 : Vec F S8192 .i32) (hx : ∀ k : S8192.Idx, (x0 k).toNat < 16384) :
    k0_chk81 (arg1.view.readAt (Elt F) (Rect.unit (s := S8192) (k0_off161 i) S1.size (k0_off161_inb i)).toLoadRect (harg1.unread x0) (Shape.Idx.first (numel1_S1.symm ▸ Nat.one_pos))) := by
  have h := word_lt arg1 harg1 x0 hx (k0_off161 i) (k0_off161_inb i) (numel1_S1.symm ▸ Nat.one_pos)
  unfold k0_chk81
  exact ⟨fun a => rowFits _ h a, fun a => rowFits _ h a⟩

theorem chk82_of_table (i : grid0.Coords) (arg1 : Memref sig .tc .smem S8192 .i32) (harg1 : arg1.IsWhole)
    (x0 : Vec F S8192 .i32) (hx : ∀ k : S8192.Idx, (x0 k).toNat < 16384) :
    k0_chk82 (arg1.view.readAt (Elt F) (Rect.unit (s := S8192) (k0_off163 i) S1.size (k0_off163_inb i)).toLoadRect (harg1.unread x0) (Shape.Idx.first (numel1_S1.symm ▸ Nat.one_pos))) := by
  have h := word_lt arg1 harg1 x0 hx (k0_off163 i) (k0_off163_inb i) (numel1_S1.symm ▸ Nat.one_pos)
  unfold k0_chk82
  exact ⟨fun a => rowFits _ h a, fun a => rowFits _ h a⟩

theorem chk83_of_table (i : grid0.Coords) (arg1 : Memref sig .tc .smem S8192 .i32) (harg1 : arg1.IsWhole)
    (x0 : Vec F S8192 .i32) (hx : ∀ k : S8192.Idx, (x0 k).toNat < 16384) :
    k0_chk83 (arg1.view.readAt (Elt F) (Rect.unit (s := S8192) (k0_off165 i) S1.size (k0_off165_inb i)).toLoadRect (harg1.unread x0) (Shape.Idx.first (numel1_S1.symm ▸ Nat.one_pos))) := by
  have h := word_lt arg1 harg1 x0 hx (k0_off165 i) (k0_off165_inb i) (numel1_S1.symm ▸ Nat.one_pos)
  unfold k0_chk83
  exact ⟨fun a => rowFits _ h a, fun a => rowFits _ h a⟩

theorem chk84_of_table (i : grid0.Coords) (arg1 : Memref sig .tc .smem S8192 .i32) (harg1 : arg1.IsWhole)
    (x0 : Vec F S8192 .i32) (hx : ∀ k : S8192.Idx, (x0 k).toNat < 16384) :
    k0_chk84 (arg1.view.readAt (Elt F) (Rect.unit (s := S8192) (k0_off167 i) S1.size (k0_off167_inb i)).toLoadRect (harg1.unread x0) (Shape.Idx.first (numel1_S1.symm ▸ Nat.one_pos))) := by
  have h := word_lt arg1 harg1 x0 hx (k0_off167 i) (k0_off167_inb i) (numel1_S1.symm ▸ Nat.one_pos)
  unfold k0_chk84
  exact ⟨fun a => rowFits _ h a, fun a => rowFits _ h a⟩

theorem chk85_of_table (i : grid0.Coords) (arg1 : Memref sig .tc .smem S8192 .i32) (harg1 : arg1.IsWhole)
    (x0 : Vec F S8192 .i32) (hx : ∀ k : S8192.Idx, (x0 k).toNat < 16384) :
    k0_chk85 (arg1.view.readAt (Elt F) (Rect.unit (s := S8192) (k0_off169 i) S1.size (k0_off169_inb i)).toLoadRect (harg1.unread x0) (Shape.Idx.first (numel1_S1.symm ▸ Nat.one_pos))) := by
  have h := word_lt arg1 harg1 x0 hx (k0_off169 i) (k0_off169_inb i) (numel1_S1.symm ▸ Nat.one_pos)
  unfold k0_chk85
  exact ⟨fun a => rowFits _ h a, fun a => rowFits _ h a⟩

theorem chk86_of_table (i : grid0.Coords) (arg1 : Memref sig .tc .smem S8192 .i32) (harg1 : arg1.IsWhole)
    (x0 : Vec F S8192 .i32) (hx : ∀ k : S8192.Idx, (x0 k).toNat < 16384) :
    k0_chk86 (arg1.view.readAt (Elt F) (Rect.unit (s := S8192) (k0_off171 i) S1.size (k0_off171_inb i)).toLoadRect (harg1.unread x0) (Shape.Idx.first (numel1_S1.symm ▸ Nat.one_pos))) := by
  have h := word_lt arg1 harg1 x0 hx (k0_off171 i) (k0_off171_inb i) (numel1_S1.symm ▸ Nat.one_pos)
  unfold k0_chk86
  exact ⟨fun a => rowFits _ h a, fun a => rowFits _ h a⟩

theorem chk87_of_table (i : grid0.Coords) (arg1 : Memref sig .tc .smem S8192 .i32) (harg1 : arg1.IsWhole)
    (x0 : Vec F S8192 .i32) (hx : ∀ k : S8192.Idx, (x0 k).toNat < 16384) :
    k0_chk87 (arg1.view.readAt (Elt F) (Rect.unit (s := S8192) (k0_off173 i) S1.size (k0_off173_inb i)).toLoadRect (harg1.unread x0) (Shape.Idx.first (numel1_S1.symm ▸ Nat.one_pos))) := by
  have h := word_lt arg1 harg1 x0 hx (k0_off173 i) (k0_off173_inb i) (numel1_S1.symm ▸ Nat.one_pos)
  unfold k0_chk87
  exact ⟨fun a => rowFits _ h a, fun a => rowFits _ h a⟩

theorem chk88_of_table (i : grid0.Coords) (arg1 : Memref sig .tc .smem S8192 .i32) (harg1 : arg1.IsWhole)
    (x0 : Vec F S8192 .i32) (hx : ∀ k : S8192.Idx, (x0 k).toNat < 16384) :
    k0_chk88 (arg1.view.readAt (Elt F) (Rect.unit (s := S8192) (k0_off175 i) S1.size (k0_off175_inb i)).toLoadRect (harg1.unread x0) (Shape.Idx.first (numel1_S1.symm ▸ Nat.one_pos))) := by
  have h := word_lt arg1 harg1 x0 hx (k0_off175 i) (k0_off175_inb i) (numel1_S1.symm ▸ Nat.one_pos)
  unfold k0_chk88
  exact ⟨fun a => rowFits _ h a, fun a => rowFits _ h a⟩

theorem chk89_of_table (i : grid0.Coords) (arg1 : Memref sig .tc .smem S8192 .i32) (harg1 : arg1.IsWhole)
    (x0 : Vec F S8192 .i32) (hx : ∀ k : S8192.Idx, (x0 k).toNat < 16384) :
    k0_chk89 (arg1.view.readAt (Elt F) (Rect.unit (s := S8192) (k0_off177 i) S1.size (k0_off177_inb i)).toLoadRect (harg1.unread x0) (Shape.Idx.first (numel1_S1.symm ▸ Nat.one_pos))) := by
  have h := word_lt arg1 harg1 x0 hx (k0_off177 i) (k0_off177_inb i) (numel1_S1.symm ▸ Nat.one_pos)
  unfold k0_chk89
  exact ⟨fun a => rowFits _ h a, fun a => rowFits _ h a⟩

theorem chk90_of_table (i : grid0.Coords) (arg1 : Memref sig .tc .smem S8192 .i32) (harg1 : arg1.IsWhole)
    (x0 : Vec F S8192 .i32) (hx : ∀ k : S8192.Idx, (x0 k).toNat < 16384) :
    k0_chk90 (arg1.view.readAt (Elt F) (Rect.unit (s := S8192) (k0_off179 i) S1.size (k0_off179_inb i)).toLoadRect (harg1.unread x0) (Shape.Idx.first (numel1_S1.symm ▸ Nat.one_pos))) := by
  have h := word_lt arg1 harg1 x0 hx (k0_off179 i) (k0_off179_inb i) (numel1_S1.symm ▸ Nat.one_pos)
  unfold k0_chk90
  exact ⟨fun a => rowFits _ h a, fun a => rowFits _ h a⟩

theorem chk91_of_table (i : grid0.Coords) (arg1 : Memref sig .tc .smem S8192 .i32) (harg1 : arg1.IsWhole)
    (x0 : Vec F S8192 .i32) (hx : ∀ k : S8192.Idx, (x0 k).toNat < 16384) :
    k0_chk91 (arg1.view.readAt (Elt F) (Rect.unit (s := S8192) (k0_off181 i) S1.size (k0_off181_inb i)).toLoadRect (harg1.unread x0) (Shape.Idx.first (numel1_S1.symm ▸ Nat.one_pos))) := by
  have h := word_lt arg1 harg1 x0 hx (k0_off181 i) (k0_off181_inb i) (numel1_S1.symm ▸ Nat.one_pos)
  unfold k0_chk91
  exact ⟨fun a => rowFits _ h a, fun a => rowFits _ h a⟩

theorem chk92_of_table (i : grid0.Coords) (arg1 : Memref sig .tc .smem S8192 .i32) (harg1 : arg1.IsWhole)
    (x0 : Vec F S8192 .i32) (hx : ∀ k : S8192.Idx, (x0 k).toNat < 16384) :
    k0_chk92 (arg1.view.readAt (Elt F) (Rect.unit (s := S8192) (k0_off183 i) S1.size (k0_off183_inb i)).toLoadRect (harg1.unread x0) (Shape.Idx.first (numel1_S1.symm ▸ Nat.one_pos))) := by
  have h := word_lt arg1 harg1 x0 hx (k0_off183 i) (k0_off183_inb i) (numel1_S1.symm ▸ Nat.one_pos)
  unfold k0_chk92
  exact ⟨fun a => rowFits _ h a, fun a => rowFits _ h a⟩

theorem chk93_of_table (i : grid0.Coords) (arg1 : Memref sig .tc .smem S8192 .i32) (harg1 : arg1.IsWhole)
    (x0 : Vec F S8192 .i32) (hx : ∀ k : S8192.Idx, (x0 k).toNat < 16384) :
    k0_chk93 (arg1.view.readAt (Elt F) (Rect.unit (s := S8192) (k0_off185 i) S1.size (k0_off185_inb i)).toLoadRect (harg1.unread x0) (Shape.Idx.first (numel1_S1.symm ▸ Nat.one_pos))) := by
  have h := word_lt arg1 harg1 x0 hx (k0_off185 i) (k0_off185_inb i) (numel1_S1.symm ▸ Nat.one_pos)
  unfold k0_chk93
  exact ⟨fun a => rowFits _ h a, fun a => rowFits _ h a⟩

theorem chk94_of_table (i : grid0.Coords) (arg1 : Memref sig .tc .smem S8192 .i32) (harg1 : arg1.IsWhole)
    (x0 : Vec F S8192 .i32) (hx : ∀ k : S8192.Idx, (x0 k).toNat < 16384) :
    k0_chk94 (arg1.view.readAt (Elt F) (Rect.unit (s := S8192) (k0_off187 i) S1.size (k0_off187_inb i)).toLoadRect (harg1.unread x0) (Shape.Idx.first (numel1_S1.symm ▸ Nat.one_pos))) := by
  have h := word_lt arg1 harg1 x0 hx (k0_off187 i) (k0_off187_inb i) (numel1_S1.symm ▸ Nat.one_pos)
  unfold k0_chk94
  exact ⟨fun a => rowFits _ h a, fun a => rowFits _ h a⟩

theorem chk95_of_table (i : grid0.Coords) (arg1 : Memref sig .tc .smem S8192 .i32) (harg1 : arg1.IsWhole)
    (x0 : Vec F S8192 .i32) (hx : ∀ k : S8192.Idx, (x0 k).toNat < 16384) :
    k0_chk95 (arg1.view.readAt (Elt F) (Rect.unit (s := S8192) (k0_off189 i) S1.size (k0_off189_inb i)).toLoadRect (harg1.unread x0) (Shape.Idx.first (numel1_S1.symm ▸ Nat.one_pos))) := by
  have h := word_lt arg1 harg1 x0 hx (k0_off189 i) (k0_off189_inb i) (numel1_S1.symm ▸ Nat.one_pos)
  unfold k0_chk95
  exact ⟨fun a => rowFits _ h a, fun a => rowFits _ h a⟩

theorem chk96_of_table (i : grid0.Coords) (arg1 : Memref sig .tc .smem S8192 .i32) (harg1 : arg1.IsWhole)
    (x0 : Vec F S8192 .i32) (hx : ∀ k : S8192.Idx, (x0 k).toNat < 16384) :
    k0_chk96 (arg1.view.readAt (Elt F) (Rect.unit (s := S8192) (k0_off191 i) S1.size (k0_off191_inb i)).toLoadRect (harg1.unread x0) (Shape.Idx.first (numel1_S1.symm ▸ Nat.one_pos))) := by
  have h := word_lt arg1 harg1 x0 hx (k0_off191 i) (k0_off191_inb i) (numel1_S1.symm ▸ Nat.one_pos)
  unfold k0_chk96
  exact ⟨fun a => rowFits _ h a, fun a => rowFits _ h a⟩

theorem chk97_of_table (i : grid0.Coords) (arg1 : Memref sig .tc .smem S8192 .i32) (harg1 : arg1.IsWhole)
    (x0 : Vec F S8192 .i32) (hx : ∀ k : S8192.Idx, (x0 k).toNat < 16384) :
    k0_chk97 (arg1.view.readAt (Elt F) (Rect.unit (s := S8192) (k0_off193 i) S1.size (k0_off193_inb i)).toLoadRect (harg1.unread x0) (Shape.Idx.first (numel1_S1.symm ▸ Nat.one_pos))) := by
  have h := word_lt arg1 harg1 x0 hx (k0_off193 i) (k0_off193_inb i) (numel1_S1.symm ▸ Nat.one_pos)
  unfold k0_chk97
  exact ⟨fun a => rowFits _ h a, fun a => rowFits _ h a⟩

theorem chk98_of_table (i : grid0.Coords) (arg1 : Memref sig .tc .smem S8192 .i32) (harg1 : arg1.IsWhole)
    (x0 : Vec F S8192 .i32) (hx : ∀ k : S8192.Idx, (x0 k).toNat < 16384) :
    k0_chk98 (arg1.view.readAt (Elt F) (Rect.unit (s := S8192) (k0_off195 i) S1.size (k0_off195_inb i)).toLoadRect (harg1.unread x0) (Shape.Idx.first (numel1_S1.symm ▸ Nat.one_pos))) := by
  have h := word_lt arg1 harg1 x0 hx (k0_off195 i) (k0_off195_inb i) (numel1_S1.symm ▸ Nat.one_pos)
  unfold k0_chk98
  exact ⟨fun a => rowFits _ h a, fun a => rowFits _ h a⟩

theorem chk99_of_table (i : grid0.Coords) (arg1 : Memref sig .tc .smem S8192 .i32) (harg1 : arg1.IsWhole)
    (x0 : Vec F S8192 .i32) (hx : ∀ k : S8192.Idx, (x0 k).toNat < 16384) :
    k0_chk99 (arg1.view.readAt (Elt F) (Rect.unit (s := S8192) (k0_off197 i) S1.size (k0_off197_inb i)).toLoadRect (harg1.unread x0) (Shape.Idx.first (numel1_S1.symm ▸ Nat.one_pos))) := by
  have h := word_lt arg1 harg1 x0 hx (k0_off197 i) (k0_off197_inb i) (numel1_S1.symm ▸ Nat.one_pos)
  unfold k0_chk99
  exact ⟨fun a => rowFits _ h a, fun a => rowFits _ h a⟩

theorem chk100_of_table (i : grid0.Coords) (arg1 : Memref sig .tc .smem S8192 .i32) (harg1 : arg1.IsWhole)
    (x0 : Vec F S8192 .i32) (hx : ∀ k : S8192.Idx, (x0 k).toNat < 16384) :
    k0_chk100 (arg1.view.readAt (Elt F) (Rect.unit (s := S8192) (k0_off199 i) S1.size (k0_off199_inb i)).toLoadRect (harg1.unread x0) (Shape.Idx.first (numel1_S1.symm ▸ Nat.one_pos))) := by
  have h := word_lt arg1 harg1 x0 hx (k0_off199 i) (k0_off199_inb i) (numel1_S1.symm ▸ Nat.one_pos)
  unfold k0_chk100
  exact ⟨fun a => rowFits _ h a, fun a => rowFits _ h a⟩

theorem chk101_of_table (i : grid0.Coords) (arg1 : Memref sig .tc .smem S8192 .i32) (harg1 : arg1.IsWhole)
    (x0 : Vec F S8192 .i32) (hx : ∀ k : S8192.Idx, (x0 k).toNat < 16384) :
    k0_chk101 (arg1.view.readAt (Elt F) (Rect.unit (s := S8192) (k0_off201 i) S1.size (k0_off201_inb i)).toLoadRect (harg1.unread x0) (Shape.Idx.first (numel1_S1.symm ▸ Nat.one_pos))) := by
  have h := word_lt arg1 harg1 x0 hx (k0_off201 i) (k0_off201_inb i) (numel1_S1.symm ▸ Nat.one_pos)
  unfold k0_chk101
  exact ⟨fun a => rowFits _ h a, fun a => rowFits _ h a⟩

theorem chk102_of_table (i : grid0.Coords) (arg1 : Memref sig .tc .smem S8192 .i32) (harg1 : arg1.IsWhole)
    (x0 : Vec F S8192 .i32) (hx : ∀ k : S8192.Idx, (x0 k).toNat < 16384) :
    k0_chk102 (arg1.view.readAt (Elt F) (Rect.unit (s := S8192) (k0_off203 i) S1.size (k0_off203_inb i)).toLoadRect (harg1.unread x0) (Shape.Idx.first (numel1_S1.symm ▸ Nat.one_pos))) := by
  have h := word_lt arg1 harg1 x0 hx (k0_off203 i) (k0_off203_inb i) (numel1_S1.symm ▸ Nat.one_pos)
  unfold k0_chk102
  exact ⟨fun a => rowFits _ h a, fun a => rowFits _ h a⟩

theorem chk103_of_table (i : grid0.Coords) (arg1 : Memref sig .tc .smem S8192 .i32) (harg1 : arg1.IsWhole)
    (x0 : Vec F S8192 .i32) (hx : ∀ k : S8192.Idx, (x0 k).toNat < 16384) :
    k0_chk103 (arg1.view.readAt (Elt F) (Rect.unit (s := S8192) (k0_off205 i) S1.size (k0_off205_inb i)).toLoadRect (harg1.unread x0) (Shape.Idx.first (numel1_S1.symm ▸ Nat.one_pos))) := by
  have h := word_lt arg1 harg1 x0 hx (k0_off205 i) (k0_off205_inb i) (numel1_S1.symm ▸ Nat.one_pos)
  unfold k0_chk103
  exact ⟨fun a => rowFits _ h a, fun a => rowFits _ h a⟩

theorem chk104_of_table (i : grid0.Coords) (arg1 : Memref sig .tc .smem S8192 .i32) (harg1 : arg1.IsWhole)
    (x0 : Vec F S8192 .i32) (hx : ∀ k : S8192.Idx, (x0 k).toNat < 16384) :
    k0_chk104 (arg1.view.readAt (Elt F) (Rect.unit (s := S8192) (k0_off207 i) S1.size (k0_off207_inb i)).toLoadRect (harg1.unread x0) (Shape.Idx.first (numel1_S1.symm ▸ Nat.one_pos))) := by
  have h := word_lt arg1 harg1 x0 hx (k0_off207 i) (k0_off207_inb i) (numel1_S1.symm ▸ Nat.one_pos)
  unfold k0_chk104
  exact ⟨fun a => rowFits _ h a, fun a => rowFits _ h a⟩

theorem chk105_of_table (i : grid0.Coords) (arg1 : Memref sig .tc .smem S8192 .i32) (harg1 : arg1.IsWhole)
    (x0 : Vec F S8192 .i32) (hx : ∀ k : S8192.Idx, (x0 k).toNat < 16384) :
    k0_chk105 (arg1.view.readAt (Elt F) (Rect.unit (s := S8192) (k0_off209 i) S1.size (k0_off209_inb i)).toLoadRect (harg1.unread x0) (Shape.Idx.first (numel1_S1.symm ▸ Nat.one_pos))) := by
  have h := word_lt arg1 harg1 x0 hx (k0_off209 i) (k0_off209_inb i) (numel1_S1.symm ▸ Nat.one_pos)
  unfold k0_chk105
  exact ⟨fun a => rowFits _ h a, fun a => rowFits _ h a⟩

theorem chk106_of_table (i : grid0.Coords) (arg1 : Memref sig .tc .smem S8192 .i32) (harg1 : arg1.IsWhole)
    (x0 : Vec F S8192 .i32) (hx : ∀ k : S8192.Idx, (x0 k).toNat < 16384) :
    k0_chk106 (arg1.view.readAt (Elt F) (Rect.unit (s := S8192) (k0_off211 i) S1.size (k0_off211_inb i)).toLoadRect (harg1.unread x0) (Shape.Idx.first (numel1_S1.symm ▸ Nat.one_pos))) := by
  have h := word_lt arg1 harg1 x0 hx (k0_off211 i) (k0_off211_inb i) (numel1_S1.symm ▸ Nat.one_pos)
  unfold k0_chk106
  exact ⟨fun a => rowFits _ h a, fun a => rowFits _ h a⟩

theorem chk107_of_table (i : grid0.Coords) (arg1 : Memref sig .tc .smem S8192 .i32) (harg1 : arg1.IsWhole)
    (x0 : Vec F S8192 .i32) (hx : ∀ k : S8192.Idx, (x0 k).toNat < 16384) :
    k0_chk107 (arg1.view.readAt (Elt F) (Rect.unit (s := S8192) (k0_off213 i) S1.size (k0_off213_inb i)).toLoadRect (harg1.unread x0) (Shape.Idx.first (numel1_S1.symm ▸ Nat.one_pos))) := by
  have h := word_lt arg1 harg1 x0 hx (k0_off213 i) (k0_off213_inb i) (numel1_S1.symm ▸ Nat.one_pos)
  unfold k0_chk107
  exact ⟨fun a => rowFits _ h a, fun a => rowFits _ h a⟩

theorem chk108_of_table (i : grid0.Coords) (arg1 : Memref sig .tc .smem S8192 .i32) (harg1 : arg1.IsWhole)
    (x0 : Vec F S8192 .i32) (hx : ∀ k : S8192.Idx, (x0 k).toNat < 16384) :
    k0_chk108 (arg1.view.readAt (Elt F) (Rect.unit (s := S8192) (k0_off215 i) S1.size (k0_off215_inb i)).toLoadRect (harg1.unread x0) (Shape.Idx.first (numel1_S1.symm ▸ Nat.one_pos))) := by
  have h := word_lt arg1 harg1 x0 hx (k0_off215 i) (k0_off215_inb i) (numel1_S1.symm ▸ Nat.one_pos)
  unfold k0_chk108
  exact ⟨fun a => rowFits _ h a, fun a => rowFits _ h a⟩

theorem chk109_of_table (i : grid0.Coords) (arg1 : Memref sig .tc .smem S8192 .i32) (harg1 : arg1.IsWhole)
    (x0 : Vec F S8192 .i32) (hx : ∀ k : S8192.Idx, (x0 k).toNat < 16384) :
    k0_chk109 (arg1.view.readAt (Elt F) (Rect.unit (s := S8192) (k0_off217 i) S1.size (k0_off217_inb i)).toLoadRect (harg1.unread x0) (Shape.Idx.first (numel1_S1.symm ▸ Nat.one_pos))) := by
  have h := word_lt arg1 harg1 x0 hx (k0_off217 i) (k0_off217_inb i) (numel1_S1.symm ▸ Nat.one_pos)
  unfold k0_chk109
  exact ⟨fun a => rowFits _ h a, fun a => rowFits _ h a⟩

theorem chk110_of_table (i : grid0.Coords) (arg1 : Memref sig .tc .smem S8192 .i32) (harg1 : arg1.IsWhole)
    (x0 : Vec F S8192 .i32) (hx : ∀ k : S8192.Idx, (x0 k).toNat < 16384) :
    k0_chk110 (arg1.view.readAt (Elt F) (Rect.unit (s := S8192) (k0_off219 i) S1.size (k0_off219_inb i)).toLoadRect (harg1.unread x0) (Shape.Idx.first (numel1_S1.symm ▸ Nat.one_pos))) := by
  have h := word_lt arg1 harg1 x0 hx (k0_off219 i) (k0_off219_inb i) (numel1_S1.symm ▸ Nat.one_pos)
  unfold k0_chk110
  exact ⟨fun a => rowFits _ h a, fun a => rowFits _ h a⟩

theorem chk111_of_table (i : grid0.Coords) (arg1 : Memref sig .tc .smem S8192 .i32) (harg1 : arg1.IsWhole)
    (x0 : Vec F S8192 .i32) (hx : ∀ k : S8192.Idx, (x0 k).toNat < 16384) :
    k0_chk111 (arg1.view.readAt (Elt F) (Rect.unit (s := S8192) (k0_off221 i) S1.size (k0_off221_inb i)).toLoadRect (harg1.unread x0) (Shape.Idx.first (numel1_S1.symm ▸ Nat.one_pos))) := by
  have h := word_lt arg1 harg1 x0 hx (k0_off221 i) (k0_off221_inb i) (numel1_S1.symm ▸ Nat.one_pos)
  unfold k0_chk111
  exact ⟨fun a => rowFits _ h a, fun a => rowFits _ h a⟩

theorem chk112_of_table (i : grid0.Coords) (arg1 : Memref sig .tc .smem S8192 .i32) (harg1 : arg1.IsWhole)
    (x0 : Vec F S8192 .i32) (hx : ∀ k : S8192.Idx, (x0 k).toNat < 16384) :
    k0_chk112 (arg1.view.readAt (Elt F) (Rect.unit (s := S8192) (k0_off223 i) S1.size (k0_off223_inb i)).toLoadRect (harg1.unread x0) (Shape.Idx.first (numel1_S1.symm ▸ Nat.one_pos))) := by
  have h := word_lt arg1 harg1 x0 hx (k0_off223 i) (k0_off223_inb i) (numel1_S1.symm ▸ Nat.one_pos)
  unfold k0_chk112
  exact ⟨fun a => rowFits _ h a, fun a => rowFits _ h a⟩

theorem chk113_of_table (i : grid0.Coords) (arg1 : Memref sig .tc .smem S8192 .i32) (harg1 : arg1.IsWhole)
    (x0 : Vec F S8192 .i32) (hx : ∀ k : S8192.Idx, (x0 k).toNat < 16384) :
    k0_chk113 (arg1.view.readAt (Elt F) (Rect.unit (s := S8192) (k0_off225 i) S1.size (k0_off225_inb i)).toLoadRect (harg1.unread x0) (Shape.Idx.first (numel1_S1.symm ▸ Nat.one_pos))) := by
  have h := word_lt arg1 harg1 x0 hx (k0_off225 i) (k0_off225_inb i) (numel1_S1.symm ▸ Nat.one_pos)
  unfold k0_chk113
  exact ⟨fun a => rowFits _ h a, fun a => rowFits _ h a⟩

theorem chk114_of_table (i : grid0.Coords) (arg1 : Memref sig .tc .smem S8192 .i32) (harg1 : arg1.IsWhole)
    (x0 : Vec F S8192 .i32) (hx : ∀ k : S8192.Idx, (x0 k).toNat < 16384) :
    k0_chk114 (arg1.view.readAt (Elt F) (Rect.unit (s := S8192) (k0_off227 i) S1.size (k0_off227_inb i)).toLoadRect (harg1.unread x0) (Shape.Idx.first (numel1_S1.symm ▸ Nat.one_pos))) := by
  have h := word_lt arg1 harg1 x0 hx (k0_off227 i) (k0_off227_inb i) (numel1_S1.symm ▸ Nat.one_pos)
  unfold k0_chk114
  exact ⟨fun a => rowFits _ h a, fun a => rowFits _ h a⟩

theorem chk115_of_table (i : grid0.Coords) (arg1 : Memref sig .tc .smem S8192 .i32) (harg1 : arg1.IsWhole)
    (x0 : Vec F S8192 .i32) (hx : ∀ k : S8192.Idx, (x0 k).toNat < 16384) :
    k0_chk115 (arg1.view.readAt (Elt F) (Rect.unit (s := S8192) (k0_off229 i) S1.size (k0_off229_inb i)).toLoadRect (harg1.unread x0) (Shape.Idx.first (numel1_S1.symm ▸ Nat.one_pos))) := by
  have h := word_lt arg1 harg1 x0 hx (k0_off229 i) (k0_off229_inb i) (numel1_S1.symm ▸ Nat.one_pos)
  unfold k0_chk115
  exact ⟨fun a => rowFits _ h a, fun a => rowFits _ h a⟩

theorem chk116_of_table (i : grid0.Coords) (arg1 : Memref sig .tc .smem S8192 .i32) (harg1 : arg1.IsWhole)
    (x0 : Vec F S8192 .i32) (hx : ∀ k : S8192.Idx, (x0 k).toNat < 16384) :
    k0_chk116 (arg1.view.readAt (Elt F) (Rect.unit (s := S8192) (k0_off231 i) S1.size (k0_off231_inb i)).toLoadRect (harg1.unread x0) (Shape.Idx.first (numel1_S1.symm ▸ Nat.one_pos))) := by
  have h := word_lt arg1 harg1 x0 hx (k0_off231 i) (k0_off231_inb i) (numel1_S1.symm ▸ Nat.one_pos)
  unfold k0_chk116
  exact ⟨fun a => rowFits _ h a, fun a => rowFits _ h a⟩

theorem chk117_of_table (i : grid0.Coords) (arg1 : Memref sig .tc .smem S8192 .i32) (harg1 : arg1.IsWhole)
    (x0 : Vec F S8192 .i32) (hx : ∀ k : S8192.Idx, (x0 k).toNat < 16384) :
    k0_chk117 (arg1.view.readAt (Elt F) (Rect.unit (s := S8192) (k0_off233 i) S1.size (k0_off233_inb i)).toLoadRect (harg1.unread x0) (Shape.Idx.first (numel1_S1.symm ▸ Nat.one_pos))) := by
  have h := word_lt arg1 harg1 x0 hx (k0_off233 i) (k0_off233_inb i) (numel1_S1.symm ▸ Nat.one_pos)
  unfold k0_chk117
  exact ⟨fun a => rowFits _ h a, fun a => rowFits _ h a⟩

theorem chk118_of_table (i : grid0.Coords) (arg1 : Memref sig .tc .smem S8192 .i32) (harg1 : arg1.IsWhole)
    (x0 : Vec F S8192 .i32) (hx : ∀ k : S8192.Idx, (x0 k).toNat < 16384) :
    k0_chk118 (arg1.view.readAt (Elt F) (Rect.unit (s := S8192) (k0_off235 i) S1.size (k0_off235_inb i)).toLoadRect (harg1.unread x0) (Shape.Idx.first (numel1_S1.symm ▸ Nat.one_pos))) := by
  have h := word_lt arg1 harg1 x0 hx (k0_off235 i) (k0_off235_inb i) (numel1_S1.symm ▸ Nat.one_pos)
  unfold k0_chk118
  exact ⟨fun a => rowFits _ h a, fun a => rowFits _ h a⟩

theorem chk119_of_table (i : grid0.Coords) (arg1 : Memref sig .tc .smem S8192 .i32) (harg1 : arg1.IsWhole)
    (x0 : Vec F S8192 .i32) (hx : ∀ k : S8192.Idx, (x0 k).toNat < 16384) :
    k0_chk119 (arg1.view.readAt (Elt F) (Rect.unit (s := S8192) (k0_off237 i) S1.size (k0_off237_inb i)).toLoadRect (harg1.unread x0) (Shape.Idx.first (numel1_S1.symm ▸ Nat.one_pos))) := by
  have h := word_lt arg1 harg1 x0 hx (k0_off237 i) (k0_off237_inb i) (numel1_S1.symm ▸ Nat.one_pos)
  unfold k0_chk119
  exact ⟨fun a => rowFits _ h a, fun a => rowFits _ h a⟩

theorem chk120_of_table (i : grid0.Coords) (arg1 : Memref sig .tc .smem S8192 .i32) (harg1 : arg1.IsWhole)
    (x0 : Vec F S8192 .i32) (hx : ∀ k : S8192.Idx, (x0 k).toNat < 16384) :
    k0_chk120 (arg1.view.readAt (Elt F) (Rect.unit (s := S8192) (k0_off239 i) S1.size (k0_off239_inb i)).toLoadRect (harg1.unread x0) (Shape.Idx.first (numel1_S1.symm ▸ Nat.one_pos))) := by
  have h := word_lt arg1 harg1 x0 hx (k0_off239 i) (k0_off239_inb i) (numel1_S1.symm ▸ Nat.one_pos)
  unfold k0_chk120
  exact ⟨fun a => rowFits _ h a, fun a => rowFits _ h a⟩

theorem chk121_of_table (i : grid0.Coords) (arg1 : Memref sig .tc .smem S8192 .i32) (harg1 : arg1.IsWhole)
    (x0 : Vec F S8192 .i32) (hx : ∀ k : S8192.Idx, (x0 k).toNat < 16384) :
    k0_chk121 (arg1.view.readAt (Elt F) (Rect.unit (s := S8192) (k0_off241 i) S1.size (k0_off241_inb i)).toLoadRect (harg1.unread x0) (Shape.Idx.first (numel1_S1.symm ▸ Nat.one_pos))) := by
  have h := word_lt arg1 harg1 x0 hx (k0_off241 i) (k0_off241_inb i) (numel1_S1.symm ▸ Nat.one_pos)
  unfold k0_chk121
  exact ⟨fun a => rowFits _ h a, fun a => rowFits _ h a⟩

theorem chk122_of_table (i : grid0.Coords) (arg1 : Memref sig .tc .smem S8192 .i32) (harg1 : arg1.IsWhole)
    (x0 : Vec F S8192 .i32) (hx : ∀ k : S8192.Idx, (x0 k).toNat < 16384) :
    k0_chk122 (arg1.view.readAt (Elt F) (Rect.unit (s := S8192) (k0_off243 i) S1.size (k0_off243_inb i)).toLoadRect (harg1.unread x0) (Shape.Idx.first (numel1_S1.symm ▸ Nat.one_pos))) := by
  have h := word_lt arg1 harg1 x0 hx (k0_off243 i) (k0_off243_inb i) (numel1_S1.symm ▸ Nat.one_pos)
  unfold k0_chk122
  exact ⟨fun a => rowFits _ h a, fun a => rowFits _ h a⟩

theorem chk123_of_table (i : grid0.Coords) (arg1 : Memref sig .tc .smem S8192 .i32) (harg1 : arg1.IsWhole)
    (x0 : Vec F S8192 .i32) (hx : ∀ k : S8192.Idx, (x0 k).toNat < 16384) :
    k0_chk123 (arg1.view.readAt (Elt F) (Rect.unit (s := S8192) (k0_off245 i) S1.size (k0_off245_inb i)).toLoadRect (harg1.unread x0) (Shape.Idx.first (numel1_S1.symm ▸ Nat.one_pos))) := by
  have h := word_lt arg1 harg1 x0 hx (k0_off245 i) (k0_off245_inb i) (numel1_S1.symm ▸ Nat.one_pos)
  unfold k0_chk123
  exact ⟨fun a => rowFits _ h a, fun a => rowFits _ h a⟩

theorem chk124_of_table (i : grid0.Coords) (arg1 : Memref sig .tc .smem S8192 .i32) (harg1 : arg1.IsWhole)
    (x0 : Vec F S8192 .i32) (hx : ∀ k : S8192.Idx, (x0 k).toNat < 16384) :
    k0_chk124 (arg1.view.readAt (Elt F) (Rect.unit (s := S8192) (k0_off247 i) S1.size (k0_off247_inb i)).toLoadRect (harg1.unread x0) (Shape.Idx.first (numel1_S1.symm ▸ Nat.one_pos))) := by
  have h := word_lt arg1 harg1 x0 hx (k0_off247 i) (k0_off247_inb i) (numel1_S1.symm ▸ Nat.one_pos)
  unfold k0_chk124
  exact ⟨fun a => rowFits _ h a, fun a => rowFits _ h a⟩

theorem chk125_of_table (i : grid0.Coords) (arg1 : Memref sig .tc .smem S8192 .i32) (harg1 : arg1.IsWhole)
    (x0 : Vec F S8192 .i32) (hx : ∀ k : S8192.Idx, (x0 k).toNat < 16384) :
    k0_chk125 (arg1.view.readAt (Elt F) (Rect.unit (s := S8192) (k0_off249 i) S1.size (k0_off249_inb i)).toLoadRect (harg1.unread x0) (Shape.Idx.first (numel1_S1.symm ▸ Nat.one_pos))) := by
  have h := word_lt arg1 harg1 x0 hx (k0_off249 i) (k0_off249_inb i) (numel1_S1.symm ▸ Nat.one_pos)
  unfold k0_chk125
  exact ⟨fun a => rowFits _ h a, fun a => rowFits _ h a⟩

theorem chk126_of_table (i : grid0.Coords) (arg1 : Memref sig .tc .smem S8192 .i32) (harg1 : arg1.IsWhole)
    (x0 : Vec F S8192 .i32) (hx : ∀ k : S8192.Idx, (x0 k).toNat < 16384) :
    k0_chk126 (arg1.view.readAt (Elt F) (Rect.unit (s := S8192) (k0_off251 i) S1.size (k0_off251_inb i)).toLoadRect (harg1.unread x0) (Shape.Idx.first (numel1_S1.symm ▸ Nat.one_pos))) := by
  have h := word_lt arg1 harg1 x0 hx (k0_off251 i) (k0_off251_inb i) (numel1_S1.symm ▸ Nat.one_pos)
  unfold k0_chk126
  exact ⟨fun a => rowFits _ h a, fun a => rowFits _ h a⟩

theorem chk127_of_table (i : grid0.Coords) (arg1 : Memref sig .tc .smem S8192 .i32) (harg1 : arg1.IsWhole)
    (x0 : Vec F S8192 .i32) (hx : ∀ k : S8192.Idx, (x0 k).toNat < 16384) :
    k0_chk127 (arg1.view.readAt (Elt F) (Rect.unit (s := S8192) (k0_off253 i) S1.size (k0_off253_inb i)).toLoadRect (harg1.unread x0) (Shape.Idx.first (numel1_S1.symm ▸ Nat.one_pos))) := by
  have h := word_lt arg1 harg1 x0 hx (k0_off253 i) (k0_off253_inb i) (numel1_S1.symm ▸ Nat.one_pos)
  unfold k0_chk127
  exact ⟨fun a => rowFits _ h a, fun a => rowFits _ h a⟩

theorem chk128_of_table (i : grid0.Coords) (arg1 : Memref sig .tc .smem S8192 .i32) (harg1 : arg1.IsWhole)
    (x0 : Vec F S8192 .i32) (hx : ∀ k : S8192.Idx, (x0 k).toNat < 16384) :
    k0_chk128 (arg1.view.readAt (Elt F) (Rect.unit (s := S8192) (k0_off255 i) S1.size (k0_off255_inb i)).toLoadRect (harg1.unread x0) (Shape.Idx.first (numel1_S1.symm ▸ Nat.one_pos))) := by
  have h := word_lt arg1 harg1 x0 hx (k0_off255 i) (k0_off255_inb i) (numel1_S1.symm ▸ Nat.one_pos)
  unfold k0_chk128
  exact fun a => rowFits _ h a

end Cert.KernelIdeal.Hand

end
-- ==== Proof.KI.GatherLem.lean ====
/-
  Holding a 128×4096 buffer row by row, and one array through 128 shares: the two ways of dividing what is held that let
  128 row copies be in flight at once — each copy takes its own row of the scratch buffer (rows are disjoint and cover it)
  and its own positive share of the array it reads (the full share halved along a chain; two copies may read one row).
-/
import proofs.«172148_j16612933501330_2_alg».proof.Proof.Gen.KernelIdeal.Launch
import proofs.«172148_j16612933501330_2_alg».proof.Proof.Gen.KernelIdeal.Skeleton
import proofs.«172148_j16612933501330_2_alg».proof.Proof.Gen.KernelIdeal.Points
import proofs.«172148_j16612933501330_2_alg».proof.Proof.KI.Rows
import proofs.«172148_j16612933501330_2_alg».proof.Proof.KI.Checks
import proofs.«172148_j16612933501330_2_alg».proof.Proof.LibShareChain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.LibShareChain
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## Conjunctions over the 128 rows, written out -/

set_option maxRecDepth 100000 in
/-- A conjunction over the 128 indices, index by index. -/
theorem bigSep128 {M : Type} [URA M] (Φ : Fin 128 → sProp M) :
    bigSep Finset.univ Φ = iprop(Φ (0 : Fin 128) ∗ Φ (1 : Fin 128) ∗ Φ (2 : Fin 128) ∗ Φ (3 : Fin 128) ∗ Φ (4 : Fin 128) ∗ Φ (5 : Fin 128) ∗ Φ (6 : Fin 128) ∗ Φ (7 : Fin 128) ∗ Φ (8 : Fin 128) ∗ Φ (9 : Fin 128) ∗ Φ (10 : Fin 128) ∗ Φ (11 : Fin 128) ∗ Φ (12 : Fin 128) ∗ Φ (13 : Fin 128) ∗ Φ (14 : Fin 128) ∗ Φ (15 : Fin 128) ∗ Φ (16 : Fin 128) ∗ Φ (17 : Fin 128) ∗ Φ (18 : Fin 128) ∗ Φ (19 : Fin 128) ∗ Φ (20 : Fin 128) ∗ Φ (21 : Fin 128) ∗ Φ (22 : Fin 128) ∗ Φ (23 : Fin 128) ∗ Φ (24 : Fin 128) ∗ Φ (25 : Fin 128) ∗ Φ (26 : Fin 128) ∗ Φ (27 : Fin 128) ∗ Φ (28 : Fin 128) ∗ Φ (29 : Fin 128) ∗ Φ (30 : Fin 128) ∗ Φ (31 : Fin 128) ∗ Φ (32 : Fin 128) ∗ Φ (33 : Fin 128) ∗ Φ (34 : Fin 128) ∗ Φ (35 : Fin 128) ∗ Φ (36 : Fin 128) ∗ Φ (37 : Fin 128) ∗ Φ (38 : Fin 128) ∗ Φ (39 : Fin 128) ∗ Φ (40 : Fin 128) ∗ Φ (41 : Fin 128) ∗ Φ (42 : Fin 128) ∗ Φ (43 : Fin 128) ∗ Φ (44 : Fin 128) ∗ Φ (45 : Fin 128) ∗ Φ (46 : Fin 128) ∗ Φ (47 : Fin 128) ∗ Φ (48 : Fin 128) ∗ Φ (49 : Fin 128) ∗ Φ (50 : Fin 128) ∗ Φ (51 : Fin 128) ∗ Φ (52 : Fin 128) ∗ Φ (53 : Fin 128) ∗ Φ (54 : Fin 128) ∗ Φ (55 : Fin 128) ∗ Φ (56 : Fin 128) ∗ Φ (57 : Fin 128) ∗ Φ (58 : Fin 128) ∗ Φ (59 : Fin 128) ∗ Φ (60 : Fin 128) ∗ Φ (61 : Fin 128) ∗ Φ (62 : Fin 128) ∗ Φ (63 : Fin 128) ∗ Φ (64 : Fin 128) ∗ Φ (65 : Fin 128) ∗ Φ (66 : Fin 128) ∗ Φ (67 : Fin 128) ∗ Φ (68 : Fin 128) ∗ Φ (69 : Fin 128) ∗ Φ (70 : Fin 128) ∗ Φ (71 : Fin 128) ∗ Φ (72 : Fin 128) ∗ Φ (73 : Fin 128) ∗ Φ (74 : Fin 128) ∗ Φ (75 : Fin 128) ∗ Φ (76 : Fin 128) ∗ Φ (77 : Fin 128) ∗ Φ (78 : Fin 128) ∗ Φ (79 : Fin 128) ∗ Φ (80 : Fin 128) ∗ Φ (81 : Fin 128) ∗ Φ (82 : Fin 128) ∗ Φ (83 : Fin 128) ∗ Φ (84 : Fin 128) ∗ Φ (85 : Fin 128) ∗ Φ (86 : Fin 128) ∗ Φ (87 : Fin 128) ∗ Φ (88 : Fin 128) ∗ Φ (89 : Fin 128) ∗ Φ (90 : Fin 128) ∗ Φ (91 : Fin 128) ∗ Φ (92 : Fin 128) ∗ Φ (93 : Fin 128) ∗ Φ (94 : Fin 128) ∗ Φ (95 : Fin 128) ∗ Φ (96 : Fin 128) ∗ Φ (97 : Fin 128) ∗ Φ (98 : Fin 128) ∗ Φ (99 : Fin 128) ∗ Φ (100 : Fin 128) ∗ Φ (101 : Fin 128) ∗ Φ (102 : Fin 128) ∗ Φ (103 : Fin 128) ∗ Φ (104 : Fin 128) ∗ Φ (105 : Fin 128) ∗ Φ (106 : Fin 128) ∗ Φ (107 : Fin 128) ∗ Φ (108 : Fin 128) ∗ Φ (109 : Fin 128) ∗ Φ (110 : Fin 128) ∗ Φ (111 : Fin 128) ∗ Φ (112 : Fin 128) ∗ Φ (113 : Fin 128) ∗ Φ (114 : Fin 128) ∗ Φ (115 : Fin 128) ∗ Φ (116 : Fin 128) ∗ Φ (117 : Fin 128) ∗ Φ (118 : Fin 128) ∗ Φ (119 : Fin 128) ∗ Φ (120 : Fin 128) ∗ Φ (121 : Fin 128) ∗ Φ (122 : Fin 128) ∗ Φ (123 : Fin 128) ∗ Φ (124 : Fin 128) ∗ Φ (125 : Fin 128) ∗ Φ (126 : Fin 128) ∗ Φ (127 : Fin 128)) :=
  bigSep_univ_eq_bigSepL [(0 : Fin 128), (1 : Fin 128), (2 : Fin 128), (3 : Fin 128), (4 : Fin 128), (5 : Fin 128), (6 : Fin 128), (7 : Fin 128), (8 : Fin 128), (9 : Fin 128), (10 : Fin 128), (11 : Fin 128), (12 : Fin 128), (13 : Fin 128), (14 : Fin 128), (15 : Fin 128), (16 : Fin 128), (17 : Fin 128), (18 : Fin 128), (19 : Fin 128), (20 : Fin 128), (21 : Fin 128), (22 : Fin 128), (23 : Fin 128), (24 : Fin 128), (25 : Fin 128), (26 : Fin 128), (27 : Fin 128), (28 : Fin 128), (29 : Fin 128), (30 : Fin 128), (31 : Fin 128), (32 : Fin 128), (33 : Fin 128), (34 : Fin 128), (35 : Fin 128), (36 : Fin 128), (37 : Fin 128), (38 : Fin 128), (39 : Fin 128), (40 : Fin 128), (41 : Fin 128), (42 : Fin 128), (43 : Fin 128), (44 : Fin 128), (45 : Fin 128), (46 : Fin 128), (47 : Fin 128), (48 : Fin 128), (49 : Fin 128), (50 : Fin 128), (51 : Fin 128), (52 : Fin 128), (53 : Fin 128), (54 : Fin 128), (55 : Fin 128), (56 : Fin 128), (57 : Fin 128), (58 : Fin 128), (59 : Fin 128), (60 : Fin 128), (61 : Fin 128), (62 : Fin 128), (63 : Fin 128), (64 : Fin 128), (65 : Fin 128), (66 : Fin 128), (67 : Fin 128), (68 : Fin 128), (69 : Fin 128), (70 : Fin 128), (71 : Fin 128), (72 : Fin 128), (73 : Fin 128), (74 : Fin 128), (75 : Fin 128), (76 : Fin 128), (77 : Fin 128), (78 : Fin 128), (79 : Fin 128), (80 : Fin 128), (81 : Fin 128), (82 : Fin 128), (83 : Fin 128), (84 : Fin 128), (85 : Fin 128), (86 : Fin 128), (87 : Fin 128), (88 : Fin 128), (89 : Fin 128), (90 : Fin 128), (91 : Fin 128), (92 : Fin 128), (93 : Fin 128), (94 : Fin 128), (95 : Fin 128), (96 : Fin 128), (97 : Fin 128), (98 : Fin 128), (99 : Fin 128), (100 : Fin 128), (101 : Fin 128), (102 : Fin 128), (103 : Fin 128), (104 : Fin 128), (105 : Fin 128), (106 : Fin 128), (107 : Fin 128), (108 : Fin 128), (109 : Fin 128), (110 : Fin 128), (111 : Fin 128), (112 : Fin 128), (113 : Fin 128), (114 : Fin 128), (115 : Fin 128), (116 : Fin 128), (117 : Fin 128), (118 : Fin 128), (119 : Fin 128), (120 : Fin 128), (121 : Fin 128), (122 : Fin 128), (123 : Fin 128), (124 : Fin 128), (125 : Fin 128), (126 : Fin 128), (127 : Fin 128)] (by decide +kernel) (by decide +kernel) Φ

/-! ## The scratch buffer held row by row -/

/-- The elements of a whole 128×4096 view are those of its rows. -/
theorem setOn_rows (v : View sig .tc .vmem S128x4096 .f32) :
    v.set = (Finset.univ : Finset (Fin 128)).biUnion fun r => v.setOn (rowRect r).set := by
  rw [← View.setOn_univ, ← rows_cover]
  ext i
  simp only [View.setOn, Finset.mem_map, Finset.mem_biUnion, Finset.mem_univ, true_and]
  constructor
  · rintro ⟨y, ⟨r, hy⟩, rfl⟩; exact ⟨r, y, hy, rfl⟩
  · rintro ⟨r, y, hy, rfl⟩; exact ⟨y, ⟨r, hy⟩, rfl⟩

/-- Holding the view whole at `f` is holding each of its rows at `f`. -/
theorem scratch_rows (c : Dev nD) (v : View sig .tc .vmem S128x4096 .f32) (q : PosShare TreeShare) (f : Buf (Elt F) (v.loc (c : Thread nD τ))) :
    (v.loc (c : Thread nD τ) ↦[v.set]{q} f : sProp 𝕄)
      = bigSep (Finset.univ : Finset (Fin 128)) fun r => (v.loc (c : Thread nD τ) ↦[v.setOn (rowRect r).set]{q} f : sProp 𝕄) := by
  rw [setOn_rows v]
  exact pointsTo_biUnion _ _ fun r _ r' _ h => v.disjoint_setOn (rows_disjoint r r' h)

/-- The buffer that holds on row `r` what `fs r` holds there. -/
def rowsBuf (c : Dev nD) (v : View sig .tc .vmem S128x4096 .f32) (fs : Fin 128 → Buf (Elt F) (v.loc (c : Thread nD τ))) :
    Buf (Elt F) (v.loc (c : Thread nD τ)) :=
  fun i => match preimage? v.emb i with
    | some y => fs ⟨(y 0).val, (y 0).isLt⟩ i
    | none => fs 0 i

/-- At an element of row `r` it is `fs r`. -/
theorem rowsBuf_emb (c : Dev nD) (v : View sig .tc .vmem S128x4096 .f32) (fs : Fin 128 → Buf (Elt F) (v.loc (c : Thread nD τ)))
    (y : S128x4096.Idx) : rowsBuf c v fs (v.emb y) = fs ⟨(y 0).val, (y 0).isLt⟩ (v.emb y) := by
  unfold rowsBuf; rw [preimage?_emb]

/-- Where every row's buffer agrees with `g` on that row, the joined buffer agrees with `g` on all of them. -/
theorem rows_agree (c : Dev nD) (v : View sig .tc .vmem S128x4096 .f32) (fs : Fin 128 → Buf (Elt F) (v.loc (c : Thread nD τ)))
    (g : Buf (Elt F) (v.loc (c : Thread nD τ)))
    (hg : ∀ r ∈ (Finset.univ : Finset (Fin 128)), ∀ i ∈ v.setOn (rowRect r).set, g i = fs r i) :
    ∀ i ∈ (Finset.univ : Finset (Fin 128)).biUnion (fun r => v.setOn (rowRect r).set), rowsBuf c v fs i = g i := by
  intro i hi
  obtain ⟨r, -, hir⟩ := Finset.mem_biUnion.mp hi
  obtain ⟨y, hy, rfl⟩ := Finset.mem_map.mp hir
  rw [rowsBuf_emb]
  have e : (⟨(y 0).val, (y 0).isLt⟩ : Fin 128) = r := Fin.ext ((mem_rowRect r y).mp hy)
  rw [e]
  exact (hg r (Finset.mem_univ _) _ hir).symm

section
attribute [local irreducible] rowRect
/-- Rows held each at its own contents are the view held whole at the buffer joining them. -/
theorem rows_join (c : Dev nD) (v : View sig .tc .vmem S128x4096 .f32) (q : PosShare TreeShare) (fs : Fin 128 → Buf (Elt F) (v.loc (c : Thread nD τ))) :
    (bigSep (Finset.univ : Finset (Fin 128)) fun r => (v.loc (c : Thread nD τ) ↦[v.setOn (rowRect r).set]{q} fs r : sProp 𝕄))
      ⊢ (v.loc (c : Thread nD τ) ↦[v.set]{q} rowsBuf c v fs : sProp 𝕄) := by
  have hset : (v.loc (c : Thread nD τ) ↦[v.set]{q} rowsBuf c v fs : sProp 𝕄)
      = (v.loc (c : Thread nD τ) ↦[(Finset.univ : Finset (Fin 128)).biUnion (fun r => v.setOn (rowRect r).set)]{q} rowsBuf c v fs : sProp 𝕄) :=
    congrArg (fun S => (v.loc (c : Thread nD τ) ↦[S]{q} rowsBuf c v fs : sProp 𝕄)) (setOn_rows v)
  rw [hset]
  iintro H
  ihave H' := (pointsTo_biUnion_join Finset.univ (fun r => v.setOn (rowRect r).set) fs (fs 0)
    (fun r _ r' _ h => v.disjoint_setOn (rows_disjoint r r' h))) $$ H
  icases H' with ⟨%g, %hg, H⟩
  rw [pointsTo_congr (f := rowsBuf c v fs) (g := g) (rows_agree c v fs g hg)]
  iexact H
end

set_option maxHeartbeats 8000000 in
/-- The same, the rows listed one by one. -/
theorem scratch_rows128 (c : Dev nD) (arg4 : Memref sig .tc .vmem S128x4096 .f32) (f : Buf (Elt F) (arg4.view.loc (c : Thread nD τ))) :
    (arg4.view.loc (c : Thread nD τ) ↦[arg4.view.set]{fullShare} f : sProp 𝕄)
      = iprop((arg4.view.loc (c : Thread nD τ) ↦[arg4.view.setOn (Rect.unit (s := S128x4096) ![0, 0] S1x4096.size inb_S128x4096_S1x4096_0_0).set]{fullShare} f) ∗ (arg4.view.loc (c : Thread nD τ) ↦[arg4.view.setOn (Rect.unit (s := S128x4096) ![1, 0] S1x4096.size inb_S128x4096_S1x4096_1_0).set]{fullShare} f) ∗ (arg4.view.loc (c : Thread nD τ) ↦[arg4.view.setOn (Rect.unit (s := S128x4096) ![2, 0] S1x4096.size inb_S128x4096_S1x4096_2_0).set]{fullShare} f) ∗ (arg4.view.loc (c : Thread nD τ) ↦[arg4.view.setOn (Rect.unit (s := S128x4096) ![3, 0] S1x4096.size inb_S128x4096_S1x4096_3_0).set]{fullShare} f) ∗ (arg4.view.loc (c : Thread nD τ) ↦[arg4.view.setOn (Rect.unit (s := S128x4096) ![4, 0] S1x4096.size inb_S128x4096_S1x4096_4_0).set]{fullShare} f) ∗ (arg4.view.loc (c : Thread nD τ) ↦[arg4.view.setOn (Rect.unit (s := S128x4096) ![5, 0] S1x4096.size inb_S128x4096_S1x4096_5_0).set]{fullShare} f) ∗ (arg4.view.loc (c : Thread nD τ) ↦[arg4.view.setOn (Rect.unit (s := S128x4096) ![6, 0] S1x4096.size inb_S128x4096_S1x4096_6_0).set]{fullShare} f) ∗ (arg4.view.loc (c : Thread nD τ) ↦[arg4.view.setOn (Rect.unit (s := S128x4096) ![7, 0] S1x4096.size inb_S128x4096_S1x4096_7_0).set]{fullShare} f) ∗ (arg4.view.loc (c : Thread nD τ) ↦[arg4.view.setOn (Rect.unit (s := S128x4096) ![8, 0] S1x4096.size inb_S128x4096_S1x4096_8_0).set]{fullShare} f) ∗ (arg4.view.loc (c : Thread nD τ) ↦[arg4.view.setOn (Rect.unit (s := S128x4096) ![9, 0] S1x4096.size inb_S128x4096_S1x4096_9_0).set]{fullShare} f) ∗ (arg4.view.loc (c : Thread nD τ) ↦[arg4.view.setOn (Rect.unit (s := S128x4096) ![10, 0] S1x4096.size inb_S128x4096_S1x4096_10_0).set]{fullShare} f) ∗ (arg4.view.loc (c : Thread nD τ) ↦[arg4.view.setOn (Rect.unit (s := S128x4096) ![11, 0] S1x4096.size inb_S128x4096_S1x4096_11_0).set]{fullShare} f) ∗ (arg4.view.loc (c : Thread nD τ) ↦[arg4.view.setOn (Rect.unit (s := S128x4096) ![12, 0] S1x4096.size inb_S128x4096_S1x4096_12_0).set]{fullShare} f) ∗ (arg4.view.loc (c : Thread nD τ) ↦[arg4.view.setOn (Rect.unit (s := S128x4096) ![13, 0] S1x4096.size inb_S128x4096_S1x4096_13_0).set]{fullShare} f) ∗ (arg4.view.loc (c : Thread nD τ) ↦[arg4.view.setOn (Rect.unit (s := S128x4096) ![14, 0] S1x4096.size inb_S128x4096_S1x4096_14_0).set]{fullShare} f) ∗ (arg4.view.loc (c : Thread nD τ) ↦[arg4.view.setOn (Rect.unit (s := S128x4096) ![15, 0] S1x4096.size inb_S128x4096_S1x4096_15_0).set]{fullShare} f) ∗ (arg4.view.loc (c : Thread nD τ) ↦[arg4.view.setOn (Rect.unit (s := S128x4096) ![16, 0] S1x4096.size inb_S128x4096_S1x4096_16_0).set]{fullShare} f) ∗ (arg4.view.loc (c : Thread nD τ) ↦[arg4.view.setOn (Rect.unit (s := S128x4096) ![17, 0] S1x4096.size inb_S128x4096_S1x4096_17_0).set]{fullShare} f) ∗ (arg4.view.loc (c : Thread nD τ) ↦[arg4.view.setOn (Rect.unit (s := S128x4096) ![18, 0] S1x4096.size inb_S128x4096_S1x4096_18_0).set]{fullShare} f) ∗ (arg4.view.loc (c : Thread nD τ) ↦[arg4.view.setOn (Rect.unit (s := S128x4096) ![19, 0] S1x4096.size inb_S128x4096_S1x4096_19_0).set]{fullShare} f) ∗ (arg4.view.loc (c : Thread nD τ) ↦[arg4.view.setOn (Rect.unit (s := S128x4096) ![20, 0] S1x4096.size inb_S128x4096_S1x4096_20_0).set]{fullShare} f) ∗ (arg4.view.loc (c : Thread nD τ) ↦[arg4.view.setOn (Rect.unit (s := S128x4096) ![21, 0] S1x4096.size inb_S128x4096_S1x4096_21_0).set]{fullShare} f) ∗ (arg4.view.loc (c : Thread nD τ) ↦[arg4.view.setOn (Rect.unit (s := S128x4096) ![22, 0] S1x4096.size inb_S128x4096_S1x4096_22_0).set]{fullShare} f) ∗ (arg4.view.loc (c : Thread nD τ) ↦[arg4.view.setOn (Rect.unit (s := S128x4096) ![23, 0] S1x4096.size inb_S128x4096_S1x4096_23_0).set]{fullShare} f) ∗ (arg4.view.loc (c : Thread nD τ) ↦[arg4.view.setOn (Rect.unit (s := S128x4096) ![24, 0] S1x4096.size inb_S128x4096_S1x4096_24_0).set]{fullShare} f) ∗ (arg4.view.loc (c : Thread nD τ) ↦[arg4.view.setOn (Rect.unit (s := S128x4096) ![25, 0] S1x4096.size inb_S128x4096_S1x4096_25_0).set]{fullShare} f) ∗ (arg4.view.loc (c : Thread nD τ) ↦[arg4.view.setOn (Rect.unit (s := S128x4096) ![26, 0] S1x4096.size inb_S128x4096_S1x4096_26_0).set]{fullShare} f) ∗ (arg4.view.loc (c : Thread nD τ) ↦[arg4.view.setOn (Rect.unit (s := S128x4096) ![27, 0] S1x4096.size inb_S128x4096_S1x4096_27_0).set]{fullShare} f) ∗ (arg4.view.loc (c : Thread nD τ) ↦[arg4.view.setOn (Rect.unit (s := S128x4096) ![28, 0] S1x4096.size inb_S128x4096_S1x4096_28_0).set]{fullShare} f) ∗ (arg4.view.loc (c : Thread nD τ) ↦[arg4.view.setOn (Rect.unit (s := S128x4096) ![29, 0] S1x4096.size inb_S128x4096_S1x4096_29_0).set]{fullShare} f) ∗ (arg4.view.loc (c : Thread nD τ) ↦[arg4.view.setOn (Rect.unit (s := S128x4096) ![30, 0] S1x4096.size inb_S128x4096_S1x4096_30_0).set]{fullShare} f) ∗ (arg4.view.loc (c : Thread nD τ) ↦[arg4.view.setOn (Rect.unit (s := S128x4096) ![31, 0] S1x4096.size inb_S128x4096_S1x4096_31_0).set]{fullShare} f) ∗ (arg4.view.loc (c : Thread nD τ) ↦[arg4.view.setOn (Rect.unit (s := S128x4096) ![32, 0] S1x4096.size inb_S128x4096_S1x4096_32_0).set]{fullShare} f) ∗ (arg4.view.loc (c : Thread nD τ) ↦[arg4.view.setOn (Rect.unit (s := S128x4096) ![33, 0] S1x4096.size inb_S128x4096_S1x4096_33_0).set]{fullShare} f) ∗ (arg4.view.loc (c : Thread nD τ) ↦[arg4.view.setOn (Rect.unit (s := S128x4096) ![34, 0] S1x4096.size inb_S128x4096_S1x4096_34_0).set]{fullShare} f) ∗ (arg4.view.loc (c : Thread nD τ) ↦[arg4.view.setOn (Rect.unit (s := S128x4096) ![35, 0] S1x4096.size inb_S128x4096_S1x4096_35_0).set]{fullShare} f) ∗ (arg4.view.loc (c : Thread nD τ) ↦[arg4.view.setOn (Rect.unit (s := S128x4096) ![36, 0] S1x4096.size inb_S128x4096_S1x4096_36_0).set]{fullShare} f) ∗ (arg4.view.loc (c : Thread nD τ) ↦[arg4.view.setOn (Rect.unit (s := S128x4096) ![37, 0] S1x4096.size inb_S128x4096_S1x4096_37_0).set]{fullShare} f) ∗ (arg4.view.loc (c : Thread nD τ) ↦[arg4.view.setOn (Rect.unit (s := S128x4096) ![38, 0] S1x4096.size inb_S128x4096_S1x4096_38_0).set]{fullShare} f) ∗ (arg4.view.loc (c : Thread nD τ) ↦[arg4.view.setOn (Rect.unit (s := S128x4096) ![39, 0] S1x4096.size inb_S128x4096_S1x4096_39_0).set]{fullShare} f) ∗ (arg4.view.loc (c : Thread nD τ) ↦[arg4.view.setOn (Rect.unit (s := S128x4096) ![40, 0] S1x4096.size inb_S128x4096_S1x4096_40_0).set]{fullShare} f) ∗ (arg4.view.loc (c : Thread nD τ) ↦[arg4.view.setOn (Rect.unit (s := S128x4096) ![41, 0] S1x4096.size inb_S128x4096_S1x4096_41_0).set]{fullShare} f) ∗ (arg4.view.loc (c : Thread nD τ) ↦[arg4.view.setOn (Rect.unit (s := S128x4096) ![42, 0] S1x4096.size inb_S128x4096_S1x4096_42_0).set]{fullShare} f) ∗ (arg4.view.loc (c : Thread nD τ) ↦[arg4.view.setOn (Rect.unit (s := S128x4096) ![43, 0] S1x4096.size inb_S128x4096_S1x4096_43_0).set]{fullShare} f) ∗ (arg4.view.loc (c : Thread nD τ) ↦[arg4.view.setOn (Rect.unit (s := S128x4096) ![44, 0] S1x4096.size inb_S128x4096_S1x4096_44_0).set]{fullShare} f) ∗ (arg4.view.loc (c : Thread nD τ) ↦[arg4.view.setOn (Rect.unit (s := S128x4096) ![45, 0] S1x4096.size inb_S128x4096_S1x4096_45_0).set]{fullShare} f) ∗ (arg4.view.loc (c : Thread nD τ) ↦[arg4.view.setOn (Rect.unit (s := S128x4096) ![46, 0] S1x4096.size inb_S128x4096_S1x4096_46_0).set]{fullShare} f) ∗ (arg4.view.loc (c : Thread nD τ) ↦[arg4.view.setOn (Rect.unit (s := S128x4096) ![47, 0] S1x4096.size inb_S128x4096_S1x4096_47_0).set]{fullShare} f) ∗ (arg4.view.loc (c : Thread nD τ) ↦[arg4.view.setOn (Rect.unit (s := S128x4096) ![48, 0] S1x4096.size inb_S128x4096_S1x4096_48_0).set]{fullShare} f) ∗ (arg4.view.loc (c : Thread nD τ) ↦[arg4.view.setOn (Rect.unit (s := S128x4096) ![49, 0] S1x4096.size inb_S128x4096_S1x4096_49_0).set]{fullShare} f) ∗ (arg4.view.loc (c : Thread nD τ) ↦[arg4.view.setOn (Rect.unit (s := S128x4096) ![50, 0] S1x4096.size inb_S128x4096_S1x4096_50_0).set]{fullShare} f) ∗ (arg4.view.loc (c : Thread nD τ) ↦[arg4.view.setOn (Rect.unit (s := S128x4096) ![51, 0] S1x4096.size inb_S128x4096_S1x4096_51_0).set]{fullShare} f) ∗ (arg4.view.loc (c : Thread nD τ) ↦[arg4.view.setOn (Rect.unit (s := S128x4096) ![52, 0] S1x4096.size inb_S128x4096_S1x4096_52_0).set]{fullShare} f) ∗ (arg4.view.loc (c : Thread nD τ) ↦[arg4.view.setOn (Rect.unit (s := S128x4096) ![53, 0] S1x4096.size inb_S128x4096_S1x4096_53_0).set]{fullShare} f) ∗ (arg4.view.loc (c : Thread nD τ) ↦[arg4.view.setOn (Rect.unit (s := S128x4096) ![54, 0] S1x4096.size inb_S128x4096_S1x4096_54_0).set]{fullShare} f) ∗ (arg4.view.loc (c : Thread nD τ) ↦[arg4.view.setOn (Rect.unit (s := S128x4096) ![55, 0] S1x4096.size inb_S128x4096_S1x4096_55_0).set]{fullShare} f) ∗ (arg4.view.loc (c : Thread nD τ) ↦[arg4.view.setOn (Rect.unit (s := S128x4096) ![56, 0] S1x4096.size inb_S128x4096_S1x4096_56_0).set]{fullShare} f) ∗ (arg4.view.loc (c : Thread nD τ) ↦[arg4.view.setOn (Rect.unit (s := S128x4096) ![57, 0] S1x4096.size inb_S128x4096_S1x4096_57_0).set]{fullShare} f) ∗ (arg4.view.loc (c : Thread nD τ) ↦[arg4.view.setOn (Rect.unit (s := S128x4096) ![58, 0] S1x4096.size inb_S128x4096_S1x4096_58_0).set]{fullShare} f) ∗ (arg4.view.loc (c : Thread nD τ) ↦[arg4.view.setOn (Rect.unit (s := S128x4096) ![59, 0] S1x4096.size inb_S128x4096_S1x4096_59_0).set]{fullShare} f) ∗ (arg4.view.loc (c : Thread nD τ) ↦[arg4.view.setOn (Rect.unit (s := S128x4096) ![60, 0] S1x4096.size inb_S128x4096_S1x4096_60_0).set]{fullShare} f) ∗ (arg4.view.loc (c : Thread nD τ) ↦[arg4.view.setOn (Rect.unit (s := S128x4096) ![61, 0] S1x4096.size inb_S128x4096_S1x4096_61_0).set]{fullShare} f) ∗ (arg4.view.loc (c : Thread nD τ) ↦[arg4.view.setOn (Rect.unit (s := S128x4096) ![62, 0] S1x4096.size inb_S128x4096_S1x4096_62_0).set]{fullShare} f) ∗ (arg4.view.loc (c : Thread nD τ) ↦[arg4.view.setOn (Rect.unit (s := S128x4096) ![63, 0] S1x4096.size inb_S128x4096_S1x4096_63_0).set]{fullShare} f) ∗ (arg4.view.loc (c : Thread nD τ) ↦[arg4.view.setOn (Rect.unit (s := S128x4096) ![64, 0] S1x4096.size inb_S128x4096_S1x4096_64_0).set]{fullShare} f) ∗ (arg4.view.loc (c : Thread nD τ) ↦[arg4.view.setOn (Rect.unit (s := S128x4096) ![65, 0] S1x4096.size inb_S128x4096_S1x4096_65_0).set]{fullShare} f) ∗ (arg4.view.loc (c : Thread nD τ) ↦[arg4.view.setOn (Rect.unit (s := S128x4096) ![66, 0] S1x4096.size inb_S128x4096_S1x4096_66_0).set]{fullShare} f) ∗ (arg4.view.loc (c : Thread nD τ) ↦[arg4.view.setOn (Rect.unit (s := S128x4096) ![67, 0] S1x4096.size inb_S128x4096_S1x4096_67_0).set]{fullShare} f) ∗ (arg4.view.loc (c : Thread nD τ) ↦[arg4.view.setOn (Rect.unit (s := S128x4096) ![68, 0] S1x4096.size inb_S128x4096_S1x4096_68_0).set]{fullShare} f) ∗ (arg4.view.loc (c : Thread nD τ) ↦[arg4.view.setOn (Rect.unit (s := S128x4096) ![69, 0] S1x4096.size inb_S128x4096_S1x4096_69_0).set]{fullShare} f) ∗ (arg4.view.loc (c : Thread nD τ) ↦[arg4.view.setOn (Rect.unit (s := S128x4096) ![70, 0] S1x4096.size inb_S128x4096_S1x4096_70_0).set]{fullShare} f) ∗ (arg4.view.loc (c : Thread nD τ) ↦[arg4.view.setOn (Rect.unit (s := S128x4096) ![71, 0] S1x4096.size inb_S128x4096_S1x4096_71_0).set]{fullShare} f) ∗ (arg4.view.loc (c : Thread nD τ) ↦[arg4.view.setOn (Rect.unit (s := S128x4096) ![72, 0] S1x4096.size inb_S128x4096_S1x4096_72_0).set]{fullShare} f) ∗ (arg4.view.loc (c : Thread nD τ) ↦[arg4.view.setOn (Rect.unit (s := S128x4096) ![73, 0] S1x4096.size inb_S128x4096_S1x4096_73_0).set]{fullShare} f) ∗ (arg4.view.loc (c : Thread nD τ) ↦[arg4.view.setOn (Rect.unit (s := S128x4096) ![74, 0] S1x4096.size inb_S128x4096_S1x4096_74_0).set]{fullShare} f) ∗ (arg4.view.loc (c : Thread nD τ) ↦[arg4.view.setOn (Rect.unit (s := S128x4096) ![75, 0] S1x4096.size inb_S128x4096_S1x4096_75_0).set]{fullShare} f) ∗ (arg4.view.loc (c : Thread nD τ) ↦[arg4.view.setOn (Rect.unit (s := S128x4096) ![76, 0] S1x4096.size inb_S128x4096_S1x4096_76_0).set]{fullShare} f) ∗ (arg4.view.loc (c : Thread nD τ) ↦[arg4.view.setOn (Rect.unit (s := S128x4096) ![77, 0] S1x4096.size inb_S128x4096_S1x4096_77_0).set]{fullShare} f) ∗ (arg4.view.loc (c : Thread nD τ) ↦[arg4.view.setOn (Rect.unit (s := S128x4096) ![78, 0] S1x4096.size inb_S128x4096_S1x4096_78_0).set]{fullShare} f) ∗ (arg4.view.loc (c : Thread nD τ) ↦[arg4.view.setOn (Rect.unit (s := S128x4096) ![79, 0] S1x4096.size inb_S128x4096_S1x4096_79_0).set]{fullShare} f) ∗ (arg4.view.loc (c : Thread nD τ) ↦[arg4.view.setOn (Rect.unit (s := S128x4096) ![80, 0] S1x4096.size inb_S128x4096_S1x4096_80_0).set]{fullShare} f) ∗ (arg4.view.loc (c : Thread nD τ) ↦[arg4.view.setOn (Rect.unit (s := S128x4096) ![81, 0] S1x4096.size inb_S128x4096_S1x4096_81_0).set]{fullShare} f) ∗ (arg4.view.loc (c : Thread nD τ) ↦[arg4.view.setOn (Rect.unit (s := S128x4096) ![82, 0] S1x4096.size inb_S128x4096_S1x4096_82_0).set]{fullShare} f) ∗ (arg4.view.loc (c : Thread nD τ) ↦[arg4.view.setOn (Rect.unit (s := S128x4096) ![83, 0] S1x4096.size inb_S128x4096_S1x4096_83_0).set]{fullShare} f) ∗ (arg4.view.loc (c : Thread nD τ) ↦[arg4.view.setOn (Rect.unit (s := S128x4096) ![84, 0] S1x4096.size inb_S128x4096_S1x4096_84_0).set]{fullShare} f) ∗ (arg4.view.loc (c : Thread nD τ) ↦[arg4.view.setOn (Rect.unit (s := S128x4096) ![85, 0] S1x4096.size inb_S128x4096_S1x4096_85_0).set]{fullShare} f) ∗ (arg4.view.loc (c : Thread nD τ) ↦[arg4.view.setOn (Rect.unit (s := S128x4096) ![86, 0] S1x4096.size inb_S128x4096_S1x4096_86_0).set]{fullShare} f) ∗ (arg4.view.loc (c : Thread nD τ) ↦[arg4.view.setOn (Rect.unit (s := S128x4096) ![87, 0] S1x4096.size inb_S128x4096_S1x4096_87_0).set]{fullShare} f) ∗ (arg4.view.loc (c : Thread nD τ) ↦[arg4.view.setOn (Rect.unit (s := S128x4096) ![88, 0] S1x4096.size inb_S128x4096_S1x4096_88_0).set]{fullShare} f) ∗ (arg4.view.loc (c : Thread nD τ) ↦[arg4.view.setOn (Rect.unit (s := S128x4096) ![89, 0] S1x4096.size inb_S128x4096_S1x4096_89_0).set]{fullShare} f) ∗ (arg4.view.loc (c : Thread nD τ) ↦[arg4.view.setOn (Rect.unit (s := S128x4096) ![90, 0] S1x4096.size inb_S128x4096_S1x4096_90_0).set]{fullShare} f) ∗ (arg4.view.loc (c : Thread nD τ) ↦[arg4.view.setOn (Rect.unit (s := S128x4096) ![91, 0] S1x4096.size inb_S128x4096_S1x4096_91_0).set]{fullShare} f) ∗ (arg4.view.loc (c : Thread nD τ) ↦[arg4.view.setOn (Rect.unit (s := S128x4096) ![92, 0] S1x4096.size inb_S128x4096_S1x4096_92_0).set]{fullShare} f) ∗ (arg4.view.loc (c : Thread nD τ) ↦[arg4.view.setOn (Rect.unit (s := S128x4096) ![93, 0] S1x4096.size inb_S128x4096_S1x4096_93_0).set]{fullShare} f) ∗ (arg4.view.loc (c : Thread nD τ) ↦[arg4.view.setOn (Rect.unit (s := S128x4096) ![94, 0] S1x4096.size inb_S128x4096_S1x4096_94_0).set]{fullShare} f) ∗ (arg4.view.loc (c : Thread nD τ) ↦[arg4.view.setOn (Rect.unit (s := S128x4096) ![95, 0] S1x4096.size inb_S128x4096_S1x4096_95_0).set]{fullShare} f) ∗ (arg4.view.loc (c : Thread nD τ) ↦[arg4.view.setOn (Rect.unit (s := S128x4096) ![96, 0] S1x4096.size inb_S128x4096_S1x4096_96_0).set]{fullShare} f) ∗ (arg4.view.loc (c : Thread nD τ) ↦[arg4.view.setOn (Rect.unit (s := S128x4096) ![97, 0] S1x4096.size inb_S128x4096_S1x4096_97_0).set]{fullShare} f) ∗ (arg4.view.loc (c : Thread nD τ) ↦[arg4.view.setOn (Rect.unit (s := S128x4096) ![98, 0] S1x4096.size inb_S128x4096_S1x4096_98_0).set]{fullShare} f) ∗ (arg4.view.loc (c : Thread nD τ) ↦[arg4.view.setOn (Rect.unit (s := S128x4096) ![99, 0] S1x4096.size inb_S128x4096_S1x4096_99_0).set]{fullShare} f) ∗ (arg4.view.loc (c : Thread nD τ) ↦[arg4.view.setOn (Rect.unit (s := S128x4096) ![100, 0] S1x4096.size inb_S128x4096_S1x4096_100_0).set]{fullShare} f) ∗ (arg4.view.loc (c : Thread nD τ) ↦[arg4.view.setOn (Rect.unit (s := S128x4096) ![101, 0] S1x4096.size inb_S128x4096_S1x4096_101_0).set]{fullShare} f) ∗ (arg4.view.loc (c : Thread nD τ) ↦[arg4.view.setOn (Rect.unit (s := S128x4096) ![102, 0] S1x4096.size inb_S128x4096_S1x4096_102_0).set]{fullShare} f) ∗ (arg4.view.loc (c : Thread nD τ) ↦[arg4.view.setOn (Rect.unit (s := S128x4096) ![103, 0] S1x4096.size inb_S128x4096_S1x4096_103_0).set]{fullShare} f) ∗ (arg4.view.loc (c : Thread nD τ) ↦[arg4.view.setOn (Rect.unit (s := S128x4096) ![104, 0] S1x4096.size inb_S128x4096_S1x4096_104_0).set]{fullShare} f) ∗ (arg4.view.loc (c : Thread nD τ) ↦[arg4.view.setOn (Rect.unit (s := S128x4096) ![105, 0] S1x4096.size inb_S128x4096_S1x4096_105_0).set]{fullShare} f) ∗ (arg4.view.loc (c : Thread nD τ) ↦[arg4.view.setOn (Rect.unit (s := S128x4096) ![106, 0] S1x4096.size inb_S128x4096_S1x4096_106_0).set]{fullShare} f) ∗ (arg4.view.loc (c : Thread nD τ) ↦[arg4.view.setOn (Rect.unit (s := S128x4096) ![107, 0] S1x4096.size inb_S128x4096_S1x4096_107_0).set]{fullShare} f) ∗ (arg4.view.loc (c : Thread nD τ) ↦[arg4.view.setOn (Rect.unit (s := S128x4096) ![108, 0] S1x4096.size inb_S128x4096_S1x4096_108_0).set]{fullShare} f) ∗ (arg4.view.loc (c : Thread nD τ) ↦[arg4.view.setOn (Rect.unit (s := S128x4096) ![109, 0] S1x4096.size inb_S128x4096_S1x4096_109_0).set]{fullShare} f) ∗ (arg4.view.loc (c : Thread nD τ) ↦[arg4.view.setOn (Rect.unit (s := S128x4096) ![110, 0] S1x4096.size inb_S128x4096_S1x4096_110_0).set]{fullShare} f) ∗ (arg4.view.loc (c : Thread nD τ) ↦[arg4.view.setOn (Rect.unit (s := S128x4096) ![111, 0] S1x4096.size inb_S128x4096_S1x4096_111_0).set]{fullShare} f) ∗ (arg4.view.loc (c : Thread nD τ) ↦[arg4.view.setOn (Rect.unit (s := S128x4096) ![112, 0] S1x4096.size inb_S128x4096_S1x4096_112_0).set]{fullShare} f) ∗ (arg4.view.loc (c : Thread nD τ) ↦[arg4.view.setOn (Rect.unit (s := S128x4096) ![113, 0] S1x4096.size inb_S128x4096_S1x4096_113_0).set]{fullShare} f) ∗ (arg4.view.loc (c : Thread nD τ) ↦[arg4.view.setOn (Rect.unit (s := S128x4096) ![114, 0] S1x4096.size inb_S128x4096_S1x4096_114_0).set]{fullShare} f) ∗ (arg4.view.loc (c : Thread nD τ) ↦[arg4.view.setOn (Rect.unit (s := S128x4096) ![115, 0] S1x4096.size inb_S128x4096_S1x4096_115_0).set]{fullShare} f) ∗ (arg4.view.loc (c : Thread nD τ) ↦[arg4.view.setOn (Rect.unit (s := S128x4096) ![116, 0] S1x4096.size inb_S128x4096_S1x4096_116_0).set]{fullShare} f) ∗ (arg4.view.loc (c : Thread nD τ) ↦[arg4.view.setOn (Rect.unit (s := S128x4096) ![117, 0] S1x4096.size inb_S128x4096_S1x4096_117_0).set]{fullShare} f) ∗ (arg4.view.loc (c : Thread nD τ) ↦[arg4.view.setOn (Rect.unit (s := S128x4096) ![118, 0] S1x4096.size inb_S128x4096_S1x4096_118_0).set]{fullShare} f) ∗ (arg4.view.loc (c : Thread nD τ) ↦[arg4.view.setOn (Rect.unit (s := S128x4096) ![119, 0] S1x4096.size inb_S128x4096_S1x4096_119_0).set]{fullShare} f) ∗ (arg4.view.loc (c : Thread nD τ) ↦[arg4.view.setOn (Rect.unit (s := S128x4096) ![120, 0] S1x4096.size inb_S128x4096_S1x4096_120_0).set]{fullShare} f) ∗ (arg4.view.loc (c : Thread nD τ) ↦[arg4.view.setOn (Rect.unit (s := S128x4096) ![121, 0] S1x4096.size inb_S128x4096_S1x4096_121_0).set]{fullShare} f) ∗ (arg4.view.loc (c : Thread nD τ) ↦[arg4.view.setOn (Rect.unit (s := S128x4096) ![122, 0] S1x4096.size inb_S128x4096_S1x4096_122_0).set]{fullShare} f) ∗ (arg4.view.loc (c : Thread nD τ) ↦[arg4.view.setOn (Rect.unit (s := S128x4096) ![123, 0] S1x4096.size inb_S128x4096_S1x4096_123_0).set]{fullShare} f) ∗ (arg4.view.loc (c : Thread nD τ) ↦[arg4.view.setOn (Rect.unit (s := S128x4096) ![124, 0] S1x4096.size inb_S128x4096_S1x4096_124_0).set]{fullShare} f) ∗ (arg4.view.loc (c : Thread nD τ) ↦[arg4.view.setOn (Rect.unit (s := S128x4096) ![125, 0] S1x4096.size inb_S128x4096_S1x4096_125_0).set]{fullShare} f) ∗ (arg4.view.loc (c : Thread nD τ) ↦[arg4.view.setOn (Rect.unit (s := S128x4096) ![126, 0] S1x4096.size inb_S128x4096_S1x4096_126_0).set]{fullShare} f) ∗ (arg4.view.loc (c : Thread nD τ) ↦[arg4.view.setOn (Rect.unit (s := S128x4096) ![127, 0] S1x4096.size inb_S128x4096_S1x4096_127_0).set]{fullShare} f)) := by
  rw [scratch_rows c arg4.view fullShare f, bigSep128]
  rfl

set_option maxHeartbeats 8000000 in
theorem rows_join128 (c : Dev nD) (arg4 : Memref sig .tc .vmem S128x4096 .f32)
    (f0 : Buf (Elt F) (arg4.view.loc (c : Thread nD τ))) (f1 : Buf (Elt F) (arg4.view.loc (c : Thread nD τ))) (f2 : Buf (Elt F) (arg4.view.loc (c : Thread nD τ))) (f3 : Buf (Elt F) (arg4.view.loc (c : Thread nD τ))) (f4 : Buf (Elt F) (arg4.view.loc (c : Thread nD τ))) (f5 : Buf (Elt F) (arg4.view.loc (c : Thread nD τ))) (f6 : Buf (Elt F) (arg4.view.loc (c : Thread nD τ))) (f7 : Buf (Elt F) (arg4.view.loc (c : Thread nD τ))) (f8 : Buf (Elt F) (arg4.view.loc (c : Thread nD τ))) (f9 : Buf (Elt F) (arg4.view.loc (c : Thread nD τ))) (f10 : Buf (Elt F) (arg4.view.loc (c : Thread nD τ))) (f11 : Buf (Elt F) (arg4.view.loc (c : Thread nD τ))) (f12 : Buf (Elt F) (arg4.view.loc (c : Thread nD τ))) (f13 : Buf (Elt F) (arg4.view.loc (c : Thread nD τ))) (f14 : Buf (Elt F) (arg4.view.loc (c : Thread nD τ))) (f15 : Buf (Elt F) (arg4.view.loc (c : Thread nD τ))) (f16 : Buf (Elt F) (arg4.view.loc (c : Thread nD τ))) (f17 : Buf (Elt F) (arg4.view.loc (c : Thread nD τ))) (f18 : Buf (Elt F) (arg4.view.loc (c : Thread nD τ))) (f19 : Buf (Elt F) (arg4.view.loc (c : Thread nD τ))) (f20 : Buf (Elt F) (arg4.view.loc (c : Thread nD τ))) (f21 : Buf (Elt F) (arg4.view.loc (c : Thread nD τ))) (f22 : Buf (Elt F) (arg4.view.loc (c : Thread nD τ))) (f23 : Buf (Elt F) (arg4.view.loc (c : Thread nD τ))) (f24 : Buf (Elt F) (arg4.view.loc (c : Thread nD τ))) (f25 : Buf (Elt F) (arg4.view.loc (c : Thread nD τ))) (f26 : Buf (Elt F) (arg4.view.loc (c : Thread nD τ))) (f27 : Buf (Elt F) (arg4.view.loc (c : Thread nD τ))) (f28 : Buf (Elt F) (arg4.view.loc (c : Thread nD τ))) (f29 : Buf (Elt F) (arg4.view.loc (c : Thread nD τ))) (f30 : Buf (Elt F) (arg4.view.loc (c : Thread nD τ))) (f31 : Buf (Elt F) (arg4.view.loc (c : Thread nD τ))) (f32 : Buf (Elt F) (arg4.view.loc (c : Thread nD τ))) (f33 : Buf (Elt F) (arg4.view.loc (c : Thread nD τ))) (f34 : Buf (Elt F) (arg4.view.loc (c : Thread nD τ))) (f35 : Buf (Elt F) (arg4.view.loc (c : Thread nD τ))) (f36 : Buf (Elt F) (arg4.view.loc (c : Thread nD τ))) (f37 : Buf (Elt F) (arg4.view.loc (c : Thread nD τ))) (f38 : Buf (Elt F) (arg4.view.loc (c : Thread nD τ))) (f39 : Buf (Elt F) (arg4.view.loc (c : Thread nD τ))) (f40 : Buf (Elt F) (arg4.view.loc (c : Thread nD τ))) (f41 : Buf (Elt F) (arg4.view.loc (c : Thread nD τ))) (f42 : Buf (Elt F) (arg4.view.loc (c : Thread nD τ))) (f43 : Buf (Elt F) (arg4.view.loc (c : Thread nD τ))) (f44 : Buf (Elt F) (arg4.view.loc (c : Thread nD τ))) (f45 : Buf (Elt F) (arg4.view.loc (c : Thread nD τ))) (f46 : Buf (Elt F) (arg4.view.loc (c : Thread nD τ))) (f47 : Buf (Elt F) (arg4.view.loc (c : Thread nD τ))) (f48 : Buf (Elt F) (arg4.view.loc (c : Thread nD τ))) (f49 : Buf (Elt F) (arg4.view.loc (c : Thread nD τ))) (f50 : Buf (Elt F) (arg4.view.loc (c : Thread nD τ))) (f51 : Buf (Elt F) (arg4.view.loc (c : Thread nD τ))) (f52 : Buf (Elt F) (arg4.view.loc (c : Thread nD τ))) (f53 : Buf (Elt F) (arg4.view.loc (c : Thread nD τ))) (f54 : Buf (Elt F) (arg4.view.loc (c : Thread nD τ))) (f55 : Buf (Elt F) (arg4.view.loc (c : Thread nD τ))) (f56 : Buf (Elt F) (arg4.view.loc (c : Thread nD τ))) (f57 : Buf (Elt F) (arg4.view.loc (c : Thread nD τ))) (f58 : Buf (Elt F) (arg4.view.loc (c : Thread nD τ))) (f59 : Buf (Elt F) (arg4.view.loc (c : Thread nD τ))) (f60 : Buf (Elt F) (arg4.view.loc (c : Thread nD τ))) (f61 : Buf (Elt F) (arg4.view.loc (c : Thread nD τ))) (f62 : Buf (Elt F) (arg4.view.loc (c : Thread nD τ))) (f63 : Buf (Elt F) (arg4.view.loc (c : Thread nD τ))) (f64 : Buf (Elt F) (arg4.view.loc (c : Thread nD τ))) (f65 : Buf (Elt F) (arg4.view.loc (c : Thread nD τ))) (f66 : Buf (Elt F) (arg4.view.loc (c : Thread nD τ))) (f67 : Buf (Elt F) (arg4.view.loc (c : Thread nD τ))) (f68 : Buf (Elt F) (arg4.view.loc (c : Thread nD τ))) (f69 : Buf (Elt F) (arg4.view.loc (c : Thread nD τ))) (f70 : Buf (Elt F) (arg4.view.loc (c : Thread nD τ))) (f71 : Buf (Elt F) (arg4.view.loc (c : Thread nD τ))) (f72 : Buf (Elt F) (arg4.view.loc (c : Thread nD τ))) (f73 : Buf (Elt F) (arg4.view.loc (c : Thread nD τ))) (f74 : Buf (Elt F) (arg4.view.loc (c : Thread nD τ))) (f75 : Buf (Elt F) (arg4.view.loc (c : Thread nD τ))) (f76 : Buf (Elt F) (arg4.view.loc (c : Thread nD τ))) (f77 : Buf (Elt F) (arg4.view.loc (c : Thread nD τ))) (f78 : Buf (Elt F) (arg4.view.loc (c : Thread nD τ))) (f79 : Buf (Elt F) (arg4.view.loc (c : Thread nD τ))) (f80 : Buf (Elt F) (arg4.view.loc (c : Thread nD τ))) (f81 : Buf (Elt F) (arg4.view.loc (c : Thread nD τ))) (f82 : Buf (Elt F) (arg4.view.loc (c : Thread nD τ))) (f83 : Buf (Elt F) (arg4.view.loc (c : Thread nD τ))) (f84 : Buf (Elt F) (arg4.view.loc (c : Thread nD τ))) (f85 : Buf (Elt F) (arg4.view.loc (c : Thread nD τ))) (f86 : Buf (Elt F) (arg4.view.loc (c : Thread nD τ))) (f87 : Buf (Elt F) (arg4.view.loc (c : Thread nD τ))) (f88 : Buf (Elt F) (arg4.view.loc (c : Thread nD τ))) (f89 : Buf (Elt F) (arg4.view.loc (c : Thread nD τ))) (f90 : Buf (Elt F) (arg4.view.loc (c : Thread nD τ))) (f91 : Buf (Elt F) (arg4.view.loc (c : Thread nD τ))) (f92 : Buf (Elt F) (arg4.view.loc (c : Thread nD τ))) (f93 : Buf (Elt F) (arg4.view.loc (c : Thread nD τ))) (f94 : Buf (Elt F) (arg4.view.loc (c : Thread nD τ))) (f95 : Buf (Elt F) (arg4.view.loc (c : Thread nD τ))) (f96 : Buf (Elt F) (arg4.view.loc (c : Thread nD τ))) (f97 : Buf (Elt F) (arg4.view.loc (c : Thread nD τ))) (f98 : Buf (Elt F) (arg4.view.loc (c : Thread nD τ))) (f99 : Buf (Elt F) (arg4.view.loc (c : Thread nD τ))) (f100 : Buf (Elt F) (arg4.view.loc (c : Thread nD τ))) (f101 : Buf (Elt F) (arg4.view.loc (c : Thread nD τ))) (f102 : Buf (Elt F) (arg4.view.loc (c : Thread nD τ))) (f103 : Buf (Elt F) (arg4.view.loc (c : Thread nD τ))) (f104 : Buf (Elt F) (arg4.view.loc (c : Thread nD τ))) (f105 : Buf (Elt F) (arg4.view.loc (c : Thread nD τ))) (f106 : Buf (Elt F) (arg4.view.loc (c : Thread nD τ))) (f107 : Buf (Elt F) (arg4.view.loc (c : Thread nD τ))) (f108 : Buf (Elt F) (arg4.view.loc (c : Thread nD τ))) (f109 : Buf (Elt F) (arg4.view.loc (c : Thread nD τ))) (f110 : Buf (Elt F) (arg4.view.loc (c : Thread nD τ))) (f111 : Buf (Elt F) (arg4.view.loc (c : Thread nD τ))) (f112 : Buf (Elt F) (arg4.view.loc (c : Thread nD τ))) (f113 : Buf (Elt F) (arg4.view.loc (c : Thread nD τ))) (f114 : Buf (Elt F) (arg4.view.loc (c : Thread nD τ))) (f115 : Buf (Elt F) (arg4.view.loc (c : Thread nD τ))) (f116 : Buf (Elt F) (arg4.view.loc (c : Thread nD τ))) (f117 : Buf (Elt F) (arg4.view.loc (c : Thread nD τ))) (f118 : Buf (Elt F) (arg4.view.loc (c : Thread nD τ))) (f119 : Buf (Elt F) (arg4.view.loc (c : Thread nD τ))) (f120 : Buf (Elt F) (arg4.view.loc (c : Thread nD τ))) (f121 : Buf (Elt F) (arg4.view.loc (c : Thread nD τ))) (f122 : Buf (Elt F) (arg4.view.loc (c : Thread nD τ))) (f123 : Buf (Elt F) (arg4.view.loc (c : Thread nD τ))) (f124 : Buf (Elt F) (arg4.view.loc (c : Thread nD τ))) (f125 : Buf (Elt F) (arg4.view.loc (c : Thread nD τ))) (f126 : Buf (Elt F) (arg4.view.loc (c : Thread nD τ))) (f127 : Buf (Elt F) (arg4.view.loc (c : Thread nD τ))) :
    (iprop((arg4.view.loc (c : Thread nD τ) ↦[arg4.view.setOn (Rect.unit (s := S128x4096) ![0, 0] S1x4096.size inb_S128x4096_S1x4096_0_0).set]{fullShare} f0) ∗ (arg4.view.loc (c : Thread nD τ) ↦[arg4.view.setOn (Rect.unit (s := S128x4096) ![1, 0] S1x4096.size inb_S128x4096_S1x4096_1_0).set]{fullShare} f1) ∗ (arg4.view.loc (c : Thread nD τ) ↦[arg4.view.setOn (Rect.unit (s := S128x4096) ![2, 0] S1x4096.size inb_S128x4096_S1x4096_2_0).set]{fullShare} f2) ∗ (arg4.view.loc (c : Thread nD τ) ↦[arg4.view.setOn (Rect.unit (s := S128x4096) ![3, 0] S1x4096.size inb_S128x4096_S1x4096_3_0).set]{fullShare} f3) ∗ (arg4.view.loc (c : Thread nD τ) ↦[arg4.view.setOn (Rect.unit (s := S128x4096) ![4, 0] S1x4096.size inb_S128x4096_S1x4096_4_0).set]{fullShare} f4) ∗ (arg4.view.loc (c : Thread nD τ) ↦[arg4.view.setOn (Rect.unit (s := S128x4096) ![5, 0] S1x4096.size inb_S128x4096_S1x4096_5_0).set]{fullShare} f5) ∗ (arg4.view.loc (c : Thread nD τ) ↦[arg4.view.setOn (Rect.unit (s := S128x4096) ![6, 0] S1x4096.size inb_S128x4096_S1x4096_6_0).set]{fullShare} f6) ∗ (arg4.view.loc (c : Thread nD τ) ↦[arg4.view.setOn (Rect.unit (s := S128x4096) ![7, 0] S1x4096.size inb_S128x4096_S1x4096_7_0).set]{fullShare} f7) ∗ (arg4.view.loc (c : Thread nD τ) ↦[arg4.view.setOn (Rect.unit (s := S128x4096) ![8, 0] S1x4096.size inb_S128x4096_S1x4096_8_0).set]{fullShare} f8) ∗ (arg4.view.loc (c : Thread nD τ) ↦[arg4.view.setOn (Rect.unit (s := S128x4096) ![9, 0] S1x4096.size inb_S128x4096_S1x4096_9_0).set]{fullShare} f9) ∗ (arg4.view.loc (c : Thread nD τ) ↦[arg4.view.setOn (Rect.unit (s := S128x4096) ![10, 0] S1x4096.size inb_S128x4096_S1x4096_10_0).set]{fullShare} f10) ∗ (arg4.view.loc (c : Thread nD τ) ↦[arg4.view.setOn (Rect.unit (s := S128x4096) ![11, 0] S1x4096.size inb_S128x4096_S1x4096_11_0).set]{fullShare} f11) ∗ (arg4.view.loc (c : Thread nD τ) ↦[arg4.view.setOn (Rect.unit (s := S128x4096) ![12, 0] S1x4096.size inb_S128x4096_S1x4096_12_0).set]{fullShare} f12) ∗ (arg4.view.loc (c : Thread nD τ) ↦[arg4.view.setOn (Rect.unit (s := S128x4096) ![13, 0] S1x4096.size inb_S128x4096_S1x4096_13_0).set]{fullShare} f13) ∗ (arg4.view.loc (c : Thread nD τ) ↦[arg4.view.setOn (Rect.unit (s := S128x4096) ![14, 0] S1x4096.size inb_S128x4096_S1x4096_14_0).set]{fullShare} f14) ∗ (arg4.view.loc (c : Thread nD τ) ↦[arg4.view.setOn (Rect.unit (s := S128x4096) ![15, 0] S1x4096.size inb_S128x4096_S1x4096_15_0).set]{fullShare} f15) ∗ (arg4.view.loc (c : Thread nD τ) ↦[arg4.view.setOn (Rect.unit (s := S128x4096) ![16, 0] S1x4096.size inb_S128x4096_S1x4096_16_0).set]{fullShare} f16) ∗ (arg4.view.loc (c : Thread nD τ) ↦[arg4.view.setOn (Rect.unit (s := S128x4096) ![17, 0] S1x4096.size inb_S128x4096_S1x4096_17_0).set]{fullShare} f17) ∗ (arg4.view.loc (c : Thread nD τ) ↦[arg4.view.setOn (Rect.unit (s := S128x4096) ![18, 0] S1x4096.size inb_S128x4096_S1x4096_18_0).set]{fullShare} f18) ∗ (arg4.view.loc (c : Thread nD τ) ↦[arg4.view.setOn (Rect.unit (s := S128x4096) ![19, 0] S1x4096.size inb_S128x4096_S1x4096_19_0).set]{fullShare} f19) ∗ (arg4.view.loc (c : Thread nD τ) ↦[arg4.view.setOn (Rect.unit (s := S128x4096) ![20, 0] S1x4096.size inb_S128x4096_S1x4096_20_0).set]{fullShare} f20) ∗ (arg4.view.loc (c : Thread nD τ) ↦[arg4.view.setOn (Rect.unit (s := S128x4096) ![21, 0] S1x4096.size inb_S128x4096_S1x4096_21_0).set]{fullShare} f21) ∗ (arg4.view.loc (c : Thread nD τ) ↦[arg4.view.setOn (Rect.unit (s := S128x4096) ![22, 0] S1x4096.size inb_S128x4096_S1x4096_22_0).set]{fullShare} f22) ∗ (arg4.view.loc (c : Thread nD τ) ↦[arg4.view.setOn (Rect.unit (s := S128x4096) ![23, 0] S1x4096.size inb_S128x4096_S1x4096_23_0).set]{fullShare} f23) ∗ (arg4.view.loc (c : Thread nD τ) ↦[arg4.view.setOn (Rect.unit (s := S128x4096) ![24, 0] S1x4096.size inb_S128x4096_S1x4096_24_0).set]{fullShare} f24) ∗ (arg4.view.loc (c : Thread nD τ) ↦[arg4.view.setOn (Rect.unit (s := S128x4096) ![25, 0] S1x4096.size inb_S128x4096_S1x4096_25_0).set]{fullShare} f25) ∗ (arg4.view.loc (c : Thread nD τ) ↦[arg4.view.setOn (Rect.unit (s := S128x4096) ![26, 0] S1x4096.size inb_S128x4096_S1x4096_26_0).set]{fullShare} f26) ∗ (arg4.view.loc (c : Thread nD τ) ↦[arg4.view.setOn (Rect.unit (s := S128x4096) ![27, 0] S1x4096.size inb_S128x4096_S1x4096_27_0).set]{fullShare} f27) ∗ (arg4.view.loc (c : Thread nD τ) ↦[arg4.view.setOn (Rect.unit (s := S128x4096) ![28, 0] S1x4096.size inb_S128x4096_S1x4096_28_0).set]{fullShare} f28) ∗ (arg4.view.loc (c : Thread nD τ) ↦[arg4.view.setOn (Rect.unit (s := S128x4096) ![29, 0] S1x4096.size inb_S128x4096_S1x4096_29_0).set]{fullShare} f29) ∗ (arg4.view.loc (c : Thread nD τ) ↦[arg4.view.setOn (Rect.unit (s := S128x4096) ![30, 0] S1x4096.size inb_S128x4096_S1x4096_30_0).set]{fullShare} f30) ∗ (arg4.view.loc (c : Thread nD τ) ↦[arg4.view.setOn (Rect.unit (s := S128x4096) ![31, 0] S1x4096.size inb_S128x4096_S1x4096_31_0).set]{fullShare} f31) ∗ (arg4.view.loc (c : Thread nD τ) ↦[arg4.view.setOn (Rect.unit (s := S128x4096) ![32, 0] S1x4096.size inb_S128x4096_S1x4096_32_0).set]{fullShare} f32) ∗ (arg4.view.loc (c : Thread nD τ) ↦[arg4.view.setOn (Rect.unit (s := S128x4096) ![33, 0] S1x4096.size inb_S128x4096_S1x4096_33_0).set]{fullShare} f33) ∗ (arg4.view.loc (c : Thread nD τ) ↦[arg4.view.setOn (Rect.unit (s := S128x4096) ![34, 0] S1x4096.size inb_S128x4096_S1x4096_34_0).set]{fullShare} f34) ∗ (arg4.view.loc (c : Thread nD τ) ↦[arg4.view.setOn (Rect.unit (s := S128x4096) ![35, 0] S1x4096.size inb_S128x4096_S1x4096_35_0).set]{fullShare} f35) ∗ (arg4.view.loc (c : Thread nD τ) ↦[arg4.view.setOn (Rect.unit (s := S128x4096) ![36, 0] S1x4096.size inb_S128x4096_S1x4096_36_0).set]{fullShare} f36) ∗ (arg4.view.loc (c : Thread nD τ) ↦[arg4.view.setOn (Rect.unit (s := S128x4096) ![37, 0] S1x4096.size inb_S128x4096_S1x4096_37_0).set]{fullShare} f37) ∗ (arg4.view.loc (c : Thread nD τ) ↦[arg4.view.setOn (Rect.unit (s := S128x4096) ![38, 0] S1x4096.size inb_S128x4096_S1x4096_38_0).set]{fullShare} f38) ∗ (arg4.view.loc (c : Thread nD τ) ↦[arg4.view.setOn (Rect.unit (s := S128x4096) ![39, 0] S1x4096.size inb_S128x4096_S1x4096_39_0).set]{fullShare} f39) ∗ (arg4.view.loc (c : Thread nD τ) ↦[arg4.view.setOn (Rect.unit (s := S128x4096) ![40, 0] S1x4096.size inb_S128x4096_S1x4096_40_0).set]{fullShare} f40) ∗ (arg4.view.loc (c : Thread nD τ) ↦[arg4.view.setOn (Rect.unit (s := S128x4096) ![41, 0] S1x4096.size inb_S128x4096_S1x4096_41_0).set]{fullShare} f41) ∗ (arg4.view.loc (c : Thread nD τ) ↦[arg4.view.setOn (Rect.unit (s := S128x4096) ![42, 0] S1x4096.size inb_S128x4096_S1x4096_42_0).set]{fullShare} f42) ∗ (arg4.view.loc (c : Thread nD τ) ↦[arg4.view.setOn (Rect.unit (s := S128x4096) ![43, 0] S1x4096.size inb_S128x4096_S1x4096_43_0).set]{fullShare} f43) ∗ (arg4.view.loc (c : Thread nD τ) ↦[arg4.view.setOn (Rect.unit (s := S128x4096) ![44, 0] S1x4096.size inb_S128x4096_S1x4096_44_0).set]{fullShare} f44) ∗ (arg4.view.loc (c : Thread nD τ) ↦[arg4.view.setOn (Rect.unit (s := S128x4096) ![45, 0] S1x4096.size inb_S128x4096_S1x4096_45_0).set]{fullShare} f45) ∗ (arg4.view.loc (c : Thread nD τ) ↦[arg4.view.setOn (Rect.unit (s := S128x4096) ![46, 0] S1x4096.size inb_S128x4096_S1x4096_46_0).set]{fullShare} f46) ∗ (arg4.view.loc (c : Thread nD τ) ↦[arg4.view.setOn (Rect.unit (s := S128x4096) ![47, 0] S1x4096.size inb_S128x4096_S1x4096_47_0).set]{fullShare} f47) ∗ (arg4.view.loc (c : Thread nD τ) ↦[arg4.view.setOn (Rect.unit (s := S128x4096) ![48, 0] S1x4096.size inb_S128x4096_S1x4096_48_0).set]{fullShare} f48) ∗ (arg4.view.loc (c : Thread nD τ) ↦[arg4.view.setOn (Rect.unit (s := S128x4096) ![49, 0] S1x4096.size inb_S128x4096_S1x4096_49_0).set]{fullShare} f49) ∗ (arg4.view.loc (c : Thread nD τ) ↦[arg4.view.setOn (Rect.unit (s := S128x4096) ![50, 0] S1x4096.size inb_S128x4096_S1x4096_50_0).set]{fullShare} f50) ∗ (arg4.view.loc (c : Thread nD τ) ↦[arg4.view.setOn (Rect.unit (s := S128x4096) ![51, 0] S1x4096.size inb_S128x4096_S1x4096_51_0).set]{fullShare} f51) ∗ (arg4.view.loc (c : Thread nD τ) ↦[arg4.view.setOn (Rect.unit (s := S128x4096) ![52, 0] S1x4096.size inb_S128x4096_S1x4096_52_0).set]{fullShare} f52) ∗ (arg4.view.loc (c : Thread nD τ) ↦[arg4.view.setOn (Rect.unit (s := S128x4096) ![53, 0] S1x4096.size inb_S128x4096_S1x4096_53_0).set]{fullShare} f53) ∗ (arg4.view.loc (c : Thread nD τ) ↦[arg4.view.setOn (Rect.unit (s := S128x4096) ![54, 0] S1x4096.size inb_S128x4096_S1x4096_54_0).set]{fullShare} f54) ∗ (arg4.view.loc (c : Thread nD τ) ↦[arg4.view.setOn (Rect.unit (s := S128x4096) ![55, 0] S1x4096.size inb_S128x4096_S1x4096_55_0).set]{fullShare} f55) ∗ (arg4.view.loc (c : Thread nD τ) ↦[arg4.view.setOn (Rect.unit (s := S128x4096) ![56, 0] S1x4096.size inb_S128x4096_S1x4096_56_0).set]{fullShare} f56) ∗ (arg4.view.loc (c : Thread nD τ) ↦[arg4.view.setOn (Rect.unit (s := S128x4096) ![57, 0] S1x4096.size inb_S128x4096_S1x4096_57_0).set]{fullShare} f57) ∗ (arg4.view.loc (c : Thread nD τ) ↦[arg4.view.setOn (Rect.unit (s := S128x4096) ![58, 0] S1x4096.size inb_S128x4096_S1x4096_58_0).set]{fullShare} f58) ∗ (arg4.view.loc (c : Thread nD τ) ↦[arg4.view.setOn (Rect.unit (s := S128x4096) ![59, 0] S1x4096.size inb_S128x4096_S1x4096_59_0).set]{fullShare} f59) ∗ (arg4.view.loc (c : Thread nD τ) ↦[arg4.view.setOn (Rect.unit (s := S128x4096) ![60, 0] S1x4096.size inb_S128x4096_S1x4096_60_0).set]{fullShare} f60) ∗ (arg4.view.loc (c : Thread nD τ) ↦[arg4.view.setOn (Rect.unit (s := S128x4096) ![61, 0] S1x4096.size inb_S128x4096_S1x4096_61_0).set]{fullShare} f61) ∗ (arg4.view.loc (c : Thread nD τ) ↦[arg4.view.setOn (Rect.unit (s := S128x4096) ![62, 0] S1x4096.size inb_S128x4096_S1x4096_62_0).set]{fullShare} f62) ∗ (arg4.view.loc (c : Thread nD τ) ↦[arg4.view.setOn (Rect.unit (s := S128x4096) ![63, 0] S1x4096.size inb_S128x4096_S1x4096_63_0).set]{fullShare} f63) ∗ (arg4.view.loc (c : Thread nD τ) ↦[arg4.view.setOn (Rect.unit (s := S128x4096) ![64, 0] S1x4096.size inb_S128x4096_S1x4096_64_0).set]{fullShare} f64) ∗ (arg4.view.loc (c : Thread nD τ) ↦[arg4.view.setOn (Rect.unit (s := S128x4096) ![65, 0] S1x4096.size inb_S128x4096_S1x4096_65_0).set]{fullShare} f65) ∗ (arg4.view.loc (c : Thread nD τ) ↦[arg4.view.setOn (Rect.unit (s := S128x4096) ![66, 0] S1x4096.size inb_S128x4096_S1x4096_66_0).set]{fullShare} f66) ∗ (arg4.view.loc (c : Thread nD τ) ↦[arg4.view.setOn (Rect.unit (s := S128x4096) ![67, 0] S1x4096.size inb_S128x4096_S1x4096_67_0).set]{fullShare} f67) ∗ (arg4.view.loc (c : Thread nD τ) ↦[arg4.view.setOn (Rect.unit (s := S128x4096) ![68, 0] S1x4096.size inb_S128x4096_S1x4096_68_0).set]{fullShare} f68) ∗ (arg4.view.loc (c : Thread nD τ) ↦[arg4.view.setOn (Rect.unit (s := S128x4096) ![69, 0] S1x4096.size inb_S128x4096_S1x4096_69_0).set]{fullShare} f69) ∗ (arg4.view.loc (c : Thread nD τ) ↦[arg4.view.setOn (Rect.unit (s := S128x4096) ![70, 0] S1x4096.size inb_S128x4096_S1x4096_70_0).set]{fullShare} f70) ∗ (arg4.view.loc (c : Thread nD τ) ↦[arg4.view.setOn (Rect.unit (s := S128x4096) ![71, 0] S1x4096.size inb_S128x4096_S1x4096_71_0).set]{fullShare} f71) ∗ (arg4.view.loc (c : Thread nD τ) ↦[arg4.view.setOn (Rect.unit (s := S128x4096) ![72, 0] S1x4096.size inb_S128x4096_S1x4096_72_0).set]{fullShare} f72) ∗ (arg4.view.loc (c : Thread nD τ) ↦[arg4.view.setOn (Rect.unit (s := S128x4096) ![73, 0] S1x4096.size inb_S128x4096_S1x4096_73_0).set]{fullShare} f73) ∗ (arg4.view.loc (c : Thread nD τ) ↦[arg4.view.setOn (Rect.unit (s := S128x4096) ![74, 0] S1x4096.size inb_S128x4096_S1x4096_74_0).set]{fullShare} f74) ∗ (arg4.view.loc (c : Thread nD τ) ↦[arg4.view.setOn (Rect.unit (s := S128x4096) ![75, 0] S1x4096.size inb_S128x4096_S1x4096_75_0).set]{fullShare} f75) ∗ (arg4.view.loc (c : Thread nD τ) ↦[arg4.view.setOn (Rect.unit (s := S128x4096) ![76, 0] S1x4096.size inb_S128x4096_S1x4096_76_0).set]{fullShare} f76) ∗ (arg4.view.loc (c : Thread nD τ) ↦[arg4.view.setOn (Rect.unit (s := S128x4096) ![77, 0] S1x4096.size inb_S128x4096_S1x4096_77_0).set]{fullShare} f77) ∗ (arg4.view.loc (c : Thread nD τ) ↦[arg4.view.setOn (Rect.unit (s := S128x4096) ![78, 0] S1x4096.size inb_S128x4096_S1x4096_78_0).set]{fullShare} f78) ∗ (arg4.view.loc (c : Thread nD τ) ↦[arg4.view.setOn (Rect.unit (s := S128x4096) ![79, 0] S1x4096.size inb_S128x4096_S1x4096_79_0).set]{fullShare} f79) ∗ (arg4.view.loc (c : Thread nD τ) ↦[arg4.view.setOn (Rect.unit (s := S128x4096) ![80, 0] S1x4096.size inb_S128x4096_S1x4096_80_0).set]{fullShare} f80) ∗ (arg4.view.loc (c : Thread nD τ) ↦[arg4.view.setOn (Rect.unit (s := S128x4096) ![81, 0] S1x4096.size inb_S128x4096_S1x4096_81_0).set]{fullShare} f81) ∗ (arg4.view.loc (c : Thread nD τ) ↦[arg4.view.setOn (Rect.unit (s := S128x4096) ![82, 0] S1x4096.size inb_S128x4096_S1x4096_82_0).set]{fullShare} f82) ∗ (arg4.view.loc (c : Thread nD τ) ↦[arg4.view.setOn (Rect.unit (s := S128x4096) ![83, 0] S1x4096.size inb_S128x4096_S1x4096_83_0).set]{fullShare} f83) ∗ (arg4.view.loc (c : Thread nD τ) ↦[arg4.view.setOn (Rect.unit (s := S128x4096) ![84, 0] S1x4096.size inb_S128x4096_S1x4096_84_0).set]{fullShare} f84) ∗ (arg4.view.loc (c : Thread nD τ) ↦[arg4.view.setOn (Rect.unit (s := S128x4096) ![85, 0] S1x4096.size inb_S128x4096_S1x4096_85_0).set]{fullShare} f85) ∗ (arg4.view.loc (c : Thread nD τ) ↦[arg4.view.setOn (Rect.unit (s := S128x4096) ![86, 0] S1x4096.size inb_S128x4096_S1x4096_86_0).set]{fullShare} f86) ∗ (arg4.view.loc (c : Thread nD τ) ↦[arg4.view.setOn (Rect.unit (s := S128x4096) ![87, 0] S1x4096.size inb_S128x4096_S1x4096_87_0).set]{fullShare} f87) ∗ (arg4.view.loc (c : Thread nD τ) ↦[arg4.view.setOn (Rect.unit (s := S128x4096) ![88, 0] S1x4096.size inb_S128x4096_S1x4096_88_0).set]{fullShare} f88) ∗ (arg4.view.loc (c : Thread nD τ) ↦[arg4.view.setOn (Rect.unit (s := S128x4096) ![89, 0] S1x4096.size inb_S128x4096_S1x4096_89_0).set]{fullShare} f89) ∗ (arg4.view.loc (c : Thread nD τ) ↦[arg4.view.setOn (Rect.unit (s := S128x4096) ![90, 0] S1x4096.size inb_S128x4096_S1x4096_90_0).set]{fullShare} f90) ∗ (arg4.view.loc (c : Thread nD τ) ↦[arg4.view.setOn (Rect.unit (s := S128x4096) ![91, 0] S1x4096.size inb_S128x4096_S1x4096_91_0).set]{fullShare} f91) ∗ (arg4.view.loc (c : Thread nD τ) ↦[arg4.view.setOn (Rect.unit (s := S128x4096) ![92, 0] S1x4096.size inb_S128x4096_S1x4096_92_0).set]{fullShare} f92) ∗ (arg4.view.loc (c : Thread nD τ) ↦[arg4.view.setOn (Rect.unit (s := S128x4096) ![93, 0] S1x4096.size inb_S128x4096_S1x4096_93_0).set]{fullShare} f93) ∗ (arg4.view.loc (c : Thread nD τ) ↦[arg4.view.setOn (Rect.unit (s := S128x4096) ![94, 0] S1x4096.size inb_S128x4096_S1x4096_94_0).set]{fullShare} f94) ∗ (arg4.view.loc (c : Thread nD τ) ↦[arg4.view.setOn (Rect.unit (s := S128x4096) ![95, 0] S1x4096.size inb_S128x4096_S1x4096_95_0).set]{fullShare} f95) ∗ (arg4.view.loc (c : Thread nD τ) ↦[arg4.view.setOn (Rect.unit (s := S128x4096) ![96, 0] S1x4096.size inb_S128x4096_S1x4096_96_0).set]{fullShare} f96) ∗ (arg4.view.loc (c : Thread nD τ) ↦[arg4.view.setOn (Rect.unit (s := S128x4096) ![97, 0] S1x4096.size inb_S128x4096_S1x4096_97_0).set]{fullShare} f97) ∗ (arg4.view.loc (c : Thread nD τ) ↦[arg4.view.setOn (Rect.unit (s := S128x4096) ![98, 0] S1x4096.size inb_S128x4096_S1x4096_98_0).set]{fullShare} f98) ∗ (arg4.view.loc (c : Thread nD τ) ↦[arg4.view.setOn (Rect.unit (s := S128x4096) ![99, 0] S1x4096.size inb_S128x4096_S1x4096_99_0).set]{fullShare} f99) ∗ (arg4.view.loc (c : Thread nD τ) ↦[arg4.view.setOn (Rect.unit (s := S128x4096) ![100, 0] S1x4096.size inb_S128x4096_S1x4096_100_0).set]{fullShare} f100) ∗ (arg4.view.loc (c : Thread nD τ) ↦[arg4.view.setOn (Rect.unit (s := S128x4096) ![101, 0] S1x4096.size inb_S128x4096_S1x4096_101_0).set]{fullShare} f101) ∗ (arg4.view.loc (c : Thread nD τ) ↦[arg4.view.setOn (Rect.unit (s := S128x4096) ![102, 0] S1x4096.size inb_S128x4096_S1x4096_102_0).set]{fullShare} f102) ∗ (arg4.view.loc (c : Thread nD τ) ↦[arg4.view.setOn (Rect.unit (s := S128x4096) ![103, 0] S1x4096.size inb_S128x4096_S1x4096_103_0).set]{fullShare} f103) ∗ (arg4.view.loc (c : Thread nD τ) ↦[arg4.view.setOn (Rect.unit (s := S128x4096) ![104, 0] S1x4096.size inb_S128x4096_S1x4096_104_0).set]{fullShare} f104) ∗ (arg4.view.loc (c : Thread nD τ) ↦[arg4.view.setOn (Rect.unit (s := S128x4096) ![105, 0] S1x4096.size inb_S128x4096_S1x4096_105_0).set]{fullShare} f105) ∗ (arg4.view.loc (c : Thread nD τ) ↦[arg4.view.setOn (Rect.unit (s := S128x4096) ![106, 0] S1x4096.size inb_S128x4096_S1x4096_106_0).set]{fullShare} f106) ∗ (arg4.view.loc (c : Thread nD τ) ↦[arg4.view.setOn (Rect.unit (s := S128x4096) ![107, 0] S1x4096.size inb_S128x4096_S1x4096_107_0).set]{fullShare} f107) ∗ (arg4.view.loc (c : Thread nD τ) ↦[arg4.view.setOn (Rect.unit (s := S128x4096) ![108, 0] S1x4096.size inb_S128x4096_S1x4096_108_0).set]{fullShare} f108) ∗ (arg4.view.loc (c : Thread nD τ) ↦[arg4.view.setOn (Rect.unit (s := S128x4096) ![109, 0] S1x4096.size inb_S128x4096_S1x4096_109_0).set]{fullShare} f109) ∗ (arg4.view.loc (c : Thread nD τ) ↦[arg4.view.setOn (Rect.unit (s := S128x4096) ![110, 0] S1x4096.size inb_S128x4096_S1x4096_110_0).set]{fullShare} f110) ∗ (arg4.view.loc (c : Thread nD τ) ↦[arg4.view.setOn (Rect.unit (s := S128x4096) ![111, 0] S1x4096.size inb_S128x4096_S1x4096_111_0).set]{fullShare} f111) ∗ (arg4.view.loc (c : Thread nD τ) ↦[arg4.view.setOn (Rect.unit (s := S128x4096) ![112, 0] S1x4096.size inb_S128x4096_S1x4096_112_0).set]{fullShare} f112) ∗ (arg4.view.loc (c : Thread nD τ) ↦[arg4.view.setOn (Rect.unit (s := S128x4096) ![113, 0] S1x4096.size inb_S128x4096_S1x4096_113_0).set]{fullShare} f113) ∗ (arg4.view.loc (c : Thread nD τ) ↦[arg4.view.setOn (Rect.unit (s := S128x4096) ![114, 0] S1x4096.size inb_S128x4096_S1x4096_114_0).set]{fullShare} f114) ∗ (arg4.view.loc (c : Thread nD τ) ↦[arg4.view.setOn (Rect.unit (s := S128x4096) ![115, 0] S1x4096.size inb_S128x4096_S1x4096_115_0).set]{fullShare} f115) ∗ (arg4.view.loc (c : Thread nD τ) ↦[arg4.view.setOn (Rect.unit (s := S128x4096) ![116, 0] S1x4096.size inb_S128x4096_S1x4096_116_0).set]{fullShare} f116) ∗ (arg4.view.loc (c : Thread nD τ) ↦[arg4.view.setOn (Rect.unit (s := S128x4096) ![117, 0] S1x4096.size inb_S128x4096_S1x4096_117_0).set]{fullShare} f117) ∗ (arg4.view.loc (c : Thread nD τ) ↦[arg4.view.setOn (Rect.unit (s := S128x4096) ![118, 0] S1x4096.size inb_S128x4096_S1x4096_118_0).set]{fullShare} f118) ∗ (arg4.view.loc (c : Thread nD τ) ↦[arg4.view.setOn (Rect.unit (s := S128x4096) ![119, 0] S1x4096.size inb_S128x4096_S1x4096_119_0).set]{fullShare} f119) ∗ (arg4.view.loc (c : Thread nD τ) ↦[arg4.view.setOn (Rect.unit (s := S128x4096) ![120, 0] S1x4096.size inb_S128x4096_S1x4096_120_0).set]{fullShare} f120) ∗ (arg4.view.loc (c : Thread nD τ) ↦[arg4.view.setOn (Rect.unit (s := S128x4096) ![121, 0] S1x4096.size inb_S128x4096_S1x4096_121_0).set]{fullShare} f121) ∗ (arg4.view.loc (c : Thread nD τ) ↦[arg4.view.setOn (Rect.unit (s := S128x4096) ![122, 0] S1x4096.size inb_S128x4096_S1x4096_122_0).set]{fullShare} f122) ∗ (arg4.view.loc (c : Thread nD τ) ↦[arg4.view.setOn (Rect.unit (s := S128x4096) ![123, 0] S1x4096.size inb_S128x4096_S1x4096_123_0).set]{fullShare} f123) ∗ (arg4.view.loc (c : Thread nD τ) ↦[arg4.view.setOn (Rect.unit (s := S128x4096) ![124, 0] S1x4096.size inb_S128x4096_S1x4096_124_0).set]{fullShare} f124) ∗ (arg4.view.loc (c : Thread nD τ) ↦[arg4.view.setOn (Rect.unit (s := S128x4096) ![125, 0] S1x4096.size inb_S128x4096_S1x4096_125_0).set]{fullShare} f125) ∗ (arg4.view.loc (c : Thread nD τ) ↦[arg4.view.setOn (Rect.unit (s := S128x4096) ![126, 0] S1x4096.size inb_S128x4096_S1x4096_126_0).set]{fullShare} f126) ∗ (arg4.view.loc (c : Thread nD τ) ↦[arg4.view.setOn (Rect.unit (s := S128x4096) ![127, 0] S1x4096.size inb_S128x4096_S1x4096_127_0).set]{fullShare} f127)) : sProp 𝕄)
      ⊢ (arg4.view.loc (c : Thread nD τ) ↦[arg4.view.set]{fullShare} rowsBuf c arg4.view ![f0, f1, f2, f3, f4, f5, f6, f7, f8, f9, f10, f11, f12, f13, f14, f15, f16, f17, f18, f19, f20, f21, f22, f23, f24, f25, f26, f27, f28, f29, f30, f31, f32, f33, f34, f35, f36, f37, f38, f39, f40, f41, f42, f43, f44, f45, f46, f47, f48, f49, f50, f51, f52, f53, f54, f55, f56, f57, f58, f59, f60, f61, f62, f63, f64, f65, f66, f67, f68, f69, f70, f71, f72, f73, f74, f75, f76, f77, f78, f79, f80, f81, f82, f83, f84, f85, f86, f87, f88, f89, f90, f91, f92, f93, f94, f95, f96, f97, f98, f99, f100, f101, f102, f103, f104, f105, f106, f107, f108, f109, f110, f111, f112, f113, f114, f115, f116, f117, f118, f119, f120, f121, f122, f123, f124, f125, f126, f127] : sProp 𝕄) := by
  refine (Entails.of_eq ?_).trans (rows_join c arg4.view fullShare ![f0, f1, f2, f3, f4, f5, f6, f7, f8, f9, f10, f11, f12, f13, f14, f15, f16, f17, f18, f19, f20, f21, f22, f23, f24, f25, f26, f27, f28, f29, f30, f31, f32, f33, f34, f35, f36, f37, f38, f39, f40, f41, f42, f43, f44, f45, f46, f47, f48, f49, f50, f51, f52, f53, f54, f55, f56, f57, f58, f59, f60, f61, f62, f63, f64, f65, f66, f67, f68, f69, f70, f71, f72, f73, f74, f75, f76, f77, f78, f79, f80, f81, f82, f83, f84, f85, f86, f87, f88, f89, f90, f91, f92, f93, f94, f95, f96, f97, f98, f99, f100, f101, f102, f103, f104, f105, f106, f107, f108, f109, f110, f111, f112, f113, f114, f115, f116, f117, f118, f119, f120, f121, f122, f123, f124, f125, f126, f127])
  rw [bigSep128]
  rfl

/-! ## The weight array read through one share per copy -/

abbrev hbM : Memref sig .tc .hbm S16384x4096 .f32 := Memref.whole main_arg1
abbrev HbBuf (c : Dev nD) {sp : Space} {S : Shape} {e : EltTy} (M : Memref sig .tc sp S e) : Type := Buf (Elt F) (M.view.loc (c : Thread nD τ))
/-- A memref's buffer held whole at share `q`. -/
abbrev hbPtq (c : Dev nD) {sp : Space} {S : Shape} {e : EltTy} (M : Memref sig .tc sp S e) (q : PosShare TreeShare) (f : HbBuf (F := F) c M) : sProp 𝕄 :=
  M.view.loc (c : Thread nD τ) ↦{q} f

set_option maxHeartbeats 8000000 in
/-- The weight array held at the full share is the array held at the 128 shares of the chain of halvings. -/
theorem weight_shares (c : Dev nD) (fh : HbBuf (F := F) c hbM) :
    (hbPtq c hbM fullShare fh : sProp 𝕄)
      ⊣⊢ iprop(hbPtq c hbM (kept 0).left fh ∗ hbPtq c hbM (kept 1).left fh ∗ hbPtq c hbM (kept 2).left fh ∗ hbPtq c hbM (kept 3).left fh ∗ hbPtq c hbM (kept 4).left fh ∗ hbPtq c hbM (kept 5).left fh ∗ hbPtq c hbM (kept 6).left fh ∗ hbPtq c hbM (kept 7).left fh ∗ hbPtq c hbM (kept 8).left fh ∗ hbPtq c hbM (kept 9).left fh ∗ hbPtq c hbM (kept 10).left fh ∗ hbPtq c hbM (kept 11).left fh ∗ hbPtq c hbM (kept 12).left fh ∗ hbPtq c hbM (kept 13).left fh ∗ hbPtq c hbM (kept 14).left fh ∗ hbPtq c hbM (kept 15).left fh ∗ hbPtq c hbM (kept 16).left fh ∗ hbPtq c hbM (kept 17).left fh ∗ hbPtq c hbM (kept 18).left fh ∗ hbPtq c hbM (kept 19).left fh ∗ hbPtq c hbM (kept 20).left fh ∗ hbPtq c hbM (kept 21).left fh ∗ hbPtq c hbM (kept 22).left fh ∗ hbPtq c hbM (kept 23).left fh ∗ hbPtq c hbM (kept 24).left fh ∗ hbPtq c hbM (kept 25).left fh ∗ hbPtq c hbM (kept 26).left fh ∗ hbPtq c hbM (kept 27).left fh ∗ hbPtq c hbM (kept 28).left fh ∗ hbPtq c hbM (kept 29).left fh ∗ hbPtq c hbM (kept 30).left fh ∗ hbPtq c hbM (kept 31).left fh ∗ hbPtq c hbM (kept 32).left fh ∗ hbPtq c hbM (kept 33).left fh ∗ hbPtq c hbM (kept 34).left fh ∗ hbPtq c hbM (kept 35).left fh ∗ hbPtq c hbM (kept 36).left fh ∗ hbPtq c hbM (kept 37).left fh ∗ hbPtq c hbM (kept 38).left fh ∗ hbPtq c hbM (kept 39).left fh ∗ hbPtq c hbM (kept 40).left fh ∗ hbPtq c hbM (kept 41).left fh ∗ hbPtq c hbM (kept 42).left fh ∗ hbPtq c hbM (kept 43).left fh ∗ hbPtq c hbM (kept 44).left fh ∗ hbPtq c hbM (kept 45).left fh ∗ hbPtq c hbM (kept 46).left fh ∗ hbPtq c hbM (kept 47).left fh ∗ hbPtq c hbM (kept 48).left fh ∗ hbPtq c hbM (kept 49).left fh ∗ hbPtq c hbM (kept 50).left fh ∗ hbPtq c hbM (kept 51).left fh ∗ hbPtq c hbM (kept 52).left fh ∗ hbPtq c hbM (kept 53).left fh ∗ hbPtq c hbM (kept 54).left fh ∗ hbPtq c hbM (kept 55).left fh ∗ hbPtq c hbM (kept 56).left fh ∗ hbPtq c hbM (kept 57).left fh ∗ hbPtq c hbM (kept 58).left fh ∗ hbPtq c hbM (kept 59).left fh ∗ hbPtq c hbM (kept 60).left fh ∗ hbPtq c hbM (kept 61).left fh ∗ hbPtq c hbM (kept 62).left fh ∗ hbPtq c hbM (kept 63).left fh ∗ hbPtq c hbM (kept 64).left fh ∗ hbPtq c hbM (kept 65).left fh ∗ hbPtq c hbM (kept 66).left fh ∗ hbPtq c hbM (kept 67).left fh ∗ hbPtq c hbM (kept 68).left fh ∗ hbPtq c hbM (kept 69).left fh ∗ hbPtq c hbM (kept 70).left fh ∗ hbPtq c hbM (kept 71).left fh ∗ hbPtq c hbM (kept 72).left fh ∗ hbPtq c hbM (kept 73).left fh ∗ hbPtq c hbM (kept 74).left fh ∗ hbPtq c hbM (kept 75).left fh ∗ hbPtq c hbM (kept 76).left fh ∗ hbPtq c hbM (kept 77).left fh ∗ hbPtq c hbM (kept 78).left fh ∗ hbPtq c hbM (kept 79).left fh ∗ hbPtq c hbM (kept 80).left fh ∗ hbPtq c hbM (kept 81).left fh ∗ hbPtq c hbM (kept 82).left fh ∗ hbPtq c hbM (kept 83).left fh ∗ hbPtq c hbM (kept 84).left fh ∗ hbPtq c hbM (kept 85).left fh ∗ hbPtq c hbM (kept 86).left fh ∗ hbPtq c hbM (kept 87).left fh ∗ hbPtq c hbM (kept 88).left fh ∗ hbPtq c hbM (kept 89).left fh ∗ hbPtq c hbM (kept 90).left fh ∗ hbPtq c hbM (kept 91).left fh ∗ hbPtq c hbM (kept 92).left fh ∗ hbPtq c hbM (kept 93).left fh ∗ hbPtq c hbM (kept 94).left fh ∗ hbPtq c hbM (kept 95).left fh ∗ hbPtq c hbM (kept 96).left fh ∗ hbPtq c hbM (kept 97).left fh ∗ hbPtq c hbM (kept 98).left fh ∗ hbPtq c hbM (kept 99).left fh ∗ hbPtq c hbM (kept 100).left fh ∗ hbPtq c hbM (kept 101).left fh ∗ hbPtq c hbM (kept 102).left fh ∗ hbPtq c hbM (kept 103).left fh ∗ hbPtq c hbM (kept 104).left fh ∗ hbPtq c hbM (kept 105).left fh ∗ hbPtq c hbM (kept 106).left fh ∗ hbPtq c hbM (kept 107).left fh ∗ hbPtq c hbM (kept 108).left fh ∗ hbPtq c hbM (kept 109).left fh ∗ hbPtq c hbM (kept 110).left fh ∗ hbPtq c hbM (kept 111).left fh ∗ hbPtq c hbM (kept 112).left fh ∗ hbPtq c hbM (kept 113).left fh ∗ hbPtq c hbM (kept 114).left fh ∗ hbPtq c hbM (kept 115).left fh ∗ hbPtq c hbM (kept 116).left fh ∗ hbPtq c hbM (kept 117).left fh ∗ hbPtq c hbM (kept 118).left fh ∗ hbPtq c hbM (kept 119).left fh ∗ hbPtq c hbM (kept 120).left fh ∗ hbPtq c hbM (kept 121).left fh ∗ hbPtq c hbM (kept 122).left fh ∗ hbPtq c hbM (kept 123).left fh ∗ hbPtq c hbM (kept 124).left fh ∗ hbPtq c hbM (kept 125).left fh ∗ hbPtq c hbM (kept 126).left fh ∗ hbPtq c hbM (kept 127) fh) :=
  pointsTo_chain (ℓ := hbM.view.loc (c : Thread nD τ)) Finset.univ fh 0 127

end Cert.KernelIdeal.Hand

end
-- ==== Proof.KI.GatherGeneric.lean ====
/-
  Reading one gathered row, piece by piece.
  Point i of the 64 loads table entries 128·i, …, 128·i + 127 (the 32-bit index arithmetic does not wrap); a
  one-element load off the whole table reads that entry; row n of a [R, 4096] array, taken as a [1, 4096] slice and
  squeezed to [4096], reads at j the array's entry (n, j); so the payload of one row copy is the weight array's row named
  by the table word, and a scratch row written whole with a payload reads back as the payload. A buffer that agrees
  row by row with 128 row buffers is read, at an element of row r, as row r's buffer.
-/
import proofs.«172148_j16612933501330_2_alg».proof.Proof.Gen.KernelIdeal.Skeleton
import Idealize.ShloMosaic.Lib.WholeRead
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx

variable {F : FTy → Type} [FloatOps F]

/-- The index arithmetic of the table loads: point n of 64, word k of 128, no wrap-around. -/
theorem off_val (n k : Nat) (hn : n < 64) (hk : k < 128) :
    (Scalar.indexCast (Scalar.addi (Scalar.muli (BitVec.ofNat 32 n) 128#32) (BitVec.ofNat 32 k))).toNat = n * 128 + k := by
  show (BitVec.ofNat 32 n * 128#32 + BitVec.ofNat 32 k).toNat = _
  rw [BitVec.toNat_add, BitVec.toNat_mul, BitVec.toNat_ofNat, BitVec.toNat_ofNat, BitVec.toNat_ofNat]
  omega

/-- The word a one-element load reads off the whole table held at the contents that read x0: entry n, n the load's offset. -/
theorem word_eq (arg1 : Memref sig .tc .smem S8192 .i32) (harg1 : arg1.IsWhole) (x0 : Vec F S8192 .i32)
    (off : Fin 1 → Nat) (inb : ∀ a, off a + S1.size a ≤ S8192.size a) (h1 : 0 < S1.numel)
    (n : Nat) (hn : n < 8192) (hoff : off 0 = n) :
    arg1.view.readAt (Elt F) (Rect.unit (s := S8192) off S1.size inb).toLoadRect (harg1.unread x0) (Shape.Idx.first h1)
      = x0 (ix1 ⟨n, hn⟩) := by
  rw [harg1.readAt_unread]
  refine congrArg x0 (funext fun a => Fin.ext ?_)
  match a with
  | ⟨0, _⟩ =>
    show off 0 + 1 * (Shape.Idx.first h1 (0 : Fin 1)).val = n
    have h0 : (Shape.Idx.first h1 (0 : Fin 1)).val = 0 := by
      have hl := (Shape.Idx.first h1 (0 : Fin 1)).isLt
      have e : S1.size (0 : Fin 1) = 1 := by decide
      omega
    rw [h0, hoff]; omega

/-- Row n of a [R, 4096] memref, taken as a [1, 4096] slice and squeezed to [4096], reads at j what the memref reads at (n, j). -/
theorem row_read {κ : Kind} {sp : Space} {e : EltTy} {R : Nat} (M : Memref sig κ sp ⟨2, ![R, 4096]⟩ e)
    (f : M.view.ty.Contents (Elt F)) (n : Nat) (hn : n < R) (off : Fin 2 → Nat) (hoff : off = ![n, 0])
    (inb : ∀ a, off a + S1x4096.size a ≤ (⟨2, ![R, 4096]⟩ : Shape).size a) (hr) (hq)
    (j : Fin 4096) :
    ((M.slice (Rect.unit (s := ⟨2, ![R, 4096]⟩) off S1x4096.size inb) hr).squeeze S4096 hq).view.read (Elt F) f (ix1 j)
      = M.view.read (Elt F) f (ix2 ⟨n, hn⟩ j) := by
  subst hoff
  rw [Memref.read_squeeze_slice M _ hr hq (show S1x4096.ShapeCasts S4096 by decide) f]
  rw [shapeCast_apply _ _ (ix1 j) (ix2 (0 : Fin 1) j) (by
    show ((⟨2, ![1, 4096]⟩ : Shape).rowMajor (ix2 (0 : Fin 1) j)).val = ((⟨1, ![4096]⟩ : Shape).rowMajor (ix1 j)).val
    rw [Shape.rowMajor_val_two, Shape.rowMajor_val_one]
    show 0 * 4096 + j.val = j.val
    omega)]
  rw [View.readAt_apply]
  refine congrArg _ (funext fun a => Fin.ext ?_)
  match a with
  | ⟨0, _⟩ => show n + 1 * 0 = n; omega
  | ⟨1, _⟩ => show 0 + 1 * j.val = j.val; omega

/-- A row of the scratch written whole with a payload and read back through the scratch's own view: the payload. -/
theorem scratchRow_read (arg4 : Memref sig .tc .vmem S128x4096 .f32) (fs0 : arg4.view.ty.Contents (Elt F))
    (p : S4096.Idx → Elt F .f32) (n : Nat) (hn : n < 128) (off : Fin 2 → Nat) (hoff : off = ![n, 0])
    (inb : ∀ a, off a + S1x4096.size a ≤ S128x4096.size a) (hr) (hq) (j : Fin 4096) :
    arg4.view.read (Elt F)
        (View.write (Elt F) ((arg4.slice (Rect.unit (s := S128x4096) off S1x4096.size inb) hr).squeeze S4096 hq).view fs0 p Finset.univ)
        (ix2 ⟨n, hn⟩ j)
      = p (ix1 j) :=
  (row_read arg4 _ n hn off hoff inb hr hq j).symm.trans (congrFun (View.read_write_univ (v := ((arg4.slice (Rect.unit (s := S128x4096) off S1x4096.size inb) hr).squeeze S4096 hq).view) fs0 p) (ix1 j))

/-- The payload of one row copy: the weight array's row named by the table word, the word being entry m of the table. -/
theorem payload_apply (x0 : Vec F S8192 .i32) (hx : ∀ k : S8192.Idx, (x0 k).toNat < 16384)
    (fh : (Memref.whole main_arg1 : Memref sig .tc .hbm S16384x4096 .f32).view.ty.Contents (Elt F))
    (m : Nat) (hm : m < 8192) (w : BitVec 32) (hw : w = x0 (ix1 ⟨m, hm⟩))
    (off : Fin 2 → Nat) (hoff : off = ![w.toNat, 0])
    (inb : ∀ a, off a + S1x4096.size a ≤ S16384x4096.size a) (hr) (hq) (j : Fin 4096) :
    (((Memref.whole main_arg1 : Memref sig .tc .hbm S16384x4096 .f32).slice (Rect.unit (s := S16384x4096) off S1x4096.size inb) hr).squeeze S4096 hq).view.read (Elt F) fh (ix1 j)
      = (Memref.whole main_arg1 : Memref sig .tc .hbm S16384x4096 .f32).view.read (Elt F) fh (ix2 ⟨(x0 (ix1 ⟨m, hm⟩)).toNat, hx _⟩ j) := by
  subst hw
  exact row_read (Memref.whole main_arg1 : Memref sig .tc .hbm S16384x4096 .f32) fh _ (hx _) off hoff inb hr hq j

/-- A buffer that agrees on every row with that row's own buffer is read, at an element of row r, as row r's buffer. -/
theorem read_of_rows (arg4 : Memref sig .tc .vmem S128x4096 .f32) (X : arg4.view.ty.Contents (Elt F))
    (fs : Fin 128 → arg4.view.ty.Contents (Elt F))
    (hX : ∀ y : S128x4096.Idx, X (arg4.view.emb y) = fs ⟨(y 0).val, (y 0).isLt⟩ (arg4.view.emb y))
    (r : Fin 128) (j : Fin 4096) :
    arg4.view.read (Elt F) X (ix2 r j) = arg4.view.read (Elt F) (fs r) (ix2 r j) := by
  rw [View.read_apply, View.read_apply, hX]

/-! The table offsets of the 128 loads: load N of point i reads entry 128·i + (N−1). A table of cases. -/
theorem off1_eq (i : grid0.Coords) : k0_off1 i 0 = (i 0).val * 128 + 0 := off_val (i 0).val 0 (i 0).isLt (by decide)
theorem off3_eq (i : grid0.Coords) : k0_off3 i 0 = (i 0).val * 128 + 1 := off_val (i 0).val 1 (i 0).isLt (by decide)
theorem off5_eq (i : grid0.Coords) : k0_off5 i 0 = (i 0).val * 128 + 2 := off_val (i 0).val 2 (i 0).isLt (by decide)
theorem off7_eq (i : grid0.Coords) : k0_off7 i 0 = (i 0).val * 128 + 3 := off_val (i 0).val 3 (i 0).isLt (by decide)
theorem off9_eq (i : grid0.Coords) : k0_off9 i 0 = (i 0).val * 128 + 4 := off_val (i 0).val 4 (i 0).isLt (by decide)
theorem off11_eq (i : grid0.Coords) : k0_off11 i 0 = (i 0).val * 128 + 5 := off_val (i 0).val 5 (i 0).isLt (by decide)
theorem off13_eq (i : grid0.Coords) : k0_off13 i 0 = (i 0).val * 128 + 6 := off_val (i 0).val 6 (i 0).isLt (by decide)
theorem off15_eq (i : grid0.Coords) : k0_off15 i 0 = (i 0).val * 128 + 7 := off_val (i 0).val 7 (i 0).isLt (by decide)
theorem off17_eq (i : grid0.Coords) : k0_off17 i 0 = (i 0).val * 128 + 8 := off_val (i 0).val 8 (i 0).isLt (by decide)
theorem off19_eq (i : grid0.Coords) : k0_off19 i 0 = (i 0).val * 128 + 9 := off_val (i 0).val 9 (i 0).isLt (by decide)
theorem off21_eq (i : grid0.Coords) : k0_off21 i 0 = (i 0).val * 128 + 10 := off_val (i 0).val 10 (i 0).isLt (by decide)
theorem off23_eq (i : grid0.Coords) : k0_off23 i 0 = (i 0).val * 128 + 11 := off_val (i 0).val 11 (i 0).isLt (by decide)
theorem off25_eq (i : grid0.Coords) : k0_off25 i 0 = (i 0).val * 128 + 12 := off_val (i 0).val 12 (i 0).isLt (by decide)
theorem off27_eq (i : grid0.Coords) : k0_off27 i 0 = (i 0).val * 128 + 13 := off_val (i 0).val 13 (i 0).isLt (by decide)
theorem off29_eq (i : grid0.Coords) : k0_off29 i 0 = (i 0).val * 128 + 14 := off_val (i 0).val 14 (i 0).isLt (by decide)
theorem off31_eq (i : grid0.Coords) : k0_off31 i 0 = (i 0).val * 128 + 15 := off_val (i 0).val 15 (i 0).isLt (by decide)
theorem off33_eq (i : grid0.Coords) : k0_off33 i 0 = (i 0).val * 128 + 16 := off_val (i 0).val 16 (i 0).isLt (by decide)
theorem off35_eq (i : grid0.Coords) : k0_off35 i 0 = (i 0).val * 128 + 17 := off_val (i 0).val 17 (i 0).isLt (by decide)
theorem off37_eq (i : grid0.Coords) : k0_off37 i 0 = (i 0).val * 128 + 18 := off_val (i 0).val 18 (i 0).isLt (by decide)
theorem off39_eq (i : grid0.Coords) : k0_off39 i 0 = (i 0).val * 128 + 19 := off_val (i 0).val 19 (i 0).isLt (by decide)
theorem off41_eq (i : grid0.Coords) : k0_off41 i 0 = (i 0).val * 128 + 20 := off_val (i 0).val 20 (i 0).isLt (by decide)
theorem off43_eq (i : grid0.Coords) : k0_off43 i 0 = (i 0).val * 128 + 21 := off_val (i 0).val 21 (i 0).isLt (by decide)
theorem off45_eq (i : grid0.Coords) : k0_off45 i 0 = (i 0).val * 128 + 22 := off_val (i 0).val 22 (i 0).isLt (by decide)
theorem off47_eq (i : grid0.Coords) : k0_off47 i 0 = (i 0).val * 128 + 23 := off_val (i 0).val 23 (i 0).isLt (by decide)
theorem off49_eq (i : grid0.Coords) : k0_off49 i 0 = (i 0).val * 128 + 24 := off_val (i 0).val 24 (i 0).isLt (by decide)
theorem off51_eq (i : grid0.Coords) : k0_off51 i 0 = (i 0).val * 128 + 25 := off_val (i 0).val 25 (i 0).isLt (by decide)
theorem off53_eq (i : grid0.Coords) : k0_off53 i 0 = (i 0).val * 128 + 26 := off_val (i 0).val 26 (i 0).isLt (by decide)
theorem off55_eq (i : grid0.Coords) : k0_off55 i 0 = (i 0).val * 128 + 27 := off_val (i 0).val 27 (i 0).isLt (by decide)
theorem off57_eq (i : grid0.Coords) : k0_off57 i 0 = (i 0).val * 128 + 28 := off_val (i 0).val 28 (i 0).isLt (by decide)
theorem off59_eq (i : grid0.Coords) : k0_off59 i 0 = (i 0).val * 128 + 29 := off_val (i 0).val 29 (i 0).isLt (by decide)
theorem off61_eq (i : grid0.Coords) : k0_off61 i 0 = (i 0).val * 128 + 30 := off_val (i 0).val 30 (i 0).isLt (by decide)
theorem off63_eq (i : grid0.Coords) : k0_off63 i 0 = (i 0).val * 128 + 31 := off_val (i 0).val 31 (i 0).isLt (by decide)
theorem off65_eq (i : grid0.Coords) : k0_off65 i 0 = (i 0).val * 128 + 32 := off_val (i 0).val 32 (i 0).isLt (by decide)
theorem off67_eq (i : grid0.Coords) : k0_off67 i 0 = (i 0).val * 128 + 33 := off_val (i 0).val 33 (i 0).isLt (by decide)
theorem off69_eq (i : grid0.Coords) : k0_off69 i 0 = (i 0).val * 128 + 34 := off_val (i 0).val 34 (i 0).isLt (by decide)
theorem off71_eq (i : grid0.Coords) : k0_off71 i 0 = (i 0).val * 128 + 35 := off_val (i 0).val 35 (i 0).isLt (by decide)
theorem off73_eq (i : grid0.Coords) : k0_off73 i 0 = (i 0).val * 128 + 36 := off_val (i 0).val 36 (i 0).isLt (by decide)
theorem off75_eq (i : grid0.Coords) : k0_off75 i 0 = (i 0).val * 128 + 37 := off_val (i 0).val 37 (i 0).isLt (by decide)
theorem off77_eq (i : grid0.Coords) : k0_off77 i 0 = (i 0).val * 128 + 38 := off_val (i 0).val 38 (i 0).isLt (by decide)
theorem off79_eq (i : grid0.Coords) : k0_off79 i 0 = (i 0).val * 128 + 39 := off_val (i 0).val 39 (i 0).isLt (by decide)
theorem off81_eq (i : grid0.Coords) : k0_off81 i 0 = (i 0).val * 128 + 40 := off_val (i 0).val 40 (i 0).isLt (by decide)
theorem off83_eq (i : grid0.Coords) : k0_off83 i 0 = (i 0).val * 128 + 41 := off_val (i 0).val 41 (i 0).isLt (by decide)
theorem off85_eq (i : grid0.Coords) : k0_off85 i 0 = (i 0).val * 128 + 42 := off_val (i 0).val 42 (i 0).isLt (by decide)
theorem off87_eq (i : grid0.Coords) : k0_off87 i 0 = (i 0).val * 128 + 43 := off_val (i 0).val 43 (i 0).isLt (by decide)
theorem off89_eq (i : grid0.Coords) : k0_off89 i 0 = (i 0).val * 128 + 44 := off_val (i 0).val 44 (i 0).isLt (by decide)
theorem off91_eq (i : grid0.Coords) : k0_off91 i 0 = (i 0).val * 128 + 45 := off_val (i 0).val 45 (i 0).isLt (by decide)
theorem off93_eq (i : grid0.Coords) : k0_off93 i 0 = (i 0).val * 128 + 46 := off_val (i 0).val 46 (i 0).isLt (by decide)
theorem off95_eq (i : grid0.Coords) : k0_off95 i 0 = (i 0).val * 128 + 47 := off_val (i 0).val 47 (i 0).isLt (by decide)
theorem off97_eq (i : grid0.Coords) : k0_off97 i 0 = (i 0).val * 128 + 48 := off_val (i 0).val 48 (i 0).isLt (by decide)
theorem off99_eq (i : grid0.Coords) : k0_off99 i 0 = (i 0).val * 128 + 49 := off_val (i 0).val 49 (i 0).isLt (by decide)
theorem off101_eq (i : grid0.Coords) : k0_off101 i 0 = (i 0).val * 128 + 50 := off_val (i 0).val 50 (i 0).isLt (by decide)
theorem off103_eq (i : grid0.Coords) : k0_off103 i 0 = (i 0).val * 128 + 51 := off_val (i 0).val 51 (i 0).isLt (by decide)
theorem off105_eq (i : grid0.Coords) : k0_off105 i 0 = (i 0).val * 128 + 52 := off_val (i 0).val 52 (i 0).isLt (by decide)
theorem off107_eq (i : grid0.Coords) : k0_off107 i 0 = (i 0).val * 128 + 53 := off_val (i 0).val 53 (i 0).isLt (by decide)
theorem off109_eq (i : grid0.Coords) : k0_off109 i 0 = (i 0).val * 128 + 54 := off_val (i 0).val 54 (i 0).isLt (by decide)
theorem off111_eq (i : grid0.Coords) : k0_off111 i 0 = (i 0).val * 128 + 55 := off_val (i 0).val 55 (i 0).isLt (by decide)
theorem off113_eq (i : grid0.Coords) : k0_off113 i 0 = (i 0).val * 128 + 56 := off_val (i 0).val 56 (i 0).isLt (by decide)
theorem off115_eq (i : grid0.Coords) : k0_off115 i 0 = (i 0).val * 128 + 57 := off_val (i 0).val 57 (i 0).isLt (by decide)
theorem off117_eq (i : grid0.Coords) : k0_off117 i 0 = (i 0).val * 128 + 58 := off_val (i 0).val 58 (i 0).isLt (by decide)
theorem off119_eq (i : grid0.Coords) : k0_off119 i 0 = (i 0).val * 128 + 59 := off_val (i 0).val 59 (i 0).isLt (by decide)
theorem off121_eq (i : grid0.Coords) : k0_off121 i 0 = (i 0).val * 128 + 60 := off_val (i 0).val 60 (i 0).isLt (by decide)
theorem off123_eq (i : grid0.Coords) : k0_off123 i 0 = (i 0).val * 128 + 61 := off_val (i 0).val 61 (i 0).isLt (by decide)
theorem off125_eq (i : grid0.Coords) : k0_off125 i 0 = (i 0).val * 128 + 62 := off_val (i 0).val 62 (i 0).isLt (by decide)
theorem off127_eq (i : grid0.Coords) : k0_off127 i 0 = (i 0).val * 128 + 63 := off_val (i 0).val 63 (i 0).isLt (by decide)
theorem off129_eq (i : grid0.Coords) : k0_off129 i 0 = (i 0).val * 128 + 64 := off_val (i 0).val 64 (i 0).isLt (by decide)
theorem off131_eq (i : grid0.Coords) : k0_off131 i 0 = (i 0).val * 128 + 65 := off_val (i 0).val 65 (i 0).isLt (by decide)
theorem off133_eq (i : grid0.Coords) : k0_off133 i 0 = (i 0).val * 128 + 66 := off_val (i 0).val 66 (i 0).isLt (by decide)
theorem off135_eq (i : grid0.Coords) : k0_off135 i 0 = (i 0).val * 128 + 67 := off_val (i 0).val 67 (i 0).isLt (by decide)
theorem off137_eq (i : grid0.Coords) : k0_off137 i 0 = (i 0).val * 128 + 68 := off_val (i 0).val 68 (i 0).isLt (by decide)
theorem off139_eq (i : grid0.Coords) : k0_off139 i 0 = (i 0).val * 128 + 69 := off_val (i 0).val 69 (i 0).isLt (by decide)
theorem off141_eq (i : grid0.Coords) : k0_off141 i 0 = (i 0).val * 128 + 70 := off_val (i 0).val 70 (i 0).isLt (by decide)
theorem off143_eq (i : grid0.Coords) : k0_off143 i 0 = (i 0).val * 128 + 71 := off_val (i 0).val 71 (i 0).isLt (by decide)
theorem off145_eq (i : grid0.Coords) : k0_off145 i 0 = (i 0).val * 128 + 72 := off_val (i 0).val 72 (i 0).isLt (by decide)
theorem off147_eq (i : grid0.Coords) : k0_off147 i 0 = (i 0).val * 128 + 73 := off_val (i 0).val 73 (i 0).isLt (by decide)
theorem off149_eq (i : grid0.Coords) : k0_off149 i 0 = (i 0).val * 128 + 74 := off_val (i 0).val 74 (i 0).isLt (by decide)
theorem off151_eq (i : grid0.Coords) : k0_off151 i 0 = (i 0).val * 128 + 75 := off_val (i 0).val 75 (i 0).isLt (by decide)
theorem off153_eq (i : grid0.Coords) : k0_off153 i 0 = (i 0).val * 128 + 76 := off_val (i 0).val 76 (i 0).isLt (by decide)
theorem off155_eq (i : grid0.Coords) : k0_off155 i 0 = (i 0).val * 128 + 77 := off_val (i 0).val 77 (i 0).isLt (by decide)
theorem off157_eq (i : grid0.Coords) : k0_off157 i 0 = (i 0).val * 128 + 78 := off_val (i 0).val 78 (i 0).isLt (by decide)
theorem off159_eq (i : grid0.Coords) : k0_off159 i 0 = (i 0).val * 128 + 79 := off_val (i 0).val 79 (i 0).isLt (by decide)
theorem off161_eq (i : grid0.Coords) : k0_off161 i 0 = (i 0).val * 128 + 80 := off_val (i 0).val 80 (i 0).isLt (by decide)
theorem off163_eq (i : grid0.Coords) : k0_off163 i 0 = (i 0).val * 128 + 81 := off_val (i 0).val 81 (i 0).isLt (by decide)
theorem off165_eq (i : grid0.Coords) : k0_off165 i 0 = (i 0).val * 128 + 82 := off_val (i 0).val 82 (i 0).isLt (by decide)
theorem off167_eq (i : grid0.Coords) : k0_off167 i 0 = (i 0).val * 128 + 83 := off_val (i 0).val 83 (i 0).isLt (by decide)
theorem off169_eq (i : grid0.Coords) : k0_off169 i 0 = (i 0).val * 128 + 84 := off_val (i 0).val 84 (i 0).isLt (by decide)
theorem off171_eq (i : grid0.Coords) : k0_off171 i 0 = (i 0).val * 128 + 85 := off_val (i 0).val 85 (i 0).isLt (by decide)
theorem off173_eq (i : grid0.Coords) : k0_off173 i 0 = (i 0).val * 128 + 86 := off_val (i 0).val 86 (i 0).isLt (by decide)
theorem off175_eq (i : grid0.Coords) : k0_off175 i 0 = (i 0).val * 128 + 87 := off_val (i 0).val 87 (i 0).isLt (by decide)
theorem off177_eq (i : grid0.Coords) : k0_off177 i 0 = (i 0).val * 128 + 88 := off_val (i 0).val 88 (i 0).isLt (by decide)
theorem off179_eq (i : grid0.Coords) : k0_off179 i 0 = (i 0).val * 128 + 89 := off_val (i 0).val 89 (i 0).isLt (by decide)
theorem off181_eq (i : grid0.Coords) : k0_off181 i 0 = (i 0).val * 128 + 90 := off_val (i 0).val 90 (i 0).isLt (by decide)
theorem off183_eq (i : grid0.Coords) : k0_off183 i 0 = (i 0).val * 128 + 91 := off_val (i 0).val 91 (i 0).isLt (by decide)
theorem off185_eq (i : grid0.Coords) : k0_off185 i 0 = (i 0).val * 128 + 92 := off_val (i 0).val 92 (i 0).isLt (by decide)
theorem off187_eq (i : grid0.Coords) : k0_off187 i 0 = (i 0).val * 128 + 93 := off_val (i 0).val 93 (i 0).isLt (by decide)
theorem off189_eq (i : grid0.Coords) : k0_off189 i 0 = (i 0).val * 128 + 94 := off_val (i 0).val 94 (i 0).isLt (by decide)
theorem off191_eq (i : grid0.Coords) : k0_off191 i 0 = (i 0).val * 128 + 95 := off_val (i 0).val 95 (i 0).isLt (by decide)
theorem off193_eq (i : grid0.Coords) : k0_off193 i 0 = (i 0).val * 128 + 96 := off_val (i 0).val 96 (i 0).isLt (by decide)
theorem off195_eq (i : grid0.Coords) : k0_off195 i 0 = (i 0).val * 128 + 97 := off_val (i 0).val 97 (i 0).isLt (by decide)
theorem off197_eq (i : grid0.Coords) : k0_off197 i 0 = (i 0).val * 128 + 98 := off_val (i 0).val 98 (i 0).isLt (by decide)
theorem off199_eq (i : grid0.Coords) : k0_off199 i 0 = (i 0).val * 128 + 99 := off_val (i 0).val 99 (i 0).isLt (by decide)
theorem off201_eq (i : grid0.Coords) : k0_off201 i 0 = (i 0).val * 128 + 100 := off_val (i 0).val 100 (i 0).isLt (by decide)
theorem off203_eq (i : grid0.Coords) : k0_off203 i 0 = (i 0).val * 128 + 101 := off_val (i 0).val 101 (i 0).isLt (by decide)
theorem off205_eq (i : grid0.Coords) : k0_off205 i 0 = (i 0).val * 128 + 102 := off_val (i 0).val 102 (i 0).isLt (by decide)
theorem off207_eq (i : grid0.Coords) : k0_off207 i 0 = (i 0).val * 128 + 103 := off_val (i 0).val 103 (i 0).isLt (by decide)
theorem off209_eq (i : grid0.Coords) : k0_off209 i 0 = (i 0).val * 128 + 104 := off_val (i 0).val 104 (i 0).isLt (by decide)
theorem off211_eq (i : grid0.Coords) : k0_off211 i 0 = (i 0).val * 128 + 105 := off_val (i 0).val 105 (i 0).isLt (by decide)
theorem off213_eq (i : grid0.Coords) : k0_off213 i 0 = (i 0).val * 128 + 106 := off_val (i 0).val 106 (i 0).isLt (by decide)
theorem off215_eq (i : grid0.Coords) : k0_off215 i 0 = (i 0).val * 128 + 107 := off_val (i 0).val 107 (i 0).isLt (by decide)
theorem off217_eq (i : grid0.Coords) : k0_off217 i 0 = (i 0).val * 128 + 108 := off_val (i 0).val 108 (i 0).isLt (by decide)
theorem off219_eq (i : grid0.Coords) : k0_off219 i 0 = (i 0).val * 128 + 109 := off_val (i 0).val 109 (i 0).isLt (by decide)
theorem off221_eq (i : grid0.Coords) : k0_off221 i 0 = (i 0).val * 128 + 110 := off_val (i 0).val 110 (i 0).isLt (by decide)
theorem off223_eq (i : grid0.Coords) : k0_off223 i 0 = (i 0).val * 128 + 111 := off_val (i 0).val 111 (i 0).isLt (by decide)
theorem off225_eq (i : grid0.Coords) : k0_off225 i 0 = (i 0).val * 128 + 112 := off_val (i 0).val 112 (i 0).isLt (by decide)
theorem off227_eq (i : grid0.Coords) : k0_off227 i 0 = (i 0).val * 128 + 113 := off_val (i 0).val 113 (i 0).isLt (by decide)
theorem off229_eq (i : grid0.Coords) : k0_off229 i 0 = (i 0).val * 128 + 114 := off_val (i 0).val 114 (i 0).isLt (by decide)
theorem off231_eq (i : grid0.Coords) : k0_off231 i 0 = (i 0).val * 128 + 115 := off_val (i 0).val 115 (i 0).isLt (by decide)
theorem off233_eq (i : grid0.Coords) : k0_off233 i 0 = (i 0).val * 128 + 116 := off_val (i 0).val 116 (i 0).isLt (by decide)
theorem off235_eq (i : grid0.Coords) : k0_off235 i 0 = (i 0).val * 128 + 117 := off_val (i 0).val 117 (i 0).isLt (by decide)
theorem off237_eq (i : grid0.Coords) : k0_off237 i 0 = (i 0).val * 128 + 118 := off_val (i 0).val 118 (i 0).isLt (by decide)
theorem off239_eq (i : grid0.Coords) : k0_off239 i 0 = (i 0).val * 128 + 119 := off_val (i 0).val 119 (i 0).isLt (by decide)
theorem off241_eq (i : grid0.Coords) : k0_off241 i 0 = (i 0).val * 128 + 120 := off_val (i 0).val 120 (i 0).isLt (by decide)
theorem off243_eq (i : grid0.Coords) : k0_off243 i 0 = (i 0).val * 128 + 121 := off_val (i 0).val 121 (i 0).isLt (by decide)
theorem off245_eq (i : grid0.Coords) : k0_off245 i 0 = (i 0).val * 128 + 122 := off_val (i 0).val 122 (i 0).isLt (by decide)
theorem off247_eq (i : grid0.Coords) : k0_off247 i 0 = (i 0).val * 128 + 123 := off_val (i 0).val 123 (i 0).isLt (by decide)
theorem off249_eq (i : grid0.Coords) : k0_off249 i 0 = (i 0).val * 128 + 124 := off_val (i 0).val 124 (i 0).isLt (by decide)
theorem off251_eq (i : grid0.Coords) : k0_off251 i 0 = (i 0).val * 128 + 125 := off_val (i 0).val 125 (i 0).isLt (by decide)
theorem off253_eq (i : grid0.Coords) : k0_off253 i 0 = (i 0).val * 128 + 126 := off_val (i 0).val 126 (i 0).isLt (by decide)
theorem off255_eq (i : grid0.Coords) : k0_off255 i 0 = (i 0).val * 128 + 127 := off_val (i 0).val 127 (i 0).isLt (by decide)

end Cert.KernelIdeal.Hand

end
-- ==== Proof.KI.GatherCanon.lean ====
/-
  The scratch buffer after the 128 row copies, as one buffer that depends on the copies' payloads only: row r of the scratch
  was written whole with payload r, so whatever the scratch held before, it now reads as the 128×4096 array whose row r is
  payload r — and a whole buffer is determined by what it reads as.
-/
import proofs.«172148_j16612933501330_2_alg».proof.Proof.KI.GatherLem
import proofs.«172148_j16612933501330_2_alg».proof.Proof.KI.GatherGeneric

set_option maxRecDepth 16384

noncomputable section

namespace Cert.KernelIdeal.Hand

open Cert.KernelIdeal Cert.KernelIdeal.Gen Cert.LibShareChain
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The 128×4096 array whose row `r` is `ps r`. -/
def rowsVec (ps : Fin 128 → (S4096.Idx → Elt F .f32)) : S128x4096.Idx → Elt F .f32 :=
  fun y => ps ⟨(y 0).val, (y 0).isLt⟩ (ix1 ⟨(y 1).val, (y 1).isLt⟩)

theorem rowsVec_apply (ps : Fin 128 → (S4096.Idx → Elt F .f32)) (r : Fin 128) (j : Fin 4096) :
    rowsVec ps (ix2 r j) = ps r (ix1 j) := rfl

theorem rowInb (r : Fin 128) : ∀ a, (![r.val, 0] : Fin 2 → Nat) a + S1x4096.size a ≤ S128x4096.size a := fun a => by
  match a with
  | ⟨0, _⟩ => show r.val + 1 ≤ 128; omega
  | ⟨1, _⟩ => show 0 + 4096 ≤ 4096; omega

/-- Row `r` of the scratch, as the view a row copy writes through. -/
abbrev rowView (arg4 : Memref sig .tc .vmem S128x4096 .f32) (r : Fin 128) : View sig .tc .vmem S4096 .f32 :=
  ((arg4.slice (Rect.unit (s := S128x4096) ![r.val, 0] S1x4096.size (rowInb r)) (fun _ => rfl)).squeeze S4096 squeezes_S1x4096_S4096).view

/-- The joined buffer of rows each written whole with its payload reads as the array of the payloads. -/
theorem rowsBuf_read (c : Dev nD) (arg4 : Memref sig .tc .vmem S128x4096 .f32) (fs0 : Buf (Elt F) (arg4.view.loc (c : Thread nD τ)))
    (ps : Fin 128 → (S4096.Idx → Elt F .f32)) :
    arg4.view.read (Elt F) (rowsBuf c arg4.view (fun r => View.write (Elt F) (rowView arg4 r) fs0 (ps r) Finset.univ)) = rowsVec ps := by
  funext y
  obtain ⟨r, j, rfl⟩ : ∃ (r : Fin 128) (j : Fin 4096), y = ix2 r j := ⟨y 0, y 1, eq_ix2 y⟩
  rw [read_of_rows arg4 _ _ (fun y => rowsBuf_emb c arg4.view _ y) r j]
  exact scratchRow_read arg4 fs0 (ps r) r.val r.isLt _ rfl (rowInb r) _ _ j

/-- Rows held each at its payload written over anything are the scratch held whole at the buffer of the payloads. -/
theorem rows_canon (c : Dev nD) (arg4 : Memref sig .tc .vmem S128x4096 .f32) (harg4 : arg4.IsWhole)
    (fs0 : Buf (Elt F) (arg4.view.loc (c : Thread nD τ))) (ps : Fin 128 → (S4096.Idx → Elt F .f32)) :
    (bigSep (Finset.univ : Finset (Fin 128)) fun r =>
        (arg4.view.loc (c : Thread nD τ) ↦[arg4.view.setOn (rowRect r).set]{fullShare} View.write (Elt F) (rowView arg4 r) fs0 (ps r) Finset.univ : sProp 𝕄))
      ⊢ (arg4.view.loc (c : Thread nD τ) ↦[arg4.view.set]{fullShare} harg4.unread (rowsVec ps) : sProp 𝕄) := by
  rw [← harg4.eq_unread (rowsBuf_read c arg4 fs0 ps)]
  exact rows_join c arg4.view fullShare _

set_option maxHeartbeats 8000000 in
/-- The same, the rows listed one by one. -/
theorem rows_canon128 (c : Dev nD) (arg4 : Memref sig .tc .vmem S128x4096 .f32) (harg4 : arg4.IsWhole)
    (fs0 : Buf (Elt F) (arg4.view.loc (c : Thread nD τ)))
    (p0 : S4096.Idx → Elt F .f32) (p1 : S4096.Idx → Elt F .f32) (p2 : S4096.Idx → Elt F .f32) (p3 : S4096.Idx → Elt F .f32) (p4 : S4096.Idx → Elt F .f32) (p5 : S4096.Idx → Elt F .f32) (p6 : S4096.Idx → Elt F .f32) (p7 : S4096.Idx → Elt F .f32) (p8 : S4096.Idx → Elt F .f32) (p9 : S4096.Idx → Elt F .f32) (p10 : S4096.Idx → Elt F .f32) (p11 : S4096.Idx → Elt F .f32) (p12 : S4096.Idx → Elt F .f32) (p13 : S4096.Idx → Elt F .f32) (p14 : S4096.Idx → Elt F .f32) (p15 : S4096.Idx → Elt F .f32) (p16 : S4096.Idx → Elt F .f32) (p17 : S4096.Idx → Elt F .f32) (p18 : S4096.Idx → Elt F .f32) (p19 : S4096.Idx → Elt F .f32) (p20 : S4096.Idx → Elt F .f32) (p21 : S4096.Idx → Elt F .f32) (p22 : S4096.Idx → Elt F .f32) (p23 : S4096.Idx → Elt F .f32) (p24 : S4096.Idx → Elt F .f32) (p25 : S4096.Idx → Elt F .f32) (p26 : S4096.Idx → Elt F .f32) (p27 : S4096.Idx → Elt F .f32) (p28 : S4096.Idx → Elt F .f32) (p29 : S4096.Idx → Elt F .f32) (p30 : S4096.Idx → Elt F .f32) (p31 : S4096.Idx → Elt F .f32) (p32 : S4096.Idx → Elt F .f32) (p33 : S4096.Idx → Elt F .f32) (p34 : S4096.Idx → Elt F .f32) (p35 : S4096.Idx → Elt F .f32) (p36 : S4096.Idx → Elt F .f32) (p37 : S4096.Idx → Elt F .f32) (p38 : S4096.Idx → Elt F .f32) (p39 : S4096.Idx → Elt F .f32) (p40 : S4096.Idx → Elt F .f32) (p41 : S4096.Idx → Elt F .f32) (p42 : S4096.Idx → Elt F .f32) (p43 : S4096.Idx → Elt F .f32) (p44 : S4096.Idx → Elt F .f32) (p45 : S4096.Idx → Elt F .f32) (p46 : S4096.Idx → Elt F .f32) (p47 : S4096.Idx → Elt F .f32) (p48 : S4096.Idx → Elt F .f32) (p49 : S4096.Idx → Elt F .f32) (p50 : S4096.Idx → Elt F .f32) (p51 : S4096.Idx → Elt F .f32) (p52 : S4096.Idx → Elt F .f32) (p53 : S4096.Idx → Elt F .f32) (p54 : S4096.Idx → Elt F .f32) (p55 : S4096.Idx → Elt F .f32) (p56 : S4096.Idx → Elt F .f32) (p57 : S4096.Idx → Elt F .f32) (p58 : S4096.Idx → Elt F .f32) (p59 : S4096.Idx → Elt F .f32) (p60 : S4096.Idx → Elt F .f32) (p61 : S4096.Idx → Elt F .f32) (p62 : S4096.Idx → Elt F .f32) (p63 : S4096.Idx → Elt F .f32) (p64 : S4096.Idx → Elt F .f32) (p65 : S4096.Idx → Elt F .f32) (p66 : S4096.Idx → Elt F .f32) (p67 : S4096.Idx → Elt F .f32) (p68 : S4096.Idx → Elt F .f32) (p69 : S4096.Idx → Elt F .f32) (p70 : S4096.Idx → Elt F .f32) (p71 : S4096.Idx → Elt F .f32) (p72 : S4096.Idx → Elt F .f32) (p73 : S4096.Idx → Elt F .f32) (p74 : S4096.Idx → Elt F .f32) (p75 : S4096.Idx → Elt F .f32) (p76 : S4096.Idx → Elt F .f32) (p77 : S4096.Idx → Elt F .f32) (p78 : S4096.Idx → Elt F .f32) (p79 : S4096.Idx → Elt F .f32) (p80 : S4096.Idx → Elt F .f32) (p81 : S4096.Idx → Elt F .f32) (p82 : S4096.Idx → Elt F .f32) (p83 : S4096.Idx → Elt F .f32) (p84 : S4096.Idx → Elt F .f32) (p85 : S4096.Idx → Elt F .f32) (p86 : S4096.Idx → Elt F .f32) (p87 : S4096.Idx → Elt F .f32) (p88 : S4096.Idx → Elt F .f32) (p89 : S4096.Idx → Elt F .f32) (p90 : S4096.Idx → Elt F .f32) (p91 : S4096.Idx → Elt F .f32) (p92 : S4096.Idx → Elt F .f32) (p93 : S4096.Idx → Elt F .f32) (p94 : S4096.Idx → Elt F .f32) (p95 : S4096.Idx → Elt F .f32) (p96 : S4096.Idx → Elt F .f32) (p97 : S4096.Idx → Elt F .f32) (p98 : S4096.Idx → Elt F .f32) (p99 : S4096.Idx → Elt F .f32) (p100 : S4096.Idx → Elt F .f32) (p101 : S4096.Idx → Elt F .f32) (p102 : S4096.Idx → Elt F .f32) (p103 : S4096.Idx → Elt F .f32) (p104 : S4096.Idx → Elt F .f32) (p105 : S4096.Idx → Elt F .f32) (p106 : S4096.Idx → Elt F .f32) (p107 : S4096.Idx → Elt F .f32) (p108 : S4096.Idx → Elt F .f32) (p109 : S4096.Idx → Elt F .f32) (p110 : S4096.Idx → Elt F .f32) (p111 : S4096.Idx → Elt F .f32) (p112 : S4096.Idx → Elt F .f32) (p113 : S4096.Idx → Elt F .f32) (p114 : S4096.Idx → Elt F .f32) (p115 : S4096.Idx → Elt F .f32) (p116 : S4096.Idx → Elt F .f32) (p117 : S4096.Idx → Elt F .f32) (p118 : S4096.Idx → Elt F .f32) (p119 : S4096.Idx → Elt F .f32) (p120 : S4096.Idx → Elt F .f32) (p121 : S4096.Idx → Elt F .f32) (p122 : S4096.Idx → Elt F .f32) (p123 : S4096.Idx → Elt F .f32) (p124 : S4096.Idx → Elt F .f32) (p125 : S4096.Idx → Elt F .f32) (p126 : S4096.Idx → Elt F .f32) (p127 : S4096.Idx → Elt F .f32) :
    (iprop((arg4.view.loc (c : Thread nD τ) ↦[arg4.view.setOn (Rect.unit (s := S128x4096) ![0, 0] S1x4096.size inb_S128x4096_S1x4096_0_0).set]{fullShare} View.write (Elt F) ((arg4.slice (Rect.unit (s := S128x4096) ![0, 0] S1x4096.size inb_S128x4096_S1x4096_0_0) (fun _ => rfl)).squeeze S4096 squeezes_S1x4096_S4096).view fs0 p0 Finset.univ) ∗ (arg4.view.loc (c : Thread nD τ) ↦[arg4.view.setOn (Rect.unit (s := S128x4096) ![1, 0] S1x4096.size inb_S128x4096_S1x4096_1_0).set]{fullShare} View.write (Elt F) ((arg4.slice (Rect.unit (s := S128x4096) ![1, 0] S1x4096.size inb_S128x4096_S1x4096_1_0) (fun _ => rfl)).squeeze S4096 squeezes_S1x4096_S4096).view fs0 p1 Finset.univ) ∗ (arg4.view.loc (c : Thread nD τ) ↦[arg4.view.setOn (Rect.unit (s := S128x4096) ![2, 0] S1x4096.size inb_S128x4096_S1x4096_2_0).set]{fullShare} View.write (Elt F) ((arg4.slice (Rect.unit (s := S128x4096) ![2, 0] S1x4096.size inb_S128x4096_S1x4096_2_0) (fun _ => rfl)).squeeze S4096 squeezes_S1x4096_S4096).view fs0 p2 Finset.univ) ∗ (arg4.view.loc (c : Thread nD τ) ↦[arg4.view.setOn (Rect.unit (s := S128x4096) ![3, 0] S1x4096.size inb_S128x4096_S1x4096_3_0).set]{fullShare} View.write (Elt F) ((arg4.slice (Rect.unit (s := S128x4096) ![3, 0] S1x4096.size inb_S128x4096_S1x4096_3_0) (fun _ => rfl)).squeeze S4096 squeezes_S1x4096_S4096).view fs0 p3 Finset.univ) ∗ (arg4.view.loc (c : Thread nD τ) ↦[arg4.view.setOn (Rect.unit (s := S128x4096) ![4, 0] S1x4096.size inb_S128x4096_S1x4096_4_0).set]{fullShare} View.write (Elt F) ((arg4.slice (Rect.unit (s := S128x4096) ![4, 0] S1x4096.size inb_S128x4096_S1x4096_4_0) (fun _ => rfl)).squeeze S4096 squeezes_S1x4096_S4096).view fs0 p4 Finset.univ) ∗ (arg4.view.loc (c : Thread nD τ) ↦[arg4.view.setOn (Rect.unit (s := S128x4096) ![5, 0] S1x4096.size inb_S128x4096_S1x4096_5_0).set]{fullShare} View.write (Elt F) ((arg4.slice (Rect.unit (s := S128x4096) ![5, 0] S1x4096.size inb_S128x4096_S1x4096_5_0) (fun _ => rfl)).squeeze S4096 squeezes_S1x4096_S4096).view fs0 p5 Finset.univ) ∗ (arg4.view.loc (c : Thread nD τ) ↦[arg4.view.setOn (Rect.unit (s := S128x4096) ![6, 0] S1x4096.size inb_S128x4096_S1x4096_6_0).set]{fullShare} View.write (Elt F) ((arg4.slice (Rect.unit (s := S128x4096) ![6, 0] S1x4096.size inb_S128x4096_S1x4096_6_0) (fun _ => rfl)).squeeze S4096 squeezes_S1x4096_S4096).view fs0 p6 Finset.univ) ∗ (arg4.view.loc (c : Thread nD τ) ↦[arg4.view.setOn (Rect.unit (s := S128x4096) ![7, 0] S1x4096.size inb_S128x4096_S1x4096_7_0).set]{fullShare} View.write (Elt F) ((arg4.slice (Rect.unit (s := S128x4096) ![7, 0] S1x4096.size inb_S128x4096_S1x4096_7_0) (fun _ => rfl)).squeeze S4096 squeezes_S1x4096_S4096).view fs0 p7 Finset.univ) ∗ (arg4.view.loc (c : Thread nD τ) ↦[arg4.view.setOn (Rect.unit (s := S128x4096) ![8, 0] S1x4096.size inb_S128x4096_S1x4096_8_0).set]{fullShare} View.write (Elt F) ((arg4.slice (Rect.unit (s := S128x4096) ![8, 0] S1x4096.size inb_S128x4096_S1x4096_8_0) (fun _ => rfl)).squeeze S4096 squeezes_S1x4096_S4096).view fs0 p8 Finset.univ) ∗ (arg4.view.loc (c : Thread nD τ) ↦[arg4.view.setOn (Rect.unit (s := S128x4096) ![9, 0] S1x4096.size inb_S128x4096_S1x4096_9_0).set]{fullShare} View.write (Elt F) ((arg4.slice (Rect.unit (s := S128x4096) ![9, 0] S1x4096.size inb_S128x4096_S1x4096_9_0) (fun _ => rfl)).squeeze S4096 squeezes_S1x4096_S4096).view fs0 p9 Finset.univ) ∗ (arg4.view.loc (c : Thread nD τ) ↦[arg4.view.setOn (Rect.unit (s := S128x4096) ![10, 0] S1x4096.size inb_S128x4096_S1x4096_10_0).set]{fullShare} View.write (Elt F) ((arg4.slice (Rect.unit (s := S128x4096) ![10, 0] S1x4096.size inb_S128x4096_S1x4096_10_0) (fun _ => rfl)).squeeze S4096 squeezes_S1x4096_S4096).view fs0 p10 Finset.univ) ∗ (arg4.view.loc (c : Thread nD τ) ↦[arg4.view.setOn (Rect.unit (s := S128x4096) ![11, 0] S1x4096.size inb_S128x4096_S1x4096_11_0).set]{fullShare} View.write (Elt F) ((arg4.slice (Rect.unit (s := S128x4096) ![11, 0] S1x4096.size inb_S128x4096_S1x4096_11_0) (fun _ => rfl)).squeeze S4096 squeezes_S1x4096_S4096).view fs0 p11 Finset.univ) ∗ (arg4.view.loc (c : Thread nD τ) ↦[arg4.view.setOn (Rect.unit (s := S128x4096) ![12, 0] S1x4096.size inb_S128x4096_S1x4096_12_0).set]{fullShare} View.write (Elt F) ((arg4.slice (Rect.unit (s := S128x4096) ![12, 0] S1x4096.size inb_S128x4096_S1x4096_12_0) (fun _ => rfl)).squeeze S4096 squeezes_S1x4096_S4096).view fs0 p12 Finset.univ) ∗ (arg4.view.loc (c : Thread nD τ) ↦[arg4.view.setOn (Rect.unit (s := S128x4096) ![13, 0] S1x4096.size inb_S128x4096_S1x4096_13_0).set]{fullShare} View.write (Elt F) ((arg4.slice (Rect.unit (s := S128x4096) ![13, 0] S1x4096.size inb_S128x4096_S1x4096_13_0) (fun _ => rfl)).squeeze S4096 squeezes_S1x4096_S4096).view fs0 p13 Finset.univ) ∗ (arg4.view.loc (c : Thread nD τ) ↦[arg4.view.setOn (Rect.unit (s := S128x4096) ![14, 0] S1x4096.size inb_S128x4096_S1x4096_14_0).set]{fullShare} View.write (Elt F) ((arg4.slice (Rect.unit (s := S128x4096) ![14, 0] S1x4096.size inb_S128x4096_S1x4096_14_0) (fun _ => rfl)).squeeze S4096 squeezes_S1x4096_S4096).view fs0 p14 Finset.univ) ∗ (arg4.view.loc (c : Thread nD τ) ↦[arg4.view.setOn (Rect.unit (s := S128x4096) ![15, 0] S1x4096.size inb_S128x4096_S1x4096_15_0).set]{fullShare} View.write (Elt F) ((arg4.slice (Rect.unit (s := S128x4096) ![15, 0] S1x4096.size inb_S128x4096_S1x4096_15_0) (fun _ => rfl)).squeeze S4096 squeezes_S1x4096_S4096).view fs0 p15 Finset.univ) ∗ (arg4.view.loc (c : Thread nD τ) ↦[arg4.view.setOn (Rect.unit (s := S128x4096) ![16, 0] S1x4096.size inb_S128x4096_S1x4096_16_0).set]{fullShare} View.write (Elt F) ((arg4.slice (Rect.unit (s := S128x4096) ![16, 0] S1x4096.size inb_S128x4096_S1x4096_16_0) (fun _ => rfl)).squeeze S4096 squeezes_S1x4096_S4096).view fs0 p16 Finset.univ) ∗ (arg4.view.loc (c : Thread nD τ) ↦[arg4.view.setOn (Rect.unit (s := S128x4096) ![17, 0] S1x4096.size inb_S128x4096_S1x4096_17_0).set]{fullShare} View.write (Elt F) ((arg4.slice (Rect.unit (s := S128x4096) ![17, 0] S1x4096.size inb_S128x4096_S1x4096_17_0) (fun _ => rfl)).squeeze S4096 squeezes_S1x4096_S4096).view fs0 p17 Finset.univ) ∗ (arg4.view.loc (c : Thread nD τ) ↦[arg4.view.setOn (Rect.unit (s := S128x4096) ![18, 0] S1x4096.size inb_S128x4096_S1x4096_18_0).set]{fullShare} View.write (Elt F) ((arg4.slice (Rect.unit (s := S128x4096) ![18, 0] S1x4096.size inb_S128x4096_S1x4096_18_0) (fun _ => rfl)).squeeze S4096 squeezes_S1x4096_S4096).view fs0 p18 Finset.univ) ∗ (arg4.view.loc (c : Thread nD τ) ↦[arg4.view.setOn (Rect.unit (s := S128x4096) ![19, 0] S1x4096.size inb_S128x4096_S1x4096_19_0).set]{fullShare} View.write (Elt F) ((arg4.slice (Rect.unit (s := S128x4096) ![19, 0] S1x4096.size inb_S128x4096_S1x4096_19_0) (fun _ => rfl)).squeeze S4096 squeezes_S1x4096_S4096).view fs0 p19 Finset.univ) ∗ (arg4.view.loc (c : Thread nD τ) ↦[arg4.view.setOn (Rect.unit (s := S128x4096) ![20, 0] S1x4096.size inb_S128x4096_S1x4096_20_0).set]{fullShare} View.write (Elt F) ((arg4.slice (Rect.unit (s := S128x4096) ![20, 0] S1x4096.size inb_S128x4096_S1x4096_20_0) (fun _ => rfl)).squeeze S4096 squeezes_S1x4096_S4096).view fs0 p20 Finset.univ) ∗ (arg4.view.loc (c : Thread nD τ) ↦[arg4.view.setOn (Rect.unit (s := S128x4096) ![21, 0] S1x4096.size inb_S128x4096_S1x4096_21_0).set]{fullShare} View.write (Elt F) ((arg4.slice (Rect.unit (s := S128x4096) ![21, 0] S1x4096.size inb_S128x4096_S1x4096_21_0) (fun _ => rfl)).squeeze S4096 squeezes_S1x4096_S4096).view fs0 p21 Finset.univ) ∗ (arg4.view.loc (c : Thread nD τ) ↦[arg4.view.setOn (Rect.unit (s := S128x4096) ![22, 0] S1x4096.size inb_S128x4096_S1x4096_22_0).set]{fullShare} View.write (Elt F) ((arg4.slice (Rect.unit (s := S128x4096) ![22, 0] S1x4096.size inb_S128x4096_S1x4096_22_0) (fun _ => rfl)).squeeze S4096 squeezes_S1x4096_S4096).view fs0 p22 Finset.univ) ∗ (arg4.view.loc (c : Thread nD τ) ↦[arg4.view.setOn (Rect.unit (s := S128x4096) ![23, 0] S1x4096.size inb_S128x4096_S1x4096_23_0).set]{fullShare} View.write (Elt F) ((arg4.slice (Rect.unit (s := S128x4096) ![23, 0] S1x4096.size inb_S128x4096_S1x4096_23_0) (fun _ => rfl)).squeeze S4096 squeezes_S1x4096_S4096).view fs0 p23 Finset.univ) ∗ (arg4.view.loc (c : Thread nD τ) ↦[arg4.view.setOn (Rect.unit (s := S128x4096) ![24, 0] S1x4096.size inb_S128x4096_S1x4096_24_0).set]{fullShare} View.write (Elt F) ((arg4.slice (Rect.unit (s := S128x4096) ![24, 0] S1x4096.size inb_S128x4096_S1x4096_24_0) (fun _ => rfl)).squeeze S4096 squeezes_S1x4096_S4096).view fs0 p24 Finset.univ) ∗ (arg4.view.loc (c : Thread nD τ) ↦[arg4.view.setOn (Rect.unit (s := S128x4096) ![25, 0] S1x4096.size inb_S128x4096_S1x4096_25_0).set]{fullShare} View.write (Elt F) ((arg4.slice (Rect.unit (s := S128x4096) ![25, 0] S1x4096.size inb_S128x4096_S1x4096_25_0) (fun _ => rfl)).squeeze S4096 squeezes_S1x4096_S4096).view fs0 p25 Finset.univ) ∗ (arg4.view.loc (c : Thread nD τ) ↦[arg4.view.setOn (Rect.unit (s := S128x4096) ![26, 0] S1x4096.size inb_S128x4096_S1x4096_26_0).set]{fullShare} View.write (Elt F) ((arg4.slice (Rect.unit (s := S128x4096) ![26, 0] S1x4096.size inb_S128x4096_S1x4096_26_0) (fun _ => rfl)).squeeze S4096 squeezes_S1x4096_S4096).view fs0 p26 Finset.univ) ∗ (arg4.view.loc (c : Thread nD τ) ↦[arg4.view.setOn (Rect.unit (s := S128x4096) ![27, 0] S1x4096.size inb_S128x4096_S1x4096_27_0).set]{fullShare} View.write (Elt F) ((arg4.slice (Rect.unit (s := S128x4096) ![27, 0] S1x4096.size inb_S128x4096_S1x4096_27_0) (fun _ => rfl)).squeeze S4096 squeezes_S1x4096_S4096).view fs0 p27 Finset.univ) ∗ (arg4.view.loc (c : Thread nD τ) ↦[arg4.view.setOn (Rect.unit (s := S128x4096) ![28, 0] S1x4096.size inb_S128x4096_S1x4096_28_0).set]{fullShare} View.write (Elt F) ((arg4.slice (Rect.unit (s := S128x4096) ![28, 0] S1x4096.size inb_S128x4096_S1x4096_28_0) (fun _ => rfl)).squeeze S4096 squeezes_S1x4096_S4096).view fs0 p28 Finset.univ) ∗ (arg4.view.loc (c : Thread nD τ) ↦[arg4.view.setOn (Rect.unit (s := S128x4096) ![29, 0] S1x4096.size inb_S128x4096_S1x4096_29_0).set]{fullShare} View.write (Elt F) ((arg4.slice (Rect.unit (s := S128x4096) ![29, 0] S1x4096.size inb_S128x4096_S1x4096_29_0) (fun _ => rfl)).squeeze S4096 squeezes_S1x4096_S4096).view fs0 p29 Finset.univ) ∗ (arg4.view.loc (c : Thread nD τ) ↦[arg4.view.setOn (Rect.unit (s := S128x4096) ![30, 0] S1x4096.size inb_S128x4096_S1x4096_30_0).set]{fullShare} View.write (Elt F) ((arg4.slice (Rect.unit (s := S128x4096) ![30, 0] S1x4096.size inb_S128x4096_S1x4096_30_0) (fun _ => rfl)).squeeze S4096 squeezes_S1x4096_S4096).view fs0 p30 Finset.univ) ∗ (arg4.view.loc (c : Thread nD τ) ↦[arg4.view.setOn (Rect.unit (s := S128x4096) ![31, 0] S1x4096.size inb_S128x4096_S1x4096_31_0).set]{fullShare} View.write (Elt F) ((arg4.slice (Rect.unit (s := S128x4096) ![31, 0] S1x4096.size inb_S128x4096_S1x4096_31_0) (fun _ => rfl)).squeeze S4096 squeezes_S1x4096_S4096).view fs0 p31 Finset.univ) ∗ (arg4.view.loc (c : Thread nD τ) ↦[arg4.view.setOn (Rect.unit (s := S128x4096) ![32, 0] S1x4096.size inb_S128x4096_S1x4096_32_0).set]{fullShare} View.write (Elt F) ((arg4.slice (Rect.unit (s := S128x4096) ![32, 0] S1x4096.size inb_S128x4096_S1x4096_32_0) (fun _ => rfl)).squeeze S4096 squeezes_S1x4096_S4096).view fs0 p32 Finset.univ) ∗ (arg4.view.loc (c : Thread nD τ) ↦[arg4.view.setOn (Rect.unit (s := S128x4096) ![33, 0] S1x4096.size inb_S128x4096_S1x4096_33_0).set]{fullShare} View.write (Elt F) ((arg4.slice (Rect.unit (s := S128x4096) ![33, 0] S1x4096.size inb_S128x4096_S1x4096_33_0) (fun _ => rfl)).squeeze S4096 squeezes_S1x4096_S4096).view fs0 p33 Finset.univ) ∗ (arg4.view.loc (c : Thread nD τ) ↦[arg4.view.setOn (Rect.unit (s := S128x4096) ![34, 0] S1x4096.size inb_S128x4096_S1x4096_34_0).set]{fullShare} View.write (Elt F) ((arg4.slice (Rect.unit (s := S128x4096) ![34, 0] S1x4096.size inb_S128x4096_S1x4096_34_0) (fun _ => rfl)).squeeze S4096 squeezes_S1x4096_S4096).view fs0 p34 Finset.univ) ∗ (arg4.view.loc (c : Thread nD τ) ↦[arg4.view.setOn (Rect.unit (s := S128x4096) ![35, 0] S1x4096.size inb_S128x4096_S1x4096_35_0).set]{fullShare} View.write (Elt F) ((arg4.slice (Rect.unit (s := S128x4096) ![35, 0] S1x4096.size inb_S128x4096_S1x4096_35_0) (fun _ => rfl)).squeeze S4096 squeezes_S1x4096_S4096).view fs0 p35 Finset.univ) ∗ (arg4.view.loc (c : Thread nD τ) ↦[arg4.view.setOn (Rect.unit (s := S128x4096) ![36, 0] S1x4096.size inb_S128x4096_S1x4096_36_0).set]{fullShare} View.write (Elt F) ((arg4.slice (Rect.unit (s := S128x4096) ![36, 0] S1x4096.size inb_S128x4096_S1x4096_36_0) (fun _ => rfl)).squeeze S4096 squeezes_S1x4096_S4096).view fs0 p36 Finset.univ) ∗ (arg4.view.loc (c : Thread nD τ) ↦[arg4.view.setOn (Rect.unit (s := S128x4096) ![37, 0] S1x4096.size inb_S128x4096_S1x4096_37_0).set]{fullShare} View.write (Elt F) ((arg4.slice (Rect.unit (s := S128x4096) ![37, 0] S1x4096.size inb_S128x4096_S1x4096_37_0) (fun _ => rfl)).squeeze S4096 squeezes_S1x4096_S4096).view fs0 p37 Finset.univ) ∗ (arg4.view.loc (c : Thread nD τ) ↦[arg4.view.setOn (Rect.unit (s := S128x4096) ![38, 0] S1x4096.size inb_S128x4096_S1x4096_38_0).set]{fullShare} View.write (Elt F) ((arg4.slice (Rect.unit (s := S128x4096) ![38, 0] S1x4096.size inb_S128x4096_S1x4096_38_0) (fun _ => rfl)).squeeze S4096 squeezes_S1x4096_S4096).view fs0 p38 Finset.univ) ∗ (arg4.view.loc (c : Thread nD τ) ↦[arg4.view.setOn (Rect.unit (s := S128x4096) ![39, 0] S1x4096.size inb_S128x4096_S1x4096_39_0).set]{fullShare} View.write (Elt F) ((arg4.slice (Rect.unit (s := S128x4096) ![39, 0] S1x4096.size inb_S128x4096_S1x4096_39_0) (fun _ => rfl)).squeeze S4096 squeezes_S1x4096_S4096).view fs0 p39 Finset.univ) ∗ (arg4.view.loc (c : Thread nD τ) ↦[arg4.view.setOn (Rect.unit (s := S128x4096) ![40, 0] S1x4096.size inb_S128x4096_S1x4096_40_0).set]{fullShare} View.write (Elt F) ((arg4.slice (Rect.unit (s := S128x4096) ![40, 0] S1x4096.size inb_S128x4096_S1x4096_40_0) (fun _ => rfl)).squeeze S4096 squeezes_S1x4096_S4096).view fs0 p40 Finset.univ) ∗ (arg4.view.loc (c : Thread nD τ) ↦[arg4.view.setOn (Rect.unit (s := S128x4096) ![41, 0] S1x4096.size inb_S128x4096_S1x4096_41_0).set]{fullShare} View.write (Elt F) ((arg4.slice (Rect.unit (s := S128x4096) ![41, 0] S1x4096.size inb_S128x4096_S1x4096_41_0) (fun _ => rfl)).squeeze S4096 squeezes_S1x4096_S4096).view fs0 p41 Finset.univ) ∗ (arg4.view.loc (c : Thread nD τ) ↦[arg4.view.setOn (Rect.unit (s := S128x4096) ![42, 0] S1x4096.size inb_S128x4096_S1x4096_42_0).set]{fullShare} View.write (Elt F) ((arg4.slice (Rect.unit (s := S128x4096) ![42, 0] S1x4096.size inb_S128x4096_S1x4096_42_0) (fun _ => rfl)).squeeze S4096 squeezes_S1x4096_S4096).view fs0 p42 Finset.univ) ∗ (arg4.view.loc (c : Thread nD τ) ↦[arg4.view.setOn (Rect.unit (s := S128x4096) ![43, 0] S1x4096.size inb_S128x4096_S1x4096_43_0).set]{fullShare} View.write (Elt F) ((arg4.slice (Rect.unit (s := S128x4096) ![43, 0] S1x4096.size inb_S128x4096_S1x4096_43_0) (fun _ => rfl)).squeeze S4096 squeezes_S1x4096_S4096).view fs0 p43 Finset.univ) ∗ (arg4.view.loc (c : Thread nD τ) ↦[arg4.view.setOn (Rect.unit (s := S128x4096) ![44, 0] S1x4096.size inb_S128x4096_S1x4096_44_0).set]{fullShare} View.write (Elt F) ((arg4.slice (Rect.unit (s := S128x4096) ![44, 0] S1x4096.size inb_S128x4096_S1x4096_44_0) (fun _ => rfl)).squeeze S4096 squeezes_S1x4096_S4096).view fs0 p44 Finset.univ) ∗ (arg4.view.loc (c : Thread nD τ) ↦[arg4.view.setOn (Rect.unit (s := S128x4096) ![45, 0] S1x4096.size inb_S128x4096_S1x4096_45_0).set]{fullShare} View.write (Elt F) ((arg4.slice (Rect.unit (s := S128x4096) ![45, 0] S1x4096.size inb_S128x4096_S1x4096_45_0) (fun _ => rfl)).squeeze S4096 squeezes_S1x4096_S4096).view fs0 p45 Finset.univ) ∗ (arg4.view.loc (c : Thread nD τ) ↦[arg4.view.setOn (Rect.unit (s := S128x4096) ![46, 0] S1x4096.size inb_S128x4096_S1x4096_46_0).set]{fullShare} View.write (Elt F) ((arg4.slice (Rect.unit (s := S128x4096) ![46, 0] S1x4096.size inb_S128x4096_S1x4096_46_0) (fun _ => rfl)).squeeze S4096 squeezes_S1x4096_S4096).view fs0 p46 Finset.univ) ∗ (arg4.view.loc (c : Thread nD τ) ↦[arg4.view.setOn (Rect.unit (s := S128x4096) ![47, 0] S1x4096.size inb_S128x4096_S1x4096_47_0).set]{fullShare} View.write (Elt F) ((arg4.slice (Rect.unit (s := S128x4096) ![47, 0] S1x4096.size inb_S128x4096_S1x4096_47_0) (fun _ => rfl)).squeeze S4096 squeezes_S1x4096_S4096).view fs0 p47 Finset.univ) ∗ (arg4.view.loc (c : Thread nD τ) ↦[arg4.view.setOn (Rect.unit (s := S128x4096) ![48, 0] S1x4096.size inb_S128x4096_S1x4096_48_0).set]{fullShare} View.write (Elt F) ((arg4.slice (Rect.unit (s := S128x4096) ![48, 0] S1x4096.size inb_S128x4096_S1x4096_48_0) (fun _ => rfl)).squeeze S4096 squeezes_S1x4096_S4096).view fs0 p48 Finset.univ) ∗ (arg4.view.loc (c : Thread nD τ) ↦[arg4.view.setOn (Rect.unit (s := S128x4096) ![49, 0] S1x4096.size inb_S128x4096_S1x4096_49_0).set]{fullShare} View.write (Elt F) ((arg4.slice (Rect.unit (s := S128x4096) ![49, 0] S1x4096.size inb_S128x4096_S1x4096_49_0) (fun _ => rfl)).squeeze S4096 squeezes_S1x4096_S4096).view fs0 p49 Finset.univ) ∗ (arg4.view.loc (c : Thread nD τ) ↦[arg4.view.setOn (Rect.unit (s := S128x4096) ![50, 0] S1x4096.size inb_S128x4096_S1x4096_50_0).set]{fullShare} View.write (Elt F) ((arg4.slice (Rect.unit (s := S128x4096) ![50, 0] S1x4096.size inb_S128x4096_S1x4096_50_0) (fun _ => rfl)).squeeze S4096 squeezes_S1x4096_S4096).view fs0 p50 Finset.univ) ∗ (arg4.view.loc (c : Thread nD τ) ↦[arg4.view.setOn (Rect.unit (s := S128x4096) ![51, 0] S1x4096.size inb_S128x4096_S1x4096_51_0).set]{fullShare} View.write (Elt F) ((arg4.slice (Rect.unit (s := S128x4096) ![51, 0] S1x4096.size inb_S128x4096_S1x4096_51_0) (fun _ => rfl)).squeeze S4096 squeezes_S1x4096_S4096).view fs0 p51 Finset.univ) ∗ (arg4.view.loc (c : Thread nD τ) ↦[arg4.view.setOn (Rect.unit (s := S128x4096) ![52, 0] S1x4096.size inb_S128x4096_S1x4096_52_0).set]{fullShare} View.write (Elt F) ((arg4.slice (Rect.unit (s := S128x4096) ![52, 0] S1x4096.size inb_S128x4096_S1x4096_52_0) (fun _ => rfl)).squeeze S4096 squeezes_S1x4096_S4096).view fs0 p52 Finset.univ) ∗ (arg4.view.loc (c : Thread nD τ) ↦[arg4.view.setOn (Rect.unit (s := S128x4096) ![53, 0] S1x4096.size inb_S128x4096_S1x4096_53_0).set]{fullShare} View.write (Elt F) ((arg4.slice (Rect.unit (s := S128x4096) ![53, 0] S1x4096.size inb_S128x4096_S1x4096_53_0) (fun _ => rfl)).squeeze S4096 squeezes_S1x4096_S4096).view fs0 p53 Finset.univ) ∗ (arg4.view.loc (c : Thread nD τ) ↦[arg4.view.setOn (Rect.unit (s := S128x4096) ![54, 0] S1x4096.size inb_S128x4096_S1x4096_54_0).set]{fullShare} View.write (Elt F) ((arg4.slice (Rect.unit (s := S128x4096) ![54, 0] S1x4096.size inb_S128x4096_S1x4096_54_0) (fun _ => rfl)).squeeze S4096 squeezes_S1x4096_S4096).view fs0 p54 Finset.univ) ∗ (arg4.view.loc (c : Thread nD τ) ↦[arg4.view.setOn (Rect.unit (s := S128x4096) ![55, 0] S1x4096.size inb_S128x4096_S1x4096_55_0).set]{fullShare} View.write (Elt F) ((arg4.slice (Rect.unit (s := S128x4096) ![55, 0] S1x4096.size inb_S128x4096_S1x4096_55_0) (fun _ => rfl)).squeeze S4096 squeezes_S1x4096_S4096).view fs0 p55 Finset.univ) ∗ (arg4.view.loc (c : Thread nD τ) ↦[arg4.view.setOn (Rect.unit (s := S128x4096) ![56, 0] S1x4096.size inb_S128x4096_S1x4096_56_0).set]{fullShare} View.write (Elt F) ((arg4.slice (Rect.unit (s := S128x4096) ![56, 0] S1x4096.size inb_S128x4096_S1x4096_56_0) (fun _ => rfl)).squeeze S4096 squeezes_S1x4096_S4096).view fs0 p56 Finset.univ) ∗ (arg4.view.loc (c : Thread nD τ) ↦[arg4.view.setOn (Rect.unit (s := S128x4096) ![57, 0] S1x4096.size inb_S128x4096_S1x4096_57_0).set]{fullShare} View.write (Elt F) ((arg4.slice (Rect.unit (s := S128x4096) ![57, 0] S1x4096.size inb_S128x4096_S1x4096_57_0) (fun _ => rfl)).squeeze S4096 squeezes_S1x4096_S4096).view fs0 p57 Finset.univ) ∗ (arg4.view.loc (c : Thread nD τ) ↦[arg4.view.setOn (Rect.unit (s := S128x4096) ![58, 0] S1x4096.size inb_S128x4096_S1x4096_58_0).set]{fullShare} View.write (Elt F) ((arg4.slice (Rect.unit (s := S128x4096) ![58, 0] S1x4096.size inb_S128x4096_S1x4096_58_0) (fun _ => rfl)).squeeze S4096 squeezes_S1x4096_S4096).view fs0 p58 Finset.univ) ∗ (arg4.view.loc (c : Thread nD τ) ↦[arg4.view.setOn (Rect.unit (s := S128x4096) ![59, 0] S1x4096.size inb_S128x4096_S1x4096_59_0).set]{fullShare} View.write (Elt F) ((arg4.slice (Rect.unit (s := S128x4096) ![59, 0] S1x4096.size inb_S128x4096_S1x4096_59_0) (fun _ => rfl)).squeeze S4096 squeezes_S1x4096_S4096).view fs0 p59 Finset.univ) ∗ (arg4.view.loc (c : Thread nD τ) ↦[arg4.view.setOn (Rect.unit (s := S128x4096) ![60, 0] S1x4096.size inb_S128x4096_S1x4096_60_0).set]{fullShare} View.write (Elt F) ((arg4.slice (Rect.unit (s := S128x4096) ![60, 0] S1x4096.size inb_S128x4096_S1x4096_60_0) (fun _ => rfl)).squeeze S4096 squeezes_S1x4096_S4096).view fs0 p60 Finset.univ) ∗ (arg4.view.loc (c : Thread nD τ) ↦[arg4.view.setOn (Rect.unit (s := S128x4096) ![61, 0] S1x4096.size inb_S128x4096_S1x4096_61_0).set]{fullShare} View.write (Elt F) ((arg4.slice (Rect.unit (s := S128x4096) ![61, 0] S1x4096.size inb_S128x4096_S1x4096_61_0) (fun _ => rfl)).squeeze S4096 squeezes_S1x4096_S4096).view fs0 p61 Finset.univ) ∗ (arg4.view.loc (c : Thread nD τ) ↦[arg4.view.setOn (Rect.unit (s := S128x4096) ![62, 0] S1x4096.size inb_S128x4096_S1x4096_62_0).set]{fullShare} View.write (Elt F) ((arg4.slice (Rect.unit (s := S128x4096) ![62, 0] S1x4096.size inb_S128x4096_S1x4096_62_0) (fun _ => rfl)).squeeze S4096 squeezes_S1x4096_S4096).view fs0 p62 Finset.univ) ∗ (arg4.view.loc (c : Thread nD τ) ↦[arg4.view.setOn (Rect.unit (s := S128x4096) ![63, 0] S1x4096.size inb_S128x4096_S1x4096_63_0).set]{fullShare} View.write (Elt F) ((arg4.slice (Rect.unit (s := S128x4096) ![63, 0] S1x4096.size inb_S128x4096_S1x4096_63_0) (fun _ => rfl)).squeeze S4096 squeezes_S1x4096_S4096).view fs0 p63 Finset.univ) ∗ (arg4.view.loc (c : Thread nD τ) ↦[arg4.view.setOn (Rect.unit (s := S128x4096) ![64, 0] S1x4096.size inb_S128x4096_S1x4096_64_0).set]{fullShare} View.write (Elt F) ((arg4.slice (Rect.unit (s := S128x4096) ![64, 0] S1x4096.size inb_S128x4096_S1x4096_64_0) (fun _ => rfl)).squeeze S4096 squeezes_S1x4096_S4096).view fs0 p64 Finset.univ) ∗ (arg4.view.loc (c : Thread nD τ) ↦[arg4.view.setOn (Rect.unit (s := S128x4096) ![65, 0] S1x4096.size inb_S128x4096_S1x4096_65_0).set]{fullShare} View.write (Elt F) ((arg4.slice (Rect.unit (s := S128x4096) ![65, 0] S1x4096.size inb_S128x4096_S1x4096_65_0) (fun _ => rfl)).squeeze S4096 squeezes_S1x4096_S4096).view fs0 p65 Finset.univ) ∗ (arg4.view.loc (c : Thread nD τ) ↦[arg4.view.setOn (Rect.unit (s := S128x4096) ![66, 0] S1x4096.size inb_S128x4096_S1x4096_66_0).set]{fullShare} View.write (Elt F) ((arg4.slice (Rect.unit (s := S128x4096) ![66, 0] S1x4096.size inb_S128x4096_S1x4096_66_0) (fun _ => rfl)).squeeze S4096 squeezes_S1x4096_S4096).view fs0 p66 Finset.univ) ∗ (arg4.view.loc (c : Thread nD τ) ↦[arg4.view.setOn (Rect.unit (s := S128x4096) ![67, 0] S1x4096.size inb_S128x4096_S1x4096_67_0).set]{fullShare} View.write (Elt F) ((arg4.slice (Rect.unit (s := S128x4096) ![67, 0] S1x4096.size inb_S128x4096_S1x4096_67_0) (fun _ => rfl)).squeeze S4096 squeezes_S1x4096_S4096).view fs0 p67 Finset.univ) ∗ (arg4.view.loc (c : Thread nD τ) ↦[arg4.view.setOn (Rect.unit (s := S128x4096) ![68, 0] S1x4096.size inb_S128x4096_S1x4096_68_0).set]{fullShare} View.write (Elt F) ((arg4.slice (Rect.unit (s := S128x4096) ![68, 0] S1x4096.size inb_S128x4096_S1x4096_68_0) (fun _ => rfl)).squeeze S4096 squeezes_S1x4096_S4096).view fs0 p68 Finset.univ) ∗ (arg4.view.loc (c : Thread nD τ) ↦[arg4.view.setOn (Rect.unit (s := S128x4096) ![69, 0] S1x4096.size inb_S128x4096_S1x4096_69_0).set]{fullShare} View.write (Elt F) ((arg4.slice (Rect.unit (s := S128x4096) ![69, 0] S1x4096.size inb_S128x4096_S1x4096_69_0) (fun _ => rfl)).squeeze S4096 squeezes_S1x4096_S4096).view fs0 p69 Finset.univ) ∗ (arg4.view.loc (c : Thread nD τ) ↦[arg4.view.setOn (Rect.unit (s := S128x4096) ![70, 0] S1x4096.size inb_S128x4096_S1x4096_70_0).set]{fullShare} View.write (Elt F) ((arg4.slice (Rect.unit (s := S128x4096) ![70, 0] S1x4096.size inb_S128x4096_S1x4096_70_0) (fun _ => rfl)).squeeze S4096 squeezes_S1x4096_S4096).view fs0 p70 Finset.univ) ∗ (arg4.view.loc (c : Thread nD τ) ↦[arg4.view.setOn (Rect.unit (s := S128x4096) ![71, 0] S1x4096.size inb_S128x4096_S1x4096_71_0).set]{fullShare} View.write (Elt F) ((arg4.slice (Rect.unit (s := S128x4096) ![71, 0] S1x4096.size inb_S128x4096_S1x4096_71_0) (fun _ => rfl)).squeeze S4096 squeezes_S1x4096_S4096).view fs0 p71 Finset.univ) ∗ (arg4.view.loc (c : Thread nD τ) ↦[arg4.view.setOn (Rect.unit (s := S128x4096) ![72, 0] S1x4096.size inb_S128x4096_S1x4096_72_0).set]{fullShare} View.write (Elt F) ((arg4.slice (Rect.unit (s := S128x4096) ![72, 0] S1x4096.size inb_S128x4096_S1x4096_72_0) (fun _ => rfl)).squeeze S4096 squeezes_S1x4096_S4096).view fs0 p72 Finset.univ) ∗ (arg4.view.loc (c : Thread nD τ) ↦[arg4.view.setOn (Rect.unit (s := S128x4096) ![73, 0] S1x4096.size inb_S128x4096_S1x4096_73_0).set]{fullShare} View.write (Elt F) ((arg4.slice (Rect.unit (s := S128x4096) ![73, 0] S1x4096.size inb_S128x4096_S1x4096_73_0) (fun _ => rfl)).squeeze S4096 squeezes_S1x4096_S4096).view fs0 p73 Finset.univ) ∗ (arg4.view.loc (c : Thread nD τ) ↦[arg4.view.setOn (Rect.unit (s := S128x4096) ![74, 0] S1x4096.size inb_S128x4096_S1x4096_74_0).set]{fullShare} View.write (Elt F) ((arg4.slice (Rect.unit (s := S128x4096) ![74, 0] S1x4096.size inb_S128x4096_S1x4096_74_0) (fun _ => rfl)).squeeze S4096 squeezes_S1x4096_S4096).view fs0 p74 Finset.univ) ∗ (arg4.view.loc (c : Thread nD τ) ↦[arg4.view.setOn (Rect.unit (s := S128x4096) ![75, 0] S1x4096.size inb_S128x4096_S1x4096_75_0).set]{fullShare} View.write (Elt F) ((arg4.slice (Rect.unit (s := S128x4096) ![75, 0] S1x4096.size inb_S128x4096_S1x4096_75_0) (fun _ => rfl)).squeeze S4096 squeezes_S1x4096_S4096).view fs0 p75 Finset.univ) ∗ (arg4.view.loc (c : Thread nD τ) ↦[arg4.view.setOn (Rect.unit (s := S128x4096) ![76, 0] S1x4096.size inb_S128x4096_S1x4096_76_0).set]{fullShare} View.write (Elt F) ((arg4.slice (Rect.unit (s := S128x4096) ![76, 0] S1x4096.size inb_S128x4096_S1x4096_76_0) (fun _ => rfl)).squeeze S4096 squeezes_S1x4096_S4096).view fs0 p76 Finset.univ) ∗ (arg4.view.loc (c : Thread nD τ) ↦[arg4.view.setOn (Rect.unit (s := S128x4096) ![77, 0] S1x4096.size inb_S128x4096_S1x4096_77_0).set]{fullShare} View.write (Elt F) ((arg4.slice (Rect.unit (s := S128x4096) ![77, 0] S1x4096.size inb_S128x4096_S1x4096_77_0) (fun _ => rfl)).squeeze S4096 squeezes_S1x4096_S4096).view fs0 p77 Finset.univ) ∗ (arg4.view.loc (c : Thread nD τ) ↦[arg4.view.setOn (Rect.unit (s := S128x4096) ![78, 0] S1x4096.size inb_S128x4096_S1x4096_78_0).set]{fullShare} View.write (Elt F) ((arg4.slice (Rect.unit (s := S128x4096) ![78, 0] S1x4096.size inb_S128x4096_S1x4096_78_0) (fun _ => rfl)).squeeze S4096 squeezes_S1x4096_S4096).view fs0 p78 Finset.univ) ∗ (arg4.view.loc (c : Thread nD τ) ↦[arg4.view.setOn (Rect.unit (s := S128x4096) ![79, 0] S1x4096.size inb_S128x4096_S1x4096_79_0).set]{fullShare} View.write (Elt F) ((arg4.slice (Rect.unit (s := S128x4096) ![79, 0] S1x4096.size inb_S128x4096_S1x4096_79_0) (fun _ => rfl)).squeeze S4096 squeezes_S1x4096_S4096).view fs0 p79 Finset.univ) ∗ (arg4.view.loc (c : Thread nD τ) ↦[arg4.view.setOn (Rect.unit (s := S128x4096) ![80, 0] S1x4096.size inb_S128x4096_S1x4096_80_0).set]{fullShare} View.write (Elt F) ((arg4.slice (Rect.unit (s := S128x4096) ![80, 0] S1x4096.size inb_S128x4096_S1x4096_80_0) (fun _ => rfl)).squeeze S4096 squeezes_S1x4096_S4096).view fs0 p80 Finset.univ) ∗ (arg4.view.loc (c : Thread nD τ) ↦[arg4.view.setOn (Rect.unit (s := S128x4096) ![81, 0] S1x4096.size inb_S128x4096_S1x4096_81_0).set]{fullShare} View.write (Elt F) ((arg4.slice (Rect.unit (s := S128x4096) ![81, 0] S1x4096.size inb_S128x4096_S1x4096_81_0) (fun _ => rfl)).squeeze S4096 squeezes_S1x4096_S4096).view fs0 p81 Finset.univ) ∗ (arg4.view.loc (c : Thread nD τ) ↦[arg4.view.setOn (Rect.unit (s := S128x4096) ![82, 0] S1x4096.size inb_S128x4096_S1x4096_82_0).set]{fullShare} View.write (Elt F) ((arg4.slice (Rect.unit (s := S128x4096) ![82, 0] S1x4096.size inb_S128x4096_S1x4096_82_0) (fun _ => rfl)).squeeze S4096 squeezes_S1x4096_S4096).view fs0 p82 Finset.univ) ∗ (arg4.view.loc (c : Thread nD τ) ↦[arg4.view.setOn (Rect.unit (s := S128x4096) ![83, 0] S1x4096.size inb_S128x4096_S1x4096_83_0).set]{fullShare} View.write (Elt F) ((arg4.slice (Rect.unit (s := S128x4096) ![83, 0] S1x4096.size inb_S128x4096_S1x4096_83_0) (fun _ => rfl)).squeeze S4096 squeezes_S1x4096_S4096).view fs0 p83 Finset.univ) ∗ (arg4.view.loc (c : Thread nD τ) ↦[arg4.view.setOn (Rect.unit (s := S128x4096) ![84, 0] S1x4096.size inb_S128x4096_S1x4096_84_0).set]{fullShare} View.write (Elt F) ((arg4.slice (Rect.unit (s := S128x4096) ![84, 0] S1x4096.size inb_S128x4096_S1x4096_84_0) (fun _ => rfl)).squeeze S4096 squeezes_S1x4096_S4096).view fs0 p84 Finset.univ) ∗ (arg4.view.loc (c : Thread nD τ) ↦[arg4.view.setOn (Rect.unit (s := S128x4096) ![85, 0] S1x4096.size inb_S128x4096_S1x4096_85_0).set]{fullShare} View.write (Elt F) ((arg4.slice (Rect.unit (s := S128x4096) ![85, 0] S1x4096.size inb_S128x4096_S1x4096_85_0) (fun _ => rfl)).squeeze S4096 squeezes_S1x4096_S4096).view fs0 p85 Finset.univ) ∗ (arg4.view.loc (c : Thread nD τ) ↦[arg4.view.setOn (Rect.unit (s := S128x4096) ![86, 0] S1x4096.size inb_S128x4096_S1x4096_86_0).set]{fullShare} View.write (Elt F) ((arg4.slice (Rect.unit (s := S128x4096) ![86, 0] S1x4096.size inb_S128x4096_S1x4096_86_0) (fun _ => rfl)).squeeze S4096 squeezes_S1x4096_S4096).view fs0 p86 Finset.univ) ∗ (arg4.view.loc (c : Thread nD τ) ↦[arg4.view.setOn (Rect.unit (s := S128x4096) ![87, 0] S1x4096.size inb_S128x4096_S1x4096_87_0).set]{fullShare} View.write (Elt F) ((arg4.slice (Rect.unit (s := S128x4096) ![87, 0] S1x4096.size inb_S128x4096_S1x4096_87_0) (fun _ => rfl)).squeeze S4096 squeezes_S1x4096_S4096).view fs0 p87 Finset.univ) ∗ (arg4.view.loc (c : Thread nD τ) ↦[arg4.view.setOn (Rect.unit (s := S128x4096) ![88, 0] S1x4096.size inb_S128x4096_S1x4096_88_0).set]{fullShare} View.write (Elt F) ((arg4.slice (Rect.unit (s := S128x4096) ![88, 0] S1x4096.size inb_S128x4096_S1x4096_88_0) (fun _ => rfl)).squeeze S4096 squeezes_S1x4096_S4096).view fs0 p88 Finset.univ) ∗ (arg4.view.loc (c : Thread nD τ) ↦[arg4.view.setOn (Rect.unit (s := S128x4096) ![89, 0] S1x4096.size inb_S128x4096_S1x4096_89_0).set]{fullShare} View.write (Elt F) ((arg4.slice (Rect.unit (s := S128x4096) ![89, 0] S1x4096.size inb_S128x4096_S1x4096_89_0) (fun _ => rfl)).squeeze S4096 squeezes_S1x4096_S4096).view fs0 p89 Finset.univ) ∗ (arg4.view.loc (c : Thread nD τ) ↦[arg4.view.setOn (Rect.unit (s := S128x4096) ![90, 0] S1x4096.size inb_S128x4096_S1x4096_90_0).set]{fullShare} View.write (Elt F) ((arg4.slice (Rect.unit (s := S128x4096) ![90, 0] S1x4096.size inb_S128x4096_S1x4096_90_0) (fun _ => rfl)).squeeze S4096 squeezes_S1x4096_S4096).view fs0 p90 Finset.univ) ∗ (arg4.view.loc (c : Thread nD τ) ↦[arg4.view.setOn (Rect.unit (s := S128x4096) ![91, 0] S1x4096.size inb_S128x4096_S1x4096_91_0).set]{fullShare} View.write (Elt F) ((arg4.slice (Rect.unit (s := S128x4096) ![91, 0] S1x4096.size inb_S128x4096_S1x4096_91_0) (fun _ => rfl)).squeeze S4096 squeezes_S1x4096_S4096).view fs0 p91 Finset.univ) ∗ (arg4.view.loc (c : Thread nD τ) ↦[arg4.view.setOn (Rect.unit (s := S128x4096) ![92, 0] S1x4096.size inb_S128x4096_S1x4096_92_0).set]{fullShare} View.write (Elt F) ((arg4.slice (Rect.unit (s := S128x4096) ![92, 0] S1x4096.size inb_S128x4096_S1x4096_92_0) (fun _ => rfl)).squeeze S4096 squeezes_S1x4096_S4096).view fs0 p92 Finset.univ) ∗ (arg4.view.loc (c : Thread nD τ) ↦[arg4.view.setOn (Rect.unit (s := S128x4096) ![93, 0] S1x4096.size inb_S128x4096_S1x4096_93_0).set]{fullShare} View.write (Elt F) ((arg4.slice (Rect.unit (s := S128x4096) ![93, 0] S1x4096.size inb_S128x4096_S1x4096_93_0) (fun _ => rfl)).squeeze S4096 squeezes_S1x4096_S4096).view fs0 p93 Finset.univ) ∗ (arg4.view.loc (c : Thread nD τ) ↦[arg4.view.setOn (Rect.unit (s := S128x4096) ![94, 0] S1x4096.size inb_S128x4096_S1x4096_94_0).set]{fullShare} View.write (Elt F) ((arg4.slice (Rect.unit (s := S128x4096) ![94, 0] S1x4096.size inb_S128x4096_S1x4096_94_0) (fun _ => rfl)).squeeze S4096 squeezes_S1x4096_S4096).view fs0 p94 Finset.univ) ∗ (arg4.view.loc (c : Thread nD τ) ↦[arg4.view.setOn (Rect.unit (s := S128x4096) ![95, 0] S1x4096.size inb_S128x4096_S1x4096_95_0).set]{fullShare} View.write (Elt F) ((arg4.slice (Rect.unit (s := S128x4096) ![95, 0] S1x4096.size inb_S128x4096_S1x4096_95_0) (fun _ => rfl)).squeeze S4096 squeezes_S1x4096_S4096).view fs0 p95 Finset.univ) ∗ (arg4.view.loc (c : Thread nD τ) ↦[arg4.view.setOn (Rect.unit (s := S128x4096) ![96, 0] S1x4096.size inb_S128x4096_S1x4096_96_0).set]{fullShare} View.write (Elt F) ((arg4.slice (Rect.unit (s := S128x4096) ![96, 0] S1x4096.size inb_S128x4096_S1x4096_96_0) (fun _ => rfl)).squeeze S4096 squeezes_S1x4096_S4096).view fs0 p96 Finset.univ) ∗ (arg4.view.loc (c : Thread nD τ) ↦[arg4.view.setOn (Rect.unit (s := S128x4096) ![97, 0] S1x4096.size inb_S128x4096_S1x4096_97_0).set]{fullShare} View.write (Elt F) ((arg4.slice (Rect.unit (s := S128x4096) ![97, 0] S1x4096.size inb_S128x4096_S1x4096_97_0) (fun _ => rfl)).squeeze S4096 squeezes_S1x4096_S4096).view fs0 p97 Finset.univ) ∗ (arg4.view.loc (c : Thread nD τ) ↦[arg4.view.setOn (Rect.unit (s := S128x4096) ![98, 0] S1x4096.size inb_S128x4096_S1x4096_98_0).set]{fullShare} View.write (Elt F) ((arg4.slice (Rect.unit (s := S128x4096) ![98, 0] S1x4096.size inb_S128x4096_S1x4096_98_0) (fun _ => rfl)).squeeze S4096 squeezes_S1x4096_S4096).view fs0 p98 Finset.univ) ∗ (arg4.view.loc (c : Thread nD τ) ↦[arg4.view.setOn (Rect.unit (s := S128x4096) ![99, 0] S1x4096.size inb_S128x4096_S1x4096_99_0).set]{fullShare} View.write (Elt F) ((arg4.slice (Rect.unit (s := S128x4096) ![99, 0] S1x4096.size inb_S128x4096_S1x4096_99_0) (fun _ => rfl)).squeeze S4096 squeezes_S1x4096_S4096).view fs0 p99 Finset.univ) ∗ (arg4.view.loc (c : Thread nD τ) ↦[arg4.view.setOn (Rect.unit (s := S128x4096) ![100, 0] S1x4096.size inb_S128x4096_S1x4096_100_0).set]{fullShare} View.write (Elt F) ((arg4.slice (Rect.unit (s := S128x4096) ![100, 0] S1x4096.size inb_S128x4096_S1x4096_100_0) (fun _ => rfl)).squeeze S4096 squeezes_S1x4096_S4096).view fs0 p100 Finset.univ) ∗ (arg4.view.loc (c : Thread nD τ) ↦[arg4.view.setOn (Rect.unit (s := S128x4096) ![101, 0] S1x4096.size inb_S128x4096_S1x4096_101_0).set]{fullShare} View.write (Elt F) ((arg4.slice (Rect.unit (s := S128x4096) ![101, 0] S1x4096.size inb_S128x4096_S1x4096_101_0) (fun _ => rfl)).squeeze S4096 squeezes_S1x4096_S4096).view fs0 p101 Finset.univ) ∗ (arg4.view.loc (c : Thread nD τ) ↦[arg4.view.setOn (Rect.unit (s := S128x4096) ![102, 0] S1x4096.size inb_S128x4096_S1x4096_102_0).set]{fullShare} View.write (Elt F) ((arg4.slice (Rect.unit (s := S128x4096) ![102, 0] S1x4096.size inb_S128x4096_S1x4096_102_0) (fun _ => rfl)).squeeze S4096 squeezes_S1x4096_S4096).view fs0 p102 Finset.univ) ∗ (arg4.view.loc (c : Thread nD τ) ↦[arg4.view.setOn (Rect.unit (s := S128x4096) ![103, 0] S1x4096.size inb_S128x4096_S1x4096_103_0).set]{fullShare} View.write (Elt F) ((arg4.slice (Rect.unit (s := S128x4096) ![103, 0] S1x4096.size inb_S128x4096_S1x4096_103_0) (fun _ => rfl)).squeeze S4096 squeezes_S1x4096_S4096).view fs0 p103 Finset.univ) ∗ (arg4.view.loc (c : Thread nD τ) ↦[arg4.view.setOn (Rect.unit (s := S128x4096) ![104, 0] S1x4096.size inb_S128x4096_S1x4096_104_0).set]{fullShare} View.write (Elt F) ((arg4.slice (Rect.unit (s := S128x4096) ![104, 0] S1x4096.size inb_S128x4096_S1x4096_104_0) (fun _ => rfl)).squeeze S4096 squeezes_S1x4096_S4096).view fs0 p104 Finset.univ) ∗ (arg4.view.loc (c : Thread nD τ) ↦[arg4.view.setOn (Rect.unit (s := S128x4096) ![105, 0] S1x4096.size inb_S128x4096_S1x4096_105_0).set]{fullShare} View.write (Elt F) ((arg4.slice (Rect.unit (s := S128x4096) ![105, 0] S1x4096.size inb_S128x4096_S1x4096_105_0) (fun _ => rfl)).squeeze S4096 squeezes_S1x4096_S4096).view fs0 p105 Finset.univ) ∗ (arg4.view.loc (c : Thread nD τ) ↦[arg4.view.setOn (Rect.unit (s := S128x4096) ![106, 0] S1x4096.size inb_S128x4096_S1x4096_106_0).set]{fullShare} View.write (Elt F) ((arg4.slice (Rect.unit (s := S128x4096) ![106, 0] S1x4096.size inb_S128x4096_S1x4096_106_0) (fun _ => rfl)).squeeze S4096 squeezes_S1x4096_S4096).view fs0 p106 Finset.univ) ∗ (arg4.view.loc (c : Thread nD τ) ↦[arg4.view.setOn (Rect.unit (s := S128x4096) ![107, 0] S1x4096.size inb_S128x4096_S1x4096_107_0).set]{fullShare} View.write (Elt F) ((arg4.slice (Rect.unit (s := S128x4096) ![107, 0] S1x4096.size inb_S128x4096_S1x4096_107_0) (fun _ => rfl)).squeeze S4096 squeezes_S1x4096_S4096).view fs0 p107 Finset.univ) ∗ (arg4.view.loc (c : Thread nD τ) ↦[arg4.view.setOn (Rect.unit (s := S128x4096) ![108, 0] S1x4096.size inb_S128x4096_S1x4096_108_0).set]{fullShare} View.write (Elt F) ((arg4.slice (Rect.unit (s := S128x4096) ![108, 0] S1x4096.size inb_S128x4096_S1x4096_108_0) (fun _ => rfl)).squeeze S4096 squeezes_S1x4096_S4096).view fs0 p108 Finset.univ) ∗ (arg4.view.loc (c : Thread nD τ) ↦[arg4.view.setOn (Rect.unit (s := S128x4096) ![109, 0] S1x4096.size inb_S128x4096_S1x4096_109_0).set]{fullShare} View.write (Elt F) ((arg4.slice (Rect.unit (s := S128x4096) ![109, 0] S1x4096.size inb_S128x4096_S1x4096_109_0) (fun _ => rfl)).squeeze S4096 squeezes_S1x4096_S4096).view fs0 p109 Finset.univ) ∗ (arg4.view.loc (c : Thread nD τ) ↦[arg4.view.setOn (Rect.unit (s := S128x4096) ![110, 0] S1x4096.size inb_S128x4096_S1x4096_110_0).set]{fullShare} View.write (Elt F) ((arg4.slice (Rect.unit (s := S128x4096) ![110, 0] S1x4096.size inb_S128x4096_S1x4096_110_0) (fun _ => rfl)).squeeze S4096 squeezes_S1x4096_S4096).view fs0 p110 Finset.univ) ∗ (arg4.view.loc (c : Thread nD τ) ↦[arg4.view.setOn (Rect.unit (s := S128x4096) ![111, 0] S1x4096.size inb_S128x4096_S1x4096_111_0).set]{fullShare} View.write (Elt F) ((arg4.slice (Rect.unit (s := S128x4096) ![111, 0] S1x4096.size inb_S128x4096_S1x4096_111_0) (fun _ => rfl)).squeeze S4096 squeezes_S1x4096_S4096).view fs0 p111 Finset.univ) ∗ (arg4.view.loc (c : Thread nD τ) ↦[arg4.view.setOn (Rect.unit (s := S128x4096) ![112, 0] S1x4096.size inb_S128x4096_S1x4096_112_0).set]{fullShare} View.write (Elt F) ((arg4.slice (Rect.unit (s := S128x4096) ![112, 0] S1x4096.size inb_S128x4096_S1x4096_112_0) (fun _ => rfl)).squeeze S4096 squeezes_S1x4096_S4096).view fs0 p112 Finset.univ) ∗ (arg4.view.loc (c : Thread nD τ) ↦[arg4.view.setOn (Rect.unit (s := S128x4096) ![113, 0] S1x4096.size inb_S128x4096_S1x4096_113_0).set]{fullShare} View.write (Elt F) ((arg4.slice (Rect.unit (s := S128x4096) ![113, 0] S1x4096.size inb_S128x4096_S1x4096_113_0) (fun _ => rfl)).squeeze S4096 squeezes_S1x4096_S4096).view fs0 p113 Finset.univ) ∗ (arg4.view.loc (c : Thread nD τ) ↦[arg4.view.setOn (Rect.unit (s := S128x4096) ![114, 0] S1x4096.size inb_S128x4096_S1x4096_114_0).set]{fullShare} View.write (Elt F) ((arg4.slice (Rect.unit (s := S128x4096) ![114, 0] S1x4096.size inb_S128x4096_S1x4096_114_0) (fun _ => rfl)).squeeze S4096 squeezes_S1x4096_S4096).view fs0 p114 Finset.univ) ∗ (arg4.view.loc (c : Thread nD τ) ↦[arg4.view.setOn (Rect.unit (s := S128x4096) ![115, 0] S1x4096.size inb_S128x4096_S1x4096_115_0).set]{fullShare} View.write (Elt F) ((arg4.slice (Rect.unit (s := S128x4096) ![115, 0] S1x4096.size inb_S128x4096_S1x4096_115_0) (fun _ => rfl)).squeeze S4096 squeezes_S1x4096_S4096).view fs0 p115 Finset.univ) ∗ (arg4.view.loc (c : Thread nD τ) ↦[arg4.view.setOn (Rect.unit (s := S128x4096) ![116, 0] S1x4096.size inb_S128x4096_S1x4096_116_0).set]{fullShare} View.write (Elt F) ((arg4.slice (Rect.unit (s := S128x4096) ![116, 0] S1x4096.size inb_S128x4096_S1x4096_116_0) (fun _ => rfl)).squeeze S4096 squeezes_S1x4096_S4096).view fs0 p116 Finset.univ) ∗ (arg4.view.loc (c : Thread nD τ) ↦[arg4.view.setOn (Rect.unit (s := S128x4096) ![117, 0] S1x4096.size inb_S128x4096_S1x4096_117_0).set]{fullShare} View.write (Elt F) ((arg4.slice (Rect.unit (s := S128x4096) ![117, 0] S1x4096.size inb_S128x4096_S1x4096_117_0) (fun _ => rfl)).squeeze S4096 squeezes_S1x4096_S4096).view fs0 p117 Finset.univ) ∗ (arg4.view.loc (c : Thread nD τ) ↦[arg4.view.setOn (Rect.unit (s := S128x4096) ![118, 0] S1x4096.size inb_S128x4096_S1x4096_118_0).set]{fullShare} View.write (Elt F) ((arg4.slice (Rect.unit (s := S128x4096) ![118, 0] S1x4096.size inb_S128x4096_S1x4096_118_0) (fun _ => rfl)).squeeze S4096 squeezes_S1x4096_S4096).view fs0 p118 Finset.univ) ∗ (arg4.view.loc (c : Thread nD τ) ↦[arg4.view.setOn (Rect.unit (s := S128x4096) ![119, 0] S1x4096.size inb_S128x4096_S1x4096_119_0).set]{fullShare} View.write (Elt F) ((arg4.slice (Rect.unit (s := S128x4096) ![119, 0] S1x4096.size inb_S128x4096_S1x4096_119_0) (fun _ => rfl)).squeeze S4096 squeezes_S1x4096_S4096).view fs0 p119 Finset.univ) ∗ (arg4.view.loc (c : Thread nD τ) ↦[arg4.view.setOn (Rect.unit (s := S128x4096) ![120, 0] S1x4096.size inb_S128x4096_S1x4096_120_0).set]{fullShare} View.write (Elt F) ((arg4.slice (Rect.unit (s := S128x4096) ![120, 0] S1x4096.size inb_S128x4096_S1x4096_120_0) (fun _ => rfl)).squeeze S4096 squeezes_S1x4096_S4096).view fs0 p120 Finset.univ) ∗ (arg4.view.loc (c : Thread nD τ) ↦[arg4.view.setOn (Rect.unit (s := S128x4096) ![121, 0] S1x4096.size inb_S128x4096_S1x4096_121_0).set]{fullShare} View.write (Elt F) ((arg4.slice (Rect.unit (s := S128x4096) ![121, 0] S1x4096.size inb_S128x4096_S1x4096_121_0) (fun _ => rfl)).squeeze S4096 squeezes_S1x4096_S4096).view fs0 p121 Finset.univ) ∗ (arg4.view.loc (c : Thread nD τ) ↦[arg4.view.setOn (Rect.unit (s := S128x4096) ![122, 0] S1x4096.size inb_S128x4096_S1x4096_122_0).set]{fullShare} View.write (Elt F) ((arg4.slice (Rect.unit (s := S128x4096) ![122, 0] S1x4096.size inb_S128x4096_S1x4096_122_0) (fun _ => rfl)).squeeze S4096 squeezes_S1x4096_S4096).view fs0 p122 Finset.univ) ∗ (arg4.view.loc (c : Thread nD τ) ↦[arg4.view.setOn (Rect.unit (s := S128x4096) ![123, 0] S1x4096.size inb_S128x4096_S1x4096_123_0).set]{fullShare} View.write (Elt F) ((arg4.slice (Rect.unit (s := S128x4096) ![123, 0] S1x4096.size inb_S128x4096_S1x4096_123_0) (fun _ => rfl)).squeeze S4096 squeezes_S1x4096_S4096).view fs0 p123 Finset.univ) ∗ (arg4.view.loc (c : Thread nD τ) ↦[arg4.view.setOn (Rect.unit (s := S128x4096) ![124, 0] S1x4096.size inb_S128x4096_S1x4096_124_0).set]{fullShare} View.write (Elt F) ((arg4.slice (Rect.unit (s := S128x4096) ![124, 0] S1x4096.size inb_S128x4096_S1x4096_124_0) (fun _ => rfl)).squeeze S4096 squeezes_S1x4096_S4096).view fs0 p124 Finset.univ) ∗ (arg4.view.loc (c : Thread nD τ) ↦[arg4.view.setOn (Rect.unit (s := S128x4096) ![125, 0] S1x4096.size inb_S128x4096_S1x4096_125_0).set]{fullShare} View.write (Elt F) ((arg4.slice (Rect.unit (s := S128x4096) ![125, 0] S1x4096.size inb_S128x4096_S1x4096_125_0) (fun _ => rfl)).squeeze S4096 squeezes_S1x4096_S4096).view fs0 p125 Finset.univ) ∗ (arg4.view.loc (c : Thread nD τ) ↦[arg4.view.setOn (Rect.unit (s := S128x4096) ![126, 0] S1x4096.size inb_S128x4096_S1x4096_126_0).set]{fullShare} View.write (Elt F) ((arg4.slice (Rect.unit (s := S128x4096) ![126, 0] S1x4096.size inb_S128x4096_S1x4096_126_0) (fun _ => rfl)).squeeze S4096 squeezes_S1x4096_S4096).view fs0 p126 Finset.univ) ∗ (arg4.view.loc (c : Thread nD τ) ↦[arg4.view.setOn (Rect.unit (s := S128x4096) ![127, 0] S1x4096.size inb_S128x4096_S1x4096_127_0).set]{fullShare} View.write (Elt F) ((arg4.slice (Rect.unit (s := S128x4096) ![127, 0] S1x4096.size inb_S128x4096_S1x4096_127_0) (fun _ => rfl)).squeeze S4096 squeezes_S1x4096_S4096).view fs0 p127 Finset.univ)) : sProp 𝕄)
      ⊢ (arg4.view.loc (c : Thread nD τ) ↦[arg4.view.set]{fullShare} harg4.unread (rowsVec ![p0, p1, p2, p3, p4, p5, p6, p7, p8, p9, p10, p11, p12, p13, p14, p15, p16, p17, p18, p19, p20, p21, p22, p23, p24, p25, p26, p27, p28, p29, p30, p31, p32, p33, p34, p35, p36, p37, p38, p39, p40, p41, p42, p43, p44, p45, p46, p47, p48, p49, p50, p51, p52, p53, p54, p55, p56, p57, p58, p59, p60, p61, p62, p63, p64, p65, p66, p67, p68, p69, p70, p71, p72, p73, p74, p75, p76, p77, p78, p79, p80, p81, p82, p83, p84, p85, p86, p87, p88, p89, p90, p91, p92, p93, p94, p95, p96, p97, p98, p99, p100, p101, p102, p103, p104, p105, p106, p107, p108, p109, p110, p111, p112, p113, p114, p115, p116, p117, p118, p119, p120, p121, p122, p123, p124, p125, p126, p127]) : sProp 𝕄) := by
  refine (Entails.of_eq ?_).trans (rows_canon c arg4 harg4 fs0 ![p0, p1, p2, p3, p4, p5, p6, p7, p8, p9, p10, p11, p12, p13, p14, p15, p16, p17, p18, p19, p20, p21, p22, p23, p24, p25, p26, p27, p28, p29, p30, p31, p32, p33, p34, p35, p36, p37, p38, p39, p40, p41, p42, p43, p44, p45, p46, p47, p48, p49, p50, p51, p52, p53, p54, p55, p56, p57, p58, p59, p60, p61, p62, p63, p64, p65, p66, p67, p68, p69, p70, p71, p72, p73, p74, p75, p76, p77, p78, p79, p80, p81, p82, p83, p84, p85, p86, p87, p88, p89, p90, p91, p92, p93, p94, p95, p96, p97, p98, p99, p100, p101, p102, p103, p104, p105, p106, p107, p108, p109, p110, p111, p112, p113, p114, p115, p116, p117, p118, p119, p120, p121, p122, p123, p124, p125, p126, p127])
  rw [bigSep128]
  rfl

end Cert.KernelIdeal.Hand

end
-- ==== Proof.KI.Gather.lean ====
/-
  The first kernel region: one grid point copies 128 rows of the weight array, the rows named by 128 consecutive words of
  the index table, into a 128×4096 scratch buffer — one asynchronous copy per row, all 128 started before any is awaited —
  and then stores the scratch, rounded to bf16, as its block of the selected-rows array. Two rows copied may be the same
  row of the weight array, so each copy reads it through a positive share of its own (the full share halved along a chain);
  each copy writes its own row of the scratch, so the scratch is held row by row while the copies are in flight and joined
  into one buffer again before it is loaded whole.
-/
import proofs.«172148_j16612933501330_2_alg».proof.Proof.Gen.KernelIdeal.Launch
import proofs.«172148_j16612933501330_2_alg».proof.Proof.Gen.KernelIdeal.Skeleton
import proofs.«172148_j16612933501330_2_alg».proof.Proof.Gen.KernelIdeal.Points
import proofs.«172148_j16612933501330_2_alg».proof.Proof.KI.GatherCanon
import proofs.«172148_j16612933501330_2_alg».proof.Proof.KI.Checks
import proofs.«172148_j16612933501330_2_alg».proof.Proof.LibShareChain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.LibShareChain
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's triple -/

/-- The kernel's 128 copy semaphores, at zero. -/
abbrev cells0 (c : Dev nD) : sProp 𝕄 := iprop(semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0 ∗ semVal ((c : Thread nD τ), SemLoc.dma 55) 0 ∗ semVal ((c : Thread nD τ), SemLoc.dma 56) 0 ∗ semVal ((c : Thread nD τ), SemLoc.dma 57) 0 ∗ semVal ((c : Thread nD τ), SemLoc.dma 58) 0 ∗ semVal ((c : Thread nD τ), SemLoc.dma 59) 0 ∗ semVal ((c : Thread nD τ), SemLoc.dma 60) 0 ∗ semVal ((c : Thread nD τ), SemLoc.dma 61) 0 ∗ semVal ((c : Thread nD τ), SemLoc.dma 62) 0 ∗ semVal ((c : Thread nD τ), SemLoc.dma 63) 0 ∗ semVal ((c : Thread nD τ), SemLoc.dma 64) 0 ∗ semVal ((c : Thread nD τ), SemLoc.dma 65) 0 ∗ semVal ((c : Thread nD τ), SemLoc.dma 66) 0 ∗ semVal ((c : Thread nD τ), SemLoc.dma 67) 0 ∗ semVal ((c : Thread nD τ), SemLoc.dma 68) 0 ∗ semVal ((c : Thread nD τ), SemLoc.dma 69) 0 ∗ semVal ((c : Thread nD τ), SemLoc.dma 70) 0 ∗ semVal ((c : Thread nD τ), SemLoc.dma 71) 0 ∗ semVal ((c : Thread nD τ), SemLoc.dma 72) 0 ∗ semVal ((c : Thread nD τ), SemLoc.dma 73) 0 ∗ semVal ((c : Thread nD τ), SemLoc.dma 74) 0 ∗ semVal ((c : Thread nD τ), SemLoc.dma 75) 0 ∗ semVal ((c : Thread nD τ), SemLoc.dma 76) 0 ∗ semVal ((c : Thread nD τ), SemLoc.dma 77) 0 ∗ semVal ((c : Thread nD τ), SemLoc.dma 78) 0 ∗ semVal ((c : Thread nD τ), SemLoc.dma 79) 0 ∗ semVal ((c : Thread nD τ), SemLoc.dma 80) 0 ∗ semVal ((c : Thread nD τ), SemLoc.dma 81) 0 ∗ semVal ((c : Thread nD τ), SemLoc.dma 82) 0 ∗ semVal ((c : Thread nD τ), SemLoc.dma 83) 0 ∗ semVal ((c : Thread nD τ), SemLoc.dma 84) 0 ∗ semVal ((c : Thread nD τ), SemLoc.dma 85) 0 ∗ semVal ((c : Thread nD τ), SemLoc.dma 86) 0 ∗ semVal ((c : Thread nD τ), SemLoc.dma 87) 0 ∗ semVal ((c : Thread nD τ), SemLoc.dma 88) 0 ∗ semVal ((c : Thread nD τ), SemLoc.dma 89) 0 ∗ semVal ((c : Thread nD τ), SemLoc.dma 90) 0 ∗ semVal ((c : Thread nD τ), SemLoc.dma 91) 0 ∗ semVal ((c : Thread nD τ), SemLoc.dma 92) 0 ∗ semVal ((c : Thread nD τ), SemLoc.dma 93) 0 ∗ semVal ((c : Thread nD τ), SemLoc.dma 94) 0 ∗ semVal ((c : Thread nD τ), SemLoc.dma 95) 0 ∗ semVal ((c : Thread nD τ), SemLoc.dma 96) 0 ∗ semVal ((c : Thread nD τ), SemLoc.dma 97) 0 ∗ semVal ((c : Thread nD τ), SemLoc.dma 98) 0 ∗ semVal ((c : Thread nD τ), SemLoc.dma 99) 0 ∗ semVal ((c : Thread nD τ), SemLoc.dma 100) 0 ∗ semVal ((c : Thread nD τ), SemLoc.dma 101) 0 ∗ semVal ((c : Thread nD τ), SemLoc.dma 102) 0 ∗ semVal ((c : Thread nD τ), SemLoc.dma 103) 0 ∗ semVal ((c : Thread nD τ), SemLoc.dma 104) 0 ∗ semVal ((c : Thread nD τ), SemLoc.dma 105) 0 ∗ semVal ((c : Thread nD τ), SemLoc.dma 106) 0 ∗ semVal ((c : Thread nD τ), SemLoc.dma 107) 0 ∗ semVal ((c : Thread nD τ), SemLoc.dma 108) 0 ∗ semVal ((c : Thread nD τ), SemLoc.dma 109) 0 ∗ semVal ((c : Thread nD τ), SemLoc.dma 110) 0 ∗ semVal ((c : Thread nD τ), SemLoc.dma 111) 0 ∗ semVal ((c : Thread nD τ), SemLoc.dma 112) 0 ∗ semVal ((c : Thread nD τ), SemLoc.dma 113) 0 ∗ semVal ((c : Thread nD τ), SemLoc.dma 114) 0 ∗ semVal ((c : Thread nD τ), SemLoc.dma 115) 0 ∗ semVal ((c : Thread nD τ), SemLoc.dma 116) 0 ∗ semVal ((c : Thread nD τ), SemLoc.dma 117) 0 ∗ semVal ((c : Thread nD τ), SemLoc.dma 118) 0 ∗ semVal ((c : Thread nD τ), SemLoc.dma 119) 0 ∗ semVal ((c : Thread nD τ), SemLoc.dma 120) 0 ∗ semVal ((c : Thread nD τ), SemLoc.dma 121) 0 ∗ semVal ((c : Thread nD τ), SemLoc.dma 122) 0 ∗ semVal ((c : Thread nD τ), SemLoc.dma 123) 0 ∗ semVal ((c : Thread nD τ), SemLoc.dma 124) 0 ∗ semVal ((c : Thread nD τ), SemLoc.dma 125) 0 ∗ semVal ((c : Thread nD τ), SemLoc.dma 126) 0 ∗ semVal ((c : Thread nD τ), SemLoc.dma 127) 0 ∗ semVal ((c : Thread nD τ), SemLoc.dma 128) 0 ∗ semVal ((c : Thread nD τ), SemLoc.dma 129) 0)

set_option sl_exec.dmaWindow true in
set_option sl_exec.dmaWindowSet true in
set_option maxHeartbeats 0 in
/-- What the body's one store leaves in the output block's staging memref, as pieces, WITH the proof that on whole
    memrefs — the index table at contents `x0` every word of which is below 16384, the output's and the scratch at anything,
    the weight array whole at `fh`, the 128 cells at zero, the core owing nothing — the body runs to the continuation
    holding the table, the scratch, the weight array and the cells as they were and the output with its piece written. -/
noncomputable def gatherRun (c : Dev nD) (i : grid0.Coords) (arg1 : Memref sig .tc .smem S8192 .i32) (harg1 : arg1.IsWhole)
    (arg3 : Memref sig .tc .vmem S128x4096 .bf16) (harg3 : arg3.IsWhole) (arg4 : Memref sig .tc .vmem S128x4096 .f32) (harg4 : arg4.IsWhole)
    (x0 : Vec F S8192 .i32) (hx : ∀ k : S8192.Idx, (x0 k).toNat < 16384) (fh : HbBuf (F := F) c hbM) :
    { L : List (View.Piece (Elt F) S128x4096 .bf16) //
      ∀ (W : Waits sig Unit) (K : PUnit → sProp 𝕄),
        iprop(owns (c : Thread nD τ) arg1 fullShare x0 ∗ (∃ d, owns (c : Thread nD τ) arg3 fullShare d) ∗ (∃ d, owns (c : Thread nD τ) arg4 fullShare d)
            ∗ cells0 c ∗ hbPtq c hbM fullShare fh ∗ owes (c : Thread nD τ) 0 W
            ∗ (iprop(owns (c : Thread nD τ) arg1 fullShare x0 ∗ (∃ f, arg3.view.loc (c : Thread nD τ) ↦[arg3.view.set]{fullShare} arg3.view.writes (Elt F) f L)
                ∗ (∃ d, owns (c : Thread nD τ) arg4 fullShare d) ∗ cells0 c ∗ hbPtq c hbM fullShare fh ∗ (∃ W', owes (c : Thread nD τ) 0 W')) -∗ K ⟨⟩))
          ⊢ wp frame (wpE (defs₀ (F := F)) Variants.none c none) Set.univ
              (cc0__gather_kernel i arg1 harg1 (Memref.whole main_arg1) (Memref.isWhole_whole _) arg3 harg3 arg4 harg4 cc0_scratch1) K } := by
  have k0_hw1 := chk1_of_table i arg1 harg1 x0 hx
  have k0_hw2 := chk2_of_table i arg1 harg1 x0 hx
  have k0_hw3 := chk3_of_table i arg1 harg1 x0 hx
  have k0_hw4 := chk4_of_table i arg1 harg1 x0 hx
  have k0_hw5 := chk5_of_table i arg1 harg1 x0 hx
  have k0_hw6 := chk6_of_table i arg1 harg1 x0 hx
  have k0_hw7 := chk7_of_table i arg1 harg1 x0 hx
  have k0_hw8 := chk8_of_table i arg1 harg1 x0 hx
  have k0_hw9 := chk9_of_table i arg1 harg1 x0 hx
  have k0_hw10 := chk10_of_table i arg1 harg1 x0 hx
  have k0_hw11 := chk11_of_table i arg1 harg1 x0 hx
  have k0_hw12 := chk12_of_table i arg1 harg1 x0 hx
  have k0_hw13 := chk13_of_table i arg1 harg1 x0 hx
  have k0_hw14 := chk14_of_table i arg1 harg1 x0 hx
  have k0_hw15 := chk15_of_table i arg1 harg1 x0 hx
  have k0_hw16 := chk16_of_table i arg1 harg1 x0 hx
  have k0_hw17 := chk17_of_table i arg1 harg1 x0 hx
  have k0_hw18 := chk18_of_table i arg1 harg1 x0 hx
  have k0_hw19 := chk19_of_table i arg1 harg1 x0 hx
  have k0_hw20 := chk20_of_table i arg1 harg1 x0 hx
  have k0_hw21 := chk21_of_table i arg1 harg1 x0 hx
  have k0_hw22 := chk22_of_table i arg1 harg1 x0 hx
  have k0_hw23 := chk23_of_table i arg1 harg1 x0 hx
  have k0_hw24 := chk24_of_table i arg1 harg1 x0 hx
  have k0_hw25 := chk25_of_table i arg1 harg1 x0 hx
  have k0_hw26 := chk26_of_table i arg1 harg1 x0 hx
  have k0_hw27 := chk27_of_table i arg1 harg1 x0 hx
  have k0_hw28 := chk28_of_table i arg1 harg1 x0 hx
  have k0_hw29 := chk29_of_table i arg1 harg1 x0 hx
  have k0_hw30 := chk30_of_table i arg1 harg1 x0 hx
  have k0_hw31 := chk31_of_table i arg1 harg1 x0 hx
  have k0_hw32 := chk32_of_table i arg1 harg1 x0 hx
  have k0_hw33 := chk33_of_table i arg1 harg1 x0 hx
  have k0_hw34 := chk34_of_table i arg1 harg1 x0 hx
  have k0_hw35 := chk35_of_table i arg1 harg1 x0 hx
  have k0_hw36 := chk36_of_table i arg1 harg1 x0 hx
  have k0_hw37 := chk37_of_table i arg1 harg1 x0 hx
  have k0_hw38 := chk38_of_table i arg1 harg1 x0 hx
  have k0_hw39 := chk39_of_table i arg1 harg1 x0 hx
  have k0_hw40 := chk40_of_table i arg1 harg1 x0 hx
  have k0_hw41 := chk41_of_table i arg1 harg1 x0 hx
  have k0_hw42 := chk42_of_table i arg1 harg1 x0 hx
  have k0_hw43 := chk43_of_table i arg1 harg1 x0 hx
  have k0_hw44 := chk44_of_table i arg1 harg1 x0 hx
  have k0_hw45 := chk45_of_table i arg1 harg1 x0 hx
  have k0_hw46 := chk46_of_table i arg1 harg1 x0 hx
  have k0_hw47 := chk47_of_table i arg1 harg1 x0 hx
  have k0_hw48 := chk48_of_table i arg1 harg1 x0 hx
  have k0_hw49 := chk49_of_table i arg1 harg1 x0 hx
  have k0_hw50 := chk50_of_table i arg1 harg1 x0 hx
  have k0_hw51 := chk51_of_table i arg1 harg1 x0 hx
  have k0_hw52 := chk52_of_table i arg1 harg1 x0 hx
  have k0_hw53 := chk53_of_table i arg1 harg1 x0 hx
  have k0_hw54 := chk54_of_table i arg1 harg1 x0 hx
  have k0_hw55 := chk55_of_table i arg1 harg1 x0 hx
  have k0_hw56 := chk56_of_table i arg1 harg1 x0 hx
  have k0_hw57 := chk57_of_table i arg1 harg1 x0 hx
  have k0_hw58 := chk58_of_table i arg1 harg1 x0 hx
  have k0_hw59 := chk59_of_table i arg1 harg1 x0 hx
  have k0_hw60 := chk60_of_table i arg1 harg1 x0 hx
  have k0_hw61 := chk61_of_table i arg1 harg1 x0 hx
  have k0_hw62 := chk62_of_table i arg1 harg1 x0 hx
  have k0_hw63 := chk63_of_table i arg1 harg1 x0 hx
  have k0_hw64 := chk64_of_table i arg1 harg1 x0 hx
  have k0_hw65 := chk65_of_table i arg1 harg1 x0 hx
  have k0_hw66 := chk66_of_table i arg1 harg1 x0 hx
  have k0_hw67 := chk67_of_table i arg1 harg1 x0 hx
  have k0_hw68 := chk68_of_table i arg1 harg1 x0 hx
  have k0_hw69 := chk69_of_table i arg1 harg1 x0 hx
  have k0_hw70 := chk70_of_table i arg1 harg1 x0 hx
  have k0_hw71 := chk71_of_table i arg1 harg1 x0 hx
  have k0_hw72 := chk72_of_table i arg1 harg1 x0 hx
  have k0_hw73 := chk73_of_table i arg1 harg1 x0 hx
  have k0_hw74 := chk74_of_table i arg1 harg1 x0 hx
  have k0_hw75 := chk75_of_table i arg1 harg1 x0 hx
  have k0_hw76 := chk76_of_table i arg1 harg1 x0 hx
  have k0_hw77 := chk77_of_table i arg1 harg1 x0 hx
  have k0_hw78 := chk78_of_table i arg1 harg1 x0 hx
  have k0_hw79 := chk79_of_table i arg1 harg1 x0 hx
  have k0_hw80 := chk80_of_table i arg1 harg1 x0 hx
  have k0_hw81 := chk81_of_table i arg1 harg1 x0 hx
  have k0_hw82 := chk82_of_table i arg1 harg1 x0 hx
  have k0_hw83 := chk83_of_table i arg1 harg1 x0 hx
  have k0_hw84 := chk84_of_table i arg1 harg1 x0 hx
  have k0_hw85 := chk85_of_table i arg1 harg1 x0 hx
  have k0_hw86 := chk86_of_table i arg1 harg1 x0 hx
  have k0_hw87 := chk87_of_table i arg1 harg1 x0 hx
  have k0_hw88 := chk88_of_table i arg1 harg1 x0 hx
  have k0_hw89 := chk89_of_table i arg1 harg1 x0 hx
  have k0_hw90 := chk90_of_table i arg1 harg1 x0 hx
  have k0_hw91 := chk91_of_table i arg1 harg1 x0 hx
  have k0_hw92 := chk92_of_table i arg1 harg1 x0 hx
  have k0_hw93 := chk93_of_table i arg1 harg1 x0 hx
  have k0_hw94 := chk94_of_table i arg1 harg1 x0 hx
  have k0_hw95 := chk95_of_table i arg1 harg1 x0 hx
  have k0_hw96 := chk96_of_table i arg1 harg1 x0 hx
  have k0_hw97 := chk97_of_table i arg1 harg1 x0 hx
  have k0_hw98 := chk98_of_table i arg1 harg1 x0 hx
  have k0_hw99 := chk99_of_table i arg1 harg1 x0 hx
  have k0_hw100 := chk100_of_table i arg1 harg1 x0 hx
  have k0_hw101 := chk101_of_table i arg1 harg1 x0 hx
  have k0_hw102 := chk102_of_table i arg1 harg1 x0 hx
  have k0_hw103 := chk103_of_table i arg1 harg1 x0 hx
  have k0_hw104 := chk104_of_table i arg1 harg1 x0 hx
  have k0_hw105 := chk105_of_table i arg1 harg1 x0 hx
  have k0_hw106 := chk106_of_table i arg1 harg1 x0 hx
  have k0_hw107 := chk107_of_table i arg1 harg1 x0 hx
  have k0_hw108 := chk108_of_table i arg1 harg1 x0 hx
  have k0_hw109 := chk109_of_table i arg1 harg1 x0 hx
  have k0_hw110 := chk110_of_table i arg1 harg1 x0 hx
  have k0_hw111 := chk111_of_table i arg1 harg1 x0 hx
  have k0_hw112 := chk112_of_table i arg1 harg1 x0 hx
  have k0_hw113 := chk113_of_table i arg1 harg1 x0 hx
  have k0_hw114 := chk114_of_table i arg1 harg1 x0 hx
  have k0_hw115 := chk115_of_table i arg1 harg1 x0 hx
  have k0_hw116 := chk116_of_table i arg1 harg1 x0 hx
  have k0_hw117 := chk117_of_table i arg1 harg1 x0 hx
  have k0_hw118 := chk118_of_table i arg1 harg1 x0 hx
  have k0_hw119 := chk119_of_table i arg1 harg1 x0 hx
  have k0_hw120 := chk120_of_table i arg1 harg1 x0 hx
  have k0_hw121 := chk121_of_table i arg1 harg1 x0 hx
  have k0_hw122 := chk122_of_table i arg1 harg1 x0 hx
  have k0_hw123 := chk123_of_table i arg1 harg1 x0 hx
  have k0_hw124 := chk124_of_table i arg1 harg1 x0 hx
  have k0_hw125 := chk125_of_table i arg1 harg1 x0 hx
  have k0_hw126 := chk126_of_table i arg1 harg1 x0 hx
  have k0_hw127 := chk127_of_table i arg1 harg1 x0 hx
  have k0_hw128 := chk128_of_table i arg1 harg1 x0 hx
  refine ⟨?_, fun W K => ?run⟩
  case run =>
    simp only [cc0__gather_kernel_eq_skeleton]; unfold cc0__gather_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton]
    unfold owns cells0
    iintro ⟨⟨%f0, %hf0, H0⟩, ⟨%d1, %f1, -, H1⟩, ⟨%ds0, %fs0, -, HS⟩, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hq38, Hq39, Hq40, Hq41, Hq42, Hq43, Hq44, Hq45, Hq46, Hq47, Hq48, Hq49, Hq50, Hq51, Hq52, Hq53, Hq54, Hq55, Hq56, Hq57, Hq58, Hq59, Hq60, Hq61, Hq62, Hq63, Hq64, Hq65, Hq66, Hq67, Hq68, Hq69, Hq70, Hq71, Hq72, Hq73, Hq74, Hq75, Hq76, Hq77, Hq78, Hq79, Hq80, Hq81, Hq82, Hq83, Hq84, Hq85, Hq86, Hq87, Hq88, Hq89, Hq90, Hq91, Hq92, Hq93, Hq94, Hq95, Hq96, Hq97, Hq98, Hq99, Hq100, Hq101, Hq102, Hq103, Hq104, Hq105, Hq106, Hq107, Hq108, Hq109, Hq110, Hq111, Hq112, Hq113, Hq114, Hq115, Hq116, Hq117, Hq118, Hq119, Hq120, Hq121, Hq122, Hq123, Hq124, Hq125, Hq126, Hq127⟩, Hh, HW, Hk⟩
    obtain rfl := harg1.eq_unread hf0
    ihave HSr := (Entails.of_eq (scratch_rows128 c arg4 fs0)) $$ HS
    icases HSr with ⟨HS0, HS1, HS2, HS3, HS4, HS5, HS6, HS7, HS8, HS9, HS10, HS11, HS12, HS13, HS14, HS15, HS16, HS17, HS18, HS19, HS20, HS21, HS22, HS23, HS24, HS25, HS26, HS27, HS28, HS29, HS30, HS31, HS32, HS33, HS34, HS35, HS36, HS37, HS38, HS39, HS40, HS41, HS42, HS43, HS44, HS45, HS46, HS47, HS48, HS49, HS50, HS51, HS52, HS53, HS54, HS55, HS56, HS57, HS58, HS59, HS60, HS61, HS62, HS63, HS64, HS65, HS66, HS67, HS68, HS69, HS70, HS71, HS72, HS73, HS74, HS75, HS76, HS77, HS78, HS79, HS80, HS81, HS82, HS83, HS84, HS85, HS86, HS87, HS88, HS89, HS90, HS91, HS92, HS93, HS94, HS95, HS96, HS97, HS98, HS99, HS100, HS101, HS102, HS103, HS104, HS105, HS106, HS107, HS108, HS109, HS110, HS111, HS112, HS113, HS114, HS115, HS116, HS117, HS118, HS119, HS120, HS121, HS122, HS123, HS124, HS125, HS126, HS127⟩
    ihave Hhs := (weight_shares c fh).1 $$ Hh
    icases Hhs with ⟨Hh0, Hh1, Hh2, Hh3, Hh4, Hh5, Hh6, Hh7, Hh8, Hh9, Hh10, Hh11, Hh12, Hh13, Hh14, Hh15, Hh16, Hh17, Hh18, Hh19, Hh20, Hh21, Hh22, Hh23, Hh24, Hh25, Hh26, Hh27, Hh28, Hh29, Hh30, Hh31, Hh32, Hh33, Hh34, Hh35, Hh36, Hh37, Hh38, Hh39, Hh40, Hh41, Hh42, Hh43, Hh44, Hh45, Hh46, Hh47, Hh48, Hh49, Hh50, Hh51, Hh52, Hh53, Hh54, Hh55, Hh56, Hh57, Hh58, Hh59, Hh60, Hh61, Hh62, Hh63, Hh64, Hh65, Hh66, Hh67, Hh68, Hh69, Hh70, Hh71, Hh72, Hh73, Hh74, Hh75, Hh76, Hh77, Hh78, Hh79, Hh80, Hh81, Hh82, Hh83, Hh84, Hh85, Hh86, Hh87, Hh88, Hh89, Hh90, Hh91, Hh92, Hh93, Hh94, Hh95, Hh96, Hh97, Hh98, Hh99, Hh100, Hh101, Hh102, Hh103, Hh104, Hh105, Hh106, Hh107, Hh108, Hh109, Hh110, Hh111, Hh112, Hh113, Hh114, Hh115, Hh116, Hh117, Hh118, Hh119, Hh120, Hh121, Hh122, Hh123, Hh124, Hh125, Hh126, Hh127⟩
    sl_exec (disch := first | sl_exact k0_hw1 | sl_exact k0_hw2 | sl_exact k0_hw3 | sl_exact k0_hw4 | sl_exact k0_hw5 | sl_exact k0_hw6 | sl_exact k0_hw7 | sl_exact k0_hw8 | sl_exact k0_hw9 | sl_exact k0_hw10 | sl_exact k0_hw11 | sl_exact k0_hw12 | sl_exact k0_hw13 | sl_exact k0_hw14 | sl_exact k0_hw15 | sl_exact k0_hw16 | sl_exact k0_hw17 | sl_exact k0_hw18 | sl_exact k0_hw19 | sl_exact k0_hw20 | sl_exact k0_hw21 | sl_exact k0_hw22 | sl_exact k0_hw23 | sl_exact k0_hw24 | sl_exact k0_hw25 | sl_exact k0_hw26 | sl_exact k0_hw27 | sl_exact k0_hw28 | sl_exact k0_hw29 | sl_exact k0_hw30 | sl_exact k0_hw31 | sl_exact k0_hw32 | sl_exact k0_hw33 | sl_exact k0_hw34 | sl_exact k0_hw35 | sl_exact k0_hw36 | sl_exact k0_hw37 | sl_exact k0_hw38 | sl_exact k0_hw39 | sl_exact k0_hw40 | sl_exact k0_hw41 | sl_exact k0_hw42 | sl_exact k0_hw43 | sl_exact k0_hw44 | sl_exact k0_hw45 | sl_exact k0_hw46 | sl_exact k0_hw47 | sl_exact k0_hw48 | sl_exact k0_hw49 | sl_exact k0_hw50 | sl_exact k0_hw51 | sl_exact k0_hw52 | sl_exact k0_hw53 | sl_exact k0_hw54 | sl_exact k0_hw55 | sl_exact k0_hw56 | sl_exact k0_hw57 | sl_exact k0_hw58 | sl_exact k0_hw59 | sl_exact k0_hw60 | sl_exact k0_hw61 | sl_exact k0_hw62 | sl_exact k0_hw63 | sl_exact k0_hw64 | sl_exact k0_hw65 | sl_exact k0_hw66 | sl_exact k0_hw67 | sl_exact k0_hw68 | sl_exact k0_hw69 | sl_exact k0_hw70 | sl_exact k0_hw71 | sl_exact k0_hw72 | sl_exact k0_hw73 | sl_exact k0_hw74 | sl_exact k0_hw75 | sl_exact k0_hw76 | sl_exact k0_hw77 | sl_exact k0_hw78 | sl_exact k0_hw79 | sl_exact k0_hw80 | sl_exact k0_hw81 | sl_exact k0_hw82 | sl_exact k0_hw83 | sl_exact k0_hw84 | sl_exact k0_hw85 | sl_exact k0_hw86 | sl_exact k0_hw87 | sl_exact k0_hw88 | sl_exact k0_hw89 | sl_exact k0_hw90 | sl_exact k0_hw91 | sl_exact k0_hw92 | sl_exact k0_hw93 | sl_exact k0_hw94 | sl_exact k0_hw95 | sl_exact k0_hw96 | sl_exact k0_hw97 | sl_exact k0_hw98 | sl_exact k0_hw99 | sl_exact k0_hw100 | sl_exact k0_hw101 | sl_exact k0_hw102 | sl_exact k0_hw103 | sl_exact k0_hw104 | sl_exact k0_hw105 | sl_exact k0_hw106 | sl_exact k0_hw107 | sl_exact k0_hw108 | sl_exact k0_hw109 | sl_exact k0_hw110 | sl_exact k0_hw111 | sl_exact k0_hw112 | sl_exact k0_hw113 | sl_exact k0_hw114 | sl_exact k0_hw115 | sl_exact k0_hw116 | sl_exact k0_hw117 | sl_exact k0_hw118 | sl_exact k0_hw119 | sl_exact k0_hw120 | sl_exact k0_hw121 | sl_exact k0_hw122 | sl_exact k0_hw123 | sl_exact k0_hw124 | sl_exact k0_hw125 | sl_exact k0_hw126 | sl_exact k0_hw127 | sl_exact k0_hw128)
    ihave HS := (rows_canon128 c arg4 harg4 fs0 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) $$ [HS0 HS1 HS2 HS3 HS4 HS5 HS6 HS7 HS8 HS9 HS10 HS11 HS12 HS13 HS14 HS15 HS16 HS17 HS18 HS19 HS20 HS21 HS22 HS23 HS24 HS25 HS26 HS27 HS28 HS29 HS30 HS31 HS32 HS33 HS34 HS35 HS36 HS37 HS38 HS39 HS40 HS41 HS42 HS43 HS44 HS45 HS46 HS47 HS48 HS49 HS50 HS51 HS52 HS53 HS54 HS55 HS56 HS57 HS58 HS59 HS60 HS61 HS62 HS63 HS64 HS65 HS66 HS67 HS68 HS69 HS70 HS71 HS72 HS73 HS74 HS75 HS76 HS77 HS78 HS79 HS80 HS81 HS82 HS83 HS84 HS85 HS86 HS87 HS88 HS89 HS90 HS91 HS92 HS93 HS94 HS95 HS96 HS97 HS98 HS99 HS100 HS101 HS102 HS103 HS104 HS105 HS106 HS107 HS108 HS109 HS110 HS111 HS112 HS113 HS114 HS115 HS116 HS117 HS118 HS119 HS120 HS121 HS122 HS123 HS124 HS125 HS126 HS127]
    ·
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      isplitl [HS13]; · iexact HS13
      isplitl [HS14]; · iexact HS14
      isplitl [HS15]; · iexact HS15
      isplitl [HS16]; · iexact HS16
      isplitl [HS17]; · iexact HS17
      isplitl [HS18]; · iexact HS18
      isplitl [HS19]; · iexact HS19
      isplitl [HS20]; · iexact HS20
      isplitl [HS21]; · iexact HS21
      isplitl [HS22]; · iexact HS22
      isplitl [HS23]; · iexact HS23
      isplitl [HS24]; · iexact HS24
      isplitl [HS25]; · iexact HS25
      isplitl [HS26]; · iexact HS26
      isplitl [HS27]; · iexact HS27
      isplitl [HS28]; · iexact HS28
      isplitl [HS29]; · iexact HS29
      isplitl [HS30]; · iexact HS30
      isplitl [HS31]; · iexact HS31
      isplitl [HS32]; · iexact HS32
      isplitl [HS33]; · iexact HS33
      isplitl [HS34]; · iexact HS34
      isplitl [HS35]; · iexact HS35
      isplitl [HS36]; · iexact HS36
      isplitl [HS37]; · iexact HS37
      isplitl [HS38]; · iexact HS38
      isplitl [HS39]; · iexact HS39
      isplitl [HS40]; · iexact HS40
      isplitl [HS41]; · iexact HS41
      isplitl [HS42]; · iexact HS42
      isplitl [HS43]; · iexact HS43
      isplitl [HS44]; · iexact HS44
      isplitl [HS45]; · iexact HS45
      isplitl [HS46]; · iexact HS46
      isplitl [HS47]; · iexact HS47
      isplitl [HS48]; · iexact HS48
      isplitl [HS49]; · iexact HS49
      isplitl [HS50]; · iexact HS50
      isplitl [HS51]; · iexact HS51
      isplitl [HS52]; · iexact HS52
      isplitl [HS53]; · iexact HS53
      isplitl [HS54]; · iexact HS54
      isplitl [HS55]; · iexact HS55
      isplitl [HS56]; · iexact HS56
      isplitl [HS57]; · iexact HS57
      isplitl [HS58]; · iexact HS58
      isplitl [HS59]; · iexact HS59
      isplitl [HS60]; · iexact HS60
      isplitl [HS61]; · iexact HS61
      isplitl [HS62]; · iexact HS62
      isplitl [HS63]; · iexact HS63
      isplitl [HS64]; · iexact HS64
      isplitl [HS65]; · iexact HS65
      isplitl [HS66]; · iexact HS66
      isplitl [HS67]; · iexact HS67
      isplitl [HS68]; · iexact HS68
      isplitl [HS69]; · iexact HS69
      isplitl [HS70]; · iexact HS70
      isplitl [HS71]; · iexact HS71
      isplitl [HS72]; · iexact HS72
      isplitl [HS73]; · iexact HS73
      isplitl [HS74]; · iexact HS74
      isplitl [HS75]; · iexact HS75
      isplitl [HS76]; · iexact HS76
      isplitl [HS77]; · iexact HS77
      isplitl [HS78]; · iexact HS78
      isplitl [HS79]; · iexact HS79
      isplitl [HS80]; · iexact HS80
      isplitl [HS81]; · iexact HS81
      isplitl [HS82]; · iexact HS82
      isplitl [HS83]; · iexact HS83
      isplitl [HS84]; · iexact HS84
      isplitl [HS85]; · iexact HS85
      isplitl [HS86]; · iexact HS86
      isplitl [HS87]; · iexact HS87
      isplitl [HS88]; · iexact HS88
      isplitl [HS89]; · iexact HS89
      isplitl [HS90]; · iexact HS90
      isplitl [HS91]; · iexact HS91
      isplitl [HS92]; · iexact HS92
      isplitl [HS93]; · iexact HS93
      isplitl [HS94]; · iexact HS94
      isplitl [HS95]; · iexact HS95
      isplitl [HS96]; · iexact HS96
      isplitl [HS97]; · iexact HS97
      isplitl [HS98]; · iexact HS98
      isplitl [HS99]; · iexact HS99
      isplitl [HS100]; · iexact HS100
      isplitl [HS101]; · iexact HS101
      isplitl [HS102]; · iexact HS102
      isplitl [HS103]; · iexact HS103
      isplitl [HS104]; · iexact HS104
      isplitl [HS105]; · iexact HS105
      isplitl [HS106]; · iexact HS106
      isplitl [HS107]; · iexact HS107
      isplitl [HS108]; · iexact HS108
      isplitl [HS109]; · iexact HS109
      isplitl [HS110]; · iexact HS110
      isplitl [HS111]; · iexact HS111
      isplitl [HS112]; · iexact HS112
      isplitl [HS113]; · iexact HS113
      isplitl [HS114]; · iexact HS114
      isplitl [HS115]; · iexact HS115
      isplitl [HS116]; · iexact HS116
      isplitl [HS117]; · iexact HS117
      isplitl [HS118]; · iexact HS118
      isplitl [HS119]; · iexact HS119
      isplitl [HS120]; · iexact HS120
      isplitl [HS121]; · iexact HS121
      isplitl [HS122]; · iexact HS122
      isplitl [HS123]; · iexact HS123
      isplitl [HS124]; · iexact HS124
      isplitl [HS125]; · iexact HS125
      isplitl [HS126]; · iexact HS126
      iexact HS127
    sl_exec
    sl_step
    ihave Hh := (weight_shares c fh).2 $$ [Hh0 Hh1 Hh2 Hh3 Hh4 Hh5 Hh6 Hh7 Hh8 Hh9 Hh10 Hh11 Hh12 Hh13 Hh14 Hh15 Hh16 Hh17 Hh18 Hh19 Hh20 Hh21 Hh22 Hh23 Hh24 Hh25 Hh26 Hh27 Hh28 Hh29 Hh30 Hh31 Hh32 Hh33 Hh34 Hh35 Hh36 Hh37 Hh38 Hh39 Hh40 Hh41 Hh42 Hh43 Hh44 Hh45 Hh46 Hh47 Hh48 Hh49 Hh50 Hh51 Hh52 Hh53 Hh54 Hh55 Hh56 Hh57 Hh58 Hh59 Hh60 Hh61 Hh62 Hh63 Hh64 Hh65 Hh66 Hh67 Hh68 Hh69 Hh70 Hh71 Hh72 Hh73 Hh74 Hh75 Hh76 Hh77 Hh78 Hh79 Hh80 Hh81 Hh82 Hh83 Hh84 Hh85 Hh86 Hh87 Hh88 Hh89 Hh90 Hh91 Hh92 Hh93 Hh94 Hh95 Hh96 Hh97 Hh98 Hh99 Hh100 Hh101 Hh102 Hh103 Hh104 Hh105 Hh106 Hh107 Hh108 Hh109 Hh110 Hh111 Hh112 Hh113 Hh114 Hh115 Hh116 Hh117 Hh118 Hh119 Hh120 Hh121 Hh122 Hh123 Hh124 Hh125 Hh126 Hh127]
    ·
      isplitl [Hh0]; · iexact Hh0
      isplitl [Hh1]; · iexact Hh1
      isplitl [Hh2]; · iexact Hh2
      isplitl [Hh3]; · iexact Hh3
      isplitl [Hh4]; · iexact Hh4
      isplitl [Hh5]; · iexact Hh5
      isplitl [Hh6]; · iexact Hh6
      isplitl [Hh7]; · iexact Hh7
      isplitl [Hh8]; · iexact Hh8
      isplitl [Hh9]; · iexact Hh9
      isplitl [Hh10]; · iexact Hh10
      isplitl [Hh11]; · iexact Hh11
      isplitl [Hh12]; · iexact Hh12
      isplitl [Hh13]; · iexact Hh13
      isplitl [Hh14]; · iexact Hh14
      isplitl [Hh15]; · iexact Hh15
      isplitl [Hh16]; · iexact Hh16
      isplitl [Hh17]; · iexact Hh17
      isplitl [Hh18]; · iexact Hh18
      isplitl [Hh19]; · iexact Hh19
      isplitl [Hh20]; · iexact Hh20
      isplitl [Hh21]; · iexact Hh21
      isplitl [Hh22]; · iexact Hh22
      isplitl [Hh23]; · iexact Hh23
      isplitl [Hh24]; · iexact Hh24
      isplitl [Hh25]; · iexact Hh25
      isplitl [Hh26]; · iexact Hh26
      isplitl [Hh27]; · iexact Hh27
      isplitl [Hh28]; · iexact Hh28
      isplitl [Hh29]; · iexact Hh29
      isplitl [Hh30]; · iexact Hh30
      isplitl [Hh31]; · iexact Hh31
      isplitl [Hh32]; · iexact Hh32
      isplitl [Hh33]; · iexact Hh33
      isplitl [Hh34]; · iexact Hh34
      isplitl [Hh35]; · iexact Hh35
      isplitl [Hh36]; · iexact Hh36
      isplitl [Hh37]; · iexact Hh37
      isplitl [Hh38]; · iexact Hh38
      isplitl [Hh39]; · iexact Hh39
      isplitl [Hh40]; · iexact Hh40
      isplitl [Hh41]; · iexact Hh41
      isplitl [Hh42]; · iexact Hh42
      isplitl [Hh43]; · iexact Hh43
      isplitl [Hh44]; · iexact Hh44
      isplitl [Hh45]; · iexact Hh45
      isplitl [Hh46]; · iexact Hh46
      isplitl [Hh47]; · iexact Hh47
      isplitl [Hh48]; · iexact Hh48
      isplitl [Hh49]; · iexact Hh49
      isplitl [Hh50]; · iexact Hh50
      isplitl [Hh51]; · iexact Hh51
      isplitl [Hh52]; · iexact Hh52
      isplitl [Hh53]; · iexact Hh53
      isplitl [Hh54]; · iexact Hh54
      isplitl [Hh55]; · iexact Hh55
      isplitl [Hh56]; · iexact Hh56
      isplitl [Hh57]; · iexact Hh57
      isplitl [Hh58]; · iexact Hh58
      isplitl [Hh59]; · iexact Hh59
      isplitl [Hh60]; · iexact Hh60
      isplitl [Hh61]; · iexact Hh61
      isplitl [Hh62]; · iexact Hh62
      isplitl [Hh63]; · iexact Hh63
      isplitl [Hh64]; · iexact Hh64
      isplitl [Hh65]; · iexact Hh65
      isplitl [Hh66]; · iexact Hh66
      isplitl [Hh67]; · iexact Hh67
      isplitl [Hh68]; · iexact Hh68
      isplitl [Hh69]; · iexact Hh69
      isplitl [Hh70]; · iexact Hh70
      isplitl [Hh71]; · iexact Hh71
      isplitl [Hh72]; · iexact Hh72
      isplitl [Hh73]; · iexact Hh73
      isplitl [Hh74]; · iexact Hh74
      isplitl [Hh75]; · iexact Hh75
      isplitl [Hh76]; · iexact Hh76
      isplitl [Hh77]; · iexact Hh77
      isplitl [Hh78]; · iexact Hh78
      isplitl [Hh79]; · iexact Hh79
      isplitl [Hh80]; · iexact Hh80
      isplitl [Hh81]; · iexact Hh81
      isplitl [Hh82]; · iexact Hh82
      isplitl [Hh83]; · iexact Hh83
      isplitl [Hh84]; · iexact Hh84
      isplitl [Hh85]; · iexact Hh85
      isplitl [Hh86]; · iexact Hh86
      isplitl [Hh87]; · iexact Hh87
      isplitl [Hh88]; · iexact Hh88
      isplitl [Hh89]; · iexact Hh89
      isplitl [Hh90]; · iexact Hh90
      isplitl [Hh91]; · iexact Hh91
      isplitl [Hh92]; · iexact Hh92
      isplitl [Hh93]; · iexact Hh93
      isplitl [Hh94]; · iexact Hh94
      isplitl [Hh95]; · iexact Hh95
      isplitl [Hh96]; · iexact Hh96
      isplitl [Hh97]; · iexact Hh97
      isplitl [Hh98]; · iexact Hh98
      isplitl [Hh99]; · iexact Hh99
      isplitl [Hh100]; · iexact Hh100
      isplitl [Hh101]; · iexact Hh101
      isplitl [Hh102]; · iexact Hh102
      isplitl [Hh103]; · iexact Hh103
      isplitl [Hh104]; · iexact Hh104
      isplitl [Hh105]; · iexact Hh105
      isplitl [Hh106]; · iexact Hh106
      isplitl [Hh107]; · iexact Hh107
      isplitl [Hh108]; · iexact Hh108
      isplitl [Hh109]; · iexact Hh109
      isplitl [Hh110]; · iexact Hh110
      isplitl [Hh111]; · iexact Hh111
      isplitl [Hh112]; · iexact Hh112
      isplitl [Hh113]; · iexact Hh113
      isplitl [Hh114]; · iexact Hh114
      isplitl [Hh115]; · iexact Hh115
      isplitl [Hh116]; · iexact Hh116
      isplitl [Hh117]; · iexact Hh117
      isplitl [Hh118]; · iexact Hh118
      isplitl [Hh119]; · iexact Hh119
      isplitl [Hh120]; · iexact Hh120
      isplitl [Hh121]; · iexact Hh121
      isplitl [Hh122]; · iexact Hh122
      isplitl [Hh123]; · iexact Hh123
      isplitl [Hh124]; · iexact Hh124
      isplitl [Hh125]; · iexact Hh125
      isplitl [Hh126]; · iexact Hh126
      iexact Hh127
    iapply Hk
    isplitl [H0]
    · iexists _; isplitr; · ipureintro; exact harg1.read_unread _
      iexact H0
    isplitl [H1]; · iexists _; iexact H1
    isplitl [HS]
    · iexists _, _; isplitr; swap; · iexact HS
      ipureintro; rfl
    isplitl [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hq33 Hq34 Hq35 Hq36 Hq37 Hq38 Hq39 Hq40 Hq41 Hq42 Hq43 Hq44 Hq45 Hq46 Hq47 Hq48 Hq49 Hq50 Hq51 Hq52 Hq53 Hq54 Hq55 Hq56 Hq57 Hq58 Hq59 Hq60 Hq61 Hq62 Hq63 Hq64 Hq65 Hq66 Hq67 Hq68 Hq69 Hq70 Hq71 Hq72 Hq73 Hq74 Hq75 Hq76 Hq77 Hq78 Hq79 Hq80 Hq81 Hq82 Hq83 Hq84 Hq85 Hq86 Hq87 Hq88 Hq89 Hq90 Hq91 Hq92 Hq93 Hq94 Hq95 Hq96 Hq97 Hq98 Hq99 Hq100 Hq101 Hq102 Hq103 Hq104 Hq105 Hq106 Hq107 Hq108 Hq109 Hq110 Hq111 Hq112 Hq113 Hq114 Hq115 Hq116 Hq117 Hq118 Hq119 Hq120 Hq121 Hq122 Hq123 Hq124 Hq125 Hq126 Hq127]
    ·
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      isplitl [Hq23]; · iexact Hq23
      isplitl [Hq24]; · iexact Hq24
      isplitl [Hq25]; · iexact Hq25
      isplitl [Hq26]; · iexact Hq26
      isplitl [Hq27]; · iexact Hq27
      isplitl [Hq28]; · iexact Hq28
      isplitl [Hq29]; · iexact Hq29
      isplitl [Hq30]; · iexact Hq30
      isplitl [Hq31]; · iexact Hq31
      isplitl [Hq32]; · iexact Hq32
      isplitl [Hq33]; · iexact Hq33
      isplitl [Hq34]; · iexact Hq34
      isplitl [Hq35]; · iexact Hq35
      isplitl [Hq36]; · iexact Hq36
      isplitl [Hq37]; · iexact Hq37
      isplitl [Hq38]; · iexact Hq38
      isplitl [Hq39]; · iexact Hq39
      isplitl [Hq40]; · iexact Hq40
      isplitl [Hq41]; · iexact Hq41
      isplitl [Hq42]; · iexact Hq42
      isplitl [Hq43]; · iexact Hq43
      isplitl [Hq44]; · iexact Hq44
      isplitl [Hq45]; · iexact Hq45
      isplitl [Hq46]; · iexact Hq46
      isplitl [Hq47]; · iexact Hq47
      isplitl [Hq48]; · iexact Hq48
      isplitl [Hq49]; · iexact Hq49
      isplitl [Hq50]; · iexact Hq50
      isplitl [Hq51]; · iexact Hq51
      isplitl [Hq52]; · iexact Hq52
      isplitl [Hq53]; · iexact Hq53
      isplitl [Hq54]; · iexact Hq54
      isplitl [Hq55]; · iexact Hq55
      isplitl [Hq56]; · iexact Hq56
      isplitl [Hq57]; · iexact Hq57
      isplitl [Hq58]; · iexact Hq58
      isplitl [Hq59]; · iexact Hq59
      isplitl [Hq60]; · iexact Hq60
      isplitl [Hq61]; · iexact Hq61
      isplitl [Hq62]; · iexact Hq62
      isplitl [Hq63]; · iexact Hq63
      isplitl [Hq64]; · iexact Hq64
      isplitl [Hq65]; · iexact Hq65
      isplitl [Hq66]; · iexact Hq66
      isplitl [Hq67]; · iexact Hq67
      isplitl [Hq68]; · iexact Hq68
      isplitl [Hq69]; · iexact Hq69
      isplitl [Hq70]; · iexact Hq70
      isplitl [Hq71]; · iexact Hq71
      isplitl [Hq72]; · iexact Hq72
      isplitl [Hq73]; · iexact Hq73
      isplitl [Hq74]; · iexact Hq74
      isplitl [Hq75]; · iexact Hq75
      isplitl [Hq76]; · iexact Hq76
      isplitl [Hq77]; · iexact Hq77
      isplitl [Hq78]; · iexact Hq78
      isplitl [Hq79]; · iexact Hq79
      isplitl [Hq80]; · iexact Hq80
      isplitl [Hq81]; · iexact Hq81
      isplitl [Hq82]; · iexact Hq82
      isplitl [Hq83]; · iexact Hq83
      isplitl [Hq84]; · iexact Hq84
      isplitl [Hq85]; · iexact Hq85
      isplitl [Hq86]; · iexact Hq86
      isplitl [Hq87]; · iexact Hq87
      isplitl [Hq88]; · iexact Hq88
      isplitl [Hq89]; · iexact Hq89
      isplitl [Hq90]; · iexact Hq90
      isplitl [Hq91]; · iexact Hq91
      isplitl [Hq92]; · iexact Hq92
      isplitl [Hq93]; · iexact Hq93
      isplitl [Hq94]; · iexact Hq94
      isplitl [Hq95]; · iexact Hq95
      isplitl [Hq96]; · iexact Hq96
      isplitl [Hq97]; · iexact Hq97
      isplitl [Hq98]; · iexact Hq98
      isplitl [Hq99]; · iexact Hq99
      isplitl [Hq100]; · iexact Hq100
      isplitl [Hq101]; · iexact Hq101
      isplitl [Hq102]; · iexact Hq102
      isplitl [Hq103]; · iexact Hq103
      isplitl [Hq104]; · iexact Hq104
      isplitl [Hq105]; · iexact Hq105
      isplitl [Hq106]; · iexact Hq106
      isplitl [Hq107]; · iexact Hq107
      isplitl [Hq108]; · iexact Hq108
      isplitl [Hq109]; · iexact Hq109
      isplitl [Hq110]; · iexact Hq110
      isplitl [Hq111]; · iexact Hq111
      isplitl [Hq112]; · iexact Hq112
      isplitl [Hq113]; · iexact Hq113
      isplitl [Hq114]; · iexact Hq114
      isplitl [Hq115]; · iexact Hq115
      isplitl [Hq116]; · iexact Hq116
      isplitl [Hq117]; · iexact Hq117
      isplitl [Hq118]; · iexact Hq118
      isplitl [Hq119]; · iexact Hq119
      isplitl [Hq120]; · iexact Hq120
      isplitl [Hq121]; · iexact Hq121
      isplitl [Hq122]; · iexact Hq122
      isplitl [Hq123]; · iexact Hq123
      isplitl [Hq124]; · iexact Hq124
      isplitl [Hq125]; · iexact Hq125
      isplitl [Hq126]; · iexact Hq126
      iexact Hq127
    isplitl [Hh]; · iexact Hh
    iexists _; iexact HW

end Cert.KernelIdeal.Hand

end
-- ==== Proof.KI.GatherDat.lean ====
/-
  The first kernel region's proof data: what its output block holds after the body (the run's one piece read back), the
  index table as the admissible contents of the pipeline's prefetched table, the kernel's 128 copy cells, the invariant
  handed to the body at every point (the scratch, the generator register, the cells at zero, the weight array whole, the
  table whole) and the body obligation.
-/
import proofs.«172148_j16612933501330_2_alg».proof.Proof.KI.Gather

set_option maxRecDepth 16384

noncomputable section

namespace Cert.KernelIdeal.Hand

open Cert.KernelIdeal Cert.KernelIdeal.Gen Cert.LibShareChain
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The run's one store tiles the output block, so it covers it. -/
theorem gCover (c : Dev nD) (i : grid0.Coords) (arg1 : Memref sig .tc .smem S8192 .i32) (harg1 : arg1.IsWhole)
    (arg3 : Memref sig .tc .vmem S128x4096 .bf16) (harg3 : arg3.IsWhole) (arg4 : Memref sig .tc .vmem S128x4096 .f32) (harg4 : arg4.IsWhole)
    (x0 : Vec F S8192 .i32) (hx : ∀ k : S8192.Idx, (x0 k).toNat < 16384) (fh : HbBuf (F := F) c hbM) (y : S128x4096.Idx) :
    ∃ pc ∈ (gatherRun c i arg1 harg1 arg3 harg3 arg4 harg4 x0 hx fh).1, y ∈ pc.1.set :=
  View.cover_of_tiledL (gatherRun c i arg1 harg1 arg3 harg3 arg4 harg4 x0 hx fh).1 S128x4096.size (by sl_kernel_rfl) y

/-- One staging buffer of the output window, through which its contents are stated. -/
abbrev VO0 : View sig .tc .vmem S128x4096 .bf16 := (Memref.whole cc0_stg0_0 : Memref sig .tc .vmem S128x4096 .bf16).view

/-- What the run leaves in the output block's staging buffer: its piece read back over junk. -/
def gOut (c : Dev nD) (i : grid0.Coords) (arg1 : Memref sig .tc .smem S8192 .i32) (harg1 : arg1.IsWhole)
    (arg3 : Memref sig .tc .vmem S128x4096 .bf16) (harg3 : arg3.IsWhole) (arg4 : Memref sig .tc .vmem S128x4096 .f32) (harg4 : arg4.IsWhole)
    (x0 : Vec F S8192 .i32) (hx : ∀ k : S8192.Idx, (x0 k).toNat < 16384) (fh : HbBuf (F := F) c hbM) : Vec F S128x4096 .bf16 :=
  VO0.read (Elt F) (VO0.writes (Elt F) VO0.junk (gatherRun c i arg1 harg1 arg3 harg3 arg4 harg4 x0 hx fh).1)

variable (V : (c : Dev nD) → (b : Ref sig .tc) → Buf (Elt F) ((c : Thread nD τ).loc b))

/-- Every word of the index table, as the region finds it, names a row of the weight array. -/
def TblOk : Prop := ∀ (c : Dev nD) (k : S8192.Idx), ((V c main_v15 : S8192.Idx → BitVec 32) k).toNat < 16384

/-- The table's contents when the region is entered (one device: device 0's). -/
def gTbl : pre0.Contents (Elt F) := fun j => V (0 : Dev nD) (pre0.ref j)
theorem gV_pre (c : Dev nD) (j : Fin 1) : V c (pre0.ref j) = gTbl V j := by
  obtain rfl : c = 0 := Subsingleton.elim _ _; rfl
/-- They are admissible: the pipeline's one window does not read the table. -/
abbrev gAdm : (pcfg0 (F := F)).Adm := ⟨gTbl V, trivial⟩
abbrev gCfg : Pipeline.Cfg sig Λ₀ := cfg0 (gAdm V)

/-- The table, the output's current staging memref at a point, the scratch: as the body is handed them. -/
abbrev tbM : Memref sig .tc .smem S8192 .i32 := Memref.whole main_v15
abbrev htbM : tbM.IsWhole := Memref.isWhole_whole _
abbrev gms (t : Fin (gCfg V).N) : Memref sig .tc .vmem S128x4096 .bf16 := spec0_0.stage ((gCfg V).slots t 0)
abbrev ghs (t : Fin (gCfg V).N) : (gms V t).IsWhole := hstage0_0 (((gCfg V).slots t 0).cast nbuf0_0)
abbrev scM : Memref sig .tc .vmem S128x4096 .f32 := Memref.whole cc0_scratch0

/-- The kernel's own 128 copy semaphores, cell by cell. -/
abbrev osem0 : Fin 128 → SemLoc sig := fun j => (![SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27, SemLoc.dma 28, SemLoc.dma 29, SemLoc.dma 30, SemLoc.dma 31, SemLoc.dma 32, SemLoc.dma 33, SemLoc.dma 34, SemLoc.dma 35, SemLoc.dma 36, SemLoc.dma 37, SemLoc.dma 38, SemLoc.dma 39, SemLoc.dma 40, SemLoc.dma 41, SemLoc.dma 42, SemLoc.dma 43, SemLoc.dma 44, SemLoc.dma 45, SemLoc.dma 46, SemLoc.dma 47, SemLoc.dma 48, SemLoc.dma 49, SemLoc.dma 50, SemLoc.dma 51, SemLoc.dma 52, SemLoc.dma 53, SemLoc.dma 54, SemLoc.dma 55, SemLoc.dma 56, SemLoc.dma 57, SemLoc.dma 58, SemLoc.dma 59, SemLoc.dma 60, SemLoc.dma 61, SemLoc.dma 62, SemLoc.dma 63, SemLoc.dma 64, SemLoc.dma 65, SemLoc.dma 66, SemLoc.dma 67, SemLoc.dma 68, SemLoc.dma 69, SemLoc.dma 70, SemLoc.dma 71, SemLoc.dma 72, SemLoc.dma 73, SemLoc.dma 74, SemLoc.dma 75, SemLoc.dma 76, SemLoc.dma 77, SemLoc.dma 78, SemLoc.dma 79, SemLoc.dma 80, SemLoc.dma 81, SemLoc.dma 82, SemLoc.dma 83, SemLoc.dma 84, SemLoc.dma 85, SemLoc.dma 86, SemLoc.dma 87, SemLoc.dma 88, SemLoc.dma 89, SemLoc.dma 90, SemLoc.dma 91, SemLoc.dma 92, SemLoc.dma 93, SemLoc.dma 94, SemLoc.dma 95, SemLoc.dma 96, SemLoc.dma 97, SemLoc.dma 98, SemLoc.dma 99, SemLoc.dma 100, SemLoc.dma 101, SemLoc.dma 102, SemLoc.dma 103, SemLoc.dma 104, SemLoc.dma 105, SemLoc.dma 106, SemLoc.dma 107, SemLoc.dma 108, SemLoc.dma 109, SemLoc.dma 110, SemLoc.dma 111, SemLoc.dma 112, SemLoc.dma 113, SemLoc.dma 114, SemLoc.dma 115, SemLoc.dma 116, SemLoc.dma 117, SemLoc.dma 118, SemLoc.dma 119, SemLoc.dma 120, SemLoc.dma 121, SemLoc.dma 122, SemLoc.dma 123, SemLoc.dma 124, SemLoc.dma 125, SemLoc.dma 126, SemLoc.dma 127, SemLoc.dma 128, SemLoc.dma 129] : Fin 128 → SemLoc sig) j
set_option maxRecDepth 100000 in
theorem ownSemFacts0 : Pipeline.OwnSemFacts spec0 osem0 := by decide +kernel
set_option maxRecDepth 100000 in
theorem ownSems00_eq (c : Dev nD) :
    (Pipeline.ownSems0 (Ix := Unit) (Name := ℕ) (U := Pipeline.UD sig nD τ) (Lvl := ℕ) (Val := Elt F) (τ := τ) osem0 c : sProp 𝕄)
      = cells0 c := by
  rw [Pipeline.ownSems0_eq_of_list c osem0 [(0 : Fin 128), (1 : Fin 128), (2 : Fin 128), (3 : Fin 128), (4 : Fin 128), (5 : Fin 128), (6 : Fin 128), (7 : Fin 128), (8 : Fin 128), (9 : Fin 128), (10 : Fin 128), (11 : Fin 128), (12 : Fin 128), (13 : Fin 128), (14 : Fin 128), (15 : Fin 128), (16 : Fin 128), (17 : Fin 128), (18 : Fin 128), (19 : Fin 128), (20 : Fin 128), (21 : Fin 128), (22 : Fin 128), (23 : Fin 128), (24 : Fin 128), (25 : Fin 128), (26 : Fin 128), (27 : Fin 128), (28 : Fin 128), (29 : Fin 128), (30 : Fin 128), (31 : Fin 128), (32 : Fin 128), (33 : Fin 128), (34 : Fin 128), (35 : Fin 128), (36 : Fin 128), (37 : Fin 128), (38 : Fin 128), (39 : Fin 128), (40 : Fin 128), (41 : Fin 128), (42 : Fin 128), (43 : Fin 128), (44 : Fin 128), (45 : Fin 128), (46 : Fin 128), (47 : Fin 128), (48 : Fin 128), (49 : Fin 128), (50 : Fin 128), (51 : Fin 128), (52 : Fin 128), (53 : Fin 128), (54 : Fin 128), (55 : Fin 128), (56 : Fin 128), (57 : Fin 128), (58 : Fin 128), (59 : Fin 128), (60 : Fin 128), (61 : Fin 128), (62 : Fin 128), (63 : Fin 128), (64 : Fin 128), (65 : Fin 128), (66 : Fin 128), (67 : Fin 128), (68 : Fin 128), (69 : Fin 128), (70 : Fin 128), (71 : Fin 128), (72 : Fin 128), (73 : Fin 128), (74 : Fin 128), (75 : Fin 128), (76 : Fin 128), (77 : Fin 128), (78 : Fin 128), (79 : Fin 128), (80 : Fin 128), (81 : Fin 128), (82 : Fin 128), (83 : Fin 128), (84 : Fin 128), (85 : Fin 128), (86 : Fin 128), (87 : Fin 128), (88 : Fin 128), (89 : Fin 128), (90 : Fin 128), (91 : Fin 128), (92 : Fin 128), (93 : Fin 128), (94 : Fin 128), (95 : Fin 128), (96 : Fin 128), (97 : Fin 128), (98 : Fin 128), (99 : Fin 128), (100 : Fin 128), (101 : Fin 128), (102 : Fin 128), (103 : Fin 128), (104 : Fin 128), (105 : Fin 128), (106 : Fin 128), (107 : Fin 128), (108 : Fin 128), (109 : Fin 128), (110 : Fin 128), (111 : Fin 128), (112 : Fin 128), (113 : Fin 128), (114 : Fin 128), (115 : Fin 128), (116 : Fin 128), (117 : Fin 128), (118 : Fin 128), (119 : Fin 128), (120 : Fin 128), (121 : Fin 128), (122 : Fin 128), (123 : Fin 128), (124 : Fin 128), (125 : Fin 128), (126 : Fin 128), (127 : Fin 128)] (by decide +kernel) (by decide +kernel)]; rfl

/-- The weight array: the one unscoped buffer the body reads by copies of its own. -/
def gH : Finset (Ref sig .tc) := {main_arg1}
theorem gH_sub : gH ⊆ Pipeline.restRefsP sig pre0 spec0 := by decide
theorem hbmPts0_eq (c : Dev nD) :
    (bigSep gH (fun b => ((c : Thread nD τ).loc b) ↦{fullShare} V c b) : sProp 𝕄) = iprop(hbPtq c hbM fullShare (V c main_arg1)) := by
  rw [BI.bigSep_eq_bigSepL_of_eq [main_arg1] (by decide) (by decide)]; rfl
/-- The table held whole, as the body reads it. -/
theorem tblPt_eq (c : Dev nD) :
    (Pipeline.prefHeld pre0 c (fun _ => fullShare) (gTbl V) : sProp 𝕄) = iprop(((c : Thread nD τ).loc main_v15) ↦{fullShare} (gTbl V 0)) := by
  unfold Pipeline.prefHeld
  rw [show (Finset.univ : Finset (Fin 1)) = {(0 : Fin 1)} from by decide, bigSep_singleton]
  rfl

/-- Every word of the table as entered is below 16384. -/
theorem gTbl_lt (hT : TblOk V) (k : S8192.Idx) : ((gTbl V 0 : S8192.Idx → BitVec 32) k).toNat < 16384 := hT 0 k

/-- What the output block's staging buffer holds after the body at point `t`. -/
def gOutsAt (hT : TblOk V) (c : Dev nD) (t : Fin (gCfg V).N) : Vec F S128x4096 .bf16 :=
  gOut c (grid0.coords t) tbM htbM (gms V t) (ghs V t) scM (Memref.isWhole_whole _) (gTbl V 0) (gTbl_lt V hT) (V c main_arg1)

/-- The invariant of the region: the scoped buffers no window stages (the scratch among them), the generator register,
    the kernel's cells at zero, the weight array and the table whole at their region-entry contents. -/
abbrev gPhi (c : Dev nD) : sProp 𝕄 :=
  iprop(Pipeline.ΦD osem0 spec0 gH V c ∗ Pipeline.prefHeld pre0 c (fun _ => fullShare) (gTbl V))

theorem gPhi_eq (c : Dev nD) :
    (gPhi V c : sProp 𝕄)
      = iprop(iprop(iprop((∃ d, owns (c : Thread nD τ) scM fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f)) ∗ (∃ r, prngReg c r) ∗ cells0 c ∗ hbPtq c hbM fullShare (V c main_arg1))
          ∗ owns (c : Thread nD τ) tbM fullShare (gTbl V 0)) := by
  unfold gPhi
  rw [Pipeline.ΦD_eq, scopedRest0_eq, ownSems00_eq, hbmPts0_eq, tblPt_eq]; simp only [scM, tbM, owns_whole]
  first
    | rfl
    | exact congrArg _ (owns_whole (c : Thread nD τ) main_v15 fullShare (gTbl V 0)).symm

/-- The proof data of the first pipeline on core `c`. -/
def gDat (hT : TblOk V) (c : Dev nD) : Dat τ (Elt F) Unit ℕ (Pipeline.UD sig nD τ) ℕ (gCfg V) c where
  A w := V c (Pipeline.arrRef spec0 w)
  after w t := match w with
    | ⟨0, _⟩ => gOutsAt V hT c t
  Φ _ := gPhi V c
  q _ := fullShare
  owed _ := 0

theorem gA_eq (hT : TblOk V) (c : Dev nD) (w : Fin (gCfg V).W) : (gDat V hT c).A w = V c (Pipeline.arrRef spec0 w) := by
  dsimp only [gDat]
theorem gAfter0 (hT : TblOk V) (c : Dev nD) (t : Fin (gCfg V).N) : (gDat V hT c).after 0 t = gOutsAt V hT c t := by dsimp only [gDat]; try rfl

/-- The kernel body at point `t`, on what the pipeline calls it with. -/
abbrev gBodyAt (t : Fin (gCfg V).N) : Prog (TpuEff nD τ sig (Elt F) Λ₀ .tc) PUnit :=
  cc0__gather_kernel (grid0.coords t) (Memref.whole main_v15) (Memref.isWhole_whole _) (Memref.whole main_arg1) (Memref.isWhole_whole _) (spec0_0.stage ((gCfg V).slots t 0)) (hstage0_0 (((gCfg V).slots t 0).cast nbuf0_0)) (Memref.whole cc0_scratch0) (Memref.isWhole_whole _) cc0_scratch1

def gBodyPre (hT : TblOk V) (c : Dev nD) (t : Fin (gCfg V).N) : sProp 𝕄 :=
  iprop((gDat V hT c).Φ t.castSucc ∗ (gDat V hT c).owesAt () t.castSucc
    ∗ (∃ d, owns (c : Thread nD τ) (gms V t) fullShare ((gDat V hT c).before 0 t d)))

def gBodyPost (hT : TblOk V) (c : Dev nD) (t : Fin (gCfg V).N) : sProp 𝕄 :=
  iprop((gDat V hT c).Φ t.succ ∗ (gDat V hT c).owesAt () t.succ
    ∗ owns (c : Thread nD τ) (gms V t) fullShare ((gDat V hT c).after 0 t))

/-- The body at any point: the invariant hands the run the scratch, the cells at zero, the weight array and the table, and
    takes them back as they were; the core's `owes` comes back with this point's 128 waits recorded. -/
theorem gSoundBody (hT : TblOk V) (c : Dev nD) (t : Fin (gCfg V).N) :
    gBodyPre V hT c t ⊢ wp frame (wpE (defs₀ (F := F)) Variants.none c none) Set.univ (gBodyAt V t) (fun _ => gBodyPost V hT c t) := by
  unfold gBodyPre gBodyPost gBodyAt
  rw [show (gDat V hT c).Φ t.succ = (gDat V hT c).Φ t.castSucc from rfl, gAfter0]
  rw [show (gDat V hT c).Φ t.castSucc = gPhi V c from rfl, gPhi_eq]
  unfold Dat.owesAt Pipeline.owesWithin
  rw [show (gDat V hT c).owed t.castSucc = 0 from rfl, show (gDat V hT c).owed t.succ = 0 from rfl]
  unfold gOutsAt
  unfold gOut
  iintro ⟨⟨⟨⟨HS0, HR⟩, Hg, Hq, Hh⟩, HT⟩, ⟨%W, -, HW⟩, ⟨%d0, H0⟩⟩
  iapply ((gatherRun c (grid0.coords t) tbM htbM (gms V t) (ghs V t) scM (Memref.isWhole_whole _) (gTbl V 0) (gTbl_lt V hT) (V c main_arg1)).2 W _)
  isplitl [HT]; · iexact HT
  isplitl [H0]; · iexists _; iexact H0
  isplitl [HS0]; · iexact HS0
  isplitl [Hq]; · iexact Hq
  isplitl [Hh]; · iexact Hh
  isplitl [HW]; · iexact HW
  iintro ⟨HT, ⟨%e0, H0⟩, HS0, Hq, Hh, ⟨%W', HW'⟩⟩
  isplitl [HS0 HR Hg Hq Hh HT]
  · isplitl [HS0 HR Hg Hq Hh]
    · isplitl [HS0 HR]
      · isplitl [HS0]; · iexact HS0
        iexact HR
      isplitl [Hg]; · iexact Hg
      isplitl [Hq]; · iexact Hq
      iexact Hh
    iexact HT
  isplitl [HW']
  · iexists W'; isplitr; · ipureintro; exact fun _ _ => Or.inl trivial
    iexact HW'
  unfold owns; iexists _; isplitr
  swap; · iexact H0
  ipureintro; exact View.read_writes_of_cover _ _ _ _ _ (gCover c _ _ _ _ _ _ _ _ _ _)

set_option maxRecDepth 1000000 in
/-- The library's body obligation, at every point. -/
theorem gBodyObligation (hT : TblOk V) (c : Dev nD) : BodyObligation (gDat (F := F) V hT c) (defs₀ (F := F)) Variants.none () Set.univ := fun t => by
  rw [bigSep_W0, bigSep_W0]
  exact gSoundBody V hT c t

end Cert.KernelIdeal.Hand

end
-- ==== Proof.KI.Gemm.lean ====
/-
  The second kernel region: one grid point multiplies a 1024×4096 block of the activations by the transpose of a
  512×4096 block of the selected weight rows and adds a 1×512 block of the selected bias, broadcast over the rows.
  Here: what the output block holds after the body as one function of the three input blocks, the body's triple,
  and the pipeline's proof data over it, at any contents `V` the region is entered from.
-/
import proofs.«172148_j16612933501330_2_alg».proof.Proof.Gen.KernelIdeal.Launch
import proofs.«172148_j16612933501330_2_alg».proof.Proof.Gen.KernelIdeal.Skeleton
import proofs.«172148_j16612933501330_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block at grid point `t`, read off its array as the region finds it. -/
def mmBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (the activations'
    block is fetched once per row of the grid and stays put for the sixteen points of that row). -/
theorem mmBefore0_of {c : Dev nD} (dat : Dat τ (Elt F) Unit ℕ (Pipeline.UD sig nD τ) ℕ cfg1 c) (hA : dat.A 0 = V c (Pipeline.arrRef spec1 0))
    (hafter : ∀ t, dat.after 0 t = mmBlk V c 0 t) (t : Fin cfg1.N) (d) : dat.before 0 t d = mmBlk V c 0 t :=
  (dat.before_in_eq_fetched 0 rfl (fun _ => rfl) (fun _ _ _ => rfl) (fun t => by rw [hafter]; unfold Dat.blockOf mmBlk; rw [hA]; try rfl) t d).trans
    (by unfold Dat.fetched Dat.blockOf mmBlk; rw [hA]; try rfl)
theorem mmBefore1_of {c : Dev nD} (dat : Dat τ (Elt F) Unit ℕ (Pipeline.UD sig nD τ) ℕ cfg1 c) (hA : dat.A 1 = V c (Pipeline.arrRef spec1 1))
    (hafter : ∀ t, dat.after 1 t = mmBlk V c 1 t) (t : Fin cfg1.N) (d) : dat.before 1 t d = mmBlk V c 1 t :=
  (dat.before_in_eq_fetched 1 rfl (fun _ => rfl) (fun _ _ _ => rfl) (fun t => by rw [hafter]; unfold Dat.blockOf mmBlk; rw [hA]; try rfl) t d).trans
    (by unfold Dat.fetched Dat.blockOf mmBlk; rw [hA]; try rfl)
theorem mmBefore2_of {c : Dev nD} (dat : Dat τ (Elt F) Unit ℕ (Pipeline.UD sig nD τ) ℕ cfg1 c) (hA : dat.A 2 = V c (Pipeline.arrRef spec1 2))
    (hafter : ∀ t, dat.after 2 t = mmBlk V c 2 t) (t : Fin cfg1.N) (d) : dat.before 2 t d = mmBlk V c 2 t :=
  (dat.before_in_eq_fetched 2 rfl (fun _ => rfl) (fun _ _ _ => rfl) (fun t => by rw [hafter]; unfold Dat.blockOf mmBlk; rw [hA]; try rfl) t d).trans
    (by unfold Dat.fetched Dat.blockOf mmBlk; rw [hA]; try rfl)

/-- The whole-block rectangles the body loads and stores through. -/
abbrev rAct : Rect S1024x4096 := Rect.unit (s := S1024x4096) ![0, 0] S1024x4096.size inb_S1024x4096_S1024x4096_0_0
abbrev rWgt : Rect S512x4096 := Rect.unit (s := S512x4096) ![0, 0] S512x4096.size inb_S512x4096_S512x4096_0_0
abbrev rBias : Rect S1x512 := Rect.unit (s := S1x512) ![0, 0] S1x512.size inb_S1x512_S1x512_0_0
abbrev rOut : Rect S1024x512 := Rect.unit (s := S1024x512) ![0, 0] S1024x512.size inb_S1024x512_S1024x512_0_0

/-- The output block after the body: the one whole-block store of (activations · weightsᵀ + bias) of the three input blocks. -/
def mmOut (x0 : Vec F S1024x4096 .bf16) (x1 : Vec F S512x4096 .bf16) (x2 : Vec F S1x512 .f32) : Vec F S1024x512 .f32 :=
  View.canon [⟨rOut, k1_pay1 (View.ld x0 rAct) (View.ld x1 rWgt) (View.ld x2 rBias)⟩]

/-- The one store covers the block. -/
theorem mmCover (p0 : Vec F S1024x512 .f32) (y : S1024x512.Idx) :
    ∃ pc ∈ ([⟨rOut, p0⟩] : List (View.Piece (Elt F) S1024x512 .f32)), y ∈ pc.1.set :=
  View.cover_of_tiled [⟨rOut, p0⟩] S1024x512.size (by rfl) y

set_option maxHeartbeats 1000000 in
/-- The body on whole staging memrefs — the three inputs' at contents `x0 x1 x2`, the output's at anything — runs to the
    continuation with the inputs as they were and the output at `mmOut x0 x1 x2`. -/
theorem mmKernel (c : Dev nD) (E : Set ℕ) (i : grid1.Coords)
    (arg2 : Memref sig .tc .vmem S1024x4096 .bf16) (harg2 : arg2.IsWhole) (arg3 : Memref sig .tc .vmem S512x4096 .bf16) (harg3 : arg3.IsWhole)
    (arg4 : Memref sig .tc .vmem S1x512 .f32) (harg4 : arg4.IsWhole) (arg5 : Memref sig .tc .vmem S1024x512 .f32) (harg5 : arg5.IsWhole)
    (x0 : Vec F S1024x4096 .bf16) (x1 : Vec F S512x4096 .bf16) (x2 : Vec F S1x512 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (mmOut x0 x1 x2)) -∗ K ⟨⟩))
      ⊢ wp frame (wpE (defs₀ (F := F)) Variants.none c none) E (cc1__gemm_kernel i arg2 harg2 arg3 harg3 arg4 harg4 arg5 harg5) K := by
  simp only [cc1__gemm_kernel_eq_skeleton]; unfold cc1__gemm_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (mmCover _)

/-- The proof data of the second pipeline on core `c`: its arrays as the region finds them; after the body at point `t`
    each input's staging buffer at its block and the output's at `mmOut` of the input blocks; the invariant the scoped
    rest and the generator register, untouched; nothing owed; full shares. -/
def mmDat (c : Dev nD) : Dat τ (Elt F) Unit ℕ (Pipeline.UD sig nD τ) ℕ cfg1 c where
  A w := V c (Pipeline.arrRef spec1 w)
  after w t := match w with
    | ⟨0, _⟩ => mmBlk V c 0 t
    | ⟨1, _⟩ => mmBlk V c 1 t
    | ⟨2, _⟩ => mmBlk V c 2 t
    | ⟨3, _⟩ => mmOut (mmBlk V c 0 t) (mmBlk V c 1 t) (mmBlk V c 2 t)
  Φ _ := Pipeline.ΦA spec1 c
  q _ := fullShare
  owed _ := 0

theorem mmA_eq (c : Dev nD) (w : Fin cfg1.W) : (mmDat V c).A w = V c (Pipeline.arrRef spec1 w) := by
  dsimp only [mmDat]

theorem mmAfter0 (c : Dev nD) (t : Fin cfg1.N) : (mmDat V c).after 0 t = mmBlk V c 0 t := by dsimp only [mmDat]
theorem mmAfter1 (c : Dev nD) (t : Fin cfg1.N) : (mmDat V c).after 1 t = mmBlk V c 1 t := by dsimp only [mmDat]
theorem mmAfter2 (c : Dev nD) (t : Fin cfg1.N) : (mmDat V c).after 2 t = mmBlk V c 2 t := by dsimp only [mmDat]
theorem mmAfter3 (c : Dev nD) (t : Fin cfg1.N) :
    (mmDat V c).after 3 t = mmOut (mmBlk V c 0 t) (mmBlk V c 1 t) (mmBlk V c 2 t) := by dsimp only [mmDat]

theorem mmBefore0 (c : Dev nD) (t : Fin cfg1.N) (d) : (mmDat V c).before 0 t d = mmBlk V c 0 t :=
  mmBefore0_of V (mmDat V c) (mmA_eq V c 0) (mmAfter0 V c) t d
theorem mmBefore1 (c : Dev nD) (t : Fin cfg1.N) (d) : (mmDat V c).before 1 t d = mmBlk V c 1 t :=
  mmBefore1_of V (mmDat V c) (mmA_eq V c 1) (mmAfter1 V c) t d
theorem mmBefore2 (c : Dev nD) (t : Fin cfg1.N) (d) : (mmDat V c).before 2 t d = mmBlk V c 2 t :=
  mmBefore2_of V (mmDat V c) (mmA_eq V c 2) (mmAfter2 V c) t d

/-- What the body is called with at point `t`, the windows one by one, -/
def mmBodyPre (c : Dev nD) (t : Fin cfg1.N) : sProp 𝕄 :=
  iprop((mmDat V c).Φ t.castSucc ∗ (mmDat V c).owesAt () t.castSucc
    ∗ (∃ d, owns (c : Thread nD τ) (st1_0 t) fullShare ((mmDat V c).before 0 t d))
    ∗ (∃ d, owns (c : Thread nD τ) (st1_1 t) fullShare ((mmDat V c).before 1 t d))
    ∗ (∃ d, owns (c : Thread nD τ) (st1_2 t) fullShare ((mmDat V c).before 2 t d))
    ∗ (∃ d, owns (c : Thread nD τ) (st1_3 t) fullShare ((mmDat V c).before 3 t d)))

/-- and what it returns. -/
def mmBodyPost (c : Dev nD) (t : Fin cfg1.N) : sProp 𝕄 :=
  iprop((mmDat V c).Φ t.succ ∗ (mmDat V c).owesAt () t.succ
    ∗ owns (c : Thread nD τ) (st1_0 t) fullShare ((mmDat V c).after 0 t)
    ∗ owns (c : Thread nD τ) (st1_1 t) fullShare ((mmDat V c).after 1 t)
    ∗ owns (c : Thread nD τ) (st1_2 t) fullShare ((mmDat V c).after 2 t)
    ∗ owns (c : Thread nD τ) (st1_3 t) fullShare ((mmDat V c).after 3 t))

/-- The body at any point: the inputs' memrefs hold their blocks, so `mmKernel` applies; the invariant and the core's
    `owes` pass through unread. -/
theorem mmSoundBody (c : Dev nD) (t : Fin cfg1.N) :
    mmBodyPre V c t ⊢ wp frame (wpE (defs₀ (F := F)) Variants.none c none) Set.univ (bodyAt1 t) (fun _ => mmBodyPost V c t) := by
  unfold mmBodyPre mmBodyPost bodyAt1
  simp only [mmBefore0, mmBefore1, mmBefore2]
  rw [show (mmDat V c).Φ t.succ = (mmDat V c).Φ t.castSucc from rfl,
    show (mmDat V c).owesAt () t.succ = (mmDat V c).owesAt () t.castSucc from rfl,
    mmAfter0, mmAfter1, mmAfter2, mmAfter3]
  iintro ⟨HΦ, Ho, ⟨%d0, H0⟩, ⟨%d1, H1⟩, ⟨%d2, H2⟩, ⟨%d3, H3⟩⟩
  iapply (mmKernel c Set.univ (grid1.coords t) _ _ _ _ _ _ _ _ (mmBlk V c 0 t) (mmBlk V c 1 t) (mmBlk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem mmBodyObligation (c : Dev nD) : BodyObligation (mmDat (F := F) V c) (defs₀ (F := F)) Variants.none () Set.univ := fun t => by
  rw [bigSep_W1, bigSep_W1]
  exact mmSoundBody V c t

end Cert.KernelIdeal.Hand

end
-- ==== Proof.KI.Run.lean ====
/-
  The whole program as a run: twelve stretches of host operations, the first kernel region (the gather of the selected
  weight rows), one more stretch (the activations cast to bf16), the second kernel region (the product). The contents of
  every buffer at each boundary are a fold from the launch memory: a stretch applies its operations; a region leaves its
  windows' arrays at what its write-backs fold to and every other buffer as it found it. Every terminating execution ends
  with every unscoped buffer at the fold's last stage; the arguments end as launched.
-/
import proofs.«172148_j16612933501330_2_alg».proof.Proof.KI.GatherDat
import proofs.«172148_j16612933501330_2_alg».proof.Proof.KI.Gemm
import proofs.«172148_j16612933501330_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! ## The buffer contents at each boundary: a fold through the program -/

/-- Core `c`'s buffers at launch. -/
abbrev W0 : Dev nD → Valuation τ sig (Elt F) := fun c => Gen.V0 m c
/-- After the host stretch `hostOps0`. -/
abbrev W1 : Dev nD → Valuation τ sig (Elt F) := fun c => StableHlo.after hostOps0 (W0 m c)
/-- After the host stretch `hostOps0_1`. -/
abbrev W2 : Dev nD → Valuation τ sig (Elt F) := fun c => StableHlo.after hostOps0_1 (W1 m c)
/-- After the host stretch `hostOps0_2`. -/
abbrev W3 : Dev nD → Valuation τ sig (Elt F) := fun c => StableHlo.after hostOps0_2 (W2 m c)
/-- After the host stretch `hostOps0_3`. -/
abbrev W4 : Dev nD → Valuation τ sig (Elt F) := fun c => StableHlo.after hostOps0_3 (W3 m c)
/-- After the host stretch `hostOps0_4`. -/
abbrev W5 : Dev nD → Valuation τ sig (Elt F) := fun c => StableHlo.after hostOps0_4 (W4 m c)
/-- After the host stretch `hostOps0_5`. -/
abbrev W6 : Dev nD → Valuation τ sig (Elt F) := fun c => StableHlo.after hostOps0_5 (W5 m c)
/-- After the host stretch `hostOps0_6`. -/
abbrev W7 : Dev nD → Valuation τ sig (Elt F) := fun c => StableHlo.after hostOps0_6 (W6 m c)
/-- After the host stretch `hostOps0_7`. -/
abbrev W8 : Dev nD → Valuation τ sig (Elt F) := fun c => StableHlo.after hostOps0_7 (W7 m c)
/-- After the host stretch `hostOps0_8`. -/
abbrev W9 : Dev nD → Valuation τ sig (Elt F) := fun c => StableHlo.after hostOps0_8 (W8 m c)
/-- After the host stretch `hostOps0_9`. -/
abbrev W10 : Dev nD → Valuation τ sig (Elt F) := fun c => StableHlo.after hostOps0_9 (W9 m c)
/-- After the host stretch `hostOps0_10`. -/
abbrev W11 : Dev nD → Valuation τ sig (Elt F) := fun c => StableHlo.after hostOps0_10 (W10 m c)
/-- After the host stretch `hostOps0_11`. -/
abbrev W12 : Dev nD → Valuation τ sig (Elt F) := fun c => StableHlo.after hostOps0_11 (W11 m c)
/-- The same read at the TensorCore's references: what the first region is entered from. -/
abbrev V12 : (c : Dev nD) → (b : Ref sig .tc) → Buf (Elt F) ((c : Thread nD τ).loc b) := fun c b => W12 m c b

variable (hT : TblOk (V12 m))

/-- After the first region: its output array (the selected weight rows) at what its write-backs fold to, every other
    buffer as the region found it. -/
def W13 (c : Dev nD) : Valuation τ sig (Elt F) :=
  Pipeline.withArrays spec0 c (W12 m c) fun w => (gDat (V12 m) hT c).arrAt w (gCfg (V12 m)).N
theorem W13_arr (c : Dev nD) (w : Fin (gCfg (V12 m)).W) :
    W13 m hT c (Proc.devRef .tc (Pipeline.arrRef spec0 w)) = (gDat (V12 m) hT c).arrAt w (gCfg (V12 m)).N := by
  unfold W13; exact Pipeline.withArrays_arr spec0 (launch0 (F := F)).win.arr_inj c _ _ w
theorem W13_of_ne (c : Dev nD) (b : Ref sig .tc) (hb : ∀ w, Pipeline.arrRef spec0 w ≠ b) :
    W13 m hT c (Proc.devRef .tc b) = W12 m c (Proc.devRef .tc b) := by
  unfold W13; exact Pipeline.withArrays_of_ne spec0 c _ _ b hb
abbrev V13 : (c : Dev nD) → (b : Ref sig .tc) → Buf (Elt F) ((c : Thread nD τ).loc b) := fun c b => W13 m hT c b
theorem hF0 (c : Dev nD) (w : Fin (gCfg (V12 m)).W) :
    (gDat (V12 m) hT c).arrAt w (gCfg (V12 m)).N = V13 m hT c (Pipeline.arrRef spec0 w) := (W13_arr m hT c w).symm
theorem hrest0 (c : Dev nD) : ∀ b, b ∉ Finset.univ.image (Pipeline.arrRef spec0) → V13 m hT c b = V12 m c b :=
  fun b hb => W13_of_ne m hT c b fun w e => hb (Finset.mem_image.mpr ⟨w, Finset.mem_univ _, e⟩)

/-- After the stretch between the regions (the activations cast to bf16). -/
abbrev W14 : Dev nD → Valuation τ sig (Elt F) := fun c => StableHlo.after hostOps1 (W13 m hT c)
/-- The same read at the TensorCore's references: what the second region is entered from. -/
abbrev V14 : (c : Dev nD) → (b : Ref sig .tc) → Buf (Elt F) ((c : Thread nD τ).loc b) := fun c b => W14 m hT c b

/-- After the second region: its output array (the product) at what its write-backs fold to, every other buffer as the
    region found it. -/
def W15 (c : Dev nD) : Valuation τ sig (Elt F) :=
  Pipeline.withArrays spec1 c (W14 m hT c) fun w => (mmDat (V14 m hT) c).arrAt w cfg1.N
theorem W15_arr (c : Dev nD) (w : Fin cfg1.W) :
    W15 m hT c (Proc.devRef .tc (Pipeline.arrRef spec1 w)) = (mmDat (V14 m hT) c).arrAt w cfg1.N := by
  unfold W15; exact Pipeline.withArrays_arr spec1 (launch1 (F := F)).win.arr_inj c _ _ w
theorem W15_of_ne (c : Dev nD) (b : Ref sig .tc) (hb : ∀ w, Pipeline.arrRef spec1 w ≠ b) :
    W15 m hT c (Proc.devRef .tc b) = W14 m hT c (Proc.devRef .tc b) := by
  unfold W15; exact Pipeline.withArrays_of_ne spec1 c _ _ b hb
abbrev V15 : (c : Dev nD) → (b : Ref sig .tc) → Buf (Elt F) ((c : Thread nD τ).loc b) := fun c b => W15 m hT c b
theorem hF1 (c : Dev nD) (w : Fin cfg1.W) : (mmDat (V14 m hT) c).arrAt w cfg1.N = V15 m hT c (Pipeline.arrRef spec1 w) :=
  (W15_arr m hT c w).symm
theorem hrest1 (c : Dev nD) : ∀ b, b ∉ Finset.univ.image (Pipeline.arrRef spec1) → V15 m hT c b = V14 m hT c b :=
  fun b hb => W15_of_ne m hT c b fun w e => hb (Finset.mem_image.mpr ⟨w, Finset.mem_univ _, e⟩)

/-- The product's array after the run is what the second region's write-backs fold to. -/
theorem W15_main_v20 (c : Dev nD) : W15 m hT c (Proc.devRef .tc main_v20) = (mmDat (V14 m hT) c).arrAt 3 cfg1.N :=
  W15_arr m hT c 3

/-! ### The arguments end as launched: no stretch writes one and neither region's windows hold one (the first region reads
    the weight array by copies of its own and hands it back unchanged) -/

/-- A buffer no host stretch before the first region writes holds its launch contents when that region is entered. -/
theorem W12_of (c : Dev nD) (r : Ref sig .tc) (h0 : r ∉ hostOps0_W) (h1 : r ∉ hostOps0_1_W) (h2 : r ∉ hostOps0_2_W) (h3 : r ∉ hostOps0_3_W)
    (h4 : r ∉ hostOps0_4_W) (h5 : r ∉ hostOps0_5_W) (h6 : r ∉ hostOps0_6_W) (h7 : r ∉ hostOps0_7_W) (h8 : r ∉ hostOps0_8_W)
    (h9 : r ∉ hostOps0_9_W) (h10 : r ∉ hostOps0_10_W) (h11 : r ∉ hostOps0_11_W) :
    W12 m c (Proc.devRef .tc r) = m ((c : Thread nD τ).loc r) :=
  (V12_of m c r h11).trans <| (V11_of m c r h10).trans <| (V10_of m c r h9).trans <| (V9_of m c r h8).trans <| (V8_of m c r h7).trans <|
    (V7_of m c r h6).trans <| (V6_of m c r h5).trans <| (V5_of m c r h4).trans <| (V4_of m c r h3).trans <| (V3_of m c r h2).trans <|
    (V2_of m c r h1).trans <| (V1_of m c r h0).trans rfl
theorem W15_main_arg0 (c : Dev nD) : W15 m hT c (Proc.devRef .tc main_arg0) = m ((c : Thread nD τ).loc main_arg0) :=
  calc W15 m hT c (Proc.devRef .tc main_arg0)
    _ = W14 m hT c (Proc.devRef .tc main_arg0) := W15_of_ne m hT c main_arg0 (by decide)
    _ = W13 m hT c (Proc.devRef .tc main_arg0) := StableHlo.after_of_writes_sub hostOps1 _ hostOps1_writes (by decide)
    _ = W12 m c (Proc.devRef .tc main_arg0) := W13_of_ne m hT c main_arg0 (by decide)
    _ = m ((c : Thread nD τ).loc main_arg0) := W12_of m c main_arg0 (by decide) (by decide) (by decide) (by decide) (by decide) (by decide) (by decide) (by decide) (by decide) (by decide) (by decide) (by decide)
theorem W15_main_arg1 (c : Dev nD) : W15 m hT c (Proc.devRef .tc main_arg1) = m ((c : Thread nD τ).loc main_arg1) :=
  calc W15 m hT c (Proc.devRef .tc main_arg1)
    _ = W14 m hT c (Proc.devRef .tc main_arg1) := W15_of_ne m hT c main_arg1 (by decide)
    _ = W13 m hT c (Proc.devRef .tc main_arg1) := StableHlo.after_of_writes_sub hostOps1 _ hostOps1_writes (by decide)
    _ = W12 m c (Proc.devRef .tc main_arg1) := W13_of_ne m hT c main_arg1 (by decide)
    _ = m ((c : Thread nD τ).loc main_arg1) := W12_of m c main_arg1 (by decide) (by decide) (by decide) (by decide) (by decide) (by decide) (by decide) (by decide) (by decide) (by decide) (by decide) (by decide)
theorem W15_main_arg2 (c : Dev nD) : W15 m hT c (Proc.devRef .tc main_arg2) = m ((c : Thread nD τ).loc main_arg2) :=
  calc W15 m hT c (Proc.devRef .tc main_arg2)
    _ = W14 m hT c (Proc.devRef .tc main_arg2) := W15_of_ne m hT c main_arg2 (by decide)
    _ = W13 m hT c (Proc.devRef .tc main_arg2) := StableHlo.after_of_writes_sub hostOps1 _ hostOps1_writes (by decide)
    _ = W12 m c (Proc.devRef .tc main_arg2) := W13_of_ne m hT c main_arg2 (by decide)
    _ = m ((c : Thread nD τ).loc main_arg2) := W12_of m c main_arg2 (by decide) (by decide) (by decide) (by decide) (by decide) (by decide) (by decide) (by decide) (by decide) (by decide) (by decide) (by decide)
theorem W15_main_arg3 (c : Dev nD) : W15 m hT c (Proc.devRef .tc main_arg3) = m ((c : Thread nD τ).loc main_arg3) :=
  calc W15 m hT c (Proc.devRef .tc main_arg3)
    _ = W14 m hT c (Proc.devRef .tc main_arg3) := W15_of_ne m hT c main_arg3 (by decide)
    _ = W13 m hT c (Proc.devRef .tc main_arg3) := StableHlo.after_of_writes_sub hostOps1 _ hostOps1_writes (by decide)
    _ = W12 m c (Proc.devRef .tc main_arg3) := W13_of_ne m hT c main_arg3 (by decide)
    _ = m ((c : Thread nD τ).loc main_arg3) := W12_of m c main_arg3 (by decide) (by decide) (by decide) (by decide) (by decide) (by decide) (by decide) (by decide) (by decide) (by decide) (by decide) (by decide)

/-! ## The proof data family and the thread state -/

/-- The prefetched tables' admissible contents: the first pipeline's index table as the region finds it; the second has none. -/
abbrev adm : (p : Fin 2) → (pcfgs (F := F) p).Adm
  | ⟨0, _⟩ => gAdm (V12 m)
  | ⟨1, _⟩ => cfg1.toPCfg_adm
/-- Every pipeline's proof data, each at its region's entry contents. -/
def pdats : (p : Fin 2) → (c : Dev nD) → Dat τ (Elt F) Unit ℕ (Pipeline.UD sig nD τ) ℕ (Pipeline.pin (pcfgs (F := F)) (adm m) p) c
  | ⟨0, _⟩ => fun c => gDat (V12 m) hT c
  | ⟨1, _⟩ => fun c => mmDat (V14 m hT) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register at some state. -/
abbrev Tₙ (c : Dev nD) : sProp 𝕄 := iprop(StableHlo.held (c : Thread nD τ) (Pipeline.ucRefs τ sig) (W15 m hT c) ∗ ∃ r, prngReg c r)

/-- The unscoped buffers that are not the first region's array: its index table, the weight array it copies from itself,
    and the others. -/
theorem rest0_eq (c : Dev nD) :
    (Pipeline.unscopedRest (Ix := Unit) (Name := ℕ) (U := Pipeline.UD sig nD τ) (Lvl := ℕ) spec0 c (V12 m c) : sProp 𝕄)
      = iprop(Pipeline.prefHeld pre0 c (fun _ => fullShare) (gTbl (V12 m))
          ∗ (bigSep gH fun b => ((c : Thread nD τ).loc b) ↦{fullShare} V12 m c b)
          ∗ (bigSep (Pipeline.restRefsP sig pre0 spec0 \ gH) fun b => ((c : Thread nD τ).loc b) ↦{fullShare} V12 m c b)) := by
  rw [Pipeline.unscopedRest_split preFacts0 c (V12 m c), Pipeline.unscopedRestP_sdiff pre0 spec0 gH gH_sub c (V12 m c),
    show (fun k => V12 m c (pre0.ref k)) = gTbl (V12 m) from funext fun k => gV_pre (V12 m) c k]

/-! ## The regions as segments -/

set_option backward.isDefEq.respectTransparency.types false in
/-- The first region over the thread state: entered from every unscoped buffer at `W12`, left at `W13`. Its array splits
    out of the unscoped buffers and is put back at the exit contents; the index table, the generator register, the kernel's
    own copy cells (at zero from the boundary and back) and the weight array enter the invariant and come back; nothing owed. -/
def reg0 : Pipeline.RegionSeg (pcfgs (F := F)) (adm m) (pdats m hT) () defs₀ 𝒱₀ L lv 0 where
  win := (launch0 (F := F)).win.to₀
  block_pos := (launch0 (F := F)).block_pos
  stage_whole := (launch0 (F := F)).stage_whole
  K := Fin 128
  osem := osem0
  ho := ownSemFacts0
  hbody c := (gBodyObligation (V12 m) hT c).loose
  hwaits := Pipeline.hwaits_of_owed_zero _ _ _ _ L lv 0 fun _ _ => rfl
  pre c := iprop(StableHlo.held (c : Thread nD τ) (Pipeline.ucRefs τ sig) (W12 m c) ∗ R c)
  post c := iprop(StableHlo.held (c : Thread nD τ) (Pipeline.ucRefs τ sig) (W13 m hT c) ∗ R c)
  X c := iprop((∃ r, prngReg c r) ∗ Pipeline.ownSems0 (Ix := Unit) (Name := ℕ) (U := Pipeline.UD sig nD τ) (Lvl := ℕ) (Val := Elt F) (τ := τ) osem0 c ∗ (bigSep gH fun b => ((c : Thread nD τ).loc b) ↦{fullShare} V12 m c b))
  Y c := iprop((∃ r, prngReg c r) ∗ (bigSep gH fun b => ((c : Thread nD τ).loc b) ↦{fullShare} V12 m c b) ∗ Pipeline.prefHeld pre0 c (fun _ => fullShare) (gTbl (V12 m)))
  Z c := bigSep (Pipeline.restRefsP sig pre0 spec0 \ gH) fun b => ((c : Thread nD τ).loc b) ↦{fullShare} V12 m c b
  hentry c := by
    have hsplit := Pipeline.arrays_of_unscopedBufs (p := 0) (pcfgs (F := F)) (adm m) (pdats m hT) (launch0 (F := F)).win (launch0 (F := F)).arr_whole c
      ((pdats m hT 0 c).share_full fun _ => rfl) (V12 m c) fun _ => rfl
    rw [Pipeline.unscopedBufs_held] at hsplit
    iintro ⟨⟨Hub, Hp, HO⟩, Hos, -⟩
    ihave H := hsplit $$ Hub
    icases H with ⟨Ha, Hrest⟩
    ihave H' := (Entails.of_eq (rest0_eq m c)) $$ Hrest
    icases H' with ⟨Htb, HH, HR⟩
    imodintro
    isplitl [Ha]; · iexact Ha
    isplitl [Htb]; · iexact Htb
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [show (pdats m hT 0 c).Φ 0 = iprop(Pipeline.ΦD osem0 spec0 gH (V12 m) c ∗ Pipeline.prefHeld pre0 c (fun _ => fullShare) (gTbl (V12 m))) from rfl, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [show (pdats m hT 0 c).Φ (Fin.last _) = iprop(Pipeline.ΦD osem0 spec0 gH (V12 m) c ∗ Pipeline.prefHeld pre0 c (fun _ => fullShare) (gTbl (V12 m))) from rfl, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    have hjoin := Pipeline.unscopedBufs_of_arrays (p := 0) (pcfgs (F := F)) (adm m) (Ix := Unit) (Name := ℕ) (U := Pipeline.UD sig nD τ) (Lvl := ℕ)
      (launch0 (F := F)).win (launch0 (F := F)).arr_whole c (pdats m hT) ((pdats m hT 0 c).share_full fun _ => rfl)
      (V12 m c) (V13 m hT c) ((pdats m hT 0 c).arrAt · (gCfg (V12 m)).N) (hF0 m hT c) (hrest0 m hT c)
    rw [Pipeline.unscopedBufs_held] at hjoin
    iintro ⟨Ha, HO, ⟨HY, HH, Htb⟩, HR⟩
    ihave Hrest := (Entails.of_eq (rest0_eq m c).symm) $$ [Htb HH HR]
    · isplitl [Htb]; · iexact Htb
      isplitl [HH]; · iexact HH
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W14`, left at `W15`. Its arrays split
    out of the unscoped buffers and are put back at the exit contents; the generator register into the invariant and out;
    nothing owed; no semaphore of the kernel's own. -/
def reg1 : Pipeline.RegionSeg (pcfgs (F := F)) (adm m) (pdats m hT) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (mmBodyObligation (V14 m hT) c).loose
  hwaits := Pipeline.hwaits_of_owed_zero _ _ _ _ L lv 1 fun _ _ => rfl
  pre c := iprop(StableHlo.held (c : Thread nD τ) (Pipeline.ucRefs τ sig) (W14 m hT c) ∗ R c)
  post c := iprop(Tₙ m hT c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (V14 m hT c)
  hentry c := by
    rw [Pipeline.ownSems0_none]
    have hsplit := Pipeline.arrays_of_unscopedBufs (p := 1) (pcfgs (F := F)) (adm m) (pdats m hT) (launch1 (F := F)).win (launch1 (F := F)).arr_whole c
      ((pdats m hT 1 c).share_full fun _ => rfl) (V14 m hT c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hT 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m hT 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm m) (Ix := Unit) (Name := ℕ) (U := Pipeline.UD sig nD τ) (Lvl := ℕ)
      (launch1 (F := F)).win (launch1 (F := F)).arr_whole c (pdats m hT) ((pdats m hT 1 c).share_full fun _ => rfl)
      (V14 m hT c) (V15 m hT c) ((pdats m hT 1 c).arrAt · cfg1.N) (hF1 m hT c) (hrest1 m hT c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's fifteen segments in order: a host segment per stretch from its boundary's contents, a region per kernel. -/
abbrev segs : List (Pipeline.Seg (pcfgs (F := F)) (adm m) (pdats m hT) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .host (hseg hostOps0_5 hostOps0_5_sub hostOps0_5_fresh (W5 m)),
    .host (hseg hostOps0_6 hostOps0_6_sub hostOps0_6_fresh (W6 m)),
    .host (hseg hostOps0_7 hostOps0_7_sub hostOps0_7_fresh (W7 m)),
    .host (hseg hostOps0_8 hostOps0_8_sub hostOps0_8_fresh (W8 m)),
    .host (hseg hostOps0_9 hostOps0_9_sub hostOps0_9_fresh (W9 m)),
    .host (hseg hostOps0_10 hostOps0_10_sub hostOps0_10_fresh (W10 m)),
    .host (hseg hostOps0_11 hostOps0_11_sub hostOps0_11_fresh (W11 m)),
    .region (reg0 m hT),
    .host (hseg hostOps1 hostOps1_sub hostOps1_fresh (W13 m hT)),
    .region (reg1 m hT) ]

variable (ρ : Dev nD → PrngReg)

set_option backward.isDefEq.respectTransparency.types false in
/-- THE RUN. From any memory with zero counters, every weakly fair execution of the program on the TensorCores terminates,
    nothing faulting, and every final state has every unscoped buffer at the fold's last stage `W15`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W15 m hT c b) :=
  Pipeline.θ_run_regions_kit (pcfgs (F := F)) (adm m) (pdats m hT) () (cellOf_inj (adm m)) embL defs₀ 𝒱₀ L lv m ρ main (segs m hT)
    (fun c Q => by
      rewrite [main_chain c, Pipeline.Seg.run_eq_chain,
        show (segs m hT).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          Prog.lift (.customCall (Pipeline.entry 0) ()),
          StableHlo.seq hostOps1,
          Prog.lift (.customCall (Pipeline.entry 1) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells (Pipeline.pin (pcfgs (F := F)) (adm m)) (cellOf_inj (adm m))) (Pipeline.launchToks (Pipeline.pin (pcfgs (F := F)) (adm m)) (cellOf_inj (adm m))), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m hT)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m hT c b)
    (hfin := fun c s' => by
      iintro ⟨⟨Hh, -⟩, HSI⟩
      unfold StableHlo.held
      imodintro
      iapply (pointsTo_read_all (Pipeline.ucRefs τ sig) (fun b => (((c : Thread nD τ)).1, b)) (W15 m hT c) s')
      isplitl [Hh] <;> iassumption)
    (hQ := fun s h => h)

end Cert.KernelIdeal.Hand

end
-- ==== Proof.KI.GemmValue.lean ====
/-
  The value of the second kernel region at the ideal values. One grid point (i, j) of the 8 × 16 grid leaves in its
  1024 × 512 output block the products of rows 1024·i … of the activations with rows 512·j … of the selected weight
  rows, each summed over the 4096 columns, plus the selected bias at the column; the 128 output blocks tile the
  8192 × 8192 array, so the array ends holding, at (t, k), the sum over i of activations(t, i) · weights(k, i), plus bias(0, k).
-/
import proofs.«172148_j16612933501330_2_alg».proof.Proof.KI.Gemm
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

/-! ## The specification -/

/-- The product of the activations with the transpose of the selected weight rows, plus the selected bias along every
    row: at (t, k) the sum over the 4096 columns i of A(t, i) · B(k, i), plus b(0, k). -/
def mmG (A : S8192x4096.Idx → EReal) (B : S8192x4096.Idx → EReal) (b : S1x8192.Idx → EReal) : S8192x8192.Idx → EReal :=
  fun j => (∑ i : Fin 4096, A (ix2 (j 0 : Fin 8192) i) * B (ix2 (j 1 : Fin 8192) i)) + b (ix2 (0 : Fin 1) (j 1 : Fin 8192))

theorem mmG_apply (A : S8192x4096.Idx → EReal) (B : S8192x4096.Idx → EReal) (b : S1x8192.Idx → EReal) (t k : Fin 8192) :
    mmG A B b (ix2 t k) = (∑ i : Fin 4096, A (ix2 t i) * B (ix2 k i)) + b (ix2 (0 : Fin 1) k) := rfl

/-! ## The payload at an index -/

theorem hz2 : (![0, 0] : Fin 2 → Nat) = fun _ => 0 := funext fun a => by fin_cases a <;> rfl

/-- The contraction of axis 1 of a 1024 × 4096 block with axis 1 of a 512 × 4096 block, into a zero accumulator, read
    at (p, q): the sum over the 4096 columns of the products of row p of the first with row q of the second. -/
theorem matmul_rows_apply (l : FVec Ideal S1024x4096 .bf16) (r : FVec Ideal S512x4096 .bf16) (p : Fin 1024) (q : Fin 512) :
    matmul dot_S1024x4096_S512x4096_S1024x512_1_1_0_0_n_n none l r (constant (F := Ideal) S1024x512 .f32 0x00000000#32) (ix2 p q)
      = ∑ i : Fin 4096, l (ix2 p i) * r (ix2 q i) := by
  show FloatOps.matmul dot_S1024x4096_S512x4096_S1024x512_1_1_0_0_n_n none l r (constant S1024x512 .f32 0x00000000#32) (ix2 p q) = _
  rw [Ideal.matmul_constant_zero_apply,
    ← Equiv.sum_comp (contrEquiv1 dot_S1024x4096_S512x4096_S1024x512_1_1_0_0_n_n 4096 rfl rfl).symm]
  refine Finset.sum_congr rfl fun i _ => ?_
  have ci := contrEquiv1_symm_val dot_S1024x4096_S512x4096_S1024x512_1_1_0_0_n_n 4096 rfl rfl i
  have hl : dot_S1024x4096_S512x4096_S1024x512_1_1_0_0_n_n.lhsIdx (ix2 p q) ((contrEquiv1 _ 4096 rfl rfl).symm i) = ix2 p i := by
    funext ax; apply Fin.ext
    match ax with
    | ⟨0, _⟩ => simp [DotDims.lhsIdx, dot_S1024x4096_S512x4096_S1024x512_1_1_0_0_n_n]; rfl
    | ⟨1, _⟩ => simp [DotDims.lhsIdx, dot_S1024x4096_S512x4096_S1024x512_1_1_0_0_n_n]; exact ci
  have hr : dot_S1024x4096_S512x4096_S1024x512_1_1_0_0_n_n.rhsIdx (ix2 p q) ((contrEquiv1 _ 4096 rfl rfl).symm i) = ix2 q i := by
    funext ax; apply Fin.ext
    match ax with
    | ⟨0, _⟩ => simp [DotDims.rhsIdx, dot_S1024x4096_S512x4096_S1024x512_1_1_0_0_n_n]; rfl
    | ⟨1, _⟩ => simp [DotDims.rhsIdx, dot_S1024x4096_S512x4096_S1024x512_1_1_0_0_n_n]; exact ci
  rw [hl, hr]

/-- The output block after the body, at (p, q): row p of the activations' block times row q of the weights' block,
    summed over the 4096 columns, plus the bias block's entry at column q. -/
theorem mmOut_apply (x0 : Vec Ideal S1024x4096 .bf16) (x1 : Vec Ideal S512x4096 .bf16) (x2 : Vec Ideal S1x512 .f32)
    (p : Fin 1024) (q : Fin 512) :
    mmOut (F := Ideal) x0 x1 x2 (ix2 p q) = (∑ i : Fin 4096, x0 (ix2 p i) * x1 (ix2 q i)) + x2 (ix2 (0 : Fin 1) q) := by
  unfold mmOut
  rw [View.canon_unit_zero hz2]
  simp only [View.ld_unit_zero (S := S1024x4096) hz2, View.ld_unit_zero (S := S512x4096) hz2, View.ld_unit_zero (S := S1x512) hz2]
  unfold k1_pay1
  simp only [shapeCast_self]
  show matmul dot_S1024x4096_S512x4096_S1024x512_1_1_0_0_n_n none x0 x1 (constant (F := Ideal) S1024x512 .f32 0x00000000#32) (ix2 p q)
      + broadcastTo S1024x512 x2 broadcasts_S1x512_S1024x512 (ix2 p q) = _
  rw [matmul_rows_apply, broadcastTo_1b_ab_apply]

/-! ## From blocks to the array -/

section Blocks

variable (V : (c : Dev nD) → (b : Ref sig .tc) → Buf (Elt Ideal) ((c : Thread nD τ).loc b))

/-- The index maps over the grid: the activations' block moves with the output's rows and the weights' and the bias's
    with the output's columns; the other block coordinates stay at zero; the output's block indices stay in the grid. -/
theorem mmIdx : ∀ t : Fin cfg1.N,
    win1_0.index t (0 : Fin 2) = win1_3.index t (0 : Fin 2) ∧ win1_0.index t (1 : Fin 2) = 0
    ∧ win1_1.index t (0 : Fin 2) = win1_3.index t (1 : Fin 2) ∧ win1_1.index t (1 : Fin 2) = 0
    ∧ win1_2.index t (0 : Fin 2) = 0 ∧ win1_2.index t (1 : Fin 2) = win1_3.index t (1 : Fin 2)
    ∧ win1_3.index t (0 : Fin 2) ≤ 7 ∧ win1_3.index t (1 : Fin 2) ≤ 15 :=
  (by decide +kernel : ∀ t : Fin grid1.N, _)

/-- Every one of the 8 × 16 output blocks is some point's. -/
theorem mmIdx_onto : ∀ (q0 : Fin 8) (q1 : Fin 16), ∃ t : Fin cfg1.N, win1_3.index t = ![q0.val, q1.val] :=
  (by decide +kernel : ∀ (q0 : Fin 8) (q1 : Fin 16), ∃ t : Fin grid1.N, win1_3.index t = ![q0.val, q1.val])

/-- The activations' block at point `t`, at (p, i): the array's row (output block row) · 1024 + p, column i. -/
theorem mmBlk0_apply (c : Dev nD) (t : Fin cfg1.N) (p : Fin 1024) (i : Fin 4096) (P : Fin 8192)
    (hP : P.val = win1_3.index t (0 : Fin 2) * 1024 + p.val) :
    (mmBlk V c 0 t : S1024x4096.Idx → EReal) (ix2 p i) = (V c main_v19 : S8192x4096.Idx → EReal) (ix2 P i) := by
  obtain ⟨e0, e1, e2, e3, e4, e5, e6, e7⟩ := mmIdx t
  unfold mmBlk
  rw [View.read_apply]
  show (V c main_v19 : S8192x4096.Idx → EReal) _ = (V c main_v19 : S8192x4096.Idx → EReal) _
  refine congrArg _ (funext fun a => Fin.ext ?_)
  match a with
  | ⟨0, _⟩ => show win1_0.index t (0 : Fin 2) * 1024 + 1 * p.val = P.val; omega
  | ⟨1, _⟩ => show win1_0.index t (1 : Fin 2) * 4096 + 1 * i.val = i.val; omega

/-- The weights' block at point `t`, at (q, i): the array's row (output block column) · 512 + q, column i. -/
theorem mmBlk1_apply (c : Dev nD) (t : Fin cfg1.N) (q : Fin 512) (i : Fin 4096) (Q : Fin 8192)
    (hQ : Q.val = win1_3.index t (1 : Fin 2) * 512 + q.val) :
    (mmBlk V c 1 t : S512x4096.Idx → EReal) (ix2 q i) = (V c main_v18 : S8192x4096.Idx → EReal) (ix2 Q i) := by
  obtain ⟨e0, e1, e2, e3, e4, e5, e6, e7⟩ := mmIdx t
  unfold mmBlk
  rw [View.read_apply]
  show (V c main_v18 : S8192x4096.Idx → EReal) _ = (V c main_v18 : S8192x4096.Idx → EReal) _
  refine congrArg _ (funext fun a => Fin.ext ?_)
  match a with
  | ⟨0, _⟩ => show win1_1.index t (0 : Fin 2) * 512 + 1 * q.val = Q.val; omega
  | ⟨1, _⟩ => show win1_1.index t (1 : Fin 2) * 4096 + 1 * i.val = i.val; omega

/-- The bias's block at point `t`, at (0, q): the array's one row at column (output block column) · 512 + q. -/
theorem mmBlk2_apply (c : Dev nD) (t : Fin cfg1.N) (q : Fin 512) (Q : Fin 8192)
    (hQ : Q.val = win1_3.index t (1 : Fin 2) * 512 + q.val) :
    (mmBlk V c 2 t : S1x512.Idx → EReal) (ix2 (0 : Fin 1) q) = (V c main_v17 : S1x8192.Idx → EReal) (ix2 (0 : Fin 1) Q) := by
  obtain ⟨e0, e1, e2, e3, e4, e5, e6, e7⟩ := mmIdx t
  unfold mmBlk
  rw [View.read_apply]
  show (V c main_v17 : S1x8192.Idx → EReal) _ = (V c main_v17 : S1x8192.Idx → EReal) _
  refine congrArg _ (funext fun a => Fin.ext ?_)
  match a with
  | ⟨0, _⟩ => show win1_2.index t (0 : Fin 2) * 1 + 1 * 0 = 0; omega
  | ⟨1, _⟩ => show win1_2.index t (1 : Fin 2) * 512 + 1 * q.val = Q.val; omega

/-- The output block of point `t` at (p, q) is the specification at the array's (block row · 1024 + p, block column · 512 + q). -/
theorem mmOut_blocks_apply (c : Dev nD) (t : Fin cfg1.N) (p : Fin 1024) (q : Fin 512) (P Q : Fin 8192)
    (hP : P.val = win1_3.index t (0 : Fin 2) * 1024 + p.val) (hQ : Q.val = win1_3.index t (1 : Fin 2) * 512 + q.val) :
    mmOut (F := Ideal) (mmBlk V c 0 t) (mmBlk V c 1 t) (mmBlk V c 2 t) (ix2 p q)
      = mmG (V c main_v19) (V c main_v18) (V c main_v17) (ix2 P Q) := by
  refine (mmOut_apply (mmBlk V c 0 t) (mmBlk V c 1 t) (mmBlk V c 2 t) p q).trans ?_
  refine Eq.trans ?_ (mmG_apply (V c main_v19) (V c main_v18) (V c main_v17) P Q).symm
  refine congrArg₂ (· + ·) (Finset.sum_congr rfl fun i _ => ?_) (mmBlk2_apply V c t q Q hQ)
  exact congrArg₂ (· * ·) (mmBlk0_apply V c t p i P hP) (mmBlk1_apply V c t q i Q hQ)

/-- What point `t` writes back is block `t` of the specification of the three arrays as the region finds them. -/
theorem mmFlushed (c : Dev nD) (t : Fin cfg1.N) :
    (mmDat (F := Ideal) V c).flushed 3 t
      = ((cfg1.win 3).blk t).view.read (Elt Ideal) (mmG (V c main_v19) (V c main_v18) (V c main_v17)) := by
  show (cfg1.win 3).cut (grid1.coords t) ((mmDat V c).after 3 t) = _
  rw [mmAfter3]
  obtain ⟨e0, e1, e2, e3, e4, e5, e6, e7⟩ := mmIdx t
  funext j
  have hj0 : (j 0).val < 1024 := (j 0).isLt
  have hj1 : (j 1).val < 512 := (j 1).isLt
  rw [View.read_apply]
  have hx : (cfg1.win 3).xinj (grid1.coords t) j = ix2 (⟨(j 0).val, hj0⟩ : Fin 1024) (⟨(j 1).val, hj1⟩ : Fin 512) :=
    funext fun a => by match a with | ⟨0, _⟩ => rfl | ⟨1, _⟩ => rfl
  have hy : ((cfg1.win 3).blk t).view.emb j
      = ix2 (⟨win1_3.index t (0 : Fin 2) * 1024 + (j 0).val, by omega⟩ : Fin 8192)
          (⟨win1_3.index t (1 : Fin 2) * 512 + (j 1).val, by omega⟩ : Fin 8192) :=
    funext fun a => Fin.ext (by
      match a with
      | ⟨0, _⟩ => show win1_3.index t (0 : Fin 2) * 1024 + 1 * (j 0).val = win1_3.index t (0 : Fin 2) * 1024 + (j 0).val; omega
      | ⟨1, _⟩ => show win1_3.index t (1 : Fin 2) * 512 + 1 * (j 1).val = win1_3.index t (1 : Fin 2) * 512 + (j 1).val; omega)
  show mmOut (F := Ideal) (mmBlk V c 0 t) (mmBlk V c 1 t) (mmBlk V c 2 t) ((cfg1.win 3).xinj (grid1.coords t) j)
      = mmG (V c main_v19) (V c main_v18) (V c main_v17) (((cfg1.win 3).blk t).view.emb j)
  rw [hx, hy]
  exact mmOut_blocks_apply V c t _ _ _ _ rfl rfl

/-- An index of the output array is in point `t`'s block iff each coordinate is in the block's range on its axis. -/
theorem mmMem_blk (t : Fin cfg1.N) (i : S8192x8192.Idx) :
    i ∈ ((cfg1.win 3).blk t).view.set ↔ ∀ a : Fin 2, win1_3.index t a * S1024x512.size a ≤ (i a).val
      ∧ (i a).val < win1_3.index t a * S1024x512.size a + S1024x512.size a := by
  show i ∈ ((View.whole main_v20).slice (win1_3.rect t)).set ↔ _
  rw [View.set_slice_whole, Rect.mem_set_unit]
  exact Iff.rfl

/-- The 128 output blocks cover the array: row r and column k lie in the block of the point with block index
    (r / 1024, k / 512), and every point writes its block back. -/
theorem mmCovered (i : S8192x8192.Idx) :
    ∃ t : Fin cfg1.N, (cfg1.win 3).flush t = true ∧ i ∈ ((cfg1.win 3).blk t).view.set := by
  have hi0 : (i 0).val < 8192 := (i 0).isLt
  have hi1 : (i 1).val < 8192 := (i 1).isLt
  obtain ⟨t, ht⟩ := mmIdx_onto ⟨(i 0).val / 1024, by omega⟩ ⟨(i 1).val / 512, by omega⟩
  have q0 : win1_3.index t (0 : Fin 2) = (i 0).val / 1024 := congrFun ht 0
  have q1 : win1_3.index t (1 : Fin 2) = (i 1).val / 512 := congrFun ht 1
  refine ⟨t, flush1_3 t, ?_⟩
  rw [mmMem_blk]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 512 ≤ (i 1).val ∧ (i 1).val < win1_3.index t (1 : Fin 2) * 512 + 512; omega

/-- The output array after the region: the specification of the activations, the selected weight rows and the selected
    bias as the region finds them. -/
theorem mmFinal (c : Dev nD) :
    (mmDat (F := Ideal) V c).arrAt 3 cfg1.N = mmG (V c main_v19) (V c main_v18) (V c main_v17) :=
  (mmDat (F := Ideal) V c).arrAt_eq_of_cover 3 (mmG (V c main_v19) (V c main_v18) (V c main_v17))
    (fun t _ => mmFlushed V c t) mmCovered

end Blocks

end Cert.KernelIdeal.Hand

end
-- ==== Proof.KI.GatherSpec.lean ====
/-
  The selected-rows array as one function of the weight array and the index table: entry (k, i) is entry i of the weight
  row that word k of the table names (every word below 16384, so every name is a row of the array).
-/
import proofs.«172148_j16612933501330_2_alg».proof.KernelIdeal
import Idealize.ShloMosaic.Lib.ValueIdx

noncomputable section

namespace Cert.KernelIdeal.Hand

open Cert.KernelIdeal Idealize.ShloMosaic Idealize.ShloMosaic.ValueIdx

/-- The gathered rows: `gG w tb` at (k, i) is `w` at (the row named by word k of `tb`, i). -/
def gG (w : S16384x4096.Idx → EReal) (tb : S8192.Idx → BitVec 32) (htb : ∀ k : S8192.Idx, (tb k).toNat < 16384) :
    S8192x4096.Idx → EReal :=
  fun j => w (ix2 (⟨(tb (ix1 (j 0 : Fin 8192))).toNat, htb _⟩ : Fin 16384) (j 1 : Fin 4096))

theorem gG_apply (w : S16384x4096.Idx → EReal) (tb : S8192.Idx → BitVec 32) (htb : ∀ k : S8192.Idx, (tb k).toNat < 16384)
    (k : Fin 8192) (i : Fin 4096) :
    gG w tb htb (ix2 k i) = w (ix2 (⟨(tb (ix1 k)).toNat, htb _⟩ : Fin 16384) i) := rfl

end Cert.KernelIdeal.Hand

end
-- ==== Proof.KI.GatherValue.lean ====
/-
  The value of the gather region's output block: entry (r, j) of the block written at point i is entry j of the weight
  row named by table word 128·i + r.
  The run's one store writes the whole block with the scratch rounded to bf16 (the identity on ideal numbers); the
  scratch, after the 128 waits, reads as the 128 copy payloads row by row; payload N is the weight array's row slice at
  the row the N-th loaded table word names, and that word is table entry 128·i + (N−1). One lemma per payload (a table
  of cases) and one assembly by cases on the row.
-/
import proofs.«172148_j16612933501330_2_alg».proof.Proof.KI.GatherDat
import proofs.«172148_j16612933501330_2_alg».proof.Proof.KI.GatherGeneric

set_option maxRecDepth 100000

noncomputable section

namespace Cert.KernelIdeal.Hand

open Cert.KernelIdeal Cert.KernelIdeal.Gen Cert.LibShareChain
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-- Table entry 128·i + k is an entry of the table: i < 64, k < 128. -/
theorem tblIdx_lt (i : grid0.Coords) (k : Nat) (hk : k < 128) : (i 0).val * 128 + k < 8192 := by
  have h64 : (i 0).val < 64 := (i 0).isLt
  omega

/-! ## The 128 payloads, one by one -/

theorem pay1_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk1 (arg1.view.readAt (Elt F) (Rect.unit (s := S8192) (k0_off1 i) S1.size (k0_off1_inb i)).toLoadRect (harg1.unread x0) (Shape.Idx.first (numel1_S1.symm ▸ Nat.one_pos)))) (j : Fin 4096) :
    gatherRun.sl.dma1 c i arg1 harg1 x0 fh hw (ix1 j)
      = (hbM : Memref sig .tc .hbm S16384x4096 .f32).view.read (Elt F) fh (ix2 ⟨(x0 (ix1 ⟨(i 0).val * 128 + 0, tblIdx_lt i 0 (by decide)⟩)).toNat, hx _⟩ j) := by
  unfold gatherRun.sl.dma1
  exact payload_apply x0 hx fh _ _ _ (word_eq arg1 harg1 x0 _ _ _ _ _ (off1_eq i)) _ rfl _ _ _ j

theorem pay2_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk2 (arg1.view.readAt (Elt F) (Rect.unit (s := S8192) (k0_off3 i) S1.size (k0_off3_inb i)).toLoadRect (harg1.unread x0) (Shape.Idx.first (numel1_S1.symm ▸ Nat.one_pos)))) (j : Fin 4096) :
    gatherRun.sl.dma2 c i arg1 harg1 x0 fh hw (ix1 j)
      = (hbM : Memref sig .tc .hbm S16384x4096 .f32).view.read (Elt F) fh (ix2 ⟨(x0 (ix1 ⟨(i 0).val * 128 + 1, tblIdx_lt i 1 (by decide)⟩)).toNat, hx _⟩ j) := by
  unfold gatherRun.sl.dma2
  exact payload_apply x0 hx fh _ _ _ (word_eq arg1 harg1 x0 _ _ _ _ _ (off3_eq i)) _ rfl _ _ _ j

theorem pay3_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk3 (arg1.view.readAt (Elt F) (Rect.unit (s := S8192) (k0_off5 i) S1.size (k0_off5_inb i)).toLoadRect (harg1.unread x0) (Shape.Idx.first (numel1_S1.symm ▸ Nat.one_pos)))) (j : Fin 4096) :
    gatherRun.sl.dma3 c i arg1 harg1 x0 fh hw (ix1 j)
      = (hbM : Memref sig .tc .hbm S16384x4096 .f32).view.read (Elt F) fh (ix2 ⟨(x0 (ix1 ⟨(i 0).val * 128 + 2, tblIdx_lt i 2 (by decide)⟩)).toNat, hx _⟩ j) := by
  unfold gatherRun.sl.dma3
  exact payload_apply x0 hx fh _ _ _ (word_eq arg1 harg1 x0 _ _ _ _ _ (off5_eq i)) _ rfl _ _ _ j

theorem pay4_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk4 (arg1.view.readAt (Elt F) (Rect.unit (s := S8192) (k0_off7 i) S1.size (k0_off7_inb i)).toLoadRect (harg1.unread x0) (Shape.Idx.first (numel1_S1.symm ▸ Nat.one_pos)))) (j : Fin 4096) :
    gatherRun.sl.dma4 c i arg1 harg1 x0 fh hw (ix1 j)
      = (hbM : Memref sig .tc .hbm S16384x4096 .f32).view.read (Elt F) fh (ix2 ⟨(x0 (ix1 ⟨(i 0).val * 128 + 3, tblIdx_lt i 3 (by decide)⟩)).toNat, hx _⟩ j) := by
  unfold gatherRun.sl.dma4
  exact payload_apply x0 hx fh _ _ _ (word_eq arg1 harg1 x0 _ _ _ _ _ (off7_eq i)) _ rfl _ _ _ j

theorem pay5_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk5 (arg1.view.readAt (Elt F) (Rect.unit (s := S8192) (k0_off9 i) S1.size (k0_off9_inb i)).toLoadRect (harg1.unread x0) (Shape.Idx.first (numel1_S1.symm ▸ Nat.one_pos)))) (j : Fin 4096) :
    gatherRun.sl.dma5 c i arg1 harg1 x0 fh hw (ix1 j)
      = (hbM : Memref sig .tc .hbm S16384x4096 .f32).view.read (Elt F) fh (ix2 ⟨(x0 (ix1 ⟨(i 0).val * 128 + 4, tblIdx_lt i 4 (by decide)⟩)).toNat, hx _⟩ j) := by
  unfold gatherRun.sl.dma5
  exact payload_apply x0 hx fh _ _ _ (word_eq arg1 harg1 x0 _ _ _ _ _ (off9_eq i)) _ rfl _ _ _ j

theorem pay6_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk6 (arg1.view.readAt (Elt F) (Rect.unit (s := S8192) (k0_off11 i) S1.size (k0_off11_inb i)).toLoadRect (harg1.unread x0) (Shape.Idx.first (numel1_S1.symm ▸ Nat.one_pos)))) (j : Fin 4096) :
    gatherRun.sl.dma6 c i arg1 harg1 x0 fh hw (ix1 j)
      = (hbM : Memref sig .tc .hbm S16384x4096 .f32).view.read (Elt F) fh (ix2 ⟨(x0 (ix1 ⟨(i 0).val * 128 + 5, tblIdx_lt i 5 (by decide)⟩)).toNat, hx _⟩ j) := by
  unfold gatherRun.sl.dma6
  exact payload_apply x0 hx fh _ _ _ (word_eq arg1 harg1 x0 _ _ _ _ _ (off11_eq i)) _ rfl _ _ _ j

theorem pay7_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk7 (arg1.view.readAt (Elt F) (Rect.unit (s := S8192) (k0_off13 i) S1.size (k0_off13_inb i)).toLoadRect (harg1.unread x0) (Shape.Idx.first (numel1_S1.symm ▸ Nat.one_pos)))) (j : Fin 4096) :
    gatherRun.sl.dma7 c i arg1 harg1 x0 fh hw (ix1 j)
      = (hbM : Memref sig .tc .hbm S16384x4096 .f32).view.read (Elt F) fh (ix2 ⟨(x0 (ix1 ⟨(i 0).val * 128 + 6, tblIdx_lt i 6 (by decide)⟩)).toNat, hx _⟩ j) := by
  unfold gatherRun.sl.dma7
  exact payload_apply x0 hx fh _ _ _ (word_eq arg1 harg1 x0 _ _ _ _ _ (off13_eq i)) _ rfl _ _ _ j

theorem pay8_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk8 (arg1.view.readAt (Elt F) (Rect.unit (s := S8192) (k0_off15 i) S1.size (k0_off15_inb i)).toLoadRect (harg1.unread x0) (Shape.Idx.first (numel1_S1.symm ▸ Nat.one_pos)))) (j : Fin 4096) :
    gatherRun.sl.dma8 c i arg1 harg1 x0 fh hw (ix1 j)
      = (hbM : Memref sig .tc .hbm S16384x4096 .f32).view.read (Elt F) fh (ix2 ⟨(x0 (ix1 ⟨(i 0).val * 128 + 7, tblIdx_lt i 7 (by decide)⟩)).toNat, hx _⟩ j) := by
  unfold gatherRun.sl.dma8
  exact payload_apply x0 hx fh _ _ _ (word_eq arg1 harg1 x0 _ _ _ _ _ (off15_eq i)) _ rfl _ _ _ j

theorem pay9_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk9 (arg1.view.readAt (Elt F) (Rect.unit (s := S8192) (k0_off17 i) S1.size (k0_off17_inb i)).toLoadRect (harg1.unread x0) (Shape.Idx.first (numel1_S1.symm ▸ Nat.one_pos)))) (j : Fin 4096) :
    gatherRun.sl.dma9 c i arg1 harg1 x0 fh hw (ix1 j)
      = (hbM : Memref sig .tc .hbm S16384x4096 .f32).view.read (Elt F) fh (ix2 ⟨(x0 (ix1 ⟨(i 0).val * 128 + 8, tblIdx_lt i 8 (by decide)⟩)).toNat, hx _⟩ j) := by
  unfold gatherRun.sl.dma9
  exact payload_apply x0 hx fh _ _ _ (word_eq arg1 harg1 x0 _ _ _ _ _ (off17_eq i)) _ rfl _ _ _ j

theorem pay10_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk10 (arg1.view.readAt (Elt F) (Rect.unit (s := S8192) (k0_off19 i) S1.size (k0_off19_inb i)).toLoadRect (harg1.unread x0) (Shape.Idx.first (numel1_S1.symm ▸ Nat.one_pos)))) (j : Fin 4096) :
    gatherRun.sl.dma10 c i arg1 harg1 x0 fh hw (ix1 j)
      = (hbM : Memref sig .tc .hbm S16384x4096 .f32).view.read (Elt F) fh (ix2 ⟨(x0 (ix1 ⟨(i 0).val * 128 + 9, tblIdx_lt i 9 (by decide)⟩)).toNat, hx _⟩ j) := by
  unfold gatherRun.sl.dma10
  exact payload_apply x0 hx fh _ _ _ (word_eq arg1 harg1 x0 _ _ _ _ _ (off19_eq i)) _ rfl _ _ _ j

theorem pay11_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk11 (arg1.view.readAt (Elt F) (Rect.unit (s := S8192) (k0_off21 i) S1.size (k0_off21_inb i)).toLoadRect (harg1.unread x0) (Shape.Idx.first (numel1_S1.symm ▸ Nat.one_pos)))) (j : Fin 4096) :
    gatherRun.sl.dma11 c i arg1 harg1 x0 fh hw (ix1 j)
      = (hbM : Memref sig .tc .hbm S16384x4096 .f32).view.read (Elt F) fh (ix2 ⟨(x0 (ix1 ⟨(i 0).val * 128 + 10, tblIdx_lt i 10 (by decide)⟩)).toNat, hx _⟩ j) := by
  unfold gatherRun.sl.dma11
  exact payload_apply x0 hx fh _ _ _ (word_eq arg1 harg1 x0 _ _ _ _ _ (off21_eq i)) _ rfl _ _ _ j

theorem pay12_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk12 (arg1.view.readAt (Elt F) (Rect.unit (s := S8192) (k0_off23 i) S1.size (k0_off23_inb i)).toLoadRect (harg1.unread x0) (Shape.Idx.first (numel1_S1.symm ▸ Nat.one_pos)))) (j : Fin 4096) :
    gatherRun.sl.dma12 c i arg1 harg1 x0 fh hw (ix1 j)
      = (hbM : Memref sig .tc .hbm S16384x4096 .f32).view.read (Elt F) fh (ix2 ⟨(x0 (ix1 ⟨(i 0).val * 128 + 11, tblIdx_lt i 11 (by decide)⟩)).toNat, hx _⟩ j) := by
  unfold gatherRun.sl.dma12
  exact payload_apply x0 hx fh _ _ _ (word_eq arg1 harg1 x0 _ _ _ _ _ (off23_eq i)) _ rfl _ _ _ j

theorem pay13_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk13 (arg1.view.readAt (Elt F) (Rect.unit (s := S8192) (k0_off25 i) S1.size (k0_off25_inb i)).toLoadRect (harg1.unread x0) (Shape.Idx.first (numel1_S1.symm ▸ Nat.one_pos)))) (j : Fin 4096) :
    gatherRun.sl.dma13 c i arg1 harg1 x0 fh hw (ix1 j)
      = (hbM : Memref sig .tc .hbm S16384x4096 .f32).view.read (Elt F) fh (ix2 ⟨(x0 (ix1 ⟨(i 0).val * 128 + 12, tblIdx_lt i 12 (by decide)⟩)).toNat, hx _⟩ j) := by
  unfold gatherRun.sl.dma13
  exact payload_apply x0 hx fh _ _ _ (word_eq arg1 harg1 x0 _ _ _ _ _ (off25_eq i)) _ rfl _ _ _ j

theorem pay14_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk14 (arg1.view.readAt (Elt F) (Rect.unit (s := S8192) (k0_off27 i) S1.size (k0_off27_inb i)).toLoadRect (harg1.unread x0) (Shape.Idx.first (numel1_S1.symm ▸ Nat.one_pos)))) (j : Fin 4096) :
    gatherRun.sl.dma14 c i arg1 harg1 x0 fh hw (ix1 j)
      = (hbM : Memref sig .tc .hbm S16384x4096 .f32).view.read (Elt F) fh (ix2 ⟨(x0 (ix1 ⟨(i 0).val * 128 + 13, tblIdx_lt i 13 (by decide)⟩)).toNat, hx _⟩ j) := by
  unfold gatherRun.sl.dma14
  exact payload_apply x0 hx fh _ _ _ (word_eq arg1 harg1 x0 _ _ _ _ _ (off27_eq i)) _ rfl _ _ _ j

theorem pay15_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk15 (arg1.view.readAt (Elt F) (Rect.unit (s := S8192) (k0_off29 i) S1.size (k0_off29_inb i)).toLoadRect (harg1.unread x0) (Shape.Idx.first (numel1_S1.symm ▸ Nat.one_pos)))) (j : Fin 4096) :
    gatherRun.sl.dma15 c i arg1 harg1 x0 fh hw (ix1 j)
      = (hbM : Memref sig .tc .hbm S16384x4096 .f32).view.read (Elt F) fh (ix2 ⟨(x0 (ix1 ⟨(i 0).val * 128 + 14, tblIdx_lt i 14 (by decide)⟩)).toNat, hx _⟩ j) := by
  unfold gatherRun.sl.dma15
  exact payload_apply x0 hx fh _ _ _ (word_eq arg1 harg1 x0 _ _ _ _ _ (off29_eq i)) _ rfl _ _ _ j

theorem pay16_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk16 (arg1.view.readAt (Elt F) (Rect.unit (s := S8192) (k0_off31 i) S1.size (k0_off31_inb i)).toLoadRect (harg1.unread x0) (Shape.Idx.first (numel1_S1.symm ▸ Nat.one_pos)))) (j : Fin 4096) :
    gatherRun.sl.dma16 c i arg1 harg1 x0 fh hw (ix1 j)
      = (hbM : Memref sig .tc .hbm S16384x4096 .f32).view.read (Elt F) fh (ix2 ⟨(x0 (ix1 ⟨(i 0).val * 128 + 15, tblIdx_lt i 15 (by decide)⟩)).toNat, hx _⟩ j) := by
  unfold gatherRun.sl.dma16
  exact payload_apply x0 hx fh _ _ _ (word_eq arg1 harg1 x0 _ _ _ _ _ (off31_eq i)) _ rfl _ _ _ j

theorem pay17_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk17 (arg1.view.readAt (Elt F) (Rect.unit (s := S8192) (k0_off33 i) S1.size (k0_off33_inb i)).toLoadRect (harg1.unread x0) (Shape.Idx.first (numel1_S1.symm ▸ Nat.one_pos)))) (j : Fin 4096) :
    gatherRun.sl.dma17 c i arg1 harg1 x0 fh hw (ix1 j)
      = (hbM : Memref sig .tc .hbm S16384x4096 .f32).view.read (Elt F) fh (ix2 ⟨(x0 (ix1 ⟨(i 0).val * 128 + 16, tblIdx_lt i 16 (by decide)⟩)).toNat, hx _⟩ j) := by
  unfold gatherRun.sl.dma17
  exact payload_apply x0 hx fh _ _ _ (word_eq arg1 harg1 x0 _ _ _ _ _ (off33_eq i)) _ rfl _ _ _ j

theorem pay18_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk18 (arg1.view.readAt (Elt F) (Rect.unit (s := S8192) (k0_off35 i) S1.size (k0_off35_inb i)).toLoadRect (harg1.unread x0) (Shape.Idx.first (numel1_S1.symm ▸ Nat.one_pos)))) (j : Fin 4096) :
    gatherRun.sl.dma18 c i arg1 harg1 x0 fh hw (ix1 j)
      = (hbM : Memref sig .tc .hbm S16384x4096 .f32).view.read (Elt F) fh (ix2 ⟨(x0 (ix1 ⟨(i 0).val * 128 + 17, tblIdx_lt i 17 (by decide)⟩)).toNat, hx _⟩ j) := by
  unfold gatherRun.sl.dma18
  exact payload_apply x0 hx fh _ _ _ (word_eq arg1 harg1 x0 _ _ _ _ _ (off35_eq i)) _ rfl _ _ _ j

theorem pay19_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk19 (arg1.view.readAt (Elt F) (Rect.unit (s := S8192) (k0_off37 i) S1.size (k0_off37_inb i)).toLoadRect (harg1.unread x0) (Shape.Idx.first (numel1_S1.symm ▸ Nat.one_pos)))) (j : Fin 4096) :
    gatherRun.sl.dma19 c i arg1 harg1 x0 fh hw (ix1 j)
      = (hbM : Memref sig .tc .hbm S16384x4096 .f32).view.read (Elt F) fh (ix2 ⟨(x0 (ix1 ⟨(i 0).val * 128 + 18, tblIdx_lt i 18 (by decide)⟩)).toNat, hx _⟩ j) := by
  unfold gatherRun.sl.dma19
  exact payload_apply x0 hx fh _ _ _ (word_eq arg1 harg1 x0 _ _ _ _ _ (off37_eq i)) _ rfl _ _ _ j

theorem pay20_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk20 (arg1.view.readAt (Elt F) (Rect.unit (s := S8192) (k0_off39 i) S1.size (k0_off39_inb i)).toLoadRect (harg1.unread x0) (Shape.Idx.first (numel1_S1.symm ▸ Nat.one_pos)))) (j : Fin 4096) :
    gatherRun.sl.dma20 c i arg1 harg1 x0 fh hw (ix1 j)
      = (hbM : Memref sig .tc .hbm S16384x4096 .f32).view.read (Elt F) fh (ix2 ⟨(x0 (ix1 ⟨(i 0).val * 128 + 19, tblIdx_lt i 19 (by decide)⟩)).toNat, hx _⟩ j) := by
  unfold gatherRun.sl.dma20
  exact payload_apply x0 hx fh _ _ _ (word_eq arg1 harg1 x0 _ _ _ _ _ (off39_eq i)) _ rfl _ _ _ j

theorem pay21_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk21 (arg1.view.readAt (Elt F) (Rect.unit (s := S8192) (k0_off41 i) S1.size (k0_off41_inb i)).toLoadRect (harg1.unread x0) (Shape.Idx.first (numel1_S1.symm ▸ Nat.one_pos)))) (j : Fin 4096) :
    gatherRun.sl.dma21 c i arg1 harg1 x0 fh hw (ix1 j)
      = (hbM : Memref sig .tc .hbm S16384x4096 .f32).view.read (Elt F) fh (ix2 ⟨(x0 (ix1 ⟨(i 0).val * 128 + 20, tblIdx_lt i 20 (by decide)⟩)).toNat, hx _⟩ j) := by
  unfold gatherRun.sl.dma21
  exact payload_apply x0 hx fh _ _ _ (word_eq arg1 harg1 x0 _ _ _ _ _ (off41_eq i)) _ rfl _ _ _ j

theorem pay22_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk22 (arg1.view.readAt (Elt F) (Rect.unit (s := S8192) (k0_off43 i) S1.size (k0_off43_inb i)).toLoadRect (harg1.unread x0) (Shape.Idx.first (numel1_S1.symm ▸ Nat.one_pos)))) (j : Fin 4096) :
    gatherRun.sl.dma22 c i arg1 harg1 x0 fh hw (ix1 j)
      = (hbM : Memref sig .tc .hbm S16384x4096 .f32).view.read (Elt F) fh (ix2 ⟨(x0 (ix1 ⟨(i 0).val * 128 + 21, tblIdx_lt i 21 (by decide)⟩)).toNat, hx _⟩ j) := by
  unfold gatherRun.sl.dma22
  exact payload_apply x0 hx fh _ _ _ (word_eq arg1 harg1 x0 _ _ _ _ _ (off43_eq i)) _ rfl _ _ _ j

theorem pay23_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk23 (arg1.view.readAt (Elt F) (Rect.unit (s := S8192) (k0_off45 i) S1.size (k0_off45_inb i)).toLoadRect (harg1.unread x0) (Shape.Idx.first (numel1_S1.symm ▸ Nat.one_pos)))) (j : Fin 4096) :
    gatherRun.sl.dma23 c i arg1 harg1 x0 fh hw (ix1 j)
      = (hbM : Memref sig .tc .hbm S16384x4096 .f32).view.read (Elt F) fh (ix2 ⟨(x0 (ix1 ⟨(i 0).val * 128 + 22, tblIdx_lt i 22 (by decide)⟩)).toNat, hx _⟩ j) := by
  unfold gatherRun.sl.dma23
  exact payload_apply x0 hx fh _ _ _ (word_eq arg1 harg1 x0 _ _ _ _ _ (off45_eq i)) _ rfl _ _ _ j

theorem pay24_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk24 (arg1.view.readAt (Elt F) (Rect.unit (s := S8192) (k0_off47 i) S1.size (k0_off47_inb i)).toLoadRect (harg1.unread x0) (Shape.Idx.first (numel1_S1.symm ▸ Nat.one_pos)))) (j : Fin 4096) :
    gatherRun.sl.dma24 c i arg1 harg1 x0 fh hw (ix1 j)
      = (hbM : Memref sig .tc .hbm S16384x4096 .f32).view.read (Elt F) fh (ix2 ⟨(x0 (ix1 ⟨(i 0).val * 128 + 23, tblIdx_lt i 23 (by decide)⟩)).toNat, hx _⟩ j) := by
  unfold gatherRun.sl.dma24
  exact payload_apply x0 hx fh _ _ _ (word_eq arg1 harg1 x0 _ _ _ _ _ (off47_eq i)) _ rfl _ _ _ j

theorem pay25_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk25 (arg1.view.readAt (Elt F) (Rect.unit (s := S8192) (k0_off49 i) S1.size (k0_off49_inb i)).toLoadRect (harg1.unread x0) (Shape.Idx.first (numel1_S1.symm ▸ Nat.one_pos)))) (j : Fin 4096) :
    gatherRun.sl.dma25 c i arg1 harg1 x0 fh hw (ix1 j)
      = (hbM : Memref sig .tc .hbm S16384x4096 .f32).view.read (Elt F) fh (ix2 ⟨(x0 (ix1 ⟨(i 0).val * 128 + 24, tblIdx_lt i 24 (by decide)⟩)).toNat, hx _⟩ j) := by
  unfold gatherRun.sl.dma25
  exact payload_apply x0 hx fh _ _ _ (word_eq arg1 harg1 x0 _ _ _ _ _ (off49_eq i)) _ rfl _ _ _ j

theorem pay26_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk26 (arg1.view.readAt (Elt F) (Rect.unit (s := S8192) (k0_off51 i) S1.size (k0_off51_inb i)).toLoadRect (harg1.unread x0) (Shape.Idx.first (numel1_S1.symm ▸ Nat.one_pos)))) (j : Fin 4096) :
    gatherRun.sl.dma26 c i arg1 harg1 x0 fh hw (ix1 j)
      = (hbM : Memref sig .tc .hbm S16384x4096 .f32).view.read (Elt F) fh (ix2 ⟨(x0 (ix1 ⟨(i 0).val * 128 + 25, tblIdx_lt i 25 (by decide)⟩)).toNat, hx _⟩ j) := by
  unfold gatherRun.sl.dma26
  exact payload_apply x0 hx fh _ _ _ (word_eq arg1 harg1 x0 _ _ _ _ _ (off51_eq i)) _ rfl _ _ _ j

theorem pay27_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk27 (arg1.view.readAt (Elt F) (Rect.unit (s := S8192) (k0_off53 i) S1.size (k0_off53_inb i)).toLoadRect (harg1.unread x0) (Shape.Idx.first (numel1_S1.symm ▸ Nat.one_pos)))) (j : Fin 4096) :
    gatherRun.sl.dma27 c i arg1 harg1 x0 fh hw (ix1 j)
      = (hbM : Memref sig .tc .hbm S16384x4096 .f32).view.read (Elt F) fh (ix2 ⟨(x0 (ix1 ⟨(i 0).val * 128 + 26, tblIdx_lt i 26 (by decide)⟩)).toNat, hx _⟩ j) := by
  unfold gatherRun.sl.dma27
  exact payload_apply x0 hx fh _ _ _ (word_eq arg1 harg1 x0 _ _ _ _ _ (off53_eq i)) _ rfl _ _ _ j

theorem pay28_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk28 (arg1.view.readAt (Elt F) (Rect.unit (s := S8192) (k0_off55 i) S1.size (k0_off55_inb i)).toLoadRect (harg1.unread x0) (Shape.Idx.first (numel1_S1.symm ▸ Nat.one_pos)))) (j : Fin 4096) :
    gatherRun.sl.dma28 c i arg1 harg1 x0 fh hw (ix1 j)
      = (hbM : Memref sig .tc .hbm S16384x4096 .f32).view.read (Elt F) fh (ix2 ⟨(x0 (ix1 ⟨(i 0).val * 128 + 27, tblIdx_lt i 27 (by decide)⟩)).toNat, hx _⟩ j) := by
  unfold gatherRun.sl.dma28
  exact payload_apply x0 hx fh _ _ _ (word_eq arg1 harg1 x0 _ _ _ _ _ (off55_eq i)) _ rfl _ _ _ j

theorem pay29_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk29 (arg1.view.readAt (Elt F) (Rect.unit (s := S8192) (k0_off57 i) S1.size (k0_off57_inb i)).toLoadRect (harg1.unread x0) (Shape.Idx.first (numel1_S1.symm ▸ Nat.one_pos)))) (j : Fin 4096) :
    gatherRun.sl.dma29 c i arg1 harg1 x0 fh hw (ix1 j)
      = (hbM : Memref sig .tc .hbm S16384x4096 .f32).view.read (Elt F) fh (ix2 ⟨(x0 (ix1 ⟨(i 0).val * 128 + 28, tblIdx_lt i 28 (by decide)⟩)).toNat, hx _⟩ j) := by
  unfold gatherRun.sl.dma29
  exact payload_apply x0 hx fh _ _ _ (word_eq arg1 harg1 x0 _ _ _ _ _ (off57_eq i)) _ rfl _ _ _ j

theorem pay30_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk30 (arg1.view.readAt (Elt F) (Rect.unit (s := S8192) (k0_off59 i) S1.size (k0_off59_inb i)).toLoadRect (harg1.unread x0) (Shape.Idx.first (numel1_S1.symm ▸ Nat.one_pos)))) (j : Fin 4096) :
    gatherRun.sl.dma30 c i arg1 harg1 x0 fh hw (ix1 j)
      = (hbM : Memref sig .tc .hbm S16384x4096 .f32).view.read (Elt F) fh (ix2 ⟨(x0 (ix1 ⟨(i 0).val * 128 + 29, tblIdx_lt i 29 (by decide)⟩)).toNat, hx _⟩ j) := by
  unfold gatherRun.sl.dma30
  exact payload_apply x0 hx fh _ _ _ (word_eq arg1 harg1 x0 _ _ _ _ _ (off59_eq i)) _ rfl _ _ _ j

theorem pay31_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk31 (arg1.view.readAt (Elt F) (Rect.unit (s := S8192) (k0_off61 i) S1.size (k0_off61_inb i)).toLoadRect (harg1.unread x0) (Shape.Idx.first (numel1_S1.symm ▸ Nat.one_pos)))) (j : Fin 4096) :
    gatherRun.sl.dma31 c i arg1 harg1 x0 fh hw (ix1 j)
      = (hbM : Memref sig .tc .hbm S16384x4096 .f32).view.read (Elt F) fh (ix2 ⟨(x0 (ix1 ⟨(i 0).val * 128 + 30, tblIdx_lt i 30 (by decide)⟩)).toNat, hx _⟩ j) := by
  unfold gatherRun.sl.dma31
  exact payload_apply x0 hx fh _ _ _ (word_eq arg1 harg1 x0 _ _ _ _ _ (off61_eq i)) _ rfl _ _ _ j

theorem pay32_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk32 (arg1.view.readAt (Elt F) (Rect.unit (s := S8192) (k0_off63 i) S1.size (k0_off63_inb i)).toLoadRect (harg1.unread x0) (Shape.Idx.first (numel1_S1.symm ▸ Nat.one_pos)))) (j : Fin 4096) :
    gatherRun.sl.dma32 c i arg1 harg1 x0 fh hw (ix1 j)
      = (hbM : Memref sig .tc .hbm S16384x4096 .f32).view.read (Elt F) fh (ix2 ⟨(x0 (ix1 ⟨(i 0).val * 128 + 31, tblIdx_lt i 31 (by decide)⟩)).toNat, hx _⟩ j) := by
  unfold gatherRun.sl.dma32
  exact payload_apply x0 hx fh _ _ _ (word_eq arg1 harg1 x0 _ _ _ _ _ (off63_eq i)) _ rfl _ _ _ j

theorem pay33_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk33 (arg1.view.readAt (Elt F) (Rect.unit (s := S8192) (k0_off65 i) S1.size (k0_off65_inb i)).toLoadRect (harg1.unread x0) (Shape.Idx.first (numel1_S1.symm ▸ Nat.one_pos)))) (j : Fin 4096) :
    gatherRun.sl.dma33 c i arg1 harg1 x0 fh hw (ix1 j)
      = (hbM : Memref sig .tc .hbm S16384x4096 .f32).view.read (Elt F) fh (ix2 ⟨(x0 (ix1 ⟨(i 0).val * 128 + 32, tblIdx_lt i 32 (by decide)⟩)).toNat, hx _⟩ j) := by
  unfold gatherRun.sl.dma33
  exact payload_apply x0 hx fh _ _ _ (word_eq arg1 harg1 x0 _ _ _ _ _ (off65_eq i)) _ rfl _ _ _ j

theorem pay34_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk34 (arg1.view.readAt (Elt F) (Rect.unit (s := S8192) (k0_off67 i) S1.size (k0_off67_inb i)).toLoadRect (harg1.unread x0) (Shape.Idx.first (numel1_S1.symm ▸ Nat.one_pos)))) (j : Fin 4096) :
    gatherRun.sl.dma34 c i arg1 harg1 x0 fh hw (ix1 j)
      = (hbM : Memref sig .tc .hbm S16384x4096 .f32).view.read (Elt F) fh (ix2 ⟨(x0 (ix1 ⟨(i 0).val * 128 + 33, tblIdx_lt i 33 (by decide)⟩)).toNat, hx _⟩ j) := by
  unfold gatherRun.sl.dma34
  exact payload_apply x0 hx fh _ _ _ (word_eq arg1 harg1 x0 _ _ _ _ _ (off67_eq i)) _ rfl _ _ _ j

theorem pay35_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk35 (arg1.view.readAt (Elt F) (Rect.unit (s := S8192) (k0_off69 i) S1.size (k0_off69_inb i)).toLoadRect (harg1.unread x0) (Shape.Idx.first (numel1_S1.symm ▸ Nat.one_pos)))) (j : Fin 4096) :
    gatherRun.sl.dma35 c i arg1 harg1 x0 fh hw (ix1 j)
      = (hbM : Memref sig .tc .hbm S16384x4096 .f32).view.read (Elt F) fh (ix2 ⟨(x0 (ix1 ⟨(i 0).val * 128 + 34, tblIdx_lt i 34 (by decide)⟩)).toNat, hx _⟩ j) := by
  unfold gatherRun.sl.dma35
  exact payload_apply x0 hx fh _ _ _ (word_eq arg1 harg1 x0 _ _ _ _ _ (off69_eq i)) _ rfl _ _ _ j

theorem pay36_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk36 (arg1.view.readAt (Elt F) (Rect.unit (s := S8192) (k0_off71 i) S1.size (k0_off71_inb i)).toLoadRect (harg1.unread x0) (Shape.Idx.first (numel1_S1.symm ▸ Nat.one_pos)))) (j : Fin 4096) :
    gatherRun.sl.dma36 c i arg1 harg1 x0 fh hw (ix1 j)
      = (hbM : Memref sig .tc .hbm S16384x4096 .f32).view.read (Elt F) fh (ix2 ⟨(x0 (ix1 ⟨(i 0).val * 128 + 35, tblIdx_lt i 35 (by decide)⟩)).toNat, hx _⟩ j) := by
  unfold gatherRun.sl.dma36
  exact payload_apply x0 hx fh _ _ _ (word_eq arg1 harg1 x0 _ _ _ _ _ (off71_eq i)) _ rfl _ _ _ j

theorem pay37_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk37 (arg1.view.readAt (Elt F) (Rect.unit (s := S8192) (k0_off73 i) S1.size (k0_off73_inb i)).toLoadRect (harg1.unread x0) (Shape.Idx.first (numel1_S1.symm ▸ Nat.one_pos)))) (j : Fin 4096) :
    gatherRun.sl.dma37 c i arg1 harg1 x0 fh hw (ix1 j)
      = (hbM : Memref sig .tc .hbm S16384x4096 .f32).view.read (Elt F) fh (ix2 ⟨(x0 (ix1 ⟨(i 0).val * 128 + 36, tblIdx_lt i 36 (by decide)⟩)).toNat, hx _⟩ j) := by
  unfold gatherRun.sl.dma37
  exact payload_apply x0 hx fh _ _ _ (word_eq arg1 harg1 x0 _ _ _ _ _ (off73_eq i)) _ rfl _ _ _ j

theorem pay38_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk38 (arg1.view.readAt (Elt F) (Rect.unit (s := S8192) (k0_off75 i) S1.size (k0_off75_inb i)).toLoadRect (harg1.unread x0) (Shape.Idx.first (numel1_S1.symm ▸ Nat.one_pos)))) (j : Fin 4096) :
    gatherRun.sl.dma38 c i arg1 harg1 x0 fh hw (ix1 j)
      = (hbM : Memref sig .tc .hbm S16384x4096 .f32).view.read (Elt F) fh (ix2 ⟨(x0 (ix1 ⟨(i 0).val * 128 + 37, tblIdx_lt i 37 (by decide)⟩)).toNat, hx _⟩ j) := by
  unfold gatherRun.sl.dma38
  exact payload_apply x0 hx fh _ _ _ (word_eq arg1 harg1 x0 _ _ _ _ _ (off75_eq i)) _ rfl _ _ _ j

theorem pay39_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk39 (arg1.view.readAt (Elt F) (Rect.unit (s := S8192) (k0_off77 i) S1.size (k0_off77_inb i)).toLoadRect (harg1.unread x0) (Shape.Idx.first (numel1_S1.symm ▸ Nat.one_pos)))) (j : Fin 4096) :
    gatherRun.sl.dma39 c i arg1 harg1 x0 fh hw (ix1 j)
      = (hbM : Memref sig .tc .hbm S16384x4096 .f32).view.read (Elt F) fh (ix2 ⟨(x0 (ix1 ⟨(i 0).val * 128 + 38, tblIdx_lt i 38 (by decide)⟩)).toNat, hx _⟩ j) := by
  unfold gatherRun.sl.dma39
  exact payload_apply x0 hx fh _ _ _ (word_eq arg1 harg1 x0 _ _ _ _ _ (off77_eq i)) _ rfl _ _ _ j

theorem pay40_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk40 (arg1.view.readAt (Elt F) (Rect.unit (s := S8192) (k0_off79 i) S1.size (k0_off79_inb i)).toLoadRect (harg1.unread x0) (Shape.Idx.first (numel1_S1.symm ▸ Nat.one_pos)))) (j : Fin 4096) :
    gatherRun.sl.dma40 c i arg1 harg1 x0 fh hw (ix1 j)
      = (hbM : Memref sig .tc .hbm S16384x4096 .f32).view.read (Elt F) fh (ix2 ⟨(x0 (ix1 ⟨(i 0).val * 128 + 39, tblIdx_lt i 39 (by decide)⟩)).toNat, hx _⟩ j) := by
  unfold gatherRun.sl.dma40
  exact payload_apply x0 hx fh _ _ _ (word_eq arg1 harg1 x0 _ _ _ _ _ (off79_eq i)) _ rfl _ _ _ j

theorem pay41_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk41 (arg1.view.readAt (Elt F) (Rect.unit (s := S8192) (k0_off81 i) S1.size (k0_off81_inb i)).toLoadRect (harg1.unread x0) (Shape.Idx.first (numel1_S1.symm ▸ Nat.one_pos)))) (j : Fin 4096) :
    gatherRun.sl.dma41 c i arg1 harg1 x0 fh hw (ix1 j)
      = (hbM : Memref sig .tc .hbm S16384x4096 .f32).view.read (Elt F) fh (ix2 ⟨(x0 (ix1 ⟨(i 0).val * 128 + 40, tblIdx_lt i 40 (by decide)⟩)).toNat, hx _⟩ j) := by
  unfold gatherRun.sl.dma41
  exact payload_apply x0 hx fh _ _ _ (word_eq arg1 harg1 x0 _ _ _ _ _ (off81_eq i)) _ rfl _ _ _ j

theorem pay42_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk42 (arg1.view.readAt (Elt F) (Rect.unit (s := S8192) (k0_off83 i) S1.size (k0_off83_inb i)).toLoadRect (harg1.unread x0) (Shape.Idx.first (numel1_S1.symm ▸ Nat.one_pos)))) (j : Fin 4096) :
    gatherRun.sl.dma42 c i arg1 harg1 x0 fh hw (ix1 j)
      = (hbM : Memref sig .tc .hbm S16384x4096 .f32).view.read (Elt F) fh (ix2 ⟨(x0 (ix1 ⟨(i 0).val * 128 + 41, tblIdx_lt i 41 (by decide)⟩)).toNat, hx _⟩ j) := by
  unfold gatherRun.sl.dma42
  exact payload_apply x0 hx fh _ _ _ (word_eq arg1 harg1 x0 _ _ _ _ _ (off83_eq i)) _ rfl _ _ _ j

theorem pay43_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk43 (arg1.view.readAt (Elt F) (Rect.unit (s := S8192) (k0_off85 i) S1.size (k0_off85_inb i)).toLoadRect (harg1.unread x0) (Shape.Idx.first (numel1_S1.symm ▸ Nat.one_pos)))) (j : Fin 4096) :
    gatherRun.sl.dma43 c i arg1 harg1 x0 fh hw (ix1 j)
      = (hbM : Memref sig .tc .hbm S16384x4096 .f32).view.read (Elt F) fh (ix2 ⟨(x0 (ix1 ⟨(i 0).val * 128 + 42, tblIdx_lt i 42 (by decide)⟩)).toNat, hx _⟩ j) := by
  unfold gatherRun.sl.dma43
  exact payload_apply x0 hx fh _ _ _ (word_eq arg1 harg1 x0 _ _ _ _ _ (off85_eq i)) _ rfl _ _ _ j

theorem pay44_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk44 (arg1.view.readAt (Elt F) (Rect.unit (s := S8192) (k0_off87 i) S1.size (k0_off87_inb i)).toLoadRect (harg1.unread x0) (Shape.Idx.first (numel1_S1.symm ▸ Nat.one_pos)))) (j : Fin 4096) :
    gatherRun.sl.dma44 c i arg1 harg1 x0 fh hw (ix1 j)
      = (hbM : Memref sig .tc .hbm S16384x4096 .f32).view.read (Elt F) fh (ix2 ⟨(x0 (ix1 ⟨(i 0).val * 128 + 43, tblIdx_lt i 43 (by decide)⟩)).toNat, hx _⟩ j) := by
  unfold gatherRun.sl.dma44
  exact payload_apply x0 hx fh _ _ _ (word_eq arg1 harg1 x0 _ _ _ _ _ (off87_eq i)) _ rfl _ _ _ j

theorem pay45_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk45 (arg1.view.readAt (Elt F) (Rect.unit (s := S8192) (k0_off89 i) S1.size (k0_off89_inb i)).toLoadRect (harg1.unread x0) (Shape.Idx.first (numel1_S1.symm ▸ Nat.one_pos)))) (j : Fin 4096) :
    gatherRun.sl.dma45 c i arg1 harg1 x0 fh hw (ix1 j)
      = (hbM : Memref sig .tc .hbm S16384x4096 .f32).view.read (Elt F) fh (ix2 ⟨(x0 (ix1 ⟨(i 0).val * 128 + 44, tblIdx_lt i 44 (by decide)⟩)).toNat, hx _⟩ j) := by
  unfold gatherRun.sl.dma45
  exact payload_apply x0 hx fh _ _ _ (word_eq arg1 harg1 x0 _ _ _ _ _ (off89_eq i)) _ rfl _ _ _ j

theorem pay46_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk46 (arg1.view.readAt (Elt F) (Rect.unit (s := S8192) (k0_off91 i) S1.size (k0_off91_inb i)).toLoadRect (harg1.unread x0) (Shape.Idx.first (numel1_S1.symm ▸ Nat.one_pos)))) (j : Fin 4096) :
    gatherRun.sl.dma46 c i arg1 harg1 x0 fh hw (ix1 j)
      = (hbM : Memref sig .tc .hbm S16384x4096 .f32).view.read (Elt F) fh (ix2 ⟨(x0 (ix1 ⟨(i 0).val * 128 + 45, tblIdx_lt i 45 (by decide)⟩)).toNat, hx _⟩ j) := by
  unfold gatherRun.sl.dma46
  exact payload_apply x0 hx fh _ _ _ (word_eq arg1 harg1 x0 _ _ _ _ _ (off91_eq i)) _ rfl _ _ _ j

theorem pay47_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk47 (arg1.view.readAt (Elt F) (Rect.unit (s := S8192) (k0_off93 i) S1.size (k0_off93_inb i)).toLoadRect (harg1.unread x0) (Shape.Idx.first (numel1_S1.symm ▸ Nat.one_pos)))) (j : Fin 4096) :
    gatherRun.sl.dma47 c i arg1 harg1 x0 fh hw (ix1 j)
      = (hbM : Memref sig .tc .hbm S16384x4096 .f32).view.read (Elt F) fh (ix2 ⟨(x0 (ix1 ⟨(i 0).val * 128 + 46, tblIdx_lt i 46 (by decide)⟩)).toNat, hx _⟩ j) := by
  unfold gatherRun.sl.dma47
  exact payload_apply x0 hx fh _ _ _ (word_eq arg1 harg1 x0 _ _ _ _ _ (off93_eq i)) _ rfl _ _ _ j

theorem pay48_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk48 (arg1.view.readAt (Elt F) (Rect.unit (s := S8192) (k0_off95 i) S1.size (k0_off95_inb i)).toLoadRect (harg1.unread x0) (Shape.Idx.first (numel1_S1.symm ▸ Nat.one_pos)))) (j : Fin 4096) :
    gatherRun.sl.dma48 c i arg1 harg1 x0 fh hw (ix1 j)
      = (hbM : Memref sig .tc .hbm S16384x4096 .f32).view.read (Elt F) fh (ix2 ⟨(x0 (ix1 ⟨(i 0).val * 128 + 47, tblIdx_lt i 47 (by decide)⟩)).toNat, hx _⟩ j) := by
  unfold gatherRun.sl.dma48
  exact payload_apply x0 hx fh _ _ _ (word_eq arg1 harg1 x0 _ _ _ _ _ (off95_eq i)) _ rfl _ _ _ j

theorem pay49_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk49 (arg1.view.readAt (Elt F) (Rect.unit (s := S8192) (k0_off97 i) S1.size (k0_off97_inb i)).toLoadRect (harg1.unread x0) (Shape.Idx.first (numel1_S1.symm ▸ Nat.one_pos)))) (j : Fin 4096) :
    gatherRun.sl.dma49 c i arg1 harg1 x0 fh hw (ix1 j)
      = (hbM : Memref sig .tc .hbm S16384x4096 .f32).view.read (Elt F) fh (ix2 ⟨(x0 (ix1 ⟨(i 0).val * 128 + 48, tblIdx_lt i 48 (by decide)⟩)).toNat, hx _⟩ j) := by
  unfold gatherRun.sl.dma49
  exact payload_apply x0 hx fh _ _ _ (word_eq arg1 harg1 x0 _ _ _ _ _ (off97_eq i)) _ rfl _ _ _ j

theorem pay50_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk50 (arg1.view.readAt (Elt F) (Rect.unit (s := S8192) (k0_off99 i) S1.size (k0_off99_inb i)).toLoadRect (harg1.unread x0) (Shape.Idx.first (numel1_S1.symm ▸ Nat.one_pos)))) (j : Fin 4096) :
    gatherRun.sl.dma50 c i arg1 harg1 x0 fh hw (ix1 j)
      = (hbM : Memref sig .tc .hbm S16384x4096 .f32).view.read (Elt F) fh (ix2 ⟨(x0 (ix1 ⟨(i 0).val * 128 + 49, tblIdx_lt i 49 (by decide)⟩)).toNat, hx _⟩ j) := by
  unfold gatherRun.sl.dma50
  exact payload_apply x0 hx fh _ _ _ (word_eq arg1 harg1 x0 _ _ _ _ _ (off99_eq i)) _ rfl _ _ _ j

theorem pay51_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk51 (arg1.view.readAt (Elt F) (Rect.unit (s := S8192) (k0_off101 i) S1.size (k0_off101_inb i)).toLoadRect (harg1.unread x0) (Shape.Idx.first (numel1_S1.symm ▸ Nat.one_pos)))) (j : Fin 4096) :
    gatherRun.sl.dma51 c i arg1 harg1 x0 fh hw (ix1 j)
      = (hbM : Memref sig .tc .hbm S16384x4096 .f32).view.read (Elt F) fh (ix2 ⟨(x0 (ix1 ⟨(i 0).val * 128 + 50, tblIdx_lt i 50 (by decide)⟩)).toNat, hx _⟩ j) := by
  unfold gatherRun.sl.dma51
  exact payload_apply x0 hx fh _ _ _ (word_eq arg1 harg1 x0 _ _ _ _ _ (off101_eq i)) _ rfl _ _ _ j

theorem pay52_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk52 (arg1.view.readAt (Elt F) (Rect.unit (s := S8192) (k0_off103 i) S1.size (k0_off103_inb i)).toLoadRect (harg1.unread x0) (Shape.Idx.first (numel1_S1.symm ▸ Nat.one_pos)))) (j : Fin 4096) :
    gatherRun.sl.dma52 c i arg1 harg1 x0 fh hw (ix1 j)
      = (hbM : Memref sig .tc .hbm S16384x4096 .f32).view.read (Elt F) fh (ix2 ⟨(x0 (ix1 ⟨(i 0).val * 128 + 51, tblIdx_lt i 51 (by decide)⟩)).toNat, hx _⟩ j) := by
  unfold gatherRun.sl.dma52
  exact payload_apply x0 hx fh _ _ _ (word_eq arg1 harg1 x0 _ _ _ _ _ (off103_eq i)) _ rfl _ _ _ j

theorem pay53_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk53 (arg1.view.readAt (Elt F) (Rect.unit (s := S8192) (k0_off105 i) S1.size (k0_off105_inb i)).toLoadRect (harg1.unread x0) (Shape.Idx.first (numel1_S1.symm ▸ Nat.one_pos)))) (j : Fin 4096) :
    gatherRun.sl.dma53 c i arg1 harg1 x0 fh hw (ix1 j)
      = (hbM : Memref sig .tc .hbm S16384x4096 .f32).view.read (Elt F) fh (ix2 ⟨(x0 (ix1 ⟨(i 0).val * 128 + 52, tblIdx_lt i 52 (by decide)⟩)).toNat, hx _⟩ j) := by
  unfold gatherRun.sl.dma53
  exact payload_apply x0 hx fh _ _ _ (word_eq arg1 harg1 x0 _ _ _ _ _ (off105_eq i)) _ rfl _ _ _ j

theorem pay54_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk54 (arg1.view.readAt (Elt F) (Rect.unit (s := S8192) (k0_off107 i) S1.size (k0_off107_inb i)).toLoadRect (harg1.unread x0) (Shape.Idx.first (numel1_S1.symm ▸ Nat.one_pos)))) (j : Fin 4096) :
    gatherRun.sl.dma54 c i arg1 harg1 x0 fh hw (ix1 j)
      = (hbM : Memref sig .tc .hbm S16384x4096 .f32).view.read (Elt F) fh (ix2 ⟨(x0 (ix1 ⟨(i 0).val * 128 + 53, tblIdx_lt i 53 (by decide)⟩)).toNat, hx _⟩ j) := by
  unfold gatherRun.sl.dma54
  exact payload_apply x0 hx fh _ _ _ (word_eq arg1 harg1 x0 _ _ _ _ _ (off107_eq i)) _ rfl _ _ _ j

theorem pay55_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk55 (arg1.view.readAt (Elt F) (Rect.unit (s := S8192) (k0_off109 i) S1.size (k0_off109_inb i)).toLoadRect (harg1.unread x0) (Shape.Idx.first (numel1_S1.symm ▸ Nat.one_pos)))) (j : Fin 4096) :
    gatherRun.sl.dma55 c i arg1 harg1 x0 fh hw (ix1 j)
      = (hbM : Memref sig .tc .hbm S16384x4096 .f32).view.read (Elt F) fh (ix2 ⟨(x0 (ix1 ⟨(i 0).val * 128 + 54, tblIdx_lt i 54 (by decide)⟩)).toNat, hx _⟩ j) := by
  unfold gatherRun.sl.dma55
  exact payload_apply x0 hx fh _ _ _ (word_eq arg1 harg1 x0 _ _ _ _ _ (off109_eq i)) _ rfl _ _ _ j

theorem pay56_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk56 (arg1.view.readAt (Elt F) (Rect.unit (s := S8192) (k0_off111 i) S1.size (k0_off111_inb i)).toLoadRect (harg1.unread x0) (Shape.Idx.first (numel1_S1.symm ▸ Nat.one_pos)))) (j : Fin 4096) :
    gatherRun.sl.dma56 c i arg1 harg1 x0 fh hw (ix1 j)
      = (hbM : Memref sig .tc .hbm S16384x4096 .f32).view.read (Elt F) fh (ix2 ⟨(x0 (ix1 ⟨(i 0).val * 128 + 55, tblIdx_lt i 55 (by decide)⟩)).toNat, hx _⟩ j) := by
  unfold gatherRun.sl.dma56
  exact payload_apply x0 hx fh _ _ _ (word_eq arg1 harg1 x0 _ _ _ _ _ (off111_eq i)) _ rfl _ _ _ j

theorem pay57_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk57 (arg1.view.readAt (Elt F) (Rect.unit (s := S8192) (k0_off113 i) S1.size (k0_off113_inb i)).toLoadRect (harg1.unread x0) (Shape.Idx.first (numel1_S1.symm ▸ Nat.one_pos)))) (j : Fin 4096) :
    gatherRun.sl.dma57 c i arg1 harg1 x0 fh hw (ix1 j)
      = (hbM : Memref sig .tc .hbm S16384x4096 .f32).view.read (Elt F) fh (ix2 ⟨(x0 (ix1 ⟨(i 0).val * 128 + 56, tblIdx_lt i 56 (by decide)⟩)).toNat, hx _⟩ j) := by
  unfold gatherRun.sl.dma57
  exact payload_apply x0 hx fh _ _ _ (word_eq arg1 harg1 x0 _ _ _ _ _ (off113_eq i)) _ rfl _ _ _ j

theorem pay58_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk58 (arg1.view.readAt (Elt F) (Rect.unit (s := S8192) (k0_off115 i) S1.size (k0_off115_inb i)).toLoadRect (harg1.unread x0) (Shape.Idx.first (numel1_S1.symm ▸ Nat.one_pos)))) (j : Fin 4096) :
    gatherRun.sl.dma58 c i arg1 harg1 x0 fh hw (ix1 j)
      = (hbM : Memref sig .tc .hbm S16384x4096 .f32).view.read (Elt F) fh (ix2 ⟨(x0 (ix1 ⟨(i 0).val * 128 + 57, tblIdx_lt i 57 (by decide)⟩)).toNat, hx _⟩ j) := by
  unfold gatherRun.sl.dma58
  exact payload_apply x0 hx fh _ _ _ (word_eq arg1 harg1 x0 _ _ _ _ _ (off115_eq i)) _ rfl _ _ _ j

theorem pay59_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk59 (arg1.view.readAt (Elt F) (Rect.unit (s := S8192) (k0_off117 i) S1.size (k0_off117_inb i)).toLoadRect (harg1.unread x0) (Shape.Idx.first (numel1_S1.symm ▸ Nat.one_pos)))) (j : Fin 4096) :
    gatherRun.sl.dma59 c i arg1 harg1 x0 fh hw (ix1 j)
      = (hbM : Memref sig .tc .hbm S16384x4096 .f32).view.read (Elt F) fh (ix2 ⟨(x0 (ix1 ⟨(i 0).val * 128 + 58, tblIdx_lt i 58 (by decide)⟩)).toNat, hx _⟩ j) := by
  unfold gatherRun.sl.dma59
  exact payload_apply x0 hx fh _ _ _ (word_eq arg1 harg1 x0 _ _ _ _ _ (off117_eq i)) _ rfl _ _ _ j

theorem pay60_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk60 (arg1.view.readAt (Elt F) (Rect.unit (s := S8192) (k0_off119 i) S1.size (k0_off119_inb i)).toLoadRect (harg1.unread x0) (Shape.Idx.first (numel1_S1.symm ▸ Nat.one_pos)))) (j : Fin 4096) :
    gatherRun.sl.dma60 c i arg1 harg1 x0 fh hw (ix1 j)
      = (hbM : Memref sig .tc .hbm S16384x4096 .f32).view.read (Elt F) fh (ix2 ⟨(x0 (ix1 ⟨(i 0).val * 128 + 59, tblIdx_lt i 59 (by decide)⟩)).toNat, hx _⟩ j) := by
  unfold gatherRun.sl.dma60
  exact payload_apply x0 hx fh _ _ _ (word_eq arg1 harg1 x0 _ _ _ _ _ (off119_eq i)) _ rfl _ _ _ j

theorem pay61_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk61 (arg1.view.readAt (Elt F) (Rect.unit (s := S8192) (k0_off121 i) S1.size (k0_off121_inb i)).toLoadRect (harg1.unread x0) (Shape.Idx.first (numel1_S1.symm ▸ Nat.one_pos)))) (j : Fin 4096) :
    gatherRun.sl.dma61 c i arg1 harg1 x0 fh hw (ix1 j)
      = (hbM : Memref sig .tc .hbm S16384x4096 .f32).view.read (Elt F) fh (ix2 ⟨(x0 (ix1 ⟨(i 0).val * 128 + 60, tblIdx_lt i 60 (by decide)⟩)).toNat, hx _⟩ j) := by
  unfold gatherRun.sl.dma61
  exact payload_apply x0 hx fh _ _ _ (word_eq arg1 harg1 x0 _ _ _ _ _ (off121_eq i)) _ rfl _ _ _ j

theorem pay62_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk62 (arg1.view.readAt (Elt F) (Rect.unit (s := S8192) (k0_off123 i) S1.size (k0_off123_inb i)).toLoadRect (harg1.unread x0) (Shape.Idx.first (numel1_S1.symm ▸ Nat.one_pos)))) (j : Fin 4096) :
    gatherRun.sl.dma62 c i arg1 harg1 x0 fh hw (ix1 j)
      = (hbM : Memref sig .tc .hbm S16384x4096 .f32).view.read (Elt F) fh (ix2 ⟨(x0 (ix1 ⟨(i 0).val * 128 + 61, tblIdx_lt i 61 (by decide)⟩)).toNat, hx _⟩ j) := by
  unfold gatherRun.sl.dma62
  exact payload_apply x0 hx fh _ _ _ (word_eq arg1 harg1 x0 _ _ _ _ _ (off123_eq i)) _ rfl _ _ _ j

theorem pay63_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk63 (arg1.view.readAt (Elt F) (Rect.unit (s := S8192) (k0_off125 i) S1.size (k0_off125_inb i)).toLoadRect (harg1.unread x0) (Shape.Idx.first (numel1_S1.symm ▸ Nat.one_pos)))) (j : Fin 4096) :
    gatherRun.sl.dma63 c i arg1 harg1 x0 fh hw (ix1 j)
      = (hbM : Memref sig .tc .hbm S16384x4096 .f32).view.read (Elt F) fh (ix2 ⟨(x0 (ix1 ⟨(i 0).val * 128 + 62, tblIdx_lt i 62 (by decide)⟩)).toNat, hx _⟩ j) := by
  unfold gatherRun.sl.dma63
  exact payload_apply x0 hx fh _ _ _ (word_eq arg1 harg1 x0 _ _ _ _ _ (off125_eq i)) _ rfl _ _ _ j

theorem pay64_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk64 (arg1.view.readAt (Elt F) (Rect.unit (s := S8192) (k0_off127 i) S1.size (k0_off127_inb i)).toLoadRect (harg1.unread x0) (Shape.Idx.first (numel1_S1.symm ▸ Nat.one_pos)))) (j : Fin 4096) :
    gatherRun.sl.dma64 c i arg1 harg1 x0 fh hw (ix1 j)
      = (hbM : Memref sig .tc .hbm S16384x4096 .f32).view.read (Elt F) fh (ix2 ⟨(x0 (ix1 ⟨(i 0).val * 128 + 63, tblIdx_lt i 63 (by decide)⟩)).toNat, hx _⟩ j) := by
  unfold gatherRun.sl.dma64
  exact payload_apply x0 hx fh _ _ _ (word_eq arg1 harg1 x0 _ _ _ _ _ (off127_eq i)) _ rfl _ _ _ j

theorem pay65_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk65 (arg1.view.readAt (Elt F) (Rect.unit (s := S8192) (k0_off129 i) S1.size (k0_off129_inb i)).toLoadRect (harg1.unread x0) (Shape.Idx.first (numel1_S1.symm ▸ Nat.one_pos)))) (j : Fin 4096) :
    gatherRun.sl.dma65 c i arg1 harg1 x0 fh hw (ix1 j)
      = (hbM : Memref sig .tc .hbm S16384x4096 .f32).view.read (Elt F) fh (ix2 ⟨(x0 (ix1 ⟨(i 0).val * 128 + 64, tblIdx_lt i 64 (by decide)⟩)).toNat, hx _⟩ j) := by
  unfold gatherRun.sl.dma65
  exact payload_apply x0 hx fh _ _ _ (word_eq arg1 harg1 x0 _ _ _ _ _ (off129_eq i)) _ rfl _ _ _ j

theorem pay66_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk66 (arg1.view.readAt (Elt F) (Rect.unit (s := S8192) (k0_off131 i) S1.size (k0_off131_inb i)).toLoadRect (harg1.unread x0) (Shape.Idx.first (numel1_S1.symm ▸ Nat.one_pos)))) (j : Fin 4096) :
    gatherRun.sl.dma66 c i arg1 harg1 x0 fh hw (ix1 j)
      = (hbM : Memref sig .tc .hbm S16384x4096 .f32).view.read (Elt F) fh (ix2 ⟨(x0 (ix1 ⟨(i 0).val * 128 + 65, tblIdx_lt i 65 (by decide)⟩)).toNat, hx _⟩ j) := by
  unfold gatherRun.sl.dma66
  exact payload_apply x0 hx fh _ _ _ (word_eq arg1 harg1 x0 _ _ _ _ _ (off131_eq i)) _ rfl _ _ _ j

theorem pay67_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk67 (arg1.view.readAt (Elt F) (Rect.unit (s := S8192) (k0_off133 i) S1.size (k0_off133_inb i)).toLoadRect (harg1.unread x0) (Shape.Idx.first (numel1_S1.symm ▸ Nat.one_pos)))) (j : Fin 4096) :
    gatherRun.sl.dma67 c i arg1 harg1 x0 fh hw (ix1 j)
      = (hbM : Memref sig .tc .hbm S16384x4096 .f32).view.read (Elt F) fh (ix2 ⟨(x0 (ix1 ⟨(i 0).val * 128 + 66, tblIdx_lt i 66 (by decide)⟩)).toNat, hx _⟩ j) := by
  unfold gatherRun.sl.dma67
  exact payload_apply x0 hx fh _ _ _ (word_eq arg1 harg1 x0 _ _ _ _ _ (off133_eq i)) _ rfl _ _ _ j

theorem pay68_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk68 (arg1.view.readAt (Elt F) (Rect.unit (s := S8192) (k0_off135 i) S1.size (k0_off135_inb i)).toLoadRect (harg1.unread x0) (Shape.Idx.first (numel1_S1.symm ▸ Nat.one_pos)))) (j : Fin 4096) :
    gatherRun.sl.dma68 c i arg1 harg1 x0 fh hw (ix1 j)
      = (hbM : Memref sig .tc .hbm S16384x4096 .f32).view.read (Elt F) fh (ix2 ⟨(x0 (ix1 ⟨(i 0).val * 128 + 67, tblIdx_lt i 67 (by decide)⟩)).toNat, hx _⟩ j) := by
  unfold gatherRun.sl.dma68
  exact payload_apply x0 hx fh _ _ _ (word_eq arg1 harg1 x0 _ _ _ _ _ (off135_eq i)) _ rfl _ _ _ j

theorem pay69_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk69 (arg1.view.readAt (Elt F) (Rect.unit (s := S8192) (k0_off137 i) S1.size (k0_off137_inb i)).toLoadRect (harg1.unread x0) (Shape.Idx.first (numel1_S1.symm ▸ Nat.one_pos)))) (j : Fin 4096) :
    gatherRun.sl.dma69 c i arg1 harg1 x0 fh hw (ix1 j)
      = (hbM : Memref sig .tc .hbm S16384x4096 .f32).view.read (Elt F) fh (ix2 ⟨(x0 (ix1 ⟨(i 0).val * 128 + 68, tblIdx_lt i 68 (by decide)⟩)).toNat, hx _⟩ j) := by
  unfold gatherRun.sl.dma69
  exact payload_apply x0 hx fh _ _ _ (word_eq arg1 harg1 x0 _ _ _ _ _ (off137_eq i)) _ rfl _ _ _ j

theorem pay70_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk70 (arg1.view.readAt (Elt F) (Rect.unit (s := S8192) (k0_off139 i) S1.size (k0_off139_inb i)).toLoadRect (harg1.unread x0) (Shape.Idx.first (numel1_S1.symm ▸ Nat.one_pos)))) (j : Fin 4096) :
    gatherRun.sl.dma70 c i arg1 harg1 x0 fh hw (ix1 j)
      = (hbM : Memref sig .tc .hbm S16384x4096 .f32).view.read (Elt F) fh (ix2 ⟨(x0 (ix1 ⟨(i 0).val * 128 + 69, tblIdx_lt i 69 (by decide)⟩)).toNat, hx _⟩ j) := by
  unfold gatherRun.sl.dma70
  exact payload_apply x0 hx fh _ _ _ (word_eq arg1 harg1 x0 _ _ _ _ _ (off139_eq i)) _ rfl _ _ _ j

theorem pay71_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk71 (arg1.view.readAt (Elt F) (Rect.unit (s := S8192) (k0_off141 i) S1.size (k0_off141_inb i)).toLoadRect (harg1.unread x0) (Shape.Idx.first (numel1_S1.symm ▸ Nat.one_pos)))) (j : Fin 4096) :
    gatherRun.sl.dma71 c i arg1 harg1 x0 fh hw (ix1 j)
      = (hbM : Memref sig .tc .hbm S16384x4096 .f32).view.read (Elt F) fh (ix2 ⟨(x0 (ix1 ⟨(i 0).val * 128 + 70, tblIdx_lt i 70 (by decide)⟩)).toNat, hx _⟩ j) := by
  unfold gatherRun.sl.dma71
  exact payload_apply x0 hx fh _ _ _ (word_eq arg1 harg1 x0 _ _ _ _ _ (off141_eq i)) _ rfl _ _ _ j

theorem pay72_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk72 (arg1.view.readAt (Elt F) (Rect.unit (s := S8192) (k0_off143 i) S1.size (k0_off143_inb i)).toLoadRect (harg1.unread x0) (Shape.Idx.first (numel1_S1.symm ▸ Nat.one_pos)))) (j : Fin 4096) :
    gatherRun.sl.dma72 c i arg1 harg1 x0 fh hw (ix1 j)
      = (hbM : Memref sig .tc .hbm S16384x4096 .f32).view.read (Elt F) fh (ix2 ⟨(x0 (ix1 ⟨(i 0).val * 128 + 71, tblIdx_lt i 71 (by decide)⟩)).toNat, hx _⟩ j) := by
  unfold gatherRun.sl.dma72
  exact payload_apply x0 hx fh _ _ _ (word_eq arg1 harg1 x0 _ _ _ _ _ (off143_eq i)) _ rfl _ _ _ j

theorem pay73_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk73 (arg1.view.readAt (Elt F) (Rect.unit (s := S8192) (k0_off145 i) S1.size (k0_off145_inb i)).toLoadRect (harg1.unread x0) (Shape.Idx.first (numel1_S1.symm ▸ Nat.one_pos)))) (j : Fin 4096) :
    gatherRun.sl.dma73 c i arg1 harg1 x0 fh hw (ix1 j)
      = (hbM : Memref sig .tc .hbm S16384x4096 .f32).view.read (Elt F) fh (ix2 ⟨(x0 (ix1 ⟨(i 0).val * 128 + 72, tblIdx_lt i 72 (by decide)⟩)).toNat, hx _⟩ j) := by
  unfold gatherRun.sl.dma73
  exact payload_apply x0 hx fh _ _ _ (word_eq arg1 harg1 x0 _ _ _ _ _ (off145_eq i)) _ rfl _ _ _ j

theorem pay74_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk74 (arg1.view.readAt (Elt F) (Rect.unit (s := S8192) (k0_off147 i) S1.size (k0_off147_inb i)).toLoadRect (harg1.unread x0) (Shape.Idx.first (numel1_S1.symm ▸ Nat.one_pos)))) (j : Fin 4096) :
    gatherRun.sl.dma74 c i arg1 harg1 x0 fh hw (ix1 j)
      = (hbM : Memref sig .tc .hbm S16384x4096 .f32).view.read (Elt F) fh (ix2 ⟨(x0 (ix1 ⟨(i 0).val * 128 + 73, tblIdx_lt i 73 (by decide)⟩)).toNat, hx _⟩ j) := by
  unfold gatherRun.sl.dma74
  exact payload_apply x0 hx fh _ _ _ (word_eq arg1 harg1 x0 _ _ _ _ _ (off147_eq i)) _ rfl _ _ _ j

theorem pay75_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk75 (arg1.view.readAt (Elt F) (Rect.unit (s := S8192) (k0_off149 i) S1.size (k0_off149_inb i)).toLoadRect (harg1.unread x0) (Shape.Idx.first (numel1_S1.symm ▸ Nat.one_pos)))) (j : Fin 4096) :
    gatherRun.sl.dma75 c i arg1 harg1 x0 fh hw (ix1 j)
      = (hbM : Memref sig .tc .hbm S16384x4096 .f32).view.read (Elt F) fh (ix2 ⟨(x0 (ix1 ⟨(i 0).val * 128 + 74, tblIdx_lt i 74 (by decide)⟩)).toNat, hx _⟩ j) := by
  unfold gatherRun.sl.dma75
  exact payload_apply x0 hx fh _ _ _ (word_eq arg1 harg1 x0 _ _ _ _ _ (off149_eq i)) _ rfl _ _ _ j

theorem pay76_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk76 (arg1.view.readAt (Elt F) (Rect.unit (s := S8192) (k0_off151 i) S1.size (k0_off151_inb i)).toLoadRect (harg1.unread x0) (Shape.Idx.first (numel1_S1.symm ▸ Nat.one_pos)))) (j : Fin 4096) :
    gatherRun.sl.dma76 c i arg1 harg1 x0 fh hw (ix1 j)
      = (hbM : Memref sig .tc .hbm S16384x4096 .f32).view.read (Elt F) fh (ix2 ⟨(x0 (ix1 ⟨(i 0).val * 128 + 75, tblIdx_lt i 75 (by decide)⟩)).toNat, hx _⟩ j) := by
  unfold gatherRun.sl.dma76
  exact payload_apply x0 hx fh _ _ _ (word_eq arg1 harg1 x0 _ _ _ _ _ (off151_eq i)) _ rfl _ _ _ j

theorem pay77_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk77 (arg1.view.readAt (Elt F) (Rect.unit (s := S8192) (k0_off153 i) S1.size (k0_off153_inb i)).toLoadRect (harg1.unread x0) (Shape.Idx.first (numel1_S1.symm ▸ Nat.one_pos)))) (j : Fin 4096) :
    gatherRun.sl.dma77 c i arg1 harg1 x0 fh hw (ix1 j)
      = (hbM : Memref sig .tc .hbm S16384x4096 .f32).view.read (Elt F) fh (ix2 ⟨(x0 (ix1 ⟨(i 0).val * 128 + 76, tblIdx_lt i 76 (by decide)⟩)).toNat, hx _⟩ j) := by
  unfold gatherRun.sl.dma77
  exact payload_apply x0 hx fh _ _ _ (word_eq arg1 harg1 x0 _ _ _ _ _ (off153_eq i)) _ rfl _ _ _ j

theorem pay78_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk78 (arg1.view.readAt (Elt F) (Rect.unit (s := S8192) (k0_off155 i) S1.size (k0_off155_inb i)).toLoadRect (harg1.unread x0) (Shape.Idx.first (numel1_S1.symm ▸ Nat.one_pos)))) (j : Fin 4096) :
    gatherRun.sl.dma78 c i arg1 harg1 x0 fh hw (ix1 j)
      = (hbM : Memref sig .tc .hbm S16384x4096 .f32).view.read (Elt F) fh (ix2 ⟨(x0 (ix1 ⟨(i 0).val * 128 + 77, tblIdx_lt i 77 (by decide)⟩)).toNat, hx _⟩ j) := by
  unfold gatherRun.sl.dma78
  exact payload_apply x0 hx fh _ _ _ (word_eq arg1 harg1 x0 _ _ _ _ _ (off155_eq i)) _ rfl _ _ _ j

theorem pay79_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk79 (arg1.view.readAt (Elt F) (Rect.unit (s := S8192) (k0_off157 i) S1.size (k0_off157_inb i)).toLoadRect (harg1.unread x0) (Shape.Idx.first (numel1_S1.symm ▸ Nat.one_pos)))) (j : Fin 4096) :
    gatherRun.sl.dma79 c i arg1 harg1 x0 fh hw (ix1 j)
      = (hbM : Memref sig .tc .hbm S16384x4096 .f32).view.read (Elt F) fh (ix2 ⟨(x0 (ix1 ⟨(i 0).val * 128 + 78, tblIdx_lt i 78 (by decide)⟩)).toNat, hx _⟩ j) := by
  unfold gatherRun.sl.dma79
  exact payload_apply x0 hx fh _ _ _ (word_eq arg1 harg1 x0 _ _ _ _ _ (off157_eq i)) _ rfl _ _ _ j

theorem pay80_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk80 (arg1.view.readAt (Elt F) (Rect.unit (s := S8192) (k0_off159 i) S1.size (k0_off159_inb i)).toLoadRect (harg1.unread x0) (Shape.Idx.first (numel1_S1.symm ▸ Nat.one_pos)))) (j : Fin 4096) :
    gatherRun.sl.dma80 c i arg1 harg1 x0 fh hw (ix1 j)
      = (hbM : Memref sig .tc .hbm S16384x4096 .f32).view.read (Elt F) fh (ix2 ⟨(x0 (ix1 ⟨(i 0).val * 128 + 79, tblIdx_lt i 79 (by decide)⟩)).toNat, hx _⟩ j) := by
  unfold gatherRun.sl.dma80
  exact payload_apply x0 hx fh _ _ _ (word_eq arg1 harg1 x0 _ _ _ _ _ (off159_eq i)) _ rfl _ _ _ j

theorem pay81_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk81 (arg1.view.readAt (Elt F) (Rect.unit (s := S8192) (k0_off161 i) S1.size (k0_off161_inb i)).toLoadRect (harg1.unread x0) (Shape.Idx.first (numel1_S1.symm ▸ Nat.one_pos)))) (j : Fin 4096) :
    gatherRun.sl.dma81 c i arg1 harg1 x0 fh hw (ix1 j)
      = (hbM : Memref sig .tc .hbm S16384x4096 .f32).view.read (Elt F) fh (ix2 ⟨(x0 (ix1 ⟨(i 0).val * 128 + 80, tblIdx_lt i 80 (by decide)⟩)).toNat, hx _⟩ j) := by
  unfold gatherRun.sl.dma81
  exact payload_apply x0 hx fh _ _ _ (word_eq arg1 harg1 x0 _ _ _ _ _ (off161_eq i)) _ rfl _ _ _ j

theorem pay82_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk82 (arg1.view.readAt (Elt F) (Rect.unit (s := S8192) (k0_off163 i) S1.size (k0_off163_inb i)).toLoadRect (harg1.unread x0) (Shape.Idx.first (numel1_S1.symm ▸ Nat.one_pos)))) (j : Fin 4096) :
    gatherRun.sl.dma82 c i arg1 harg1 x0 fh hw (ix1 j)
      = (hbM : Memref sig .tc .hbm S16384x4096 .f32).view.read (Elt F) fh (ix2 ⟨(x0 (ix1 ⟨(i 0).val * 128 + 81, tblIdx_lt i 81 (by decide)⟩)).toNat, hx _⟩ j) := by
  unfold gatherRun.sl.dma82
  exact payload_apply x0 hx fh _ _ _ (word_eq arg1 harg1 x0 _ _ _ _ _ (off163_eq i)) _ rfl _ _ _ j

theorem pay83_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk83 (arg1.view.readAt (Elt F) (Rect.unit (s := S8192) (k0_off165 i) S1.size (k0_off165_inb i)).toLoadRect (harg1.unread x0) (Shape.Idx.first (numel1_S1.symm ▸ Nat.one_pos)))) (j : Fin 4096) :
    gatherRun.sl.dma83 c i arg1 harg1 x0 fh hw (ix1 j)
      = (hbM : Memref sig .tc .hbm S16384x4096 .f32).view.read (Elt F) fh (ix2 ⟨(x0 (ix1 ⟨(i 0).val * 128 + 82, tblIdx_lt i 82 (by decide)⟩)).toNat, hx _⟩ j) := by
  unfold gatherRun.sl.dma83
  exact payload_apply x0 hx fh _ _ _ (word_eq arg1 harg1 x0 _ _ _ _ _ (off165_eq i)) _ rfl _ _ _ j

theorem pay84_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk84 (arg1.view.readAt (Elt F) (Rect.unit (s := S8192) (k0_off167 i) S1.size (k0_off167_inb i)).toLoadRect (harg1.unread x0) (Shape.Idx.first (numel1_S1.symm ▸ Nat.one_pos)))) (j : Fin 4096) :
    gatherRun.sl.dma84 c i arg1 harg1 x0 fh hw (ix1 j)
      = (hbM : Memref sig .tc .hbm S16384x4096 .f32).view.read (Elt F) fh (ix2 ⟨(x0 (ix1 ⟨(i 0).val * 128 + 83, tblIdx_lt i 83 (by decide)⟩)).toNat, hx _⟩ j) := by
  unfold gatherRun.sl.dma84
  exact payload_apply x0 hx fh _ _ _ (word_eq arg1 harg1 x0 _ _ _ _ _ (off167_eq i)) _ rfl _ _ _ j

theorem pay85_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk85 (arg1.view.readAt (Elt F) (Rect.unit (s := S8192) (k0_off169 i) S1.size (k0_off169_inb i)).toLoadRect (harg1.unread x0) (Shape.Idx.first (numel1_S1.symm ▸ Nat.one_pos)))) (j : Fin 4096) :
    gatherRun.sl.dma85 c i arg1 harg1 x0 fh hw (ix1 j)
      = (hbM : Memref sig .tc .hbm S16384x4096 .f32).view.read (Elt F) fh (ix2 ⟨(x0 (ix1 ⟨(i 0).val * 128 + 84, tblIdx_lt i 84 (by decide)⟩)).toNat, hx _⟩ j) := by
  unfold gatherRun.sl.dma85
  exact payload_apply x0 hx fh _ _ _ (word_eq arg1 harg1 x0 _ _ _ _ _ (off169_eq i)) _ rfl _ _ _ j

theorem pay86_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk86 (arg1.view.readAt (Elt F) (Rect.unit (s := S8192) (k0_off171 i) S1.size (k0_off171_inb i)).toLoadRect (harg1.unread x0) (Shape.Idx.first (numel1_S1.symm ▸ Nat.one_pos)))) (j : Fin 4096) :
    gatherRun.sl.dma86 c i arg1 harg1 x0 fh hw (ix1 j)
      = (hbM : Memref sig .tc .hbm S16384x4096 .f32).view.read (Elt F) fh (ix2 ⟨(x0 (ix1 ⟨(i 0).val * 128 + 85, tblIdx_lt i 85 (by decide)⟩)).toNat, hx _⟩ j) := by
  unfold gatherRun.sl.dma86
  exact payload_apply x0 hx fh _ _ _ (word_eq arg1 harg1 x0 _ _ _ _ _ (off171_eq i)) _ rfl _ _ _ j

theorem pay87_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk87 (arg1.view.readAt (Elt F) (Rect.unit (s := S8192) (k0_off173 i) S1.size (k0_off173_inb i)).toLoadRect (harg1.unread x0) (Shape.Idx.first (numel1_S1.symm ▸ Nat.one_pos)))) (j : Fin 4096) :
    gatherRun.sl.dma87 c i arg1 harg1 x0 fh hw (ix1 j)
      = (hbM : Memref sig .tc .hbm S16384x4096 .f32).view.read (Elt F) fh (ix2 ⟨(x0 (ix1 ⟨(i 0).val * 128 + 86, tblIdx_lt i 86 (by decide)⟩)).toNat, hx _⟩ j) := by
  unfold gatherRun.sl.dma87
  exact payload_apply x0 hx fh _ _ _ (word_eq arg1 harg1 x0 _ _ _ _ _ (off173_eq i)) _ rfl _ _ _ j

theorem pay88_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk88 (arg1.view.readAt (Elt F) (Rect.unit (s := S8192) (k0_off175 i) S1.size (k0_off175_inb i)).toLoadRect (harg1.unread x0) (Shape.Idx.first (numel1_S1.symm ▸ Nat.one_pos)))) (j : Fin 4096) :
    gatherRun.sl.dma88 c i arg1 harg1 x0 fh hw (ix1 j)
      = (hbM : Memref sig .tc .hbm S16384x4096 .f32).view.read (Elt F) fh (ix2 ⟨(x0 (ix1 ⟨(i 0).val * 128 + 87, tblIdx_lt i 87 (by decide)⟩)).toNat, hx _⟩ j) := by
  unfold gatherRun.sl.dma88
  exact payload_apply x0 hx fh _ _ _ (word_eq arg1 harg1 x0 _ _ _ _ _ (off175_eq i)) _ rfl _ _ _ j

theorem pay89_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk89 (arg1.view.readAt (Elt F) (Rect.unit (s := S8192) (k0_off177 i) S1.size (k0_off177_inb i)).toLoadRect (harg1.unread x0) (Shape.Idx.first (numel1_S1.symm ▸ Nat.one_pos)))) (j : Fin 4096) :
    gatherRun.sl.dma89 c i arg1 harg1 x0 fh hw (ix1 j)
      = (hbM : Memref sig .tc .hbm S16384x4096 .f32).view.read (Elt F) fh (ix2 ⟨(x0 (ix1 ⟨(i 0).val * 128 + 88, tblIdx_lt i 88 (by decide)⟩)).toNat, hx _⟩ j) := by
  unfold gatherRun.sl.dma89
  exact payload_apply x0 hx fh _ _ _ (word_eq arg1 harg1 x0 _ _ _ _ _ (off177_eq i)) _ rfl _ _ _ j

theorem pay90_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk90 (arg1.view.readAt (Elt F) (Rect.unit (s := S8192) (k0_off179 i) S1.size (k0_off179_inb i)).toLoadRect (harg1.unread x0) (Shape.Idx.first (numel1_S1.symm ▸ Nat.one_pos)))) (j : Fin 4096) :
    gatherRun.sl.dma90 c i arg1 harg1 x0 fh hw (ix1 j)
      = (hbM : Memref sig .tc .hbm S16384x4096 .f32).view.read (Elt F) fh (ix2 ⟨(x0 (ix1 ⟨(i 0).val * 128 + 89, tblIdx_lt i 89 (by decide)⟩)).toNat, hx _⟩ j) := by
  unfold gatherRun.sl.dma90
  exact payload_apply x0 hx fh _ _ _ (word_eq arg1 harg1 x0 _ _ _ _ _ (off179_eq i)) _ rfl _ _ _ j

theorem pay91_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk91 (arg1.view.readAt (Elt F) (Rect.unit (s := S8192) (k0_off181 i) S1.size (k0_off181_inb i)).toLoadRect (harg1.unread x0) (Shape.Idx.first (numel1_S1.symm ▸ Nat.one_pos)))) (j : Fin 4096) :
    gatherRun.sl.dma91 c i arg1 harg1 x0 fh hw (ix1 j)
      = (hbM : Memref sig .tc .hbm S16384x4096 .f32).view.read (Elt F) fh (ix2 ⟨(x0 (ix1 ⟨(i 0).val * 128 + 90, tblIdx_lt i 90 (by decide)⟩)).toNat, hx _⟩ j) := by
  unfold gatherRun.sl.dma91
  exact payload_apply x0 hx fh _ _ _ (word_eq arg1 harg1 x0 _ _ _ _ _ (off181_eq i)) _ rfl _ _ _ j

theorem pay92_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk92 (arg1.view.readAt (Elt F) (Rect.unit (s := S8192) (k0_off183 i) S1.size (k0_off183_inb i)).toLoadRect (harg1.unread x0) (Shape.Idx.first (numel1_S1.symm ▸ Nat.one_pos)))) (j : Fin 4096) :
    gatherRun.sl.dma92 c i arg1 harg1 x0 fh hw (ix1 j)
      = (hbM : Memref sig .tc .hbm S16384x4096 .f32).view.read (Elt F) fh (ix2 ⟨(x0 (ix1 ⟨(i 0).val * 128 + 91, tblIdx_lt i 91 (by decide)⟩)).toNat, hx _⟩ j) := by
  unfold gatherRun.sl.dma92
  exact payload_apply x0 hx fh _ _ _ (word_eq arg1 harg1 x0 _ _ _ _ _ (off183_eq i)) _ rfl _ _ _ j

theorem pay93_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk93 (arg1.view.readAt (Elt F) (Rect.unit (s := S8192) (k0_off185 i) S1.size (k0_off185_inb i)).toLoadRect (harg1.unread x0) (Shape.Idx.first (numel1_S1.symm ▸ Nat.one_pos)))) (j : Fin 4096) :
    gatherRun.sl.dma93 c i arg1 harg1 x0 fh hw (ix1 j)
      = (hbM : Memref sig .tc .hbm S16384x4096 .f32).view.read (Elt F) fh (ix2 ⟨(x0 (ix1 ⟨(i 0).val * 128 + 92, tblIdx_lt i 92 (by decide)⟩)).toNat, hx _⟩ j) := by
  unfold gatherRun.sl.dma93
  exact payload_apply x0 hx fh _ _ _ (word_eq arg1 harg1 x0 _ _ _ _ _ (off185_eq i)) _ rfl _ _ _ j

theorem pay94_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk94 (arg1.view.readAt (Elt F) (Rect.unit (s := S8192) (k0_off187 i) S1.size (k0_off187_inb i)).toLoadRect (harg1.unread x0) (Shape.Idx.first (numel1_S1.symm ▸ Nat.one_pos)))) (j : Fin 4096) :
    gatherRun.sl.dma94 c i arg1 harg1 x0 fh hw (ix1 j)
      = (hbM : Memref sig .tc .hbm S16384x4096 .f32).view.read (Elt F) fh (ix2 ⟨(x0 (ix1 ⟨(i 0).val * 128 + 93, tblIdx_lt i 93 (by decide)⟩)).toNat, hx _⟩ j) := by
  unfold gatherRun.sl.dma94
  exact payload_apply x0 hx fh _ _ _ (word_eq arg1 harg1 x0 _ _ _ _ _ (off187_eq i)) _ rfl _ _ _ j

theorem pay95_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk95 (arg1.view.readAt (Elt F) (Rect.unit (s := S8192) (k0_off189 i) S1.size (k0_off189_inb i)).toLoadRect (harg1.unread x0) (Shape.Idx.first (numel1_S1.symm ▸ Nat.one_pos)))) (j : Fin 4096) :
    gatherRun.sl.dma95 c i arg1 harg1 x0 fh hw (ix1 j)
      = (hbM : Memref sig .tc .hbm S16384x4096 .f32).view.read (Elt F) fh (ix2 ⟨(x0 (ix1 ⟨(i 0).val * 128 + 94, tblIdx_lt i 94 (by decide)⟩)).toNat, hx _⟩ j) := by
  unfold gatherRun.sl.dma95
  exact payload_apply x0 hx fh _ _ _ (word_eq arg1 harg1 x0 _ _ _ _ _ (off189_eq i)) _ rfl _ _ _ j

theorem pay96_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk96 (arg1.view.readAt (Elt F) (Rect.unit (s := S8192) (k0_off191 i) S1.size (k0_off191_inb i)).toLoadRect (harg1.unread x0) (Shape.Idx.first (numel1_S1.symm ▸ Nat.one_pos)))) (j : Fin 4096) :
    gatherRun.sl.dma96 c i arg1 harg1 x0 fh hw (ix1 j)
      = (hbM : Memref sig .tc .hbm S16384x4096 .f32).view.read (Elt F) fh (ix2 ⟨(x0 (ix1 ⟨(i 0).val * 128 + 95, tblIdx_lt i 95 (by decide)⟩)).toNat, hx _⟩ j) := by
  unfold gatherRun.sl.dma96
  exact payload_apply x0 hx fh _ _ _ (word_eq arg1 harg1 x0 _ _ _ _ _ (off191_eq i)) _ rfl _ _ _ j

theorem pay97_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk97 (arg1.view.readAt (Elt F) (Rect.unit (s := S8192) (k0_off193 i) S1.size (k0_off193_inb i)).toLoadRect (harg1.unread x0) (Shape.Idx.first (numel1_S1.symm ▸ Nat.one_pos)))) (j : Fin 4096) :
    gatherRun.sl.dma97 c i arg1 harg1 x0 fh hw (ix1 j)
      = (hbM : Memref sig .tc .hbm S16384x4096 .f32).view.read (Elt F) fh (ix2 ⟨(x0 (ix1 ⟨(i 0).val * 128 + 96, tblIdx_lt i 96 (by decide)⟩)).toNat, hx _⟩ j) := by
  unfold gatherRun.sl.dma97
  exact payload_apply x0 hx fh _ _ _ (word_eq arg1 harg1 x0 _ _ _ _ _ (off193_eq i)) _ rfl _ _ _ j

theorem pay98_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk98 (arg1.view.readAt (Elt F) (Rect.unit (s := S8192) (k0_off195 i) S1.size (k0_off195_inb i)).toLoadRect (harg1.unread x0) (Shape.Idx.first (numel1_S1.symm ▸ Nat.one_pos)))) (j : Fin 4096) :
    gatherRun.sl.dma98 c i arg1 harg1 x0 fh hw (ix1 j)
      = (hbM : Memref sig .tc .hbm S16384x4096 .f32).view.read (Elt F) fh (ix2 ⟨(x0 (ix1 ⟨(i 0).val * 128 + 97, tblIdx_lt i 97 (by decide)⟩)).toNat, hx _⟩ j) := by
  unfold gatherRun.sl.dma98
  exact payload_apply x0 hx fh _ _ _ (word_eq arg1 harg1 x0 _ _ _ _ _ (off195_eq i)) _ rfl _ _ _ j

theorem pay99_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk99 (arg1.view.readAt (Elt F) (Rect.unit (s := S8192) (k0_off197 i) S1.size (k0_off197_inb i)).toLoadRect (harg1.unread x0) (Shape.Idx.first (numel1_S1.symm ▸ Nat.one_pos)))) (j : Fin 4096) :
    gatherRun.sl.dma99 c i arg1 harg1 x0 fh hw (ix1 j)
      = (hbM : Memref sig .tc .hbm S16384x4096 .f32).view.read (Elt F) fh (ix2 ⟨(x0 (ix1 ⟨(i 0).val * 128 + 98, tblIdx_lt i 98 (by decide)⟩)).toNat, hx _⟩ j) := by
  unfold gatherRun.sl.dma99
  exact payload_apply x0 hx fh _ _ _ (word_eq arg1 harg1 x0 _ _ _ _ _ (off197_eq i)) _ rfl _ _ _ j

theorem pay100_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk100 (arg1.view.readAt (Elt F) (Rect.unit (s := S8192) (k0_off199 i) S1.size (k0_off199_inb i)).toLoadRect (harg1.unread x0) (Shape.Idx.first (numel1_S1.symm ▸ Nat.one_pos)))) (j : Fin 4096) :
    gatherRun.sl.dma100 c i arg1 harg1 x0 fh hw (ix1 j)
      = (hbM : Memref sig .tc .hbm S16384x4096 .f32).view.read (Elt F) fh (ix2 ⟨(x0 (ix1 ⟨(i 0).val * 128 + 99, tblIdx_lt i 99 (by decide)⟩)).toNat, hx _⟩ j) := by
  unfold gatherRun.sl.dma100
  exact payload_apply x0 hx fh _ _ _ (word_eq arg1 harg1 x0 _ _ _ _ _ (off199_eq i)) _ rfl _ _ _ j

theorem pay101_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk101 (arg1.view.readAt (Elt F) (Rect.unit (s := S8192) (k0_off201 i) S1.size (k0_off201_inb i)).toLoadRect (harg1.unread x0) (Shape.Idx.first (numel1_S1.symm ▸ Nat.one_pos)))) (j : Fin 4096) :
    gatherRun.sl.dma101 c i arg1 harg1 x0 fh hw (ix1 j)
      = (hbM : Memref sig .tc .hbm S16384x4096 .f32).view.read (Elt F) fh (ix2 ⟨(x0 (ix1 ⟨(i 0).val * 128 + 100, tblIdx_lt i 100 (by decide)⟩)).toNat, hx _⟩ j) := by
  unfold gatherRun.sl.dma101
  exact payload_apply x0 hx fh _ _ _ (word_eq arg1 harg1 x0 _ _ _ _ _ (off201_eq i)) _ rfl _ _ _ j

theorem pay102_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk102 (arg1.view.readAt (Elt F) (Rect.unit (s := S8192) (k0_off203 i) S1.size (k0_off203_inb i)).toLoadRect (harg1.unread x0) (Shape.Idx.first (numel1_S1.symm ▸ Nat.one_pos)))) (j : Fin 4096) :
    gatherRun.sl.dma102 c i arg1 harg1 x0 fh hw (ix1 j)
      = (hbM : Memref sig .tc .hbm S16384x4096 .f32).view.read (Elt F) fh (ix2 ⟨(x0 (ix1 ⟨(i 0).val * 128 + 101, tblIdx_lt i 101 (by decide)⟩)).toNat, hx _⟩ j) := by
  unfold gatherRun.sl.dma102
  exact payload_apply x0 hx fh _ _ _ (word_eq arg1 harg1 x0 _ _ _ _ _ (off203_eq i)) _ rfl _ _ _ j

theorem pay103_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk103 (arg1.view.readAt (Elt F) (Rect.unit (s := S8192) (k0_off205 i) S1.size (k0_off205_inb i)).toLoadRect (harg1.unread x0) (Shape.Idx.first (numel1_S1.symm ▸ Nat.one_pos)))) (j : Fin 4096) :
    gatherRun.sl.dma103 c i arg1 harg1 x0 fh hw (ix1 j)
      = (hbM : Memref sig .tc .hbm S16384x4096 .f32).view.read (Elt F) fh (ix2 ⟨(x0 (ix1 ⟨(i 0).val * 128 + 102, tblIdx_lt i 102 (by decide)⟩)).toNat, hx _⟩ j) := by
  unfold gatherRun.sl.dma103
  exact payload_apply x0 hx fh _ _ _ (word_eq arg1 harg1 x0 _ _ _ _ _ (off205_eq i)) _ rfl _ _ _ j

theorem pay104_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk104 (arg1.view.readAt (Elt F) (Rect.unit (s := S8192) (k0_off207 i) S1.size (k0_off207_inb i)).toLoadRect (harg1.unread x0) (Shape.Idx.first (numel1_S1.symm ▸ Nat.one_pos)))) (j : Fin 4096) :
    gatherRun.sl.dma104 c i arg1 harg1 x0 fh hw (ix1 j)
      = (hbM : Memref sig .tc .hbm S16384x4096 .f32).view.read (Elt F) fh (ix2 ⟨(x0 (ix1 ⟨(i 0).val * 128 + 103, tblIdx_lt i 103 (by decide)⟩)).toNat, hx _⟩ j) := by
  unfold gatherRun.sl.dma104
  exact payload_apply x0 hx fh _ _ _ (word_eq arg1 harg1 x0 _ _ _ _ _ (off207_eq i)) _ rfl _ _ _ j

theorem pay105_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk105 (arg1.view.readAt (Elt F) (Rect.unit (s := S8192) (k0_off209 i) S1.size (k0_off209_inb i)).toLoadRect (harg1.unread x0) (Shape.Idx.first (numel1_S1.symm ▸ Nat.one_pos)))) (j : Fin 4096) :
    gatherRun.sl.dma105 c i arg1 harg1 x0 fh hw (ix1 j)
      = (hbM : Memref sig .tc .hbm S16384x4096 .f32).view.read (Elt F) fh (ix2 ⟨(x0 (ix1 ⟨(i 0).val * 128 + 104, tblIdx_lt i 104 (by decide)⟩)).toNat, hx _⟩ j) := by
  unfold gatherRun.sl.dma105
  exact payload_apply x0 hx fh _ _ _ (word_eq arg1 harg1 x0 _ _ _ _ _ (off209_eq i)) _ rfl _ _ _ j

theorem pay106_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk106 (arg1.view.readAt (Elt F) (Rect.unit (s := S8192) (k0_off211 i) S1.size (k0_off211_inb i)).toLoadRect (harg1.unread x0) (Shape.Idx.first (numel1_S1.symm ▸ Nat.one_pos)))) (j : Fin 4096) :
    gatherRun.sl.dma106 c i arg1 harg1 x0 fh hw (ix1 j)
      = (hbM : Memref sig .tc .hbm S16384x4096 .f32).view.read (Elt F) fh (ix2 ⟨(x0 (ix1 ⟨(i 0).val * 128 + 105, tblIdx_lt i 105 (by decide)⟩)).toNat, hx _⟩ j) := by
  unfold gatherRun.sl.dma106
  exact payload_apply x0 hx fh _ _ _ (word_eq arg1 harg1 x0 _ _ _ _ _ (off211_eq i)) _ rfl _ _ _ j

theorem pay107_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk107 (arg1.view.readAt (Elt F) (Rect.unit (s := S8192) (k0_off213 i) S1.size (k0_off213_inb i)).toLoadRect (harg1.unread x0) (Shape.Idx.first (numel1_S1.symm ▸ Nat.one_pos)))) (j : Fin 4096) :
    gatherRun.sl.dma107 c i arg1 harg1 x0 fh hw (ix1 j)
      = (hbM : Memref sig .tc .hbm S16384x4096 .f32).view.read (Elt F) fh (ix2 ⟨(x0 (ix1 ⟨(i 0).val * 128 + 106, tblIdx_lt i 106 (by decide)⟩)).toNat, hx _⟩ j) := by
  unfold gatherRun.sl.dma107
  exact payload_apply x0 hx fh _ _ _ (word_eq arg1 harg1 x0 _ _ _ _ _ (off213_eq i)) _ rfl _ _ _ j

theorem pay108_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk108 (arg1.view.readAt (Elt F) (Rect.unit (s := S8192) (k0_off215 i) S1.size (k0_off215_inb i)).toLoadRect (harg1.unread x0) (Shape.Idx.first (numel1_S1.symm ▸ Nat.one_pos)))) (j : Fin 4096) :
    gatherRun.sl.dma108 c i arg1 harg1 x0 fh hw (ix1 j)
      = (hbM : Memref sig .tc .hbm S16384x4096 .f32).view.read (Elt F) fh (ix2 ⟨(x0 (ix1 ⟨(i 0).val * 128 + 107, tblIdx_lt i 107 (by decide)⟩)).toNat, hx _⟩ j) := by
  unfold gatherRun.sl.dma108
  exact payload_apply x0 hx fh _ _ _ (word_eq arg1 harg1 x0 _ _ _ _ _ (off215_eq i)) _ rfl _ _ _ j

theorem pay109_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk109 (arg1.view.readAt (Elt F) (Rect.unit (s := S8192) (k0_off217 i) S1.size (k0_off217_inb i)).toLoadRect (harg1.unread x0) (Shape.Idx.first (numel1_S1.symm ▸ Nat.one_pos)))) (j : Fin 4096) :
    gatherRun.sl.dma109 c i arg1 harg1 x0 fh hw (ix1 j)
      = (hbM : Memref sig .tc .hbm S16384x4096 .f32).view.read (Elt F) fh (ix2 ⟨(x0 (ix1 ⟨(i 0).val * 128 + 108, tblIdx_lt i 108 (by decide)⟩)).toNat, hx _⟩ j) := by
  unfold gatherRun.sl.dma109
  exact payload_apply x0 hx fh _ _ _ (word_eq arg1 harg1 x0 _ _ _ _ _ (off217_eq i)) _ rfl _ _ _ j

theorem pay110_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk110 (arg1.view.readAt (Elt F) (Rect.unit (s := S8192) (k0_off219 i) S1.size (k0_off219_inb i)).toLoadRect (harg1.unread x0) (Shape.Idx.first (numel1_S1.symm ▸ Nat.one_pos)))) (j : Fin 4096) :
    gatherRun.sl.dma110 c i arg1 harg1 x0 fh hw (ix1 j)
      = (hbM : Memref sig .tc .hbm S16384x4096 .f32).view.read (Elt F) fh (ix2 ⟨(x0 (ix1 ⟨(i 0).val * 128 + 109, tblIdx_lt i 109 (by decide)⟩)).toNat, hx _⟩ j) := by
  unfold gatherRun.sl.dma110
  exact payload_apply x0 hx fh _ _ _ (word_eq arg1 harg1 x0 _ _ _ _ _ (off219_eq i)) _ rfl _ _ _ j

theorem pay111_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk111 (arg1.view.readAt (Elt F) (Rect.unit (s := S8192) (k0_off221 i) S1.size (k0_off221_inb i)).toLoadRect (harg1.unread x0) (Shape.Idx.first (numel1_S1.symm ▸ Nat.one_pos)))) (j : Fin 4096) :
    gatherRun.sl.dma111 c i arg1 harg1 x0 fh hw (ix1 j)
      = (hbM : Memref sig .tc .hbm S16384x4096 .f32).view.read (Elt F) fh (ix2 ⟨(x0 (ix1 ⟨(i 0).val * 128 + 110, tblIdx_lt i 110 (by decide)⟩)).toNat, hx _⟩ j) := by
  unfold gatherRun.sl.dma111
  exact payload_apply x0 hx fh _ _ _ (word_eq arg1 harg1 x0 _ _ _ _ _ (off221_eq i)) _ rfl _ _ _ j

theorem pay112_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk112 (arg1.view.readAt (Elt F) (Rect.unit (s := S8192) (k0_off223 i) S1.size (k0_off223_inb i)).toLoadRect (harg1.unread x0) (Shape.Idx.first (numel1_S1.symm ▸ Nat.one_pos)))) (j : Fin 4096) :
    gatherRun.sl.dma112 c i arg1 harg1 x0 fh hw (ix1 j)
      = (hbM : Memref sig .tc .hbm S16384x4096 .f32).view.read (Elt F) fh (ix2 ⟨(x0 (ix1 ⟨(i 0).val * 128 + 111, tblIdx_lt i 111 (by decide)⟩)).toNat, hx _⟩ j) := by
  unfold gatherRun.sl.dma112
  exact payload_apply x0 hx fh _ _ _ (word_eq arg1 harg1 x0 _ _ _ _ _ (off223_eq i)) _ rfl _ _ _ j

theorem pay113_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk113 (arg1.view.readAt (Elt F) (Rect.unit (s := S8192) (k0_off225 i) S1.size (k0_off225_inb i)).toLoadRect (harg1.unread x0) (Shape.Idx.first (numel1_S1.symm ▸ Nat.one_pos)))) (j : Fin 4096) :
    gatherRun.sl.dma113 c i arg1 harg1 x0 fh hw (ix1 j)
      = (hbM : Memref sig .tc .hbm S16384x4096 .f32).view.read (Elt F) fh (ix2 ⟨(x0 (ix1 ⟨(i 0).val * 128 + 112, tblIdx_lt i 112 (by decide)⟩)).toNat, hx _⟩ j) := by
  unfold gatherRun.sl.dma113
  exact payload_apply x0 hx fh _ _ _ (word_eq arg1 harg1 x0 _ _ _ _ _ (off225_eq i)) _ rfl _ _ _ j

theorem pay114_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk114 (arg1.view.readAt (Elt F) (Rect.unit (s := S8192) (k0_off227 i) S1.size (k0_off227_inb i)).toLoadRect (harg1.unread x0) (Shape.Idx.first (numel1_S1.symm ▸ Nat.one_pos)))) (j : Fin 4096) :
    gatherRun.sl.dma114 c i arg1 harg1 x0 fh hw (ix1 j)
      = (hbM : Memref sig .tc .hbm S16384x4096 .f32).view.read (Elt F) fh (ix2 ⟨(x0 (ix1 ⟨(i 0).val * 128 + 113, tblIdx_lt i 113 (by decide)⟩)).toNat, hx _⟩ j) := by
  unfold gatherRun.sl.dma114
  exact payload_apply x0 hx fh _ _ _ (word_eq arg1 harg1 x0 _ _ _ _ _ (off227_eq i)) _ rfl _ _ _ j

theorem pay115_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk115 (arg1.view.readAt (Elt F) (Rect.unit (s := S8192) (k0_off229 i) S1.size (k0_off229_inb i)).toLoadRect (harg1.unread x0) (Shape.Idx.first (numel1_S1.symm ▸ Nat.one_pos)))) (j : Fin 4096) :
    gatherRun.sl.dma115 c i arg1 harg1 x0 fh hw (ix1 j)
      = (hbM : Memref sig .tc .hbm S16384x4096 .f32).view.read (Elt F) fh (ix2 ⟨(x0 (ix1 ⟨(i 0).val * 128 + 114, tblIdx_lt i 114 (by decide)⟩)).toNat, hx _⟩ j) := by
  unfold gatherRun.sl.dma115
  exact payload_apply x0 hx fh _ _ _ (word_eq arg1 harg1 x0 _ _ _ _ _ (off229_eq i)) _ rfl _ _ _ j

theorem pay116_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk116 (arg1.view.readAt (Elt F) (Rect.unit (s := S8192) (k0_off231 i) S1.size (k0_off231_inb i)).toLoadRect (harg1.unread x0) (Shape.Idx.first (numel1_S1.symm ▸ Nat.one_pos)))) (j : Fin 4096) :
    gatherRun.sl.dma116 c i arg1 harg1 x0 fh hw (ix1 j)
      = (hbM : Memref sig .tc .hbm S16384x4096 .f32).view.read (Elt F) fh (ix2 ⟨(x0 (ix1 ⟨(i 0).val * 128 + 115, tblIdx_lt i 115 (by decide)⟩)).toNat, hx _⟩ j) := by
  unfold gatherRun.sl.dma116
  exact payload_apply x0 hx fh _ _ _ (word_eq arg1 harg1 x0 _ _ _ _ _ (off231_eq i)) _ rfl _ _ _ j

theorem pay117_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk117 (arg1.view.readAt (Elt F) (Rect.unit (s := S8192) (k0_off233 i) S1.size (k0_off233_inb i)).toLoadRect (harg1.unread x0) (Shape.Idx.first (numel1_S1.symm ▸ Nat.one_pos)))) (j : Fin 4096) :
    gatherRun.sl.dma117 c i arg1 harg1 x0 fh hw (ix1 j)
      = (hbM : Memref sig .tc .hbm S16384x4096 .f32).view.read (Elt F) fh (ix2 ⟨(x0 (ix1 ⟨(i 0).val * 128 + 116, tblIdx_lt i 116 (by decide)⟩)).toNat, hx _⟩ j) := by
  unfold gatherRun.sl.dma117
  exact payload_apply x0 hx fh _ _ _ (word_eq arg1 harg1 x0 _ _ _ _ _ (off233_eq i)) _ rfl _ _ _ j

theorem pay118_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk118 (arg1.view.readAt (Elt F) (Rect.unit (s := S8192) (k0_off235 i) S1.size (k0_off235_inb i)).toLoadRect (harg1.unread x0) (Shape.Idx.first (numel1_S1.symm ▸ Nat.one_pos)))) (j : Fin 4096) :
    gatherRun.sl.dma118 c i arg1 harg1 x0 fh hw (ix1 j)
      = (hbM : Memref sig .tc .hbm S16384x4096 .f32).view.read (Elt F) fh (ix2 ⟨(x0 (ix1 ⟨(i 0).val * 128 + 117, tblIdx_lt i 117 (by decide)⟩)).toNat, hx _⟩ j) := by
  unfold gatherRun.sl.dma118
  exact payload_apply x0 hx fh _ _ _ (word_eq arg1 harg1 x0 _ _ _ _ _ (off235_eq i)) _ rfl _ _ _ j

theorem pay119_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk119 (arg1.view.readAt (Elt F) (Rect.unit (s := S8192) (k0_off237 i) S1.size (k0_off237_inb i)).toLoadRect (harg1.unread x0) (Shape.Idx.first (numel1_S1.symm ▸ Nat.one_pos)))) (j : Fin 4096) :
    gatherRun.sl.dma119 c i arg1 harg1 x0 fh hw (ix1 j)
      = (hbM : Memref sig .tc .hbm S16384x4096 .f32).view.read (Elt F) fh (ix2 ⟨(x0 (ix1 ⟨(i 0).val * 128 + 118, tblIdx_lt i 118 (by decide)⟩)).toNat, hx _⟩ j) := by
  unfold gatherRun.sl.dma119
  exact payload_apply x0 hx fh _ _ _ (word_eq arg1 harg1 x0 _ _ _ _ _ (off237_eq i)) _ rfl _ _ _ j

theorem pay120_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk120 (arg1.view.readAt (Elt F) (Rect.unit (s := S8192) (k0_off239 i) S1.size (k0_off239_inb i)).toLoadRect (harg1.unread x0) (Shape.Idx.first (numel1_S1.symm ▸ Nat.one_pos)))) (j : Fin 4096) :
    gatherRun.sl.dma120 c i arg1 harg1 x0 fh hw (ix1 j)
      = (hbM : Memref sig .tc .hbm S16384x4096 .f32).view.read (Elt F) fh (ix2 ⟨(x0 (ix1 ⟨(i 0).val * 128 + 119, tblIdx_lt i 119 (by decide)⟩)).toNat, hx _⟩ j) := by
  unfold gatherRun.sl.dma120
  exact payload_apply x0 hx fh _ _ _ (word_eq arg1 harg1 x0 _ _ _ _ _ (off239_eq i)) _ rfl _ _ _ j

theorem pay121_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk121 (arg1.view.readAt (Elt F) (Rect.unit (s := S8192) (k0_off241 i) S1.size (k0_off241_inb i)).toLoadRect (harg1.unread x0) (Shape.Idx.first (numel1_S1.symm ▸ Nat.one_pos)))) (j : Fin 4096) :
    gatherRun.sl.dma121 c i arg1 harg1 x0 fh hw (ix1 j)
      = (hbM : Memref sig .tc .hbm S16384x4096 .f32).view.read (Elt F) fh (ix2 ⟨(x0 (ix1 ⟨(i 0).val * 128 + 120, tblIdx_lt i 120 (by decide)⟩)).toNat, hx _⟩ j) := by
  unfold gatherRun.sl.dma121
  exact payload_apply x0 hx fh _ _ _ (word_eq arg1 harg1 x0 _ _ _ _ _ (off241_eq i)) _ rfl _ _ _ j

theorem pay122_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk122 (arg1.view.readAt (Elt F) (Rect.unit (s := S8192) (k0_off243 i) S1.size (k0_off243_inb i)).toLoadRect (harg1.unread x0) (Shape.Idx.first (numel1_S1.symm ▸ Nat.one_pos)))) (j : Fin 4096) :
    gatherRun.sl.dma122 c i arg1 harg1 x0 fh hw (ix1 j)
      = (hbM : Memref sig .tc .hbm S16384x4096 .f32).view.read (Elt F) fh (ix2 ⟨(x0 (ix1 ⟨(i 0).val * 128 + 121, tblIdx_lt i 121 (by decide)⟩)).toNat, hx _⟩ j) := by
  unfold gatherRun.sl.dma122
  exact payload_apply x0 hx fh _ _ _ (word_eq arg1 harg1 x0 _ _ _ _ _ (off243_eq i)) _ rfl _ _ _ j

theorem pay123_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk123 (arg1.view.readAt (Elt F) (Rect.unit (s := S8192) (k0_off245 i) S1.size (k0_off245_inb i)).toLoadRect (harg1.unread x0) (Shape.Idx.first (numel1_S1.symm ▸ Nat.one_pos)))) (j : Fin 4096) :
    gatherRun.sl.dma123 c i arg1 harg1 x0 fh hw (ix1 j)
      = (hbM : Memref sig .tc .hbm S16384x4096 .f32).view.read (Elt F) fh (ix2 ⟨(x0 (ix1 ⟨(i 0).val * 128 + 122, tblIdx_lt i 122 (by decide)⟩)).toNat, hx _⟩ j) := by
  unfold gatherRun.sl.dma123
  exact payload_apply x0 hx fh _ _ _ (word_eq arg1 harg1 x0 _ _ _ _ _ (off245_eq i)) _ rfl _ _ _ j

theorem pay124_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk124 (arg1.view.readAt (Elt F) (Rect.unit (s := S8192) (k0_off247 i) S1.size (k0_off247_inb i)).toLoadRect (harg1.unread x0) (Shape.Idx.first (numel1_S1.symm ▸ Nat.one_pos)))) (j : Fin 4096) :
    gatherRun.sl.dma124 c i arg1 harg1 x0 fh hw (ix1 j)
      = (hbM : Memref sig .tc .hbm S16384x4096 .f32).view.read (Elt F) fh (ix2 ⟨(x0 (ix1 ⟨(i 0).val * 128 + 123, tblIdx_lt i 123 (by decide)⟩)).toNat, hx _⟩ j) := by
  unfold gatherRun.sl.dma124
  exact payload_apply x0 hx fh _ _ _ (word_eq arg1 harg1 x0 _ _ _ _ _ (off247_eq i)) _ rfl _ _ _ j

theorem pay125_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk125 (arg1.view.readAt (Elt F) (Rect.unit (s := S8192) (k0_off249 i) S1.size (k0_off249_inb i)).toLoadRect (harg1.unread x0) (Shape.Idx.first (numel1_S1.symm ▸ Nat.one_pos)))) (j : Fin 4096) :
    gatherRun.sl.dma125 c i arg1 harg1 x0 fh hw (ix1 j)
      = (hbM : Memref sig .tc .hbm S16384x4096 .f32).view.read (Elt F) fh (ix2 ⟨(x0 (ix1 ⟨(i 0).val * 128 + 124, tblIdx_lt i 124 (by decide)⟩)).toNat, hx _⟩ j) := by
  unfold gatherRun.sl.dma125
  exact payload_apply x0 hx fh _ _ _ (word_eq arg1 harg1 x0 _ _ _ _ _ (off249_eq i)) _ rfl _ _ _ j

theorem pay126_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk126 (arg1.view.readAt (Elt F) (Rect.unit (s := S8192) (k0_off251 i) S1.size (k0_off251_inb i)).toLoadRect (harg1.unread x0) (Shape.Idx.first (numel1_S1.symm ▸ Nat.one_pos)))) (j : Fin 4096) :
    gatherRun.sl.dma126 c i arg1 harg1 x0 fh hw (ix1 j)
      = (hbM : Memref sig .tc .hbm S16384x4096 .f32).view.read (Elt F) fh (ix2 ⟨(x0 (ix1 ⟨(i 0).val * 128 + 125, tblIdx_lt i 125 (by decide)⟩)).toNat, hx _⟩ j) := by
  unfold gatherRun.sl.dma126
  exact payload_apply x0 hx fh _ _ _ (word_eq arg1 harg1 x0 _ _ _ _ _ (off251_eq i)) _ rfl _ _ _ j

theorem pay127_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk127 (arg1.view.readAt (Elt F) (Rect.unit (s := S8192) (k0_off253 i) S1.size (k0_off253_inb i)).toLoadRect (harg1.unread x0) (Shape.Idx.first (numel1_S1.symm ▸ Nat.one_pos)))) (j : Fin 4096) :
    gatherRun.sl.dma127 c i arg1 harg1 x0 fh hw (ix1 j)
      = (hbM : Memref sig .tc .hbm S16384x4096 .f32).view.read (Elt F) fh (ix2 ⟨(x0 (ix1 ⟨(i 0).val * 128 + 126, tblIdx_lt i 126 (by decide)⟩)).toNat, hx _⟩ j) := by
  unfold gatherRun.sl.dma127
  exact payload_apply x0 hx fh _ _ _ (word_eq arg1 harg1 x0 _ _ _ _ _ (off253_eq i)) _ rfl _ _ _ j

theorem pay128_apply (c : Dev nD) (i : grid0.Coords) (arg1 : Memref sig .tc .smem S8192 .i32) (harg1 : arg1.IsWhole)
    (x0 : Vec F S8192 .i32) (hx : ∀ k : S8192.Idx, (x0 k).toNat < 16384) (fh : HbBuf (F := F) c hbM)
    (hw : k0_chk128 (arg1.view.readAt (Elt F) (Rect.unit (s := S8192) (k0_off255 i) S1.size (k0_off255_inb i)).toLoadRect (harg1.unread x0) (Shape.Idx.first (numel1_S1.symm ▸ Nat.one_pos)))) (j : Fin 4096) :
    gatherRun.sl.dma128 c i arg1 harg1 x0 fh hw (ix1 j)
      = (hbM : Memref sig .tc .hbm S16384x4096 .f32).view.read (Elt F) fh (ix2 ⟨(x0 (ix1 ⟨(i 0).val * 128 + 127, tblIdx_lt i 127 (by decide)⟩)).toNat, hx _⟩ j) := by
  unfold gatherRun.sl.dma128
  exact payload_apply x0 hx fh _ _ _ (word_eq arg1 harg1 x0 _ _ _ _ _ (off255_eq i)) _ rfl _ _ _ j

/-! ## A property of every entry of a 128-vector, entry by entry -/

set_option maxHeartbeats 4000000 in
/-- A property that holds of each of the 128 listed entries at its own index holds of the vector at every index. -/
theorem forall_vec128 {α : Type} (P : Fin 128 → α → Prop) (a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 a50 a51 a52 a53 a54 a55 a56 a57 a58 a59 a60 a61 a62 a63 a64 a65 a66 a67 a68 a69 a70 a71 a72 a73 a74 a75 a76 a77 a78 a79 a80 a81 a82 a83 a84 a85 a86 a87 a88 a89 a90 a91 a92 a93 a94 a95 a96 a97 a98 a99 a100 a101 a102 a103 a104 a105 a106 a107 a108 a109 a110 a111 a112 a113 a114 a115 a116 a117 a118 a119 a120 a121 a122 a123 a124 a125 a126 a127 : α)
    (h0 : P ⟨0, by decide⟩ a0)
    (h1 : P ⟨1, by decide⟩ a1)
    (h2 : P ⟨2, by decide⟩ a2)
    (h3 : P ⟨3, by decide⟩ a3)
    (h4 : P ⟨4, by decide⟩ a4)
    (h5 : P ⟨5, by decide⟩ a5)
    (h6 : P ⟨6, by decide⟩ a6)
    (h7 : P ⟨7, by decide⟩ a7)
    (h8 : P ⟨8, by decide⟩ a8)
    (h9 : P ⟨9, by decide⟩ a9)
    (h10 : P ⟨10, by decide⟩ a10)
    (h11 : P ⟨11, by decide⟩ a11)
    (h12 : P ⟨12, by decide⟩ a12)
    (h13 : P ⟨13, by decide⟩ a13)
    (h14 : P ⟨14, by decide⟩ a14)
    (h15 : P ⟨15, by decide⟩ a15)
    (h16 : P ⟨16, by decide⟩ a16)
    (h17 : P ⟨17, by decide⟩ a17)
    (h18 : P ⟨18, by decide⟩ a18)
    (h19 : P ⟨19, by decide⟩ a19)
    (h20 : P ⟨20, by decide⟩ a20)
    (h21 : P ⟨21, by decide⟩ a21)
    (h22 : P ⟨22, by decide⟩ a22)
    (h23 : P ⟨23, by decide⟩ a23)
    (h24 : P ⟨24, by decide⟩ a24)
    (h25 : P ⟨25, by decide⟩ a25)
    (h26 : P ⟨26, by decide⟩ a26)
    (h27 : P ⟨27, by decide⟩ a27)
    (h28 : P ⟨28, by decide⟩ a28)
    (h29 : P ⟨29, by decide⟩ a29)
    (h30 : P ⟨30, by decide⟩ a30)
    (h31 : P ⟨31, by decide⟩ a31)
    (h32 : P ⟨32, by decide⟩ a32)
    (h33 : P ⟨33, by decide⟩ a33)
    (h34 : P ⟨34, by decide⟩ a34)
    (h35 : P ⟨35, by decide⟩ a35)
    (h36 : P ⟨36, by decide⟩ a36)
    (h37 : P ⟨37, by decide⟩ a37)
    (h38 : P ⟨38, by decide⟩ a38)
    (h39 : P ⟨39, by decide⟩ a39)
    (h40 : P ⟨40, by decide⟩ a40)
    (h41 : P ⟨41, by decide⟩ a41)
    (h42 : P ⟨42, by decide⟩ a42)
    (h43 : P ⟨43, by decide⟩ a43)
    (h44 : P ⟨44, by decide⟩ a44)
    (h45 : P ⟨45, by decide⟩ a45)
    (h46 : P ⟨46, by decide⟩ a46)
    (h47 : P ⟨47, by decide⟩ a47)
    (h48 : P ⟨48, by decide⟩ a48)
    (h49 : P ⟨49, by decide⟩ a49)
    (h50 : P ⟨50, by decide⟩ a50)
    (h51 : P ⟨51, by decide⟩ a51)
    (h52 : P ⟨52, by decide⟩ a52)
    (h53 : P ⟨53, by decide⟩ a53)
    (h54 : P ⟨54, by decide⟩ a54)
    (h55 : P ⟨55, by decide⟩ a55)
    (h56 : P ⟨56, by decide⟩ a56)
    (h57 : P ⟨57, by decide⟩ a57)
    (h58 : P ⟨58, by decide⟩ a58)
    (h59 : P ⟨59, by decide⟩ a59)
    (h60 : P ⟨60, by decide⟩ a60)
    (h61 : P ⟨61, by decide⟩ a61)
    (h62 : P ⟨62, by decide⟩ a62)
    (h63 : P ⟨63, by decide⟩ a63)
    (h64 : P ⟨64, by decide⟩ a64)
    (h65 : P ⟨65, by decide⟩ a65)
    (h66 : P ⟨66, by decide⟩ a66)
    (h67 : P ⟨67, by decide⟩ a67)
    (h68 : P ⟨68, by decide⟩ a68)
    (h69 : P ⟨69, by decide⟩ a69)
    (h70 : P ⟨70, by decide⟩ a70)
    (h71 : P ⟨71, by decide⟩ a71)
    (h72 : P ⟨72, by decide⟩ a72)
    (h73 : P ⟨73, by decide⟩ a73)
    (h74 : P ⟨74, by decide⟩ a74)
    (h75 : P ⟨75, by decide⟩ a75)
    (h76 : P ⟨76, by decide⟩ a76)
    (h77 : P ⟨77, by decide⟩ a77)
    (h78 : P ⟨78, by decide⟩ a78)
    (h79 : P ⟨79, by decide⟩ a79)
    (h80 : P ⟨80, by decide⟩ a80)
    (h81 : P ⟨81, by decide⟩ a81)
    (h82 : P ⟨82, by decide⟩ a82)
    (h83 : P ⟨83, by decide⟩ a83)
    (h84 : P ⟨84, by decide⟩ a84)
    (h85 : P ⟨85, by decide⟩ a85)
    (h86 : P ⟨86, by decide⟩ a86)
    (h87 : P ⟨87, by decide⟩ a87)
    (h88 : P ⟨88, by decide⟩ a88)
    (h89 : P ⟨89, by decide⟩ a89)
    (h90 : P ⟨90, by decide⟩ a90)
    (h91 : P ⟨91, by decide⟩ a91)
    (h92 : P ⟨92, by decide⟩ a92)
    (h93 : P ⟨93, by decide⟩ a93)
    (h94 : P ⟨94, by decide⟩ a94)
    (h95 : P ⟨95, by decide⟩ a95)
    (h96 : P ⟨96, by decide⟩ a96)
    (h97 : P ⟨97, by decide⟩ a97)
    (h98 : P ⟨98, by decide⟩ a98)
    (h99 : P ⟨99, by decide⟩ a99)
    (h100 : P ⟨100, by decide⟩ a100)
    (h101 : P ⟨101, by decide⟩ a101)
    (h102 : P ⟨102, by decide⟩ a102)
    (h103 : P ⟨103, by decide⟩ a103)
    (h104 : P ⟨104, by decide⟩ a104)
    (h105 : P ⟨105, by decide⟩ a105)
    (h106 : P ⟨106, by decide⟩ a106)
    (h107 : P ⟨107, by decide⟩ a107)
    (h108 : P ⟨108, by decide⟩ a108)
    (h109 : P ⟨109, by decide⟩ a109)
    (h110 : P ⟨110, by decide⟩ a110)
    (h111 : P ⟨111, by decide⟩ a111)
    (h112 : P ⟨112, by decide⟩ a112)
    (h113 : P ⟨113, by decide⟩ a113)
    (h114 : P ⟨114, by decide⟩ a114)
    (h115 : P ⟨115, by decide⟩ a115)
    (h116 : P ⟨116, by decide⟩ a116)
    (h117 : P ⟨117, by decide⟩ a117)
    (h118 : P ⟨118, by decide⟩ a118)
    (h119 : P ⟨119, by decide⟩ a119)
    (h120 : P ⟨120, by decide⟩ a120)
    (h121 : P ⟨121, by decide⟩ a121)
    (h122 : P ⟨122, by decide⟩ a122)
    (h123 : P ⟨123, by decide⟩ a123)
    (h124 : P ⟨124, by decide⟩ a124)
    (h125 : P ⟨125, by decide⟩ a125)
    (h126 : P ⟨126, by decide⟩ a126)
    (h127 : P ⟨127, by decide⟩ a127)
    (r : Fin 128) : P r ((![a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41, a42, a43, a44, a45, a46, a47, a48, a49, a50, a51, a52, a53, a54, a55, a56, a57, a58, a59, a60, a61, a62, a63, a64, a65, a66, a67, a68, a69, a70, a71, a72, a73, a74, a75, a76, a77, a78, a79, a80, a81, a82, a83, a84, a85, a86, a87, a88, a89, a90, a91, a92, a93, a94, a95, a96, a97, a98, a99, a100, a101, a102, a103, a104, a105, a106, a107, a108, a109, a110, a111, a112, a113, a114, a115, a116, a117, a118, a119, a120, a121, a122, a123, a124, a125, a126, a127] : Fin 128 → α) r) := by
  match r with
  | ⟨0, _⟩ => exact h0
  | ⟨1, _⟩ => exact h1
  | ⟨2, _⟩ => exact h2
  | ⟨3, _⟩ => exact h3
  | ⟨4, _⟩ => exact h4
  | ⟨5, _⟩ => exact h5
  | ⟨6, _⟩ => exact h6
  | ⟨7, _⟩ => exact h7
  | ⟨8, _⟩ => exact h8
  | ⟨9, _⟩ => exact h9
  | ⟨10, _⟩ => exact h10
  | ⟨11, _⟩ => exact h11
  | ⟨12, _⟩ => exact h12
  | ⟨13, _⟩ => exact h13
  | ⟨14, _⟩ => exact h14
  | ⟨15, _⟩ => exact h15
  | ⟨16, _⟩ => exact h16
  | ⟨17, _⟩ => exact h17
  | ⟨18, _⟩ => exact h18
  | ⟨19, _⟩ => exact h19
  | ⟨20, _⟩ => exact h20
  | ⟨21, _⟩ => exact h21
  | ⟨22, _⟩ => exact h22
  | ⟨23, _⟩ => exact h23
  | ⟨24, _⟩ => exact h24
  | ⟨25, _⟩ => exact h25
  | ⟨26, _⟩ => exact h26
  | ⟨27, _⟩ => exact h27
  | ⟨28, _⟩ => exact h28
  | ⟨29, _⟩ => exact h29
  | ⟨30, _⟩ => exact h30
  | ⟨31, _⟩ => exact h31
  | ⟨32, _⟩ => exact h32
  | ⟨33, _⟩ => exact h33
  | ⟨34, _⟩ => exact h34
  | ⟨35, _⟩ => exact h35
  | ⟨36, _⟩ => exact h36
  | ⟨37, _⟩ => exact h37
  | ⟨38, _⟩ => exact h38
  | ⟨39, _⟩ => exact h39
  | ⟨40, _⟩ => exact h40
  | ⟨41, _⟩ => exact h41
  | ⟨42, _⟩ => exact h42
  | ⟨43, _⟩ => exact h43
  | ⟨44, _⟩ => exact h44
  | ⟨45, _⟩ => exact h45
  | ⟨46, _⟩ => exact h46
  | ⟨47, _⟩ => exact h47
  | ⟨48, _⟩ => exact h48
  | ⟨49, _⟩ => exact h49
  | ⟨50, _⟩ => exact h50
  | ⟨51, _⟩ => exact h51
  | ⟨52, _⟩ => exact h52
  | ⟨53, _⟩ => exact h53
  | ⟨54, _⟩ => exact h54
  | ⟨55, _⟩ => exact h55
  | ⟨56, _⟩ => exact h56
  | ⟨57, _⟩ => exact h57
  | ⟨58, _⟩ => exact h58
  | ⟨59, _⟩ => exact h59
  | ⟨60, _⟩ => exact h60
  | ⟨61, _⟩ => exact h61
  | ⟨62, _⟩ => exact h62
  | ⟨63, _⟩ => exact h63
  | ⟨64, _⟩ => exact h64
  | ⟨65, _⟩ => exact h65
  | ⟨66, _⟩ => exact h66
  | ⟨67, _⟩ => exact h67
  | ⟨68, _⟩ => exact h68
  | ⟨69, _⟩ => exact h69
  | ⟨70, _⟩ => exact h70
  | ⟨71, _⟩ => exact h71
  | ⟨72, _⟩ => exact h72
  | ⟨73, _⟩ => exact h73
  | ⟨74, _⟩ => exact h74
  | ⟨75, _⟩ => exact h75
  | ⟨76, _⟩ => exact h76
  | ⟨77, _⟩ => exact h77
  | ⟨78, _⟩ => exact h78
  | ⟨79, _⟩ => exact h79
  | ⟨80, _⟩ => exact h80
  | ⟨81, _⟩ => exact h81
  | ⟨82, _⟩ => exact h82
  | ⟨83, _⟩ => exact h83
  | ⟨84, _⟩ => exact h84
  | ⟨85, _⟩ => exact h85
  | ⟨86, _⟩ => exact h86
  | ⟨87, _⟩ => exact h87
  | ⟨88, _⟩ => exact h88
  | ⟨89, _⟩ => exact h89
  | ⟨90, _⟩ => exact h90
  | ⟨91, _⟩ => exact h91
  | ⟨92, _⟩ => exact h92
  | ⟨93, _⟩ => exact h93
  | ⟨94, _⟩ => exact h94
  | ⟨95, _⟩ => exact h95
  | ⟨96, _⟩ => exact h96
  | ⟨97, _⟩ => exact h97
  | ⟨98, _⟩ => exact h98
  | ⟨99, _⟩ => exact h99
  | ⟨100, _⟩ => exact h100
  | ⟨101, _⟩ => exact h101
  | ⟨102, _⟩ => exact h102
  | ⟨103, _⟩ => exact h103
  | ⟨104, _⟩ => exact h104
  | ⟨105, _⟩ => exact h105
  | ⟨106, _⟩ => exact h106
  | ⟨107, _⟩ => exact h107
  | ⟨108, _⟩ => exact h108
  | ⟨109, _⟩ => exact h109
  | ⟨110, _⟩ => exact h110
  | ⟨111, _⟩ => exact h111
  | ⟨112, _⟩ => exact h112
  | ⟨113, _⟩ => exact h113
  | ⟨114, _⟩ => exact h114
  | ⟨115, _⟩ => exact h115
  | ⟨116, _⟩ => exact h116
  | ⟨117, _⟩ => exact h117
  | ⟨118, _⟩ => exact h118
  | ⟨119, _⟩ => exact h119
  | ⟨120, _⟩ => exact h120
  | ⟨121, _⟩ => exact h121
  | ⟨122, _⟩ => exact h122
  | ⟨123, _⟩ => exact h123
  | ⟨124, _⟩ => exact h124
  | ⟨125, _⟩ => exact h125
  | ⟨126, _⟩ => exact h126
  | ⟨127, _⟩ => exact h127
  | ⟨n + 128, h⟩ => exact absurd h (by omega)

/-! ## The block -/

set_option maxHeartbeats 4000000 in
/-- Entry (r, j) of the block written at point i, the table index spelt out. -/
theorem gOut_apply0 (c : Dev nD) (i : grid0.Coords) (arg1 : Memref sig .tc .smem S8192 .i32) (harg1 : arg1.IsWhole)
    (arg3 : Memref sig .tc .vmem S128x4096 .bf16) (harg3 : arg3.IsWhole) (arg4 : Memref sig .tc .vmem S128x4096 .f32) (harg4 : arg4.IsWhole)
    (x0 : Vec Ideal S8192 .i32) (hx : ∀ k : S8192.Idx, (x0 k).toNat < 16384) (fh : HbBuf (F := Ideal) c hbM)
    (r : Fin 128) (j : Fin 4096) :
    gOut (F := Ideal) c i arg1 harg1 arg3 harg3 arg4 harg4 x0 hx fh (ix2 r j)
      = (hbM : Memref sig .tc .hbm S16384x4096 .f32).view.read (Elt Ideal) fh
          (ix2 ⟨(x0 (ix1 ⟨(i 0).val * 128 + r.val, tblIdx_lt i r.val r.isLt⟩)).toNat, hx _⟩ j) := by
  have hz : (![0, 0] : Fin 2 → Nat) = fun _ => 0 := by
    funext a
    match a with
    | ⟨0, _⟩ => rfl
    | ⟨1, _⟩ => rfl
  unfold gOut
  rw [View.read_writes_eq_canon _ _ _ (gCover c i arg1 harg1 arg3 harg3 arg4 harg4 x0 hx fh)]
  unfold gatherRun
  dsimp only
  rw [View.canon_unit_zero hz]
  unfold gatherRun.sl.r_128 gatherRun.sl.v2048_1
  simp only [View.readAt_eq_ld, harg4.read_unread, View.ld_unit_zero (S := S128x4096) hz]
  unfold k0_pay1
  first
    | rw [truncf_apply]
    | refine (truncf_apply (s := S128x4096) (φ := .f32) (ψ := .bf16) _ _ (ix2 r j)).trans ?_
    | (dsimp only; rw [truncf_apply])
    | (dsimp only; refine (truncf_apply (s := S128x4096) (φ := .f32) (ψ := .bf16) _ _ (ix2 r j)).trans ?_)
  rw [rowsVec_apply]
  refine forall_vec128 (α := S4096.Idx → Elt Ideal .f32)
    (fun (r : Fin 128) (p : S4096.Idx → Elt Ideal .f32) => p (ix1 j) = (hbM : Memref sig .tc .hbm S16384x4096 .f32).view.read (Elt Ideal) fh
      (ix2 ⟨(x0 (ix1 ⟨(i 0).val * 128 + r.val, tblIdx_lt i r.val r.isLt⟩)).toNat, hx _⟩ j))
    _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    ?h0 ?h1 ?h2 ?h3 ?h4 ?h5 ?h6 ?h7 ?h8 ?h9 ?h10 ?h11 ?h12 ?h13 ?h14 ?h15 ?h16 ?h17 ?h18 ?h19 ?h20 ?h21 ?h22 ?h23 ?h24 ?h25 ?h26 ?h27 ?h28 ?h29 ?h30 ?h31 ?h32 ?h33 ?h34 ?h35 ?h36 ?h37 ?h38 ?h39 ?h40 ?h41 ?h42 ?h43 ?h44 ?h45 ?h46 ?h47 ?h48 ?h49 ?h50 ?h51 ?h52 ?h53 ?h54 ?h55 ?h56 ?h57 ?h58 ?h59 ?h60 ?h61 ?h62 ?h63 ?h64 ?h65 ?h66 ?h67 ?h68 ?h69 ?h70 ?h71 ?h72 ?h73 ?h74 ?h75 ?h76 ?h77 ?h78 ?h79 ?h80 ?h81 ?h82 ?h83 ?h84 ?h85 ?h86 ?h87 ?h88 ?h89 ?h90 ?h91 ?h92 ?h93 ?h94 ?h95 ?h96 ?h97 ?h98 ?h99 ?h100 ?h101 ?h102 ?h103 ?h104 ?h105 ?h106 ?h107 ?h108 ?h109 ?h110 ?h111 ?h112 ?h113 ?h114 ?h115 ?h116 ?h117 ?h118 ?h119 ?h120 ?h121 ?h122 ?h123 ?h124 ?h125 ?h126 ?h127 r
  case h0 => exact pay1_apply c i arg1 harg1 x0 hx fh _ j
  case h1 => exact pay2_apply c i arg1 harg1 x0 hx fh _ j
  case h2 => exact pay3_apply c i arg1 harg1 x0 hx fh _ j
  case h3 => exact pay4_apply c i arg1 harg1 x0 hx fh _ j
  case h4 => exact pay5_apply c i arg1 harg1 x0 hx fh _ j
  case h5 => exact pay6_apply c i arg1 harg1 x0 hx fh _ j
  case h6 => exact pay7_apply c i arg1 harg1 x0 hx fh _ j
  case h7 => exact pay8_apply c i arg1 harg1 x0 hx fh _ j
  case h8 => exact pay9_apply c i arg1 harg1 x0 hx fh _ j
  case h9 => exact pay10_apply c i arg1 harg1 x0 hx fh _ j
  case h10 => exact pay11_apply c i arg1 harg1 x0 hx fh _ j
  case h11 => exact pay12_apply c i arg1 harg1 x0 hx fh _ j
  case h12 => exact pay13_apply c i arg1 harg1 x0 hx fh _ j
  case h13 => exact pay14_apply c i arg1 harg1 x0 hx fh _ j
  case h14 => exact pay15_apply c i arg1 harg1 x0 hx fh _ j
  case h15 => exact pay16_apply c i arg1 harg1 x0 hx fh _ j
  case h16 => exact pay17_apply c i arg1 harg1 x0 hx fh _ j
  case h17 => exact pay18_apply c i arg1 harg1 x0 hx fh _ j
  case h18 => exact pay19_apply c i arg1 harg1 x0 hx fh _ j
  case h19 => exact pay20_apply c i arg1 harg1 x0 hx fh _ j
  case h20 => exact pay21_apply c i arg1 harg1 x0 hx fh _ j
  case h21 => exact pay22_apply c i arg1 harg1 x0 hx fh _ j
  case h22 => exact pay23_apply c i arg1 harg1 x0 hx fh _ j
  case h23 => exact pay24_apply c i arg1 harg1 x0 hx fh _ j
  case h24 => exact pay25_apply c i arg1 harg1 x0 hx fh _ j
  case h25 => exact pay26_apply c i arg1 harg1 x0 hx fh _ j
  case h26 => exact pay27_apply c i arg1 harg1 x0 hx fh _ j
  case h27 => exact pay28_apply c i arg1 harg1 x0 hx fh _ j
  case h28 => exact pay29_apply c i arg1 harg1 x0 hx fh _ j
  case h29 => exact pay30_apply c i arg1 harg1 x0 hx fh _ j
  case h30 => exact pay31_apply c i arg1 harg1 x0 hx fh _ j
  case h31 => exact pay32_apply c i arg1 harg1 x0 hx fh _ j
  case h32 => exact pay33_apply c i arg1 harg1 x0 hx fh _ j
  case h33 => exact pay34_apply c i arg1 harg1 x0 hx fh _ j
  case h34 => exact pay35_apply c i arg1 harg1 x0 hx fh _ j
  case h35 => exact pay36_apply c i arg1 harg1 x0 hx fh _ j
  case h36 => exact pay37_apply c i arg1 harg1 x0 hx fh _ j
  case h37 => exact pay38_apply c i arg1 harg1 x0 hx fh _ j
  case h38 => exact pay39_apply c i arg1 harg1 x0 hx fh _ j
  case h39 => exact pay40_apply c i arg1 harg1 x0 hx fh _ j
  case h40 => exact pay41_apply c i arg1 harg1 x0 hx fh _ j
  case h41 => exact pay42_apply c i arg1 harg1 x0 hx fh _ j
  case h42 => exact pay43_apply c i arg1 harg1 x0 hx fh _ j
  case h43 => exact pay44_apply c i arg1 harg1 x0 hx fh _ j
  case h44 => exact pay45_apply c i arg1 harg1 x0 hx fh _ j
  case h45 => exact pay46_apply c i arg1 harg1 x0 hx fh _ j
  case h46 => exact pay47_apply c i arg1 harg1 x0 hx fh _ j
  case h47 => exact pay48_apply c i arg1 harg1 x0 hx fh _ j
  case h48 => exact pay49_apply c i arg1 harg1 x0 hx fh _ j
  case h49 => exact pay50_apply c i arg1 harg1 x0 hx fh _ j
  case h50 => exact pay51_apply c i arg1 harg1 x0 hx fh _ j
  case h51 => exact pay52_apply c i arg1 harg1 x0 hx fh _ j
  case h52 => exact pay53_apply c i arg1 harg1 x0 hx fh _ j
  case h53 => exact pay54_apply c i arg1 harg1 x0 hx fh _ j
  case h54 => exact pay55_apply c i arg1 harg1 x0 hx fh _ j
  case h55 => exact pay56_apply c i arg1 harg1 x0 hx fh _ j
  case h56 => exact pay57_apply c i arg1 harg1 x0 hx fh _ j
  case h57 => exact pay58_apply c i arg1 harg1 x0 hx fh _ j
  case h58 => exact pay59_apply c i arg1 harg1 x0 hx fh _ j
  case h59 => exact pay60_apply c i arg1 harg1 x0 hx fh _ j
  case h60 => exact pay61_apply c i arg1 harg1 x0 hx fh _ j
  case h61 => exact pay62_apply c i arg1 harg1 x0 hx fh _ j
  case h62 => exact pay63_apply c i arg1 harg1 x0 hx fh _ j
  case h63 => exact pay64_apply c i arg1 harg1 x0 hx fh _ j
  case h64 => exact pay65_apply c i arg1 harg1 x0 hx fh _ j
  case h65 => exact pay66_apply c i arg1 harg1 x0 hx fh _ j
  case h66 => exact pay67_apply c i arg1 harg1 x0 hx fh _ j
  case h67 => exact pay68_apply c i arg1 harg1 x0 hx fh _ j
  case h68 => exact pay69_apply c i arg1 harg1 x0 hx fh _ j
  case h69 => exact pay70_apply c i arg1 harg1 x0 hx fh _ j
  case h70 => exact pay71_apply c i arg1 harg1 x0 hx fh _ j
  case h71 => exact pay72_apply c i arg1 harg1 x0 hx fh _ j
  case h72 => exact pay73_apply c i arg1 harg1 x0 hx fh _ j
  case h73 => exact pay74_apply c i arg1 harg1 x0 hx fh _ j
  case h74 => exact pay75_apply c i arg1 harg1 x0 hx fh _ j
  case h75 => exact pay76_apply c i arg1 harg1 x0 hx fh _ j
  case h76 => exact pay77_apply c i arg1 harg1 x0 hx fh _ j
  case h77 => exact pay78_apply c i arg1 harg1 x0 hx fh _ j
  case h78 => exact pay79_apply c i arg1 harg1 x0 hx fh _ j
  case h79 => exact pay80_apply c i arg1 harg1 x0 hx fh _ j
  case h80 => exact pay81_apply c i arg1 harg1 x0 hx fh _ j
  case h81 => exact pay82_apply c i arg1 harg1 x0 hx fh _ j
  case h82 => exact pay83_apply c i arg1 harg1 x0 hx fh _ j
  case h83 => exact pay84_apply c i arg1 harg1 x0 hx fh _ j
  case h84 => exact pay85_apply c i arg1 harg1 x0 hx fh _ j
  case h85 => exact pay86_apply c i arg1 harg1 x0 hx fh _ j
  case h86 => exact pay87_apply c i arg1 harg1 x0 hx fh _ j
  case h87 => exact pay88_apply c i arg1 harg1 x0 hx fh _ j
  case h88 => exact pay89_apply c i arg1 harg1 x0 hx fh _ j
  case h89 => exact pay90_apply c i arg1 harg1 x0 hx fh _ j
  case h90 => exact pay91_apply c i arg1 harg1 x0 hx fh _ j
  case h91 => exact pay92_apply c i arg1 harg1 x0 hx fh _ j
  case h92 => exact pay93_apply c i arg1 harg1 x0 hx fh _ j
  case h93 => exact pay94_apply c i arg1 harg1 x0 hx fh _ j
  case h94 => exact pay95_apply c i arg1 harg1 x0 hx fh _ j
  case h95 => exact pay96_apply c i arg1 harg1 x0 hx fh _ j
  case h96 => exact pay97_apply c i arg1 harg1 x0 hx fh _ j
  case h97 => exact pay98_apply c i arg1 harg1 x0 hx fh _ j
  case h98 => exact pay99_apply c i arg1 harg1 x0 hx fh _ j
  case h99 => exact pay100_apply c i arg1 harg1 x0 hx fh _ j
  case h100 => exact pay101_apply c i arg1 harg1 x0 hx fh _ j
  case h101 => exact pay102_apply c i arg1 harg1 x0 hx fh _ j
  case h102 => exact pay103_apply c i arg1 harg1 x0 hx fh _ j
  case h103 => exact pay104_apply c i arg1 harg1 x0 hx fh _ j
  case h104 => exact pay105_apply c i arg1 harg1 x0 hx fh _ j
  case h105 => exact pay106_apply c i arg1 harg1 x0 hx fh _ j
  case h106 => exact pay107_apply c i arg1 harg1 x0 hx fh _ j
  case h107 => exact pay108_apply c i arg1 harg1 x0 hx fh _ j
  case h108 => exact pay109_apply c i arg1 harg1 x0 hx fh _ j
  case h109 => exact pay110_apply c i arg1 harg1 x0 hx fh _ j
  case h110 => exact pay111_apply c i arg1 harg1 x0 hx fh _ j
  case h111 => exact pay112_apply c i arg1 harg1 x0 hx fh _ j
  case h112 => exact pay113_apply c i arg1 harg1 x0 hx fh _ j
  case h113 => exact pay114_apply c i arg1 harg1 x0 hx fh _ j
  case h114 => exact pay115_apply c i arg1 harg1 x0 hx fh _ j
  case h115 => exact pay116_apply c i arg1 harg1 x0 hx fh _ j
  case h116 => exact pay117_apply c i arg1 harg1 x0 hx fh _ j
  case h117 => exact pay118_apply c i arg1 harg1 x0 hx fh _ j
  case h118 => exact pay119_apply c i arg1 harg1 x0 hx fh _ j
  case h119 => exact pay120_apply c i arg1 harg1 x0 hx fh _ j
  case h120 => exact pay121_apply c i arg1 harg1 x0 hx fh _ j
  case h121 => exact pay122_apply c i arg1 harg1 x0 hx fh _ j
  case h122 => exact pay123_apply c i arg1 harg1 x0 hx fh _ j
  case h123 => exact pay124_apply c i arg1 harg1 x0 hx fh _ j
  case h124 => exact pay125_apply c i arg1 harg1 x0 hx fh _ j
  case h125 => exact pay126_apply c i arg1 harg1 x0 hx fh _ j
  case h126 => exact pay127_apply c i arg1 harg1 x0 hx fh _ j
  case h127 => exact pay128_apply c i arg1 harg1 x0 hx fh _ j

/-- Entry (r, j) of the block written at point i is entry j of the weight row named by table word n = 128·i + r. -/
theorem gOut_apply (c : Dev nD) (i : grid0.Coords) (arg1 : Memref sig .tc .smem S8192 .i32) (harg1 : arg1.IsWhole)
    (arg3 : Memref sig .tc .vmem S128x4096 .bf16) (harg3 : arg3.IsWhole) (arg4 : Memref sig .tc .vmem S128x4096 .f32) (harg4 : arg4.IsWhole)
    (x0 : Vec Ideal S8192 .i32) (hx : ∀ k : S8192.Idx, (x0 k).toNat < 16384) (fh : HbBuf (F := Ideal) c hbM)
    (r : Fin 128) (j : Fin 4096) (n : Fin 8192) (hn : n.val = (i 0).val * 128 + r.val) :
    gOut (F := Ideal) c i arg1 harg1 arg3 harg3 arg4 harg4 x0 hx fh (ix2 r j)
      = ((Memref.whole main_arg1 : Memref sig .tc .hbm S16384x4096 .f32).view.read (Elt Ideal) fh) (ix2 ⟨(x0 (ix1 n)).toNat, hx _⟩ j) := by
  obtain rfl : n = ⟨(i 0).val * 128 + r.val, tblIdx_lt i r.val r.isLt⟩ := Fin.ext hn
  exact gOut_apply0 c i arg1 harg1 arg3 harg3 arg4 harg4 x0 hx fh r j

end Cert.KernelIdeal.Hand

end
-- ==== Proof.KI.GatherFinal.lean ====
/-
  The value of the first kernel region at the ideal values. Grid point t of the 64 leaves in its 128 × 4096 output block
  the 128 rows of the weight array named by words 128·t … 128·t + 127 of the index table; the 64 blocks tile the
  8192 × 4096 array of selected rows, so the array ends holding, at (k, i), the weight array's entry at (table(k), i).
-/
import proofs.«172148_j16612933501330_2_alg».proof.Proof.KI.GatherDat
import proofs.«172148_j16612933501330_2_alg».proof.Proof.KI.GatherSpec
import proofs.«172148_j16612933501330_2_alg».proof.Proof.KI.GatherValue
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

/-! ## The pipeline's one window, at any admissible contents of the table (its index map does not read the table) -/

/-- Over the 64 grid points: the point's one coordinate is its number, the output's block index is (the point's number, 0),
    and every point writes its block back. -/
theorem gGrid : ∀ t : Fin grid0.N, (grid0.coords t (0 : Fin 1)).val = t.val
    ∧ cc0_transform_1 (grid0.coords t) (0 : Fin 2) = t.val ∧ cc0_transform_1 (grid0.coords t) (1 : Fin 2) = 0
    ∧ Pipeline.Window.flushOf grid0 true cc0_transform_1 t = true ∧ t.val < 64 :=
  by decide +kernel

section Window
variable (a : (pcfg0 (F := Ideal)).Adm)

theorem gIndex (t : Fin (cfg0 a).N) : ((cfg0 a).win 0).index t (0 : Fin 2) = t.val ∧ ((cfg0 a).win 0).index t (1 : Fin 2) = 0 :=
  ⟨(gGrid t).2.1, (gGrid t).2.2.1⟩

theorem gFlush (t : Fin (cfg0 a).N) : ((cfg0 a).win 0).flush t = true :=
  (Pipeline.Window.flush_eq_flushOf ((cfg0 a).win 0) t).trans (gGrid t).2.2.2.1

set_option backward.isDefEq.respectTransparency.types false in
/-- The 64 blocks cover the array: row k is row k − 128·(k / 128) of the block of point k / 128, and every point writes its
    block back. -/
theorem gCovered (i : S8192x4096.Idx) :
    ∃ t : Fin (cfg0 a).N, ((cfg0 a).win 0).flush t = true ∧ i ∈ (((cfg0 a).win 0).blk t).view.set := by
  have hi0 : (i 0).val < 8192 := (i 0).isLt
  have hi1 : (i 1).val < 4096 := (i 1).isLt
  have hN : grid0.N = 64 := N_0
  let t : Fin (cfg0 a).N := ⟨(i 0).val / 128, by show (i 0).val / 128 < grid0.N; omega⟩
  have ht : t.val = (i 0).val / 128 := rfl
  have q0 : ((cfg0 a).win 0).index t (0 : Fin 2) = t.val := (gIndex a t).1
  have q1 : ((cfg0 a).win 0).index t (1 : Fin 2) = 0 := (gIndex a t).2
  refine ⟨t, gFlush a t, ?_⟩
  let y : (((cfg0 a).win 0).xblock (grid0.coords t)).Idx :=
    (ix2 (⟨(i 0).val - t.val * 128, by omega⟩ : Fin 128) (⟨(i 1).val, hi1⟩ : Fin 4096) : S128x4096.Idx)
  have hy : (((cfg0 a).win 0).blk t).view.emb y = i :=
    funext fun ax => Fin.ext (by
      match ax with
      | ⟨0, _⟩ => show ((cfg0 a).win 0).index t (0 : Fin 2) * 128 + 1 * ((i 0).val - t.val * 128) = (i 0).val; omega
      | ⟨1, _⟩ => show ((cfg0 a).win 0).index t (1 : Fin 2) * 4096 + 1 * (i 1).val = (i 1).val; omega)
  exact hy ▸ (((cfg0 a).win 0).blk t).view.emb_mem_set y

end Window

/-! ## From blocks to the array -/

section Blocks
variable (V : (c : Dev nD) → (b : Ref sig .tc) → Buf (Elt Ideal) ((c : Thread nD τ).loc b))

/-- The output block of point `t` at (r, j): the weight array's row named by word 128·t + r of the index table, at column j. -/
theorem gOutsAt_apply (hT : TblOk V) (c : Dev nD) (t : Fin (gCfg V).N) (r : Fin 128) (j : Fin 4096) (n : Fin 8192)
    (hn : n.val = t.val * 128 + r.val) :
    gOutsAt V hT c t (ix2 r j) = gG (V c main_arg1) (V (0 : Dev nD) main_v15) (hT 0) (ix2 n j) := by
  obtain ⟨g0, -, -, -, g4⟩ := gGrid t
  unfold gOutsAt
  refine (gOut_apply c (grid0.coords t) tbM htbM (gms V t) (ghs V t) scM (Memref.isWhole_whole _) (gTbl V 0) (gTbl_lt V hT) (V c main_arg1)
    r j n (by show n.val = (grid0.coords t (0 : Fin 1)).val * 128 + r.val; omega)).trans ?_
  rfl

set_option backward.isDefEq.respectTransparency.types false in
/-- What point `t` writes back is block `t` of the specification of the weight array and the index table as the region finds them. -/
theorem gFlushed (hT : TblOk V) (c : Dev nD) (t : Fin (gCfg V).N) :
    (gDat (F := Ideal) V hT c).flushed 0 t
      = (((gCfg V).win 0).blk t).view.read (Elt Ideal) (gG (V c main_arg1) (V (0 : Dev nD) main_v15) (hT 0)) := by
  show ((gCfg V).win 0).cut (grid0.coords t) ((gDat V hT c).after 0 t) = _
  rw [gAfter0]
  have e0 : ((gCfg V).win 0).index t (0 : Fin 2) = t.val := (gIndex (gAdm V) t).1
  have e1 : ((gCfg V).win 0).index t (1 : Fin 2) = 0 := (gIndex (gAdm V) t).2
  obtain ⟨g0, -, -, -, g4⟩ := gGrid t
  funext y
  let y' : S128x4096.Idx := y
  have hy0 : (y' 0).val < 128 := (y' 0).isLt
  have hy1 : (y' 1).val < 4096 := (y' 1).isLt
  have hx : ((gCfg V).win 0).xinj (grid0.coords t) y = ix2 (⟨(y' 0).val, hy0⟩ : Fin 128) (⟨(y' 1).val, hy1⟩ : Fin 4096) :=
    funext fun ax => by match ax with | ⟨0, _⟩ => rfl | ⟨1, _⟩ => rfl
  have hy : (((gCfg V).win 0).blk t).view.emb y
      = ix2 (⟨t.val * 128 + (y' 0).val, by omega⟩ : Fin 8192) (⟨(y' 1).val, hy1⟩ : Fin 4096) :=
    funext fun ax => Fin.ext (by
      match ax with
      | ⟨0, _⟩ => show ((gCfg V).win 0).index t (0 : Fin 2) * 128 + 1 * (y' 0).val = t.val * 128 + (y' 0).val; omega
      | ⟨1, _⟩ => show ((gCfg V).win 0).index t (1 : Fin 2) * 4096 + 1 * (y' 1).val = (y' 1).val; omega)
  show gOutsAt V hT c t (((gCfg V).win 0).xinj (grid0.coords t) y)
      = gG (V c main_arg1) (V (0 : Dev nD) main_v15) (hT 0) ((((gCfg V).win 0).blk t).view.emb y)
  refine (congrArg (gOutsAt V hT c t) hx).trans (Eq.trans ?_ (congrArg (gG (V c main_arg1) (V (0 : Dev nD) main_v15) (hT 0)) hy).symm)
  exact gOutsAt_apply V hT c t _ _ _ rfl

set_option backward.isDefEq.respectTransparency.types false in
/-- The array of selected rows after the region: the rows of the weight array the index table names, both as the region
    finds them. -/
theorem gFinal (hT : TblOk V) (c : Dev nD) :
    (gDat (F := Ideal) V hT c).arrAt 0 (gCfg V).N = gG (V c main_arg1) (V (0 : Dev nD) main_v15) (hT 0) :=
  (gDat (F := Ideal) V hT c).arrAt_eq_of_cover 0 (gG (V c main_arg1) (V (0 : Dev nD) main_v15) (hT 0))
    (fun t _ => gFlushed V hT c t) (gCovered (gAdm V))

end Blocks

end Cert.KernelIdeal.Hand

end
-- ==== Proof.KI.HostReads.lean ====
/-
  Two host operations read at an element, at the ideal number system.
  (1) The cast between the two kernel regions, f32 → bf16, is the identity on ideal numbers: the cast array is the
      argument array.
  (2) The bias row: the reshape [8192] → [1, 8192] keeps row-major order, so entry (0, k) of the row is entry k of
      the vector.
-/
import proofs.«172148_j16612933501330_2_alg».proof.Proof.Gen.KernelIdeal.Launch
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx

/-- The cast array is the argument array: truncation to bf16 is the identity on ideal numbers. -/
theorem cast_eq (W : Valuation τ sig (Elt Ideal)) :
    (StableHlo.after (hostOps1 (F := Ideal)) W (Proc.devRef .tc main_v19) : S8192x4096.Idx → EReal)
      = (W (Proc.devRef .tc main_arg0) : S8192x4096.Idx → EReal) := by
  open StableHlo in after_results
  rfl

/-- The cast array at an element. -/
theorem cast_apply (W : Valuation τ sig (Elt Ideal)) (j : S8192x4096.Idx) :
    (StableHlo.after (hostOps1 (F := Ideal)) W (Proc.devRef .tc main_v19) : S8192x4096.Idx → EReal) j
      = (W (Proc.devRef .tc main_arg0) : S8192x4096.Idx → EReal) j :=
  congrFun (cast_eq W) j

/-- The bias row is the bias vector under the shape [1, 8192]. -/
theorem biasRow_eq (W : Valuation τ sig (Elt Ideal)) :
    (StableHlo.after (hostOps0_11 (F := Ideal)) W (Proc.devRef .tc main_v17) : S1x8192.Idx → EReal)
      = shapeCast S1x8192 (W (Proc.devRef .tc main_v16) : S8192.Idx → EReal) shapeCasts_S8192_S1x8192 := by
  open StableHlo in after_results
  rfl

/-- Entry (0, k) of the bias row is entry k of the bias vector: both sit at row-major position k. -/
theorem biasRow_apply (W : Valuation τ sig (Elt Ideal)) (k : Fin 8192) :
    (StableHlo.after (hostOps0_11 (F := Ideal)) W (Proc.devRef .tc main_v17) : S1x8192.Idx → EReal) (ix2 (0 : Fin 1) k)
      = (W (Proc.devRef .tc main_v16) : S8192.Idx → EReal) (ix1 k) := by
  rw [biasRow_eq]
  refine shapeCast_apply _ _ _ _ ?_
  show (S8192.rowMajor (ix1 k)).val = (S1x8192.rowMajor (ix2 (0 : Fin 1) k)).val
  rw [Shape.rowMajor_val_one, Shape.rowMajor_val_two]
  show k.val = 0 * 8192 + k.val
  omega

end Cert.KernelIdeal.Hand

end
-- ==== Proof.Ref.Run.lean ====
/- The reference program's @main as a straight line of its 115 host operations (the functions it calls
   inlined at their call sites over each call's own buffers), and its run read back: every weakly fair execution
   terminates with the result buffer at the operations' composed term of the arguments' launch contents, the four
   arguments unchanged. The line is cut into eight consecutive windows at the points where few values are live
   (the clipped count, the scattered slots, their prefix sum, the floor division, the remainder, the two takes,
   the product and bias); each window's value is read off as one named function of the values it reads. -/
import proofs.«172148_j16612933501330_2_alg».proof.Proof.Gen.ReferenceIdeal
import Idealize.ShloMosaic.Lib.StableHlo.Run
import Idealize.ShloMosaic.PureOps.Ideal

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The value functions: one per window -/

/-- The running count of nonzero mask entries (an inclusive prefix sum of the mask's nonzero indicator over all 16384 positions), clipped below at 0. -/
def nzClip (msk : IVec S16384 32) : IVec S16384 32 :=
  maxsi (broadcastInDim S16384 ![] bcast_S_S16384 (id (constantI S_ 32 0#32))) (Host.reduceWindow IntOp.addi ![16384] ![1] ![16383] ![0] (extui 32 (cmpi .ne msk (broadcastInDim S16384 ![] bcast_S_S16384 (constantI S_ 32 0#32))) natLt_1_32) (broadcastInDim S_ ![] bcast_S_S_ (constantI S_ 32 0#32)) reduceWindows_S16384_S16384_w16384s1p16383_0 h_S_)

/-- The 8192 output slots, all zero: what the scatter accumulates into. -/
def zeroSlots : IVec S8192 32 :=
  broadcastInDim S8192 ![] bcast_S_S8192 (constantI S_ 32 0#32)

/-- Each position adds 1 into the slot its (wrapped) count names: slot `j` ends holding the number of positions whose count is `j`. -/
def slotScatter (z : IVec S8192 32) (c : IVec S16384 32) : IVec S8192 32 :=
  Host.scatter scatter_S8192_S16384x1_S16384_n_0_0_1 IntOp.addi z (broadcastInDim S16384x1 ![0] bcast_S16384_S16384x1_0 (select (cmpi .slt c (broadcastInDim S16384 ![] bcast_S_S16384 (constantI S_ 32 0#32))) (addi c (broadcastInDim S16384 ![] bcast_S_S16384 (constantI S_ 32 8192#32))) c)) (broadcastInDim S16384 ![] bcast_S_S16384 (constantI S_ 32 1#32))

/-- The inclusive prefix sum over the 8192 slots. -/
def cumsumSlots (s : IVec S8192 32) : IVec S8192 32 :=
  Host.reduceWindow IntOp.addi ![8192] ![1] ![8191] ![0] s (broadcastInDim S_ ![] bcast_S_S_ (constantI S_ 32 0#32)) reduceWindows_S8192_S8192_w8192s1p8191_0 h_S_

/-- `jnp.floor_divide(p, 1)`: the truncated quotient, less 1 where the signs differ and the remainder is nonzero. -/
def floorDivOne (p : IVec S8192 32) : IVec S8192 32 :=
  select (andi (cmpi .ne (signi p) (broadcastInDim S8192 ![] bcast_S_S8192 (signi (constantI S_ 32 1#32)))) (cmpi .ne (Host.remsi p (broadcastInDim S8192 ![] bcast_S_S8192 (constantI S_ 32 1#32))) (broadcastInDim S8192 ![] bcast_S_S8192 (constantI S_ 32 0#32)))) (subi (Host.divsi p (broadcastInDim S8192 ![] bcast_S_S8192 (constantI S_ 32 1#32))) (broadcastInDim S8192 ![] bcast_S_S8192 (constantI S_ 32 1#32))) (Host.divsi p (broadcastInDim S8192 ![] bcast_S_S8192 (constantI S_ 32 1#32)))

/-- `jnp.remainder(q, 16384)`: the signed remainder `r`, plus 16384 where `r` is nonzero and its sign differs from the divisor's. -/
def remN (q : IVec S8192 32) : IVec S8192 32 :=
  select (andi (cmpi .ne (cmpi .slt (Host.remsi q (broadcastInDim S8192 ![] bcast_S_S8192 (select (cmpi .eq (id (constantI S_ 32 16384#32)) (constantI S_ 32 0#32)) (constantI S_ 32 1#32) (id (constantI S_ 32 16384#32))))) (broadcastInDim S8192 ![] bcast_S_S8192 (constantI S_ 32 0#32))) (broadcastInDim S8192 ![] bcast_S_S8192 (cmpi .slt (select (cmpi .eq (id (constantI S_ 32 16384#32)) (constantI S_ 32 0#32)) (constantI S_ 32 1#32) (id (constantI S_ 32 16384#32))) (constantI S_ 32 0#32)))) (cmpi .ne (Host.remsi q (broadcastInDim S8192 ![] bcast_S_S8192 (select (cmpi .eq (id (constantI S_ 32 16384#32)) (constantI S_ 32 0#32)) (constantI S_ 32 1#32) (id (constantI S_ 32 16384#32))))) (broadcastInDim S8192 ![] bcast_S_S8192 (constantI S_ 32 0#32)))) (addi (Host.remsi q (broadcastInDim S8192 ![] bcast_S_S8192 (select (cmpi .eq (id (constantI S_ 32 16384#32)) (constantI S_ 32 0#32)) (constantI S_ 32 1#32) (id (constantI S_ 32 16384#32))))) (broadcastInDim S8192 ![] bcast_S_S8192 (select (cmpi .eq (id (constantI S_ 32 16384#32)) (constantI S_ 32 0#32)) (constantI S_ 32 1#32) (id (constantI S_ 32 16384#32))))) (Host.remsi q (broadcastInDim S8192 ![] bcast_S_S8192 (select (cmpi .eq (id (constantI S_ 32 16384#32)) (constantI S_ 32 0#32)) (constantI S_ 32 1#32) (id (constantI S_ 32 16384#32)))))

/-- `jnp.take(w, ix, axis=0)` in fill mode: a negative index wrapped by 16384, the row gathered, and NaN in a row whose wrapped index is outside `[0, 16383]`. -/
def takeRows (w : Vec F S16384x4096 .f32) (ix : IVec S8192 32) : Vec F S8192x4096 .f32 :=
  select (broadcastInDim S8192x4096 ![0] bcast_S8192_S8192x4096_0 (Host.reduce IntOp.andi (andi (cmpi .sge (broadcastInDim S8192x1 ![0] bcast_S8192_S8192x1_0 (select (cmpi .slt ix (broadcastInDim S8192 ![] bcast_S_S8192 (constantI S_ 32 0#32))) (addi ix (broadcastInDim S8192 ![] bcast_S_S8192 (constantI S_ 32 16384#32))) ix)) (broadcastInDim S8192x1 ![] bcast_S_S8192x1 (constantI S_ 32 0#32))) (cmpi .sle (broadcastInDim S8192x1 ![0] bcast_S8192_S8192x1_0 (select (cmpi .slt ix (broadcastInDim S8192 ![] bcast_S_S8192 (constantI S_ 32 0#32))) (addi ix (broadcastInDim S8192 ![] bcast_S_S8192 (constantI S_ 32 16384#32))) ix)) (broadcastInDim S8192x1 ![0, 1] bcast_S1x1_S8192x1_0_1 (broadcastInDim S1x1 ![1] bcast_S1_S1x1_1 (constantI S1 32 16383#32))))) (constantI S_ 1 1#1) reducesTo_S8192x1_S8192_d1 h_S_)) (Host.gather gather_S16384x4096_S8192x1_S8192x4096_1_0_n_n_0_1_14096 w (broadcastInDim S8192x1 ![0] bcast_S8192_S8192x1_0 (select (cmpi .slt ix (broadcastInDim S8192 ![] bcast_S_S8192 (constantI S_ 32 0#32))) (addi ix (broadcastInDim S8192 ![] bcast_S_S8192 (constantI S_ 32 16384#32))) ix))) (broadcastInDim S8192x4096 ![] bcast_S_S8192x4096 (constant S_ .f32 0x7FC00000#32))

/-- `jnp.take(b, ix)` in fill mode, as `takeRows` on a vector. -/
def takeBias (b : Vec F S16384 .f32) (ix : IVec S8192 32) : Vec F S8192 .f32 :=
  select (Host.reduce IntOp.andi (andi (cmpi .sge (broadcastInDim S8192x1 ![0] bcast_S8192_S8192x1_0 (select (cmpi .slt ix (broadcastInDim S8192 ![] bcast_S_S8192 (constantI S_ 32 0#32))) (addi ix (broadcastInDim S8192 ![] bcast_S_S8192 (constantI S_ 32 16384#32))) ix)) (broadcastInDim S8192x1 ![] bcast_S_S8192x1 (constantI S_ 32 0#32))) (cmpi .sle (broadcastInDim S8192x1 ![0] bcast_S8192_S8192x1_0 (select (cmpi .slt ix (broadcastInDim S8192 ![] bcast_S_S8192 (constantI S_ 32 0#32))) (addi ix (broadcastInDim S8192 ![] bcast_S_S8192 (constantI S_ 32 16384#32))) ix)) (broadcastInDim S8192x1 ![0, 1] bcast_S1x1_S8192x1_0_1 (broadcastInDim S1x1 ![1] bcast_S1_S1x1_1 (constantI S1 32 16383#32))))) (constantI S_ 1 1#1) reducesTo_S8192x1_S8192_d1 h_S_) (Host.gather gather_S16384_S8192x1_S8192_n_0_n_n_0_1_1 b (broadcastInDim S8192x1 ![0] bcast_S8192_S8192x1_0 (select (cmpi .slt ix (broadcastInDim S8192 ![] bcast_S_S8192 (constantI S_ 32 0#32))) (addi ix (broadcastInDim S8192 ![] bcast_S_S8192 (constantI S_ 32 16384#32))) ix))) (broadcastInDim S8192 ![] bcast_S_S8192 (constant S_ .f32 0x7FC00000#32))

/-- `d · wsᵀ` contracted over the 4096 columns, plus `bs` broadcast along the rows. -/
def gemmBias (d : Vec F S8192x4096 .f32) (ws : Vec F S8192x4096 .f32) (bs : Vec F S8192 .f32) : Vec F S8192x8192 .f32 :=
  addf (Host.dotGeneral dot_S8192x4096_S8192x4096_S8192x8192_1_1_0_0_n_n none d ws) (broadcastInDim S8192x8192 ![0, 1] bcast_S1x8192_S8192x8192_0_1 (broadcastInDim S1x8192 ![1] bcast_S8192_S1x8192_1 bs))

/-- The selected row indices: the value of @main's `remainder` call, which both takes read. -/
def idxF (msk : IVec S16384 32) : IVec S8192 32 :=
  remN (floorDivOne (cumsumSlots (slotScatter zeroSlots (nzClip msk))))

/-- @main's result as a function of its four arguments. -/
def outF (d : Vec F S8192x4096 .f32) (w : Vec F S16384x4096 .f32) (b : Vec F S16384 .f32) (msk : IVec S16384 32) :
    Vec F S8192x8192 .f32 :=
  gemmBias d (takeRows w (idxF msk)) (takeBias b (idxF msk))

/-! ## The operations, window by window -/

/-- Operations 1–13 of the line. -/
def W1 : List (HloOp τ sig (Elt F)) :=
  [
    nullary main_c (constantI S_ 32 0#32),
    unary main_c main_v0 (broadcastInDim S16384 ![] bcast_S_S16384 : (⟨S_, .i32⟩ : BufTy).Contents (Elt F) → (⟨S16384, .i32⟩ : BufTy).Contents (Elt F)),
    binary main_arg3 main_v0 main_v1 (cmpi .ne : (⟨S16384, .i32⟩ : BufTy).Contents (Elt F) → (⟨S16384, .i32⟩ : BufTy).Contents (Elt F) → (⟨S16384, .i1⟩ : BufTy).Contents (Elt F)),
    TRef.unary (TRef.of (T := ⟨S16384, .i1⟩) main_v1) (TRef.of (T := ⟨S16384, .i32⟩) main_call0_v0) (extui 32 · natLt_1_32),
    TRef.nullary (TRef.of (T := ⟨S_, .i32⟩) main_call0_call0_c) (constantI S_ 32 0#32),
    TRef.unary (TRef.of (T := ⟨S_, .i32⟩) main_call0_call0_c) (TRef.of (T := ⟨S_, .i32⟩) main_call0_call0_v0) (broadcastInDim S_ ![] bcast_S_S_),
    TRef.binary (TRef.of (T := ⟨S16384, .i32⟩) main_call0_v0) (TRef.of (T := ⟨S_, .i32⟩) main_call0_call0_v0) (TRef.of (T := ⟨S16384, .i32⟩) main_v2) (fun x v => Host.reduceWindow IntOp.addi ![16384] ![1] ![16383] ![0] x v reduceWindows_S16384_S16384_w16384s1p16383_0 h_S_),
    nullary main_c_0 (constantI S_ 32 0#32),
    unary main_c_0 main_v3 (broadcastInDim S8192 ![] bcast_S_S8192 : (⟨S_, .i32⟩ : BufTy).Contents (Elt F) → (⟨S8192, .i32⟩ : BufTy).Contents (Elt F)),
    nullary main_c_1 (constantI S_ 32 0#32),
    TRef.unary (TRef.of (T := ⟨S_, .i32⟩) main_c_1) (TRef.of (T := ⟨S_, .i32⟩) main_call1_v0) id,
    TRef.unary (TRef.of (T := ⟨S_, .i32⟩) main_call1_v0) (TRef.of (T := ⟨S16384, .i32⟩) main_call1_v1) (broadcastInDim S16384 ![] bcast_S_S16384),
    TRef.binary (TRef.of (T := ⟨S16384, .i32⟩) main_call1_v1) (TRef.of (T := ⟨S16384, .i32⟩) main_v2) (TRef.of (T := ⟨S16384, .i32⟩) main_v4) maxsi ]

/-- Operations 14–24 of the line. -/
def W2 : List (HloOp τ sig (Elt F)) :=
  [
    nullary main_c_2 (constantI S_ 32 0#32),
    unary main_c_2 main_v5 (broadcastInDim S16384 ![] bcast_S_S16384 : (⟨S_, .i32⟩ : BufTy).Contents (Elt F) → (⟨S16384, .i32⟩ : BufTy).Contents (Elt F)),
    binary main_v4 main_v5 main_v6 (cmpi .slt : (⟨S16384, .i32⟩ : BufTy).Contents (Elt F) → (⟨S16384, .i32⟩ : BufTy).Contents (Elt F) → (⟨S16384, .i1⟩ : BufTy).Contents (Elt F)),
    nullary main_c_3 (constantI S_ 32 8192#32),
    unary main_c_3 main_v7 (broadcastInDim S16384 ![] bcast_S_S16384 : (⟨S_, .i32⟩ : BufTy).Contents (Elt F) → (⟨S16384, .i32⟩ : BufTy).Contents (Elt F)),
    binary main_v4 main_v7 main_v8 (addi : (⟨S16384, .i32⟩ : BufTy).Contents (Elt F) → (⟨S16384, .i32⟩ : BufTy).Contents (Elt F) → (⟨S16384, .i32⟩ : BufTy).Contents (Elt F)),
    ternary main_v6 main_v8 main_v4 main_v9 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v9 main_v10 (broadcastInDim S16384x1 ![0] bcast_S16384_S16384x1_0 : (⟨S16384, .i32⟩ : BufTy).Contents (Elt F) → (⟨S16384x1, .i32⟩ : BufTy).Contents (Elt F)),
    nullary main_c_4 (constantI S_ 32 1#32),
    unary main_c_4 main_v11 (broadcastInDim S16384 ![] bcast_S_S16384 : (⟨S_, .i32⟩ : BufTy).Contents (Elt F) → (⟨S16384, .i32⟩ : BufTy).Contents (Elt F)),
    ternary main_v3 main_v10 main_v11 main_v12 ((fun x i u => Host.scatter scatter_S8192_S16384x1_S16384_n_0_0_1 IntOp.addi x i u) : (⟨S8192, .i32⟩ : BufTy).Contents (Elt F) → (⟨S16384x1, .i32⟩ : BufTy).Contents (Elt F) → (⟨S16384, .i32⟩ : BufTy).Contents (Elt F) → (⟨S8192, .i32⟩ : BufTy).Contents (Elt F)) ]

/-- Operations 25–27 of the line. -/
def W3 : List (HloOp τ sig (Elt F)) :=
  [
    TRef.nullary (TRef.of (T := ⟨S_, .i32⟩) main_call2_call0_c) (constantI S_ 32 0#32),
    TRef.unary (TRef.of (T := ⟨S_, .i32⟩) main_call2_call0_c) (TRef.of (T := ⟨S_, .i32⟩) main_call2_call0_v0) (broadcastInDim S_ ![] bcast_S_S_),
    TRef.binary (TRef.of (T := ⟨S8192, .i32⟩) main_v12) (TRef.of (T := ⟨S_, .i32⟩) main_call2_call0_v0) (TRef.of (T := ⟨S8192, .i32⟩) main_v13) (fun x v => Host.reduceWindow IntOp.addi ![8192] ![1] ![8191] ![0] x v reduceWindows_S8192_S8192_w8192s1p8191_0 h_S_) ]

/-- Operations 28–44 of the line. -/
def W4 : List (HloOp τ sig (Elt F)) :=
  [
    nullary main_c_5 (constantI S_ 32 1#32),
    TRef.unary (TRef.of (T := ⟨S_, .i32⟩) main_c_5) (TRef.of (T := ⟨S8192, .i32⟩) main_call3_v0) (broadcastInDim S8192 ![] bcast_S_S8192),
    TRef.binary (TRef.of (T := ⟨S8192, .i32⟩) main_v13) (TRef.of (T := ⟨S8192, .i32⟩) main_call3_v0) (TRef.of (T := ⟨S8192, .i32⟩) main_call3_v1) Host.divsi,
    TRef.unary (TRef.of (T := ⟨S8192, .i32⟩) main_v13) (TRef.of (T := ⟨S8192, .i32⟩) main_call3_v2) signi,
    TRef.unary (TRef.of (T := ⟨S_, .i32⟩) main_c_5) (TRef.of (T := ⟨S_, .i32⟩) main_call3_v3) signi,
    TRef.unary (TRef.of (T := ⟨S_, .i32⟩) main_call3_v3) (TRef.of (T := ⟨S8192, .i32⟩) main_call3_v4) (broadcastInDim S8192 ![] bcast_S_S8192),
    TRef.binary (TRef.of (T := ⟨S8192, .i32⟩) main_call3_v2) (TRef.of (T := ⟨S8192, .i32⟩) main_call3_v4) (TRef.of (T := ⟨S8192, .i1⟩) main_call3_v5) (cmpi .ne),
    TRef.unary (TRef.of (T := ⟨S_, .i32⟩) main_c_5) (TRef.of (T := ⟨S8192, .i32⟩) main_call3_v6) (broadcastInDim S8192 ![] bcast_S_S8192),
    TRef.binary (TRef.of (T := ⟨S8192, .i32⟩) main_v13) (TRef.of (T := ⟨S8192, .i32⟩) main_call3_v6) (TRef.of (T := ⟨S8192, .i32⟩) main_call3_v7) Host.remsi,
    TRef.nullary (TRef.of (T := ⟨S_, .i32⟩) main_call3_c) (constantI S_ 32 0#32),
    TRef.unary (TRef.of (T := ⟨S_, .i32⟩) main_call3_c) (TRef.of (T := ⟨S8192, .i32⟩) main_call3_v8) (broadcastInDim S8192 ![] bcast_S_S8192),
    TRef.binary (TRef.of (T := ⟨S8192, .i32⟩) main_call3_v7) (TRef.of (T := ⟨S8192, .i32⟩) main_call3_v8) (TRef.of (T := ⟨S8192, .i1⟩) main_call3_v9) (cmpi .ne),
    TRef.binary (TRef.of (T := ⟨S8192, .i1⟩) main_call3_v5) (TRef.of (T := ⟨S8192, .i1⟩) main_call3_v9) (TRef.of (T := ⟨S8192, .i1⟩) main_call3_v10) andi,
    TRef.nullary (TRef.of (T := ⟨S_, .i32⟩) main_call3_c_0) (constantI S_ 32 1#32),
    TRef.unary (TRef.of (T := ⟨S_, .i32⟩) main_call3_c_0) (TRef.of (T := ⟨S8192, .i32⟩) main_call3_v11) (broadcastInDim S8192 ![] bcast_S_S8192),
    TRef.binary (TRef.of (T := ⟨S8192, .i32⟩) main_call3_v1) (TRef.of (T := ⟨S8192, .i32⟩) main_call3_v11) (TRef.of (T := ⟨S8192, .i32⟩) main_call3_v12) subi,
    TRef.ternary (TRef.of (T := ⟨S8192, .i1⟩) main_call3_v10) (TRef.of (T := ⟨S8192, .i32⟩) main_call3_v12) (TRef.of (T := ⟨S8192, .i32⟩) main_call3_v1) (TRef.of (T := ⟨S8192, .i32⟩) main_v14) select ]

/-- Operations 45–66 of the line. -/
def W5 : List (HloOp τ sig (Elt F)) :=
  [
    nullary main_c_6 (constantI S_ 32 16384#32),
    TRef.unary (TRef.of (T := ⟨S_, .i32⟩) main_c_6) (TRef.of (T := ⟨S_, .i32⟩) main_call4_v0) id,
    TRef.nullary (TRef.of (T := ⟨S_, .i32⟩) main_call4_c) (constantI S_ 32 0#32),
    TRef.binary (TRef.of (T := ⟨S_, .i32⟩) main_call4_v0) (TRef.of (T := ⟨S_, .i32⟩) main_call4_c) (TRef.of (T := ⟨S_, .i1⟩) main_call4_v1) (cmpi .eq),
    TRef.nullary (TRef.of (T := ⟨S_, .i32⟩) main_call4_c_0) (constantI S_ 32 1#32),
    TRef.ternary (TRef.of (T := ⟨S_, .i1⟩) main_call4_v1) (TRef.of (T := ⟨S_, .i32⟩) main_call4_c_0) (TRef.of (T := ⟨S_, .i32⟩) main_call4_v0) (TRef.of (T := ⟨S_, .i32⟩) main_call4_v2) select,
    TRef.unary (TRef.of (T := ⟨S_, .i32⟩) main_call4_v2) (TRef.of (T := ⟨S8192, .i32⟩) main_call4_v3) (broadcastInDim S8192 ![] bcast_S_S8192),
    TRef.binary (TRef.of (T := ⟨S8192, .i32⟩) main_v14) (TRef.of (T := ⟨S8192, .i32⟩) main_call4_v3) (TRef.of (T := ⟨S8192, .i32⟩) main_call4_v4) Host.remsi,
    TRef.nullary (TRef.of (T := ⟨S_, .i32⟩) main_call4_c_1) (constantI S_ 32 0#32),
    TRef.unary (TRef.of (T := ⟨S_, .i32⟩) main_call4_c_1) (TRef.of (T := ⟨S8192, .i32⟩) main_call4_v5) (broadcastInDim S8192 ![] bcast_S_S8192),
    TRef.binary (TRef.of (T := ⟨S8192, .i32⟩) main_call4_v4) (TRef.of (T := ⟨S8192, .i32⟩) main_call4_v5) (TRef.of (T := ⟨S8192, .i1⟩) main_call4_v6) (cmpi .ne),
    TRef.nullary (TRef.of (T := ⟨S_, .i32⟩) main_call4_c_2) (constantI S_ 32 0#32),
    TRef.unary (TRef.of (T := ⟨S_, .i32⟩) main_call4_c_2) (TRef.of (T := ⟨S8192, .i32⟩) main_call4_v7) (broadcastInDim S8192 ![] bcast_S_S8192),
    TRef.binary (TRef.of (T := ⟨S8192, .i32⟩) main_call4_v4) (TRef.of (T := ⟨S8192, .i32⟩) main_call4_v7) (TRef.of (T := ⟨S8192, .i1⟩) main_call4_v8) (cmpi .slt),
    TRef.nullary (TRef.of (T := ⟨S_, .i32⟩) main_call4_c_3) (constantI S_ 32 0#32),
    TRef.binary (TRef.of (T := ⟨S_, .i32⟩) main_call4_v2) (TRef.of (T := ⟨S_, .i32⟩) main_call4_c_3) (TRef.of (T := ⟨S_, .i1⟩) main_call4_v9) (cmpi .slt),
    TRef.unary (TRef.of (T := ⟨S_, .i1⟩) main_call4_v9) (TRef.of (T := ⟨S8192, .i1⟩) main_call4_v10) (broadcastInDim S8192 ![] bcast_S_S8192),
    TRef.binary (TRef.of (T := ⟨S8192, .i1⟩) main_call4_v8) (TRef.of (T := ⟨S8192, .i1⟩) main_call4_v10) (TRef.of (T := ⟨S8192, .i1⟩) main_call4_v11) (cmpi .ne),
    TRef.binary (TRef.of (T := ⟨S8192, .i1⟩) main_call4_v11) (TRef.of (T := ⟨S8192, .i1⟩) main_call4_v6) (TRef.of (T := ⟨S8192, .i1⟩) main_call4_v12) andi,
    TRef.unary (TRef.of (T := ⟨S_, .i32⟩) main_call4_v2) (TRef.of (T := ⟨S8192, .i32⟩) main_call4_v13) (broadcastInDim S8192 ![] bcast_S_S8192),
    TRef.binary (TRef.of (T := ⟨S8192, .i32⟩) main_call4_v4) (TRef.of (T := ⟨S8192, .i32⟩) main_call4_v13) (TRef.of (T := ⟨S8192, .i32⟩) main_call4_v14) addi,
    TRef.ternary (TRef.of (T := ⟨S8192, .i1⟩) main_call4_v12) (TRef.of (T := ⟨S8192, .i32⟩) main_call4_v14) (TRef.of (T := ⟨S8192, .i32⟩) main_call4_v4) (TRef.of (T := ⟨S8192, .i32⟩) main_v15) select ]

/-- Operations 67–89 of the line. -/
def W6 : List (HloOp τ sig (Elt F)) :=
  [
    TRef.nullary (TRef.of (T := ⟨S_, .i32⟩) main_call5_c) (constantI S_ 32 0#32),
    TRef.unary (TRef.of (T := ⟨S_, .i32⟩) main_call5_c) (TRef.of (T := ⟨S8192, .i32⟩) main_call5_v0) (broadcastInDim S8192 ![] bcast_S_S8192),
    TRef.binary (TRef.of (T := ⟨S8192, .i32⟩) main_v15) (TRef.of (T := ⟨S8192, .i32⟩) main_call5_v0) (TRef.of (T := ⟨S8192, .i1⟩) main_call5_v1) (cmpi .slt),
    TRef.nullary (TRef.of (T := ⟨S_, .i32⟩) main_call5_c_0) (constantI S_ 32 16384#32),
    TRef.unary (TRef.of (T := ⟨S_, .i32⟩) main_call5_c_0) (TRef.of (T := ⟨S8192, .i32⟩) main_call5_v2) (broadcastInDim S8192 ![] bcast_S_S8192),
    TRef.binary (TRef.of (T := ⟨S8192, .i32⟩) main_v15) (TRef.of (T := ⟨S8192, .i32⟩) main_call5_v2) (TRef.of (T := ⟨S8192, .i32⟩) main_call5_v3) addi,
    TRef.ternary (TRef.of (T := ⟨S8192, .i1⟩) main_call5_v1) (TRef.of (T := ⟨S8192, .i32⟩) main_call5_v3) (TRef.of (T := ⟨S8192, .i32⟩) main_v15) (TRef.of (T := ⟨S8192, .i32⟩) main_call5_v4) select,
    TRef.unary (TRef.of (T := ⟨S8192, .i32⟩) main_call5_v4) (TRef.of (T := ⟨S8192x1, .i32⟩) main_call5_v5) (broadcastInDim S8192x1 ![0] bcast_S8192_S8192x1_0),
    TRef.nullary (TRef.of (T := ⟨S1, .i32⟩) main_call5_c_1) (constantI S1 32 16383#32),
    TRef.nullary (TRef.of (T := ⟨S_, .i32⟩) main_call5_c_2) (constantI S_ 32 0#32),
    TRef.unary (TRef.of (T := ⟨S_, .i32⟩) main_call5_c_2) (TRef.of (T := ⟨S8192x1, .i32⟩) main_call5_v6) (broadcastInDim S8192x1 ![] bcast_S_S8192x1),
    TRef.binary (TRef.of (T := ⟨S8192x1, .i32⟩) main_call5_v5) (TRef.of (T := ⟨S8192x1, .i32⟩) main_call5_v6) (TRef.of (T := ⟨S8192x1, .i1⟩) main_call5_v7) (cmpi .sge),
    TRef.unary (TRef.of (T := ⟨S1, .i32⟩) main_call5_c_1) (TRef.of (T := ⟨S1x1, .i32⟩) main_call5_v8) (broadcastInDim S1x1 ![1] bcast_S1_S1x1_1),
    TRef.unary (TRef.of (T := ⟨S1x1, .i32⟩) main_call5_v8) (TRef.of (T := ⟨S8192x1, .i32⟩) main_call5_v9) (broadcastInDim S8192x1 ![0, 1] bcast_S1x1_S8192x1_0_1),
    TRef.binary (TRef.of (T := ⟨S8192x1, .i32⟩) main_call5_v5) (TRef.of (T := ⟨S8192x1, .i32⟩) main_call5_v9) (TRef.of (T := ⟨S8192x1, .i1⟩) main_call5_v10) (cmpi .sle),
    TRef.binary (TRef.of (T := ⟨S8192x1, .i1⟩) main_call5_v7) (TRef.of (T := ⟨S8192x1, .i1⟩) main_call5_v10) (TRef.of (T := ⟨S8192x1, .i1⟩) main_call5_v11) andi,
    TRef.nullary (TRef.of (T := ⟨S_, .i1⟩) main_call5_c_3) (constantI S_ 1 1#1),
    TRef.binary (TRef.of (T := ⟨S8192x1, .i1⟩) main_call5_v11) (TRef.of (T := ⟨S_, .i1⟩) main_call5_c_3) (TRef.of (T := ⟨S8192, .i1⟩) main_call5_v12) (fun x v => Host.reduce IntOp.andi x v reducesTo_S8192x1_S8192_d1 h_S_),
    TRef.binary (TRef.of (T := ⟨S16384x4096, .f32⟩) main_arg1) (TRef.of (T := ⟨S8192x1, .i32⟩) main_call5_v5) (TRef.of (T := ⟨S8192x4096, .f32⟩) main_call5_v13) (fun x i => Host.gather gather_S16384x4096_S8192x1_S8192x4096_1_0_n_n_0_1_14096 x i),
    TRef.unary (TRef.of (T := ⟨S8192, .i1⟩) main_call5_v12) (TRef.of (T := ⟨S8192x4096, .i1⟩) main_call5_v14) (broadcastInDim S8192x4096 ![0] bcast_S8192_S8192x4096_0),
    TRef.nullary (TRef.of (T := ⟨S_, .f32⟩) main_call5_cst) (constant S_ .f32 0x7FC00000#32),
    TRef.unary (TRef.of (T := ⟨S_, .f32⟩) main_call5_cst) (TRef.of (T := ⟨S8192x4096, .f32⟩) main_call5_v15) (broadcastInDim S8192x4096 ![] bcast_S_S8192x4096),
    TRef.ternary (TRef.of (T := ⟨S8192x4096, .i1⟩) main_call5_v14) (TRef.of (T := ⟨S8192x4096, .f32⟩) main_call5_v13) (TRef.of (T := ⟨S8192x4096, .f32⟩) main_call5_v15) (TRef.of (T := ⟨S8192x4096, .f32⟩) main_v16) select ]

/-- Operations 90–111 of the line. -/
def W7 : List (HloOp τ sig (Elt F)) :=
  [
    TRef.nullary (TRef.of (T := ⟨S_, .i32⟩) main_call6_c) (constantI S_ 32 0#32),
    TRef.unary (TRef.of (T := ⟨S_, .i32⟩) main_call6_c) (TRef.of (T := ⟨S8192, .i32⟩) main_call6_v0) (broadcastInDim S8192 ![] bcast_S_S8192),
    TRef.binary (TRef.of (T := ⟨S8192, .i32⟩) main_v15) (TRef.of (T := ⟨S8192, .i32⟩) main_call6_v0) (TRef.of (T := ⟨S8192, .i1⟩) main_call6_v1) (cmpi .slt),
    TRef.nullary (TRef.of (T := ⟨S_, .i32⟩) main_call6_c_0) (constantI S_ 32 16384#32),
    TRef.unary (TRef.of (T := ⟨S_, .i32⟩) main_call6_c_0) (TRef.of (T := ⟨S8192, .i32⟩) main_call6_v2) (broadcastInDim S8192 ![] bcast_S_S8192),
    TRef.binary (TRef.of (T := ⟨S8192, .i32⟩) main_v15) (TRef.of (T := ⟨S8192, .i32⟩) main_call6_v2) (TRef.of (T := ⟨S8192, .i32⟩) main_call6_v3) addi,
    TRef.ternary (TRef.of (T := ⟨S8192, .i1⟩) main_call6_v1) (TRef.of (T := ⟨S8192, .i32⟩) main_call6_v3) (TRef.of (T := ⟨S8192, .i32⟩) main_v15) (TRef.of (T := ⟨S8192, .i32⟩) main_call6_v4) select,
    TRef.unary (TRef.of (T := ⟨S8192, .i32⟩) main_call6_v4) (TRef.of (T := ⟨S8192x1, .i32⟩) main_call6_v5) (broadcastInDim S8192x1 ![0] bcast_S8192_S8192x1_0),
    TRef.nullary (TRef.of (T := ⟨S1, .i32⟩) main_call6_c_1) (constantI S1 32 16383#32),
    TRef.nullary (TRef.of (T := ⟨S_, .i32⟩) main_call6_c_2) (constantI S_ 32 0#32),
    TRef.unary (TRef.of (T := ⟨S_, .i32⟩) main_call6_c_2) (TRef.of (T := ⟨S8192x1, .i32⟩) main_call6_v6) (broadcastInDim S8192x1 ![] bcast_S_S8192x1),
    TRef.binary (TRef.of (T := ⟨S8192x1, .i32⟩) main_call6_v5) (TRef.of (T := ⟨S8192x1, .i32⟩) main_call6_v6) (TRef.of (T := ⟨S8192x1, .i1⟩) main_call6_v7) (cmpi .sge),
    TRef.unary (TRef.of (T := ⟨S1, .i32⟩) main_call6_c_1) (TRef.of (T := ⟨S1x1, .i32⟩) main_call6_v8) (broadcastInDim S1x1 ![1] bcast_S1_S1x1_1),
    TRef.unary (TRef.of (T := ⟨S1x1, .i32⟩) main_call6_v8) (TRef.of (T := ⟨S8192x1, .i32⟩) main_call6_v9) (broadcastInDim S8192x1 ![0, 1] bcast_S1x1_S8192x1_0_1),
    TRef.binary (TRef.of (T := ⟨S8192x1, .i32⟩) main_call6_v5) (TRef.of (T := ⟨S8192x1, .i32⟩) main_call6_v9) (TRef.of (T := ⟨S8192x1, .i1⟩) main_call6_v10) (cmpi .sle),
    TRef.binary (TRef.of (T := ⟨S8192x1, .i1⟩) main_call6_v7) (TRef.of (T := ⟨S8192x1, .i1⟩) main_call6_v10) (TRef.of (T := ⟨S8192x1, .i1⟩) main_call6_v11) andi,
    TRef.nullary (TRef.of (T := ⟨S_, .i1⟩) main_call6_c_3) (constantI S_ 1 1#1),
    TRef.binary (TRef.of (T := ⟨S8192x1, .i1⟩) main_call6_v11) (TRef.of (T := ⟨S_, .i1⟩) main_call6_c_3) (TRef.of (T := ⟨S8192, .i1⟩) main_call6_v12) (fun x v => Host.reduce IntOp.andi x v reducesTo_S8192x1_S8192_d1 h_S_),
    TRef.binary (TRef.of (T := ⟨S16384, .f32⟩) main_arg2) (TRef.of (T := ⟨S8192x1, .i32⟩) main_call6_v5) (TRef.of (T := ⟨S8192, .f32⟩) main_call6_v13) (fun x i => Host.gather gather_S16384_S8192x1_S8192_n_0_n_n_0_1_1 x i),
    TRef.nullary (TRef.of (T := ⟨S_, .f32⟩) main_call6_cst) (constant S_ .f32 0x7FC00000#32),
    TRef.unary (TRef.of (T := ⟨S_, .f32⟩) main_call6_cst) (TRef.of (T := ⟨S8192, .f32⟩) main_call6_v14) (broadcastInDim S8192 ![] bcast_S_S8192),
    TRef.ternary (TRef.of (T := ⟨S8192, .i1⟩) main_call6_v12) (TRef.of (T := ⟨S8192, .f32⟩) main_call6_v13) (TRef.of (T := ⟨S8192, .f32⟩) main_call6_v14) (TRef.of (T := ⟨S8192, .f32⟩) main_v17) select ]

/-- Operations 112–115 of the line. -/
def W8 : List (HloOp τ sig (Elt F)) :=
  [
    binary main_arg0 main_v16 main_v18 ((fun l r => Host.dotGeneral dot_S8192x4096_S8192x4096_S8192x8192_1_1_0_0_n_n none l r) : (⟨S8192x4096, .f32⟩ : BufTy).Contents (Elt F) → (⟨S8192x4096, .f32⟩ : BufTy).Contents (Elt F) → (⟨S8192x8192, .f32⟩ : BufTy).Contents (Elt F)),
    unary main_v17 main_v19 (broadcastInDim S1x8192 ![1] bcast_S8192_S1x8192_1 : (⟨S8192, .f32⟩ : BufTy).Contents (Elt F) → (⟨S1x8192, .f32⟩ : BufTy).Contents (Elt F)),
    unary main_v19 main_v20 (broadcastInDim S8192x8192 ![0, 1] bcast_S1x8192_S8192x8192_0_1 : (⟨S1x8192, .f32⟩ : BufTy).Contents (Elt F) → (⟨S8192x8192, .f32⟩ : BufTy).Contents (Elt F)),
    binary main_v18 main_v20 main_v21 (addf : (⟨S8192x8192, .f32⟩ : BufTy).Contents (Elt F) → (⟨S8192x8192, .f32⟩ : BufTy).Contents (Elt F) → (⟨S8192x8192, .f32⟩ : BufTy).Contents (Elt F)) ]

/-- @main's 115 operations, in order: the windows one after the other. -/
def ops : List (HloOp τ sig (Elt F)) :=
  W1 ++ (W2 ++ (W3 ++ (W4 ++ (W5 ++ (W6 ++ (W7 ++ (W8)))))))

/-! ## @main is the line -/

set_option maxRecDepth 16384 in
set_option maxHeartbeats 4000000 in
/-- @main is that straight line: the called functions' bodies unfold at their calls, the call records at their fields,
    and sequencing reassociates, all by computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem W1_sub : (W1 : List (HloOp τ sig (Elt F))).Forall fun op => op.bufs ⊆ tcRefs τ sig :=
  ⟨nullary_bufs_sub .., unary_bufs_sub .., binary_bufs_sub .., unary_bufs_sub .., nullary_bufs_sub .., unary_bufs_sub .., binary_bufs_sub .., nullary_bufs_sub .., unary_bufs_sub .., nullary_bufs_sub .., unary_bufs_sub .., unary_bufs_sub .., binary_bufs_sub ..⟩

theorem W2_sub : (W2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., unary_bufs_sub .., ternary_bufs_sub ..⟩

theorem W3_sub : (W3 : List (HloOp τ sig (Elt F))).Forall fun op => op.bufs ⊆ tcRefs τ sig :=
  ⟨nullary_bufs_sub .., unary_bufs_sub .., binary_bufs_sub ..⟩

theorem W4_sub : (W4 : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩

theorem W5_sub : (W5 : List (HloOp τ sig (Elt F))).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

theorem W6_sub : (W6 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem W7_sub : (W7 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

theorem W8_sub : (W8 : List (HloOp τ sig (Elt F))).Forall fun op => op.bufs ⊆ tcRefs τ sig :=
  ⟨binary_bufs_sub .., unary_bufs_sub .., unary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h | h | h | h | h | h
    exacts [List.forall_iff_forall_mem.mp W1_sub op h, List.forall_iff_forall_mem.mp W2_sub op h, List.forall_iff_forall_mem.mp W3_sub op h, List.forall_iff_forall_mem.mp W4_sub op h, List.forall_iff_forall_mem.mp W5_sub op h, List.forall_iff_forall_mem.mp W6_sub op h, List.forall_iff_forall_mem.mp W7_sub op h, List.forall_iff_forall_mem.mp W8_sub op h]

/-- Two lines run one after the other: the second from where the first ends. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

theorem after_ops (V : Valuation τ sig (Elt F)) : after ops V = after W8 (after W7 (after W6 (after W5 (after W4 (after W3 (after W2 (after W1 V))))))) := by
  simp only [ops, after_app]

/-! ## What each window writes, and that it keeps the rest -/

/-- The buffers window `W1` writes. -/
abbrev W1_W : List (Ref sig .tc) := [main_c, main_v0, main_v1, main_call0_v0, main_call0_call0_c, main_call0_call0_v0, main_v2, main_c_0, main_v3, main_c_1, main_call1_v0, main_call1_v1, main_v4]
theorem W1_writes : (W1 : List (HloOp τ sig (Elt F))).Forall fun op => op.writes ⊆ (W1_W.map (Proc.devRef (τ := τ) .tc)).toFinset := by
  simp only [W1, List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer window `W1` does not write keeps its contents through it. -/
theorem W1_keep (V : Valuation τ sig (Elt F)) (r : Ref sig .tc) (h : r ∉ W1_W) :
    after W1 V (Proc.devRef .tc r) = V (Proc.devRef .tc r) :=
  after_of_writes_sub W1 V W1_writes h

/-- The buffers window `W2` writes. -/
abbrev W2_W : List (Ref sig .tc) := [main_c_2, main_v5, main_v6, main_c_3, main_v7, main_v8, main_v9, main_v10, main_c_4, main_v11, main_v12]
theorem W2_writes : (W2 : List (HloOp τ sig (Elt F))).Forall fun op => op.writes ⊆ (W2_W.map (Proc.devRef (τ := τ) .tc)).toFinset := by
  simp only [W2, List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer window `W2` does not write keeps its contents through it. -/
theorem W2_keep (V : Valuation τ sig (Elt F)) (r : Ref sig .tc) (h : r ∉ W2_W) :
    after W2 V (Proc.devRef .tc r) = V (Proc.devRef .tc r) :=
  after_of_writes_sub W2 V W2_writes h

/-- The buffers window `W3` writes. -/
abbrev W3_W : List (Ref sig .tc) := [main_call2_call0_c, main_call2_call0_v0, main_v13]
theorem W3_writes : (W3 : List (HloOp τ sig (Elt F))).Forall fun op => op.writes ⊆ (W3_W.map (Proc.devRef (τ := τ) .tc)).toFinset := by
  simp only [W3, List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer window `W3` does not write keeps its contents through it. -/
theorem W3_keep (V : Valuation τ sig (Elt F)) (r : Ref sig .tc) (h : r ∉ W3_W) :
    after W3 V (Proc.devRef .tc r) = V (Proc.devRef .tc r) :=
  after_of_writes_sub W3 V W3_writes h

/-- The buffers window `W4` writes. -/
abbrev W4_W : List (Ref sig .tc) := [main_c_5, main_call3_v0, main_call3_v1, main_call3_v2, main_call3_v3, main_call3_v4, main_call3_v5, main_call3_v6, main_call3_v7, main_call3_c, main_call3_v8, main_call3_v9, main_call3_v10, main_call3_c_0, main_call3_v11, main_call3_v12, main_v14]
theorem W4_writes : (W4 : List (HloOp τ sig (Elt F))).Forall fun op => op.writes ⊆ (W4_W.map (Proc.devRef (τ := τ) .tc)).toFinset := by
  simp only [W4, List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer window `W4` does not write keeps its contents through it. -/
theorem W4_keep (V : Valuation τ sig (Elt F)) (r : Ref sig .tc) (h : r ∉ W4_W) :
    after W4 V (Proc.devRef .tc r) = V (Proc.devRef .tc r) :=
  after_of_writes_sub W4 V W4_writes h

/-- The buffers window `W5` writes. -/
abbrev W5_W : List (Ref sig .tc) := [main_c_6, main_call4_v0, main_call4_c, main_call4_v1, main_call4_c_0, main_call4_v2, main_call4_v3, main_call4_v4, main_call4_c_1, main_call4_v5, main_call4_v6, main_call4_c_2, main_call4_v7, main_call4_v8, main_call4_c_3, main_call4_v9, main_call4_v10, main_call4_v11, main_call4_v12, main_call4_v13, main_call4_v14, main_v15]
theorem W5_writes : (W5 : List (HloOp τ sig (Elt F))).Forall fun op => op.writes ⊆ (W5_W.map (Proc.devRef (τ := τ) .tc)).toFinset := by
  simp only [W5, List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer window `W5` does not write keeps its contents through it. -/
theorem W5_keep (V : Valuation τ sig (Elt F)) (r : Ref sig .tc) (h : r ∉ W5_W) :
    after W5 V (Proc.devRef .tc r) = V (Proc.devRef .tc r) :=
  after_of_writes_sub W5 V W5_writes h

/-- The buffers window `W6` writes. -/
abbrev W6_W : List (Ref sig .tc) := [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v16]
theorem W6_writes : (W6 : List (HloOp τ sig (Elt F))).Forall fun op => op.writes ⊆ (W6_W.map (Proc.devRef (τ := τ) .tc)).toFinset := by
  simp only [W6, List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer window `W6` does not write keeps its contents through it. -/
theorem W6_keep (V : Valuation τ sig (Elt F)) (r : Ref sig .tc) (h : r ∉ W6_W) :
    after W6 V (Proc.devRef .tc r) = V (Proc.devRef .tc r) :=
  after_of_writes_sub W6 V W6_writes h

/-- The buffers window `W7` writes. -/
abbrev W7_W : List (Ref sig .tc) := [main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_cst, main_call6_v14, main_v17]
theorem W7_writes : (W7 : List (HloOp τ sig (Elt F))).Forall fun op => op.writes ⊆ (W7_W.map (Proc.devRef (τ := τ) .tc)).toFinset := by
  simp only [W7, List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer window `W7` does not write keeps its contents through it. -/
theorem W7_keep (V : Valuation τ sig (Elt F)) (r : Ref sig .tc) (h : r ∉ W7_W) :
    after W7 V (Proc.devRef .tc r) = V (Proc.devRef .tc r) :=
  after_of_writes_sub W7 V W7_writes h

/-- The buffers window `W8` writes. -/
abbrev W8_W : List (Ref sig .tc) := [main_v18, main_v19, main_v20, main_v21]
theorem W8_writes : (W8 : List (HloOp τ sig (Elt F))).Forall fun op => op.writes ⊆ (W8_W.map (Proc.devRef (τ := τ) .tc)).toFinset := by
  simp only [W8, List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer window `W8` does not write keeps its contents through it. -/
theorem W8_keep (V : Valuation τ sig (Elt F)) (r : Ref sig .tc) (h : r ∉ W8_W) :
    after W8 V (Proc.devRef .tc r) = V (Proc.devRef .tc r) :=
  after_of_writes_sub W8 V W8_writes h

/-! ## Each window's value -/

attribute [local irreducible] Host.reduceWindow Host.reduce Host.gather Host.scatter in
set_option maxRecDepth 8192 in
set_option maxHeartbeats 2000000 in
theorem w1_v4 (V : Valuation τ sig (Elt F)) : after W1 V (Proc.devRef .tc main_v4) = nzClip (V (Proc.devRef .tc main_arg3)) := by
  unfold W1
  after_results_simp <;> rfl

attribute [local irreducible] Host.reduceWindow Host.reduce Host.gather Host.scatter in
set_option maxRecDepth 8192 in
set_option maxHeartbeats 2000000 in
theorem w1_v3 (V : Valuation τ sig (Elt F)) : after W1 V (Proc.devRef .tc main_v3) = zeroSlots := by
  unfold W1
  after_results_simp <;> rfl

attribute [local irreducible] Host.reduceWindow Host.reduce Host.gather Host.scatter in
set_option maxRecDepth 8192 in
set_option maxHeartbeats 2000000 in
theorem w2_v12 (V : Valuation τ sig (Elt F)) : after W2 V (Proc.devRef .tc main_v12) = slotScatter (V (Proc.devRef .tc main_v3)) (V (Proc.devRef .tc main_v4)) := by
  unfold W2
  after_results_simp <;> rfl

attribute [local irreducible] Host.reduceWindow Host.reduce Host.gather Host.scatter in
set_option maxRecDepth 8192 in
set_option maxHeartbeats 2000000 in
theorem w3_v13 (V : Valuation τ sig (Elt F)) : after W3 V (Proc.devRef .tc main_v13) = cumsumSlots (V (Proc.devRef .tc main_v12)) := by
  unfold W3
  after_results_simp <;> rfl

attribute [local irreducible] Host.reduceWindow Host.reduce Host.gather Host.scatter in
set_option maxRecDepth 8192 in
set_option maxHeartbeats 2000000 in
theorem w4_v14 (V : Valuation τ sig (Elt F)) : after W4 V (Proc.devRef .tc main_v14) = floorDivOne (V (Proc.devRef .tc main_v13)) := by
  unfold W4
  after_results_simp <;> rfl

attribute [local irreducible] Host.reduceWindow Host.reduce Host.gather Host.scatter in
set_option maxRecDepth 8192 in
set_option maxHeartbeats 2000000 in
theorem w5_v15 (V : Valuation τ sig (Elt F)) : after W5 V (Proc.devRef .tc main_v15) = remN (V (Proc.devRef .tc main_v14)) := by
  unfold W5
  after_results_simp <;> rfl

attribute [local irreducible] Host.reduceWindow Host.reduce Host.gather Host.scatter in
set_option maxRecDepth 8192 in
set_option maxHeartbeats 2000000 in
theorem w6_v16 (V : Valuation τ sig (Elt F)) : after W6 V (Proc.devRef .tc main_v16) = takeRows (V (Proc.devRef .tc main_arg1)) (V (Proc.devRef .tc main_v15)) := by
  unfold W6
  after_results_simp <;> rfl

attribute [local irreducible] Host.reduceWindow Host.reduce Host.gather Host.scatter in
set_option maxRecDepth 8192 in
set_option maxHeartbeats 2000000 in
theorem w7_v17 (V : Valuation τ sig (Elt F)) : after W7 V (Proc.devRef .tc main_v17) = takeBias (V (Proc.devRef .tc main_arg2)) (V (Proc.devRef .tc main_v15)) := by
  unfold W7
  after_results_simp <;> rfl

attribute [local irreducible] Host.reduceWindow Host.reduce Host.gather Host.scatter in
set_option maxRecDepth 8192 in
set_option maxHeartbeats 2000000 in
theorem w8_v21 (V : Valuation τ sig (Elt F)) : after W8 V (Proc.devRef .tc main_v21) = gemmBias (V (Proc.devRef .tc main_arg0)) (V (Proc.devRef .tc main_v16)) (V (Proc.devRef .tc main_v17)) := by
  unfold W8
  after_results_simp <;> rfl

/-! ## The line's value: the windows chained -/

theorem s2_v12 (V : Valuation τ sig (Elt F)) : (after W2 (after W1 V)) (Proc.devRef .tc main_v12) = slotScatter zeroSlots (nzClip (V (Proc.devRef .tc main_arg3))) :=
  (w2_v12 _).trans (by rw [w1_v3, w1_v4])
theorem s3_v13 (V : Valuation τ sig (Elt F)) : (after W3 (after W2 (after W1 V))) (Proc.devRef .tc main_v13) = cumsumSlots (slotScatter zeroSlots (nzClip (V (Proc.devRef .tc main_arg3)))) :=
  (w3_v13 _).trans (by rw [s2_v12])
theorem s4_v14 (V : Valuation τ sig (Elt F)) :
    (after W4 (after W3 (after W2 (after W1 V)))) (Proc.devRef .tc main_v14) = floorDivOne (cumsumSlots (slotScatter zeroSlots (nzClip (V (Proc.devRef .tc main_arg3))))) :=
  (w4_v14 _).trans (by rw [s3_v13])
/-- After the fifth window the `remainder` call's result holds the selected row indices. -/
theorem s5_v15 (V : Valuation τ sig (Elt F)) : (after W5 (after W4 (after W3 (after W2 (after W1 V))))) (Proc.devRef .tc main_v15) = idxF (V (Proc.devRef .tc main_arg3)) :=
  (w5_v15 _).trans (by rw [s4_v14]; rfl)
theorem s6_v16 (V : Valuation τ sig (Elt F)) : (after W6 (after W5 (after W4 (after W3 (after W2 (after W1 V)))))) (Proc.devRef .tc main_v16) = takeRows (V (Proc.devRef .tc main_arg1)) (idxF (V (Proc.devRef .tc main_arg3))) :=
  (w6_v16 _).trans (by rw [W5_keep _ main_arg1 (by decide), W4_keep _ main_arg1 (by decide), W3_keep _ main_arg1 (by decide), W2_keep _ main_arg1 (by decide), W1_keep _ main_arg1 (by decide), s5_v15])
theorem s6_v15 (V : Valuation τ sig (Elt F)) : (after W6 (after W5 (after W4 (after W3 (after W2 (after W1 V)))))) (Proc.devRef .tc main_v15) = idxF (V (Proc.devRef .tc main_arg3)) :=
  (W6_keep _ main_v15 (by decide)).trans (s5_v15 V)
theorem s7_v17 (V : Valuation τ sig (Elt F)) : (after W7 (after W6 (after W5 (after W4 (after W3 (after W2 (after W1 V))))))) (Proc.devRef .tc main_v17) = takeBias (V (Proc.devRef .tc main_arg2)) (idxF (V (Proc.devRef .tc main_arg3))) :=
  (w7_v17 _).trans (by rw [W6_keep _ main_arg2 (by decide), W5_keep _ main_arg2 (by decide), W4_keep _ main_arg2 (by decide), W3_keep _ main_arg2 (by decide), W2_keep _ main_arg2 (by decide), W1_keep _ main_arg2 (by decide), s6_v15])
theorem s7_v16 (V : Valuation τ sig (Elt F)) : (after W7 (after W6 (after W5 (after W4 (after W3 (after W2 (after W1 V))))))) (Proc.devRef .tc main_v16) = takeRows (V (Proc.devRef .tc main_arg1)) (idxF (V (Proc.devRef .tc main_arg3))) :=
  (W7_keep _ main_v16 (by decide)).trans (s6_v16 V)
/-- The result buffer after the whole line. -/
theorem s8_v21 (V : Valuation τ sig (Elt F)) :
    (after W8 (after W7 (after W6 (after W5 (after W4 (after W3 (after W2 (after W1 V)))))))) (Proc.devRef .tc main_v21)
      = outF (V (Proc.devRef .tc main_arg0)) (V (Proc.devRef .tc main_arg1)) (V (Proc.devRef .tc main_arg2)) (V (Proc.devRef .tc main_arg3)) :=
  (w8_v21 _).trans (by rw [W7_keep _ main_arg0 (by decide), W6_keep _ main_arg0 (by decide), W5_keep _ main_arg0 (by decide), W4_keep _ main_arg0 (by decide), W3_keep _ main_arg0 (by decide), W2_keep _ main_arg0 (by decide), W1_keep _ main_arg0 (by decide), s7_v16, s7_v17]; rfl)

theorem s8_arg0 (V : Valuation τ sig (Elt F)) : (after W8 (after W7 (after W6 (after W5 (after W4 (after W3 (after W2 (after W1 V)))))))) (Proc.devRef .tc main_arg0) = V (Proc.devRef .tc main_arg0) := by
  rw [W8_keep _ main_arg0 (by decide), W7_keep _ main_arg0 (by decide), W6_keep _ main_arg0 (by decide), W5_keep _ main_arg0 (by decide), W4_keep _ main_arg0 (by decide), W3_keep _ main_arg0 (by decide), W2_keep _ main_arg0 (by decide), W1_keep _ main_arg0 (by decide)]

theorem s8_arg1 (V : Valuation τ sig (Elt F)) : (after W8 (after W7 (after W6 (after W5 (after W4 (after W3 (after W2 (after W1 V)))))))) (Proc.devRef .tc main_arg1) = V (Proc.devRef .tc main_arg1) := by
  rw [W8_keep _ main_arg1 (by decide), W7_keep _ main_arg1 (by decide), W6_keep _ main_arg1 (by decide), W5_keep _ main_arg1 (by decide), W4_keep _ main_arg1 (by decide), W3_keep _ main_arg1 (by decide), W2_keep _ main_arg1 (by decide), W1_keep _ main_arg1 (by decide)]

theorem s8_arg2 (V : Valuation τ sig (Elt F)) : (after W8 (after W7 (after W6 (after W5 (after W4 (after W3 (after W2 (after W1 V)))))))) (Proc.devRef .tc main_arg2) = V (Proc.devRef .tc main_arg2) := by
  rw [W8_keep _ main_arg2 (by decide), W7_keep _ main_arg2 (by decide), W6_keep _ main_arg2 (by decide), W5_keep _ main_arg2 (by decide), W4_keep _ main_arg2 (by decide), W3_keep _ main_arg2 (by decide), W2_keep _ main_arg2 (by decide), W1_keep _ main_arg2 (by decide)]

theorem s8_arg3 (V : Valuation τ sig (Elt F)) : (after W8 (after W7 (after W6 (after W5 (after W4 (after W3 (after W2 (after W1 V)))))))) (Proc.devRef .tc main_arg3) = V (Proc.devRef .tc main_arg3) := by
  rw [W8_keep _ main_arg3 (by decide), W7_keep _ main_arg3 (by decide), W6_keep _ main_arg3 (by decide), W5_keep _ main_arg3 (by decide), W4_keep _ main_arg3 (by decide), W3_keep _ main_arg3 (by decide), W2_keep _ main_arg3 (by decide), W1_keep _ main_arg3 (by decide)]

/-! ## The run -/

set_option maxRecDepth 16384 in
set_option maxHeartbeats 4000000 in
/-- On every device, for any float values, from any memory with zero counters: every weakly fair execution of @main
    terminates with the result at `outF` of the arguments' launch contents and the arguments unchanged. -/
theorem run_gen (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v21) = outF (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v21).trans ((congrFun (after_ops _) _).trans (s8_v21 _)),
      (h c main_arg0).trans ((congrFun (after_ops _) _).trans (s8_arg0 _)),
      (h c main_arg1).trans ((congrFun (after_ops _) _).trans (s8_arg1 _)),
      (h c main_arg2).trans ((congrFun (after_ops _) _).trans (s8_arg2 _)),
      (h c main_arg3).trans ((congrFun (after_ops _) _).trans (s8_arg3 _))⟩)
    (run_seq scopedRefs_eq scopedSems_eq defs main (fun _ => ops) main_eq (fun _ => ops_sub) m ρ)

/-! ## At the ideal values -/

/-- The selected row indices, at the ideal instance: `idxF` (integers do not depend on the float values). It unfolds,
    definition by definition, to the literal composition of the line's operations. -/
def idxR (msk : Vec Ideal S16384 .i32) : Vec Ideal S8192 .i32 := idxF msk
/-- The gathered bias vector that is added at the end. -/
def biasR (b : Vec Ideal S16384 .f32) (msk : Vec Ideal S16384 .i32) : Vec Ideal S8192 .f32 := takeBias b (idxR msk)
/-- The gathered weight rows. -/
def rowsR (w : Vec Ideal S16384x4096 .f32) (msk : Vec Ideal S16384 .i32) : Vec Ideal S8192x4096 .f32 := takeRows w (idxR msk)
/-- @main's result at the ideal values. -/
def outR (d : Vec Ideal S8192x4096 .f32) (w : Vec Ideal S16384x4096 .f32) (b : Vec Ideal S16384 .f32)
    (msk : Vec Ideal S16384 .i32) : Vec Ideal S8192x8192 .f32 :=
  gemmBias d (rowsR w msk) (biasR b msk)

theorem outR_eq_outF (d : Vec Ideal S8192x4096 .f32) (w : Vec Ideal S16384x4096 .f32) (b : Vec Ideal S16384 .f32)
    (msk : Vec Ideal S16384 .i32) : outR d w b msk = outF d w b msk := rfl

/-- The reference's run at the ideal values. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v21) = outR (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  run_gen m ρ

/-- The reference runs and leaves its four arguments unchanged (the frame claim's body, from any memory). -/
theorem frame_ri' (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run (defs (F := Ideal)) _ _).mono (fun _ h c => (h c).2) (run m g)

end Cert.ReferenceIdeal.Hand

end
-- ==== Proof.KI.HostChain.lean ====
/- The kernel program's host chain before its first region computes the same values as the reference's: the same
   operations in the same order (the nonzero count clipped, the scatter into slots, its prefix sum, the floor division,
   the remainder by 16384, and the take of the bias), so after them the index table is the reference's selected row
   indices and the gathered bias is the reference's, as functions of the mask and bias at launch. -/
import proofs.«172148_j16612933501330_2_alg».proof.Proof.Gen.KernelIdeal.Regions
import proofs.«172148_j16612933501330_2_alg».proof.Proof.Ref.Run

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

/-! ## Each stretch's value, from any contents -/

attribute [local irreducible] Host.reduceWindow Host.reduce Host.gather Host.scatter in
set_option maxRecDepth 8192 in
set_option maxHeartbeats 2000000 in
/-- The first four stretches leave the clipped running count of nonzero mask entries. -/
theorem k1_v4 (V : Valuation τ sig (Elt F)) :
    (after hostOps0_3 (after hostOps0_2 (after hostOps0_1 (after hostOps0 V)))) (Proc.devRef .tc main_v4) = Cert.ReferenceIdeal.Hand.nzClip (V (Proc.devRef .tc main_arg3)) := by
  after_results_simp <;> rfl

attribute [local irreducible] Host.reduceWindow Host.reduce Host.gather Host.scatter in
set_option maxRecDepth 8192 in
set_option maxHeartbeats 2000000 in
/-- … and the zeroed slots. -/
theorem k1_v3 (V : Valuation τ sig (Elt F)) :
    (after hostOps0_3 (after hostOps0_2 (after hostOps0_1 (after hostOps0 V)))) (Proc.devRef .tc main_v3) = Cert.ReferenceIdeal.Hand.zeroSlots := by
  after_results_simp <;> rfl

attribute [local irreducible] Host.reduceWindow Host.reduce Host.gather Host.scatter in
set_option maxRecDepth 8192 in
set_option maxHeartbeats 2000000 in
/-- The scatter of ones into the slots the counts name. -/
theorem k2_v12 (V : Valuation τ sig (Elt F)) :
    (after hostOps0_4 V) (Proc.devRef .tc main_v12) = Cert.ReferenceIdeal.Hand.slotScatter (V (Proc.devRef .tc main_v3)) (V (Proc.devRef .tc main_v4)) := by
  after_results_simp <;> rfl

attribute [local irreducible] Host.reduceWindow Host.reduce Host.gather Host.scatter in
set_option maxRecDepth 8192 in
set_option maxHeartbeats 2000000 in
/-- The prefix sum over the slots. -/
theorem k3_v13 (V : Valuation τ sig (Elt F)) :
    (after hostOps0_5 V) (Proc.devRef .tc main_v13) = Cert.ReferenceIdeal.Hand.cumsumSlots (V (Proc.devRef .tc main_v12)) := by
  after_results_simp <;> rfl

attribute [local irreducible] Host.reduceWindow Host.reduce Host.gather Host.scatter in
set_option maxRecDepth 8192 in
set_option maxHeartbeats 2000000 in
/-- The floor division by 1. -/
theorem k4_v14 (V : Valuation τ sig (Elt F)) :
    (after hostOps0_7 (after hostOps0_6 V)) (Proc.devRef .tc main_v14) = Cert.ReferenceIdeal.Hand.floorDivOne (V (Proc.devRef .tc main_v13)) := by
  after_results_simp <;> rfl

attribute [local irreducible] Host.reduceWindow Host.reduce Host.gather Host.scatter in
set_option maxRecDepth 8192 in
set_option maxHeartbeats 2000000 in
/-- The remainder by 16384: the index table. -/
theorem k5_v15 (V : Valuation τ sig (Elt F)) :
    (after hostOps0_9 (after hostOps0_8 V)) (Proc.devRef .tc main_v15) = Cert.ReferenceIdeal.Hand.remN (V (Proc.devRef .tc main_v14)) := by
  after_results_simp <;> rfl

attribute [local irreducible] Host.reduceWindow Host.reduce Host.gather Host.scatter in
set_option maxRecDepth 8192 in
set_option maxHeartbeats 2000000 in
/-- The take of the bias at the table's indices. -/
theorem k6_v16 (V : Valuation τ sig (Elt F)) :
    (after hostOps0_10 V) (Proc.devRef .tc main_v16) = Cert.ReferenceIdeal.Hand.takeBias (V (Proc.devRef .tc main_arg2)) (V (Proc.devRef .tc main_v15)) := by
  after_results_simp <;> rfl

/-! ## The contents stretch by stretch, from the launch memory -/

variable (m : (ℓ : Loc nD τ sig) → Buf (Elt F) ℓ)

theorem V4_v4 (c : Dev nD) : V4 m c main_v4 = Cert.ReferenceIdeal.Hand.nzClip (m ((c : Thread nD τ).loc main_arg3)) := k1_v4 (V0 m c)
theorem V4_v3 (c : Dev nD) : V4 m c main_v3 = Cert.ReferenceIdeal.Hand.zeroSlots := k1_v3 (V0 m c)
theorem V5_v12 (c : Dev nD) : V5 m c main_v12 = Cert.ReferenceIdeal.Hand.slotScatter Cert.ReferenceIdeal.Hand.zeroSlots (Cert.ReferenceIdeal.Hand.nzClip (m ((c : Thread nD τ).loc main_arg3))) :=
  (k2_v12 (V4 m c)).trans (by rw [V4_v3, V4_v4])
theorem V6_v13 (c : Dev nD) :
    V6 m c main_v13 = Cert.ReferenceIdeal.Hand.cumsumSlots (Cert.ReferenceIdeal.Hand.slotScatter Cert.ReferenceIdeal.Hand.zeroSlots (Cert.ReferenceIdeal.Hand.nzClip (m ((c : Thread nD τ).loc main_arg3)))) :=
  (k3_v13 (V5 m c)).trans (by rw [V5_v12])
theorem V8_v14 (c : Dev nD) :
    V8 m c main_v14 = Cert.ReferenceIdeal.Hand.floorDivOne (Cert.ReferenceIdeal.Hand.cumsumSlots (Cert.ReferenceIdeal.Hand.slotScatter Cert.ReferenceIdeal.Hand.zeroSlots (Cert.ReferenceIdeal.Hand.nzClip (m ((c : Thread nD τ).loc main_arg3))))) :=
  (k4_v14 (V6 m c)).trans (by rw [V6_v13])
/-- After the remainder's stretch the table holds the reference's selected row indices of the launch mask. -/
theorem V10_v15 (c : Dev nD) : V10 m c main_v15 = Cert.ReferenceIdeal.Hand.idxF (m ((c : Thread nD τ).loc main_arg3)) :=
  (k5_v15 (V8 m c)).trans (by rw [V8_v14]; rfl)
/-- The bias argument is untouched by the first ten stretches. -/
theorem V10_arg2 (c : Dev nD) : V10 m c main_arg2 = m ((c : Thread nD τ).loc main_arg2) :=
  (V10_of m c main_arg2 (by decide)).trans <| (V9_of m c main_arg2 (by decide)).trans <| (V8_of m c main_arg2 (by decide)).trans <| (V7_of m c main_arg2 (by decide)).trans <| (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide))
/-- After the bias take's stretch its result holds the reference's gathered bias. -/
theorem V11_v16 (c : Dev nD) :
    V11 m c main_v16 = Cert.ReferenceIdeal.Hand.takeBias (m ((c : Thread nD τ).loc main_arg2)) (Cert.ReferenceIdeal.Hand.idxF (m ((c : Thread nD τ).loc main_arg3))) :=
  (k6_v16 (V10 m c)).trans (by rw [V10_arg2, V10_v15])
theorem V11_v15 (c : Dev nD) : V11 m c main_v15 = Cert.ReferenceIdeal.Hand.idxF (m ((c : Thread nD τ).loc main_arg3)) :=
  (V11_of m c main_v15 (by decide)).trans (V10_v15 m c)
/-- Before the first region the index table is the reference's selected row indices … -/
theorem V12_v15 (c : Dev nD) : V12 m c main_v15 = Cert.ReferenceIdeal.Hand.idxF (m ((c : Thread nD τ).loc main_arg3)) :=
  (V12_of m c main_v15 (by decide)).trans (V11_v15 m c)
/-- … and the gathered bias the reference's. -/
theorem V12_v16 (c : Dev nD) :
    V12 m c main_v16 = Cert.ReferenceIdeal.Hand.takeBias (m ((c : Thread nD τ).loc main_arg2)) (Cert.ReferenceIdeal.Hand.idxF (m ((c : Thread nD τ).loc main_arg3))) :=
  (V12_of m c main_v16 (by decide)).trans (V11_v16 m c)

end Cert.KernelIdeal.Hand

end
-- ==== Proof.KI.TableRange.lean ====
/-
  Every word of the index table main_v15 is below 16384, read unsigned.
  The table is the result of the host's remainder chain: with d the divisor (16384, or 1 were it zero) and
  r := x srem d (the remainder of the dividend's sign), the word is r + d when r and d differ in sign and r ≠ 0,
  and r otherwise. For d = 16384 the remainder r lies strictly between -16384 and 16384; a negative r is moved up by
  16384 into (0, 16384), a nonnegative one is already in [0, 16384). No later host operation writes the table, so what
  the kernel's launch reads is this chain's result.
-/
import proofs.«172148_j16612933501330_2_alg».proof.Proof.Gen.KernelIdeal.Regions
import Idealize.ShloMosaic.Lib.ValueIdx
import Idealize.ShloMosaic.Lib.WordArith

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]

/-- Division by 16384 meets neither corner of signed division, so the remainder is the plain signed remainder. -/
theorem remsi_host (x : BitVec 32) : IntOp.remsi .host x 16384#32 = x.srem 16384#32 := by
  unfold IntOp.remsi
  rw [if_neg]
  unfold IntOp.SDivCorner
  have h0 : ¬ (16384#32 : BitVec 32) = 0 := by decide
  have h1 : ¬ (16384#32 : BitVec 32) = -1 := by decide
  exact fun h => h.elim h0 (fun h' => h1 h'.2)

/-- The signed remainder by 16384 lies strictly between -16384 and 16384. -/
theorem srem_range (x : BitVec 32) : -16384 < (x.srem 16384#32).toInt ∧ (x.srem 16384#32).toInt < 16384 := by
  rw [BitVec.toInt_srem]
  have e : (16384#32 : BitVec 32).toInt = 16384 := by decide
  rw [e]
  exact ⟨Int.lt_tmod_of_pos _ (by omega), Int.tmod_lt_of_pos _ (by omega)⟩

/-- The floor-remainder chain at the divisor 16384: r := x srem 16384, moved up by 16384 when r is negative (its sign
differs from the divisor's and it is not zero). The result is in [0, 16384). -/
theorem floorMod_lt (x : BitVec 32) :
    (Scalar.select
      (IntOp.andi (IntOp.cmpi .ne (IntOp.cmpi .slt (IntOp.remsi .host x 16384#32) 0#32) (IntOp.cmpi .slt 16384#32 0#32))
        (IntOp.cmpi .ne (IntOp.remsi .host x 16384#32) 0#32))
      (IntOp.addi (IntOp.remsi .host x 16384#32) 16384#32) (IntOp.remsi .host x 16384#32)).toNat < 16384 := by
  rw [remsi_host]
  obtain ⟨h1, h2⟩ := srem_range x
  generalize x.srem 16384#32 = r at h1 h2
  have hI := BitVec.toInt_eq_toNat_cond r
  have hlt := r.isLt
  by_cases h : r.toInt < 0
  · have hs : r.slt 0#32 = true := by
      unfold BitVec.slt
      simpa using h
    have hne : (r != 0#32) = true := by
      rw [bne_iff_ne]
      intro h0
      rw [h0] at h
      simp at h
    have hc : IntOp.andi (IntOp.cmpi .ne (IntOp.cmpi .slt r 0#32) (IntOp.cmpi .slt 16384#32 0#32)) (IntOp.cmpi .ne r 0#32) = 1#1 := by
      simp only [IntOp.cmpi, IntOp.andi, hs, hne]
      decide
    rw [hc, ValueIdx.select_one]
    show (r + 16384#32).toNat < 16384
    rw [BitVec.toNat_add]
    have e : (16384#32 : BitVec 32).toNat = 16384 := by decide
    rw [e]
    split at hI <;> omega
  · have hs : r.slt 0#32 = false := by
      unfold BitVec.slt
      simpa using h
    have hc : IntOp.andi (IntOp.cmpi .ne (IntOp.cmpi .slt r 0#32) (IntOp.cmpi .slt 16384#32 0#32)) (IntOp.cmpi .ne r 0#32) = 0#1 := by
      simp only [IntOp.cmpi, IntOp.andi, hs]
      have : (BitVec.ofBool (BitVec.ofBool false != BitVec.ofBool (BitVec.slt 16384#32 0#32))) = 0#1 := by decide
      rw [this, BitVec.zero_and]
    rw [hc, ValueIdx.select_zero]
    split at hI <;> omega

/-- The divisor the chain divides by: the given one unless it is zero. At 16384 it is 16384. -/
theorem divisor_eq : Scalar.select (IntOp.cmpi .eq 16384#32 0#32) 1#32 (16384#32 : BitVec 32) = 16384#32 := by decide

/-- The same bound with the divisor as the chain computes it. -/
theorem floorMod_lt' (x : BitVec 32) :
    (Scalar.select
      (IntOp.andi (IntOp.cmpi .ne (IntOp.cmpi .slt (IntOp.remsi .host x (Scalar.select (IntOp.cmpi .eq 16384#32 0#32) 1#32 (16384#32 : BitVec 32))) 0#32)
          (IntOp.cmpi .slt (Scalar.select (IntOp.cmpi .eq 16384#32 0#32) 1#32 (16384#32 : BitVec 32)) 0#32))
        (IntOp.cmpi .ne (IntOp.remsi .host x (Scalar.select (IntOp.cmpi .eq 16384#32 0#32) 1#32 (16384#32 : BitVec 32))) 0#32))
      (IntOp.addi (IntOp.remsi .host x (Scalar.select (IntOp.cmpi .eq 16384#32 0#32) 1#32 (16384#32 : BitVec 32)))
        (Scalar.select (IntOp.cmpi .eq 16384#32 0#32) 1#32 (16384#32 : BitVec 32)))
      (IntOp.remsi .host x (Scalar.select (IntOp.cmpi .eq 16384#32 0#32) 1#32 (16384#32 : BitVec 32)))).toNat < 16384 := by
  rw [divisor_eq]
  exact floorMod_lt x

set_option maxHeartbeats 4000000 in
/-- The remainder chain's result, from any contents whose divisor word is 16384: every word of main_v15 is below
16384. The dividend (main_v14) is arbitrary. -/
theorem remainder_lt (W : Valuation τ sig (Elt F))
    (hd : (W (Proc.devRef .tc main_c_6) : S_.Idx → BitVec 32) = constantI S_ 32 16384#32) (k : S8192.Idx) :
    ((StableHlo.after hostOps0_9 W (Proc.devRef .tc main_v15) : S8192.Idx → BitVec 32) k).toNat < 16384 := by
  open StableHlo in after_results_simp
  rw [hd]
  exact floorMod_lt' ((W (Proc.devRef .tc main_v14) : S8192.Idx → BitVec 32) k)

/-- The divisor word after the stretch that writes it is the constant 16384. -/
theorem divisor_V9 (m : (ℓ : Loc nD τ sig) → Buf (Elt F) ℓ) (c : Dev nD) :
    (Gen.V9 m c (Proc.devRef .tc main_c_6) : S_.Idx → BitVec 32) = constantI S_ 32 16384#32 := by
  show StableHlo.after hostOps0_8 _ (Proc.devRef .tc main_c_6) = _
  open StableHlo in after_results

theorem tableRange (m : (ℓ : Loc nD τ sig) → Buf (Elt F) ℓ) (c : Dev nD) (k : S8192.Idx) :
    ((Gen.V12 m c main_v15 : S8192.Idx → BitVec 32) k).toNat < 16384 := by
  have e : Gen.V12 m c main_v15 = Gen.V10 m c main_v15 :=
    (Gen.V12_of m c main_v15 (by decide)).trans (Gen.V11_of m c main_v15 (by decide))
  rw [e]
  exact remainder_lt (Gen.V9 m c) (divisor_V9 m c) k

end Cert.KernelIdeal.Hand

end
-- ==== Proof.Ref.LibFloorMod.lean ====
/- A scalar fact about the 32-bit integer chain `jnp.remainder(·, 16384)` lowers to, stated over the machine's
   pointwise integer operations (no program is imported): the result lies in `[0, 16384)` for every word. -/
import Idealize.ShloMosaic.PureOps

namespace Cert.LibFloorMod

open Idealize.ShloMosaic

/-- The divisor 16384 is at no corner of the signed division (it is neither 0 nor −1), so the host's signed
    remainder by it is the two's-complement truncated remainder. -/
theorem remsi_host_16384 (x : BitVec 32) : IntOp.remsi .host x 16384#32 = x.srem 16384#32 := by
  unfold IntOp.remsi
  rw [if_neg]
  rintro (h | ⟨-, h⟩) <;> exact absurd h (by decide)

/-- `jnp.remainder(x, 16384)` on one 32-bit word, as the printed chain computes it: `r := x srem 16384`, then
    `r + 16384` where `r` is nonzero and its sign differs from the divisor's (the divisor is positive, so: where `r`
    is negative), else `r`. -/
def floorMod16384 (x : BitVec 32) : BitVec 32 :=
  Scalar.select
    (IntOp.andi (IntOp.cmpi .ne (IntOp.cmpi .slt (IntOp.remsi .host x 16384#32) 0#32) (IntOp.cmpi .slt 16384#32 0#32))
      (IntOp.cmpi .ne (IntOp.remsi .host x 16384#32) 0#32))
    (IntOp.addi (IntOp.remsi .host x 16384#32) 16384#32) (IntOp.remsi .host x 16384#32)

/-- A truncated remainder by 16384 lies strictly between −16384 and 16384; adding 16384 to the negative ones puts
    every result in `[0, 16384)`: read as an unsigned number, `jnp.remainder(x, 16384)` is below 16384 for every
    32-bit word `x`. -/
theorem floorMod16384_lt (x : BitVec 32) : (floorMod16384 x).toNat < 16384 := by
  unfold floorMod16384
  rw [remsi_host_16384]
  generalize hr : x.srem 16384#32 = r
  have h1 : r.toInt = x.toInt.tmod 16384 := by rw [← hr, BitVec.toInt_srem]; rfl
  have hlo : -16384 < r.toInt := by rw [h1]; exact Int.lt_tmod_of_pos _ (by decide)
  have hhi : r.toInt < 16384 := by rw [h1]; exact Int.tmod_lt_of_pos _ (by decide)
  have hcond := BitVec.toInt_eq_toNat_cond r
  have hlt := r.isLt
  have hN : IntOp.cmpi .slt 16384#32 0#32 = 0#1 := by decide
  rw [hN]
  show (Scalar.select (IntOp.andi (BitVec.ofBool (BitVec.ofBool (r.slt 0#32) != 0#1)) (BitVec.ofBool (r != 0#32)))
    (r + 16384#32) r).toNat < 16384
  by_cases hneg : r.toInt < 0
  · have e1 : r.slt 0#32 = true := by
      rw [BitVec.slt_eq_decide, BitVec.toInt_zero]; exact decide_eq_true hneg
    have e2 : (r != 0#32) = true := by
      rw [bne_iff_ne]; intro h; rw [h, BitVec.toInt_zero] at hneg; exact absurd hneg (by decide)
    rw [e1, e2]
    have hc : IntOp.andi (BitVec.ofBool (BitVec.ofBool true != 0#1)) (BitVec.ofBool true) = 1#1 := by decide
    rw [hc]
    show (r + 16384#32).toNat < 16384
    rw [BitVec.toNat_add]
    have : (16384#32).toNat = 16384 := by decide
    rw [this]
    split at hcond <;> omega
  · have e1 : r.slt 0#32 = false := by
      rw [BitVec.slt_eq_decide, BitVec.toInt_zero]; exact decide_eq_false hneg
    rw [e1]
    have hc : ∀ y : BitVec 1, IntOp.andi (BitVec.ofBool (BitVec.ofBool false != 0#1)) y = 0#1 := by decide
    rw [hc]
    show r.toNat < 16384
    split at hcond <;> omega

end Cert.LibFloorMod
-- ==== Proof.Ref.Read.lean ====
/- The reference's result read at an index: the selected row indices lie below 16384, so each gathered weight row is the
   row the index names (the fill value of the take is never read), and the result at `(t, k)` is the sum over the 4096
   columns of the data row's entries times the gathered row's, plus the gathered bias. -/
import proofs.«172148_j16612933501330_2_alg».proof.Proof.Ref.Run
import proofs.«172148_j16612933501330_2_alg».proof.Proof.Ref.LibFloorMod
import Idealize.ShloMosaic.Lib.ValueIdx
import Idealize.ShloMosaic.Lib.IdealHost
import Idealize.ShloMosaic.Lib.Affine
import Idealize.ShloMosaic.Lib.Pipeline.Value
import Idealize.ShloMosaic.PureOps.Ideal.Laws
import Idealize.ShloMosaic.PureOps.Reduce

noncomputable section

open scoped BigOperators

namespace Cert.ReferenceIdeal.Hand

open Cert.ReferenceIdeal Cert.ReferenceIdeal.Gen Idealize.ShloMosaic Idealize.ShloMosaic.ValueIdx

/-! ## The selected indices lie in `[0, 16384)` -/

/-- `jnp.remainder(q, 16384)` read at an index is the scalar chain on that element: the divisor's broadcast reads 16384
    everywhere, and every operation of the chain is elementwise. -/
theorem remN_apply (q : IVec S8192 32) (k : S8192.Idx) : remN q k = Cert.LibFloorMod.floorMod16384 (q k) := rfl

/-- Every selected row index is below 16384 (read unsigned; hence also nonnegative read signed). -/
theorem idxR_lt (msk : Vec Ideal S16384 .i32) (k : S8192.Idx) : ((idxR msk) k).toNat < 16384 := by
  show (remN _ k).toNat < 16384
  rw [remN_apply]
  exact Cert.LibFloorMod.floorMod16384_lt _

/-! ## The take of the weight rows, read at an index -/

/-- The row gather read at `(k, i)`: the operand's row at the start index `idx[k, 0]`, read signed and clamped into
    `[0, 16383]`, at column `i`. -/
theorem gather_rows_apply {α : Type} (x : S16384x4096.Idx → α) (idx : IVec S8192x1 32) (k : Fin 8192) (i : Fin 4096) :
    Host.gather gather_S16384x4096_S8192x1_S8192x4096_1_0_n_n_0_1_14096 x idx (ix2 k i)
      = x (ix2 ⟨min (idx (ix2 k 0)).toInt.toNat (16384 - 1), by omega⟩ i) := by
  unfold Host.gather
  congr 1
  funext a
  refine Fin.ext ?_
  match a with
  | ⟨0, _⟩ =>
    show gather_S16384x4096_S8192x1_S8192x4096_1_0_n_n_0_1_14096.start (ix2 k i) idx 0
        + gather_S16384x4096_S8192x1_S8192x4096_1_0_n_n_0_1_14096.batchCoord (ix2 k i) 0
        + gather_S16384x4096_S8192x1_S8192x4096_1_0_n_n_0_1_14096.offCoord (ix2 k i) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S16384x4096_S8192x1_S8192x4096_1_0_n_n_0_1_14096.startIndexMap from
      List.mem_singleton.mpr rfl)]
    have hsi : gather_S16384x4096_S8192x1_S8192x4096_1_0_n_n_0_1_14096.siIdx (ix2 k i)
        ⟨List.idxOf (0 : Fin 2) gather_S16384x4096_S8192x1_S8192x4096_1_0_n_n_0_1_14096.startIndexMap,
          List.idxOf_lt_length_iff.2 (List.mem_singleton.mpr rfl)⟩ = ix2 k 0 := by
      funext b; refine Fin.ext ?_
      match b with
      | ⟨0, _⟩ => rfl
      | ⟨1, _⟩ => rfl
    rw [hsi]
    rfl
  | ⟨1, _⟩ =>
    show gather_S16384x4096_S8192x1_S8192x4096_1_0_n_n_0_1_14096.start (ix2 k i) idx 1
        + gather_S16384x4096_S8192x1_S8192x4096_1_0_n_n_0_1_14096.batchCoord (ix2 k i) 1
        + gather_S16384x4096_S8192x1_S8192x4096_1_0_n_n_0_1_14096.offCoord (ix2 k i) 1 = i.val
    rw [GatherDims.batchCoord_eq_zero _ _ _ List.not_mem_nil]
    have hs : gather_S16384x4096_S8192x1_S8192x4096_1_0_n_n_0_1_14096.start (ix2 k i) idx 1 = 0 := by
      unfold GatherDims.start
      rw [dif_neg (show (1 : Fin 2) ∉ gather_S16384x4096_S8192x1_S8192x4096_1_0_n_n_0_1_14096.startIndexMap by decide)]
    rw [hs]
    simp only [Nat.zero_add, Nat.add_zero]
    unfold GatherDims.offCoord
    rw [dif_pos ((GatherDims.mem_sKept _ _).mpr ⟨by decide, List.not_mem_nil⟩)]
    rfl

/-! ## Words and folds -/

/-- A left fold by `and` from 1 over words that are all 1 is 1. -/
theorem foldl_andi_one {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hf => by
    rw [List.foldl_cons]
    exact foldl_andi_one f l _ (IntOp.andi_eq_one.mpr ⟨h, hf a List.mem_cons_self⟩)
      (fun n hn => hf n (List.mem_cons_of_mem _ hn))

/-- A reduce by `and`, from an initial value 1, of an array that is 1 everywhere is 1 everywhere. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1) (hx : ∀ i, x i = 1#1) :
    Host.reduce IntOp.andi x init h hu j = 1#1 := by
  rw [Host.reduce_eq_foldl]
  exact foldl_andi_one x _ _ hinit (fun i _ => hx i)

/-- A word whose unsigned reading is below 16384 reads the same signed. -/
theorem toInt_of_lt {v : BitVec 32} (h : v.toNat < 16384) : v.toInt = v.toNat :=
  BitVec.toInt_eq_toNat_of_lt (by omega)

/-! ## The wrapped index of the take -/

/-- The take's index operand: a negative index wrapped by 16384, as a column. -/
abbrev wrapCol (ix : IVec S8192 32) : IVec S8192x1 32 :=
  broadcastInDim S8192x1 ![0] bcast_S8192_S8192x1_0 (select (cmpi .slt ix (broadcastInDim S8192 ![] bcast_S_S8192 (constantI S_ 32 0#32))) (addi ix (broadcastInDim S8192 ![] bcast_S_S8192 (constantI S_ 32 16384#32))) ix)

/-- Indices already in `[0, 16384)` are not wrapped: the column reads the index of its row. -/
theorem wrapCol_apply (ix : IVec S8192 32) (hix : ∀ k, (ix k).toNat < 16384) (k : Fin 8192) (c : Fin 1) :
    wrapCol ix (ix2 k c) = ix (ix1 k) := by
  unfold wrapCol
  rw [broadcastInDim_apply _ _ _ (ix2 k c) (ix1 k) (fun a => by match a with | ⟨0, _⟩ => rfl), select_apply]
  have h0 : cmpi .slt ix (broadcastInDim S8192 ![] bcast_S_S8192 (constantI S_ 32 0#32)) (ix1 k) = 0#1 := by
    show IntOp.cmpi .slt (ix (ix1 k)) 0#32 = 0#1
    refine eq_zero_of_ne_one fun h => ?_
    rw [IntOp.cmpi_slt, toInt_of_lt (hix _), BitVec.toInt_zero] at h
    omega
  rw [h0, select_zero]

/-- With every index in `[0, 16384)` the take's in-bounds mask is 1 in every row. -/
theorem inBounds_one (ix : IVec S8192 32) (hix : ∀ k, (ix k).toNat < 16384) (k : S8192.Idx) :
    Host.reduce IntOp.andi (andi (cmpi .sge (wrapCol ix) (broadcastInDim S8192x1 ![] bcast_S_S8192x1 (constantI S_ 32 0#32))) (cmpi .sle (wrapCol ix) (broadcastInDim S8192x1 ![0, 1] bcast_S1x1_S8192x1_0_1 (broadcastInDim S1x1 ![1] bcast_S1_S1x1_1 (constantI S1 32 16383#32))))) (constantI S_ 1 1#1) reducesTo_S8192x1_S8192_d1 h_S_ k = 1#1 := by
  refine reduce_andi_one _ _ _ _ _ rfl fun i => ?_
  obtain ⟨a, c, rfl⟩ : ∃ (a : Fin 8192) (c : Fin 1), i = ix2 a c := ⟨i 0, i 1, eq_ix2 i⟩
  show IntOp.andi (IntOp.cmpi .sge (wrapCol ix (ix2 a c)) 0#32) (IntOp.cmpi .sle (wrapCol ix (ix2 a c)) 16383#32) = 1#1
  rw [wrapCol_apply ix hix, IntOp.andi_eq_one, IntOp.cmpi_sge, IntOp.cmpi_sle, toInt_of_lt (hix _), BitVec.toInt_zero]
  have h16 : (16383#32 : BitVec 32).toInt = 16383 := by decide
  rw [h16]
  have := hix (ix1 a)
  omega

/-- THE TAKE OF THE ROWS READ AT `(k, i)`: with every index in `[0, 16384)`, the weight row the index names, at column `i`
    (the fill value is never read). -/
theorem takeRows_apply (w : Vec Ideal S16384x4096 .f32) (ix : IVec S8192 32) (hix : ∀ k, (ix k).toNat < 16384)
    (k : Fin 8192) (i : Fin 4096) :
    takeRows w ix (ix2 k i) = w (ix2 ⟨(ix (ix1 k)).toNat, hix _⟩ i) := by
  show Scalar.select (broadcastInDim (s := S8192) S8192x4096 ![0] bcast_S8192_S8192x4096_0 _ (ix2 k i))
    (Host.gather gather_S16384x4096_S8192x1_S8192x4096_1_0_n_n_0_1_14096 w (wrapCol ix) (ix2 k i)) _ = _
  rw [broadcastInDim_apply _ _ _ (ix2 k i) (ix1 k) (fun a => by match a with | ⟨0, _⟩ => rfl), inBounds_one ix hix,
    select_one, gather_rows_apply]
  refine congrArg (fun r => w (ix2 r i)) (Fin.ext ?_)
  show min (wrapCol ix (ix2 k 0)).toInt.toNat (16384 - 1) = (ix (ix1 k)).toNat
  rw [wrapCol_apply ix hix k 0, toInt_of_lt (hix _), Int.toNat_natCast]
  have := hix (ix1 k)
  omega

/-! ## The product and the bias, read at an index -/

/-- The data times the transposed gathered rows (both contracted on their columns), read at an index, at the ideal values. -/
theorem dot_rows_apply (A B : FVec Ideal S8192x4096 .f32) (a b : Fin 8192) :
    Host.dotGeneral dot_S8192x4096_S8192x4096_S8192x8192_1_1_0_0_n_n none A B (ix2 a b)
      = ∑ c : Fin 4096, A (ix2 a c) * B (ix2 b c) := by
  show FloatOps.dotGeneral _ none _ A B (ix2 a b) = _
  rw [Ideal.dotGeneral_apply,
    ← Equiv.sum_comp (contrEquiv1 dot_S8192x4096_S8192x4096_S8192x8192_1_1_0_0_n_n 4096 rfl rfl).symm]
  refine Finset.sum_congr rfl fun c _ => ?_
  have c2 := contrEquiv1_symm_val dot_S8192x4096_S8192x4096_S8192x8192_1_1_0_0_n_n 4096 rfl rfl c
  have l2 : dot_S8192x4096_S8192x4096_S8192x8192_1_1_0_0_n_n.lhsIdx (ix2 a b) ((contrEquiv1 _ 4096 rfl rfl).symm c) = ix2 a c := by
    funext ax; apply Fin.ext
    match ax with
    | ⟨0, _⟩ => simp [DotDims.lhsIdx, dot_S8192x4096_S8192x4096_S8192x8192_1_1_0_0_n_n]; rfl
    | ⟨1, _⟩ => simp [DotDims.lhsIdx, dot_S8192x4096_S8192x4096_S8192x8192_1_1_0_0_n_n]; exact c2
  have r2 : dot_S8192x4096_S8192x4096_S8192x8192_1_1_0_0_n_n.rhsIdx (ix2 a b) ((contrEquiv1 _ 4096 rfl rfl).symm c) = ix2 b c := by
    funext ax; apply Fin.ext
    match ax with
    | ⟨0, _⟩ => simp [DotDims.rhsIdx, dot_S8192x4096_S8192x4096_S8192x8192_1_1_0_0_n_n]; rfl
    | ⟨1, _⟩ => simp [DotDims.rhsIdx, dot_S8192x4096_S8192x4096_S8192x8192_1_1_0_0_n_n]; exact c2
  rw [l2, r2]

/-- THE REFERENCE'S RESULT READ AT `(t, k)`: the sum over the 4096 columns of the data row `t` times the weight row the
    `k`-th selected index names, plus the `k`-th gathered bias. -/
theorem outR_apply (d : Vec Ideal S8192x4096 .f32) (w : Vec Ideal S16384x4096 .f32) (b : Vec Ideal S16384 .f32)
    (msk : Vec Ideal S16384 .i32) (t k : Fin 8192) :
    outR d w b msk (ix2 t k)
      = (∑ i : Fin 4096, d (ix2 t i) * w (ix2 ⟨((idxR msk) (ix1 k)).toNat, idxR_lt msk _⟩ i)) + biasR b msk (ix1 k) := by
  unfold outR gemmBias
  rw [addf_apply, dot_rows_apply,
    broadcastInDim_apply _ _ _ (ix2 t k) (ix2 (0 : Fin 1) k) (fun a => by match a with | ⟨0, _⟩ => rfl | ⟨1, _⟩ => rfl),
    broadcastInDim_apply _ _ _ (ix2 (0 : Fin 1) k) (ix1 k) (fun a => by match a with | ⟨0, _⟩ => rfl)]
  congr 1
  refine Finset.sum_congr rfl fun i _ => ?_
  unfold rowsR
  rw [takeRows_apply w (idxR msk) (idxR_lt msk) k i]

end Cert.ReferenceIdeal.Hand

end
-- ==== Proof.KI.Bridge.lean ====
/- The pointwise bridge between the kernel program's two specifications and the reference's result: the gathered-rows
   array at the reference's selected indices, multiplied against the activations and offset by the reference's gathered
   bias, is the reference's result array. -/
import proofs.«172148_j16612933501330_2_alg».proof.Proof.KI.GemmValue
import proofs.«172148_j16612933501330_2_alg».proof.Proof.KI.GatherSpec
import proofs.«172148_j16612933501330_2_alg».proof.Proof.Ref.Read

noncomputable section

open scoped BigOperators

namespace Cert.KernelIdeal.Hand

open Cert.KernelIdeal Idealize.ShloMosaic Idealize.ShloMosaic.ValueIdx

/-- THE BRIDGE: the product specification of the activations, of the rows the reference's selected indices gather from
    the weights, and of a row holding the reference's gathered bias, is the reference's result — entry by entry both are
    the sum over the 4096 columns of the data row times the selected weight row, plus the selected bias. -/
theorem bridge (d : Vec Ideal S8192x4096 .f32) (w : Vec Ideal S16384x4096 .f32) (b : Vec Ideal S16384 .f32)
    (msk : Vec Ideal S16384 .i32) (A B : S8192x4096.Idx → EReal) (bb : S1x8192.Idx → EReal)
    (hA : ∀ j, A j = d j)
    (hB : B = gG w (Cert.ReferenceIdeal.Hand.idxR msk) (Cert.ReferenceIdeal.Hand.idxR_lt msk))
    (hbb : ∀ k : Fin 8192, bb (ix2 (0 : Fin 1) k) = Cert.ReferenceIdeal.Hand.biasR b msk (ix1 k)) :
    mmG A B bb = Cert.ReferenceIdeal.Hand.outR d w b msk := by
  funext j
  obtain ⟨t, k, rfl⟩ : ∃ (t k : Fin 8192), j = ix2 t k := ⟨j 0, j 1, eq_ix2 j⟩
  rw [mmG_apply, Cert.ReferenceIdeal.Hand.outR_apply, hbb]
  refine congrArg (· + Cert.ReferenceIdeal.Hand.biasR b msk (ix1 k)) (Finset.sum_congr rfl fun i _ => ?_)
  rw [hA, hB, gG_apply]

end Cert.KernelIdeal.Hand

end
-- ==== Proof.KI.Value.lean ====
/-
  The kernel program's result as a function of its arguments, at the exact reals: the selected rows are the weight rows
  the index table names (the table is the reference's index vector: the same operations on the mask), the activations pass
  the cast unchanged, the bias row is the reference's selected bias; so the product-plus-bias array is the reference's result.
-/
import proofs.«172148_j16612933501330_2_alg».proof.Proof.KI.Run
import proofs.«172148_j16612933501330_2_alg».proof.Proof.KI.GemmValue
import proofs.«172148_j16612933501330_2_alg».proof.Proof.KI.GatherFinal
import proofs.«172148_j16612933501330_2_alg».proof.Proof.KI.HostReads
import proofs.«172148_j16612933501330_2_alg».proof.Proof.KI.HostChain
import proofs.«172148_j16612933501330_2_alg».proof.Proof.KI.TableRange
import proofs.«172148_j16612933501330_2_alg».proof.Proof.KI.Bridge

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

/-- Every word of the index table, as the first region finds it, is below 16384. -/
theorem tblOk : TblOk (V12 (F := Ideal) m) := fun c k => tableRange m c k

/-- The gathered-rows array depends on the table only through its words. -/
theorem gG_congr (w : S16384x4096.Idx → EReal) (tb tb' : S8192.Idx → BitVec 32) (h : tb = tb')
    (htb : ∀ k : S8192.Idx, (tb k).toNat < 16384) (htb' : ∀ k : S8192.Idx, (tb' k).toNat < 16384) :
    gG w tb htb = gG w tb' htb' := by
  subst h; rfl

theorem gG_congr_w (w w' : S16384x4096.Idx → EReal) (h : w = w') (tb : S8192.Idx → BitVec 32)
    (htb : ∀ k : S8192.Idx, (tb k).toNat < 16384) : gG w tb htb = gG w' tb htb := by
  subst h; rfl

/-- The activations reach the second region unchanged (the cast is the identity at the exact reals). -/
theorem acts_eq (c : Dev nD) (j : S8192x4096.Idx) :
    (V14 m (tblOk m) c main_v19 : S8192x4096.Idx → EReal) j = (m ((c : Thread nD τ).loc main_arg0) : S8192x4096.Idx → EReal) j := by
  show (StableHlo.after (hostOps1 (F := Ideal)) (W13 m (tblOk m) c) (Proc.devRef .tc main_v19) : S8192x4096.Idx → EReal) j = _
  rw [Cert.KernelIdeal.Hand.cast_eq]
  rw [W13_of_ne m (tblOk m) c main_arg0 (by decide)]
  rw [W12_of m c main_arg0 (by decide) (by decide) (by decide) (by decide) (by decide) (by decide) (by decide) (by decide) (by decide) (by decide) (by decide) (by decide)]

/-- The selected rows the second region reads are the weight rows the reference's index vector names. -/
theorem rows_eq (c : Dev nD) :
    (V14 m (tblOk m) c main_v18 : S8192x4096.Idx → EReal)
      = gG (m ((c : Thread nD τ).loc main_arg1)) (Cert.ReferenceIdeal.Hand.idxR (m ((c : Thread nD τ).loc main_arg3)))
          (Cert.ReferenceIdeal.Hand.idxR_lt _) := by
  obtain rfl : c = 0 := Subsingleton.elim _ _
  show (StableHlo.after (hostOps1 (F := Ideal)) (W13 m (tblOk m) 0) (Proc.devRef .tc main_v18) : S8192x4096.Idx → EReal) = _
  rw [StableHlo.after_of_writes_sub hostOps1 _ hostOps1_writes (by decide : main_v18 ∉ hostOps1_W)]
  refine ((show W13 m (tblOk m) 0 (Proc.devRef .tc main_v18) = (gDat (V12 m) (tblOk m) 0).arrAt 0 (gCfg (V12 m)).N from
    W13_arr m (tblOk m) 0 0).trans (gFinal (V12 m) (tblOk m) 0)).trans ?_
  refine (gG_congr_w _ _ ?_ _ _).trans (gG_congr _ _ _ ?_ _ _)
  · exact W12_of m 0 main_arg1 (by decide) (by decide) (by decide) (by decide) (by decide) (by decide) (by decide) (by decide) (by decide) (by decide) (by decide) (by decide)
  · exact V12_v15 m 0

/-- The bias row the second region reads is the reference's selected bias. -/
theorem bias_eq (c : Dev nD) (k : Fin 8192) :
    (V14 m (tblOk m) c main_v17 : S1x8192.Idx → EReal) (ix2 (0 : Fin 1) k)
      = Cert.ReferenceIdeal.Hand.biasR (m ((c : Thread nD τ).loc main_arg2)) (m ((c : Thread nD τ).loc main_arg3)) (ix1 k) := by
  show (StableHlo.after (hostOps1 (F := Ideal)) (W13 m (tblOk m) c) (Proc.devRef .tc main_v17) : S1x8192.Idx → EReal) (ix2 (0 : Fin 1) k) = _
  rw [StableHlo.after_of_writes_sub hostOps1 _ hostOps1_writes (by decide : main_v17 ∉ hostOps1_W)]
  rw [W13_of_ne m (tblOk m) c main_v17 (by decide)]
  show (StableHlo.after (hostOps0_11 (F := Ideal)) (W11 m c) (Proc.devRef .tc main_v17) : S1x8192.Idx → EReal) (ix2 (0 : Fin 1) k) = _
  rw [biasRow_apply]
  show (Gen.V11 m c main_v16 : S8192.Idx → EReal) (ix1 k) = _
  rw [V11_v16]
  rfl

/-- The kernel program's result buffer after the run is the reference's result of the same arguments. -/
theorem kernel_out (c : Dev nD) :
    W15 m (tblOk m) c (Proc.devRef .tc main_v20)
      = Cert.ReferenceIdeal.Hand.outR (m ((c : Thread nD τ).loc main_arg0)) (m ((c : Thread nD τ).loc main_arg1))
          (m ((c : Thread nD τ).loc main_arg2)) (m ((c : Thread nD τ).loc main_arg3)) := by
  rw [W15_main_v20, mmFinal]
  exact bridge _ _ _ _ _ _ _ (acts_eq m c) (rows_eq m c) (bias_eq m c)

end Cert.KernelIdeal.Hand

end
-- ==== Proof.lean ====
/-
  The certificate of the mask-selected linear layer. The kernel program gathers the 8192 weight rows that the mask's
  nonzero positions name — by 128 asynchronous row copies per grid point, the rows read from an index table computed on
  the host, every index below 16384 because it is a remainder modulo 16384 — and multiplies the activations by their
  transpose block by block, adding the selected bias; the reference takes the same rows and bias by index and contracts
  once. Over the exact reals both are, entry (t, k), the sum over the 4096 features of activation (t, i) times weight
  (index k, i), plus bias (index k): the same finite sum, so no algebraic law and no finiteness of the inputs is needed.
  Frames: each program runs to the end, faults nowhere (every copied row lies inside the weight array) and leaves its
  arguments unchanged. The idealization rewrote nothing, so its statement is `True`.
-/
import proofs.«172148_j16612933501330_2_alg».proof.Defs
import proofs.«172148_j16612933501330_2_alg».proof.Proof.Gen.Kernel
import proofs.«172148_j16612933501330_2_alg».proof.Proof.Gen.KernelIdeal
import proofs.«172148_j16612933501330_2_alg».proof.Proof.Gen.ReferenceIdeal
import proofs.«172148_j16612933501330_2_alg».proof.Proof.Gen.Pre_finite_inputs
import proofs.«172148_j16612933501330_2_alg».proof.Proof.K.Run
import proofs.«172148_j16612933501330_2_alg».proof.Proof.K.TableRange
import proofs.«172148_j16612933501330_2_alg».proof.Proof.KI.Value
import proofs.«172148_j16612933501330_2_alg».proof.Proof.Ref.Read
import Idealize.ShloMosaic.Adequacy
import Idealize.ShloMosaic.Init

noncomputable section

namespace Cert.Proof

open Idealize.ShloMosaic Idealize.SL.Sem

/-- The word-level kernel program runs and keeps its arguments: the run through both regions, read at the arguments. -/
theorem frame_k : Cert.frame_Kernel (hKernel := Cert.Kernel.Gen.facts) (hPre_finite_inputs := Cert.Pre_finite_inputs.Gen.facts) :=
  fun m ρ _ =>
    (θ_run (Cert.Kernel.defs (F := Bits)) _ _).mono
      (fun r h c => ⟨(h c _ (Cert.Kernel.Hand.mem_uc Cert.Kernel.main_arg0 (by decide))).trans (Cert.Kernel.Hand.W15_main_arg0 m (fun c k => Cert.Kernel.Hand.tableRange m c k) c),
        (h c _ (Cert.Kernel.Hand.mem_uc Cert.Kernel.main_arg1 (by decide))).trans (Cert.Kernel.Hand.W15_main_arg1 m (fun c k => Cert.Kernel.Hand.tableRange m c k) c),
        (h c _ (Cert.Kernel.Hand.mem_uc Cert.Kernel.main_arg2 (by decide))).trans (Cert.Kernel.Hand.W15_main_arg2 m (fun c k => Cert.Kernel.Hand.tableRange m c k) c),
        (h c _ (Cert.Kernel.Hand.mem_uc Cert.Kernel.main_arg3 (by decide))).trans (Cert.Kernel.Hand.W15_main_arg3 m (fun c k => Cert.Kernel.Hand.tableRange m c k) c)⟩)
      (Cert.Kernel.Hand.run_all m (fun c k => Cert.Kernel.Hand.tableRange m c k) ρ)

/-- The same for the idealized kernel program. -/
theorem frame_ki : Cert.frame_KernelIdeal (hKernelIdeal := Cert.KernelIdeal.Gen.facts) (hPre_finite_inputs := Cert.Pre_finite_inputs.Gen.facts) :=
  fun m ρ _ =>
    (θ_run (Cert.KernelIdeal.defs (F := Ideal)) _ _).mono
      (fun r h c => ⟨(h c _ (Cert.KernelIdeal.Hand.mem_uc Cert.KernelIdeal.main_arg0 (by decide))).trans (Cert.KernelIdeal.Hand.W15_main_arg0 m (Cert.KernelIdeal.Hand.tblOk m) c),
        (h c _ (Cert.KernelIdeal.Hand.mem_uc Cert.KernelIdeal.main_arg1 (by decide))).trans (Cert.KernelIdeal.Hand.W15_main_arg1 m (Cert.KernelIdeal.Hand.tblOk m) c),
        (h c _ (Cert.KernelIdeal.Hand.mem_uc Cert.KernelIdeal.main_arg2 (by decide))).trans (Cert.KernelIdeal.Hand.W15_main_arg2 m (Cert.KernelIdeal.Hand.tblOk m) c),
        (h c _ (Cert.KernelIdeal.Hand.mem_uc Cert.KernelIdeal.main_arg3 (by decide))).trans (Cert.KernelIdeal.Hand.W15_main_arg3 m (Cert.KernelIdeal.Hand.tblOk m) c)⟩)
      (Cert.KernelIdeal.Hand.run_all m (Cert.KernelIdeal.Hand.tblOk m) ρ)

/-- The reference runs and keeps its arguments. -/
theorem frame_ri : Cert.frame_ReferenceIdeal (hReferenceIdeal := Cert.ReferenceIdeal.Gen.facts) (hPre_finite_inputs := Cert.Pre_finite_inputs.Gen.facts) :=
  fun m ρ _ => Cert.ReferenceIdeal.Hand.frame_ri' m ρ

/-- Both idealized programs end with the reference's result term of the (agreeing) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Hand.outR (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · exact (θ_run (Cert.KernelIdeal.defs (F := Ideal)) _ _).mono
      (fun r h c => ⟨(h c _ (Cert.KernelIdeal.Hand.mem_uc Cert.KernelIdeal.main_v20 (by decide))).trans (Cert.KernelIdeal.Hand.kernel_out m c),
        (h c _ (Cert.KernelIdeal.Hand.mem_uc Cert.KernelIdeal.main_arg0 (by decide))).trans (Cert.KernelIdeal.Hand.W15_main_arg0 m (Cert.KernelIdeal.Hand.tblOk m) c),
        (h c _ (Cert.KernelIdeal.Hand.mem_uc Cert.KernelIdeal.main_arg1 (by decide))).trans (Cert.KernelIdeal.Hand.W15_main_arg1 m (Cert.KernelIdeal.Hand.tblOk m) c),
        (h c _ (Cert.KernelIdeal.Hand.mem_uc Cert.KernelIdeal.main_arg2 (by decide))).trans (Cert.KernelIdeal.Hand.W15_main_arg2 m (Cert.KernelIdeal.Hand.tblOk m) c),
        (h c _ (Cert.KernelIdeal.Hand.mem_uc Cert.KernelIdeal.main_arg3 (by decide))).trans (Cert.KernelIdeal.Hand.W15_main_arg3 m (Cert.KernelIdeal.Hand.tblOk m) c)⟩)
      (Cert.KernelIdeal.Hand.run_all m (Cert.KernelIdeal.Hand.tblOk m) ρ)
  · exact (θ_run (Cert.ReferenceIdeal.defs (F := Ideal)) _ _).mono
      (fun r h c => ⟨by rw [(h c).1, (hagree c).1, (hagree c).2.1, (hagree c).2.2.1, (hagree c).2.2.2],
        (h c).2.1, (h c).2.2.1, (h c).2.2.2.1, (h c).2.2.2.2⟩)
      (Cert.ReferenceIdeal.Hand.run m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
